-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v61)) (v3 : (c : Dev Cert.KernelIdeal.nD) → Buf (Elt Ideal) ((c.tc : Thread Cert.KernelIdeal.nD Cert.KernelIdeal.τ).loc Cert.KernelIdeal.main_v75)) (v4 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_v9_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v201) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x28x28 : Shape := ⟨4, ![4096, 1, 28, 28]⟩
abbrev S400x784 : Shape := ⟨2, ![400, 784]⟩
abbrev S400 : Shape := ⟨1, ![400]⟩
abbrev S200x400 : Shape := ⟨2, ![200, 400]⟩
abbrev S200 : Shape := ⟨1, ![200]⟩
abbrev S50x200 : Shape := ⟨2, ![50, 200]⟩
abbrev S50 : Shape := ⟨1, ![50]⟩
abbrev S2x50 : Shape := ⟨2, ![2, 50]⟩
abbrev S2 : Shape := ⟨1, ![2]⟩
abbrev S50x2 : Shape := ⟨2, ![50, 2]⟩
abbrev S200x50 : Shape := ⟨2, ![200, 50]⟩
abbrev S400x200 : Shape := ⟨2, ![400, 200]⟩
abbrev S784x400 : Shape := ⟨2, ![784, 400]⟩
abbrev S784 : Shape := ⟨1, ![784]⟩
abbrev S_ : Shape := ⟨0, ![]⟩

class Facts : Prop where
  bcast_S_S4096x1x28x28 : S_.BroadcastsInDim S4096x1x28x28 (![] : Fin 0 → Fin S4096x1x28x28.rank)
  reducesTo_S4096x1x28x28_S_d0_1_2_3 : S4096x1x28x28.ReducesTo [0, 1, 2, 3] S_
  h_S_ : 0 < S_.numel
  bcast_S_S400x784 : S_.BroadcastsInDim S400x784 (![] : Fin 0 → Fin S400x784.rank)
  reducesTo_S400x784_S_d0_1 : S400x784.ReducesTo [0, 1] S_
  bcast_S_S400 : S_.BroadcastsInDim S400 (![] : Fin 0 → Fin S400.rank)
  reducesTo_S400_S_d0 : S400.ReducesTo [0] S_
  bcast_S_S200x400 : S_.BroadcastsInDim S200x400 (![] : Fin 0 → Fin S200x400.rank)
  reducesTo_S200x400_S_d0_1 : S200x400.ReducesTo [0, 1] S_
  bcast_S_S200 : S_.BroadcastsInDim S200 (![] : Fin 0 → Fin S200.rank)
  reducesTo_S200_S_d0 : S200.ReducesTo [0] S_
  bcast_S_S50x200 : S_.BroadcastsInDim S50x200 (![] : Fin 0 → Fin S50x200.rank)
  reducesTo_S50x200_S_d0_1 : S50x200.ReducesTo [0, 1] S_
  bcast_S_S50 : S_.BroadcastsInDim S50 (![] : Fin 0 → Fin S50.rank)
  reducesTo_S50_S_d0 : S50.ReducesTo [0] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_
  bcast_S_S50x2 : S_.BroadcastsInDim S50x2 (![] : Fin 0 → Fin S50x2.rank)
  reducesTo_S50x2_S_d0_1 : S50x2.ReducesTo [0, 1] S_
  bcast_S_S200x50 : S_.BroadcastsInDim S200x50 (![] : Fin 0 → Fin S200x50.rank)
  reducesTo_S200x50_S_d0_1 : S200x50.ReducesTo [0, 1] S_
  bcast_S_S400x200 : S_.BroadcastsInDim S400x200 (![] : Fin 0 → Fin S400x200.rank)
  reducesTo_S400x200_S_d0_1 : S400x200.ReducesTo [0, 1] S_
  bcast_S_S784x400 : S_.BroadcastsInDim S784x400 (![] : Fin 0 → Fin S784x400.rank)
  reducesTo_S784x400_S_d0_1 : S784x400.ReducesTo [0, 1] S_
  bcast_S_S784 : S_.BroadcastsInDim S784 (![] : Fin 0 → Fin S784.rank)
  reducesTo_S784_S_d0 : S784.ReducesTo [0] S_

variable [Facts]

def fn_part4 {F : FTy → Type} [FloatOps F] (main_arg14 : FVec F S400 .f32) (main_arg15 : FVec F S784x400 .f32) (main_arg16 : FVec F S784 .f32) (main_v63 : IVec S_ 1) (main_v67 : IVec S_ 1) : IVec S_ 1 :=
  let main_v68 : IVec S_ 1 := andi main_v63 main_v67
  let main_v69 : FVec F S400 .f32 := Host.absf main_arg14
  let main_cst_26 : FVec F S_ .f32 := constant S_ .f32 0x7F800000#32
  let main_v70 : FVec F S400 .f32 := broadcastInDim S400 ![] bcast_S_S400 main_cst_26
  let main_v71 : IVec S400 1 := cmpf .olt main_v69 main_v70
  let main_c_27 : IVec S_ 1 := constantI S_ 1 1#1
  let main_v72 : IVec S_ 1 := (fun x v => Host.reduce IntOp.andi x v reducesTo_S400_S_d0 h_S_) main_v71 main_c_27
  let main_v73 : IVec S_ 1 := andi main_v68 main_v72
  let main_v74 : FVec F S784x400 .f32 := Host.absf main_arg15
  let main_cst_28 : FVec F S_ .f32 := constant S_ .f32 0x7F800000#32
  let main_v75 : FVec F S784x400 .f32 := broadcastInDim S784x400 ![] bcast_S_S784x400 main_cst_28
  let main_v76 : IVec S784x400 1 := cmpf .olt main_v74 main_v75
  let main_c_29 : IVec S_ 1 := constantI S_ 1 1#1
  let main_v77 : IVec S_ 1 := (fun x v => Host.reduce IntOp.andi x v reducesTo_S784x400_S_d0_1 h_S_) main_v76 main_c_29
  let main_v78 : IVec S_ 1 := andi main_v73 main_v77
  let main_v79 : FVec F S784 .f32 := Host.absf main_arg16
  let main_cst_30 : FVec F S_ .f32 := constant S_ .f32 0x7F800000#32
  let main_v80 : FVec F S784 .f32 := broadcastInDim S784 ![] bcast_S_S784 main_cst_30
  let main_v81 : IVec S784 1 := cmpf .olt main_v79 main_v80
  let main_c_31 : IVec S_ 1 := constantI S_ 1 1#1
  let main_v82 : IVec S_ 1 := (fun x v => Host.reduce IntOp.andi x v reducesTo_S784_S_d0 h_S_) main_v81 main_c_31
  let main_v83 : IVec S_ 1 := andi main_v78 main_v82
  main_v83

def fn_part3 {F : FTy → Type} [FloatOps F] (main_arg11 : FVec F S200x50 .f32) (main_arg12 : FVec F S200 .f32) (main_arg13 : FVec F S400x200 .f32) (main_arg14 : FVec F S400 .f32) (main_arg15 : FVec F S784x400 .f32) (main_arg16 : FVec F S784 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S200x50 .f32 := Host.absf main_arg11
  let main_cst_20 : FVec F S_ .f32 := constant S_ .f32 0x7F800000#32
  let main_v55 : FVec F S200x50 .f32 := broadcastInDim S200x50 ![] bcast_S_S200x50 main_cst_20
  let main_v56 : IVec S200x50 1 := cmpf .olt main_v54 main_v55
  let main_c_21 : IVec S_ 1 := constantI S_ 1 1#1
  let main_v57 : IVec S_ 1 := (fun x v => Host.reduce IntOp.andi x v reducesTo_S200x50_S_d0_1 h_S_) main_v56 main_c_21
  let main_v58 : IVec S_ 1 := andi main_v53 main_v57
  let main_v59 : FVec F S200 .f32 := Host.absf main_arg12
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S400x200 .f32 := Host.absf main_arg13
  let main_cst_24 : FVec F S_ .f32 := constant S_ .f32 0x7F800000#32
  let main_v65 : FVec F S400x200 .f32 := broadcastInDim S400x200 ![] bcast_S_S400x200 main_cst_24
  let main_v66 : IVec S400x200 1 := cmpf .olt main_v64 main_v65
  let main_c_25 : IVec S_ 1 := constantI S_ 1 1#1
  let main_v67 : IVec S_ 1 := (fun x v => Host.reduce IntOp.andi x v reducesTo_S400x200_S_d0_1 h_S_) main_v66 main_c_25
  fn_part4 (F := F) main_arg14 main_arg15 main_arg16 main_v63 main_v67

def fn_part2 {F : FTy → Type} [FloatOps F] (main_arg7 : FVec F S2x50 .f32) (main_arg8 : FVec F S2 .f32) (main_arg9 : FVec F S50x2 .f32) (main_arg10 : FVec F S50 .f32) (main_arg11 : FVec F S200x50 .f32) (main_arg12 : FVec F S200 .f32) (main_arg13 : FVec F S400x200 .f32) (main_arg14 : FVec F S400 .f32) (main_arg15 : FVec F S784x400 .f32) (main_arg16 : FVec F S784 .f32) (main_v33 : IVec S_ 1) : IVec S_ 1 :=
  let main_v34 : FVec F S2x50 .f32 := Host.absf main_arg7
  let main_cst_12 : FVec F S_ .f32 := constant S_ .f32 0x7F800000#32
  let main_v35 : FVec F S2x50 .f32 := broadcastInDim S2x50 ![] bcast_S_S2x50 main_cst_12
  let main_v36 : IVec S2x50 1 := cmpf .olt main_v34 main_v35
  let main_c_13 : IVec S_ 1 := constantI S_ 1 1#1
  let main_v37 : IVec S_ 1 := (fun x v => Host.reduce IntOp.andi x v reducesTo_S2x50_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S50x2 .f32 := Host.absf main_arg9
  let main_cst_16 : FVec F S_ .f32 := constant S_ .f32 0x7F800000#32
  let main_v45 : FVec F S50x2 .f32 := broadcastInDim S50x2 ![] bcast_S_S50x2 main_cst_16
  let main_v46 : IVec S50x2 1 := cmpf .olt main_v44 main_v45
  let main_c_17 : IVec S_ 1 := constantI S_ 1 1#1
  let main_v47 : IVec S_ 1 := (fun x v => Host.reduce IntOp.andi x v reducesTo_S50x2_S_d0_1 h_S_) main_v46 main_c_17
  let main_v48 : IVec S_ 1 := andi main_v43 main_v47
  let main_v49 : FVec F S50 .f32 := Host.absf main_arg10
  let main_cst_18 : FVec F S_ .f32 := constant S_ .f32 0x7F800000#32
  let main_v50 : FVec F S50 .f32 := broadcastInDim S50 ![] bcast_S_S50 main_cst_18
  fn_part3 (F := F) main_arg11 main_arg12 main_arg13 main_arg14 main_arg15 main_arg16 main_v48 main_v49 main_v50

def fn_part1 {F : FTy → Type} [FloatOps F] (main_arg4 : FVec F S200 .f32) (main_arg5 : FVec F S50x200 .f32) (main_arg6 : FVec F S50 .f32) (main_arg7 : FVec F S2x50 .f32) (main_arg8 : FVec F S2 .f32) (main_arg9 : FVec F S50x2 .f32) (main_arg10 : FVec F S50 .f32) (main_arg11 : FVec F S200x50 .f32) (main_arg12 : FVec F S200 .f32) (main_arg13 : FVec F S400x200 .f32) (main_arg14 : FVec F S400 .f32) (main_arg15 : FVec F S784x400 .f32) (main_arg16 : FVec F S784 .f32) (main_v13 : IVec S_ 1) (main_v16 : IVec S200x400 1) : IVec S_ 1 :=
  let main_c_5 : IVec S_ 1 := constantI S_ 1 1#1
  let main_v17 : IVec S_ 1 := (fun x v => Host.reduce IntOp.andi x v reducesTo_S200x400_S_d0_1 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S50x200 .f32 := Host.absf main_arg5
  let main_cst_8 : FVec F S_ .f32 := constant S_ .f32 0x7F800000#32
  let main_v25 : FVec F S50x200 .f32 := broadcastInDim S50x200 ![] bcast_S_S50x200 main_cst_8
  let main_v26 : IVec S50x200 1 := cmpf .olt main_v24 main_v25
  let main_c_9 : IVec S_ 1 := constantI S_ 1 1#1
  let main_v27 : IVec S_ 1 := (fun x v => Host.reduce IntOp.andi x v reducesTo_S50x200_S_d0_1 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1x28x28 .f32) (main_arg1 : FVec F S400x784 .f32) (main_arg2 : FVec F S400 .f32) (main_arg3 : FVec F S200x400 .f32) (main_arg4 : FVec F S200 .f32) (main_arg5 : FVec F S50x200 .f32) (main_arg6 : FVec F S50 .f32) (main_arg7 : FVec F S2x50 .f32) (main_arg8 : FVec F S2 .f32) (main_arg9 : FVec F S50x2 .f32) (main_arg10 : FVec F S50 .f32) (main_arg11 : FVec F S200x50 .f32) (main_arg12 : FVec F S200 .f32) (main_arg13 : FVec F S400x200 .f32) (main_arg14 : FVec F S400 .f32) (main_arg15 : FVec F S784x400 .f32) (main_arg16 : FVec F S784 .f32) : IVec S_ 1 :=
  let main_v0 : FVec F S4096x1x28x28 .f32 := Host.absf main_arg0
  let main_cst : FVec F S_ .f32 := constant S_ .f32 0x7F800000#32
  let main_v1 : FVec F S4096x1x28x28 .f32 := broadcastInDim S4096x1x28x28 ![] bcast_S_S4096x1x28x28 main_cst
  let main_v2 : IVec S4096x1x28x28 1 := cmpf .olt main_v0 main_v1
  let main_c : IVec S_ 1 := constantI S_ 1 1#1
  let main_v3 : IVec S_ 1 := (fun x v => Host.reduce IntOp.andi x v reducesTo_S4096x1x28x28_S_d0_1_2_3 h_S_) main_v2 main_c
  let main_v4 : FVec F S400x784 .f32 := Host.absf main_arg1
  let main_cst_0 : FVec F S_ .f32 := constant S_ .f32 0x7F800000#32
  let main_v5 : FVec F S400x784 .f32 := broadcastInDim S400x784 ![] bcast_S_S400x784 main_cst_0
  let main_v6 : IVec S400x784 1 := cmpf .olt main_v4 main_v5
  let main_c_1 : IVec S_ 1 := constantI S_ 1 1#1
  let main_v7 : IVec S_ 1 := (fun x v => Host.reduce IntOp.andi x v reducesTo_S400x784_S_d0_1 h_S_) main_v6 main_c_1
  let main_v8 : IVec S_ 1 := andi main_v3 main_v7
  let main_v9 : FVec F S400 .f32 := Host.absf main_arg2
  let main_cst_2 : FVec F S_ .f32 := constant S_ .f32 0x7F800000#32
  let main_v10 : FVec F S400 .f32 := broadcastInDim S400 ![] bcast_S_S400 main_cst_2
  let main_v11 : IVec S400 1 := cmpf .olt main_v9 main_v10
  let main_c_3 : IVec S_ 1 := constantI S_ 1 1#1
  let main_v12 : IVec S_ 1 := (fun x v => Host.reduce IntOp.andi x v reducesTo_S400_S_d0 h_S_) main_v11 main_c_3
  let main_v13 : IVec S_ 1 := andi main_v8 main_v12
  let main_v14 : FVec F S200x400 .f32 := Host.absf main_arg3
  let main_cst_4 : FVec F S_ .f32 := constant S_ .f32 0x7F800000#32
  let main_v15 : FVec F S200x400 .f32 := broadcastInDim S200x400 ![] bcast_S_S200x400 main_cst_4
  let main_v16 : IVec S200x400 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1x28x28 : Shape := ⟨4, ![4096, 1, 28, 28]⟩
abbrev S400x784 : Shape := ⟨2, ![400, 784]⟩
abbrev S400 : Shape := ⟨1, ![400]⟩
abbrev S200x400 : Shape := ⟨2, ![200, 400]⟩
abbrev S200 : Shape := ⟨1, ![200]⟩
abbrev S50x200 : Shape := ⟨2, ![50, 200]⟩
abbrev S50 : Shape := ⟨1, ![50]⟩
abbrev S2x50 : Shape := ⟨2, ![2, 50]⟩
abbrev S2 : Shape := ⟨1, ![2]⟩
abbrev S50x2 : Shape := ⟨2, ![50, 2]⟩
abbrev S200x50 : Shape := ⟨2, ![200, 50]⟩
abbrev S400x200 : Shape := ⟨2, ![400, 200]⟩
abbrev S784x400 : Shape := ⟨2, ![784, 400]⟩
abbrev S784 : Shape := ⟨1, ![784]⟩
abbrev S4096x784 : Shape := ⟨2, ![4096, 784]⟩
abbrev S1x400 : Shape := ⟨2, ![1, 400]⟩
abbrev S1x200 : Shape := ⟨2, ![1, 200]⟩
abbrev S1x50 : Shape := ⟨2, ![1, 50]⟩
abbrev S1x2 : Shape := ⟨2, ![1, 2]⟩
abbrev S1x784 : Shape := ⟨2, ![1, 784]⟩
abbrev S4096x2 : Shape := ⟨2, ![4096, 2]⟩
abbrev S512x784 : Shape := ⟨2, ![512, 784]⟩
abbrev S512x2 : Shape := ⟨2, ![512, 2]⟩
abbrev S512x400 : Shape := ⟨2, ![512, 400]⟩
abbrev S512x200 : Shape := ⟨2, ![512, 200]⟩
abbrev S512x50 : Shape := ⟨2, ![512, 50]⟩
abbrev S4096x4096 : Shape := ⟨2, ![4096, 4096]⟩
abbrev S1024x784 : Shape := ⟨2, ![1024, 784]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1024x2 : Shape := ⟨2, ![1024, 2]⟩
abbrev S_ : Shape := ⟨0, ![]⟩
abbrev S16777216 : Shape := ⟨1, ![16777216]⟩
abbrev S8386560 : Shape := ⟨1, ![8386560]⟩
abbrev S16777216x1 : Shape := ⟨2, ![16777216, 1]⟩
abbrev S8386560x1 : Shape := ⟨2, ![8386560, 1]⟩
abbrev S8386560x2 : Shape := ⟨2, ![8386560, 2]⟩

abbrev nBuf : Space → Nat
  | .hbm => 203
  | .vmem => 40
  | .smem => 0
  | _ => 0

abbrev hbmTy0_0 (i : Nat) : BufTy := match i % 128 with
  | 0 => ⟨S4096x1x28x28, .f32⟩
  | 1 => ⟨S400x784, .f32⟩
  | 2 => ⟨S400, .f32⟩
  | 3 => ⟨S200x400, .f32⟩
  | 4 => ⟨S200, .f32⟩
  | 5 => ⟨S50x200, .f32⟩
  | 6 => ⟨S50, .f32⟩
  | 7 => ⟨S2x50, .f32⟩
  | 8 => ⟨S2, .f32⟩
  | 9 => ⟨S50x2, .f32⟩
  | 10 => ⟨S50, .f32⟩
  | 11 => ⟨S200x50, .f32⟩
  | 12 => ⟨S200, .f32⟩
  | 13 => ⟨S400x200, .f32⟩
  | 14 => ⟨S400, .f32⟩
  | 15 => ⟨S784x400, .f32⟩
  | 16 => ⟨S784, .f32⟩
  | 17 => ⟨S4096x784, .f32⟩
  | 18 => ⟨S1x400, .f32⟩
  | 19 => ⟨S1x200, .f32⟩
  | 20 => ⟨S1x50, .f32⟩
  | 21 => ⟨S1x2, .f32⟩
  | 22 => ⟨S1x50, .f32⟩
  | 23 => ⟨S1x200, .f32⟩
  | 24 => ⟨S1x400, .f32⟩
  | 25 => ⟨S1x784, .f32⟩
  | 26 => ⟨S4096x2, .f32⟩
  | 27 => ⟨S4096x784, .f32⟩
  | 28 => ⟨S4096x1x28x28, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .i32⟩
  | 35 => ⟨S_, .i32⟩
  | 36 => ⟨S4096x4096, .i32⟩
  | 37 => ⟨S4096x4096, .i32⟩
  | 38 => ⟨S4096x4096, .i32⟩
  | 39 => ⟨S4096x4096, .i1⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .i1⟩
  | 46 => ⟨S16777216, .i1⟩
  | 47 => ⟨S16777216, .i32⟩
  | 48 => ⟨S_, .i32⟩
  | 49 => ⟨S_, .i32⟩
  | 50 => ⟨S16777216, .i32⟩
  | 51 => ⟨S_, .i32⟩
  | 52 => ⟨S8386560, .i32⟩
  | 53 => ⟨S_, .i32⟩
  | 54 => ⟨S_, .i32⟩
  | 55 => ⟨S16777216, .i32⟩
  | 56 => ⟨S16777216, .i32⟩
  | 57 => ⟨S_, .i32⟩
  | 58 => ⟨S16777216, .i32⟩
  | 59 => ⟨S16777216, .i1⟩
  | 60 => ⟨S_, .i32⟩
  | 61 => ⟨S16777216, .i32⟩
  | 62 => ⟨S16777216, .i32⟩
  | 63 => ⟨S16777216, .i32⟩
  | 64 => ⟨S16777216x1, .i32⟩
  | 65 => ⟨S_, .i32⟩
  | 66 => ⟨S16777216, .i32⟩
  | 67 => ⟨S8386560, .i32⟩
  | 68 => ⟨S_, .i32⟩
  | 69 => ⟨S_, .i32⟩
  | 70 => ⟨S8386560, .i32⟩
  | 71 => ⟨S_, .i32⟩
  | 72 => ⟨S8386560, .i32⟩
  | 73 => ⟨S8386560, .i32⟩
  | 74 => ⟨S8386560, .i32⟩
  | 75 => ⟨S_, .i32⟩
  | 76 => ⟨S8386560, .i32⟩
  | 77 => ⟨S8386560, .i1⟩
  | 78 => ⟨S8386560, .i32⟩
  | 79 => ⟨S8386560, .i32⟩
  | 80 => ⟨S_, .i32⟩
  | 81 => ⟨S8386560, .i32⟩
  | 82 => ⟨S8386560, .i1⟩
  | 83 => ⟨S8386560, .i1⟩
  | 84 => ⟨S_, .i32⟩
  | 85 => ⟨S8386560, .i32⟩
  | 86 => ⟨S8386560, .i32⟩
  | 87 => ⟨S8386560, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S8386560, .i32⟩
  | 95 => ⟨S8386560, .i32⟩
  | 96 => ⟨S_, .i32⟩
  | 97 => ⟨S8386560, .i32⟩
  | 98 => ⟨S8386560, .i1⟩
  | 99 => ⟨S_, .i32⟩
  | 100 => ⟨S8386560, .i32⟩
  | 101 => ⟨S8386560, .i1⟩
  | 102 => ⟨S_, .i32⟩
  | 103 => ⟨S_, .i1⟩
  | 104 => ⟨S8386560, .i1⟩
  | 105 => ⟨S8386560, .i1⟩
  | 106 => ⟨S8386560, .i1⟩
  | 107 => ⟨S8386560, .i32⟩
  | 108 => ⟨S8386560, .i32⟩
  | 109 => ⟨S8386560, .i32⟩
  | 110 => ⟨S_, .i32⟩
  | 111 => ⟨S8386560, .i32⟩
  | 112 => ⟨S8386560, .i32⟩
  | 113 => ⟨S8386560, .i32⟩
  | 114 => ⟨S_, .i32⟩
  | 115 => ⟨S8386560, .i32⟩
  | 116 => ⟨S8386560, .i1⟩
  | 117 => ⟨S8386560, .i32⟩
  | 118 => ⟨S8386560, .i32⟩
  | 119 => ⟨S_, .i32⟩
  | 120 => ⟨S8386560, .i32⟩
  | 121 => ⟨S8386560, .i1⟩
  | 122 => ⟨S8386560, .i1⟩
  | 123 => ⟨S_, .i32⟩
  | 124 => ⟨S8386560, .i32⟩
  | 125 => ⟨S8386560, .i32⟩
  | 126 => ⟨S8386560, .i32⟩
  | 127 => ⟨S_, .i32⟩
  | _ => ⟨S4096x1x28x28, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S8386560, .i32⟩
  | 6 => ⟨S8386560, .i32⟩
  | 7 => ⟨S_, .i32⟩
  | 8 => ⟨S8386560, .i32⟩
  | 9 => ⟨S8386560, .i1⟩
  | 10 => ⟨S_, .i32⟩
  | 11 => ⟨S8386560, .i32⟩
  | 12 => ⟨S8386560, .i1⟩
  | 13 => ⟨S_, .i32⟩
  | 14 => ⟨S_, .i1⟩
  | 15 => ⟨S8386560, .i1⟩
  | 16 => ⟨S8386560, .i1⟩
  | 17 => ⟨S8386560, .i1⟩
  | 18 => ⟨S8386560, .i32⟩
  | 19 => ⟨S8386560, .i32⟩
  | 20 => ⟨S8386560, .i32⟩
  | 21 => ⟨S_, .i32⟩
  | 22 => ⟨S8386560, .i32⟩
  | 23 => ⟨S8386560, .i1⟩
  | 24 => ⟨S_, .i32⟩
  | 25 => ⟨S8386560, .i32⟩
  | 26 => ⟨S8386560, .i32⟩
  | 27 => ⟨S8386560, .i32⟩
  | 28 => ⟨S_, .i32⟩
  | 29 => ⟨S8386560, .i32⟩
  | 30 => ⟨S8386560, .i1⟩
  | 31 => ⟨S_, .i32⟩
  | 32 => ⟨S8386560, .i32⟩
  | 33 => ⟨S8386560, .i32⟩
  | 34 => ⟨S8386560, .i32⟩
  | 35 => ⟨S8386560x1, .i32⟩
  | 36 => ⟨S8386560x1, .i32⟩
  | 37 => ⟨S8386560x2, .i32⟩
  | 38 => ⟨S8386560, .f32⟩
  | 39 => ⟨S_, .i32⟩
  | 40 => ⟨S8386560, .i32⟩
  | 41 => ⟨S8386560, .i1⟩
  | 42 => ⟨S_, .i32⟩
  | 43 => ⟨S8386560, .i32⟩
  | 44 => ⟨S8386560, .i32⟩
  | 45 => ⟨S8386560, .i32⟩
  | 46 => ⟨S_, .i32⟩
  | 47 => ⟨S8386560, .i32⟩
  | 48 => ⟨S8386560, .i1⟩
  | 49 => ⟨S_, .i32⟩
  | 50 => ⟨S8386560, .i32⟩
  | 51 => ⟨S8386560, .i32⟩
  | 52 => ⟨S8386560, .i32⟩
  | 53 => ⟨S8386560x1, .i32⟩
  | 54 => ⟨S8386560x1, .i32⟩
  | 55 => ⟨S8386560x2, .i32⟩
  | 56 => ⟨S8386560, .f32⟩
  | 57 => ⟨S_, .i32⟩
  | 58 => ⟨S8386560, .i32⟩
  | 59 => ⟨S8386560, .i1⟩
  | 60 => ⟨S_, .i32⟩
  | 61 => ⟨S8386560, .i32⟩
  | 62 => ⟨S8386560, .i32⟩
  | 63 => ⟨S8386560, .i32⟩
  | 64 => ⟨S_, .i32⟩
  | 65 => ⟨S8386560, .i32⟩
  | 66 => ⟨S8386560, .i1⟩
  | 67 => ⟨S_, .i32⟩
  | 68 => ⟨S8386560, .i32⟩
  | 69 => ⟨S8386560, .i32⟩
  | 70 => ⟨S8386560, .i32⟩
  | 71 => ⟨S8386560x1, .i32⟩
  | 72 => ⟨S8386560x1, .i32⟩
  | 73 => ⟨S8386560x2, .i32⟩
  | 74 => ⟨S8386560, .f32⟩
  | _ => ⟨S4096x1x28x28, .f32⟩

abbrev hbmTy (i : Nat) : BufTy := match i / 128 with
  | 0 => hbmTy0_0 i
  | 1 => hbmTy0_1 i
  | _ => ⟨S4096x1x28x28, .f32⟩

abbrev bufTy : (tb : Table) → Fin (tcTables nBuf tb) → BufTy
  | .hbm, ⟨i, _⟩ => hbmTy i
  | .local _ .vmem, ⟨0, _⟩ => ⟨S512x784, .f32⟩
  | .local _ .vmem, ⟨1, _⟩ => ⟨S512x784, .f32⟩
  | .local _ .vmem, ⟨2, _⟩ => ⟨S400x784, .f32⟩
  | .local _ .vmem, ⟨3, _⟩ => ⟨S1x400, .f32⟩
  | .local _ .vmem, ⟨4, _⟩ => ⟨S200x400, .f32⟩
  | .local _ .vmem, ⟨5, _⟩ => ⟨S1x200, .f32⟩
  | .local _ .vmem, ⟨6, _⟩ => ⟨S50x200, .f32⟩
  | .local _ .vmem, ⟨7, _⟩ => ⟨S1x50, .f32⟩
  | .local _ .vmem, ⟨8, _⟩ => ⟨S2x50, .f32⟩
  | .local _ .vmem, ⟨9, _⟩ => ⟨S1x2, .f32⟩
  | .local _ .vmem, ⟨10, _⟩ => ⟨S50x2, .f32⟩
  | .local _ .vmem, ⟨11, _⟩ => ⟨S1x50, .f32⟩
  | .local _ .vmem, ⟨12, _⟩ => ⟨S200x50, .f32⟩
  | .local _ .vmem, ⟨13, _⟩ => ⟨S1x200, .f32⟩
  | .local _ .vmem, ⟨14, _⟩ => ⟨S400x200, .f32⟩
  | .local _ .vmem, ⟨15, _⟩ => ⟨S1x400, .f32⟩
  | .local _ .vmem, ⟨16, _⟩ => ⟨S784x400, .f32⟩
  | .local _ .vmem, ⟨17, _⟩ => ⟨S1x784, .f32⟩
  | .local _ .vmem, ⟨18, _⟩ => ⟨S512x2, .f32⟩
  | .local _ .vmem, ⟨19, _⟩ => ⟨S512x2, .f32⟩
  | .local _ .vmem, ⟨20, _⟩ => ⟨S512x784, .f32⟩
  | .local _ .vmem, ⟨21, _⟩ => ⟨S512x784, .f32⟩
  | .local _ .vmem, ⟨22, _⟩ => ⟨S1024x784, .f32⟩
  | .local _ .vmem, ⟨23, _⟩ => ⟨S1024x784, .f32⟩
  | .local _ .vmem, ⟨24, _⟩ => ⟨S1024x784, .f32⟩
  | .local _ .vmem, ⟨25, _⟩ => ⟨S1024x784, .f32⟩
  | .local _ .vmem, ⟨26, _⟩ => ⟨S1024x1024, .f32⟩
  | .local _ .vmem, ⟨27, _⟩ => ⟨S1024x1024, .f32⟩
  | .local _ .vmem, ⟨28, _⟩ => ⟨S1024x2, .f32⟩
  | .local _ .vmem, ⟨29, _⟩ => ⟨S1024x2, .f32⟩
  | .local _ .vmem, ⟨30, _⟩ => ⟨S1024x2, .f32⟩
  | .local _ .vmem, ⟨31, _⟩ => ⟨S1024x2, .f32⟩
  | .local _ .vmem, ⟨32, _⟩ => ⟨S1024x1024, .f32⟩
  | .local _ .vmem, ⟨33, _⟩ => ⟨S1024x1024, .f32⟩
  | .local _ .vmem, ⟨34, _⟩ => ⟨S1024x784, .f32⟩
  | .local _ .vmem, ⟨35, _⟩ => ⟨S1024x784, .f32⟩
  | .local _ .vmem, ⟨36, _⟩ => ⟨S1024x784, .f32⟩
  | .local _ .vmem, ⟨37, _⟩ => ⟨S1024x784, .f32⟩
  | .local _ .vmem, ⟨38, _⟩ => ⟨S1024x1024, .f32⟩
  | .local _ .vmem, ⟨39, _⟩ => ⟨S1024x1024, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_cst : Ref sig .tc := ⟨.hbm, 40, rfl⟩
abbrev main_call0_v5 : Ref sig .tc := ⟨.hbm, 41, rfl⟩
abbrev main_v15 : Ref sig .tc := ⟨.hbm, 42, rfl⟩
abbrev main_cst_0 : Ref sig .tc := ⟨.hbm, 43, rfl⟩
abbrev main_v16 : Ref sig .tc := ⟨.hbm, 44, rfl⟩
abbrev main_v17 : Ref sig .tc := ⟨.hbm, 45, rfl⟩
abbrev main_call1_v0 : Ref sig .tc := ⟨.hbm, 46, rfl⟩
abbrev main_call1_v1 : Ref sig .tc := ⟨.hbm, 47, rfl⟩
abbrev main_call1_call0_c : Ref sig .tc := ⟨.hbm, 48, rfl⟩
abbrev main_call1_call0_v0 : Ref sig .tc := ⟨.hbm, 49, rfl⟩
abbrev main_v18 : Ref sig .tc := ⟨.hbm, 50, rfl⟩
abbrev main_c : Ref sig .tc := ⟨.hbm, 51, rfl⟩
abbrev main_v19 : Ref sig .tc := ⟨.hbm, 52, rfl⟩
abbrev main_c_1 : Ref sig .tc := ⟨.hbm, 53, rfl⟩
abbrev main_call2_v0 : Ref sig .tc := ⟨.hbm, 54, rfl⟩
abbrev main_call2_v1 : Ref sig .tc := ⟨.hbm, 55, rfl⟩
abbrev main_v20 : Ref sig .tc := ⟨.hbm, 56, rfl⟩
abbrev main_c_2 : Ref sig .tc := ⟨.hbm, 57, rfl⟩
abbrev main_v21 : Ref sig .tc := ⟨.hbm, 58, rfl⟩
abbrev main_v22 : Ref sig .tc := ⟨.hbm, 59, rfl⟩
abbrev main_c_3 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_4 : Ref sig .tc := ⟨.hbm, 65, rfl⟩
abbrev main_v27 : Ref sig .tc := ⟨.hbm, 66, rfl⟩
abbrev main_v28 : Ref sig .tc := ⟨.hbm, 67, rfl⟩
abbrev main_call3_call0_c : Ref sig .tc := ⟨.hbm, 68, rfl⟩
abbrev main_call3_call0_v0 : Ref sig .tc := ⟨.hbm, 69, rfl⟩
abbrev main_v29 : Ref sig .tc := ⟨.hbm, 70, rfl⟩
abbrev main_c_5 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_c : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_c_0 : Ref sig .tc := ⟨.hbm, 84, rfl⟩
abbrev main_call4_v11 : Ref sig .tc := ⟨.hbm, 85, rfl⟩
abbrev main_call4_v12 : Ref sig .tc := ⟨.hbm, 86, rfl⟩
abbrev main_v30 : Ref sig .tc := ⟨.hbm, 87, rfl⟩
abbrev main_c_6 : Ref sig .tc := ⟨.hbm, 88, rfl⟩
abbrev main_call5_v0 : Ref sig .tc := ⟨.hbm, 89, rfl⟩
abbrev main_call5_c : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_c_1 : Ref sig .tc := ⟨.hbm, 96, rfl⟩
abbrev main_call5_v5 : Ref sig .tc := ⟨.hbm, 97, rfl⟩
abbrev main_call5_v6 : Ref sig .tc := ⟨.hbm, 98, rfl⟩
abbrev main_call5_c_2 : Ref sig .tc := ⟨.hbm, 99, rfl⟩
abbrev main_call5_v7 : Ref sig .tc := ⟨.hbm, 100, rfl⟩
abbrev main_call5_v8 : Ref sig .tc := ⟨.hbm, 101, rfl⟩
abbrev main_call5_c_3 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_call5_v12 : Ref sig .tc := ⟨.hbm, 106, rfl⟩
abbrev main_call5_v13 : Ref sig .tc := ⟨.hbm, 107, rfl⟩
abbrev main_call5_v14 : Ref sig .tc := ⟨.hbm, 108, rfl⟩
abbrev main_v31 : Ref sig .tc := ⟨.hbm, 109, rfl⟩
abbrev main_c_7 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_v6 : Ref sig .tc := ⟨.hbm, 117, rfl⟩
abbrev main_call6_v7 : Ref sig .tc := ⟨.hbm, 118, rfl⟩
abbrev main_call6_c : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_c_0 : Ref sig .tc := ⟨.hbm, 123, rfl⟩
abbrev main_call6_v11 : Ref sig .tc := ⟨.hbm, 124, rfl⟩
abbrev main_call6_v12 : Ref sig .tc := ⟨.hbm, 125, rfl⟩
abbrev main_v32 : Ref sig .tc := ⟨.hbm, 126, rfl⟩
abbrev main_c_8 : Ref sig .tc := ⟨.hbm, 127, rfl⟩
abbrev main_call7_v0 : Ref sig .tc := ⟨.hbm, 128, rfl⟩
abbrev main_call7_c : Ref sig .tc := ⟨.hbm, 129, rfl⟩
abbrev main_call7_v1 : Ref sig .tc := ⟨.hbm, 130, rfl⟩
abbrev main_call7_c_0 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_c_1 : Ref sig .tc := ⟨.hbm, 135, rfl⟩
abbrev main_call7_v5 : Ref sig .tc := ⟨.hbm, 136, rfl⟩
abbrev main_call7_v6 : Ref sig .tc := ⟨.hbm, 137, rfl⟩
abbrev main_call7_c_2 : Ref sig .tc := ⟨.hbm, 138, rfl⟩
abbrev main_call7_v7 : Ref sig .tc := ⟨.hbm, 139, rfl⟩
abbrev main_call7_v8 : Ref sig .tc := ⟨.hbm, 140, rfl⟩
abbrev main_call7_c_3 : Ref sig .tc := ⟨.hbm, 141, rfl⟩
abbrev main_call7_v9 : Ref sig .tc := ⟨.hbm, 142, rfl⟩
abbrev main_call7_v10 : Ref sig .tc := ⟨.hbm, 143, rfl⟩
abbrev main_call7_v11 : Ref sig .tc := ⟨.hbm, 144, rfl⟩
abbrev main_call7_v12 : Ref sig .tc := ⟨.hbm, 145, rfl⟩
abbrev main_call7_v13 : Ref sig .tc := ⟨.hbm, 146, rfl⟩
abbrev main_call7_v14 : Ref sig .tc := ⟨.hbm, 147, rfl⟩
abbrev main_v33 : Ref sig .tc := ⟨.hbm, 148, rfl⟩
abbrev main_c_9 : Ref sig .tc := ⟨.hbm, 149, rfl⟩
abbrev main_v34 : Ref sig .tc := ⟨.hbm, 150, rfl⟩
abbrev main_v35 : Ref sig .tc := ⟨.hbm, 151, rfl⟩
abbrev main_c_10 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_c_11 : Ref sig .tc := ⟨.hbm, 156, rfl⟩
abbrev main_v39 : Ref sig .tc := ⟨.hbm, 157, rfl⟩
abbrev main_v40 : Ref sig .tc := ⟨.hbm, 158, rfl⟩
abbrev main_c_12 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_v46 : Ref sig .tc := ⟨.hbm, 165, rfl⟩
abbrev main_v47 : Ref sig .tc := ⟨.hbm, 166, rfl⟩
abbrev main_c_13 : Ref sig .tc := ⟨.hbm, 167, rfl⟩
abbrev main_v48 : Ref sig .tc := ⟨.hbm, 168, rfl⟩
abbrev main_v49 : Ref sig .tc := ⟨.hbm, 169, rfl⟩
abbrev main_c_14 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_c_15 : Ref sig .tc := ⟨.hbm, 174, rfl⟩
abbrev main_v53 : Ref sig .tc := ⟨.hbm, 175, rfl⟩
abbrev main_v54 : Ref sig .tc := ⟨.hbm, 176, rfl⟩
abbrev main_c_16 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_c_17 : Ref sig .tc := ⟨.hbm, 185, rfl⟩
abbrev main_v62 : Ref sig .tc := ⟨.hbm, 186, rfl⟩
abbrev main_v63 : Ref sig .tc := ⟨.hbm, 187, rfl⟩
abbrev main_c_18 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_c_19 : Ref sig .tc := ⟨.hbm, 192, rfl⟩
abbrev main_v67 : Ref sig .tc := ⟨.hbm, 193, rfl⟩
abbrev main_v68 : Ref sig .tc := ⟨.hbm, 194, rfl⟩
abbrev main_c_20 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S400x200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x400 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S784x400 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x784 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x784 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x784 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x784 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x784 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S4096x1x28x28_S4096x784 : S4096x1x28x28.ShapeCasts S4096x784
  shapeCasts_S400_S1x400 : S400.ShapeCasts S1x400
  shapeCasts_S200_S1x200 : S200.ShapeCasts S1x200
  shapeCasts_S50_S1x50 : S50.ShapeCasts S1x50
  shapeCasts_S2_S1x2 : S2.ShapeCasts S1x2
  shapeCasts_S784_S1x784 : S784.ShapeCasts S1x784
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S400x784_S400x784_0_0 : ∀ a, (![0, 0] : Fin 2 → Nat) a + S400x784.size a ≤ S400x784.size a
  h_S400x784 : 0 < S400x784.numel
  inb_S1x400_S1x400_0_0 : ∀ a, (![0, 0] : Fin 2 → Nat) a + S1x400.size a ≤ S1x400.size a
  h_S1x400 : 0 < S1x400.numel
  shapeCasts_S1x400_S1x400 : S1x400.ShapeCasts S1x400
  bitsLt_bf16_f32 : FTy.bits .bf16 < FTy.bits .f32
  broadcasts_S1x400_S512x400 : S1x400.Broadcasts S512x400
  inb_S200x400_S200x400_0_0 : ∀ a, (![0, 0] : Fin 2 → Nat) a + S200x400.size a ≤ S200x400.size a
  h_S200x400 : 0 < S200x400.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S512x200 : S1x200.Broadcasts S512x200
  inb_S50x200_S50x200_0_0 : ∀ a, (![0, 0] : Fin 2 → Nat) a + S50x200.size a ≤ S50x200.size a
  h_S50x200 : 0 < S50x200.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S512x50 : S1x50.Broadcasts S512x50
  inb_S2x50_S2x50_0_0 : ∀ a, (![0, 0] : Fin 2 → Nat) a + S2x50.size a ≤ S2x50.size a
  h_S2x50 : 0 < S2x50.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S50x2_S50x2_0_0 : ∀ a, (![0, 0] : Fin 2 → Nat) a + S50x2.size a ≤ S50x2.size a
  h_S50x2 : 0 < S50x2.numel
  inb_S200x50_S200x50_0_0 : ∀ a, (![0, 0] : Fin 2 → Nat) a + S200x50.size a ≤ S200x50.size a
  h_S200x50 : 0 < S200x50.numel
  inb_S400x200_S400x200_0_0 : ∀ a, (![0, 0] : Fin 2 → Nat) a + S400x200.size a ≤ S400x200.size a
  h_S400x200 : 0 < S400x200.numel
  inb_S784x400_S784x400_0_0 : ∀ a, (![0, 0] : Fin 2 → Nat) a + S784x400.size a ≤ S784x400.size a
  h_S784x400 : 0 < S784x400.numel
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S512x784 : S1x784.Broadcasts S512x784
  inb_S512x2_S512x2_0_0 : ∀ a, (![0, 0] : Fin 2 → Nat) a + S512x2.size a ≤ S512x2.size a
  h_S512x2 : 0 < S512x2.numel
  shapeCasts_S4096x784_S4096x1x28x28 : S4096x784.ShapeCasts S4096x1x28x28
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  reduces_S1024x784_S1024 : S1024x784.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  reduces_S1024x2_S1024 : S1024x2.Reduces [1] S1024
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  dot_S512x784_S400x784_S512x400_1_1_0_0_n_n_wf : DotDims.WF S512x784 S400x784 S512x400 [1] [1] [0] [0] [] []
  dot_S512x400_S200x400_S512x200_1_1_0_0_n_n_wf : DotDims.WF S512x400 S200x400 S512x200 [1] [1] [0] [0] [] []
  dot_S512x200_S50x200_S512x50_1_1_0_0_n_n_wf : DotDims.WF S512x200 S50x200 S512x50 [1] [1] [0] [0] [] []
  dot_S512x50_S2x50_S512x2_1_1_0_0_n_n_wf : DotDims.WF S512x50 S2x50 S512x2 [1] [1] [0] [0] [] []
  dot_S512x2_S50x2_S512x50_1_1_0_0_n_n_wf : DotDims.WF S512x2 S50x2 S512x50 [1] [1] [0] [0] [] []
  dot_S512x50_S200x50_S512x200_1_1_0_0_n_n_wf : DotDims.WF S512x50 S200x50 S512x200 [1] [1] [0] [0] [] []
  dot_S512x200_S400x200_S512x400_1_1_0_0_n_n_wf : DotDims.WF S512x200 S400x200 S512x400 [1] [1] [0] [0] [] []
  dot_S512x400_S784x400_S512x784_1_1_0_0_n_n_wf : DotDims.WF S512x400 S784x400 S512x784 [1] [1] [0] [0] [] []
  dot_S1024x784_S1024x784_S1024x1024_1_1_0_0_n_n_wf : DotDims.WF S1024x784 S1024x784 S1024x1024 [1] [1] [0] [0] [] []
  dot_S1024x2_S1024x2_S1024x1024_1_1_0_0_n_n_wf : DotDims.WF S1024x2 S1024x2 S1024x1024 [1] [1] [0] [0] [] []
  scatter_S8386560_S16777216x1_S16777216_n_0_0_1_wf : ScatterDims.WF S8386560 S16777216x1 S16777216 [] [0] [0] 1
  gather_S4096x4096_S8386560x2_S8386560_n_01_n_n_01_1_11_wf : GatherDims.WF S4096x4096 S8386560x2 S8386560 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S4096x784.size a
  hwx0_0 : ∀ i : grid0.Coords, EltTy.bits .f32 = 32 ∨ (Rect.block (s := S4096x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x784.size a ≤ S400x784.size a
  hwx0_1 : ∀ i : grid0.Coords, EltTy.bits .f32 = 32 ∨ (Rect.block (s := S400x784) S400x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x400.size a ≤ S1x400.size a
  hwx0_2 : ∀ i : grid0.Coords, EltTy.bits .f32 = 32 ∨ (Rect.block (s := S1x400) S1x400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x400.size a ≤ S200x400.size a
  hwx0_3 : ∀ i : grid0.Coords, EltTy.bits .f32 = 32 ∨ (Rect.block (s := S200x400) S200x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x200.size a ≤ S1x200.size a
  hwx0_4 : ∀ i : grid0.Coords, EltTy.bits .f32 = 32 ∨ (Rect.block (s := S1x200) S1x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x200.size a ≤ S50x200.size a
  hwx0_5 : ∀ i : grid0.Coords, EltTy.bits .f32 = 32 ∨ (Rect.block (s := S50x200) S50x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x50.size a ≤ S2x50.size a
  hwx0_7 : ∀ i : grid0.Coords, EltTy.bits .f32 = 32 ∨ (Rect.block (s := S2x50) S2x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x2.size a ≤ S50x2.size a
  hwx0_9 : ∀ i : grid0.Coords, EltTy.bits .f32 = 32 ∨ (Rect.block (s := S50x2) S50x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x50.size a ≤ S1x50.size a
  hwx0_10 : ∀ i : grid0.Coords, EltTy.bits .f32 = 32 ∨ (Rect.block (s := S1x50) S1x50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S200x50.size a ≤ S200x50.size a
  hwx0_11 : ∀ i : grid0.Coords, EltTy.bits .f32 = 32 ∨ (Rect.block (s := S200x50) S200x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x200.size a ≤ S1x200.size a
  hwx0_12 : ∀ i : grid0.Coords, EltTy.bits .f32 = 32 ∨ (Rect.block (s := S1x200) S1x200.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S400x200.size a ≤ S400x200.size a
  hwx0_13 : ∀ i : grid0.Coords, EltTy.bits .f32 = 32 ∨ (Rect.block (s := S400x200) S400x200.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x400.size a ≤ S1x400.size a
  hwx0_14 : ∀ i : grid0.Coords, EltTy.bits .f32 = 32 ∨ (Rect.block (s := S1x400) S1x400.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S784x400.size a ≤ S784x400.size a
  hwx0_15 : ∀ i : grid0.Coords, EltTy.bits .f32 = 32 ∨ (Rect.block (s := S784x400) S784x400.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x784.size a ≤ S1x784.size a
  hwx0_16 : ∀ i : grid0.Coords, EltTy.bits .f32 = 32 ∨ (Rect.block (s := S1x784) S1x784.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x2.size a ≤ S4096x2.size a
  hwx0_17 : ∀ i : grid0.Coords, EltTy.bits .f32 = 32 ∨ (Rect.block (s := S4096x2) S512x2.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x784.size a ≤ S4096x784.size a
  hwx0_18 : ∀ i : grid0.Coords, EltTy.bits .f32 = 32 ∨ (Rect.block (s := S4096x784) S512x784.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x784.size a ≤ S4096x784.size a
  hwx1_0 : ∀ i : grid1.Coords, EltTy.bits .f32 = 32 ∨ (Rect.block (s := S4096x784) S1024x784.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x784.size a ≤ S4096x784.size a
  hwx1_1 : ∀ i : grid1.Coords, EltTy.bits .f32 = 32 ∨ (Rect.block (s := S4096x784) S1024x784.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2.size a ≤ S4096x2.size a
  hwx2_0 : ∀ i : grid2.Coords, EltTy.bits .f32 = 32 ∨ (Rect.block (s := S4096x2) S1024x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2.size a ≤ S4096x2.size a
  hwx2_1 : ∀ i : grid2.Coords, EltTy.bits .f32 = 32 ∨ (Rect.block (s := S4096x2) S1024x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x784.size a ≤ S4096x784.size a
  hwx3_0 : ∀ i : grid3.Coords, EltTy.bits .f32 = 32 ∨ (Rect.block (s := S4096x784) S1024x784.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x784.size a ≤ S4096x784.size a
  hwx3_1 : ∀ i : grid3.Coords, EltTy.bits .f32 = 32 ∨ (Rect.block (s := S4096x784) S1024x784.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)

variable [Facts₀]

def dot_S512x784_S400x784_S512x400_1_1_0_0_n_n : DotDims S512x784 S400x784 S512x400 where
  lhsContracting := [1]
  rhsContracting := [1]
  lhsNonContracting := [0]
  rhsNonContracting := [0]
  lhsBatch := []
  rhsBatch := []
  wf := dot_S512x784_S400x784_S512x400_1_1_0_0_n_n_wf
def dot_S512x400_S200x400_S512x200_1_1_0_0_n_n : DotDims S512x400 S200x400 S512x200 where
  lhsContracting := [1]
  rhsContracting := [1]
  lhsNonContracting := [0]
  rhsNonContracting := [0]
  lhsBatch := []
  rhsBatch := []
  wf := dot_S512x400_S200x400_S512x200_1_1_0_0_n_n_wf
def dot_S512x200_S50x200_S512x50_1_1_0_0_n_n : DotDims S512x200 S50x200 S512x50 where
  lhsContracting := [1]
  rhsContracting := [1]
  lhsNonContracting := [0]
  rhsNonContracting := [0]
  lhsBatch := []
  rhsBatch := []
  wf := dot_S512x200_S50x200_S512x50_1_1_0_0_n_n_wf
def dot_S512x50_S2x50_S512x2_1_1_0_0_n_n : DotDims S512x50 S2x50 S512x2 where
  lhsContracting := [1]
  rhsContracting := [1]
  lhsNonContracting := [0]
  rhsNonContracting := [0]
  lhsBatch := []
  rhsBatch := []
  wf := dot_S512x50_S2x50_S512x2_1_1_0_0_n_n_wf
def dot_S512x2_S50x2_S512x50_1_1_0_0_n_n : DotDims S512x2 S50x2 S512x50 where
  lhsContracting := [1]
  rhsContracting := [1]
  lhsNonContracting := [0]
  rhsNonContracting := [0]
  lhsBatch := []
  rhsBatch := []
  wf := dot_S512x2_S50x2_S512x50_1_1_0_0_n_n_wf
def dot_S512x50_S200x50_S512x200_1_1_0_0_n_n : DotDims S512x50 S200x50 S512x200 where
  lhsContracting := [1]
  rhsContracting := [1]
  lhsNonContracting := [0]
  rhsNonContracting := [0]
  lhsBatch := []
  rhsBatch := []
  wf := dot_S512x50_S200x50_S512x200_1_1_0_0_n_n_wf
def dot_S512x200_S400x200_S512x400_1_1_0_0_n_n : DotDims S512x200 S400x200 S512x400 where
  lhsContracting := [1]
  rhsContracting := [1]
  lhsNonContracting := [0]
  rhsNonContracting := [0]
  lhsBatch := []
  rhsBatch := []
  wf := dot_S512x200_S400x200_S512x400_1_1_0_0_n_n_wf
def dot_S512x400_S784x400_S512x784_1_1_0_0_n_n : DotDims S512x400 S784x400 S512x784 where
  lhsContracting := [1]
  rhsContracting := [1]
  lhsNonContracting := [0]
  rhsNonContracting := [0]
  lhsBatch := []
  rhsBatch := []
  wf := dot_S512x400_S784x400_S512x784_1_1_0_0_n_n_wf
def dot_S1024x784_S1024x784_S1024x1024_1_1_0_0_n_n : DotDims S1024x784 S1024x784 S1024x1024 where
  lhsContracting := [1]
  rhsContracting := [1]
  lhsNonContracting := [0]
  rhsNonContracting := [0]
  lhsBatch := []
  rhsBatch := []
  wf := dot_S1024x784_S1024x784_S1024x1024_1_1_0_0_n_n_wf
def dot_S1024x2_S1024x2_S1024x1024_1_1_0_0_n_n : DotDims S1024x2 S1024x2 S1024x1024 where
  lhsContracting := [1]
  rhsContracting := [1]
  lhsNonContracting := [0]
  rhsNonContracting := [0]
  lhsBatch := []
  rhsBatch := []
  wf := dot_S1024x2_S1024x2_S1024x1024_1_1_0_0_n_n_wf
def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def gather_S4096x4096_S8386560x2_S8386560_n_01_n_n_01_1_11 : GatherDims S4096x4096 S8386560x2 S8386560 where
  offsetDims := []
  collapsedSliceDims := [0, 1]
  operandBatchingDims := []
  startIndicesBatchingDims := []
  startIndexMap := [0, 1]
  indexVectorDim := 1
  sliceSizes := ![1, 1]
  wf := gather_S4096x4096_S8386560x2_S8386560_n_01_n_n_01_1_11_wf

abbrev win0_0 : Pipeline.Window sig grid0 :=
  Pipeline.Window.ofSpec (Memref.whole main_v0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S200x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S50x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S50x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S200x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x200.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S400x200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x400.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S784x400.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x784.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9_0) S512x2.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v9_1) S512x784.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v0) S1024x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x784.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9_0) S1024x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_0) S1024x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9_1) S1024x784.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9_1) S1024x784.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x1x28x28 : Shape := ⟨4, ![4096, 1, 28, 28]⟩
abbrev S400x784 : Shape := ⟨2, ![400, 784]⟩
abbrev S400 : Shape := ⟨1, ![400]⟩
abbrev S200x400 : Shape := ⟨2, ![200, 400]⟩
abbrev S200 : Shape := ⟨1, ![200]⟩
abbrev S50x200 : Shape := ⟨2, ![50, 200]⟩
abbrev S50 : Shape := ⟨1, ![50]⟩
abbrev S2x50 : Shape := ⟨2, ![2, 50]⟩
abbrev S2 : Shape := ⟨1, ![2]⟩
abbrev S50x2 : Shape := ⟨2, ![50, 2]⟩
abbrev S200x50 : Shape := ⟨2, ![200, 50]⟩
abbrev S400x200 : Shape := ⟨2, ![400, 200]⟩
abbrev S784x400 : Shape := ⟨2, ![784, 400]⟩
abbrev S784 : Shape := ⟨1, ![784]⟩
abbrev S4096x784 : Shape := ⟨2, ![4096, 784]⟩
abbrev S4096x400 : Shape := ⟨2, ![4096, 400]⟩
abbrev S1x400 : Shape := ⟨2, ![1, 400]⟩
abbrev S_ : Shape := ⟨0, ![]⟩
abbrev S4096x200 : Shape := ⟨2, ![4096, 200]⟩
abbrev S1x200 : Shape := ⟨2, ![1, 200]⟩
abbrev S4096x50 : Shape := ⟨2, ![4096, 50]⟩
abbrev S1x50 : Shape := ⟨2, ![1, 50]⟩
abbrev S4096x2 : Shape := ⟨2, ![4096, 2]⟩
abbrev S1x2 : Shape := ⟨2, ![1, 2]⟩
abbrev S1x784 : Shape := ⟨2, ![1, 784]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S784x4096 : Shape := ⟨2, ![784, 4096]⟩
abbrev S16777216 : Shape := ⟨1, ![16777216]⟩
abbrev S8386560 : Shape := ⟨1, ![8386560]⟩
abbrev S16777216x1 : Shape := ⟨2, ![16777216, 1]⟩
abbrev S8386560x1 : Shape := ⟨2, ![8386560, 1]⟩
abbrev S8386560x2 : Shape := ⟨2, ![8386560, 2]⟩
abbrev S2x4096 : Shape := ⟨2, ![2, 4096]⟩

abbrev nBuf : Space → Nat
  | .hbm => 569
  | .vmem => 0
  | .smem => 0
  | _ => 0

abbrev hbmTy0_0 (i : Nat) : BufTy := match i % 128 with
  | 0 => ⟨S4096x1x28x28, .f32⟩
  | 1 => ⟨S400x784, .f32⟩
  | 2 => ⟨S400, .f32⟩
  | 3 => ⟨S200x400, .f32⟩
  | 4 => ⟨S200, .f32⟩
  | 5 => ⟨S50x200, .f32⟩
  | 6 => ⟨S50, .f32⟩
  | 7 => ⟨S2x50, .f32⟩
  | 8 => ⟨S2, .f32⟩
  | 9 => ⟨S50x2, .f32⟩
  | 10 => ⟨S50, .f32⟩
  | 11 => ⟨S200x50, .f32⟩
  | 12 => ⟨S200, .f32⟩
  | 13 => ⟨S400x200, .f32⟩
  | 14 => ⟨S400, .f32⟩
  | 15 => ⟨S784x400, .f32⟩
  | 16 => ⟨S784, .f32⟩
  | 17 => ⟨S4096x784, .f32⟩
  | 18 => ⟨S784x400, .f32⟩
  | 19 => ⟨S4096x400, .f32⟩
  | 20 => ⟨S1x400, .f32⟩
  | 21 => ⟨S4096x400, .f32⟩
  | 22 => ⟨S4096x400, .f32⟩
  | 23 => ⟨S_, .f32⟩
  | 24 => ⟨S4096x400, .f32⟩
  | 25 => ⟨S4096x400, .i1⟩
  | 26 => ⟨S_, .f32⟩
  | 27 => ⟨S4096x400, .f32⟩
  | 28 => ⟨S4096x400, .f32⟩
  | 29 => ⟨S4096x400, .f32⟩
  | 30 => ⟨S400x200, .f32⟩
  | 31 => ⟨S4096x200, .f32⟩
  | 32 => ⟨S1x200, .f32⟩
  | 33 => ⟨S4096x200, .f32⟩
  | 34 => ⟨S4096x200, .f32⟩
  | 35 => ⟨S_, .f32⟩
  | 36 => ⟨S4096x200, .f32⟩
  | 37 => ⟨S4096x200, .i1⟩
  | 38 => ⟨S_, .f32⟩
  | 39 => ⟨S4096x200, .f32⟩
  | 40 => ⟨S4096x200, .f32⟩
  | 41 => ⟨S4096x200, .f32⟩
  | 42 => ⟨S200x50, .f32⟩
  | 43 => ⟨S4096x50, .f32⟩
  | 44 => ⟨S1x50, .f32⟩
  | 45 => ⟨S4096x50, .f32⟩
  | 46 => ⟨S4096x50, .f32⟩
  | 47 => ⟨S_, .f32⟩
  | 48 => ⟨S4096x50, .f32⟩
  | 49 => ⟨S4096x50, .i1⟩
  | 50 => ⟨S_, .f32⟩
  | 51 => ⟨S4096x50, .f32⟩
  | 52 => ⟨S4096x50, .f32⟩
  | 53 => ⟨S4096x50, .f32⟩
  | 54 => ⟨S4096x50, .f32⟩
  | 55 => ⟨S50x2, .f32⟩
  | 56 => ⟨S4096x2, .f32⟩
  | 57 => ⟨S1x2, .f32⟩
  | 58 => ⟨S4096x2, .f32⟩
  | 59 => ⟨S4096x2, .f32⟩
  | 60 => ⟨S2x50, .f32⟩
  | 61 => ⟨S4096x50, .f32⟩
  | 62 => ⟨S1x50, .f32⟩
  | 63 => ⟨S4096x50, .f32⟩
  | 64 => ⟨S4096x50, .f32⟩
  | 65 => ⟨S_, .f32⟩
  | 66 => ⟨S4096x50, .f32⟩
  | 67 => ⟨S4096x50, .i1⟩
  | 68 => ⟨S_, .f32⟩
  | 69 => ⟨S4096x50, .f32⟩
  | 70 => ⟨S4096x50, .f32⟩
  | 71 => ⟨S4096x50, .f32⟩
  | 72 => ⟨S50x200, .f32⟩
  | 73 => ⟨S4096x200, .f32⟩
  | 74 => ⟨S1x200, .f32⟩
  | 75 => ⟨S4096x200, .f32⟩
  | 76 => ⟨S4096x200, .f32⟩
  | 77 => ⟨S_, .f32⟩
  | 78 => ⟨S4096x200, .f32⟩
  | 79 => ⟨S4096x200, .i1⟩
  | 80 => ⟨S_, .f32⟩
  | 81 => ⟨S4096x200, .f32⟩
  | 82 => ⟨S4096x200, .f32⟩
  | 83 => ⟨S4096x200, .f32⟩
  | 84 => ⟨S200x400, .f32⟩
  | 85 => ⟨S4096x400, .f32⟩
  | 86 => ⟨S1x400, .f32⟩
  | 87 => ⟨S4096x400, .f32⟩
  | 88 => ⟨S4096x400, .f32⟩
  | 89 => ⟨S_, .f32⟩
  | 90 => ⟨S4096x400, .f32⟩
  | 91 => ⟨S4096x400, .i1⟩
  | 92 => ⟨S_, .f32⟩
  | 93 => ⟨S4096x400, .f32⟩
  | 94 => ⟨S4096x400, .f32⟩
  | 95 => ⟨S4096x400, .f32⟩
  | 96 => ⟨S400x784, .f32⟩
  | 97 => ⟨S4096x784, .f32⟩
  | 98 => ⟨S1x784, .f32⟩
  | 99 => ⟨S4096x784, .f32⟩
  | 100 => ⟨S4096x784, .f32⟩
  | 101 => ⟨S4096x784, .f32⟩
  | 102 => ⟨S4096x784, .f32⟩
  | 103 => ⟨S_, .f32⟩
  | 104 => ⟨S4096x784, .f32⟩
  | 105 => ⟨S4096x784, .f32⟩
  | 106 => ⟨S_, .f32⟩
  | 107 => ⟨S4096x784, .f32⟩
  | 108 => ⟨S4096x784, .f32⟩
  | 109 => ⟨S4096x1x28x28, .f32⟩
  | 110 => ⟨S4096x784, .f32⟩
  | 111 => ⟨S_, .f32⟩
  | 112 => ⟨S4096, .f32⟩
  | 113 => ⟨S4096x1, .f32⟩
  | 114 => ⟨S1x4096, .f32⟩
  | 115 => ⟨S4096x4096, .f32⟩
  | 116 => ⟨S4096x4096, .f32⟩
  | 117 => ⟨S4096x4096, .f32⟩
  | 118 => ⟨S784x4096, .f32⟩
  | 119 => ⟨S4096x4096, .f32⟩
  | 120 => ⟨S_, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .i32⟩
  | 127 => ⟨S_, .i32⟩
  | _ => ⟨S4096x1x28x28, .f32⟩

abbrev hbmTy0_1 (i : Nat) : BufTy := match i % 128 with
  | 0 => ⟨S4096x4096, .i32⟩
  | 1 => ⟨S4096x4096, .i32⟩
  | 2 => ⟨S4096x4096, .i32⟩
  | 3 => ⟨S4096x4096, .i1⟩
  | 4 => ⟨S_, .f32⟩
  | 5 => ⟨S4096x4096, .f32⟩
  | 6 => ⟨S4096x4096, .f32⟩
  | 7 => ⟨S_, .f32⟩
  | 8 => ⟨S4096x4096, .f32⟩
  | 9 => ⟨S4096x4096, .i1⟩
  | 10 => ⟨S16777216, .i1⟩
  | 11 => ⟨S16777216, .i32⟩
  | 12 => ⟨S_, .i32⟩
  | 13 => ⟨S_, .i32⟩
  | 14 => ⟨S16777216, .i32⟩
  | 15 => ⟨S_, .i32⟩
  | 16 => ⟨S8386560, .i32⟩
  | 17 => ⟨S_, .i32⟩
  | 18 => ⟨S_, .i32⟩
  | 19 => ⟨S16777216, .i32⟩
  | 20 => ⟨S16777216, .i32⟩
  | 21 => ⟨S_, .i32⟩
  | 22 => ⟨S16777216, .i32⟩
  | 23 => ⟨S16777216, .i1⟩
  | 24 => ⟨S_, .i32⟩
  | 25 => ⟨S16777216, .i32⟩
  | 26 => ⟨S16777216, .i32⟩
  | 27 => ⟨S16777216, .i32⟩
  | 28 => ⟨S16777216x1, .i32⟩
  | 29 => ⟨S_, .i32⟩
  | 30 => ⟨S16777216, .i32⟩
  | 31 => ⟨S8386560, .i32⟩
  | 32 => ⟨S_, .i32⟩
  | 33 => ⟨S_, .i32⟩
  | 34 => ⟨S8386560, .i32⟩
  | 35 => ⟨S_, .i32⟩
  | 36 => ⟨S8386560, .i32⟩
  | 37 => ⟨S8386560, .i32⟩
  | 38 => ⟨S8386560, .i32⟩
  | 39 => ⟨S_, .i32⟩
  | 40 => ⟨S8386560, .i32⟩
  | 41 => ⟨S8386560, .i1⟩
  | 42 => ⟨S8386560, .i32⟩
  | 43 => ⟨S8386560, .i32⟩
  | 44 => ⟨S_, .i32⟩
  | 45 => ⟨S8386560, .i32⟩
  | 46 => ⟨S8386560, .i1⟩
  | 47 => ⟨S8386560, .i1⟩
  | 48 => ⟨S_, .i32⟩
  | 49 => ⟨S8386560, .i32⟩
  | 50 => ⟨S8386560, .i32⟩
  | 51 => ⟨S8386560, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S8386560, .i32⟩
  | 59 => ⟨S8386560, .i32⟩
  | 60 => ⟨S_, .i32⟩
  | 61 => ⟨S8386560, .i32⟩
  | 62 => ⟨S8386560, .i1⟩
  | 63 => ⟨S_, .i32⟩
  | 64 => ⟨S8386560, .i32⟩
  | 65 => ⟨S8386560, .i1⟩
  | 66 => ⟨S_, .i32⟩
  | 67 => ⟨S_, .i1⟩
  | 68 => ⟨S8386560, .i1⟩
  | 69 => ⟨S8386560, .i1⟩
  | 70 => ⟨S8386560, .i1⟩
  | 71 => ⟨S8386560, .i32⟩
  | 72 => ⟨S8386560, .i32⟩
  | 73 => ⟨S8386560, .i32⟩
  | 74 => ⟨S_, .i32⟩
  | 75 => ⟨S8386560, .i32⟩
  | 76 => ⟨S8386560, .i32⟩
  | 77 => ⟨S8386560, .i32⟩
  | 78 => ⟨S_, .i32⟩
  | 79 => ⟨S8386560, .i32⟩
  | 80 => ⟨S8386560, .i1⟩
  | 81 => ⟨S8386560, .i32⟩
  | 82 => ⟨S8386560, .i32⟩
  | 83 => ⟨S_, .i32⟩
  | 84 => ⟨S8386560, .i32⟩
  | 85 => ⟨S8386560, .i1⟩
  | 86 => ⟨S8386560, .i1⟩
  | 87 => ⟨S_, .i32⟩
  | 88 => ⟨S8386560, .i32⟩
  | 89 => ⟨S8386560, .i32⟩
  | 90 => ⟨S8386560, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S8386560, .i32⟩
  | 98 => ⟨S8386560, .i32⟩
  | 99 => ⟨S_, .i32⟩
  | 100 => ⟨S8386560, .i32⟩
  | 101 => ⟨S8386560, .i1⟩
  | 102 => ⟨S_, .i32⟩
  | 103 => ⟨S8386560, .i32⟩
  | 104 => ⟨S8386560, .i1⟩
  | 105 => ⟨S_, .i32⟩
  | 106 => ⟨S_, .i1⟩
  | 107 => ⟨S8386560, .i1⟩
  | 108 => ⟨S8386560, .i1⟩
  | 109 => ⟨S8386560, .i1⟩
  | 110 => ⟨S8386560, .i32⟩
  | 111 => ⟨S8386560, .i32⟩
  | 112 => ⟨S8386560, .i32⟩
  | 113 => ⟨S_, .i32⟩
  | 114 => ⟨S8386560, .i32⟩
  | 115 => ⟨S8386560, .i1⟩
  | 116 => ⟨S_, .i32⟩
  | 117 => ⟨S8386560, .i32⟩
  | 118 => ⟨S8386560, .i32⟩
  | 119 => ⟨S8386560, .i32⟩
  | 120 => ⟨S_, .i32⟩
  | 121 => ⟨S8386560, .i32⟩
  | 122 => ⟨S8386560, .i1⟩
  | 123 => ⟨S_, .i32⟩
  | 124 => ⟨S8386560, .i32⟩
  | 125 => ⟨S8386560, .i32⟩
  | 126 => ⟨S8386560, .i32⟩
  | 127 => ⟨S8386560x1, .i32⟩
  | _ => ⟨S4096x1x28x28, .f32⟩

abbrev hbmTy0_2 (i : Nat) : BufTy := match i % 128 with
  | 0 => ⟨S8386560x1, .i32⟩
  | 1 => ⟨S8386560x2, .i32⟩
  | 2 => ⟨S8386560, .f32⟩
  | 3 => ⟨S_, .f32⟩
  | 4 => ⟨S8386560, .f32⟩
  | 5 => ⟨S8386560, .f32⟩
  | 6 => ⟨S8386560, .f32⟩
  | 7 => ⟨S4096x2, .f32⟩
  | 8 => ⟨S_, .f32⟩
  | 9 => ⟨S4096, .f32⟩
  | 10 => ⟨S4096x1, .f32⟩
  | 11 => ⟨S1x4096, .f32⟩
  | 12 => ⟨S4096x4096, .f32⟩
  | 13 => ⟨S4096x4096, .f32⟩
  | 14 => ⟨S4096x4096, .f32⟩
  | 15 => ⟨S2x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .i32⟩
  | 24 => ⟨S_, .i32⟩
  | 25 => ⟨S4096x4096, .i32⟩
  | 26 => ⟨S4096x4096, .i32⟩
  | 27 => ⟨S4096x4096, .i32⟩
  | 28 => ⟨S4096x4096, .i1⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .i1⟩
  | 35 => ⟨S16777216, .i1⟩
  | 36 => ⟨S16777216, .i32⟩
  | 37 => ⟨S_, .i32⟩
  | 38 => ⟨S_, .i32⟩
  | 39 => ⟨S16777216, .i32⟩
  | 40 => ⟨S_, .i32⟩
  | 41 => ⟨S8386560, .i32⟩
  | 42 => ⟨S_, .i32⟩
  | 43 => ⟨S_, .i32⟩
  | 44 => ⟨S16777216, .i32⟩
  | 45 => ⟨S16777216, .i32⟩
  | 46 => ⟨S_, .i32⟩
  | 47 => ⟨S16777216, .i32⟩
  | 48 => ⟨S16777216, .i1⟩
  | 49 => ⟨S_, .i32⟩
  | 50 => ⟨S16777216, .i32⟩
  | 51 => ⟨S16777216, .i32⟩
  | 52 => ⟨S16777216, .i32⟩
  | 53 => ⟨S16777216x1, .i32⟩
  | 54 => ⟨S_, .i32⟩
  | 55 => ⟨S16777216, .i32⟩
  | 56 => ⟨S8386560, .i32⟩
  | 57 => ⟨S_, .i32⟩
  | 58 => ⟨S_, .i32⟩
  | 59 => ⟨S8386560, .i32⟩
  | 60 => ⟨S_, .i32⟩
  | 61 => ⟨S8386560, .i32⟩
  | 62 => ⟨S8386560, .i32⟩
  | 63 => ⟨S8386560, .i32⟩
  | 64 => ⟨S_, .i32⟩
  | 65 => ⟨S8386560, .i32⟩
  | 66 => ⟨S8386560, .i1⟩
  | 67 => ⟨S8386560, .i32⟩
  | 68 => ⟨S8386560, .i32⟩
  | 69 => ⟨S_, .i32⟩
  | 70 => ⟨S8386560, .i32⟩
  | 71 => ⟨S8386560, .i1⟩
  | 72 => ⟨S8386560, .i1⟩
  | 73 => ⟨S_, .i32⟩
  | 74 => ⟨S8386560, .i32⟩
  | 75 => ⟨S8386560, .i32⟩
  | 76 => ⟨S8386560, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S8386560, .i32⟩
  | 84 => ⟨S8386560, .i32⟩
  | 85 => ⟨S_, .i32⟩
  | 86 => ⟨S8386560, .i32⟩
  | 87 => ⟨S8386560, .i1⟩
  | 88 => ⟨S_, .i32⟩
  | 89 => ⟨S8386560, .i32⟩
  | 90 => ⟨S8386560, .i1⟩
  | 91 => ⟨S_, .i32⟩
  | 92 => ⟨S_, .i1⟩
  | 93 => ⟨S8386560, .i1⟩
  | 94 => ⟨S8386560, .i1⟩
  | 95 => ⟨S8386560, .i1⟩
  | 96 => ⟨S8386560, .i32⟩
  | 97 => ⟨S8386560, .i32⟩
  | 98 => ⟨S8386560, .i32⟩
  | 99 => ⟨S_, .i32⟩
  | 100 => ⟨S8386560, .i32⟩
  | 101 => ⟨S8386560, .i32⟩
  | 102 => ⟨S8386560, .i32⟩
  | 103 => ⟨S_, .i32⟩
  | 104 => ⟨S8386560, .i32⟩
  | 105 => ⟨S8386560, .i1⟩
  | 106 => ⟨S8386560, .i32⟩
  | 107 => ⟨S8386560, .i32⟩
  | 108 => ⟨S_, .i32⟩
  | 109 => ⟨S8386560, .i32⟩
  | 110 => ⟨S8386560, .i1⟩
  | 111 => ⟨S8386560, .i1⟩
  | 112 => ⟨S_, .i32⟩
  | 113 => ⟨S8386560, .i32⟩
  | 114 => ⟨S8386560, .i32⟩
  | 115 => ⟨S8386560, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S8386560, .i32⟩
  | 123 => ⟨S8386560, .i32⟩
  | 124 => ⟨S_, .i32⟩
  | 125 => ⟨S8386560, .i32⟩
  | 126 => ⟨S8386560, .i1⟩
  | 127 => ⟨S_, .i32⟩
  | _ => ⟨S4096x1x28x28, .f32⟩

abbrev hbmTy0_3 (i : Nat) : BufTy := match i % 128 with
  | 0 => ⟨S8386560, .i32⟩
  | 1 => ⟨S8386560, .i1⟩
  | 2 => ⟨S_, .i32⟩
  | 3 => ⟨S_, .i1⟩
  | 4 => ⟨S8386560, .i1⟩
  | 5 => ⟨S8386560, .i1⟩
  | 6 => ⟨S8386560, .i1⟩
  | 7 => ⟨S8386560, .i32⟩
  | 8 => ⟨S8386560, .i32⟩
  | 9 => ⟨S8386560, .i32⟩
  | 10 => ⟨S_, .i32⟩
  | 11 => ⟨S8386560, .i32⟩
  | 12 => ⟨S8386560, .i1⟩
  | 13 => ⟨S_, .i32⟩
  | 14 => ⟨S8386560, .i32⟩
  | 15 => ⟨S8386560, .i32⟩
  | 16 => ⟨S8386560, .i32⟩
  | 17 => ⟨S_, .i32⟩
  | 18 => ⟨S8386560, .i32⟩
  | 19 => ⟨S8386560, .i1⟩
  | 20 => ⟨S_, .i32⟩
  | 21 => ⟨S8386560, .i32⟩
  | 22 => ⟨S8386560, .i32⟩
  | 23 => ⟨S8386560, .i32⟩
  | 24 => ⟨S8386560x1, .i32⟩
  | 25 => ⟨S8386560x1, .i32⟩
  | 26 => ⟨S8386560x2, .i32⟩
  | 27 => ⟨S8386560, .f32⟩
  | 28 => ⟨S_, .f32⟩
  | 29 => ⟨S8386560, .f32⟩
  | 30 => ⟨S8386560, .f32⟩
  | 31 => ⟨S8386560, .f32⟩
  | 32 => ⟨S4096x784, .f32⟩
  | 33 => ⟨S_, .f32⟩
  | 34 => ⟨S4096, .f32⟩
  | 35 => ⟨S4096x1, .f32⟩
  | 36 => ⟨S1x4096, .f32⟩
  | 37 => ⟨S4096x4096, .f32⟩
  | 38 => ⟨S4096x4096, .f32⟩
  | 39 => ⟨S4096x4096, .f32⟩
  | 40 => ⟨S784x4096, .f32⟩
  | 41 => ⟨S4096x4096, .f32⟩
  | 42 => ⟨S_, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .i32⟩
  | 49 => ⟨S_, .i32⟩
  | 50 => ⟨S4096x4096, .i32⟩
  | 51 => ⟨S4096x4096, .i32⟩
  | 52 => ⟨S4096x4096, .i32⟩
  | 53 => ⟨S4096x4096, .i1⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .i1⟩
  | 60 => ⟨S16777216, .i1⟩
  | 61 => ⟨S16777216, .i32⟩
  | 62 => ⟨S_, .i32⟩
  | 63 => ⟨S_, .i32⟩
  | 64 => ⟨S16777216, .i32⟩
  | 65 => ⟨S_, .i32⟩
  | 66 => ⟨S8386560, .i32⟩
  | 67 => ⟨S_, .i32⟩
  | 68 => ⟨S_, .i32⟩
  | 69 => ⟨S16777216, .i32⟩
  | 70 => ⟨S16777216, .i32⟩
  | 71 => ⟨S_, .i32⟩
  | 72 => ⟨S16777216, .i32⟩
  | 73 => ⟨S16777216, .i1⟩
  | 74 => ⟨S_, .i32⟩
  | 75 => ⟨S16777216, .i32⟩
  | 76 => ⟨S16777216, .i32⟩
  | 77 => ⟨S16777216, .i32⟩
  | 78 => ⟨S16777216x1, .i32⟩
  | 79 => ⟨S_, .i32⟩
  | 80 => ⟨S16777216, .i32⟩
  | 81 => ⟨S8386560, .i32⟩
  | 82 => ⟨S_, .i32⟩
  | 83 => ⟨S_, .i32⟩
  | 84 => ⟨S8386560, .i32⟩
  | 85 => ⟨S_, .i32⟩
  | 86 => ⟨S8386560, .i32⟩
  | 87 => ⟨S8386560, .i32⟩
  | 88 => ⟨S8386560, .i32⟩
  | 89 => ⟨S_, .i32⟩
  | 90 => ⟨S8386560, .i32⟩
  | 91 => ⟨S8386560, .i1⟩
  | 92 => ⟨S8386560, .i32⟩
  | 93 => ⟨S8386560, .i32⟩
  | 94 => ⟨S_, .i32⟩
  | 95 => ⟨S8386560, .i32⟩
  | 96 => ⟨S8386560, .i1⟩
  | 97 => ⟨S8386560, .i1⟩
  | 98 => ⟨S_, .i32⟩
  | 99 => ⟨S8386560, .i32⟩
  | 100 => ⟨S8386560, .i32⟩
  | 101 => ⟨S8386560, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S8386560, .i32⟩
  | 109 => ⟨S8386560, .i32⟩
  | 110 => ⟨S_, .i32⟩
  | 111 => ⟨S8386560, .i32⟩
  | 112 => ⟨S8386560, .i1⟩
  | 113 => ⟨S_, .i32⟩
  | 114 => ⟨S8386560, .i32⟩
  | 115 => ⟨S8386560, .i1⟩
  | 116 => ⟨S_, .i32⟩
  | 117 => ⟨S_, .i1⟩
  | 118 => ⟨S8386560, .i1⟩
  | 119 => ⟨S8386560, .i1⟩
  | 120 => ⟨S8386560, .i1⟩
  | 121 => ⟨S8386560, .i32⟩
  | 122 => ⟨S8386560, .i32⟩
  | 123 => ⟨S8386560, .i32⟩
  | 124 => ⟨S_, .i32⟩
  | 125 => ⟨S8386560, .i32⟩
  | 126 => ⟨S8386560, .i32⟩
  | 127 => ⟨S8386560, .i32⟩
  | _ => ⟨S4096x1x28x28, .f32⟩

abbrev hbmTy0_4 (i : Nat) : BufTy := match i % 128 with
  | 0 => ⟨S_, .i32⟩
  | 1 => ⟨S8386560, .i32⟩
  | 2 => ⟨S8386560, .i1⟩
  | 3 => ⟨S8386560, .i32⟩
  | 4 => ⟨S8386560, .i32⟩
  | 5 => ⟨S_, .i32⟩
  | 6 => ⟨S8386560, .i32⟩
  | 7 => ⟨S8386560, .i1⟩
  | 8 => ⟨S8386560, .i1⟩
  | 9 => ⟨S_, .i32⟩
  | 10 => ⟨S8386560, .i32⟩
  | 11 => ⟨S8386560, .i32⟩
  | 12 => ⟨S8386560, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S8386560, .i32⟩
  | 20 => ⟨S8386560, .i32⟩
  | 21 => ⟨S_, .i32⟩
  | 22 => ⟨S8386560, .i32⟩
  | 23 => ⟨S8386560, .i1⟩
  | 24 => ⟨S_, .i32⟩
  | 25 => ⟨S8386560, .i32⟩
  | 26 => ⟨S8386560, .i1⟩
  | 27 => ⟨S_, .i32⟩
  | 28 => ⟨S_, .i1⟩
  | 29 => ⟨S8386560, .i1⟩
  | 30 => ⟨S8386560, .i1⟩
  | 31 => ⟨S8386560, .i1⟩
  | 32 => ⟨S8386560, .i32⟩
  | 33 => ⟨S8386560, .i32⟩
  | 34 => ⟨S8386560, .i32⟩
  | 35 => ⟨S_, .i32⟩
  | 36 => ⟨S8386560, .i32⟩
  | 37 => ⟨S8386560, .i1⟩
  | 38 => ⟨S_, .i32⟩
  | 39 => ⟨S8386560, .i32⟩
  | 40 => ⟨S8386560, .i32⟩
  | 41 => ⟨S8386560, .i32⟩
  | 42 => ⟨S_, .i32⟩
  | 43 => ⟨S8386560, .i32⟩
  | 44 => ⟨S8386560, .i1⟩
  | 45 => ⟨S_, .i32⟩
  | 46 => ⟨S8386560, .i32⟩
  | 47 => ⟨S8386560, .i32⟩
  | 48 => ⟨S8386560, .i32⟩
  | 49 => ⟨S8386560x1, .i32⟩
  | 50 => ⟨S8386560x1, .i32⟩
  | 51 => ⟨S8386560x2, .i32⟩
  | 52 => ⟨S8386560, .f32⟩
  | 53 => ⟨S_, .f32⟩
  | 54 => ⟨S8386560, .f32⟩
  | 55 => ⟨S8386560, .f32⟩
  | 56 => ⟨S8386560, .f32⟩
  | _ => ⟨S4096x1x28x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1x28x28, .f32⟩

abbrev bufTy : (tb : Table) → Fin (tcTables nBuf tb) → BufTy
  | .hbm, ⟨i, _⟩ => hbmTy i
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_cst_0 : Ref sig .tc := ⟨.hbm, 68, rfl⟩
abbrev main_call3_v2 : Ref sig .tc := ⟨.hbm, 69, rfl⟩
abbrev main_call3_v3 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_cst_0 : Ref sig .tc := ⟨.hbm, 80, rfl⟩
abbrev main_call4_v2 : Ref sig .tc := ⟨.hbm, 81, rfl⟩
abbrev main_call4_v3 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call5_cst : Ref sig .tc := ⟨.hbm, 89, rfl⟩
abbrev main_call5_v0 : Ref sig .tc := ⟨.hbm, 90, rfl⟩
abbrev main_call5_v1 : Ref sig .tc := ⟨.hbm, 91, rfl⟩
abbrev main_call5_cst_0 : Ref sig .tc := ⟨.hbm, 92, rfl⟩
abbrev main_call5_v2 : Ref sig .tc := ⟨.hbm, 93, rfl⟩
abbrev main_call5_v3 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst : Ref sig .tc := ⟨.hbm, 103, rfl⟩
abbrev main_v50 : Ref sig .tc := ⟨.hbm, 104, rfl⟩
abbrev main_v51 : Ref sig .tc := ⟨.hbm, 105, rfl⟩
abbrev main_cst_0 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_1 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_2 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_3 : Ref sig .tc := ⟨.hbm, 124, rfl⟩
abbrev main_v67 : Ref sig .tc := ⟨.hbm, 125, rfl⟩
abbrev main_call6_v0 : Ref sig .tc := ⟨.hbm, 126, rfl⟩
abbrev main_call6_c : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_cst : Ref sig .tc := ⟨.hbm, 132, rfl⟩
abbrev main_call6_v5 : Ref sig .tc := ⟨.hbm, 133, rfl⟩
abbrev main_v68 : Ref sig .tc := ⟨.hbm, 134, rfl⟩
abbrev main_cst_4 : Ref sig .tc := ⟨.hbm, 135, rfl⟩
abbrev main_v69 : Ref sig .tc := ⟨.hbm, 136, rfl⟩
abbrev main_v70 : Ref sig .tc := ⟨.hbm, 137, rfl⟩
abbrev main_call7_v0 : Ref sig .tc := ⟨.hbm, 138, rfl⟩
abbrev main_call7_v1 : Ref sig .tc := ⟨.hbm, 139, rfl⟩
abbrev main_call7_call0_c : Ref sig .tc := ⟨.hbm, 140, rfl⟩
abbrev main_call7_call0_v0 : Ref sig .tc := ⟨.hbm, 141, rfl⟩
abbrev main_v71 : Ref sig .tc := ⟨.hbm, 142, rfl⟩
abbrev main_c : Ref sig .tc := ⟨.hbm, 143, rfl⟩
abbrev main_v72 : Ref sig .tc := ⟨.hbm, 144, rfl⟩
abbrev main_c_5 : Ref sig .tc := ⟨.hbm, 145, rfl⟩
abbrev main_call8_v0 : Ref sig .tc := ⟨.hbm, 146, rfl⟩
abbrev main_call8_v1 : Ref sig .tc := ⟨.hbm, 147, rfl⟩
abbrev main_v73 : Ref sig .tc := ⟨.hbm, 148, rfl⟩
abbrev main_c_6 : Ref sig .tc := ⟨.hbm, 149, rfl⟩
abbrev main_v74 : Ref sig .tc := ⟨.hbm, 150, rfl⟩
abbrev main_v75 : Ref sig .tc := ⟨.hbm, 151, rfl⟩
abbrev main_c_7 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_c_8 : Ref sig .tc := ⟨.hbm, 157, rfl⟩
abbrev main_v80 : Ref sig .tc := ⟨.hbm, 158, rfl⟩
abbrev main_v81 : Ref sig .tc := ⟨.hbm, 159, rfl⟩
abbrev main_call9_call0_c : Ref sig .tc := ⟨.hbm, 160, rfl⟩
abbrev main_call9_call0_v0 : Ref sig .tc := ⟨.hbm, 161, rfl⟩
abbrev main_v82 : Ref sig .tc := ⟨.hbm, 162, rfl⟩
abbrev main_c_9 : Ref sig .tc := ⟨.hbm, 163, rfl⟩
abbrev main_call10_v0 : Ref sig .tc := ⟨.hbm, 164, rfl⟩
abbrev main_call10_v1 : Ref sig .tc := ⟨.hbm, 165, rfl⟩
abbrev main_call10_v2 : Ref sig .tc := ⟨.hbm, 166, rfl⟩
abbrev main_call10_v3 : Ref sig .tc := ⟨.hbm, 167, rfl⟩
abbrev main_call10_v4 : Ref sig .tc := ⟨.hbm, 168, rfl⟩
abbrev main_call10_v5 : Ref sig .tc := ⟨.hbm, 169, rfl⟩
abbrev main_call10_v6 : Ref sig .tc := ⟨.hbm, 170, rfl⟩
abbrev main_call10_v7 : Ref sig .tc := ⟨.hbm, 171, rfl⟩
abbrev main_call10_c : Ref sig .tc := ⟨.hbm, 172, rfl⟩
abbrev main_call10_v8 : Ref sig .tc := ⟨.hbm, 173, rfl⟩
abbrev main_call10_v9 : Ref sig .tc := ⟨.hbm, 174, rfl⟩
abbrev main_call10_v10 : Ref sig .tc := ⟨.hbm, 175, rfl⟩
abbrev main_call10_c_0 : Ref sig .tc := ⟨.hbm, 176, rfl⟩
abbrev main_call10_v11 : Ref sig .tc := ⟨.hbm, 177, rfl⟩
abbrev main_call10_v12 : Ref sig .tc := ⟨.hbm, 178, rfl⟩
abbrev main_v83 : Ref sig .tc := ⟨.hbm, 179, rfl⟩
abbrev main_c_10 : Ref sig .tc := ⟨.hbm, 180, rfl⟩
abbrev main_call11_v0 : Ref sig .tc := ⟨.hbm, 181, rfl⟩
abbrev main_call11_c : Ref sig .tc := ⟨.hbm, 182, rfl⟩
abbrev main_call11_v1 : Ref sig .tc := ⟨.hbm, 183, rfl⟩
abbrev main_call11_c_0 : Ref sig .tc := ⟨.hbm, 184, rfl⟩
abbrev main_call11_v2 : Ref sig .tc := ⟨.hbm, 185, rfl⟩
abbrev main_call11_v3 : Ref sig .tc := ⟨.hbm, 186, rfl⟩
abbrev main_call11_v4 : Ref sig .tc := ⟨.hbm, 187, rfl⟩
abbrev main_call11_c_1 : Ref sig .tc := ⟨.hbm, 188, rfl⟩
abbrev main_call11_v5 : Ref sig .tc := ⟨.hbm, 189, rfl⟩
abbrev main_call11_v6 : Ref sig .tc := ⟨.hbm, 190, rfl⟩
abbrev main_call11_c_2 : Ref sig .tc := ⟨.hbm, 191, rfl⟩
abbrev main_call11_v7 : Ref sig .tc := ⟨.hbm, 192, rfl⟩
abbrev main_call11_v8 : Ref sig .tc := ⟨.hbm, 193, rfl⟩
abbrev main_call11_c_3 : Ref sig .tc := ⟨.hbm, 194, rfl⟩
abbrev main_call11_v9 : Ref sig .tc := ⟨.hbm, 195, rfl⟩
abbrev main_call11_v10 : Ref sig .tc := ⟨.hbm, 196, rfl⟩
abbrev main_call11_v11 : Ref sig .tc := ⟨.hbm, 197, rfl⟩
abbrev main_call11_v12 : Ref sig .tc := ⟨.hbm, 198, rfl⟩
abbrev main_call11_v13 : Ref sig .tc := ⟨.hbm, 199, rfl⟩
abbrev main_call11_v14 : Ref sig .tc := ⟨.hbm, 200, rfl⟩
abbrev main_v84 : Ref sig .tc := ⟨.hbm, 201, rfl⟩
abbrev main_c_11 : Ref sig .tc := ⟨.hbm, 202, rfl⟩
abbrev main_call12_v0 : Ref sig .tc := ⟨.hbm, 203, rfl⟩
abbrev main_call12_v1 : Ref sig .tc := ⟨.hbm, 204, rfl⟩
abbrev main_call12_v2 : Ref sig .tc := ⟨.hbm, 205, rfl⟩
abbrev main_call12_v3 : Ref sig .tc := ⟨.hbm, 206, rfl⟩
abbrev main_call12_v4 : Ref sig .tc := ⟨.hbm, 207, rfl⟩
abbrev main_call12_v5 : Ref sig .tc := ⟨.hbm, 208, rfl⟩
abbrev main_call12_v6 : Ref sig .tc := ⟨.hbm, 209, rfl⟩
abbrev main_call12_v7 : Ref sig .tc := ⟨.hbm, 210, rfl⟩
abbrev main_call12_c : Ref sig .tc := ⟨.hbm, 211, rfl⟩
abbrev main_call12_v8 : Ref sig .tc := ⟨.hbm, 212, rfl⟩
abbrev main_call12_v9 : Ref sig .tc := ⟨.hbm, 213, rfl⟩
abbrev main_call12_v10 : Ref sig .tc := ⟨.hbm, 214, rfl⟩
abbrev main_call12_c_0 : Ref sig .tc := ⟨.hbm, 215, rfl⟩
abbrev main_call12_v11 : Ref sig .tc := ⟨.hbm, 216, rfl⟩
abbrev main_call12_v12 : Ref sig .tc := ⟨.hbm, 217, rfl⟩
abbrev main_v85 : Ref sig .tc := ⟨.hbm, 218, rfl⟩
abbrev main_c_12 : Ref sig .tc := ⟨.hbm, 219, rfl⟩
abbrev main_call13_v0 : Ref sig .tc := ⟨.hbm, 220, rfl⟩
abbrev main_call13_c : Ref sig .tc := ⟨.hbm, 221, rfl⟩
abbrev main_call13_v1 : Ref sig .tc := ⟨.hbm, 222, rfl⟩
abbrev main_call13_c_0 : Ref sig .tc := ⟨.hbm, 223, rfl⟩
abbrev main_call13_v2 : Ref sig .tc := ⟨.hbm, 224, rfl⟩
abbrev main_call13_v3 : Ref sig .tc := ⟨.hbm, 225, rfl⟩
abbrev main_call13_v4 : Ref sig .tc := ⟨.hbm, 226, rfl⟩
abbrev main_call13_c_1 : Ref sig .tc := ⟨.hbm, 227, rfl⟩
abbrev main_call13_v5 : Ref sig .tc := ⟨.hbm, 228, rfl⟩
abbrev main_call13_v6 : Ref sig .tc := ⟨.hbm, 229, rfl⟩
abbrev main_call13_c_2 : Ref sig .tc := ⟨.hbm, 230, rfl⟩
abbrev main_call13_v7 : Ref sig .tc := ⟨.hbm, 231, rfl⟩
abbrev main_call13_v8 : Ref sig .tc := ⟨.hbm, 232, rfl⟩
abbrev main_call13_c_3 : Ref sig .tc := ⟨.hbm, 233, rfl⟩
abbrev main_call13_v9 : Ref sig .tc := ⟨.hbm, 234, rfl⟩
abbrev main_call13_v10 : Ref sig .tc := ⟨.hbm, 235, rfl⟩
abbrev main_call13_v11 : Ref sig .tc := ⟨.hbm, 236, rfl⟩
abbrev main_call13_v12 : Ref sig .tc := ⟨.hbm, 237, rfl⟩
abbrev main_call13_v13 : Ref sig .tc := ⟨.hbm, 238, rfl⟩
abbrev main_call13_v14 : Ref sig .tc := ⟨.hbm, 239, rfl⟩
abbrev main_v86 : Ref sig .tc := ⟨.hbm, 240, rfl⟩
abbrev main_c_13 : Ref sig .tc := ⟨.hbm, 241, rfl⟩
abbrev main_v87 : Ref sig .tc := ⟨.hbm, 242, rfl⟩
abbrev main_v88 : Ref sig .tc := ⟨.hbm, 243, rfl⟩
abbrev main_c_14 : Ref sig .tc := ⟨.hbm, 244, rfl⟩
abbrev main_v89 : Ref sig .tc := ⟨.hbm, 245, rfl⟩
abbrev main_v90 : Ref sig .tc := ⟨.hbm, 246, rfl⟩
abbrev main_v91 : Ref sig .tc := ⟨.hbm, 247, rfl⟩
abbrev main_c_15 : Ref sig .tc := ⟨.hbm, 248, rfl⟩
abbrev main_v92 : Ref sig .tc := ⟨.hbm, 249, rfl⟩
abbrev main_v93 : Ref sig .tc := ⟨.hbm, 250, rfl⟩
abbrev main_c_16 : Ref sig .tc := ⟨.hbm, 251, rfl⟩
abbrev main_v94 : Ref sig .tc := ⟨.hbm, 252, rfl⟩
abbrev main_v95 : Ref sig .tc := ⟨.hbm, 253, rfl⟩
abbrev main_v96 : Ref sig .tc := ⟨.hbm, 254, rfl⟩
abbrev main_v97 : Ref sig .tc := ⟨.hbm, 255, rfl⟩
abbrev main_v98 : Ref sig .tc := ⟨.hbm, 256, rfl⟩
abbrev main_v99 : Ref sig .tc := ⟨.hbm, 257, rfl⟩
abbrev main_v100 : Ref sig .tc := ⟨.hbm, 258, rfl⟩
abbrev main_cst_17 : Ref sig .tc := ⟨.hbm, 259, rfl⟩
abbrev main_v101 : Ref sig .tc := ⟨.hbm, 260, rfl⟩
abbrev main_v102 : Ref sig .tc := ⟨.hbm, 261, rfl⟩
abbrev main_v103 : Ref sig .tc := ⟨.hbm, 262, rfl⟩
abbrev main_v104 : Ref sig .tc := ⟨.hbm, 263, rfl⟩
abbrev main_cst_18 : Ref sig .tc := ⟨.hbm, 264, rfl⟩
abbrev main_v105 : Ref sig .tc := ⟨.hbm, 265, rfl⟩
abbrev main_v106 : Ref sig .tc := ⟨.hbm, 266, rfl⟩
abbrev main_v107 : Ref sig .tc := ⟨.hbm, 267, rfl⟩
abbrev main_v108 : Ref sig .tc := ⟨.hbm, 268, rfl⟩
abbrev main_v109 : Ref sig .tc := ⟨.hbm, 269, rfl⟩
abbrev main_v110 : Ref sig .tc := ⟨.hbm, 270, rfl⟩
abbrev main_v111 : Ref sig .tc := ⟨.hbm, 271, rfl⟩
abbrev main_v112 : Ref sig .tc := ⟨.hbm, 272, rfl⟩
abbrev main_cst_19 : Ref sig .tc := ⟨.hbm, 273, rfl⟩
abbrev main_v113 : Ref sig .tc := ⟨.hbm, 274, rfl⟩
abbrev main_v114 : Ref sig .tc := ⟨.hbm, 275, rfl⟩
abbrev main_v115 : Ref sig .tc := ⟨.hbm, 276, rfl⟩
abbrev main_cst_20 : Ref sig .tc := ⟨.hbm, 277, rfl⟩
abbrev main_v116 : Ref sig .tc := ⟨.hbm, 278, rfl⟩
abbrev main_call14_v0 : Ref sig .tc := ⟨.hbm, 279, rfl⟩
abbrev main_call14_c : Ref sig .tc := ⟨.hbm, 280, rfl⟩
abbrev main_call14_v1 : Ref sig .tc := ⟨.hbm, 281, rfl⟩
abbrev main_call14_v2 : Ref sig .tc := ⟨.hbm, 282, rfl⟩
abbrev main_call14_v3 : Ref sig .tc := ⟨.hbm, 283, rfl⟩
abbrev main_call14_v4 : Ref sig .tc := ⟨.hbm, 284, rfl⟩
abbrev main_call14_cst : Ref sig .tc := ⟨.hbm, 285, rfl⟩
abbrev main_call14_v5 : Ref sig .tc := ⟨.hbm, 286, rfl⟩
abbrev main_v117 : Ref sig .tc := ⟨.hbm, 287, rfl⟩
abbrev main_cst_21 : Ref sig .tc := ⟨.hbm, 288, rfl⟩
abbrev main_v118 : Ref sig .tc := ⟨.hbm, 289, rfl⟩
abbrev main_v119 : Ref sig .tc := ⟨.hbm, 290, rfl⟩
abbrev main_call15_v0 : Ref sig .tc := ⟨.hbm, 291, rfl⟩
abbrev main_call15_v1 : Ref sig .tc := ⟨.hbm, 292, rfl⟩
abbrev main_call15_call0_c : Ref sig .tc := ⟨.hbm, 293, rfl⟩
abbrev main_call15_call0_v0 : Ref sig .tc := ⟨.hbm, 294, rfl⟩
abbrev main_v120 : Ref sig .tc := ⟨.hbm, 295, rfl⟩
abbrev main_c_22 : Ref sig .tc := ⟨.hbm, 296, rfl⟩
abbrev main_v121 : Ref sig .tc := ⟨.hbm, 297, rfl⟩
abbrev main_c_23 : Ref sig .tc := ⟨.hbm, 298, rfl⟩
abbrev main_call16_v0 : Ref sig .tc := ⟨.hbm, 299, rfl⟩
abbrev main_call16_v1 : Ref sig .tc := ⟨.hbm, 300, rfl⟩
abbrev main_v122 : Ref sig .tc := ⟨.hbm, 301, rfl⟩
abbrev main_c_24 : Ref sig .tc := ⟨.hbm, 302, rfl⟩
abbrev main_v123 : Ref sig .tc := ⟨.hbm, 303, rfl⟩
abbrev main_v124 : Ref sig .tc := ⟨.hbm, 304, rfl⟩
abbrev main_c_25 : Ref sig .tc := ⟨.hbm, 305, rfl⟩
abbrev main_v125 : Ref sig .tc := ⟨.hbm, 306, rfl⟩
abbrev main_v126 : Ref sig .tc := ⟨.hbm, 307, rfl⟩
abbrev main_v127 : Ref sig .tc := ⟨.hbm, 308, rfl⟩
abbrev main_v128 : Ref sig .tc := ⟨.hbm, 309, rfl⟩
abbrev main_c_26 : Ref sig .tc := ⟨.hbm, 310, rfl⟩
abbrev main_v129 : Ref sig .tc := ⟨.hbm, 311, rfl⟩
abbrev main_v130 : Ref sig .tc := ⟨.hbm, 312, rfl⟩
abbrev main_call17_call0_c : Ref sig .tc := ⟨.hbm, 313, rfl⟩
abbrev main_call17_call0_v0 : Ref sig .tc := ⟨.hbm, 314, rfl⟩
abbrev main_v131 : Ref sig .tc := ⟨.hbm, 315, rfl⟩
abbrev main_c_27 : Ref sig .tc := ⟨.hbm, 316, rfl⟩
abbrev main_call18_v0 : Ref sig .tc := ⟨.hbm, 317, rfl⟩
abbrev main_call18_v1 : Ref sig .tc := ⟨.hbm, 318, rfl⟩
abbrev main_call18_v2 : Ref sig .tc := ⟨.hbm, 319, rfl⟩
abbrev main_call18_v3 : Ref sig .tc := ⟨.hbm, 320, rfl⟩
abbrev main_call18_v4 : Ref sig .tc := ⟨.hbm, 321, rfl⟩
abbrev main_call18_v5 : Ref sig .tc := ⟨.hbm, 322, rfl⟩
abbrev main_call18_v6 : Ref sig .tc := ⟨.hbm, 323, rfl⟩
abbrev main_call18_v7 : Ref sig .tc := ⟨.hbm, 324, rfl⟩
abbrev main_call18_c : Ref sig .tc := ⟨.hbm, 325, rfl⟩
abbrev main_call18_v8 : Ref sig .tc := ⟨.hbm, 326, rfl⟩
abbrev main_call18_v9 : Ref sig .tc := ⟨.hbm, 327, rfl⟩
abbrev main_call18_v10 : Ref sig .tc := ⟨.hbm, 328, rfl⟩
abbrev main_call18_c_0 : Ref sig .tc := ⟨.hbm, 329, rfl⟩
abbrev main_call18_v11 : Ref sig .tc := ⟨.hbm, 330, rfl⟩
abbrev main_call18_v12 : Ref sig .tc := ⟨.hbm, 331, rfl⟩
abbrev main_v132 : Ref sig .tc := ⟨.hbm, 332, rfl⟩
abbrev main_c_28 : Ref sig .tc := ⟨.hbm, 333, rfl⟩
abbrev main_call19_v0 : Ref sig .tc := ⟨.hbm, 334, rfl⟩
abbrev main_call19_c : Ref sig .tc := ⟨.hbm, 335, rfl⟩
abbrev main_call19_v1 : Ref sig .tc := ⟨.hbm, 336, rfl⟩
abbrev main_call19_c_0 : Ref sig .tc := ⟨.hbm, 337, rfl⟩
abbrev main_call19_v2 : Ref sig .tc := ⟨.hbm, 338, rfl⟩
abbrev main_call19_v3 : Ref sig .tc := ⟨.hbm, 339, rfl⟩
abbrev main_call19_v4 : Ref sig .tc := ⟨.hbm, 340, rfl⟩
abbrev main_call19_c_1 : Ref sig .tc := ⟨.hbm, 341, rfl⟩
abbrev main_call19_v5 : Ref sig .tc := ⟨.hbm, 342, rfl⟩
abbrev main_call19_v6 : Ref sig .tc := ⟨.hbm, 343, rfl⟩
abbrev main_call19_c_2 : Ref sig .tc := ⟨.hbm, 344, rfl⟩
abbrev main_call19_v7 : Ref sig .tc := ⟨.hbm, 345, rfl⟩
abbrev main_call19_v8 : Ref sig .tc := ⟨.hbm, 346, rfl⟩
abbrev main_call19_c_3 : Ref sig .tc := ⟨.hbm, 347, rfl⟩
abbrev main_call19_v9 : Ref sig .tc := ⟨.hbm, 348, rfl⟩
abbrev main_call19_v10 : Ref sig .tc := ⟨.hbm, 349, rfl⟩
abbrev main_call19_v11 : Ref sig .tc := ⟨.hbm, 350, rfl⟩
abbrev main_call19_v12 : Ref sig .tc := ⟨.hbm, 351, rfl⟩
abbrev main_call19_v13 : Ref sig .tc := ⟨.hbm, 352, rfl⟩
abbrev main_call19_v14 : Ref sig .tc := ⟨.hbm, 353, rfl⟩
abbrev main_v133 : Ref sig .tc := ⟨.hbm, 354, rfl⟩
abbrev main_c_29 : Ref sig .tc := ⟨.hbm, 355, rfl⟩
abbrev main_call20_v0 : Ref sig .tc := ⟨.hbm, 356, rfl⟩
abbrev main_call20_v1 : Ref sig .tc := ⟨.hbm, 357, rfl⟩
abbrev main_call20_v2 : Ref sig .tc := ⟨.hbm, 358, rfl⟩
abbrev main_call20_v3 : Ref sig .tc := ⟨.hbm, 359, rfl⟩
abbrev main_call20_v4 : Ref sig .tc := ⟨.hbm, 360, rfl⟩
abbrev main_call20_v5 : Ref sig .tc := ⟨.hbm, 361, rfl⟩
abbrev main_call20_v6 : Ref sig .tc := ⟨.hbm, 362, rfl⟩
abbrev main_call20_v7 : Ref sig .tc := ⟨.hbm, 363, rfl⟩
abbrev main_call20_c : Ref sig .tc := ⟨.hbm, 364, rfl⟩
abbrev main_call20_v8 : Ref sig .tc := ⟨.hbm, 365, rfl⟩
abbrev main_call20_v9 : Ref sig .tc := ⟨.hbm, 366, rfl⟩
abbrev main_call20_v10 : Ref sig .tc := ⟨.hbm, 367, rfl⟩
abbrev main_call20_c_0 : Ref sig .tc := ⟨.hbm, 368, rfl⟩
abbrev main_call20_v11 : Ref sig .tc := ⟨.hbm, 369, rfl⟩
abbrev main_call20_v12 : Ref sig .tc := ⟨.hbm, 370, rfl⟩
abbrev main_v134 : Ref sig .tc := ⟨.hbm, 371, rfl⟩
abbrev main_c_30 : Ref sig .tc := ⟨.hbm, 372, rfl⟩
abbrev main_call21_v0 : Ref sig .tc := ⟨.hbm, 373, rfl⟩
abbrev main_call21_c : Ref sig .tc := ⟨.hbm, 374, rfl⟩
abbrev main_call21_v1 : Ref sig .tc := ⟨.hbm, 375, rfl⟩
abbrev main_call21_c_0 : Ref sig .tc := ⟨.hbm, 376, rfl⟩
abbrev main_call21_v2 : Ref sig .tc := ⟨.hbm, 377, rfl⟩
abbrev main_call21_v3 : Ref sig .tc := ⟨.hbm, 378, rfl⟩
abbrev main_call21_v4 : Ref sig .tc := ⟨.hbm, 379, rfl⟩
abbrev main_call21_c_1 : Ref sig .tc := ⟨.hbm, 380, rfl⟩
abbrev main_call21_v5 : Ref sig .tc := ⟨.hbm, 381, rfl⟩
abbrev main_call21_v6 : Ref sig .tc := ⟨.hbm, 382, rfl⟩
abbrev main_call21_c_2 : Ref sig .tc := ⟨.hbm, 383, rfl⟩
abbrev main_call21_v7 : Ref sig .tc := ⟨.hbm, 384, rfl⟩
abbrev main_call21_v8 : Ref sig .tc := ⟨.hbm, 385, rfl⟩
abbrev main_call21_c_3 : Ref sig .tc := ⟨.hbm, 386, rfl⟩
abbrev main_call21_v9 : Ref sig .tc := ⟨.hbm, 387, rfl⟩
abbrev main_call21_v10 : Ref sig .tc := ⟨.hbm, 388, rfl⟩
abbrev main_call21_v11 : Ref sig .tc := ⟨.hbm, 389, rfl⟩
abbrev main_call21_v12 : Ref sig .tc := ⟨.hbm, 390, rfl⟩
abbrev main_call21_v13 : Ref sig .tc := ⟨.hbm, 391, rfl⟩
abbrev main_call21_v14 : Ref sig .tc := ⟨.hbm, 392, rfl⟩
abbrev main_v135 : Ref sig .tc := ⟨.hbm, 393, rfl⟩
abbrev main_c_31 : Ref sig .tc := ⟨.hbm, 394, rfl⟩
abbrev main_v136 : Ref sig .tc := ⟨.hbm, 395, rfl⟩
abbrev main_v137 : Ref sig .tc := ⟨.hbm, 396, rfl⟩
abbrev main_c_32 : Ref sig .tc := ⟨.hbm, 397, rfl⟩
abbrev main_v138 : Ref sig .tc := ⟨.hbm, 398, rfl⟩
abbrev main_v139 : Ref sig .tc := ⟨.hbm, 399, rfl⟩
abbrev main_v140 : Ref sig .tc := ⟨.hbm, 400, rfl⟩
abbrev main_c_33 : Ref sig .tc := ⟨.hbm, 401, rfl⟩
abbrev main_v141 : Ref sig .tc := ⟨.hbm, 402, rfl⟩
abbrev main_v142 : Ref sig .tc := ⟨.hbm, 403, rfl⟩
abbrev main_c_34 : Ref sig .tc := ⟨.hbm, 404, rfl⟩
abbrev main_v143 : Ref sig .tc := ⟨.hbm, 405, rfl⟩
abbrev main_v144 : Ref sig .tc := ⟨.hbm, 406, rfl⟩
abbrev main_v145 : Ref sig .tc := ⟨.hbm, 407, rfl⟩
abbrev main_v146 : Ref sig .tc := ⟨.hbm, 408, rfl⟩
abbrev main_v147 : Ref sig .tc := ⟨.hbm, 409, rfl⟩
abbrev main_v148 : Ref sig .tc := ⟨.hbm, 410, rfl⟩
abbrev main_v149 : Ref sig .tc := ⟨.hbm, 411, rfl⟩
abbrev main_cst_35 : Ref sig .tc := ⟨.hbm, 412, rfl⟩
abbrev main_v150 : Ref sig .tc := ⟨.hbm, 413, rfl⟩
abbrev main_v151 : Ref sig .tc := ⟨.hbm, 414, rfl⟩
abbrev main_v152 : Ref sig .tc := ⟨.hbm, 415, rfl⟩
abbrev main_v153 : Ref sig .tc := ⟨.hbm, 416, rfl⟩
abbrev main_cst_36 : Ref sig .tc := ⟨.hbm, 417, rfl⟩
abbrev main_v154 : Ref sig .tc := ⟨.hbm, 418, rfl⟩
abbrev main_v155 : Ref sig .tc := ⟨.hbm, 419, rfl⟩
abbrev main_v156 : Ref sig .tc := ⟨.hbm, 420, rfl⟩
abbrev main_v157 : Ref sig .tc := ⟨.hbm, 421, rfl⟩
abbrev main_v158 : Ref sig .tc := ⟨.hbm, 422, rfl⟩
abbrev main_v159 : Ref sig .tc := ⟨.hbm, 423, rfl⟩
abbrev main_v160 : Ref sig .tc := ⟨.hbm, 424, rfl⟩
abbrev main_v161 : Ref sig .tc := ⟨.hbm, 425, rfl⟩
abbrev main_cst_37 : Ref sig .tc := ⟨.hbm, 426, rfl⟩
abbrev main_v162 : Ref sig .tc := ⟨.hbm, 427, rfl⟩
abbrev main_v163 : Ref sig .tc := ⟨.hbm, 428, rfl⟩
abbrev main_v164 : Ref sig .tc := ⟨.hbm, 429, rfl⟩
abbrev main_cst_38 : Ref sig .tc := ⟨.hbm, 430, rfl⟩
abbrev main_v165 : Ref sig .tc := ⟨.hbm, 431, rfl⟩
abbrev main_call22_v0 : Ref sig .tc := ⟨.hbm, 432, rfl⟩
abbrev main_call22_c : Ref sig .tc := ⟨.hbm, 433, rfl⟩
abbrev main_call22_v1 : Ref sig .tc := ⟨.hbm, 434, rfl⟩
abbrev main_call22_v2 : Ref sig .tc := ⟨.hbm, 435, rfl⟩
abbrev main_call22_v3 : Ref sig .tc := ⟨.hbm, 436, rfl⟩
abbrev main_call22_v4 : Ref sig .tc := ⟨.hbm, 437, rfl⟩
abbrev main_call22_cst : Ref sig .tc := ⟨.hbm, 438, rfl⟩
abbrev main_call22_v5 : Ref sig .tc := ⟨.hbm, 439, rfl⟩
abbrev main_v166 : Ref sig .tc := ⟨.hbm, 440, rfl⟩
abbrev main_cst_39 : Ref sig .tc := ⟨.hbm, 441, rfl⟩
abbrev main_v167 : Ref sig .tc := ⟨.hbm, 442, rfl⟩
abbrev main_v168 : Ref sig .tc := ⟨.hbm, 443, rfl⟩
abbrev main_call23_v0 : Ref sig .tc := ⟨.hbm, 444, rfl⟩
abbrev main_call23_v1 : Ref sig .tc := ⟨.hbm, 445, rfl⟩
abbrev main_call23_call0_c : Ref sig .tc := ⟨.hbm, 446, rfl⟩
abbrev main_call23_call0_v0 : Ref sig .tc := ⟨.hbm, 447, rfl⟩
abbrev main_v169 : Ref sig .tc := ⟨.hbm, 448, rfl⟩
abbrev main_c_40 : Ref sig .tc := ⟨.hbm, 449, rfl⟩
abbrev main_v170 : Ref sig .tc := ⟨.hbm, 450, rfl⟩
abbrev main_c_41 : Ref sig .tc := ⟨.hbm, 451, rfl⟩
abbrev main_call24_v0 : Ref sig .tc := ⟨.hbm, 452, rfl⟩
abbrev main_call24_v1 : Ref sig .tc := ⟨.hbm, 453, rfl⟩
abbrev main_v171 : Ref sig .tc := ⟨.hbm, 454, rfl⟩
abbrev main_c_42 : Ref sig .tc := ⟨.hbm, 455, rfl⟩
abbrev main_v172 : Ref sig .tc := ⟨.hbm, 456, rfl⟩
abbrev main_v173 : Ref sig .tc := ⟨.hbm, 457, rfl⟩
abbrev main_c_43 : Ref sig .tc := ⟨.hbm, 458, rfl⟩
abbrev main_v174 : Ref sig .tc := ⟨.hbm, 459, rfl⟩
abbrev main_v175 : Ref sig .tc := ⟨.hbm, 460, rfl⟩
abbrev main_v176 : Ref sig .tc := ⟨.hbm, 461, rfl⟩
abbrev main_v177 : Ref sig .tc := ⟨.hbm, 462, rfl⟩
abbrev main_c_44 : Ref sig .tc := ⟨.hbm, 463, rfl⟩
abbrev main_v178 : Ref sig .tc := ⟨.hbm, 464, rfl⟩
abbrev main_v179 : Ref sig .tc := ⟨.hbm, 465, rfl⟩
abbrev main_call25_call0_c : Ref sig .tc := ⟨.hbm, 466, rfl⟩
abbrev main_call25_call0_v0 : Ref sig .tc := ⟨.hbm, 467, rfl⟩
abbrev main_v180 : Ref sig .tc := ⟨.hbm, 468, rfl⟩
abbrev main_c_45 : Ref sig .tc := ⟨.hbm, 469, rfl⟩
abbrev main_call26_v0 : Ref sig .tc := ⟨.hbm, 470, rfl⟩
abbrev main_call26_v1 : Ref sig .tc := ⟨.hbm, 471, rfl⟩
abbrev main_call26_v2 : Ref sig .tc := ⟨.hbm, 472, rfl⟩
abbrev main_call26_v3 : Ref sig .tc := ⟨.hbm, 473, rfl⟩
abbrev main_call26_v4 : Ref sig .tc := ⟨.hbm, 474, rfl⟩
abbrev main_call26_v5 : Ref sig .tc := ⟨.hbm, 475, rfl⟩
abbrev main_call26_v6 : Ref sig .tc := ⟨.hbm, 476, rfl⟩
abbrev main_call26_v7 : Ref sig .tc := ⟨.hbm, 477, rfl⟩
abbrev main_call26_c : Ref sig .tc := ⟨.hbm, 478, rfl⟩
abbrev main_call26_v8 : Ref sig .tc := ⟨.hbm, 479, rfl⟩
abbrev main_call26_v9 : Ref sig .tc := ⟨.hbm, 480, rfl⟩
abbrev main_call26_v10 : Ref sig .tc := ⟨.hbm, 481, rfl⟩
abbrev main_call26_c_0 : Ref sig .tc := ⟨.hbm, 482, rfl⟩
abbrev main_call26_v11 : Ref sig .tc := ⟨.hbm, 483, rfl⟩
abbrev main_call26_v12 : Ref sig .tc := ⟨.hbm, 484, rfl⟩
abbrev main_v181 : Ref sig .tc := ⟨.hbm, 485, rfl⟩
abbrev main_c_46 : Ref sig .tc := ⟨.hbm, 486, rfl⟩
abbrev main_call27_v0 : Ref sig .tc := ⟨.hbm, 487, rfl⟩
abbrev main_call27_c : Ref sig .tc := ⟨.hbm, 488, rfl⟩
abbrev main_call27_v1 : Ref sig .tc := ⟨.hbm, 489, rfl⟩
abbrev main_call27_c_0 : Ref sig .tc := ⟨.hbm, 490, rfl⟩
abbrev main_call27_v2 : Ref sig .tc := ⟨.hbm, 491, rfl⟩
abbrev main_call27_v3 : Ref sig .tc := ⟨.hbm, 492, rfl⟩
abbrev main_call27_v4 : Ref sig .tc := ⟨.hbm, 493, rfl⟩
abbrev main_call27_c_1 : Ref sig .tc := ⟨.hbm, 494, rfl⟩
abbrev main_call27_v5 : Ref sig .tc := ⟨.hbm, 495, rfl⟩
abbrev main_call27_v6 : Ref sig .tc := ⟨.hbm, 496, rfl⟩
abbrev main_call27_c_2 : Ref sig .tc := ⟨.hbm, 497, rfl⟩
abbrev main_call27_v7 : Ref sig .tc := ⟨.hbm, 498, rfl⟩
abbrev main_call27_v8 : Ref sig .tc := ⟨.hbm, 499, rfl⟩
abbrev main_call27_c_3 : Ref sig .tc := ⟨.hbm, 500, rfl⟩
abbrev main_call27_v9 : Ref sig .tc := ⟨.hbm, 501, rfl⟩
abbrev main_call27_v10 : Ref sig .tc := ⟨.hbm, 502, rfl⟩
abbrev main_call27_v11 : Ref sig .tc := ⟨.hbm, 503, rfl⟩
abbrev main_call27_v12 : Ref sig .tc := ⟨.hbm, 504, rfl⟩
abbrev main_call27_v13 : Ref sig .tc := ⟨.hbm, 505, rfl⟩
abbrev main_call27_v14 : Ref sig .tc := ⟨.hbm, 506, rfl⟩
abbrev main_v182 : Ref sig .tc := ⟨.hbm, 507, rfl⟩
abbrev main_c_47 : Ref sig .tc := ⟨.hbm, 508, rfl⟩
abbrev main_call28_v0 : Ref sig .tc := ⟨.hbm, 509, rfl⟩
abbrev main_call28_v1 : Ref sig .tc := ⟨.hbm, 510, rfl⟩
abbrev main_call28_v2 : Ref sig .tc := ⟨.hbm, 511, rfl⟩
abbrev main_call28_v3 : Ref sig .tc := ⟨.hbm, 512, rfl⟩
abbrev main_call28_v4 : Ref sig .tc := ⟨.hbm, 513, rfl⟩
abbrev main_call28_v5 : Ref sig .tc := ⟨.hbm, 514, rfl⟩
abbrev main_call28_v6 : Ref sig .tc := ⟨.hbm, 515, rfl⟩
abbrev main_call28_v7 : Ref sig .tc := ⟨.hbm, 516, rfl⟩
abbrev main_call28_c : Ref sig .tc := ⟨.hbm, 517, rfl⟩
abbrev main_call28_v8 : Ref sig .tc := ⟨.hbm, 518, rfl⟩
abbrev main_call28_v9 : Ref sig .tc := ⟨.hbm, 519, rfl⟩
abbrev main_call28_v10 : Ref sig .tc := ⟨.hbm, 520, rfl⟩
abbrev main_call28_c_0 : Ref sig .tc := ⟨.hbm, 521, rfl⟩
abbrev main_call28_v11 : Ref sig .tc := ⟨.hbm, 522, rfl⟩
abbrev main_call28_v12 : Ref sig .tc := ⟨.hbm, 523, rfl⟩
abbrev main_v183 : Ref sig .tc := ⟨.hbm, 524, rfl⟩
abbrev main_c_48 : Ref sig .tc := ⟨.hbm, 525, rfl⟩
abbrev main_call29_v0 : Ref sig .tc := ⟨.hbm, 526, rfl⟩
abbrev main_call29_c : Ref sig .tc := ⟨.hbm, 527, rfl⟩
abbrev main_call29_v1 : Ref sig .tc := ⟨.hbm, 528, rfl⟩
abbrev main_call29_c_0 : Ref sig .tc := ⟨.hbm, 529, rfl⟩
abbrev main_call29_v2 : Ref sig .tc := ⟨.hbm, 530, rfl⟩
abbrev main_call29_v3 : Ref sig .tc := ⟨.hbm, 531, rfl⟩
abbrev main_call29_v4 : Ref sig .tc := ⟨.hbm, 532, rfl⟩
abbrev main_call29_c_1 : Ref sig .tc := ⟨.hbm, 533, rfl⟩
abbrev main_call29_v5 : Ref sig .tc := ⟨.hbm, 534, rfl⟩
abbrev main_call29_v6 : Ref sig .tc := ⟨.hbm, 535, rfl⟩
abbrev main_call29_c_2 : Ref sig .tc := ⟨.hbm, 536, rfl⟩
abbrev main_call29_v7 : Ref sig .tc := ⟨.hbm, 537, rfl⟩
abbrev main_call29_v8 : Ref sig .tc := ⟨.hbm, 538, rfl⟩
abbrev main_call29_c_3 : Ref sig .tc := ⟨.hbm, 539, rfl⟩
abbrev main_call29_v9 : Ref sig .tc := ⟨.hbm, 540, rfl⟩
abbrev main_call29_v10 : Ref sig .tc := ⟨.hbm, 541, rfl⟩
abbrev main_call29_v11 : Ref sig .tc := ⟨.hbm, 542, rfl⟩
abbrev main_call29_v12 : Ref sig .tc := ⟨.hbm, 543, rfl⟩
abbrev main_call29_v13 : Ref sig .tc := ⟨.hbm, 544, rfl⟩
abbrev main_call29_v14 : Ref sig .tc := ⟨.hbm, 545, rfl⟩
abbrev main_v184 : Ref sig .tc := ⟨.hbm, 546, rfl⟩
abbrev main_c_49 : Ref sig .tc := ⟨.hbm, 547, rfl⟩
abbrev main_v185 : Ref sig .tc := ⟨.hbm, 548, rfl⟩
abbrev main_v186 : Ref sig .tc := ⟨.hbm, 549, rfl⟩
abbrev main_c_50 : Ref sig .tc := ⟨.hbm, 550, rfl⟩
abbrev main_v187 : Ref sig .tc := ⟨.hbm, 551, rfl⟩
abbrev main_v188 : Ref sig .tc := ⟨.hbm, 552, rfl⟩
abbrev main_v189 : Ref sig .tc := ⟨.hbm, 553, rfl⟩
abbrev main_c_51 : Ref sig .tc := ⟨.hbm, 554, rfl⟩
abbrev main_v190 : Ref sig .tc := ⟨.hbm, 555, rfl⟩
abbrev main_v191 : Ref sig .tc := ⟨.hbm, 556, rfl⟩
abbrev main_c_52 : Ref sig .tc := ⟨.hbm, 557, rfl⟩
abbrev main_v192 : Ref sig .tc := ⟨.hbm, 558, rfl⟩
abbrev main_v193 : Ref sig .tc := ⟨.hbm, 559, rfl⟩
abbrev main_v194 : Ref sig .tc := ⟨.hbm, 560, rfl⟩
abbrev main_v195 : Ref sig .tc := ⟨.hbm, 561, rfl⟩
abbrev main_v196 : Ref sig .tc := ⟨.hbm, 562, rfl⟩
abbrev main_v197 : Ref sig .tc := ⟨.hbm, 563, rfl⟩
abbrev main_v198 : Ref sig .tc := ⟨.hbm, 564, rfl⟩
abbrev main_cst_53 : Ref sig .tc := ⟨.hbm, 565, rfl⟩
abbrev main_v199 : Ref sig .tc := ⟨.hbm, 566, rfl⟩
abbrev main_v200 : Ref sig .tc := ⟨.hbm, 567, rfl⟩
abbrev main_v201 : Ref sig .tc := ⟨.hbm, 568, rfl⟩

abbrev nD : Nat := 1
abbrev τ : Topo := Topo.v7x

variable {F : FTy → Type} [FloatOps F]

class Facts₀ : Prop where
  shapeCasts_S4096x1x28x28_S4096x784 : S4096x1x28x28.ShapeCasts S4096x784
  transposes_S400x784_S784x400_1_0 : S400x784.Transposes [1, 0] S784x400
  bcast_S400_S1x400_1 : S400.BroadcastsInDim S1x400 (![1] : Fin 1 → Fin S1x400.rank)
  bcast_S1x400_S4096x400_0_1 : S1x400.BroadcastsInDim S4096x400 (![0, 1] : Fin 2 → Fin S4096x400.rank)
  bcast_S_S4096x400 : S_.BroadcastsInDim S4096x400 (![] : Fin 0 → Fin S4096x400.rank)
  transposes_S200x400_S400x200_1_0 : S200x400.Transposes [1, 0] S400x200
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  transposes_S50x200_S200x50_1_0 : S50x200.Transposes [1, 0] S200x50
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  bcast_S_S4096x50 : S_.BroadcastsInDim S4096x50 (![] : Fin 0 → Fin S4096x50.rank)
  transposes_S2x50_S50x2_1_0 : S2x50.Transposes [1, 0] S50x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  transposes_S50x2_S2x50_1_0 : S50x2.Transposes [1, 0] S2x50
  transposes_S200x50_S50x200_1_0 : S200x50.Transposes [1, 0] S50x200
  transposes_S400x200_S200x400_1_0 : S400x200.Transposes [1, 0] S200x400
  transposes_S784x400_S400x784_1_0 : S784x400.Transposes [1, 0] S400x784
  bcast_S784_S1x784_1 : S784.BroadcastsInDim S1x784 (![1] : Fin 1 → Fin S1x784.rank)
  bcast_S1x784_S4096x784_0_1 : S1x784.BroadcastsInDim S4096x784 (![0, 1] : Fin 2 → Fin S4096x784.rank)
  bcast_S_S4096x784 : S_.BroadcastsInDim S4096x784 (![] : Fin 0 → Fin S4096x784.rank)
  shapeCasts_S4096x784_S4096x1x28x28 : S4096x784.ShapeCasts S4096x1x28x28
  reducesTo_S4096x784_S4096_d1 : S4096x784.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x784_S784x4096_1_0 : S4096x784.Transposes [1, 0] S784x4096
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  reducesTo_S4096x2_S4096_d1 : S4096x2.ReducesTo [1] S4096
  transposes_S4096x2_S2x4096_1_0 : S4096x2.Transposes [1, 0] S2x4096
  dot_S4096x784_S784x400_S4096x400_1_0_0_1_n_n_wf : DotDims.WF S4096x784 S784x400 S4096x400 [1] [0] [0] [1] [] []
  dot_S4096x400_S400x200_S4096x200_1_0_0_1_n_n_wf : DotDims.WF S4096x400 S400x200 S4096x200 [1] [0] [0] [1] [] []
  dot_S4096x200_S200x50_S4096x50_1_0_0_1_n_n_wf : DotDims.WF S4096x200 S200x50 S4096x50 [1] [0] [0] [1] [] []
  dot_S4096x50_S50x2_S4096x2_1_0_0_1_n_n_wf : DotDims.WF S4096x50 S50x2 S4096x2 [1] [0] [0] [1] [] []
  dot_S4096x2_S2x50_S4096x50_1_0_0_1_n_n_wf : DotDims.WF S4096x2 S2x50 S4096x50 [1] [0] [0] [1] [] []
  dot_S4096x50_S50x200_S4096x200_1_0_0_1_n_n_wf : DotDims.WF S4096x50 S50x200 S4096x200 [1] [0] [0] [1] [] []
  dot_S4096x200_S200x400_S4096x400_1_0_0_1_n_n_wf : DotDims.WF S4096x200 S200x400 S4096x400 [1] [0] [0] [1] [] []
  dot_S4096x400_S400x784_S4096x784_1_0_0_1_n_n_wf : DotDims.WF S4096x400 S400x784 S4096x784 [1] [0] [0] [1] [] []
  dot_S4096x784_S784x4096_S4096x4096_1_0_0_1_n_n_wf : DotDims.WF S4096x784 S784x4096 S4096x4096 [1] [0] [0] [1] [] []
  scatter_S8386560_S16777216x1_S16777216_n_0_0_1_wf : ScatterDims.WF S8386560 S16777216x1 S16777216 [] [0] [0] 1
  gather_S4096x4096_S8386560x2_S8386560_n_01_n_n_01_1_11_wf : GatherDims.WF S4096x4096 S8386560x2 S8386560 [] [0, 1] [] [0, 1] [] 1 ![1, 1]
  dot_S4096x2_S2x4096_S4096x4096_1_0_0_1_n_n_wf : DotDims.WF S4096x2 S2x4096 S4096x4096 [1] [0] [0] [1] [] []

variable [Facts₀]

def dot_S4096x784_S784x400_S4096x400_1_0_0_1_n_n : DotDims S4096x784 S784x400 S4096x400 where
  lhsContracting := [1]
  rhsContracting := [0]
  lhsNonContracting := [0]
  rhsNonContracting := [1]
  lhsBatch := []
  rhsBatch := []
  wf := dot_S4096x784_S784x400_S4096x400_1_0_0_1_n_n_wf
def dot_S4096x400_S400x200_S4096x200_1_0_0_1_n_n : DotDims S4096x400 S400x200 S4096x200 where
  lhsContracting := [1]
  rhsContracting := [0]
  lhsNonContracting := [0]
  rhsNonContracting := [1]
  lhsBatch := []
  rhsBatch := []
  wf := dot_S4096x400_S400x200_S4096x200_1_0_0_1_n_n_wf
def dot_S4096x200_S200x50_S4096x50_1_0_0_1_n_n : DotDims S4096x200 S200x50 S4096x50 where
  lhsContracting := [1]
  rhsContracting := [0]
  lhsNonContracting := [0]
  rhsNonContracting := [1]
  lhsBatch := []
  rhsBatch := []
  wf := dot_S4096x200_S200x50_S4096x50_1_0_0_1_n_n_wf
def dot_S4096x50_S50x2_S4096x2_1_0_0_1_n_n : DotDims S4096x50 S50x2 S4096x2 where
  lhsContracting := [1]
  rhsContracting := [0]
  lhsNonContracting := [0]
  rhsNonContracting := [1]
  lhsBatch := []
  rhsBatch := []
  wf := dot_S4096x50_S50x2_S4096x2_1_0_0_1_n_n_wf
def dot_S4096x2_S2x50_S4096x50_1_0_0_1_n_n : DotDims S4096x2 S2x50 S4096x50 where
  lhsContracting := [1]
  rhsContracting := [0]
  lhsNonContracting := [0]
  rhsNonContracting := [1]
  lhsBatch := []
  rhsBatch := []
  wf := dot_S4096x2_S2x50_S4096x50_1_0_0_1_n_n_wf
def dot_S4096x50_S50x200_S4096x200_1_0_0_1_n_n : DotDims S4096x50 S50x200 S4096x200 where
  lhsContracting := [1]
  rhsContracting := [0]
  lhsNonContracting := [0]
  rhsNonContracting := [1]
  lhsBatch := []
  rhsBatch := []
  wf := dot_S4096x50_S50x200_S4096x200_1_0_0_1_n_n_wf
def dot_S4096x200_S200x400_S4096x400_1_0_0_1_n_n : DotDims S4096x200 S200x400 S4096x400 where
  lhsContracting := [1]
  rhsContracting := [0]
  lhsNonContracting := [0]
  rhsNonContracting := [1]
  lhsBatch := []
  rhsBatch := []
  wf := dot_S4096x200_S200x400_S4096x400_1_0_0_1_n_n_wf
def dot_S4096x400_S400x784_S4096x784_1_0_0_1_n_n : DotDims S4096x400 S400x784 S4096x784 where
  lhsContracting := [1]
  rhsContracting := [0]
  lhsNonContracting := [0]
  rhsNonContracting := [1]
  lhsBatch := []
  rhsBatch := []
  wf := dot_S4096x400_S400x784_S4096x784_1_0_0_1_n_n_wf
def dot_S4096x784_S784x4096_S4096x4096_1_0_0_1_n_n : DotDims S4096x784 S784x4096 S4096x4096 where
  lhsContracting := [1]
  rhsContracting := [0]
  lhsNonContracting := [0]
  rhsNonContracting := [1]
  lhsBatch := []
  rhsBatch := []
  wf := dot_S4096x784_S784x4096_S4096x4096_1_0_0_1_n_n_wf
def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def gather_S4096x4096_S8386560x2_S8386560_n_01_n_n_01_1_11 : GatherDims S4096x4096 S8386560x2 S8386560 where
  offsetDims := []
  collapsedSliceDims := [0, 1]
  operandBatchingDims := []
  startIndicesBatchingDims := []
  startIndexMap := [0, 1]
  indexVectorDim := 1
  sliceSizes := ![1, 1]
  wf := gather_S4096x4096_S8386560x2_S8386560_n_01_n_n_01_1_11_wf
def dot_S4096x2_S2x4096_S4096x4096_1_0_0_1_n_n : DotDims S4096x2 S2x4096 S4096x4096 where
  lhsContracting := [1]
  rhsContracting := [0]
  lhsNonContracting := [0]
  rhsNonContracting := [1]
  lhsBatch := []
  rhsBatch := []
  wf := dot_S4096x2_S2x4096_S4096x4096_1_0_0_1_n_n_wf

class Facts : Prop extends Facts₀ where

variable [Facts]
-- ==== Proof.KI.R0.lean ====
import proofs.«135652_j20272245637753_1_alg».proof.Proof.Gen.KernelIdeal.Launch
import proofs.«135652_j20272245637753_1_alg».proof.Proof.Gen.KernelIdeal.Skeleton
import proofs.«135652_j20272245637753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the autoencoder body on one block of 512 rows

The first TensorCore region runs an eight-layer perceptron over the 4096 x 784 input, 512 rows at a grid point
(8 points). Seventeen windows are read: the row block of the input and the eight weight matrices with their
1 x n bias rows, each weight window being its whole array. Two windows are written: the 512 x 2 code block and the
512 x 784 reconstruction block. This module states, at any contents `V` of the arrays when the region is
entered, what each window's staging buffer holds before and after the body at a point, and proves the body's
triple there. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the block was moved in at that point
or at an earlier one: where it was not moved, the block index is the one of the point before, and the body leaves
the buffer as it found it. Window 0 moves at every point; windows 1 to 16 have one block, moved at the first. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole of its buffer -/

abbrev r0_512x784 : Rect S512x784 := Rect.unit (s := S512x784) ![0, 0] S512x784.size inb_S512x784_S512x784_0_0
abbrev r0_400x784 : Rect S400x784 := Rect.unit (s := S400x784) ![0, 0] S400x784.size inb_S400x784_S400x784_0_0
abbrev r0_1x400 : Rect S1x400 := Rect.unit (s := S1x400) ![0, 0] S1x400.size inb_S1x400_S1x400_0_0
abbrev r0_200x400 : Rect S200x400 := Rect.unit (s := S200x400) ![0, 0] S200x400.size inb_S200x400_S200x400_0_0
abbrev r0_1x200 : Rect S1x200 := Rect.unit (s := S1x200) ![0, 0] S1x200.size inb_S1x200_S1x200_0_0
abbrev r0_50x200 : Rect S50x200 := Rect.unit (s := S50x200) ![0, 0] S50x200.size inb_S50x200_S50x200_0_0
abbrev r0_1x50 : Rect S1x50 := Rect.unit (s := S1x50) ![0, 0] S1x50.size inb_S1x50_S1x50_0_0
abbrev r0_2x50 : Rect S2x50 := Rect.unit (s := S2x50) ![0, 0] S2x50.size inb_S2x50_S2x50_0_0
abbrev r0_1x2 : Rect S1x2 := Rect.unit (s := S1x2) ![0, 0] S1x2.size inb_S1x2_S1x2_0_0
abbrev r0_50x2 : Rect S50x2 := Rect.unit (s := S50x2) ![0, 0] S50x2.size inb_S50x2_S50x2_0_0
abbrev r0_200x50 : Rect S200x50 := Rect.unit (s := S200x50) ![0, 0] S200x50.size inb_S200x50_S200x50_0_0
abbrev r0_400x200 : Rect S400x200 := Rect.unit (s := S400x200) ![0, 0] S400x200.size inb_S400x200_S400x200_0_0
abbrev r0_784x400 : Rect S784x400 := Rect.unit (s := S784x400) ![0, 0] S784x400.size inb_S784x400_S784x400_0_0
abbrev r0_1x784 : Rect S1x784 := Rect.unit (s := S1x784) ![0, 0] S1x784.size inb_S1x784_S1x784_0_0
abbrev r0_512x2 : Rect S512x2 := Rect.unit (s := S512x2) ![0, 0] S512x2.size inb_S512x2_S512x2_0_0

/-! ## What the body leaves in each output window's buffer -/

/-- The code block: the first three layers of the row block up to the third sum (`k0_pay2`), then the leaky
    rectifier, the hyperbolic tangent and the fourth layer's sum (`k0_pay4`). -/
def out0_17 (x0 : Vec F S512x784 .f32) (x1 : Vec F S400x784 .f32) (x2 : Vec F S1x400 .f32) (x3 : Vec F S200x400 .f32) (x4 : Vec F S1x200 .f32) (x5 : Vec F S50x200 .f32) (x6 : Vec F S1x50 .f32) (x7 : Vec F S2x50 .f32) (x8 : Vec F S1x2 .f32) (x9 : Vec F S50x2 .f32) (x10 : Vec F S1x50 .f32) (x11 : Vec F S200x50 .f32) (x12 : Vec F S1x200 .f32) (x13 : Vec F S400x200 .f32) (x14 : Vec F S1x400 .f32) (x15 : Vec F S784x400 .f32) (x16 : Vec F S1x784 .f32) : Vec F S512x2 .f32 :=
  View.canon [⟨r0_512x2, (k0_pay4 (k0_pay2 (View.ld x0 r0_512x784) (View.ld x1 r0_400x784) (View.ld x2 r0_1x400) (View.ld x3 r0_200x400) (View.ld x4 r0_1x200) (View.ld x5 r0_50x200) (View.ld x6 r0_1x50)) (k0_pay3 (F := F)) (View.ld x7 r0_2x50) (View.ld x8 r0_1x2))⟩]

/-- The reconstruction block: layers five and six over the code (`k0_pay5`), then layers seven and eight, the last
    through the logistic (`k0_pay1`). -/
def out0_18 (x0 : Vec F S512x784 .f32) (x1 : Vec F S400x784 .f32) (x2 : Vec F S1x400 .f32) (x3 : Vec F S200x400 .f32) (x4 : Vec F S1x200 .f32) (x5 : Vec F S50x200 .f32) (x6 : Vec F S1x50 .f32) (x7 : Vec F S2x50 .f32) (x8 : Vec F S1x2 .f32) (x9 : Vec F S50x2 .f32) (x10 : Vec F S1x50 .f32) (x11 : Vec F S200x50 .f32) (x12 : Vec F S1x200 .f32) (x13 : Vec F S400x200 .f32) (x14 : Vec F S1x400 .f32) (x15 : Vec F S784x400 .f32) (x16 : Vec F S1x784 .f32) : Vec F S512x784 .f32 :=
  View.canon [⟨r0_512x784, (k0_pay1 (k0_pay5 (k0_pay2 (View.ld x0 r0_512x784) (View.ld x1 r0_400x784) (View.ld x2 r0_1x400) (View.ld x3 r0_200x400) (View.ld x4 r0_1x200) (View.ld x5 r0_50x200) (View.ld x6 r0_1x50)) (k0_pay3 (F := F)) (View.ld x7 r0_2x50) (View.ld x8 r0_1x2) (View.ld x9 r0_50x2) (View.ld x10 r0_1x50) (View.ld x11 r0_200x50) (View.ld x12 r0_1x200)) (View.ld x13 r0_400x200) (View.ld x14 r0_1x400) (View.ld x15 r0_784x400) (View.ld x16 r0_1x784))⟩]

/-- The one store of each output is through the whole buffer, so it covers it. -/
theorem cover0_17 (p0 : Vec F S512x2 .f32) (y : S512x2.Idx) :
    ∃ pc ∈ ([⟨r0_512x2, p0⟩] : List (View.Piece (Elt F) S512x2 .f32)), y ∈ pc.1.set :=
  View.cover_of_tiled [⟨r0_512x2, p0⟩] S512x2.size (by rfl) y

theorem cover0_18 (p0 : Vec F S512x784 .f32) (y : S512x784.Idx) :
    ∃ pc ∈ ([⟨r0_512x784, p0⟩] : List (View.Piece (Elt F) S512x784 .f32)), y ∈ pc.1.set :=
  View.cover_of_tiled [⟨r0_512x784, p0⟩] S512x784.size (by rfl) y

/-! ## The body's triple -/

set_option maxHeartbeats 4000000 in
/-- The body on whole staging buffers, the inputs' holding `xW` and the outputs' anything, runs to the continuation
    with the inputs' as they were and each output's at `out0_W` of the inputs': it loads every input whole, and
    stores the two results whole. -/
theorem sound_kernel0 (c : Dev nD) (E : Set ℕ) (i : grid0.Coords) (arg1 : Memref sig .tc .vmem S512x784 .f32) (harg1 : arg1.IsWhole) (arg2 : Memref sig .tc .vmem S400x784 .f32) (harg2 : arg2.IsWhole) (arg3 : Memref sig .tc .vmem S1x400 .f32) (harg3 : arg3.IsWhole) (arg4 : Memref sig .tc .vmem S200x400 .f32) (harg4 : arg4.IsWhole) (arg5 : Memref sig .tc .vmem S1x200 .f32) (harg5 : arg5.IsWhole) (arg6 : Memref sig .tc .vmem S50x200 .f32) (harg6 : arg6.IsWhole) (arg7 : Memref sig .tc .vmem S1x50 .f32) (harg7 : arg7.IsWhole) (arg8 : Memref sig .tc .vmem S2x50 .f32) (harg8 : arg8.IsWhole) (arg9 : Memref sig .tc .vmem S1x2 .f32) (harg9 : arg9.IsWhole) (arg10 : Memref sig .tc .vmem S50x2 .f32) (harg10 : arg10.IsWhole) (arg11 : Memref sig .tc .vmem S1x50 .f32) (harg11 : arg11.IsWhole) (arg12 : Memref sig .tc .vmem S200x50 .f32) (harg12 : arg12.IsWhole) (arg13 : Memref sig .tc .vmem S1x200 .f32) (harg13 : arg13.IsWhole) (arg14 : Memref sig .tc .vmem S400x200 .f32) (harg14 : arg14.IsWhole) (arg15 : Memref sig .tc .vmem S1x400 .f32) (harg15 : arg15.IsWhole) (arg16 : Memref sig .tc .vmem S784x400 .f32) (harg16 : arg16.IsWhole) (arg17 : Memref sig .tc .vmem S1x784 .f32) (harg17 : arg17.IsWhole) (arg18 : Memref sig .tc .vmem S512x2 .f32) (harg18 : arg18.IsWhole) (arg19 : Memref sig .tc .vmem S512x784 .f32) (harg19 : arg19.IsWhole)
    (x0 : Vec F S512x784 .f32) (x1 : Vec F S400x784 .f32) (x2 : Vec F S1x400 .f32) (x3 : Vec F S200x400 .f32) (x4 : Vec F S1x200 .f32) (x5 : Vec F S50x200 .f32) (x6 : Vec F S1x50 .f32) (x7 : Vec F S2x50 .f32) (x8 : Vec F S1x2 .f32) (x9 : Vec F S50x2 .f32) (x10 : Vec F S1x50 .f32) (x11 : Vec F S200x50 .f32) (x12 : Vec F S1x200 .f32) (x13 : Vec F S400x200 .f32) (x14 : Vec F S1x400 .f32) (x15 : Vec F S784x400 .f32) (x16 : Vec F S1x784 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mlp_kernel_eq_skeleton]; unfold cc0__mlp_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover0_17 _)
  iexists _; isplitr
  swap; · iexact H18
  ipureintro
  exact View.read_writes_eq_canon _ _ _ (cover0_18 _)

/-! ## The pipeline's proof data -/

/-- The proof data of the region on core `c`: the arrays as the region finds them; after the body at point `t` each
    input's buffer at its block and each output's at `out0_W` of the seventeen input blocks; the invariant that of
    a body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨_ + 19, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]

/-! Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t))

set_option maxHeartbeats 4000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c Set.univ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0
end Cert.KernelIdeal.Hand
-- ==== Proof.KI.R1.lean ====
import proofs.«135652_j20272245637753_1_alg».proof.Proof.Gen.KernelIdeal.Launch
import proofs.«135652_j20272245637753_1_alg».proof.Proof.Gen.KernelIdeal.Skeleton
import proofs.«135652_j20272245637753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pairwise-distance pipeline 1, at the contents its region is entered with

Pipeline 1 walks a 4 x 4 grid. At point `(i, j)` window 0 is row block `i` and window 1 is row block `j` of ONE
array of 4096 rows, window 2 is block `(i, j)` of the 4096 x 4096 result. The body loads both row blocks whole,
computes the 1024 x 1024 block of pairwise distances from them and stores it whole. Stated here, at any contents
`V` of the core's buffers on entry: each window's block, what the body finds in the two input buffers (their blocks,
fetched at the point or kept from the one before), what it leaves in the output buffer, its triple, the
pipeline's proof data and the body obligation. The two input windows read the same array, so the proof data
holds the left and the right half of it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer holds its block at every point. It is fetched only when the row index
    `i` moves (every fourth point); in between the block index stands still and the body leaves the buffer as
    found, so the block of the point before is this point's. For any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_in : Rect S1024x784 := Rect.unit (s := S1024x784) ![0, 0] S1024x784.size inb_S1024x784_S1024x784_0_0
abbrev r1_out : Rect S1024x1024 := Rect.unit (s := S1024x1024) ![0, 0] S1024x1024.size inb_S1024x1024_S1024x1024_0_0

/-! ## What the body leaves in the output window's buffer -/

/-- Window 2's staging buffer after the body, from the two row blocks: its one store, of the block of pairwise
    distances. -/
def out1_2 (x0 : Vec F S1024x784 .f32) (x1 : Vec F S1024x784 .f32) : Vec F S1024x1024 .f32 :=
  View.canon [⟨r1_out, k1_pay1 (View.ld x0 r1_in) (View.ld x1 r1_in)⟩]

/-- The store is of the whole buffer, so it covers it. -/
theorem cover1_2 (p0 : Vec F S1024x1024 .f32) (y : S1024x1024.Idx) :
    ∃ pc ∈ ([⟨r1_out, p0⟩] : List (View.Piece (Elt F) S1024x1024 .f32)), y ∈ pc.1.set :=
  View.cover_of_tiled [⟨r1_out, p0⟩] S1024x1024.size (by rfl) y

/-! ## The body's triple -/

set_option maxHeartbeats 1000000 in
/-- The kernel body on whole staging memrefs, the inputs' at read contents `x0`, `x1` and the output's at anything,
    runs to the continuation holding the inputs' as they were and the output's at `out1_2 x0 x1`. (It loads the
    output buffer once before storing to it and drops what it read.) -/
theorem sound_kernel1 (c : Dev nD) (E : Set ℕ) (i : grid1.Coords) (arg0 : Memref sig .tc .vmem S1024x784 .f32) (harg0 : arg0.IsWhole)
    (arg1 : Memref sig .tc .vmem S1024x784 .f32) (harg1 : arg1.IsWhole) (arg2 : Memref sig .tc .vmem S1024x1024 .f32) (harg2 : arg2.IsWhole)
    (x0 : Vec F S1024x784 .f32) (x1 : Vec F S1024x784 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__pdist_kernel i arg0 harg0 arg1 harg1 arg2 harg2) K := by
  simp only [cc1__pdist_kernel_eq_skeleton]; unfold cc1__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t`
    each input's buffer at its block and the output's at `out1_2` of the two blocks; the scoped rest and the
    generator register untouched; nothing owed. Windows 0 and 1 read one array: the data holds its left half for
    window 0 and its right half for window 1, and the output array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := fun w => match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«135652_j20272245637753_1_alg».proof.Proof.Gen.KernelIdeal.Launch
import proofs.«135652_j20272245637753_1_alg».proof.Proof.Gen.KernelIdeal.Skeleton
import proofs.«135652_j20272245637753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pairwise-distance pipeline 2, at the contents its region is entered with

Pipeline 2 walks a 4 x 4 grid. At point `(i, j)` window 0 is row block `i` and window 1 is row block `j` of ONE
array of 4096 rows, window 2 is block `(i, j)` of the 4096 x 4096 result. The body loads both row blocks whole,
computes the 1024 x 1024 block of pairwise distances from them and stores it whole. Stated here, at any contents
`V` of the core's buffers on entry: each window's block, what the body finds in the two input buffers (their blocks,
fetched at the point or kept from the one before), what it leaves in the output buffer, its triple, the
pipeline's proof data and the body obligation. The two input windows read the same array, so the proof data
holds the left and the right half of it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0's current staging buffer holds its block at every point. It is fetched only when the row index
    `i` moves (every fourth point); in between the block index stands still and the body leaves the buffer as
    found, so the block of the point before is this point's. For any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1's current staging buffer holds its block at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_in : Rect S1024x2 := Rect.unit (s := S1024x2) ![0, 0] S1024x2.size inb_S1024x2_S1024x2_0_0
abbrev r2_out : Rect S1024x1024 := Rect.unit (s := S1024x1024) ![0, 0] S1024x1024.size inb_S1024x1024_S1024x1024_0_0

/-! ## What the body leaves in the output window's buffer -/

/-- Window 2's staging buffer after the body, from the two row blocks: its one store, of the block of pairwise
    distances. -/
def out2_2 (x0 : Vec F S1024x2 .f32) (x1 : Vec F S1024x2 .f32) : Vec F S1024x1024 .f32 :=
  View.canon [⟨r2_out, k2_pay1 (View.ld x0 r2_in) (View.ld x1 r2_in)⟩]

/-- The store is of the whole buffer, so it covers it. -/
theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

/-! ## The body's triple -/

set_option maxHeartbeats 1000000 in
/-- The kernel body on whole staging memrefs, the inputs' at read contents `x0`, `x1` and the output's at anything,
    runs to the continuation holding the inputs' as they were and the output's at `out2_2 x0 x1`. (It loads the
    output buffer once before storing to it and drops what it read.) -/
theorem sound_kernel2 (c : Dev nD) (E : Set ℕ) (i : grid2.Coords) (arg0 : Memref sig .tc .vmem S1024x2 .f32) (harg0 : arg0.IsWhole)
    (arg1 : Memref sig .tc .vmem S1024x2 .f32) (harg1 : arg1.IsWhole) (arg2 : Memref sig .tc .vmem S1024x1024 .f32) (harg2 : arg2.IsWhole)
    (x0 : Vec F S1024x2 .f32) (x1 : Vec F S1024x2 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__pdist_kernel i arg0 harg0 arg1 harg1 arg2 harg2) K := by
  simp only [cc2__pdist_kernel_eq_skeleton]; unfold cc2__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t`
    each input's buffer at its block and the output's at `out2_2` of the two blocks; the scoped rest and the
    generator register untouched; nothing owed. Windows 0 and 1 read one array: the data holds its left half for
    window 0 and its right half for window 1, and the output array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := fun w => match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«135652_j20272245637753_1_alg».proof.Proof.Gen.KernelIdeal.Launch
import proofs.«135652_j20272245637753_1_alg».proof.Proof.Gen.KernelIdeal.Skeleton
import proofs.«135652_j20272245637753_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pairwise-distance pipeline 3, at the contents its region is entered with

Pipeline 3 walks a 4 x 4 grid. At point `(i, j)` window 0 is row block `i` and window 1 is row block `j` of ONE
array of 4096 rows, window 2 is block `(i, j)` of the 4096 x 4096 result. The body loads both row blocks whole,
computes the 1024 x 1024 block of pairwise distances from them and stores it whole. Stated here, at any contents
`V` of the core's buffers on entry: each window's block, what the body finds in the two input buffers (their blocks,
fetched at the point or kept from the one before), what it leaves in the output buffer, its triple, the
pipeline's proof data and the body obligation. The two input windows read the same array, so the proof data
holds the left and the right half of it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0's current staging buffer holds its block at every point. It is fetched only when the row index
    `i` moves (every fourth point); in between the block index stands still and the body leaves the buffer as
    found, so the block of the point before is this point's. For any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1's current staging buffer holds its block at every point (it is fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_in : Rect S1024x784 := Rect.unit (s := S1024x784) ![0, 0] S1024x784.size inb_S1024x784_S1024x784_0_0
abbrev r3_out : Rect S1024x1024 := Rect.unit (s := S1024x1024) ![0, 0] S1024x1024.size inb_S1024x1024_S1024x1024_0_0

/-! ## What the body leaves in the output window's buffer -/

/-- Window 2's staging buffer after the body, from the two row blocks: its one store, of the block of pairwise
    distances. -/
def out3_2 (x0 : Vec F S1024x784 .f32) (x1 : Vec F S1024x784 .f32) : Vec F S1024x1024 .f32 :=
  View.canon [⟨r3_out, k3_pay1 (View.ld x0 r3_in) (View.ld x1 r3_in)⟩]

/-- The store is of the whole buffer, so it covers it. -/
theorem cover3_2 (p0 : Vec F S1024x1024 .f32) (y : S1024x1024.Idx) :
    ∃ pc ∈ ([⟨r3_out, p0⟩] : List (View.Piece (Elt F) S1024x1024 .f32)), y ∈ pc.1.set :=
  View.cover_of_tiled [⟨r3_out, p0⟩] S1024x1024.size (by rfl) y

/-! ## The body's triple -/

set_option maxHeartbeats 1000000 in
/-- The kernel body on whole staging memrefs, the inputs' at read contents `x0`, `x1` and the output's at anything,
    runs to the continuation holding the inputs' as they were and the output's at `out3_2 x0 x1`. (It loads the
    output buffer once before storing to it and drops what it read.) -/
theorem sound_kernel3 (c : Dev nD) (E : Set ℕ) (i : grid3.Coords) (arg0 : Memref sig .tc .vmem S1024x784 .f32) (harg0 : arg0.IsWhole)
    (arg1 : Memref sig .tc .vmem S1024x784 .f32) (harg1 : arg1.IsWhole) (arg2 : Memref sig .tc .vmem S1024x1024 .f32) (harg2 : arg2.IsWhole)
    (x0 : Vec F S1024x784 .f32) (x1 : Vec F S1024x784 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__pdist_kernel i arg0 harg0 arg1 harg1 arg2 harg2) K := by
  simp only [cc3__pdist_kernel_eq_skeleton]; unfold cc3__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t`
    each input's buffer at its block and the output's at `out3_2` of the two blocks; the scoped rest and the
    generator register untouched; nothing owed. Windows 0 and 1 read one array: the data holds its left half for
    window 0 and its right half for window 1, and the output array whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q := fun w => match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Regs.lean ====
/-
  The four kernel calls of @main as segments of its run, at any float instance.

  The first call (the autoencoder) has nineteen windows on nineteen distinct arrays. Each of the three
  pairwise-distance calls hands ONE array to its two input windows: the array's buffer, held whole, is split into
  two half shares at the call's entry — one per window — and the halves are joined again at its exit, an input
  array never being written; the output window's array is a buffer of its own. Between the calls every unscoped
  buffer is held at a named contents: the launch memory, then each host stretch's fold, then each call's output
  arrays at what its write-backs leave. From the four records follow the frame (every argument array ends as
  launched) and the run with every unscoped buffer's final contents named.
-/
import proofs.«135652_j20272245637753_1_alg».proof.Proof.Gen.KernelIdeal.Launch
import proofs.«135652_j20272245637753_1_alg».proof.Proof.Gen.KernelIdeal.Skeleton
import proofs.«135652_j20272245637753_1_alg».proof.Proof.Gen.KernelIdeal.Points
import proofs.«135652_j20272245637753_1_alg».proof.Proof.Gen.KernelIdeal.Regions
import proofs.«135652_j20272245637753_1_alg».proof.Proof.KI.R0
import proofs.«135652_j20272245637753_1_alg».proof.Proof.KI.R1
import proofs.«135652_j20272245637753_1_alg».proof.Proof.KI.R2
import proofs.«135652_j20272245637753_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-! ## One array behind two windows -/

/-- Call 1's two input windows read ONE array: its buffer, whole at the full share, is the two windows' halves;
    the output window's array is a buffer of its own. So a core's unscoped buffers at contents `V` are the call's
    arrays at any contents `F0` that agree with `V`, beside the unscoped rest — in both directions. -/
theorem split1 (c : Dev nD) (dat : Dat τ (Elt F) Unit ℕ (UR sig nD τ) ℕ cfg1 c)
    (V : (b : Ref sig .tc) → Buf (Elt F) ((c : Thread nD τ).loc b))
    (hq0 : dat.q 0 = fullShare.left) (hq1 : dat.q 1 = fullShare.right)
    (F0 : (w : Fin cfg1.W) → Buf (Elt F) ((cfg1.win w).arr.view.loc (c.tc : Thread nD τ)))
    (h0 : F0 0 = V main_v0) (h1 : F0 1 = V main_v0) (h2 : F0 2 = V main_v11) :
    (unscopedBufs c V : sProp 𝕄) ⊣⊢ iprop(dat.arrays F0 ∗ Pipeline.unscopedRest spec1 c V) := by
  rw [Pipeline.unscopedBufs_split₀ cfgs 1 winFacts₀1.arr_unscoped c V]
  refine sep_congr ?_ .rfl
  unfold Pipeline.arrBufs Dat.arrays
  rw [show Finset.univ.image (Pipeline.arrRef (cfgs 1).spec) = {main_v0, main_v11} from by decide,
    bigSep_insert (by decide), bigSep_singleton, bigSep_W1]
  rw [(arr_whole1 0).set_eq_univ, (arr_whole1 2).set_eq_univ]
  rw [show dat.share 0 = fullShare.left from by unfold Dat.share; rw [if_neg (by decide)]; exact hq0,
    show dat.share 1 = fullShare.right from by unfold Dat.share; rw [if_neg (by decide)]; exact hq1,
    show dat.share 2 = fullShare from by unfold Dat.share; rw [if_pos (by decide)], h0, h1, h2]
  exact (sep_congr (pointsTo_share (PosShare.mem_left_op_right fullShare)) .rfl).trans sep_assoc

/-- The unscoped rest of call 1 is read off the contents only away from the call's arrays. -/
theorem rest_congr1 (c : Dev nD) (V V' : (b : Ref sig .tc) → Buf (Elt F) ((c : Thread nD τ).loc b))
    (hrest : ∀ b, b ∉ Finset.univ.image (Pipeline.arrRef spec1) → V' b = V b) :
    (Pipeline.unscopedRest spec1 c V' : sProp 𝕄) = Pipeline.unscopedRest spec1 c V := by
  unfold Pipeline.unscopedRest
  exact bigSep_congr fun b hb => by rw [hrest b (Finset.mem_sdiff.mp hb).2]

/-- Call 2's two input windows read ONE array: its buffer, whole at the full share, is the two windows' halves;
    the output window's array is a buffer of its own. So a core's unscoped buffers at contents `V` are the call's
    arrays at any contents `F0` that agree with `V`, beside the unscoped rest — in both directions. -/
theorem split2 (c : Dev nD) (dat : Dat τ (Elt F) Unit ℕ (UR sig nD τ) ℕ cfg2 c)
    (V : (b : Ref sig .tc) → Buf (Elt F) ((c : Thread nD τ).loc b))
    (hq0 : dat.q 0 = fullShare.left) (hq1 : dat.q 1 = fullShare.right)
    (F0 : (w : Fin cfg2.W) → Buf (Elt F) ((cfg2.win w).arr.view.loc (c.tc : Thread nD τ)))
    (h0 : F0 0 = V main_v9_0) (h1 : F0 1 = V main_v9_0) (h2 : F0 2 = V main_v12) :
    (unscopedBufs c V : sProp 𝕄) ⊣⊢ iprop(dat.arrays F0 ∗ Pipeline.unscopedRest spec2 c V) := by
  rw [Pipeline.unscopedBufs_split₀ cfgs 2 winFacts₀2.arr_unscoped c V]
  refine sep_congr ?_ .rfl
  unfold Pipeline.arrBufs Dat.arrays
  rw [show Finset.univ.image (Pipeline.arrRef (cfgs 2).spec) = {main_v9_0, main_v12} from by decide,
    bigSep_insert (by decide), bigSep_singleton, bigSep_W2]
  rw [(arr_whole2 0).set_eq_univ, (arr_whole2 2).set_eq_univ]
  rw [show dat.share 0 = fullShare.left from by unfold Dat.share; rw [if_neg (by decide)]; exact hq0,
    show dat.share 1 = fullShare.right from by unfold Dat.share; rw [if_neg (by decide)]; exact hq1,
    show dat.share 2 = fullShare from by unfold Dat.share; rw [if_pos (by decide)], h0, h1, h2]
  exact (sep_congr (pointsTo_share (PosShare.mem_left_op_right fullShare)) .rfl).trans sep_assoc

/-- The unscoped rest of call 2 is read off the contents only away from the call's arrays. -/
theorem rest_congr2 (c : Dev nD) (V V' : (b : Ref sig .tc) → Buf (Elt F) ((c : Thread nD τ).loc b))
    (hrest : ∀ b, b ∉ Finset.univ.image (Pipeline.arrRef spec2) → V' b = V b) :
    (Pipeline.unscopedRest spec2 c V' : sProp 𝕄) = Pipeline.unscopedRest spec2 c V := by
  unfold Pipeline.unscopedRest
  exact bigSep_congr fun b hb => by rw [hrest b (Finset.mem_sdiff.mp hb).2]

/-- Call 3's two input windows read ONE array: its buffer, whole at the full share, is the two windows' halves;
    the output window's array is a buffer of its own. So a core's unscoped buffers at contents `V` are the call's
    arrays at any contents `F0` that agree with `V`, beside the unscoped rest — in both directions. -/
theorem split3 (c : Dev nD) (dat : Dat τ (Elt F) Unit ℕ (UR sig nD τ) ℕ cfg3 c)
    (V : (b : Ref sig .tc) → Buf (Elt F) ((c : Thread nD τ).loc b))
    (hq0 : dat.q 0 = fullShare.left) (hq1 : dat.q 1 = fullShare.right)
    (F0 : (w : Fin cfg3.W) → Buf (Elt F) ((cfg3.win w).arr.view.loc (c.tc : Thread nD τ)))
    (h0 : F0 0 = V main_v9_1) (h1 : F0 1 = V main_v9_1) (h2 : F0 2 = V main_v13) :
    (unscopedBufs c V : sProp 𝕄) ⊣⊢ iprop(dat.arrays F0 ∗ Pipeline.unscopedRest spec3 c V) := by
  rw [Pipeline.unscopedBufs_split₀ cfgs 3 winFacts₀3.arr_unscoped c V]
  refine sep_congr ?_ .rfl
  unfold Pipeline.arrBufs Dat.arrays
  rw [show Finset.univ.image (Pipeline.arrRef (cfgs 3).spec) = {main_v9_1, main_v13} from by decide,
    bigSep_insert (by decide), bigSep_singleton, bigSep_W3]
  rw [(arr_whole3 0).set_eq_univ, (arr_whole3 2).set_eq_univ]
  rw [show dat.share 0 = fullShare.left from by unfold Dat.share; rw [if_neg (by decide)]; exact hq0,
    show dat.share 1 = fullShare.right from by unfold Dat.share; rw [if_neg (by decide)]; exact hq1,
    show dat.share 2 = fullShare from by unfold Dat.share; rw [if_pos (by decide)], h0, h1, h2]
  exact (sep_congr (pointsTo_share (PosShare.mem_left_op_right fullShare)) .rfl).trans sep_assoc

/-- The unscoped rest of call 3 is read off the contents only away from the call's arrays. -/
theorem rest_congr3 (c : Dev nD) (V V' : (b : Ref sig .tc) → Buf (Elt F) ((c : Thread nD τ).loc b))
    (hrest : ∀ b, b ∉ Finset.univ.image (Pipeline.arrRef spec3) → V' b = V b) :
    (Pipeline.unscopedRest spec3 c V' : sProp 𝕄) = Pipeline.unscopedRest spec3 c V := by
  unfold Pipeline.unscopedRest
  exact bigSep_congr fun b hb => by rw [hrest b (Finset.mem_sdiff.mp hb).2]

/-! ## The buffers' contents at the regions' boundaries -/

variable (m : (ℓ : Loc nD τ sig) → Buf (Elt F) ℓ)

/-- The MLP call's entry contents: the launch memory after the reshapes of the input and of the bias vectors. -/
abbrev U1 : (c : Dev nD) → (b : Ref sig .tc) → Buf (Elt F) ((c : Thread nD τ).loc b) := fun c b => V1 m c b
/-- After the MLP call: the code array and the reconstruction array at what the write-backs leave. -/
def U2 (c : Dev nD) : Valuation τ sig (Elt F) :=
  Function.update (Function.update (V1 m c) main_v9_0 ((dat0 (U1 m) c).arrAt 17 cfg0.N)) main_v9_1 ((dat0 (U1 m) c).arrAt 18 cfg0.N)
abbrev U2' : (c : Dev nD) → (b : Ref sig .tc) → Buf (Elt F) ((c : Thread nD τ).loc b) := fun c b => U2 m c b
/-- After the reshape of the reconstruction to images: the first distance call's entry contents. -/
abbrev U3 (c : Dev nD) : Valuation τ sig (Elt F) := StableHlo.after hostOps1 (U2 m c)
abbrev U3' : (c : Dev nD) → (b : Ref sig .tc) → Buf (Elt F) ((c : Thread nD τ).loc b) := fun c b => U3 m c b
/-- After the distance call on the inputs. -/
def U4 (c : Dev nD) : Valuation τ sig (Elt F) := Function.update (U3 m c) main_v11 ((dat1 (U3' m) c).arrAt 2 cfg1.N)
abbrev U4' : (c : Dev nD) → (b : Ref sig .tc) → Buf (Elt F) ((c : Thread nD τ).loc b) := fun c b => U4 m c b
/-- After the distance call on the codes. -/
def U5 (c : Dev nD) : Valuation τ sig (Elt F) := Function.update (U4 m c) main_v12 ((dat2 (U4' m) c).arrAt 2 cfg2.N)
abbrev U5' : (c : Dev nD) → (b : Ref sig .tc) → Buf (Elt F) ((c : Thread nD τ).loc b) := fun c b => U5 m c b
/-- After the distance call on the reconstructions. -/
def U6 (c : Dev nD) : Valuation τ sig (Elt F) := Function.update (U5 m c) main_v13 ((dat3 (U5' m) c).arrAt 2 cfg3.N)
abbrev U6' : (c : Dev nD) → (b : Ref sig .tc) → Buf (Elt F) ((c : Thread nD τ).loc b) := fun c b => U6 m c b

/-- What the calls leave, as the unknowns the generated boundary valuations are written over. -/
def outs : Outs (F := F) := fun J r c => match J with
  | 2 => U2 m c r
  | 4 => U4 m c r
  | 5 => U5 m c r
  | 6 => U6 m c r
  | _ => V0 m c r

theorem U2_v9_0 (c : Dev nD) : U2 m c (Proc.devRef .tc main_v9_0) = (dat0 (U1 m) c).arrAt 17 cfg0.N := by
  unfold U2; rw [Function.update_of_ne (StableHlo.devRef_ne_of_ne (by decide)), Function.update_self]
theorem U2_v9_1 (c : Dev nD) : U2 m c (Proc.devRef .tc main_v9_1) = (dat0 (U1 m) c).arrAt 18 cfg0.N := by
  unfold U2; rw [Function.update_self]
theorem U4_v11 (c : Dev nD) : U4 m c (Proc.devRef .tc main_v11) = (dat1 (U3' m) c).arrAt 2 cfg1.N := by
  unfold U4; rw [Function.update_self]
theorem U5_v12 (c : Dev nD) : U5 m c (Proc.devRef .tc main_v12) = (dat2 (U4' m) c).arrAt 2 cfg2.N := by
  unfold U5; rw [Function.update_self]
theorem U6_v13 (c : Dev nD) : U6 m c (Proc.devRef .tc main_v13) = (dat3 (U5' m) c).arrAt 2 cfg3.N := by
  unfold U6; rw [Function.update_self]

/-- The generated boundary valuations at these unknowns are the contents above. -/
theorem V2_eq (c : Dev nD) : V2 m (outs m) c = U2 m c := by
  show Function.update (Function.update (V1 m c) main_v9_0 (U2 m c (Proc.devRef .tc main_v9_0))) main_v9_1 (U2 m c (Proc.devRef .tc main_v9_1)) = U2 m c
  rw [U2_v9_0, U2_v9_1]; rfl
theorem V3_eq (c : Dev nD) : V3 m (outs m) c = U3 m c := by
  show StableHlo.after hostOps1 (V2 m (outs m) c) = _; rw [V2_eq]
theorem V4_eq (c : Dev nD) : V4 m (outs m) c = U4 m c := by
  show Function.update (V3 m (outs m) c) main_v11 (U4 m c (Proc.devRef .tc main_v11)) = U4 m c
  rw [V3_eq, U4_v11]; rfl
theorem V5_eq (c : Dev nD) : V5 m (outs m) c = U5 m c := by
  show Function.update (V4 m (outs m) c) main_v12 (U5 m c (Proc.devRef .tc main_v12)) = U5 m c
  rw [V4_eq, U5_v12]; rfl
theorem V6_eq (c : Dev nD) : V6 m (outs m) c = U6 m c := by
  show Function.update (V5 m (outs m) c) main_v13 (U6 m c (Proc.devRef .tc main_v13)) = U6 m c
  rw [V5_eq, U6_v13]; rfl

/-! ## Each call's arrays at its exit -/

/-- An input window's array is never written: at the call's exit it holds what it held at the entry. -/
theorem hF0_in (c : Dev nD) (w : Fin cfg0.W) (hw : (cfg0.win w).isOut = false)
    (h17 : Pipeline.arrRef spec0 w ≠ main_v9_0) (h18 : Pipeline.arrRef spec0 w ≠ main_v9_1) :
    (dat0 (U1 m) c).arrAt w cfg0.N = U2' m c (Pipeline.arrRef spec0 w) := by
  show _ = U2 m c (Proc.devRef .tc (Pipeline.arrRef spec0 w))
  unfold U2; rw [Function.update_of_ne (StableHlo.devRef_ne_of_ne h18), Function.update_of_ne (StableHlo.devRef_ne_of_ne h17)]
  exact ((dat0 (U1 m) c).arrAt_in w hw _).trans (A_eq0 (U1 m) c w)

/-- Windows 17 and 18 are the outputs, on arrays of their own; the seventeen others are inputs on other arrays. -/
theorem win0_facts : ∀ w : Fin cfg0.W, w ≠ 17 → w ≠ 18 →
    (cfg0.win w).isOut = false ∧ Pipeline.arrRef spec0 w ≠ main_v9_0 ∧ Pipeline.arrRef spec0 w ≠ main_v9_1 := by decide

/-- The MLP call's arrays at its exit: the two outputs at what the write-backs leave, every input as entered. -/
theorem hF0 (c : Dev nD) (w : Fin cfg0.W) : (dat0 (U1 m) c).arrAt w cfg0.N = U2' m c (Pipeline.arrRef spec0 w) := by
  by_cases h17 : w = 17
  · subst h17; exact (U2_v9_0 m c).symm
  by_cases h18 : w = 18
  · subst h18; exact (U2_v9_1 m c).symm
  exact hF0_in m c w (win0_facts w h17 h18).1 (win0_facts w h17 h18).2.1 (win0_facts w h17 h18).2.2
theorem hrest0 (c : Dev nD) : ∀ b, b ∉ Finset.univ.image (Pipeline.arrRef spec0) → U2' m c b = U1 m c b := fun b hb => by
  show U2 m c (Proc.devRef .tc b) = V1 m c (Proc.devRef .tc b)
  unfold U2
  rw [Function.update_of_ne (StableHlo.devRef_ne_of_ne fun e => hb (Finset.mem_image.mpr ⟨18, Finset.mem_univ _, e.symm⟩)),
    Function.update_of_ne (StableHlo.devRef_ne_of_ne fun e => hb (Finset.mem_image.mpr ⟨17, Finset.mem_univ _, e.symm⟩))]

theorem hF1_0 (c : Dev nD) : (dat1 (U3' m) c).arrAt 0 cfg1.N = U4' m c main_v0 := by
  show _ = U4 m c (Proc.devRef .tc main_v0)
  unfold U4; rw [Function.update_of_ne (StableHlo.devRef_ne_of_ne (by decide))]
  exact ((dat1 (U3' m) c).arrAt_in 0 rfl _).trans (A_eq1 (U3' m) c 0)
theorem hF1_1 (c : Dev nD) : (dat1 (U3' m) c).arrAt 1 cfg1.N = U4' m c main_v0 := by
  show _ = U4 m c (Proc.devRef .tc main_v0)
  unfold U4; rw [Function.update_of_ne (StableHlo.devRef_ne_of_ne (by decide))]
  exact ((dat1 (U3' m) c).arrAt_in 1 rfl _).trans (A_eq1 (U3' m) c 1)
theorem hF1_2 (c : Dev nD) : (dat1 (U3' m) c).arrAt 2 cfg1.N = U4' m c main_v11 := by
  show _ = U4 m c (Proc.devRef .tc main_v11)
  unfold U4; rw [Function.update_self]
theorem hrest1 (c : Dev nD) : ∀ b, b ∉ Finset.univ.image (Pipeline.arrRef spec1) → U4' m c b = U3' m c b := fun b hb => by
  show U4 m c (Proc.devRef .tc b) = U3 m c (Proc.devRef .tc b)
  unfold U4
  exact Function.update_of_ne (StableHlo.devRef_ne_of_ne fun e => hb (Finset.mem_image.mpr ⟨2, Finset.mem_univ _, e.symm⟩)) _ _

theorem hF2_0 (c : Dev nD) : (dat2 (U4' m) c).arrAt 0 cfg2.N = U5' m c main_v9_0 := by
  show _ = U5 m c (Proc.devRef .tc main_v9_0)
  unfold U5; rw [Function.update_of_ne (StableHlo.devRef_ne_of_ne (by decide))]
  exact ((dat2 (U4' m) c).arrAt_in 0 rfl _).trans (A_eq2 (U4' m) c 0)
theorem hF2_1 (c : Dev nD) : (dat2 (U4' m) c).arrAt 1 cfg2.N = U5' m c main_v9_0 := by
  show _ = U5 m c (Proc.devRef .tc main_v9_0)
  unfold U5; rw [Function.update_of_ne (StableHlo.devRef_ne_of_ne (by decide))]
  exact ((dat2 (U4' m) c).arrAt_in 1 rfl _).trans (A_eq2 (U4' m) c 1)
theorem hF2_2 (c : Dev nD) : (dat2 (U4' m) c).arrAt 2 cfg2.N = U5' m c main_v12 := by
  show _ = U5 m c (Proc.devRef .tc main_v12)
  unfold U5; rw [Function.update_self]
theorem hrest2 (c : Dev nD) : ∀ b, b ∉ Finset.univ.image (Pipeline.arrRef spec2) → U5' m c b = U4' m c b := fun b hb => by
  show U5 m c (Proc.devRef .tc b) = U4 m c (Proc.devRef .tc b)
  unfold U5
  exact Function.update_of_ne (StableHlo.devRef_ne_of_ne fun e => hb (Finset.mem_image.mpr ⟨2, Finset.mem_univ _, e.symm⟩)) _ _

theorem hF3_0 (c : Dev nD) : (dat3 (U5' m) c).arrAt 0 cfg3.N = U6' m c main_v9_1 := by
  show _ = U6 m c (Proc.devRef .tc main_v9_1)
  unfold U6; rw [Function.update_of_ne (StableHlo.devRef_ne_of_ne (by decide))]
  exact ((dat3 (U5' m) c).arrAt_in 0 rfl _).trans (A_eq3 (U5' m) c 0)
theorem hF3_1 (c : Dev nD) : (dat3 (U5' m) c).arrAt 1 cfg3.N = U6' m c main_v9_1 := by
  show _ = U6 m c (Proc.devRef .tc main_v9_1)
  unfold U6; rw [Function.update_of_ne (StableHlo.devRef_ne_of_ne (by decide))]
  exact ((dat3 (U5' m) c).arrAt_in 1 rfl _).trans (A_eq3 (U5' m) c 1)
theorem hF3_2 (c : Dev nD) : (dat3 (U5' m) c).arrAt 2 cfg3.N = U6' m c main_v13 := by
  show _ = U6 m c (Proc.devRef .tc main_v13)
  unfold U6; rw [Function.update_self]
theorem hrest3 (c : Dev nD) : ∀ b, b ∉ Finset.univ.image (Pipeline.arrRef spec3) → U6' m c b = U5' m c b := fun b hb => by
  show U6 m c (Proc.devRef .tc b) = U5 m c (Proc.devRef .tc b)
  unfold U6
  exact Function.update_of_ne (StableHlo.devRef_ne_of_ne fun e => hb (Finset.mem_image.mpr ⟨2, Finset.mem_univ _, e.symm⟩)) _ _

/-! ## The proof data family and the thread state -/

/-- Every call's proof data, each at its entry contents — a literal match, so that the configuration at a numeral
    reduces to the printed one. -/
def pdats : (p : Fin 4) → (c : Dev nD) → Dat τ (Elt F) Unit ℕ (UR sig nD τ) ℕ (cfgs p) c
  | ⟨0, _⟩ => fun c => dat0 (U1 m) c
  | ⟨1, _⟩ => fun c => dat1 (U3' m) c
  | ⟨2, _⟩ => fun c => dat2 (U4' m) c
  | ⟨3, _⟩ => fun c => dat3 (U5' m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev Rr (c : Dev nD) : sProp 𝕄 := iprop((∃ r, prngReg c r) ∗ ∃ W, owes (c : Thread nD τ) (0 : CellTallies nD τ sig Unit) W)

/-! ## The calls as segments -/

set_option backward.isDefEq.respectTransparency.types false in
/-- The MLP call as a segment: its nineteen arrays are distinct buffers, split out of the unscoped buffers at the
    entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with the output array at
    what the write-backs leave and every other buffer as entered. The array the two input windows share is split into
    halves at the entry and joined again at the exit (an input array is never written). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3' m) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (U3' m c)
  hentry c := by
    rw [Pipeline.ownSems0_none]
    have hsplit := (split1 c (pdats m 1 c) (U3' m c) rfl rfl ((pdats m 1 c).arrAt · 0) rfl rfl rfl).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := (split1 c (pdats m 1 c) (U4' m c) rfl rfl ((pdats m 1 c).arrAt · cfg1.N)
      (hF1_0 m c) (hF1_1 m c) (hF1_2 m c)).2
    rw [rest_congr1 c (U3' m c) (U4' m c) (hrest1 m c), Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at the contents before it, left with the output array at
    what the write-backs leave and every other buffer as entered. The array the two input windows share is split into
    halves at the entry and joined again at the exit (an input array is never written). -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U4' m) c).loose
  hwaits := Pipeline.hwaits_of_owed_zero _ _ _ _ L lv 2 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec2 c (U4' m c)
  hentry c := by
    rw [Pipeline.ownSems0_none]
    have hsplit := (split2 c (pdats m 2 c) (U4' m c) rfl rfl ((pdats m 2 c).arrAt · 0) rfl rfl rfl).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := (split2 c (pdats m 2 c) (U5' m c) rfl rfl ((pdats m 2 c).arrAt · cfg2.N)
      (hF2_0 m c) (hF2_1 m c) (hF2_2 m c)).2
    rw [rest_congr2 c (U4' m c) (U5' m c) (hrest2 m c), Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered with every unscoped buffer at the contents before it, left with the output array at
    what the write-backs leave and every other buffer as entered. The array the two input windows share is split into
    halves at the entry and joined again at the exit (an input array is never written). -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U5' m) c).loose
  hwaits := Pipeline.hwaits_of_owed_zero _ _ _ _ L lv 3 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec3 c (U5' m c)
  hentry c := by
    rw [Pipeline.ownSems0_none]
    have hsplit := (split3 c (pdats m 3 c) (U5' m c) rfl rfl ((pdats m 3 c).arrAt · 0) rfl rfl rfl).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := (split3 c (pdats m 3 c) (U6' m c) rfl rfl ((pdats m 3 c).arrAt · cfg3.N)
      (hF3_0 m c) (hF3_1 m c) (hF3_2 m c)).2
    rw [rest_congr3 c (U5' m c) (U6' m c) (hrest3 m c), Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame and the run -/

/-- The launch's ghost element makes the pipeline library's element and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch a core's generator register and its dues, at nothing, make the state that rides along. -/
theorem hE0c (ρ : Dev nD → PrngReg) (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) : sProp 𝕄) ⊢ Rr (F := F) c := by
  iintro ⟨-, HO, -, Hp, -⟩
  isplitl [Hp]; · iexists _; iexact Hp
  iexists ∅; iexact HO

theorem hE0 (ρ : Dev nD → PrngReg) : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => Rr (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => Rr (F := F) c) : sProp 𝕄) :=
    bigSep_mono fun c _ => hE0c ρ c
  iintro ⟨H, -⟩
  imodintro
  ihave H' := hmono $$ H
  iexact H'

/-- What rides along ends owing nothing. -/
theorem hE4 (c : Dev nD) : Rr (F := F) c ⊢ (iprop(∃ W, owes (c : Thread nD τ) (0 : CellTallies nD τ sig Unit) W) : sProp 𝕄) := by
  iintro ⟨-, H⟩; iexact H

variable (ρ : Dev nD → PrngReg)

set_option backward.isDefEq.respectTransparency.types false in
/-- THE RUN, given the calls' records: as the conditional frame, with the post naming EVERY unscoped buffer's final contents —
    the last boundary valuation, a fold from the launch memory through the host stretches and the calls' unknowns. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V5 m outs c) ∗ E 3 c) ⊢ R3.pre c)
    (hpost3 : ∀ c : Dev nD, R3.post c ⊢ iprop(StableHlo.held (c : Thread nD τ) (Pipeline.ucRefs τ sig) (V6 m outs c) ∗ E 4 c)) :
    θ_run defs (onTc (τ := τ) (main (F := F))) ⟨m, fun _ => 0, ρ⟩ (fun r => ∀ c : Dev nD, ∀ b ∈ Pipeline.ucRefs τ sig,
      r.2.mem (((c : Thread nD τ)).1, b) = V23 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          StableHlo.seq hostOps4_11,
          StableHlo.seq hostOps4_12,
          StableHlo.seq hostOps4_13,
          StableHlo.seq hostOps4_14,
          StableHlo.seq hostOps4_15,
          StableHlo.seq hostOps4_16 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, hpre0 c, hpost0 c, hpre1 c, (hpost1 c).trans (hpre2 c), (hpost2 c).trans (hpre3 c), hpost3 c, .rfl, .rfl, .rfl, .rfl, .rfl, .rfl, .rfl, .rfl, .rfl, .rfl, .rfl, .rfl, .rfl, .rfl, .rfl, .rfl, sep_mono .rfl (hE4 c)⟩)
    (hinit := ?_) (QY := fun c s => ∀ b ∈ Pipeline.ucRefs τ sig, s.mem (((c : Thread nD τ)).1, b) = V23 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V23 m outs c) s')
    isplitl [Hh] <;> iassumption

set_option backward.isDefEq.respectTransparency.types false in
/-- THE FRAME, at any instance: from any memory with zero counters every weakly fair execution of @main terminates,
    nothing faulting, every argument array as launched — the conditional frame at the four calls' records. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀ (fun _ c => Rr c) (hE0 ρ)
    hE4
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V5_eq]; exact .rfl) (fun c => by rw [V6_eq]; exact .rfl)

set_option backward.isDefEq.respectTransparency.types false in
/-- THE RUN with every unscoped buffer's final contents named: the last boundary valuation at the calls' contents. -/
theorem run_all :
    θ_run defs (onTc (τ := τ) (main (F := F))) ⟨m, fun _ => 0, ρ⟩ (fun r => ∀ c : Dev nD, ∀ b ∈ Pipeline.ucRefs τ sig,
      r.2.mem (((c : Thread nD τ)).1, b) = V23 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj)) hu₀ (fun _ c => Rr c) (hE0 ρ)
    hE4
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V5_eq]; exact .rfl) (fun c => by rw [V6_eq]; exact .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the calls find: the first host stretch's reshapes, and buffers carried across the calls -/

theorem U1_v0 (c : Dev nD) : U1 m c main_v0 = shapeCast S4096x784 (m ((c : Thread nD τ).loc main_arg0)) shapeCasts_S4096x1x28x28_S4096x784 := by
  show StableHlo.after hostOps0 (V0 m c) (Proc.devRef .tc main_v0) = _; after_results; rfl
theorem U1_v1 (c : Dev nD) : U1 m c main_v1 = shapeCast S1x400 (m ((c : Thread nD τ).loc main_arg2)) shapeCasts_S400_S1x400 := by
  show StableHlo.after hostOps0 (V0 m c) (Proc.devRef .tc main_v1) = _; after_results; rfl
theorem U1_v2 (c : Dev nD) : U1 m c main_v2 = shapeCast S1x200 (m ((c : Thread nD τ).loc main_arg4)) shapeCasts_S200_S1x200 := by
  show StableHlo.after hostOps0 (V0 m c) (Proc.devRef .tc main_v2) = _; after_results; rfl
theorem U1_v3 (c : Dev nD) : U1 m c main_v3 = shapeCast S1x50 (m ((c : Thread nD τ).loc main_arg6)) shapeCasts_S50_S1x50 := by
  show StableHlo.after hostOps0 (V0 m c) (Proc.devRef .tc main_v3) = _; after_results; rfl
theorem U1_v4 (c : Dev nD) : U1 m c main_v4 = shapeCast S1x2 (m ((c : Thread nD τ).loc main_arg8)) shapeCasts_S2_S1x2 := by
  show StableHlo.after hostOps0 (V0 m c) (Proc.devRef .tc main_v4) = _; after_results; rfl
theorem U1_v5 (c : Dev nD) : U1 m c main_v5 = shapeCast S1x50 (m ((c : Thread nD τ).loc main_arg10)) shapeCasts_S50_S1x50 := by
  show StableHlo.after hostOps0 (V0 m c) (Proc.devRef .tc main_v5) = _; after_results; rfl
theorem U1_v6 (c : Dev nD) : U1 m c main_v6 = shapeCast S1x200 (m ((c : Thread nD τ).loc main_arg12)) shapeCasts_S200_S1x200 := by
  show StableHlo.after hostOps0 (V0 m c) (Proc.devRef .tc main_v6) = _; after_results; rfl
theorem U1_v7 (c : Dev nD) : U1 m c main_v7 = shapeCast S1x400 (m ((c : Thread nD τ).loc main_arg14)) shapeCasts_S400_S1x400 := by
  show StableHlo.after hostOps0 (V0 m c) (Proc.devRef .tc main_v7) = _; after_results; rfl
theorem U1_v8 (c : Dev nD) : U1 m c main_v8 = shapeCast S1x784 (m ((c : Thread nD τ).loc main_arg16)) shapeCasts_S784_S1x784 := by
  show StableHlo.after hostOps0 (V0 m c) (Proc.devRef .tc main_v8) = _; after_results; rfl
/-- A buffer the first stretch does not write holds its launch contents at the MLP call's entry. -/
theorem U1_launch (c : Dev nD) (r : Ref sig .tc) (h : r ∉ hostOps0_W) : U1 m c r = m ((c : Thread nD τ).loc r) := V1_of m c r h

/-- The MLP call changes only its two outputs' arrays. -/
theorem U2_of (c : Dev nD) (r : Ref sig .tc) (h0 : r ≠ main_v9_0) (h1 : r ≠ main_v9_1) : U2 m c r = V1 m c r := by
  show U2 m c (Proc.devRef .tc r) = _
  unfold U2; rw [Function.update_of_ne (StableHlo.devRef_ne_of_ne h1), Function.update_of_ne (StableHlo.devRef_ne_of_ne h0)]
/-- The reshape to images writes only the image array. -/
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v11) : U4 m c r = U3 m c r := by
  show U4 m c (Proc.devRef .tc r) = _
  unfold U4; rw [Function.update_of_ne (StableHlo.devRef_ne_of_ne h)]
theorem U5_of (c : Dev nD) (r : Ref sig .tc) (h : r ≠ main_v12) : U5 m c r = U4 m c r := by
  show U5 m c (Proc.devRef .tc r) = _
  unfold U5; rw [Function.update_of_ne (StableHlo.devRef_ne_of_ne h)]
theorem U6_of (c : Dev nD) (r : Ref sig .tc) (h : r ≠ main_v13) : U6 m c r = U5 m c r := by
  show U6 m c (Proc.devRef .tc r) = _
  unfold U6; rw [Function.update_of_ne (StableHlo.devRef_ne_of_ne h)]

/-- The rows array reaches the first distance call as the MLP call found it. -/
theorem U3_v0 (c : Dev nD) : U3' m c main_v0 = U1 m c main_v0 :=
  (U3_of m c main_v0 (by decide)).trans (U2_of m c main_v0 (by decide) (by decide))
/-- The codes reach the second distance call as the MLP call left them. -/
theorem U4_v9_0 (c : Dev nD) : U4' m c main_v9_0 = (dat0 (U1 m) c).arrAt 17 cfg0.N :=
  ((U4_of m c main_v9_0 (by decide)).trans (U3_of m c main_v9_0 (by decide))).trans (U2_v9_0 m c)
/-- The reconstructions reach the third distance call as the MLP call left them. -/
theorem U5_v9_1 (c : Dev nD) : U5' m c main_v9_1 = (dat0 (U1 m) c).arrAt 18 cfg0.N :=
  (((U5_of m c main_v9_1 (by decide)).trans (U4_of m c main_v9_1 (by decide))).trans (U3_of m c main_v9_1 (by decide))).trans (U2_v9_1 m c)
/-- The three distance matrices at the last call's exit. -/
theorem U6_v11 (c : Dev nD) : U6 m c (Proc.devRef .tc main_v11) = (dat1 (U3' m) c).arrAt 2 cfg1.N :=
  ((U6_of m c main_v11 (by decide)).trans (U5_of m c main_v11 (by decide))).trans (U4_v11 m c)
theorem U6_v12 (c : Dev nD) : U6 m c (Proc.devRef .tc main_v12) = (dat2 (U4' m) c).arrAt 2 cfg2.N :=
  (U6_of m c main_v12 (by decide)).trans (U5_v12 m c)

end Cert.KernelIdeal.Hand
end
-- ==== Proof.KB.R0.lean ====
import proofs.«135652_j20272245637753_1_alg».proof.Proof.Gen.Kernel.Launch
import proofs.«135652_j20272245637753_1_alg».proof.Proof.Gen.Kernel.Skeleton
import proofs.«135652_j20272245637753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the autoencoder body on one block of 512 rows

The first TensorCore region runs an eight-layer perceptron over the 4096 x 784 input, 512 rows at a grid point
(8 points). Seventeen windows are read: the row block of the input and the eight weight matrices with their
1 x n bias rows, each weight window being its whole array. Two windows are written: the 512 x 2 code block and the
512 x 784 reconstruction block. This module states, at any contents `V` of the arrays when the region is
entered, what each window's staging buffer holds before and after the body at a point, and proves the body's
triple there. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the block was moved in at that point
or at an earlier one: where it was not moved, the block index is the one of the point before, and the body leaves
the buffer as it found it. Window 0 moves at every point; windows 1 to 16 have one block, moved at the first. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole of its buffer -/

abbrev r0_512x784 : Rect S512x784 := Rect.unit (s := S512x784) ![0, 0] S512x784.size inb_S512x784_S512x784_0_0
abbrev r0_400x784 : Rect S400x784 := Rect.unit (s := S400x784) ![0, 0] S400x784.size inb_S400x784_S400x784_0_0
abbrev r0_1x400 : Rect S1x400 := Rect.unit (s := S1x400) ![0, 0] S1x400.size inb_S1x400_S1x400_0_0
abbrev r0_200x400 : Rect S200x400 := Rect.unit (s := S200x400) ![0, 0] S200x400.size inb_S200x400_S200x400_0_0
abbrev r0_1x200 : Rect S1x200 := Rect.unit (s := S1x200) ![0, 0] S1x200.size inb_S1x200_S1x200_0_0
abbrev r0_50x200 : Rect S50x200 := Rect.unit (s := S50x200) ![0, 0] S50x200.size inb_S50x200_S50x200_0_0
abbrev r0_1x50 : Rect S1x50 := Rect.unit (s := S1x50) ![0, 0] S1x50.size inb_S1x50_S1x50_0_0
abbrev r0_2x50 : Rect S2x50 := Rect.unit (s := S2x50) ![0, 0] S2x50.size inb_S2x50_S2x50_0_0
abbrev r0_1x2 : Rect S1x2 := Rect.unit (s := S1x2) ![0, 0] S1x2.size inb_S1x2_S1x2_0_0
abbrev r0_50x2 : Rect S50x2 := Rect.unit (s := S50x2) ![0, 0] S50x2.size inb_S50x2_S50x2_0_0
abbrev r0_200x50 : Rect S200x50 := Rect.unit (s := S200x50) ![0, 0] S200x50.size inb_S200x50_S200x50_0_0
abbrev r0_400x200 : Rect S400x200 := Rect.unit (s := S400x200) ![0, 0] S400x200.size inb_S400x200_S400x200_0_0
abbrev r0_784x400 : Rect S784x400 := Rect.unit (s := S784x400) ![0, 0] S784x400.size inb_S784x400_S784x400_0_0
abbrev r0_1x784 : Rect S1x784 := Rect.unit (s := S1x784) ![0, 0] S1x784.size inb_S1x784_S1x784_0_0
abbrev r0_512x2 : Rect S512x2 := Rect.unit (s := S512x2) ![0, 0] S512x2.size inb_S512x2_S512x2_0_0

/-! ## What the body leaves in each output window's buffer -/

/-- The code block: the first three layers of the row block up to the third sum (`k0_pay2`), then the leaky
    rectifier, the hyperbolic tangent and the fourth layer's sum (`k0_pay4`). -/
def out0_17 (x0 : Vec F S512x784 .f32) (x1 : Vec F S400x784 .f32) (x2 : Vec F S1x400 .f32) (x3 : Vec F S200x400 .f32) (x4 : Vec F S1x200 .f32) (x5 : Vec F S50x200 .f32) (x6 : Vec F S1x50 .f32) (x7 : Vec F S2x50 .f32) (x8 : Vec F S1x2 .f32) (x9 : Vec F S50x2 .f32) (x10 : Vec F S1x50 .f32) (x11 : Vec F S200x50 .f32) (x12 : Vec F S1x200 .f32) (x13 : Vec F S400x200 .f32) (x14 : Vec F S1x400 .f32) (x15 : Vec F S784x400 .f32) (x16 : Vec F S1x784 .f32) : Vec F S512x2 .f32 :=
  View.canon [⟨r0_512x2, (k0_pay4 (k0_pay2 (View.ld x0 r0_512x784) (View.ld x1 r0_400x784) (View.ld x2 r0_1x400) (View.ld x3 r0_200x400) (View.ld x4 r0_1x200) (View.ld x5 r0_50x200) (View.ld x6 r0_1x50)) (k0_pay3 (F := F)) (View.ld x7 r0_2x50) (View.ld x8 r0_1x2))⟩]

/-- The reconstruction block: layers five and six over the code (`k0_pay5`), then layers seven and eight, the last
    through the logistic (`k0_pay1`). -/
def out0_18 (x0 : Vec F S512x784 .f32) (x1 : Vec F S400x784 .f32) (x2 : Vec F S1x400 .f32) (x3 : Vec F S200x400 .f32) (x4 : Vec F S1x200 .f32) (x5 : Vec F S50x200 .f32) (x6 : Vec F S1x50 .f32) (x7 : Vec F S2x50 .f32) (x8 : Vec F S1x2 .f32) (x9 : Vec F S50x2 .f32) (x10 : Vec F S1x50 .f32) (x11 : Vec F S200x50 .f32) (x12 : Vec F S1x200 .f32) (x13 : Vec F S400x200 .f32) (x14 : Vec F S1x400 .f32) (x15 : Vec F S784x400 .f32) (x16 : Vec F S1x784 .f32) : Vec F S512x784 .f32 :=
  View.canon [⟨r0_512x784, (k0_pay1 (k0_pay5 (k0_pay2 (View.ld x0 r0_512x784) (View.ld x1 r0_400x784) (View.ld x2 r0_1x400) (View.ld x3 r0_200x400) (View.ld x4 r0_1x200) (View.ld x5 r0_50x200) (View.ld x6 r0_1x50)) (k0_pay3 (F := F)) (View.ld x7 r0_2x50) (View.ld x8 r0_1x2) (View.ld x9 r0_50x2) (View.ld x10 r0_1x50) (View.ld x11 r0_200x50) (View.ld x12 r0_1x200)) (View.ld x13 r0_400x200) (View.ld x14 r0_1x400) (View.ld x15 r0_784x400) (View.ld x16 r0_1x784))⟩]

/-- The one store of each output is through the whole buffer, so it covers it. -/
theorem cover0_17 (p0 : Vec F S512x2 .f32) (y : S512x2.Idx) :
    ∃ pc ∈ ([⟨r0_512x2, p0⟩] : List (View.Piece (Elt F) S512x2 .f32)), y ∈ pc.1.set :=
  View.cover_of_tiled [⟨r0_512x2, p0⟩] S512x2.size (by rfl) y

theorem cover0_18 (p0 : Vec F S512x784 .f32) (y : S512x784.Idx) :
    ∃ pc ∈ ([⟨r0_512x784, p0⟩] : List (View.Piece (Elt F) S512x784 .f32)), y ∈ pc.1.set :=
  View.cover_of_tiled [⟨r0_512x784, p0⟩] S512x784.size (by rfl) y

/-! ## The body's triple -/

set_option maxHeartbeats 4000000 in
/-- The body on whole staging buffers, the inputs' holding `xW` and the outputs' anything, runs to the continuation
    with the inputs' as they were and each output's at `out0_W` of the inputs': it loads every input whole, and
    stores the two results whole. -/
theorem sound_kernel0 (c : Dev nD) (E : Set ℕ) (i : grid0.Coords) (arg1 : Memref sig .tc .vmem S512x784 .f32) (harg1 : arg1.IsWhole) (arg2 : Memref sig .tc .vmem S400x784 .f32) (harg2 : arg2.IsWhole) (arg3 : Memref sig .tc .vmem S1x400 .f32) (harg3 : arg3.IsWhole) (arg4 : Memref sig .tc .vmem S200x400 .f32) (harg4 : arg4.IsWhole) (arg5 : Memref sig .tc .vmem S1x200 .f32) (harg5 : arg5.IsWhole) (arg6 : Memref sig .tc .vmem S50x200 .f32) (harg6 : arg6.IsWhole) (arg7 : Memref sig .tc .vmem S1x50 .f32) (harg7 : arg7.IsWhole) (arg8 : Memref sig .tc .vmem S2x50 .f32) (harg8 : arg8.IsWhole) (arg9 : Memref sig .tc .vmem S1x2 .f32) (harg9 : arg9.IsWhole) (arg10 : Memref sig .tc .vmem S50x2 .f32) (harg10 : arg10.IsWhole) (arg11 : Memref sig .tc .vmem S1x50 .f32) (harg11 : arg11.IsWhole) (arg12 : Memref sig .tc .vmem S200x50 .f32) (harg12 : arg12.IsWhole) (arg13 : Memref sig .tc .vmem S1x200 .f32) (harg13 : arg13.IsWhole) (arg14 : Memref sig .tc .vmem S400x200 .f32) (harg14 : arg14.IsWhole) (arg15 : Memref sig .tc .vmem S1x400 .f32) (harg15 : arg15.IsWhole) (arg16 : Memref sig .tc .vmem S784x400 .f32) (harg16 : arg16.IsWhole) (arg17 : Memref sig .tc .vmem S1x784 .f32) (harg17 : arg17.IsWhole) (arg18 : Memref sig .tc .vmem S512x2 .f32) (harg18 : arg18.IsWhole) (arg19 : Memref sig .tc .vmem S512x784 .f32) (harg19 : arg19.IsWhole)
    (x0 : Vec F S512x784 .f32) (x1 : Vec F S400x784 .f32) (x2 : Vec F S1x400 .f32) (x3 : Vec F S200x400 .f32) (x4 : Vec F S1x200 .f32) (x5 : Vec F S50x200 .f32) (x6 : Vec F S1x50 .f32) (x7 : Vec F S2x50 .f32) (x8 : Vec F S1x2 .f32) (x9 : Vec F S50x2 .f32) (x10 : Vec F S1x50 .f32) (x11 : Vec F S200x50 .f32) (x12 : Vec F S1x200 .f32) (x13 : Vec F S400x200 .f32) (x14 : Vec F S1x400 .f32) (x15 : Vec F S784x400 .f32) (x16 : Vec F S1x784 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mlp_kernel_eq_skeleton]; unfold cc0__mlp_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover0_17 _)
  iexists _; isplitr
  swap; · iexact H18
  ipureintro
  exact View.read_writes_eq_canon _ _ _ (cover0_18 _)

/-! ## The pipeline's proof data -/

/-- The proof data of the region on core `c`: the arrays as the region finds them; after the body at point `t` each
    input's buffer at its block and each output's at `out0_W` of the seventeen input blocks; the invariant that of
    a body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    | ⟨_ + 19, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) := by dsimp only [dat0]

/-! Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t))

set_option maxHeartbeats 4000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c Set.univ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0
end Cert.Kernel.Hand
-- ==== Proof.KB.R1.lean ====
import proofs.«135652_j20272245637753_1_alg».proof.Proof.Gen.Kernel.Launch
import proofs.«135652_j20272245637753_1_alg».proof.Proof.Gen.Kernel.Skeleton
import proofs.«135652_j20272245637753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pairwise-distance pipeline 1, at the contents its region is entered with

Pipeline 1 walks a 4 x 4 grid. At point `(i, j)` window 0 is row block `i` and window 1 is row block `j` of ONE
array of 4096 rows, window 2 is block `(i, j)` of the 4096 x 4096 result. The body loads both row blocks whole,
computes the 1024 x 1024 block of pairwise distances from them and stores it whole. Stated here, at any contents
`V` of the core's buffers on entry: each window's block, what the body finds in the two input buffers (their blocks,
fetched at the point or kept from the one before), what it leaves in the output buffer, its triple, the
pipeline's proof data and the body obligation. The two input windows read the same array, so the proof data
holds the left and the right half of it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer holds its block at every point. It is fetched only when the row index
    `i` moves (every fourth point); in between the block index stands still and the body leaves the buffer as
    found, so the block of the point before is this point's. For any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_in : Rect S1024x784 := Rect.unit (s := S1024x784) ![0, 0] S1024x784.size inb_S1024x784_S1024x784_0_0
abbrev r1_out : Rect S1024x1024 := Rect.unit (s := S1024x1024) ![0, 0] S1024x1024.size inb_S1024x1024_S1024x1024_0_0

/-! ## What the body leaves in the output window's buffer -/

/-- Window 2's staging buffer after the body, from the two row blocks: its one store, of the block of pairwise
    distances. -/
def out1_2 (x0 : Vec F S1024x784 .f32) (x1 : Vec F S1024x784 .f32) : Vec F S1024x1024 .f32 :=
  View.canon [⟨r1_out, k1_pay1 (View.ld x0 r1_in) (View.ld x1 r1_in)⟩]

/-- The store is of the whole buffer, so it covers it. -/
theorem cover1_2 (p0 : Vec F S1024x1024 .f32) (y : S1024x1024.Idx) :
    ∃ pc ∈ ([⟨r1_out, p0⟩] : List (View.Piece (Elt F) S1024x1024 .f32)), y ∈ pc.1.set :=
  View.cover_of_tiled [⟨r1_out, p0⟩] S1024x1024.size (by rfl) y

/-! ## The body's triple -/

set_option maxHeartbeats 1000000 in
/-- The kernel body on whole staging memrefs, the inputs' at read contents `x0`, `x1` and the output's at anything,
    runs to the continuation holding the inputs' as they were and the output's at `out1_2 x0 x1`. (It loads the
    output buffer once before storing to it and drops what it read.) -/
theorem sound_kernel1 (c : Dev nD) (E : Set ℕ) (i : grid1.Coords) (arg0 : Memref sig .tc .vmem S1024x784 .f32) (harg0 : arg0.IsWhole)
    (arg1 : Memref sig .tc .vmem S1024x784 .f32) (harg1 : arg1.IsWhole) (arg2 : Memref sig .tc .vmem S1024x1024 .f32) (harg2 : arg2.IsWhole)
    (x0 : Vec F S1024x784 .f32) (x1 : Vec F S1024x784 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__pdist_kernel i arg0 harg0 arg1 harg1 arg2 harg2) K := by
  simp only [cc1__pdist_kernel_eq_skeleton]; unfold cc1__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t`
    each input's buffer at its block and the output's at `out1_2` of the two blocks; the scoped rest and the
    generator register untouched; nothing owed. Windows 0 and 1 read one array: the data holds its left half for
    window 0 and its right half for window 1, and the output array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := fun w => match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
import proofs.«135652_j20272245637753_1_alg».proof.Proof.Gen.Kernel.Launch
import proofs.«135652_j20272245637753_1_alg».proof.Proof.Gen.Kernel.Skeleton
import proofs.«135652_j20272245637753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pairwise-distance pipeline 2, at the contents its region is entered with

Pipeline 2 walks a 4 x 4 grid. At point `(i, j)` window 0 is row block `i` and window 1 is row block `j` of ONE
array of 4096 rows, window 2 is block `(i, j)` of the 4096 x 4096 result. The body loads both row blocks whole,
computes the 1024 x 1024 block of pairwise distances from them and stores it whole. Stated here, at any contents
`V` of the core's buffers on entry: each window's block, what the body finds in the two input buffers (their blocks,
fetched at the point or kept from the one before), what it leaves in the output buffer, its triple, the
pipeline's proof data and the body obligation. The two input windows read the same array, so the proof data
holds the left and the right half of it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0's current staging buffer holds its block at every point. It is fetched only when the row index
    `i` moves (every fourth point); in between the block index stands still and the body leaves the buffer as
    found, so the block of the point before is this point's. For any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1's current staging buffer holds its block at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_in : Rect S1024x2 := Rect.unit (s := S1024x2) ![0, 0] S1024x2.size inb_S1024x2_S1024x2_0_0
abbrev r2_out : Rect S1024x1024 := Rect.unit (s := S1024x1024) ![0, 0] S1024x1024.size inb_S1024x1024_S1024x1024_0_0

/-! ## What the body leaves in the output window's buffer -/

/-- Window 2's staging buffer after the body, from the two row blocks: its one store, of the block of pairwise
    distances. -/
def out2_2 (x0 : Vec F S1024x2 .f32) (x1 : Vec F S1024x2 .f32) : Vec F S1024x1024 .f32 :=
  View.canon [⟨r2_out, k2_pay1 (View.ld x0 r2_in) (View.ld x1 r2_in)⟩]

/-- The store is of the whole buffer, so it covers it. -/
theorem cover2_2 (p0 : Vec F S1024x1024 .f32) (y : S1024x1024.Idx) :
    ∃ pc ∈ ([⟨r2_out, p0⟩] : List (View.Piece (Elt F) S1024x1024 .f32)), y ∈ pc.1.set :=
  View.cover_of_tiled [⟨r2_out, p0⟩] S1024x1024.size (by rfl) y

/-! ## The body's triple -/

set_option maxHeartbeats 1000000 in
/-- The kernel body on whole staging memrefs, the inputs' at read contents `x0`, `x1` and the output's at anything,
    runs to the continuation holding the inputs' as they were and the output's at `out2_2 x0 x1`. (It loads the
    output buffer once before storing to it and drops what it read.) -/
theorem sound_kernel2 (c : Dev nD) (E : Set ℕ) (i : grid2.Coords) (arg0 : Memref sig .tc .vmem S1024x2 .f32) (harg0 : arg0.IsWhole)
    (arg1 : Memref sig .tc .vmem S1024x2 .f32) (harg1 : arg1.IsWhole) (arg2 : Memref sig .tc .vmem S1024x1024 .f32) (harg2 : arg2.IsWhole)
    (x0 : Vec F S1024x2 .f32) (x1 : Vec F S1024x2 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__pdist_kernel i arg0 harg0 arg1 harg1 arg2 harg2) K := by
  simp only [cc2__pdist_kernel_eq_skeleton]; unfold cc2__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t`
    each input's buffer at its block and the output's at `out2_2` of the two blocks; the scoped rest and the
    generator register untouched; nothing owed. Windows 0 and 1 read one array: the data holds its left half for
    window 0 and its right half for window 1, and the output array whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := fun w => match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3.lean ====
import proofs.«135652_j20272245637753_1_alg».proof.Proof.Gen.Kernel.Launch
import proofs.«135652_j20272245637753_1_alg».proof.Proof.Gen.Kernel.Skeleton
import proofs.«135652_j20272245637753_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The pairwise-distance pipeline 3, at the contents its region is entered with

Pipeline 3 walks a 4 x 4 grid. At point `(i, j)` window 0 is row block `i` and window 1 is row block `j` of ONE
array of 4096 rows, window 2 is block `(i, j)` of the 4096 x 4096 result. The body loads both row blocks whole,
computes the 1024 x 1024 block of pairwise distances from them and stores it whole. Stated here, at any contents
`V` of the core's buffers on entry: each window's block, what the body finds in the two input buffers (their blocks,
fetched at the point or kept from the one before), what it leaves in the output buffer, its triple, the
pipeline's proof data and the body obligation. The two input windows read the same array, so the proof data
holds the left and the right half of it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0's current staging buffer holds its block at every point. It is fetched only when the row index
    `i` moves (every fourth point); in between the block index stands still and the body leaves the buffer as
    found, so the block of the point before is this point's. For any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1's current staging buffer holds its block at every point (it is fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_in : Rect S1024x784 := Rect.unit (s := S1024x784) ![0, 0] S1024x784.size inb_S1024x784_S1024x784_0_0
abbrev r3_out : Rect S1024x1024 := Rect.unit (s := S1024x1024) ![0, 0] S1024x1024.size inb_S1024x1024_S1024x1024_0_0

/-! ## What the body leaves in the output window's buffer -/

/-- Window 2's staging buffer after the body, from the two row blocks: its one store, of the block of pairwise
    distances. -/
def out3_2 (x0 : Vec F S1024x784 .f32) (x1 : Vec F S1024x784 .f32) : Vec F S1024x1024 .f32 :=
  View.canon [⟨r3_out, k3_pay1 (View.ld x0 r3_in) (View.ld x1 r3_in)⟩]

/-- The store is of the whole buffer, so it covers it. -/
theorem cover3_2 (p0 : Vec F S1024x1024 .f32) (y : S1024x1024.Idx) :
    ∃ pc ∈ ([⟨r3_out, p0⟩] : List (View.Piece (Elt F) S1024x1024 .f32)), y ∈ pc.1.set :=
  View.cover_of_tiled [⟨r3_out, p0⟩] S1024x1024.size (by rfl) y

/-! ## The body's triple -/

set_option maxHeartbeats 1000000 in
/-- The kernel body on whole staging memrefs, the inputs' at read contents `x0`, `x1` and the output's at anything,
    runs to the continuation holding the inputs' as they were and the output's at `out3_2 x0 x1`. (It loads the
    output buffer once before storing to it and drops what it read.) -/
theorem sound_kernel3 (c : Dev nD) (E : Set ℕ) (i : grid3.Coords) (arg0 : Memref sig .tc .vmem S1024x784 .f32) (harg0 : arg0.IsWhole)
    (arg1 : Memref sig .tc .vmem S1024x784 .f32) (harg1 : arg1.IsWhole) (arg2 : Memref sig .tc .vmem S1024x1024 .f32) (harg2 : arg2.IsWhole)
    (x0 : Vec F S1024x784 .f32) (x1 : Vec F S1024x784 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__pdist_kernel i arg0 harg0 arg1 harg1 arg2 harg2) K := by
  simp only [cc3__pdist_kernel_eq_skeleton]; unfold cc3__pdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t`
    each input's buffer at its block and the output's at `out3_2` of the two blocks; the scoped rest and the
    generator register untouched; nothing owed. Windows 0 and 1 read one array: the data holds its left half for
    window 0 and its right half for window 1, and the output array whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q := fun w => match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Regs.lean ====
/-
  The four kernel calls of @main as segments of its run, at any float instance.

  The first call (the autoencoder) has nineteen windows on nineteen distinct arrays. Each of the three
  pairwise-distance calls hands ONE array to its two input windows: the array's buffer, held whole, is split into
  two half shares at the call's entry — one per window — and the halves are joined again at its exit, an input
  array never being written; the output window's array is a buffer of its own. Between the calls every unscoped
  buffer is held at a named contents: the launch memory, then each host stretch's fold, then each call's output
  arrays at what its write-backs leave. From the four records follow the frame (every argument array ends as
  launched) and the run with every unscoped buffer's final contents named.
-/
import proofs.«135652_j20272245637753_1_alg».proof.Proof.Gen.Kernel.Launch
import proofs.«135652_j20272245637753_1_alg».proof.Proof.Gen.Kernel.Skeleton
import proofs.«135652_j20272245637753_1_alg».proof.Proof.Gen.Kernel.Points
import proofs.«135652_j20272245637753_1_alg».proof.Proof.Gen.Kernel.Regions
import proofs.«135652_j20272245637753_1_alg».proof.Proof.KB.R0
import proofs.«135652_j20272245637753_1_alg».proof.Proof.KB.R1
import proofs.«135652_j20272245637753_1_alg».proof.Proof.KB.R2
import proofs.«135652_j20272245637753_1_alg».proof.Proof.KB.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! ## One array behind two windows -/

/-- Call 1's two input windows read ONE array: its buffer, whole at the full share, is the two windows' halves;
    the output window's array is a buffer of its own. So a core's unscoped buffers at contents `V` are the call's
    arrays at any contents `F0` that agree with `V`, beside the unscoped rest — in both directions. -/
theorem split1 (c : Dev nD) (dat : Dat τ (Elt F) Unit ℕ (UR sig nD τ) ℕ cfg1 c)
    (V : (b : Ref sig .tc) → Buf (Elt F) ((c : Thread nD τ).loc b))
    (hq0 : dat.q 0 = fullShare.left) (hq1 : dat.q 1 = fullShare.right)
    (F0 : (w : Fin cfg1.W) → Buf (Elt F) ((cfg1.win w).arr.view.loc (c.tc : Thread nD τ)))
    (h0 : F0 0 = V main_v0) (h1 : F0 1 = V main_v0) (h2 : F0 2 = V main_v11) :
    (unscopedBufs c V : sProp 𝕄) ⊣⊢ iprop(dat.arrays F0 ∗ Pipeline.unscopedRest spec1 c V) := by
  rw [Pipeline.unscopedBufs_split₀ cfgs 1 winFacts₀1.arr_unscoped c V]
  refine sep_congr ?_ .rfl
  unfold Pipeline.arrBufs Dat.arrays
  rw [show Finset.univ.image (Pipeline.arrRef (cfgs 1).spec) = {main_v0, main_v11} from by decide,
    bigSep_insert (by decide), bigSep_singleton, bigSep_W1]
  rw [(arr_whole1 0).set_eq_univ, (arr_whole1 2).set_eq_univ]
  rw [show dat.share 0 = fullShare.left from by unfold Dat.share; rw [if_neg (by decide)]; exact hq0,
    show dat.share 1 = fullShare.right from by unfold Dat.share; rw [if_neg (by decide)]; exact hq1,
    show dat.share 2 = fullShare from by unfold Dat.share; rw [if_pos (by decide)], h0, h1, h2]
  exact (sep_congr (pointsTo_share (PosShare.mem_left_op_right fullShare)) .rfl).trans sep_assoc

/-- The unscoped rest of call 1 is read off the contents only away from the call's arrays. -/
theorem rest_congr1 (c : Dev nD) (V V' : (b : Ref sig .tc) → Buf (Elt F) ((c : Thread nD τ).loc b))
    (hrest : ∀ b, b ∉ Finset.univ.image (Pipeline.arrRef spec1) → V' b = V b) :
    (Pipeline.unscopedRest spec1 c V' : sProp 𝕄) = Pipeline.unscopedRest spec1 c V := by
  unfold Pipeline.unscopedRest
  exact bigSep_congr fun b hb => by rw [hrest b (Finset.mem_sdiff.mp hb).2]

/-- Call 2's two input windows read ONE array: its buffer, whole at the full share, is the two windows' halves;
    the output window's array is a buffer of its own. So a core's unscoped buffers at contents `V` are the call's
    arrays at any contents `F0` that agree with `V`, beside the unscoped rest — in both directions. -/
theorem split2 (c : Dev nD) (dat : Dat τ (Elt F) Unit ℕ (UR sig nD τ) ℕ cfg2 c)
    (V : (b : Ref sig .tc) → Buf (Elt F) ((c : Thread nD τ).loc b))
    (hq0 : dat.q 0 = fullShare.left) (hq1 : dat.q 1 = fullShare.right)
    (F0 : (w : Fin cfg2.W) → Buf (Elt F) ((cfg2.win w).arr.view.loc (c.tc : Thread nD τ)))
    (h0 : F0 0 = V main_v9_0) (h1 : F0 1 = V main_v9_0) (h2 : F0 2 = V main_v12) :
    (unscopedBufs c V : sProp 𝕄) ⊣⊢ iprop(dat.arrays F0 ∗ Pipeline.unscopedRest spec2 c V) := by
  rw [Pipeline.unscopedBufs_split₀ cfgs 2 winFacts₀2.arr_unscoped c V]
  refine sep_congr ?_ .rfl
  unfold Pipeline.arrBufs Dat.arrays
  rw [show Finset.univ.image (Pipeline.arrRef (cfgs 2).spec) = {main_v9_0, main_v12} from by decide,
    bigSep_insert (by decide), bigSep_singleton, bigSep_W2]
  rw [(arr_whole2 0).set_eq_univ, (arr_whole2 2).set_eq_univ]
  rw [show dat.share 0 = fullShare.left from by unfold Dat.share; rw [if_neg (by decide)]; exact hq0,
    show dat.share 1 = fullShare.right from by unfold Dat.share; rw [if_neg (by decide)]; exact hq1,
    show dat.share 2 = fullShare from by unfold Dat.share; rw [if_pos (by decide)], h0, h1, h2]
  exact (sep_congr (pointsTo_share (PosShare.mem_left_op_right fullShare)) .rfl).trans sep_assoc

/-- The unscoped rest of call 2 is read off the contents only away from the call's arrays. -/
theorem rest_congr2 (c : Dev nD) (V V' : (b : Ref sig .tc) → Buf (Elt F) ((c : Thread nD τ).loc b))
    (hrest : ∀ b, b ∉ Finset.univ.image (Pipeline.arrRef spec2) → V' b = V b) :
    (Pipeline.unscopedRest spec2 c V' : sProp 𝕄) = Pipeline.unscopedRest spec2 c V := by
  unfold Pipeline.unscopedRest
  exact bigSep_congr fun b hb => by rw [hrest b (Finset.mem_sdiff.mp hb).2]

/-- Call 3's two input windows read ONE array: its buffer, whole at the full share, is the two windows' halves;
    the output window's array is a buffer of its own. So a core's unscoped buffers at contents `V` are the call's
    arrays at any contents `F0` that agree with `V`, beside the unscoped rest — in both directions. -/
theorem split3 (c : Dev nD) (dat : Dat τ (Elt F) Unit ℕ (UR sig nD τ) ℕ cfg3 c)
    (V : (b : Ref sig .tc) → Buf (Elt F) ((c : Thread nD τ).loc b))
    (hq0 : dat.q 0 = fullShare.left) (hq1 : dat.q 1 = fullShare.right)
    (F0 : (w : Fin cfg3.W) → Buf (Elt F) ((cfg3.win w).arr.view.loc (c.tc : Thread nD τ)))
    (h0 : F0 0 = V main_v9_1) (h1 : F0 1 = V main_v9_1) (h2 : F0 2 = V main_v13) :
    (unscopedBufs c V : sProp 𝕄) ⊣⊢ iprop(dat.arrays F0 ∗ Pipeline.unscopedRest spec3 c V) := by
  rw [Pipeline.unscopedBufs_split₀ cfgs 3 winFacts₀3.arr_unscoped c V]
  refine sep_congr ?_ .rfl
  unfold Pipeline.arrBufs Dat.arrays
  rw [show Finset.univ.image (Pipeline.arrRef (cfgs 3).spec) = {main_v9_1, main_v13} from by decide,
    bigSep_insert (by decide), bigSep_singleton, bigSep_W3]
  rw [(arr_whole3 0).set_eq_univ, (arr_whole3 2).set_eq_univ]
  rw [show dat.share 0 = fullShare.left from by unfold Dat.share; rw [if_neg (by decide)]; exact hq0,
    show dat.share 1 = fullShare.right from by unfold Dat.share; rw [if_neg (by decide)]; exact hq1,
    show dat.share 2 = fullShare from by unfold Dat.share; rw [if_pos (by decide)], h0, h1, h2]
  exact (sep_congr (pointsTo_share (PosShare.mem_left_op_right fullShare)) .rfl).trans sep_assoc

/-- The unscoped rest of call 3 is read off the contents only away from the call's arrays. -/
theorem rest_congr3 (c : Dev nD) (V V' : (b : Ref sig .tc) → Buf (Elt F) ((c : Thread nD τ).loc b))
    (hrest : ∀ b, b ∉ Finset.univ.image (Pipeline.arrRef spec3) → V' b = V b) :
    (Pipeline.unscopedRest spec3 c V' : sProp 𝕄) = Pipeline.unscopedRest spec3 c V := by
  unfold Pipeline.unscopedRest
  exact bigSep_congr fun b hb => by rw [hrest b (Finset.mem_sdiff.mp hb).2]

/-! ## The buffers' contents at the regions' boundaries -/

variable (m : (ℓ : Loc nD τ sig) → Buf (Elt F) ℓ)

/-- The MLP call's entry contents: the launch memory after the reshapes of the input and of the bias vectors. -/
abbrev U1 : (c : Dev nD) → (b : Ref sig .tc) → Buf (Elt F) ((c : Thread nD τ).loc b) := fun c b => V1 m c b
/-- After the MLP call: the code array and the reconstruction array at what the write-backs leave. -/
def U2 (c : Dev nD) : Valuation τ sig (Elt F) :=
  Function.update (Function.update (V1 m c) main_v9_0 ((dat0 (U1 m) c).arrAt 17 cfg0.N)) main_v9_1 ((dat0 (U1 m) c).arrAt 18 cfg0.N)
abbrev U2' : (c : Dev nD) → (b : Ref sig .tc) → Buf (Elt F) ((c : Thread nD τ).loc b) := fun c b => U2 m c b
/-- After the reshape of the reconstruction to images: the first distance call's entry contents. -/
abbrev U3 (c : Dev nD) : Valuation τ sig (Elt F) := StableHlo.after hostOps1 (U2 m c)
abbrev U3' : (c : Dev nD) → (b : Ref sig .tc) → Buf (Elt F) ((c : Thread nD τ).loc b) := fun c b => U3 m c b
/-- After the distance call on the inputs. -/
def U4 (c : Dev nD) : Valuation τ sig (Elt F) := Function.update (U3 m c) main_v11 ((dat1 (U3' m) c).arrAt 2 cfg1.N)
abbrev U4' : (c : Dev nD) → (b : Ref sig .tc) → Buf (Elt F) ((c : Thread nD τ).loc b) := fun c b => U4 m c b
/-- After the distance call on the codes. -/
def U5 (c : Dev nD) : Valuation τ sig (Elt F) := Function.update (U4 m c) main_v12 ((dat2 (U4' m) c).arrAt 2 cfg2.N)
abbrev U5' : (c : Dev nD) → (b : Ref sig .tc) → Buf (Elt F) ((c : Thread nD τ).loc b) := fun c b => U5 m c b
/-- After the distance call on the reconstructions. -/
def U6 (c : Dev nD) : Valuation τ sig (Elt F) := Function.update (U5 m c) main_v13 ((dat3 (U5' m) c).arrAt 2 cfg3.N)
abbrev U6' : (c : Dev nD) → (b : Ref sig .tc) → Buf (Elt F) ((c : Thread nD τ).loc b) := fun c b => U6 m c b

/-- What the calls leave, as the unknowns the generated boundary valuations are written over. -/
def outs : Outs (F := F) := fun J r c => match J with
  | 2 => U2 m c r
  | 4 => U4 m c r
  | 5 => U5 m c r
  | 6 => U6 m c r
  | _ => V0 m c r

theorem U2_v9_0 (c : Dev nD) : U2 m c (Proc.devRef .tc main_v9_0) = (dat0 (U1 m) c).arrAt 17 cfg0.N := by
  unfold U2; rw [Function.update_of_ne (StableHlo.devRef_ne_of_ne (by decide)), Function.update_self]
theorem U2_v9_1 (c : Dev nD) : U2 m c (Proc.devRef .tc main_v9_1) = (dat0 (U1 m) c).arrAt 18 cfg0.N := by
  unfold U2; rw [Function.update_self]
theorem U4_v11 (c : Dev nD) : U4 m c (Proc.devRef .tc main_v11) = (dat1 (U3' m) c).arrAt 2 cfg1.N := by
  unfold U4; rw [Function.update_self]
theorem U5_v12 (c : Dev nD) : U5 m c (Proc.devRef .tc main_v12) = (dat2 (U4' m) c).arrAt 2 cfg2.N := by
  unfold U5; rw [Function.update_self]
theorem U6_v13 (c : Dev nD) : U6 m c (Proc.devRef .tc main_v13) = (dat3 (U5' m) c).arrAt 2 cfg3.N := by
  unfold U6; rw [Function.update_self]

/-- The generated boundary valuations at these unknowns are the contents above. -/
theorem V2_eq (c : Dev nD) : V2 m (outs m) c = U2 m c := by
  show Function.update (Function.update (V1 m c) main_v9_0 (U2 m c (Proc.devRef .tc main_v9_0))) main_v9_1 (U2 m c (Proc.devRef .tc main_v9_1)) = U2 m c
  rw [U2_v9_0, U2_v9_1]; rfl
theorem V3_eq (c : Dev nD) : V3 m (outs m) c = U3 m c := by
  show StableHlo.after hostOps1 (V2 m (outs m) c) = _; rw [V2_eq]
theorem V4_eq (c : Dev nD) : V4 m (outs m) c = U4 m c := by
  show Function.update (V3 m (outs m) c) main_v11 (U4 m c (Proc.devRef .tc main_v11)) = U4 m c
  rw [V3_eq, U4_v11]; rfl
theorem V5_eq (c : Dev nD) : V5 m (outs m) c = U5 m c := by
  show Function.update (V4 m (outs m) c) main_v12 (U5 m c (Proc.devRef .tc main_v12)) = U5 m c
  rw [V4_eq, U5_v12]; rfl
theorem V6_eq (c : Dev nD) : V6 m (outs m) c = U6 m c := by
  show Function.update (V5 m (outs m) c) main_v13 (U6 m c (Proc.devRef .tc main_v13)) = U6 m c
  rw [V5_eq, U6_v13]; rfl

/-! ## Each call's arrays at its exit -/

/-- An input window's array is never written: at the call's exit it holds what it held at the entry. -/
theorem hF0_in (c : Dev nD) (w : Fin cfg0.W) (hw : (cfg0.win w).isOut = false)
    (h17 : Pipeline.arrRef spec0 w ≠ main_v9_0) (h18 : Pipeline.arrRef spec0 w ≠ main_v9_1) :
    (dat0 (U1 m) c).arrAt w cfg0.N = U2' m c (Pipeline.arrRef spec0 w) := by
  show _ = U2 m c (Proc.devRef .tc (Pipeline.arrRef spec0 w))
  unfold U2; rw [Function.update_of_ne (StableHlo.devRef_ne_of_ne h18), Function.update_of_ne (StableHlo.devRef_ne_of_ne h17)]
  exact ((dat0 (U1 m) c).arrAt_in w hw _).trans (A_eq0 (U1 m) c w)

/-- Windows 17 and 18 are the outputs, on arrays of their own; the seventeen others are inputs on other arrays. -/
theorem win0_facts : ∀ w : Fin cfg0.W, w ≠ 17 → w ≠ 18 →
    (cfg0.win w).isOut = false ∧ Pipeline.arrRef spec0 w ≠ main_v9_0 ∧ Pipeline.arrRef spec0 w ≠ main_v9_1 := by decide

/-- The MLP call's arrays at its exit: the two outputs at what the write-backs leave, every input as entered. -/
theorem hF0 (c : Dev nD) (w : Fin cfg0.W) : (dat0 (U1 m) c).arrAt w cfg0.N = U2' m c (Pipeline.arrRef spec0 w) := by
  by_cases h17 : w = 17
  · subst h17; exact (U2_v9_0 m c).symm
  by_cases h18 : w = 18
  · subst h18; exact (U2_v9_1 m c).symm
  exact hF0_in m c w (win0_facts w h17 h18).1 (win0_facts w h17 h18).2.1 (win0_facts w h17 h18).2.2
theorem hrest0 (c : Dev nD) : ∀ b, b ∉ Finset.univ.image (Pipeline.arrRef spec0) → U2' m c b = U1 m c b := fun b hb => by
  show U2 m c (Proc.devRef .tc b) = V1 m c (Proc.devRef .tc b)
  unfold U2
  rw [Function.update_of_ne (StableHlo.devRef_ne_of_ne fun e => hb (Finset.mem_image.mpr ⟨18, Finset.mem_univ _, e.symm⟩)),
    Function.update_of_ne (StableHlo.devRef_ne_of_ne fun e => hb (Finset.mem_image.mpr ⟨17, Finset.mem_univ _, e.symm⟩))]

theorem hF1_0 (c : Dev nD) : (dat1 (U3' m) c).arrAt 0 cfg1.N = U4' m c main_v0 := by
  show _ = U4 m c (Proc.devRef .tc main_v0)
  unfold U4; rw [Function.update_of_ne (StableHlo.devRef_ne_of_ne (by decide))]
  exact ((dat1 (U3' m) c).arrAt_in 0 rfl _).trans (A_eq1 (U3' m) c 0)
theorem hF1_1 (c : Dev nD) : (dat1 (U3' m) c).arrAt 1 cfg1.N = U4' m c main_v0 := by
  show _ = U4 m c (Proc.devRef .tc main_v0)
  unfold U4; rw [Function.update_of_ne (StableHlo.devRef_ne_of_ne (by decide))]
  exact ((dat1 (U3' m) c).arrAt_in 1 rfl _).trans (A_eq1 (U3' m) c 1)
theorem hF1_2 (c : Dev nD) : (dat1 (U3' m) c).arrAt 2 cfg1.N = U4' m c main_v11 := by
  show _ = U4 m c (Proc.devRef .tc main_v11)
  unfold U4; rw [Function.update_self]
theorem hrest1 (c : Dev nD) : ∀ b, b ∉ Finset.univ.image (Pipeline.arrRef spec1) → U4' m c b = U3' m c b := fun b hb => by
  show U4 m c (Proc.devRef .tc b) = U3 m c (Proc.devRef .tc b)
  unfold U4
  exact Function.update_of_ne (StableHlo.devRef_ne_of_ne fun e => hb (Finset.mem_image.mpr ⟨2, Finset.mem_univ _, e.symm⟩)) _ _

theorem hF2_0 (c : Dev nD) : (dat2 (U4' m) c).arrAt 0 cfg2.N = U5' m c main_v9_0 := by
  show _ = U5 m c (Proc.devRef .tc main_v9_0)
  unfold U5; rw [Function.update_of_ne (StableHlo.devRef_ne_of_ne (by decide))]
  exact ((dat2 (U4' m) c).arrAt_in 0 rfl _).trans (A_eq2 (U4' m) c 0)
theorem hF2_1 (c : Dev nD) : (dat2 (U4' m) c).arrAt 1 cfg2.N = U5' m c main_v9_0 := by
  show _ = U5 m c (Proc.devRef .tc main_v9_0)
  unfold U5; rw [Function.update_of_ne (StableHlo.devRef_ne_of_ne (by decide))]
  exact ((dat2 (U4' m) c).arrAt_in 1 rfl _).trans (A_eq2 (U4' m) c 1)
theorem hF2_2 (c : Dev nD) : (dat2 (U4' m) c).arrAt 2 cfg2.N = U5' m c main_v12 := by
  show _ = U5 m c (Proc.devRef .tc main_v12)
  unfold U5; rw [Function.update_self]
theorem hrest2 (c : Dev nD) : ∀ b, b ∉ Finset.univ.image (Pipeline.arrRef spec2) → U5' m c b = U4' m c b := fun b hb => by
  show U5 m c (Proc.devRef .tc b) = U4 m c (Proc.devRef .tc b)
  unfold U5
  exact Function.update_of_ne (StableHlo.devRef_ne_of_ne fun e => hb (Finset.mem_image.mpr ⟨2, Finset.mem_univ _, e.symm⟩)) _ _

theorem hF3_0 (c : Dev nD) : (dat3 (U5' m) c).arrAt 0 cfg3.N = U6' m c main_v9_1 := by
  show _ = U6 m c (Proc.devRef .tc main_v9_1)
  unfold U6; rw [Function.update_of_ne (StableHlo.devRef_ne_of_ne (by decide))]
  exact ((dat3 (U5' m) c).arrAt_in 0 rfl _).trans (A_eq3 (U5' m) c 0)
theorem hF3_1 (c : Dev nD) : (dat3 (U5' m) c).arrAt 1 cfg3.N = U6' m c main_v9_1 := by
  show _ = U6 m c (Proc.devRef .tc main_v9_1)
  unfold U6; rw [Function.update_of_ne (StableHlo.devRef_ne_of_ne (by decide))]
  exact ((dat3 (U5' m) c).arrAt_in 1 rfl _).trans (A_eq3 (U5' m) c 1)
theorem hF3_2 (c : Dev nD) : (dat3 (U5' m) c).arrAt 2 cfg3.N = U6' m c main_v13 := by
  show _ = U6 m c (Proc.devRef .tc main_v13)
  unfold U6; rw [Function.update_self]
theorem hrest3 (c : Dev nD) : ∀ b, b ∉ Finset.univ.image (Pipeline.arrRef spec3) → U6' m c b = U5' m c b := fun b hb => by
  show U6 m c (Proc.devRef .tc b) = U5 m c (Proc.devRef .tc b)
  unfold U6
  exact Function.update_of_ne (StableHlo.devRef_ne_of_ne fun e => hb (Finset.mem_image.mpr ⟨2, Finset.mem_univ _, e.symm⟩)) _ _

/-! ## The proof data family and the thread state -/

/-- Every call's proof data, each at its entry contents — a literal match, so that the configuration at a numeral
    reduces to the printed one. -/
def pdats : (p : Fin 4) → (c : Dev nD) → Dat τ (Elt F) Unit ℕ (UR sig nD τ) ℕ (cfgs p) c
  | ⟨0, _⟩ => fun c => dat0 (U1 m) c
  | ⟨1, _⟩ => fun c => dat1 (U3' m) c
  | ⟨2, _⟩ => fun c => dat2 (U4' m) c
  | ⟨3, _⟩ => fun c => dat3 (U5' m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev Rr (c : Dev nD) : sProp 𝕄 := iprop((∃ r, prngReg c r) ∗ ∃ W, owes (c : Thread nD τ) (0 : CellTallies nD τ sig Unit) W)

/-! ## The calls as segments -/

set_option backward.isDefEq.respectTransparency.types false in
/-- The MLP call as a segment: its nineteen arrays are distinct buffers, split out of the unscoped buffers at the
    entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with the output array at
    what the write-backs leave and every other buffer as entered. The array the two input windows share is split into
    halves at the entry and joined again at the exit (an input array is never written). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3' m) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (U3' m c)
  hentry c := by
    rw [Pipeline.ownSems0_none]
    have hsplit := (split1 c (pdats m 1 c) (U3' m c) rfl rfl ((pdats m 1 c).arrAt · 0) rfl rfl rfl).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := (split1 c (pdats m 1 c) (U4' m c) rfl rfl ((pdats m 1 c).arrAt · cfg1.N)
      (hF1_0 m c) (hF1_1 m c) (hF1_2 m c)).2
    rw [rest_congr1 c (U3' m c) (U4' m c) (hrest1 m c), Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at the contents before it, left with the output array at
    what the write-backs leave and every other buffer as entered. The array the two input windows share is split into
    halves at the entry and joined again at the exit (an input array is never written). -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U4' m) c).loose
  hwaits := Pipeline.hwaits_of_owed_zero _ _ _ _ L lv 2 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec2 c (U4' m c)
  hentry c := by
    rw [Pipeline.ownSems0_none]
    have hsplit := (split2 c (pdats m 2 c) (U4' m c) rfl rfl ((pdats m 2 c).arrAt · 0) rfl rfl rfl).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := (split2 c (pdats m 2 c) (U5' m c) rfl rfl ((pdats m 2 c).arrAt · cfg2.N)
      (hF2_0 m c) (hF2_1 m c) (hF2_2 m c)).2
    rw [rest_congr2 c (U4' m c) (U5' m c) (hrest2 m c), Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered with every unscoped buffer at the contents before it, left with the output array at
    what the write-backs leave and every other buffer as entered. The array the two input windows share is split into
    halves at the entry and joined again at the exit (an input array is never written). -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U5' m) c).loose
  hwaits := Pipeline.hwaits_of_owed_zero _ _ _ _ L lv 3 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec3 c (U5' m c)
  hentry c := by
    rw [Pipeline.ownSems0_none]
    have hsplit := (split3 c (pdats m 3 c) (U5' m c) rfl rfl ((pdats m 3 c).arrAt · 0) rfl rfl rfl).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := (split3 c (pdats m 3 c) (U6' m c) rfl rfl ((pdats m 3 c).arrAt · cfg3.N)
      (hF3_0 m c) (hF3_1 m c) (hF3_2 m c)).2
    rw [rest_congr3 c (U5' m c) (U6' m c) (hrest3 m c), Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame and the run -/

/-- The launch's ghost element makes the pipeline library's element and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch a core's generator register and its dues, at nothing, make the state that rides along. -/
theorem hE0c (ρ : Dev nD → PrngReg) (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) : sProp 𝕄) ⊢ Rr (F := F) c := by
  iintro ⟨-, HO, -, Hp, -⟩
  isplitl [Hp]; · iexists _; iexact Hp
  iexists ∅; iexact HO

theorem hE0 (ρ : Dev nD → PrngReg) : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => Rr (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => Rr (F := F) c) : sProp 𝕄) :=
    bigSep_mono fun c _ => hE0c ρ c
  iintro ⟨H, -⟩
  imodintro
  ihave H' := hmono $$ H
  iexact H'

/-- What rides along ends owing nothing. -/
theorem hE4 (c : Dev nD) : Rr (F := F) c ⊢ (iprop(∃ W, owes (c : Thread nD τ) (0 : CellTallies nD τ sig Unit) W) : sProp 𝕄) := by
  iintro ⟨-, H⟩; iexact H

variable (ρ : Dev nD → PrngReg)

set_option backward.isDefEq.respectTransparency.types false in
/-- THE RUN, given the calls' records: as the conditional frame, with the post naming EVERY unscoped buffer's final contents —
    the last boundary valuation, a fold from the launch memory through the host stretches and the calls' unknowns. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V5 m outs c) ∗ E 3 c) ⊢ R3.pre c)
    (hpost3 : ∀ c : Dev nD, R3.post c ⊢ iprop(StableHlo.held (c : Thread nD τ) (Pipeline.ucRefs τ sig) (V6 m outs c) ∗ E 4 c)) :
    θ_run defs (onTc (τ := τ) (main (F := F))) ⟨m, fun _ => 0, ρ⟩ (fun r => ∀ c : Dev nD, ∀ b ∈ Pipeline.ucRefs τ sig,
      r.2.mem (((c : Thread nD τ)).1, b) = V23 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          StableHlo.seq hostOps4_11,
          StableHlo.seq hostOps4_12,
          StableHlo.seq hostOps4_13,
          StableHlo.seq hostOps4_14,
          StableHlo.seq hostOps4_15,
          StableHlo.seq hostOps4_16 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, hpre0 c, hpost0 c, hpre1 c, (hpost1 c).trans (hpre2 c), (hpost2 c).trans (hpre3 c), hpost3 c, .rfl, .rfl, .rfl, .rfl, .rfl, .rfl, .rfl, .rfl, .rfl, .rfl, .rfl, .rfl, .rfl, .rfl, .rfl, .rfl, sep_mono .rfl (hE4 c)⟩)
    (hinit := ?_) (QY := fun c s => ∀ b ∈ Pipeline.ucRefs τ sig, s.mem (((c : Thread nD τ)).1, b) = V23 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V23 m outs c) s')
    isplitl [Hh] <;> iassumption

set_option backward.isDefEq.respectTransparency.types false in
/-- THE FRAME, at any instance: from any memory with zero counters every weakly fair execution of @main terminates,
    nothing faulting, every argument array as launched — the conditional frame at the four calls' records. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀ (fun _ c => Rr c) (hE0 ρ)
    hE4
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V5_eq]; exact .rfl) (fun c => by rw [V6_eq]; exact .rfl)

set_option backward.isDefEq.respectTransparency.types false in
/-- THE RUN with every unscoped buffer's final contents named: the last boundary valuation at the calls' contents. -/
theorem run_all :
    θ_run defs (onTc (τ := τ) (main (F := F))) ⟨m, fun _ => 0, ρ⟩ (fun r => ∀ c : Dev nD, ∀ b ∈ Pipeline.ucRefs τ sig,
      r.2.mem (((c : Thread nD τ)).1, b) = V23 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj)) hu₀ (fun _ c => Rr c) (hE0 ρ)
    hE4
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V5_eq]; exact .rfl) (fun c => by rw [V6_eq]; exact .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the calls find: the first host stretch's reshapes, and buffers carried across the calls -/

theorem U1_v0 (c : Dev nD) : U1 m c main_v0 = shapeCast S4096x784 (m ((c : Thread nD τ).loc main_arg0)) shapeCasts_S4096x1x28x28_S4096x784 := by
  show StableHlo.after hostOps0 (V0 m c) (Proc.devRef .tc main_v0) = _; after_results; rfl
theorem U1_v1 (c : Dev nD) : U1 m c main_v1 = shapeCast S1x400 (m ((c : Thread nD τ).loc main_arg2)) shapeCasts_S400_S1x400 := by
  show StableHlo.after hostOps0 (V0 m c) (Proc.devRef .tc main_v1) = _; after_results; rfl
theorem U1_v2 (c : Dev nD) : U1 m c main_v2 = shapeCast S1x200 (m ((c : Thread nD τ).loc main_arg4)) shapeCasts_S200_S1x200 := by
  show StableHlo.after hostOps0 (V0 m c) (Proc.devRef .tc main_v2) = _; after_results; rfl
theorem U1_v3 (c : Dev nD) : U1 m c main_v3 = shapeCast S1x50 (m ((c : Thread nD τ).loc main_arg6)) shapeCasts_S50_S1x50 := by
  show StableHlo.after hostOps0 (V0 m c) (Proc.devRef .tc main_v3) = _; after_results; rfl
theorem U1_v4 (c : Dev nD) : U1 m c main_v4 = shapeCast S1x2 (m ((c : Thread nD τ).loc main_arg8)) shapeCasts_S2_S1x2 := by
  show StableHlo.after hostOps0 (V0 m c) (Proc.devRef .tc main_v4) = _; after_results; rfl
theorem U1_v5 (c : Dev nD) : U1 m c main_v5 = shapeCast S1x50 (m ((c : Thread nD τ).loc main_arg10)) shapeCasts_S50_S1x50 := by
  show StableHlo.after hostOps0 (V0 m c) (Proc.devRef .tc main_v5) = _; after_results; rfl
theorem U1_v6 (c : Dev nD) : U1 m c main_v6 = shapeCast S1x200 (m ((c : Thread nD τ).loc main_arg12)) shapeCasts_S200_S1x200 := by
  show StableHlo.after hostOps0 (V0 m c) (Proc.devRef .tc main_v6) = _; after_results; rfl
theorem U1_v7 (c : Dev nD) : U1 m c main_v7 = shapeCast S1x400 (m ((c : Thread nD τ).loc main_arg14)) shapeCasts_S400_S1x400 := by
  show StableHlo.after hostOps0 (V0 m c) (Proc.devRef .tc main_v7) = _; after_results; rfl
theorem U1_v8 (c : Dev nD) : U1 m c main_v8 = shapeCast S1x784 (m ((c : Thread nD τ).loc main_arg16)) shapeCasts_S784_S1x784 := by
  show StableHlo.after hostOps0 (V0 m c) (Proc.devRef .tc main_v8) = _; after_results; rfl
/-- A buffer the first stretch does not write holds its launch contents at the MLP call's entry. -/
theorem U1_launch (c : Dev nD) (r : Ref sig .tc) (h : r ∉ hostOps0_W) : U1 m c r = m ((c : Thread nD τ).loc r) := V1_of m c r h

/-- The MLP call changes only its two outputs' arrays. -/
theorem U2_of (c : Dev nD) (r : Ref sig .tc) (h0 : r ≠ main_v9_0) (h1 : r ≠ main_v9_1) : U2 m c r = V1 m c r := by
  show U2 m c (Proc.devRef .tc r) = _
  unfold U2; rw [Function.update_of_ne (StableHlo.devRef_ne_of_ne h1), Function.update_of_ne (StableHlo.devRef_ne_of_ne h0)]
/-- The reshape to images writes only the image array. -/
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v11) : U4 m c r = U3 m c r := by
  show U4 m c (Proc.devRef .tc r) = _
  unfold U4; rw [Function.update_of_ne (StableHlo.devRef_ne_of_ne h)]
theorem U5_of (c : Dev nD) (r : Ref sig .tc) (h : r ≠ main_v12) : U5 m c r = U4 m c r := by
  show U5 m c (Proc.devRef .tc r) = _
  unfold U5; rw [Function.update_of_ne (StableHlo.devRef_ne_of_ne h)]
theorem U6_of (c : Dev nD) (r : Ref sig .tc) (h : r ≠ main_v13) : U6 m c r = U5 m c r := by
  show U6 m c (Proc.devRef .tc r) = _
  unfold U6; rw [Function.update_of_ne (StableHlo.devRef_ne_of_ne h)]

/-- The rows array reaches the first distance call as the MLP call found it. -/
theorem U3_v0 (c : Dev nD) : U3' m c main_v0 = U1 m c main_v0 :=
  (U3_of m c main_v0 (by decide)).trans (U2_of m c main_v0 (by decide) (by decide))
/-- The codes reach the second distance call as the MLP call left them. -/
theorem U4_v9_0 (c : Dev nD) : U4' m c main_v9_0 = (dat0 (U1 m) c).arrAt 17 cfg0.N :=
  ((U4_of m c main_v9_0 (by decide)).trans (U3_of m c main_v9_0 (by decide))).trans (U2_v9_0 m c)
/-- The reconstructions reach the third distance call as the MLP call left them. -/
theorem U5_v9_1 (c : Dev nD) : U5' m c main_v9_1 = (dat0 (U1 m) c).arrAt 18 cfg0.N :=
  (((U5_of m c main_v9_1 (by decide)).trans (U4_of m c main_v9_1 (by decide))).trans (U3_of m c main_v9_1 (by decide))).trans (U2_v9_1 m c)
/-- The three distance matrices at the last call's exit. -/
theorem U6_v11 (c : Dev nD) : U6 m c (Proc.devRef .tc main_v11) = (dat1 (U3' m) c).arrAt 2 cfg1.N :=
  ((U6_of m c main_v11 (by decide)).trans (U5_of m c main_v11 (by decide))).trans (U4_v11 m c)
theorem U6_v12 (c : Dev nD) : U6 m c (Proc.devRef .tc main_v12) = (dat2 (U4' m) c).arrAt 2 cfg2.N :=
  (U6_of m c main_v12 (by decide)).trans (U5_v12 m c)

end Cert.Kernel.Hand
end
-- ==== Proof.KI.V0.lean ====
import proofs.«135652_j20272245637753_1_alg».proof.Proof.KI.R0
import Idealize.ShloMosaic.Lib.Pipeline.Value
import Idealize.ShloMosaic.Lib.ValueIdx
import Idealize.ShloMosaic.Lib.Tactic

/-! # Region 0: from the blocks to the arrays

The two output arrays of the first region, after its eight grid points, as functions of the arrays the region
finds: row `p` of the 4096 x 2 code array and of the 4096 x 784 reconstruction array is row `p mod 512` of what the
body leaves at the point `p / 512`, whose row block holds row `p`. The seventeen input arrays are left as found.
Also here: an input window's block read at explicit coordinates (the row block of the first input is rows
`512 t … 512 t + 511` of its array; each weight window's block is its whole array). -/

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

variable {F : FTy → Type} [FloatOps F]

section Value0
variable (V : (c : Dev nD) → (b : Ref sig .tc) → Buf (Elt F) ((c : Thread nD τ).loc b))

theorem zero_offsets2 : (![0, 0] : Fin 2 → Nat) = fun _ => 0 := funext fun a => by fin_cases a <;> rfl

/-! ## The index maps, decided over the eight points

The row-block windows (the first input and the two outputs) are at block `(t, 0)` at point `t`; every weight
window is at block `(0, 0)` throughout. -/

theorem index0_0 : ∀ t : Fin cfg0.N, win0_0.index t 0 = t.val ∧ win0_0.index t 1 = 0 :=
  (by decide +kernel : ∀ t : Fin grid0.N, win0_0.index t 0 = t.val ∧ win0_0.index t 1 = 0)
theorem index0_17 : ∀ t : Fin cfg0.N, win0_17.index t 0 = t.val ∧ win0_17.index t 1 = 0 :=
  (by decide +kernel : ∀ t : Fin grid0.N, win0_17.index t 0 = t.val ∧ win0_17.index t 1 = 0)
theorem index0_18 : ∀ t : Fin cfg0.N, win0_18.index t 0 = t.val ∧ win0_18.index t 1 = 0 :=
  (by decide +kernel : ∀ t : Fin grid0.N, win0_18.index t 0 = t.val ∧ win0_18.index t 1 = 0)
theorem index0_1 : ∀ (t : Fin cfg0.N) (a : Fin 2), win0_1.index t a = 0 :=
  (by decide +kernel : ∀ (t : Fin grid0.N) (a : Fin 2), win0_1.index t a = 0)
theorem index0_2 : ∀ (t : Fin cfg0.N) (a : Fin 2), win0_2.index t a = 0 :=
  (by decide +kernel : ∀ (t : Fin grid0.N) (a : Fin 2), win0_2.index t a = 0)
theorem index0_3 : ∀ (t : Fin cfg0.N) (a : Fin 2), win0_3.index t a = 0 :=
  (by decide +kernel : ∀ (t : Fin grid0.N) (a : Fin 2), win0_3.index t a = 0)
theorem index0_4 : ∀ (t : Fin cfg0.N) (a : Fin 2), win0_4.index t a = 0 :=
  (by decide +kernel : ∀ (t : Fin grid0.N) (a : Fin 2), win0_4.index t a = 0)
theorem index0_5 : ∀ (t : Fin cfg0.N) (a : Fin 2), win0_5.index t a = 0 :=
  (by decide +kernel : ∀ (t : Fin grid0.N) (a : Fin 2), win0_5.index t a = 0)
theorem index0_6 : ∀ (t : Fin cfg0.N) (a : Fin 2), win0_6.index t a = 0 :=
  (by decide +kernel : ∀ (t : Fin grid0.N) (a : Fin 2), win0_6.index t a = 0)
theorem index0_7 : ∀ (t : Fin cfg0.N) (a : Fin 2), win0_7.index t a = 0 :=
  (by decide +kernel : ∀ (t : Fin grid0.N) (a : Fin 2), win0_7.index t a = 0)
theorem index0_8 : ∀ (t : Fin cfg0.N) (a : Fin 2), win0_8.index t a = 0 :=
  (by decide +kernel : ∀ (t : Fin grid0.N) (a : Fin 2), win0_8.index t a = 0)
theorem index0_9 : ∀ (t : Fin cfg0.N) (a : Fin 2), win0_9.index t a = 0 :=
  (by decide +kernel : ∀ (t : Fin grid0.N) (a : Fin 2), win0_9.index t a = 0)
theorem index0_10 : ∀ (t : Fin cfg0.N) (a : Fin 2), win0_10.index t a = 0 :=
  (by decide +kernel : ∀ (t : Fin grid0.N) (a : Fin 2), win0_10.index t a = 0)
theorem index0_11 : ∀ (t : Fin cfg0.N) (a : Fin 2), win0_11.index t a = 0 :=
  (by decide +kernel : ∀ (t : Fin grid0.N) (a : Fin 2), win0_11.index t a = 0)
theorem index0_12 : ∀ (t : Fin cfg0.N) (a : Fin 2), win0_12.index t a = 0 :=
  (by decide +kernel : ∀ (t : Fin grid0.N) (a : Fin 2), win0_12.index t a = 0)
theorem index0_13 : ∀ (t : Fin cfg0.N) (a : Fin 2), win0_13.index t a = 0 :=
  (by decide +kernel : ∀ (t : Fin grid0.N) (a : Fin 2), win0_13.index t a = 0)
theorem index0_14 : ∀ (t : Fin cfg0.N) (a : Fin 2), win0_14.index t a = 0 :=
  (by decide +kernel : ∀ (t : Fin grid0.N) (a : Fin 2), win0_14.index t a = 0)
theorem index0_15 : ∀ (t : Fin cfg0.N) (a : Fin 2), win0_15.index t a = 0 :=
  (by decide +kernel : ∀ (t : Fin grid0.N) (a : Fin 2), win0_15.index t a = 0)
theorem index0_16 : ∀ (t : Fin cfg0.N) (a : Fin 2), win0_16.index t a = 0 :=
  (by decide +kernel : ∀ (t : Fin grid0.N) (a : Fin 2), win0_16.index t a = 0)

/-! ## The two output arrays as functions of the arrays found -/

/-- The grid point whose row block holds row `p`: 512 rows to a block. -/
def pt0 (p : Fin 4096) : Fin cfg0.N := ⟨p.val / 512, by have := p.isLt; rw [show cfg0.N = 8 from N_0]; omega⟩

/-- The code array: row `p` is row `p mod 512` of what the body leaves in the code block at the point `p / 512`. -/
def GZ (c : Dev nD) : S4096x2.Idx → Elt F .f32 := fun i =>
  out0_17 (iblk0 V c 0 (pt0 (i 0))) (iblk0 V c 1 (pt0 (i 0))) (iblk0 V c 2 (pt0 (i 0))) (iblk0 V c 3 (pt0 (i 0))) (iblk0 V c 4 (pt0 (i 0))) (iblk0 V c 5 (pt0 (i 0))) (iblk0 V c 6 (pt0 (i 0))) (iblk0 V c 7 (pt0 (i 0))) (iblk0 V c 8 (pt0 (i 0))) (iblk0 V c 9 (pt0 (i 0))) (iblk0 V c 10 (pt0 (i 0))) (iblk0 V c 11 (pt0 (i 0))) (iblk0 V c 12 (pt0 (i 0))) (iblk0 V c 13 (pt0 (i 0))) (iblk0 V c 14 (pt0 (i 0))) (iblk0 V c 15 (pt0 (i 0))) (iblk0 V c 16 (pt0 (i 0)))
    (ix2 (⟨(i 0).val % 512, Nat.mod_lt _ (by decide)⟩ : Fin 512) (i 1 : Fin 2))

/-- The reconstruction array, likewise from the reconstruction block. -/
def GY (c : Dev nD) : S4096x784.Idx → Elt F .f32 := fun i =>
  out0_18 (iblk0 V c 0 (pt0 (i 0))) (iblk0 V c 1 (pt0 (i 0))) (iblk0 V c 2 (pt0 (i 0))) (iblk0 V c 3 (pt0 (i 0))) (iblk0 V c 4 (pt0 (i 0))) (iblk0 V c 5 (pt0 (i 0))) (iblk0 V c 6 (pt0 (i 0))) (iblk0 V c 7 (pt0 (i 0))) (iblk0 V c 8 (pt0 (i 0))) (iblk0 V c 9 (pt0 (i 0))) (iblk0 V c 10 (pt0 (i 0))) (iblk0 V c 11 (pt0 (i 0))) (iblk0 V c 12 (pt0 (i 0))) (iblk0 V c 13 (pt0 (i 0))) (iblk0 V c 14 (pt0 (i 0))) (iblk0 V c 15 (pt0 (i 0))) (iblk0 V c 16 (pt0 (i 0)))
    (ix2 (⟨(i 0).val % 512, Nat.mod_lt _ (by decide)⟩ : Fin 512) (i 1 : Fin 784))

/-! At a row `p`, and at row `r` of the block of point `t`. -/

theorem GZ_row (c : Dev nD) (p : Fin 4096) (q : Fin 2) :
    GZ V c (ix2 p q) = out0_17 (iblk0 V c 0 (pt0 p)) (iblk0 V c 1 (pt0 p)) (iblk0 V c 2 (pt0 p)) (iblk0 V c 3 (pt0 p)) (iblk0 V c 4 (pt0 p)) (iblk0 V c 5 (pt0 p)) (iblk0 V c 6 (pt0 p)) (iblk0 V c 7 (pt0 p)) (iblk0 V c 8 (pt0 p)) (iblk0 V c 9 (pt0 p)) (iblk0 V c 10 (pt0 p)) (iblk0 V c 11 (pt0 p)) (iblk0 V c 12 (pt0 p)) (iblk0 V c 13 (pt0 p)) (iblk0 V c 14 (pt0 p)) (iblk0 V c 15 (pt0 p)) (iblk0 V c 16 (pt0 p)) (ix2 (⟨p.val % 512, Nat.mod_lt _ (by decide)⟩ : Fin 512) q) := rfl

theorem GY_row (c : Dev nD) (p : Fin 4096) (q : Fin 784) :
    GY V c (ix2 p q) = out0_18 (iblk0 V c 0 (pt0 p)) (iblk0 V c 1 (pt0 p)) (iblk0 V c 2 (pt0 p)) (iblk0 V c 3 (pt0 p)) (iblk0 V c 4 (pt0 p)) (iblk0 V c 5 (pt0 p)) (iblk0 V c 6 (pt0 p)) (iblk0 V c 7 (pt0 p)) (iblk0 V c 8 (pt0 p)) (iblk0 V c 9 (pt0 p)) (iblk0 V c 10 (pt0 p)) (iblk0 V c 11 (pt0 p)) (iblk0 V c 12 (pt0 p)) (iblk0 V c 13 (pt0 p)) (iblk0 V c 14 (pt0 p)) (iblk0 V c 15 (pt0 p)) (iblk0 V c 16 (pt0 p)) (ix2 (⟨p.val % 512, Nat.mod_lt _ (by decide)⟩ : Fin 512) q) := rfl

theorem GZ_apply (c : Dev nD) (t : Fin cfg0.N) (r : Fin 512) (q : Fin 2) (h : 512 * t.val + r.val < 4096) :
    GZ V c (ix2 ⟨512 * t.val + r.val, h⟩ q) = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (ix2 r q) := by
  have hp : pt0 (⟨512 * t.val + r.val, h⟩ : Fin 4096) = t :=
    Fin.ext (by show (512 * t.val + r.val) / 512 = t.val; have := r.isLt; omega)
  have hr : (⟨(⟨512 * t.val + r.val, h⟩ : Fin 4096).val % 512, Nat.mod_lt _ (by decide)⟩ : Fin 512) = r :=
    Fin.ext (by show (512 * t.val + r.val) % 512 = r.val; have := r.isLt; omega)
  rw [GZ_row, hp, hr]

theorem GY_apply (c : Dev nD) (t : Fin cfg0.N) (r : Fin 512) (q : Fin 784) (h : 512 * t.val + r.val < 4096) :
    GY V c (ix2 ⟨512 * t.val + r.val, h⟩ q) = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (ix2 r q) := by
  have hp : pt0 (⟨512 * t.val + r.val, h⟩ : Fin 4096) = t :=
    Fin.ext (by show (512 * t.val + r.val) / 512 = t.val; have := r.isLt; omega)
  have hr : (⟨(⟨512 * t.val + r.val, h⟩ : Fin 4096).val % 512, Nat.mod_lt _ (by decide)⟩ : Fin 512) = r :=
    Fin.ext (by show (512 * t.val + r.val) % 512 = r.val; have := r.isLt; omega)
  rw [GY_row, hp, hr]

/-! ## The input blocks, read -/

/-- Row `r` of the first input's block at point `t` is row `512 t + r` of its array. -/
theorem iblk0_0_apply (c : Dev nD) (t : Fin cfg0.N) (r : Fin 512) (k : Fin 784) (h : 512 * t.val + r.val < 4096) :
    (iblk0 V c 0 t : Vec F S512x784 .f32) (ix2 r k) = (V c main_v0 : S4096x784.Idx → Elt F .f32) (ix2 ⟨512 * t.val + r.val, h⟩ k) := by
  obtain ⟨hi0, hi1⟩ := index0_0 t
  unfold iblk0
  rw [View.read_apply]
  show V c main_v0 _ = V c main_v0 _
  congr 1
  funext a
  apply Fin.ext
  match a with
  | ⟨0, _⟩ => show win0_0.index t 0 * 512 + 1 * r.val = 512 * t.val + r.val; rw [hi0]; omega
  | ⟨1, _⟩ => show win0_0.index t 1 * 784 + 1 * k.val = k.val; rw [hi1]; omega

/-- So row `p` of the array is row `p mod 512` of the block at the point `p / 512`. -/
theorem iblk0_0_row (c : Dev nD) (p : Fin 4096) (k : Fin 784) :
    (iblk0 V c 0 (pt0 p) : Vec F S512x784 .f32) (ix2 (⟨p.val % 512, Nat.mod_lt _ (by decide)⟩ : Fin 512) k) = (V c main_v0 : S4096x784.Idx → Elt F .f32) (ix2 p k) := by
  have h : 512 * (pt0 p).val + p.val % 512 < 4096 := by
    show 512 * (p.val / 512) + p.val % 512 < 4096; have := p.isLt; omega
  exact (iblk0_0_apply V c (pt0 p) ⟨p.val % 512, Nat.mod_lt _ (by decide)⟩ k h).trans
    (congrArg (fun z : Fin 4096 => (V c main_v0 : S4096x784.Idx → Elt F .f32) (ix2 z k))
      (Fin.ext (by show 512 * (p.val / 512) + p.val % 512 = p.val; omega)))

/-! A weight window's block, at every point, is its whole array. -/

theorem iblk0_1_eq (c : Dev nD) (t : Fin cfg0.N) : (iblk0 V c 1 t : Vec F S400x784 .f32) = (V c main_arg1 : S400x784.Idx → Elt F .f32) := by
  have hz : (fun a => win0_1.index t a * main_arg1.ty.shape.size a) = fun _ => 0 :=
    funext fun a => by rw [index0_1 t a]; exact Nat.zero_mul _
  exact Memref.read_access_unit_zero (Elt F) main_arg1 hz (fun a => by rw [congrFun hz a]; simp) (V c main_arg1)

theorem iblk0_2_eq (c : Dev nD) (t : Fin cfg0.N) : (iblk0 V c 2 t : Vec F S1x400 .f32) = (V c main_v1 : S1x400.Idx → Elt F .f32) := by
  have hz : (fun a => win0_2.index t a * main_v1.ty.shape.size a) = fun _ => 0 :=
    funext fun a => by rw [index0_2 t a]; exact Nat.zero_mul _
  exact Memref.read_access_unit_zero (Elt F) main_v1 hz (fun a => by rw [congrFun hz a]; simp) (V c main_v1)

theorem iblk0_3_eq (c : Dev nD) (t : Fin cfg0.N) : (iblk0 V c 3 t : Vec F S200x400 .f32) = (V c main_arg3 : S200x400.Idx → Elt F .f32) := by
  have hz : (fun a => win0_3.index t a * main_arg3.ty.shape.size a) = fun _ => 0 :=
    funext fun a => by rw [index0_3 t a]; exact Nat.zero_mul _
  exact Memref.read_access_unit_zero (Elt F) main_arg3 hz (fun a => by rw [congrFun hz a]; simp) (V c main_arg3)

theorem iblk0_4_eq (c : Dev nD) (t : Fin cfg0.N) : (iblk0 V c 4 t : Vec F S1x200 .f32) = (V c main_v2 : S1x200.Idx → Elt F .f32) := by
  have hz : (fun a => win0_4.index t a * main_v2.ty.shape.size a) = fun _ => 0 :=
    funext fun a => by rw [index0_4 t a]; exact Nat.zero_mul _
  exact Memref.read_access_unit_zero (Elt F) main_v2 hz (fun a => by rw [congrFun hz a]; simp) (V c main_v2)

theorem iblk0_5_eq (c : Dev nD) (t : Fin cfg0.N) : (iblk0 V c 5 t : Vec F S50x200 .f32) = (V c main_arg5 : S50x200.Idx → Elt F .f32) := by
  have hz : (fun a => win0_5.index t a * main_arg5.ty.shape.size a) = fun _ => 0 :=
    funext fun a => by rw [index0_5 t a]; exact Nat.zero_mul _
  exact Memref.read_access_unit_zero (Elt F) main_arg5 hz (fun a => by rw [congrFun hz a]; simp) (V c main_arg5)

theorem iblk0_6_eq (c : Dev nD) (t : Fin cfg0.N) : (iblk0 V c 6 t : Vec F S1x50 .f32) = (V c main_v3 : S1x50.Idx → Elt F .f32) := by
  have hz : (fun a => win0_6.index t a * main_v3.ty.shape.size a) = fun _ => 0 :=
    funext fun a => by rw [index0_6 t a]; exact Nat.zero_mul _
  exact Memref.read_access_unit_zero (Elt F) main_v3 hz (fun a => by rw [congrFun hz a]; simp) (V c main_v3)

theorem iblk0_7_eq (c : Dev nD) (t : Fin cfg0.N) : (iblk0 V c 7 t : Vec F S2x50 .f32) = (V c main_arg7 : S2x50.Idx → Elt F .f32) := by
  have hz : (fun a => win0_7.index t a * main_arg7.ty.shape.size a) = fun _ => 0 :=
    funext fun a => by rw [index0_7 t a]; exact Nat.zero_mul _
  exact Memref.read_access_unit_zero (Elt F) main_arg7 hz (fun a => by rw [congrFun hz a]; simp) (V c main_arg7)

theorem iblk0_8_eq (c : Dev nD) (t : Fin cfg0.N) : (iblk0 V c 8 t : Vec F S1x2 .f32) = (V c main_v4 : S1x2.Idx → Elt F .f32) := by
  have hz : (fun a => win0_8.index t a * main_v4.ty.shape.size a) = fun _ => 0 :=
    funext fun a => by rw [index0_8 t a]; exact Nat.zero_mul _
  exact Memref.read_access_unit_zero (Elt F) main_v4 hz (fun a => by rw [congrFun hz a]; simp) (V c main_v4)

theorem iblk0_9_eq (c : Dev nD) (t : Fin cfg0.N) : (iblk0 V c 9 t : Vec F S50x2 .f32) = (V c main_arg9 : S50x2.Idx → Elt F .f32) := by
  have hz : (fun a => win0_9.index t a * main_arg9.ty.shape.size a) = fun _ => 0 :=
    funext fun a => by rw [index0_9 t a]; exact Nat.zero_mul _
  exact Memref.read_access_unit_zero (Elt F) main_arg9 hz (fun a => by rw [congrFun hz a]; simp) (V c main_arg9)

theorem iblk0_10_eq (c : Dev nD) (t : Fin cfg0.N) : (iblk0 V c 10 t : Vec F S1x50 .f32) = (V c main_v5 : S1x50.Idx → Elt F .f32) := by
  have hz : (fun a => win0_10.index t a * main_v5.ty.shape.size a) = fun _ => 0 :=
    funext fun a => by rw [index0_10 t a]; exact Nat.zero_mul _
  exact Memref.read_access_unit_zero (Elt F) main_v5 hz (fun a => by rw [congrFun hz a]; simp) (V c main_v5)

theorem iblk0_11_eq (c : Dev nD) (t : Fin cfg0.N) : (iblk0 V c 11 t : Vec F S200x50 .f32) = (V c main_arg11 : S200x50.Idx → Elt F .f32) := by
  have hz : (fun a => win0_11.index t a * main_arg11.ty.shape.size a) = fun _ => 0 :=
    funext fun a => by rw [index0_11 t a]; exact Nat.zero_mul _
  exact Memref.read_access_unit_zero (Elt F) main_arg11 hz (fun a => by rw [congrFun hz a]; simp) (V c main_arg11)

theorem iblk0_12_eq (c : Dev nD) (t : Fin cfg0.N) : (iblk0 V c 12 t : Vec F S1x200 .f32) = (V c main_v6 : S1x200.Idx → Elt F .f32) := by
  have hz : (fun a => win0_12.index t a * main_v6.ty.shape.size a) = fun _ => 0 :=
    funext fun a => by rw [index0_12 t a]; exact Nat.zero_mul _
  exact Memref.read_access_unit_zero (Elt F) main_v6 hz (fun a => by rw [congrFun hz a]; simp) (V c main_v6)

theorem iblk0_13_eq (c : Dev nD) (t : Fin cfg0.N) : (iblk0 V c 13 t : Vec F S400x200 .f32) = (V c main_arg13 : S400x200.Idx → Elt F .f32) := by
  have hz : (fun a => win0_13.index t a * main_arg13.ty.shape.size a) = fun _ => 0 :=
    funext fun a => by rw [index0_13 t a]; exact Nat.zero_mul _
  exact Memref.read_access_unit_zero (Elt F) main_arg13 hz (fun a => by rw [congrFun hz a]; simp) (V c main_arg13)

theorem iblk0_14_eq (c : Dev nD) (t : Fin cfg0.N) : (iblk0 V c 14 t : Vec F S1x400 .f32) = (V c main_v7 : S1x400.Idx → Elt F .f32) := by
  have hz : (fun a => win0_14.index t a * main_v7.ty.shape.size a) = fun _ => 0 :=
    funext fun a => by rw [index0_14 t a]; exact Nat.zero_mul _
  exact Memref.read_access_unit_zero (Elt F) main_v7 hz (fun a => by rw [congrFun hz a]; simp) (V c main_v7)

theorem iblk0_15_eq (c : Dev nD) (t : Fin cfg0.N) : (iblk0 V c 15 t : Vec F S784x400 .f32) = (V c main_arg15 : S784x400.Idx → Elt F .f32) := by
  have hz : (fun a => win0_15.index t a * main_arg15.ty.shape.size a) = fun _ => 0 :=
    funext fun a => by rw [index0_15 t a]; exact Nat.zero_mul _
  exact Memref.read_access_unit_zero (Elt F) main_arg15 hz (fun a => by rw [congrFun hz a]; simp) (V c main_arg15)

theorem iblk0_16_eq (c : Dev nD) (t : Fin cfg0.N) : (iblk0 V c 16 t : Vec F S1x784 .f32) = (V c main_v8 : S1x784.Idx → Elt F .f32) := by
  have hz : (fun a => win0_16.index t a * main_v8.ty.shape.size a) = fun _ => 0 :=
    funext fun a => by rw [index0_16 t a]; exact Nat.zero_mul _
  exact Memref.read_access_unit_zero (Elt F) main_v8 hz (fun a => by rw [congrFun hz a]; simp) (V c main_v8)

/-! ## The arrays after the region -/

/-- An input window's array is left as found. -/
theorem arrAt0_in (c : Dev nD) (w : Fin cfg0.W) (hw : (cfg0.win w).isOut = false) : (dat0 V c).arrAt w cfg0.N = V c (Pipeline.arrRef spec0 w) :=
  ((dat0 V c).arrAt_in w hw cfg0.N).trans (A_eq0 V c w)

/-- What point `t` writes back to the code array is block `t` of `GZ`. -/
theorem flushed0_17 (c : Dev nD) (t : Fin cfg0.N) : (dat0 V c).flushed 17 t = ((cfg0.win 17).blk t).view.read (Elt F) (GZ V c) := by
  show (cfg0.win 17).cut (grid0.coords t) ((dat0 V c).after 17 t) = _
  rw [after0_17]
  refine funext fun (y : S512x2.Idx) => ?_
  obtain ⟨hi0, hi1⟩ := index0_17 t
  have hy0 : (y 0).val < 512 := (y 0).isLt
  have ht : t.val < 8 := Nat.lt_of_lt_of_eq t.isLt N_0
  have h : 512 * t.val + (y 0).val < 4096 := by omega
  have he : ((cfg0.win 17).blk t).view.emb y = (ix2 (⟨512 * t.val + (y 0).val, h⟩ : Fin 4096) (y 1 : Fin 2) : S4096x2.Idx) := by
    funext a; apply Fin.ext
    match a with
    | ⟨0, _⟩ => show win0_17.index t 0 * 512 + 1 * (y 0).val = 512 * t.val + (y 0).val; rw [hi0]; omega
    | ⟨1, _⟩ => show win0_17.index t 1 * 2 + 1 * (y 1).val = (y 1).val; rw [hi1]; omega
  show out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) y = GZ V c (((cfg0.win 17).blk t).view.emb y)
  rw [he]
  exact (congrArg (out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)) (eq_ix2 y)).trans (GZ_apply V c t (y 0) (y 1) h).symm

/-- What point `t` writes back to the reconstruction array is block `t` of `GY`. -/
theorem flushed0_18 (c : Dev nD) (t : Fin cfg0.N) : (dat0 V c).flushed 18 t = ((cfg0.win 18).blk t).view.read (Elt F) (GY V c) := by
  show (cfg0.win 18).cut (grid0.coords t) ((dat0 V c).after 18 t) = _
  rw [after0_18]
  refine funext fun (y : S512x784.Idx) => ?_
  obtain ⟨hi0, hi1⟩ := index0_18 t
  have hy0 : (y 0).val < 512 := (y 0).isLt
  have ht : t.val < 8 := Nat.lt_of_lt_of_eq t.isLt N_0
  have h : 512 * t.val + (y 0).val < 4096 := by omega
  have he : ((cfg0.win 18).blk t).view.emb y = (ix2 (⟨512 * t.val + (y 0).val, h⟩ : Fin 4096) (y 1 : Fin 784) : S4096x784.Idx) := by
    funext a; apply Fin.ext
    match a with
    | ⟨0, _⟩ => show win0_18.index t 0 * 512 + 1 * (y 0).val = 512 * t.val + (y 0).val; rw [hi0]; omega
    | ⟨1, _⟩ => show win0_18.index t 1 * 784 + 1 * (y 1).val = (y 1).val; rw [hi1]; omega
  rw [View.read_apply, he, cast_eq]
  exact (congrArg (out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)) (eq_ix2 y)).trans (GY_apply V c t (y 0) (y 1) h).symm

/-- The eight row blocks cover the code array (row `p` is in the block of point `p / 512`), so it ends at `GZ`. -/
theorem arrAt0_17 (c : Dev nD) : (dat0 V c).arrAt 17 cfg0.N = GZ V c :=
  (dat0 V c).arrAt_eq_of_cover 17 (GZ V c) (fun t _ => flushed0_17 V c t) fun i => ⟨pt0 (i 0), flush0_17 _, by
    show i ∈ ((View.whole main_v9_0).slice (win0_17.rect (pt0 (i 0)))).set
    rw [View.set_slice_whole, Rect.mem_set_unit]
    intro a
    obtain ⟨hi0, hi1⟩ := index0_17 (pt0 (i 0))
    have h0 : (i 0 : Nat) < 4096 := (i 0).isLt
    have h1 : (i 1 : Nat) < 2 := (i 1).isLt
    match a with
    | ⟨0, _⟩ =>
      show win0_17.index (pt0 (i 0)) 0 * 512 ≤ (i 0 : Nat) ∧ (i 0 : Nat) < win0_17.index (pt0 (i 0)) 0 * 512 + 512
      rw [hi0]; show (i 0).val / 512 * 512 ≤ (i 0 : Nat) ∧ (i 0 : Nat) < (i 0).val / 512 * 512 + 512; omega
    | ⟨1, _⟩ =>
      show win0_17.index (pt0 (i 0)) 1 * 2 ≤ (i 1 : Nat) ∧ (i 1 : Nat) < win0_17.index (pt0 (i 0)) 1 * 2 + 2
      rw [hi1]; omega⟩

/-- Likewise the reconstruction array ends at `GY`. -/
theorem arrAt0_18 (c : Dev nD) : (dat0 V c).arrAt 18 cfg0.N = GY V c :=
  (dat0 V c).arrAt_eq_of_cover 18 (GY V c) (fun t _ => flushed0_18 V c t) fun i => ⟨pt0 (i 0), flush0_18 _, by
    show i ∈ ((View.whole main_v9_1).slice (win0_18.rect (pt0 (i 0)))).set
    rw [View.set_slice_whole, Rect.mem_set_unit]
    intro a
    obtain ⟨hi0, hi1⟩ := index0_18 (pt0 (i 0))
    have h0 : (i 0 : Nat) < 4096 := (i 0).isLt
    have h1 : (i 1 : Nat) < 784 := (i 1).isLt
    match a with
    | ⟨0, _⟩ =>
      show win0_18.index (pt0 (i 0)) 0 * 512 ≤ (i 0 : Nat) ∧ (i 0 : Nat) < win0_18.index (pt0 (i 0)) 0 * 512 + 512
      rw [hi0]; show (i 0).val / 512 * 512 ≤ (i 0 : Nat) ∧ (i 0 : Nat) < (i 0).val / 512 * 512 + 512; omega
    | ⟨1, _⟩ =>
      show win0_18.index (pt0 (i 0)) 1 * 784 ≤ (i 1 : Nat) ∧ (i 1 : Nat) < win0_18.index (pt0 (i 0)) 1 * 784 + 784
      rw [hi1]; omega⟩

end Value0
end Cert.KernelIdeal.Hand
-- ==== Proof.Ref.Stages.lean ====
import proofs.«135652_j20272245637753_1_alg».proof.Proof.Gen.ReferenceIdeal

/-! The reference program's values as a handful of composites of its own operations: the flattened
images, the encoder, the decoder with its logistic, the pairwise squared distances, the
strict-upper-triangle index array, and the clamped square root of the gathered distances. -/

set_option maxRecDepth 16384

noncomputable section

namespace Cert.ReferenceIdeal.Hand

open Idealize.ShloMosaic Idealize.SL.Sem
open Cert.ReferenceIdeal
open Cert.ReferenceIdeal.Facts₀ Cert.ReferenceIdeal.Facts

variable {F : FTy → Type} [FloatOps F]

local notation "𝕋[" S ", " e "]" => BufTy.Contents (Elt F) (BufTy.mk S e)

/-! ## The autoencoder -/

/-- The images as rows: [4096,1,28,28] read as [4096,784]. -/
def X2 (a0 : 𝕋[S4096x1x28x28, .f32]) : 𝕋[S4096x784, .f32] :=
  shapeCast S4096x784 a0 shapeCasts_S4096x1x28x28_S4096x784

/-- The leaky rectifier with slope 0.01: x where x ≥ 0, 0.01·x elsewhere. -/
def lrelu (S : Shape) (h : S_.BroadcastsInDim S (![] : Fin 0 → Fin S.rank)) (x : 𝕋[S, .f32]) : 𝕋[S, .f32] :=
  select (cmpf .oge x (broadcastInDim S ![] h (constant S_ .f32 0x00000000#32))) x
    (mulf (broadcastInDim S ![] h (constant S_ .f32 0x3C23D70A#32)) x)

/-- x·wᵀ + b, 784 → 400. -/
def L1 (x : 𝕋[S4096x784, .f32]) (w : 𝕋[S400x784, .f32]) (b : 𝕋[S400, .f32]) : 𝕋[S4096x400, .f32] :=
  addf (Host.dotGeneral dot_S4096x784_S784x400_S4096x400_1_0_0_1_n_n none x (transpose S784x400 [1, 0] w transposes_S400x784_S784x400_1_0))
    (broadcastInDim S4096x400 ![0, 1] bcast_S1x400_S4096x400_0_1 (broadcastInDim S1x400 ![1] bcast_S400_S1x400_1 b))
/-- x·wᵀ + b, 400 → 200. -/
def L2 (x : 𝕋[S4096x400, .f32]) (w : 𝕋[S200x400, .f32]) (b : 𝕋[S200, .f32]) : 𝕋[S4096x200, .f32] :=
  addf (Host.dotGeneral dot_S4096x400_S400x200_S4096x200_1_0_0_1_n_n none x (transpose S400x200 [1, 0] w transposes_S200x400_S400x200_1_0))
    (broadcastInDim S4096x200 ![0, 1] bcast_S1x200_S4096x200_0_1 (broadcastInDim S1x200 ![1] bcast_S200_S1x200_1 b))
/-- x·wᵀ + b, 200 → 50. -/
def L3 (x : 𝕋[S4096x200, .f32]) (w : 𝕋[S50x200, .f32]) (b : 𝕋[S50, .f32]) : 𝕋[S4096x50, .f32] :=
  addf (Host.dotGeneral dot_S4096x200_S200x50_S4096x50_1_0_0_1_n_n none x (transpose S200x50 [1, 0] w transposes_S50x200_S200x50_1_0))
    (broadcastInDim S4096x50 ![0, 1] bcast_S1x50_S4096x50_0_1 (broadcastInDim S1x50 ![1] bcast_S50_S1x50_1 b))
/-- x·wᵀ + b, 50 → 2. -/
def L4 (x : 𝕋[S4096x50, .f32]) (w : 𝕋[S2x50, .f32]) (b : 𝕋[S2, .f32]) : 𝕋[S4096x2, .f32] :=
  addf (Host.dotGeneral dot_S4096x50_S50x2_S4096x2_1_0_0_1_n_n none x (transpose S50x2 [1, 0] w transposes_S2x50_S50x2_1_0))
    (broadcastInDim S4096x2 ![0, 1] bcast_S1x2_S4096x2_0_1 (broadcastInDim S1x2 ![1] bcast_S2_S1x2_1 b))
/-- x·wᵀ + b, 2 → 50. -/
def L5 (x : 𝕋[S4096x2, .f32]) (w : 𝕋[S50x2, .f32]) (b : 𝕋[S50, .f32]) : 𝕋[S4096x50, .f32] :=
  addf (Host.dotGeneral dot_S4096x2_S2x50_S4096x50_1_0_0_1_n_n none x (transpose S2x50 [1, 0] w transposes_S50x2_S2x50_1_0))
    (broadcastInDim S4096x50 ![0, 1] bcast_S1x50_S4096x50_0_1 (broadcastInDim S1x50 ![1] bcast_S50_S1x50_1 b))
/-- x·wᵀ + b, 50 → 200. -/
def L6 (x : 𝕋[S4096x50, .f32]) (w : 𝕋[S200x50, .f32]) (b : 𝕋[S200, .f32]) : 𝕋[S4096x200, .f32] :=
  addf (Host.dotGeneral dot_S4096x50_S50x200_S4096x200_1_0_0_1_n_n none x (transpose S50x200 [1, 0] w transposes_S200x50_S50x200_1_0))
    (broadcastInDim S4096x200 ![0, 1] bcast_S1x200_S4096x200_0_1 (broadcastInDim S1x200 ![1] bcast_S200_S1x200_1 b))
/-- x·wᵀ + b, 200 → 400. -/
def L7 (x : 𝕋[S4096x200, .f32]) (w : 𝕋[S400x200, .f32]) (b : 𝕋[S400, .f32]) : 𝕋[S4096x400, .f32] :=
  addf (Host.dotGeneral dot_S4096x200_S200x400_S4096x400_1_0_0_1_n_n none x (transpose S200x400 [1, 0] w transposes_S400x200_S200x400_1_0))
    (broadcastInDim S4096x400 ![0, 1] bcast_S1x400_S4096x400_0_1 (broadcastInDim S1x400 ![1] bcast_S400_S1x400_1 b))
/-- x·wᵀ + b, 400 → 784. -/
def L8 (x : 𝕋[S4096x400, .f32]) (w : 𝕋[S784x400, .f32]) (b : 𝕋[S784, .f32]) : 𝕋[S4096x784, .f32] :=
  addf (Host.dotGeneral dot_S4096x400_S400x784_S4096x784_1_0_0_1_n_n none x (transpose S400x784 [1, 0] w transposes_S784x400_S400x784_1_0))
    (broadcastInDim S4096x784 ![0, 1] bcast_S1x784_S4096x784_0_1 (broadcastInDim S1x784 ![1] bcast_S784_S1x784_1 b))

/-- The encoder: three rectified layers, a hyperbolic tangent, and the linear layer onto the plane. -/
def Zst (a0 : 𝕋[S4096x1x28x28, .f32]) (a1 : 𝕋[S400x784, .f32]) (a2 : 𝕋[S400, .f32]) (a3 : 𝕋[S200x400, .f32]) (a4 : 𝕋[S200, .f32])
    (a5 : 𝕋[S50x200, .f32]) (a6 : 𝕋[S50, .f32]) (a7 : 𝕋[S2x50, .f32]) (a8 : 𝕋[S2, .f32]) : 𝕋[S4096x2, .f32] :=
  L4 (Host.tanh (lrelu S4096x50 bcast_S_S4096x50 (L3 (lrelu S4096x200 bcast_S_S4096x200 (L2 (lrelu S4096x400 bcast_S_S4096x400
    (L1 (X2 a0) a1 a2)) a3 a4)) a5 a6))) a7 a8

/-- The decoder's last linear layer's value, before the logistic. -/
def Ypre (z : 𝕋[S4096x2, .f32]) (a9 : 𝕋[S50x2, .f32]) (a10 : 𝕋[S50, .f32]) (a11 : 𝕋[S200x50, .f32]) (a12 : 𝕋[S200, .f32])
    (a13 : 𝕋[S400x200, .f32]) (a14 : 𝕋[S400, .f32]) (a15 : 𝕋[S784x400, .f32]) (a16 : 𝕋[S784, .f32]) : 𝕋[S4096x784, .f32] :=
  L8 (lrelu S4096x400 bcast_S_S4096x400 (L7 (lrelu S4096x200 bcast_S_S4096x200 (L6 (lrelu S4096x50 bcast_S_S4096x50
    (L5 z a9 a10)) a11 a12)) a13 a14)) a15 a16

/-- The logistic 1 / (1 + exp (−t)). -/
def logistic (t : 𝕋[S4096x784, .f32]) : 𝕋[S4096x784, .f32] :=
  Host.divf (broadcastInDim S4096x784 ![] bcast_S_S4096x784 (constant S_ .f32 0x3F800000#32))
    (addf (broadcastInDim S4096x784 ![] bcast_S_S4096x784 (constant S_ .f32 0x3F800000#32)) (Host.exp (Host.negf t)))

/-- The decoder: three rectified layers, the last linear layer, the logistic. -/
def Yst (z : 𝕋[S4096x2, .f32]) (a9 : 𝕋[S50x2, .f32]) (a10 : 𝕋[S50, .f32]) (a11 : 𝕋[S200x50, .f32]) (a12 : 𝕋[S200, .f32])
    (a13 : 𝕋[S400x200, .f32]) (a14 : 𝕋[S400, .f32]) (a15 : 𝕋[S784x400, .f32]) (a16 : 𝕋[S784, .f32]) : 𝕋[S4096x784, .f32] :=
  logistic (Ypre z a9 a10 a11 a12 a13 a14 a15 a16)

/-- The reconstruction as images: [4096,784] read as [4096,1,28,28]. -/
def Yimg (y : 𝕋[S4096x784, .f32]) : 𝕋[S4096x1x28x28, .f32] :=
  shapeCast S4096x1x28x28 y shapeCasts_S4096x784_S4096x1x28x28

/-! ## Pairwise squared distances: ‖xᵢ‖² + ‖xⱼ‖² − 2·xᵢ·xⱼ -/

/-- s ↦ (sᵢ + sⱼ)ᵢⱼ. -/
def outerSum (s : 𝕋[S4096, .f32]) : 𝕋[S4096x4096, .f32] :=
  addf (broadcastInDim S4096x4096 ![0, 1] bcast_S4096x1_S4096x4096_0_1 (broadcastInDim S4096x1 ![0] bcast_S4096_S4096x1_0 s))
    (broadcastInDim S4096x4096 ![0, 1] bcast_S1x4096_S4096x4096_0_1 (broadcastInDim S1x4096 ![1] bcast_S4096_S1x4096_1 s))

/-- The squared distances of 4096 points in dimension 784. -/
def D2_784 (x : 𝕋[S4096x784, .f32]) : 𝕋[S4096x4096, .f32] :=
  subf (outerSum (Host.reduceAdd (mulf x x) (constant S_ .f32 0x00000000#32) reducesTo_S4096x784_S4096_d1 h_S_))
    (mulf (broadcastInDim S4096x4096 ![] bcast_S_S4096x4096 (constant S_ .f32 0x40000000#32))
      (Host.dotGeneral dot_S4096x784_S784x4096_S4096x4096_1_0_0_1_n_n none x (transpose S784x4096 [1, 0] x transposes_S4096x784_S784x4096_1_0)))

/-- The squared distances of 4096 points in the plane. -/
def D2_2 (z : 𝕋[S4096x2, .f32]) : 𝕋[S4096x4096, .f32] :=
  subf (outerSum (Host.reduceAdd (mulf z z) (constant S_ .f32 0x00000000#32) reducesTo_S4096x2_S4096_d1 h_S_))
    (mulf (broadcastInDim S4096x4096 ![] bcast_S_S4096x4096 (constant S_ .f32 0x40000000#32))
      (Host.dotGeneral dot_S4096x2_S2x4096_S4096x4096_1_0_0_1_n_n none z (transpose S2x4096 [1, 0] z transposes_S4096x2_S2x4096_1_0)))

/-! ## The index pairs (i, j), i < j, of the strict upper triangle in row-major order -/

/-- The mask of the strict upper triangle: ones with the lower triangle and diagonal zeroed, compared with zero. -/
def triuMask : 𝕋[S4096x4096, .i1] :=
  cmpf (F := F) .une
    (select (cmpi .sge (addi (iotaInDim S4096x4096 32 0) (broadcastInDim S4096x4096 ![] bcast_S_S4096x4096 (constantI S_ 32 0#32)))
        (iotaInDim S4096x4096 32 1))
      (broadcastInDim S4096x4096 ![] bcast_S_S4096x4096 (constant S_ .f32 0x00000000#32))
      (broadcastInDim S4096x4096 ![] bcast_S_S4096x4096 (constant S_ .f32 0x3F800000#32)))
    (broadcastInDim S4096x4096 ![] bcast_S_S4096x4096 (constant S_ .f32 0x00000000#32))

/-- The running count of mask entries, over the flattened mask. -/
def maskCount : 𝕋[S16777216, .i32] :=
  Host.reduceWindow IntOp.addi ![16777216] ![1] ![16777215] ![0]
    (extui 32 (shapeCast S16777216 (triuMask (F := F)) shapeCasts_S4096x4096_S16777216) natLt_1_32)
    (broadcastInDim S_ ![] bcast_S_S_ (constantI S_ 32 0#32))
    reduceWindows_S16777216_S16777216_w16777216s1p16777215_0 h_S_

/-- The count clipped below at zero. -/
def maskClip : 𝕋[S16777216, .i32] :=
  maxsi (broadcastInDim S16777216 ![] bcast_S_S16777216 (constantI S_ 32 0#32)) (maskCount (F := F))

/-- The scatter positions: the clipped count, a negative one wrapped by the output length. -/
def scatPos : 𝕋[S16777216, .i32] :=
  select (cmpi .slt (maskClip (F := F)) (broadcastInDim S16777216 ![] bcast_S_S16777216 (constantI S_ 32 0#32)))
    (addi (maskClip (F := F)) (broadcastInDim S16777216 ![] bcast_S_S16777216 (constantI S_ 32 8386560#32)))
    (maskClip (F := F))

/-- Ones added at the scatter positions into 8386560 zeros. -/
def scatOnes : 𝕋[S8386560, .i32] :=
  Host.scatter scatter_S8386560_S16777216x1_S16777216_n_0_0_1 IntOp.addi
    (broadcastInDim S8386560 ![] bcast_S_S8386560 (constantI S_ 32 0#32))
    (broadcastInDim S16777216x1 ![0] bcast_S16777216_S16777216x1_0 (scatPos (F := F)))
    (broadcastInDim S16777216 ![] bcast_S_S16777216 (constantI S_ 32 1#32))

/-- The flat positions of the mask's entries: the running sum of the scattered ones. -/
def flatPos : 𝕋[S8386560, .i32] :=
  Host.reduceWindow IntOp.addi ![8386560] ![1] ![8386559] ![0] (scatOnes (F := F))
    (broadcastInDim S_ ![] bcast_S_S_ (constantI S_ 32 0#32))
    reduceWindows_S8386560_S8386560_w8386560s1p8386559_0 h_S_

/-- Floor division by a scalar: the truncated quotient, less one where the signs differ and the remainder is not zero. -/
def floorDiv (x : 𝕋[S8386560, .i32]) (k : 𝕋[S_, .i32]) : 𝕋[S8386560, .i32] :=
  select
    (andi (cmpi .ne (signi x) (broadcastInDim S8386560 ![] bcast_S_S8386560 (signi k)))
      (cmpi .ne (Host.remsi x (broadcastInDim S8386560 ![] bcast_S_S8386560 k))
        (broadcastInDim S8386560 ![] bcast_S_S8386560 (constantI S_ 32 0#32))))
    (subi (Host.divsi x (broadcastInDim S8386560 ![] bcast_S_S8386560 k))
      (broadcastInDim S8386560 ![] bcast_S_S8386560 (constantI S_ 32 1#32)))
    (Host.divsi x (broadcastInDim S8386560 ![] bcast_S_S8386560 k))

/-- The divisor with zero replaced by one. -/
def nzDiv (k : 𝕋[S_, .i32]) : 𝕋[S_, .i32] :=
  select (cmpi .eq k (constantI S_ 32 0#32)) (constantI S_ 32 1#32) k

/-- The remainder with the divisor's sign: the truncated remainder, plus the divisor where it is not zero and its sign differs. -/
def floorRem (x : 𝕋[S8386560, .i32]) (k : 𝕋[S_, .i32]) : 𝕋[S8386560, .i32] :=
  select
    (andi
      (cmpi .ne
        (cmpi .slt (Host.remsi x (broadcastInDim S8386560 ![] bcast_S_S8386560 (nzDiv k)))
          (broadcastInDim S8386560 ![] bcast_S_S8386560 (constantI S_ 32 0#32)))
        (broadcastInDim S8386560 ![] bcast_S_S8386560 (cmpi .slt (nzDiv k) (constantI S_ 32 0#32))))
      (cmpi .ne (Host.remsi x (broadcastInDim S8386560 ![] bcast_S_S8386560 (nzDiv k)))
        (broadcastInDim S8386560 ![] bcast_S_S8386560 (constantI S_ 32 0#32))))
    (addi (Host.remsi x (broadcastInDim S8386560 ![] bcast_S_S8386560 (nzDiv k)))
      (broadcastInDim S8386560 ![] bcast_S_S8386560 (nzDiv k)))
    (Host.remsi x (broadcastInDim S8386560 ![] bcast_S_S8386560 (nzDiv k)))

/-- A negative index wrapped by the matrix size 4096. -/
def wrapNeg (x : 𝕋[S8386560, .i32]) : 𝕋[S8386560, .i32] :=
  select (cmpi .slt x (broadcastInDim S8386560 ![] bcast_S_S8386560 (constantI S_ 32 0#32)))
    (addi x (broadcastInDim S8386560 ![] bcast_S_S8386560 (constantI S_ 32 4096#32))) x

/-- The row indices: (p div 4096) mod 4096. -/
def rowIdx : 𝕋[S8386560, .i32] :=
  wrapNeg (floorRem (floorDiv (flatPos (F := F)) (constantI S_ 32 4096#32)) (constantI S_ 32 4096#32))

/-- The column indices: (p div 1) mod 4096. -/
def colIdx : 𝕋[S8386560, .i32] :=
  wrapNeg (floorRem (floorDiv (flatPos (F := F)) (constantI S_ 32 1#32)) (constantI S_ 32 4096#32))

/-- The index pairs, one row per pair. -/
def IDX : 𝕋[S8386560x2, .i32] :=
  concatenate S8386560x2 1
    [⟨S8386560x1, broadcastInDim S8386560x1 ![0] bcast_S8386560_S8386560x1_0 (rowIdx (F := F))⟩,
     ⟨S8386560x1, broadcastInDim S8386560x1 ![0] bcast_S8386560_S8386560x1_0 (colIdx (F := F))⟩]
    concatenates_S8386560x1_S8386560x1_S8386560x2_d1

/-! ## The distances of the gathered pairs -/

/-- √(max(g, 0)). -/
def PD (g : 𝕋[S8386560, .f32]) : 𝕋[S8386560, .f32] :=
  Host.sqrt (maximumf g (broadcastInDim S8386560 ![] bcast_S_S8386560 (constant S_ .f32 0x00000000#32)))

end Cert.ReferenceIdeal.Hand

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.LibKeepdims.lean ====
/-
  Two layout operations read at an index given by coordinates: the "keepdims" column forms.

  A reduction along the lanes of an [a, b] array that keeps the reduced axis as a unit axis is, in vector
  operations, a reduction to [a], a shape cast of the [a] result to the column [a, 1], and a broadcast of the
  column [a, 1] back over the lanes to [a, b].  The cast does not move data: in row-major order entry (i, 0) of
  the column is entry i of the vector.  The broadcast repeats a row's one entry along the row: entry (p, c) of
  the result is entry (p, 0) of the column.  Both are stated for any element type and any extents.
-/
import Idealize.ShloMosaic.Lib.ValueIdx
import Idealize.ShloMosaic.Lib.Pipeline.Value

namespace Cert.Lib.Keepdims

open Idealize.ShloMosaic Idealize.ShloMosaic.ValueIdx

variable {α : Type}

/-- An \`[a]\` array cast to the column \`[a, 1]\` reads, at \`(i, u)\`, the operand at \`i\`, whatever the unit
    coordinate \`u\`: the row-major position of \`(i, u)\` in \`[a, 1]\` is \`i · 1 + 0 = i\`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column \`[a, 1]\` broadcast over the lanes to \`[a, b]\` reads, at \`(p, c)\`, the column's one entry of row \`p\`:
    the unit axis is read at \`0\`, the row axis at \`p\` (also when \`a = 1\`, where \`p = 0\`). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Math.Rows.lean ====
/-
  Dense layers and squared norms read one row at a time, at the ideal values (extended reals, exact operations,
  a change of float format the identity).

  * A matrix product whose right operand is contracted on ITS last axis, accumulated into zero: entry (p, q) is the sum
    over k of left (p, k) times right (q, k) — row p of the left operand against row q of the right one.
  * A dense layer h ↦ h · wᵀ + b in two spellings.  In the first the product contracts axis 1 of both operands and the
    bias is a [1, N] row repeated down the rows.  In the second the weight is transposed to [K, N] first, the product is
    the plain one, and the bias is an [N] vector laid as a [1, N] row and repeated down the rows.  Read at (p, q) both are
    (∑ k, h (p, k) · w (q, k)) + b q, the same sum in the same order: row p of the result depends on row p of h only.
  * The leaky rectifier v ↦ v where v ≥ 0, c · v elsewhere (c the constant both spellings carry), entry by entry.
  * The squared norm of each row, kept as a column and repeated along the lanes, or transposed to a row and repeated down
    the rows.
  Nothing of real arithmetic is used beyond 0 + x = x, so every statement holds at the infinities too.
-/
import Idealize.ShloMosaic.Lib.ValueIdx
import Idealize.ShloMosaic.Lib.ValueLayout
import Idealize.ShloMosaic.PureOps.Ideal.Laws
import proofs.«135652_j20272245637753_1_alg».proof.Proof.LibMatmulRows
import proofs.«135652_j20272245637753_1_alg».proof.Proof.LibRowReads
import proofs.«135652_j20272245637753_1_alg».proof.Proof.LibKeepdims

noncomputable section

open scoped BigOperators

namespace Cert.Math

open Idealize.ShloMosaic Idealize.ShloMosaic.ValueIdx

/-! ## Rows, and a dense layer on one row -/

/-- Row p of a matrix, as a function of the column. -/
def rowOf {M N : Nat} (f : (⟨2, ![M, N]⟩ : Shape).Idx → EReal) (p : Fin M) : Fin N → EReal := fun q => f (ix2 p q)

/-- A vector as a function of its coordinate. -/
def vecOf {N : Nat} (b : (⟨1, ![N]⟩ : Shape).Idx → EReal) : Fin N → EReal := fun q => b (ix1 q)

/-- The dense layer on one row x: entry q is x against row q of the weight, plus the bias at q. -/
def linRow {K N : Nat} (w : (⟨2, ![N, K]⟩ : Shape).Idx → EReal) (b : Fin N → EReal) (x : Fin K → EReal) : Fin N → EReal :=
  fun q => (∑ k : Fin K, x k * w (ix2 q k)) + b q

/-- The leaky rectifier on one extended real: v where v ≥ 0, the constant 0x3C23D70A (the float nearest 1/100) times v
    elsewhere; the zero it compares with is the float zero's value. -/
def leakyE (v : Ideal .f32) : Ideal .f32 :=
  Scalar.select (FloatOps.cmpf (F := Ideal) (φ := .f32) .oge v (Ideal.ofBits .f32 0x00000000#32)) v
    (Ideal.ofBits .f32 0x3C23D70A#32 * v)

theorem rowOf_congr {M M' N : Nat} (f : (⟨2, ![M, N]⟩ : Shape).Idx → EReal) (g : (⟨2, ![M', N]⟩ : Shape).Idx → EReal)
    (p : Fin M) (p' : Fin M') (h : ∀ k, f (ix2 p k) = g (ix2 p' k)) : rowOf f p = rowOf g p' := funext h

/-! ## The product with the right operand contracted on its last axis -/

/-- The left operand's row coordinate at output index j is j's row, whatever the contraction position. -/
theorem trRhs_lhsIdx_row (M K N : Nat) (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row coordinate at output index j is j's column, whatever the contraction position. -/
theorem trRhs_rhsIdx_row (M K N : Nat) (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the one-axis contraction index, re-indexed by the contraction coordinate: the left factor is read at
    (p, k), the right one at (q, k). -/
theorem trRhs_contr_sum (M K N : Nat) (lhs : (⟨2, ![M, K]⟩ : Shape).Idx → EReal) (rhs : (⟨2, ![N, K]⟩ : Shape).Idx → EReal)
    (p : Fin M) (q : Fin N) :
    (∑ k : (DotDims.transposedRhs M K N).contr.Idx,
        lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact trRhs_lhsIdx_row M K N _ _
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact trRhs_rhsIdx_row M K N _ _
      | ⟨1, _⟩ => exact ((DotDims.transposedRhs M K N).rhsIdx_val_of_single rfl _ _).trans hk)
  rw [el, er]

/-- Such a product into the zero splat, read at (p, q): row p of the left operand against row q of the right one. -/
theorem matmul_trRhs_zero_apply {φ₁ φ₂ : FTy} (M K N : Nat) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) :=
  (Ideal.matmul_constant_zero_apply (DotDims.transposedRhs M K N) prec lhs rhs (ix2 p q)).trans
    (trRhs_contr_sum M K N lhs rhs p q)

/-! ## The dense layer, first spelling: operands narrowed, contracted on axis 1 of both, the bias a row -/

/-- h ↦ (narrow h) ·ᵀ (narrow w) + (the [1, N] bias row repeated down the rows). -/
abbrev kLin {M K N : Nat} (D : DotDims ⟨2, ![M, K]⟩ ⟨2, ![N, K]⟩ ⟨2, ![M, N]⟩) (hlt : FTy.bits .bf16 < FTy.bits .f32)
    (hc : (⟨2, ![1, N]⟩ : Shape).ShapeCasts ⟨2, ![1, N]⟩) (hb : (⟨2, ![1, N]⟩ : Shape).Broadcasts ⟨2, ![M, N]⟩)
    (h : FVec Ideal ⟨2, ![M, K]⟩ .f32) (w : FVec Ideal ⟨2, ![N, K]⟩ .f32) (brow : FVec Ideal ⟨2, ![1, N]⟩ .f32) :
    FVec Ideal ⟨2, ![M, N]⟩ .f32 :=
  addf (matmul D none (truncf .bf16 h hlt) (truncf .bf16 w hlt) (constant ⟨2, ![M, N]⟩ .f32 0x00000000#32))
    (broadcastTo ⟨2, ![M, N]⟩ (shapeCast ⟨2, ![1, N]⟩ brow hc) hb)

/-- Row p of that layer is the dense layer on row p of h. -/
theorem rowOf_kLin {M K N : Nat} (D : DotDims ⟨2, ![M, K]⟩ ⟨2, ![N, K]⟩ ⟨2, ![M, N]⟩) (hD : D = DotDims.transposedRhs M K N)
    (hlt : FTy.bits .bf16 < FTy.bits .f32) (hc : (⟨2, ![1, N]⟩ : Shape).ShapeCasts ⟨2, ![1, N]⟩)
    (hb : (⟨2, ![1, N]⟩ : Shape).Broadcasts ⟨2, ![M, N]⟩)
    (h : FVec Ideal ⟨2, ![M, K]⟩ .f32) (w : FVec Ideal ⟨2, ![N, K]⟩ .f32) (brow : FVec Ideal ⟨2, ![1, N]⟩ .f32) (p : Fin M) :
    rowOf (kLin D hlt hc hb h w brow) p = linRow w (rowOf brow (0 : Fin 1)) (rowOf h p) := by
  subst hD
  funext q
  show FloatOps.matmul (DotDims.transposedRhs M K N) none (truncf .bf16 h hlt) (truncf .bf16 w hlt)
        (constant ⟨2, ![M, N]⟩ .f32 0x00000000#32) (ix2 p q)
      + broadcastTo ⟨2, ![M, N]⟩ (shapeCast ⟨2, ![1, N]⟩ brow hc) hb (ix2 p q)
    = (∑ k : Fin K, h (ix2 p k) * w (ix2 q k)) + brow (ix2 (0 : Fin 1) q)
  rw [matmul_trRhs_zero_apply, broadcastTo_1b_ab_apply, shapeCast_self]
  rfl

/-- The leaky rectifier, first spelling: a select on v ≥ (zero splat) between v and (constant splat) · v. -/
abbrev kLeaky {s : Shape} (v : FVec Ideal s .f32) (z : FVec Ideal s .f32) : FVec Ideal s .f32 :=
  select (cmpf .oge v z) v (mulf (broadcast s (Scalar.ofBits .f32 0x3C23D70A#32)) v)

/-- The zero splat it compares with. -/
abbrev kZero (s : Shape) : FVec Ideal s .f32 := broadcast s (Scalar.ofBits .f32 0x00000000#32)

theorem rowOf_kLeaky {M N : Nat} (v : FVec Ideal ⟨2, ![M, N]⟩ .f32) (p : Fin M) :
    rowOf (kLeaky v (kZero _)) p = fun q => leakyE (rowOf v p q) := rfl

theorem rowOf_tanh {M N : Nat} (v : FVec Ideal ⟨2, ![M, N]⟩ .f32) (p : Fin M) :
    rowOf (tanh v) p = fun q => Ideal.tanh (rowOf v p q) := rfl

theorem rowOf_logistic {M N : Nat} (v : FVec Ideal ⟨2, ![M, N]⟩ .f32) (p : Fin M) :
    rowOf (logistic v) p = fun q => Ideal.logistic (rowOf v p q) := rfl

/-! ## The dense layer, second spelling: the weight transposed, the plain product, the bias a vector -/

/-- H ↦ H · (wᵀ) + (the [N] bias laid as a row and repeated down the rows). -/
abbrev rLin {B K N : Nat} (D : DotDims ⟨2, ![B, K]⟩ ⟨2, ![K, N]⟩ ⟨2, ![B, N]⟩)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![B, N]⟩ ![0, 1])
    (H : FVec Ideal ⟨2, ![B, K]⟩ .f32) (w : FVec Ideal ⟨2, ![N, K]⟩ .f32) (b : FVec Ideal ⟨1, ![N]⟩ .f32) :
    FVec Ideal ⟨2, ![B, N]⟩ .f32 :=
  addf (Host.dotGeneral D none H (transpose ⟨2, ![K, N]⟩ [1, 0] w hT))
    (broadcastInDim ⟨2, ![B, N]⟩ ![0, 1] h2 (broadcastInDim ⟨2, ![1, N]⟩ ![1] h1 b))

/-- Row p of that layer is the dense layer on row p of H. -/
theorem rowOf_rLin {B K N : Nat} (D : DotDims ⟨2, ![B, K]⟩ ⟨2, ![K, N]⟩ ⟨2, ![B, N]⟩) (hD : D = DotDims.plain B K N)
    (hN : N ≠ 1) (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![B, N]⟩ ![0, 1])
    (H : FVec Ideal ⟨2, ![B, K]⟩ .f32) (w : FVec Ideal ⟨2, ![N, K]⟩ .f32) (b : FVec Ideal ⟨1, ![N]⟩ .f32) (p : Fin B) :
    rowOf (rLin D hT h1 h2 H w b) p = linRow w (vecOf b) (rowOf H p) := by
  subst hD
  funext q
  show FloatOps.dotGeneral (DotDims.plain B K N) none .single H (transpose ⟨2, ![K, N]⟩ [1, 0] w hT) (ix2 p q)
      + broadcastInDim ⟨2, ![B, N]⟩ ![0, 1] h2 (broadcastInDim ⟨2, ![1, N]⟩ ![1] h1 b) (ix2 p q)
    = (∑ k : Fin K, H (ix2 p k) * w (ix2 q k)) + b (ix1 q)
  rw [Cert.Bridge.dotGeneral_plain_apply, Cert.LibRowReads.down_read hN]
  refine congrArg (· + b (ix1 q)) (Finset.sum_congr rfl fun k _ => ?_)
  rw [transpose_ix2_apply]

/-- The leaky rectifier, second spelling: the zero and the constant are scalars broadcast to the shape. -/
abbrev rLeaky (S : Shape) (h : (⟨0, ![]⟩ : Shape).BroadcastsInDim S (![] : Fin 0 → Fin S.rank)) (x : FVec Ideal S .f32) :
    FVec Ideal S .f32 :=
  select (cmpf .oge x (broadcastInDim S ![] h (constant (F := Ideal) ⟨0, ![]⟩ .f32 0x00000000#32))) x
    (mulf (broadcastInDim S ![] h (constant (F := Ideal) ⟨0, ![]⟩ .f32 0x3C23D70A#32)) x)

theorem rowOf_rLeaky {M N : Nat} (h : (⟨0, ![]⟩ : Shape).BroadcastsInDim ⟨2, ![M, N]⟩ (![] : Fin 0 → Fin 2))
    (v : FVec Ideal ⟨2, ![M, N]⟩ .f32) (p : Fin M) :
    rowOf (rLeaky ⟨2, ![M, N]⟩ h v) p = fun q => leakyE (rowOf v p q) := rfl

theorem rowOf_hostTanh {M N : Nat} (v : FVec Ideal ⟨2, ![M, N]⟩ .f32) (p : Fin M) :
    rowOf (Host.tanh v) p = fun q => Ideal.tanh (rowOf v p q) := rfl

/-- The float one's value is 1. -/
theorem ofBits_one_f32 : Ideal.ofBits .f32 0x3F800000#32 = 1 := IdealRules.sign_bit.ideal_onePat .f32

/-- The logistic spelt 1 / (1 + exp (−t)) with scalar ones broadcast to the shape is the logistic, entry by entry. -/
theorem rowOf_hostLogistic {M N : Nat} (h : (⟨0, ![]⟩ : Shape).BroadcastsInDim ⟨2, ![M, N]⟩ (![] : Fin 0 → Fin 2))
    (v : FVec Ideal ⟨2, ![M, N]⟩ .f32) (p : Fin M) :
    rowOf (Host.divf (broadcastInDim ⟨2, ![M, N]⟩ ![] h (constant (F := Ideal) ⟨0, ![]⟩ .f32 0x3F800000#32))
        (addf (broadcastInDim ⟨2, ![M, N]⟩ ![] h (constant (F := Ideal) ⟨0, ![]⟩ .f32 0x3F800000#32)) (Host.exp (Host.negf v)))) p
      = fun q => Ideal.logistic (rowOf v p q) := by
  funext q
  show Ideal.div (Ideal.ofBits .f32 0x3F800000#32) (Ideal.ofBits .f32 0x3F800000#32 + Ideal.exp (-(v (ix2 p q))))
    = Ideal.div 1 (1 + Ideal.exp (-(v (ix2 p q))))
  rw [ofBits_one_f32]

end Cert.Math

end
-- ==== Proof.Math.Mlp.lean ====
/-
  The autoencoder, one row at a time.

  The kernel computes, on a block of 512 rows, eight dense layers h ↦ h · wᵀ + b (operands narrowed, the weight
  contracted on its own axis 1, the bias a [1, n] row), a leaky rectifier after layers 1, 2, 3, 5, 6, 7, a hyperbolic
  tangent before layer 4, and a logistic after layer 8; the output of layer 4 is the code z, the output of the logistic
  the reconstruction y.  The reference computes the same layers on all 4096 rows with the weight transposed first and the
  bias an [n] vector.  Every operation acts on each row by itself: row r of the kernel's block result is a function of
  row r of its input block, and row p of the reference's result is the same function of row p of its input.  So where a
  block row equals an array row, the results' rows are equal — the same sums in the same order, at the infinities too.
-/
import proofs.«135652_j20272245637753_1_alg».proof.Proof.Gen.KernelIdeal.Skeleton
import proofs.«135652_j20272245637753_1_alg».proof.Proof.Ref.Stages
import proofs.«135652_j20272245637753_1_alg».proof.Proof.Math.Rows

set_option maxRecDepth 16384

noncomputable section

open scoped BigOperators

namespace Cert.Math

open Idealize.ShloMosaic Idealize.ShloMosaic.ValueIdx

/-! ## The two halves of the network on one row -/

/-- The encoder on one row x: three rectified layers, the hyperbolic tangent, the linear layer onto the plane. -/
def zSpec (w1 : (⟨2, ![400, 784]⟩ : Shape).Idx → EReal) (b1 : Fin 400 → EReal) (w2 : (⟨2, ![200, 400]⟩ : Shape).Idx → EReal)
    (b2 : Fin 200 → EReal) (w3 : (⟨2, ![50, 200]⟩ : Shape).Idx → EReal) (b3 : Fin 50 → EReal)
    (w4 : (⟨2, ![2, 50]⟩ : Shape).Idx → EReal) (b4 : Fin 2 → EReal) (x : Fin 784 → EReal) : Fin 2 → EReal :=
  linRow w4 b4 fun q => Ideal.tanh (leakyE (linRow w3 b3 (fun q => leakyE (linRow w2 b2 (fun q => leakyE (linRow w1 b1 x q)) q)) q))

/-- The decoder on one code z: three rectified layers, the last linear layer, the logistic. -/
def ySpec (w5 : (⟨2, ![50, 2]⟩ : Shape).Idx → EReal) (b5 : Fin 50 → EReal) (w6 : (⟨2, ![200, 50]⟩ : Shape).Idx → EReal)
    (b6 : Fin 200 → EReal) (w7 : (⟨2, ![400, 200]⟩ : Shape).Idx → EReal) (b7 : Fin 400 → EReal)
    (w8 : (⟨2, ![784, 400]⟩ : Shape).Idx → EReal) (b8 : Fin 784 → EReal) (z : Fin 2 → EReal) : Fin 784 → EReal :=
  fun q => Ideal.logistic
    (linRow w8 b8 (fun q => leakyE (linRow w7 b7 (fun q => leakyE (linRow w6 b6 (fun q => leakyE (linRow w5 b5 z q)) q)) q)) q)

/-! ## The kernel's payloads, row by row -/

section Kernel
open Cert.KernelIdeal.Gen

/-- Layers 1 to 3 (the third before its rectifier) on row r of the input block. -/
theorem pay2_row (x0 : Vec Ideal ⟨2, ![512, 784]⟩ .f32) (w1 : Vec Ideal ⟨2, ![400, 784]⟩ .f32) (b1r : Vec Ideal ⟨2, ![1, 400]⟩ .f32)
    (w2 : Vec Ideal ⟨2, ![200, 400]⟩ .f32) (b2r : Vec Ideal ⟨2, ![1, 200]⟩ .f32) (w3 : Vec Ideal ⟨2, ![50, 200]⟩ .f32)
    (b3r : Vec Ideal ⟨2, ![1, 50]⟩ .f32) (r : Fin 512) :
    rowOf (k0_pay2 (F := Ideal) x0 w1 b1r w2 b2r w3 b3r) r
      = linRow w3 (rowOf b3r (0 : Fin 1)) (fun q => leakyE (linRow w2 (rowOf b2r (0 : Fin 1))
          (fun q => leakyE (linRow w1 (rowOf b1r (0 : Fin 1)) (rowOf x0 r) q)) q)) := by
  show rowOf (kLin _ _ _ _ (kLeaky (kLin _ _ _ _ (kLeaky (kLin _ _ _ _ (shapeCast _ x0 _) w1 b1r) (kZero _)) w2 b2r) (kZero _)) w3 b3r) r = _
  rw [rowOf_kLin, rowOf_kLeaky, rowOf_kLin, rowOf_kLeaky, rowOf_kLin, shapeCast_self] <;> rfl

/-- The third rectifier, the hyperbolic tangent and layer 4 on row r of the values handed over. -/
theorem pay4_row (v35 : FVec Ideal ⟨2, ![512, 50]⟩ .f32) (w4 : Vec Ideal ⟨2, ![2, 50]⟩ .f32) (b4r : Vec Ideal ⟨2, ![1, 2]⟩ .f32)
    (r : Fin 512) :
    rowOf (k0_pay4 (F := Ideal) v35 k0_pay3 w4 b4r) r
      = linRow w4 (rowOf b4r (0 : Fin 1)) (fun q => Ideal.tanh (leakyE (rowOf v35 r q))) := by
  show rowOf (kLin _ _ _ _ (tanh (kLeaky v35 (kZero _))) w4 b4r) r = _
  rw [rowOf_kLin, rowOf_tanh, rowOf_kLeaky] <;> rfl

/-- Layers 5 and 6 with their rectifiers on row r of the code block. -/
theorem pay5_row (v35 v36 : FVec Ideal ⟨2, ![512, 50]⟩ .f32) (w4 : Vec Ideal ⟨2, ![2, 50]⟩ .f32) (b4r : Vec Ideal ⟨2, ![1, 2]⟩ .f32)
    (w5 : Vec Ideal ⟨2, ![50, 2]⟩ .f32) (b5r : Vec Ideal ⟨2, ![1, 50]⟩ .f32) (w6 : Vec Ideal ⟨2, ![200, 50]⟩ .f32)
    (b6r : Vec Ideal ⟨2, ![1, 200]⟩ .f32) (r : Fin 512) :
    rowOf (k0_pay5 (F := Ideal) v35 v36 w4 b4r w5 b5r w6 b6r) r
      = fun q => leakyE (linRow w6 (rowOf b6r (0 : Fin 1)) (fun q => leakyE (linRow w5 (rowOf b5r (0 : Fin 1))
          (rowOf (k0_pay4 (F := Ideal) v35 v36 w4 b4r) r) q)) q) := by
  show rowOf (kLeaky (kLin _ _ _ _ (kLeaky (kLin _ _ _ _ (k0_pay4 (F := Ideal) v35 v36 w4 b4r) w5 b5r) (kZero _)) w6 b6r) (kZero _)) r = _
  rw [rowOf_kLeaky, rowOf_kLin, rowOf_kLeaky, rowOf_kLin] <;> rfl

/-- Layers 7 and 8, the seventh rectifier and the logistic on row r of the values handed over. -/
theorem pay1_row (v75 : FVec Ideal ⟨2, ![512, 200]⟩ .f32) (w7 : Vec Ideal ⟨2, ![400, 200]⟩ .f32) (b7r : Vec Ideal ⟨2, ![1, 400]⟩ .f32)
    (w8 : Vec Ideal ⟨2, ![784, 400]⟩ .f32) (b8r : Vec Ideal ⟨2, ![1, 784]⟩ .f32) (r : Fin 512) :
    rowOf (k0_pay1 (F := Ideal) v75 w7 b7r w8 b8r) r
      = fun q => Ideal.logistic (linRow w8 (rowOf b8r (0 : Fin 1)) (fun q => leakyE (linRow w7 (rowOf b7r (0 : Fin 1))
          (rowOf v75 r) q)) q) := by
  show rowOf (logistic (kLin _ _ _ _ (kLeaky (kLin _ _ _ _ v75 w7 b7r) (kZero _)) w8 b8r)) r = _
  rw [rowOf_logistic, rowOf_kLin, rowOf_kLeaky, rowOf_kLin] <;> rfl

end Kernel

/-! ## The reference's stages, row by row -/

section Reference
open Cert.ReferenceIdeal.Hand

theorem lrelu_row {M N : Nat} (h : (⟨0, ![]⟩ : Shape).BroadcastsInDim ⟨2, ![M, N]⟩ (![] : Fin 0 → Fin 2))
    (v : FVec Ideal ⟨2, ![M, N]⟩ .f32) (p : Fin M) :
    rowOf (lrelu (F := Ideal) ⟨2, ![M, N]⟩ h v) p = fun q => leakyE (rowOf v p q) := rfl

theorem L1_row (x : Vec Ideal ⟨2, ![4096, 784]⟩ .f32) (w : Vec Ideal ⟨2, ![400, 784]⟩ .f32) (b : Vec Ideal ⟨1, ![400]⟩ .f32)
    (p : Fin 4096) : rowOf (L1 (F := Ideal) x w b) p = linRow w (vecOf b) (rowOf x p) :=
  rowOf_rLin _ rfl (by decide) _ _ _ x w b p
theorem L2_row (x : Vec Ideal ⟨2, ![4096, 400]⟩ .f32) (w : Vec Ideal ⟨2, ![200, 400]⟩ .f32) (b : Vec Ideal ⟨1, ![200]⟩ .f32)
    (p : Fin 4096) : rowOf (L2 (F := Ideal) x w b) p = linRow w (vecOf b) (rowOf x p) :=
  rowOf_rLin _ rfl (by decide) _ _ _ x w b p
theorem L3_row (x : Vec Ideal ⟨2, ![4096, 200]⟩ .f32) (w : Vec Ideal ⟨2, ![50, 200]⟩ .f32) (b : Vec Ideal ⟨1, ![50]⟩ .f32)
    (p : Fin 4096) : rowOf (L3 (F := Ideal) x w b) p = linRow w (vecOf b) (rowOf x p) :=
  rowOf_rLin _ rfl (by decide) _ _ _ x w b p
theorem L4_row (x : Vec Ideal ⟨2, ![4096, 50]⟩ .f32) (w : Vec Ideal ⟨2, ![2, 50]⟩ .f32) (b : Vec Ideal ⟨1, ![2]⟩ .f32)
    (p : Fin 4096) : rowOf (L4 (F := Ideal) x w b) p = linRow w (vecOf b) (rowOf x p) :=
  rowOf_rLin _ rfl (by decide) _ _ _ x w b p
theorem L5_row (x : Vec Ideal ⟨2, ![4096, 2]⟩ .f32) (w : Vec Ideal ⟨2, ![50, 2]⟩ .f32) (b : Vec Ideal ⟨1, ![50]⟩ .f32)
    (p : Fin 4096) : rowOf (L5 (F := Ideal) x w b) p = linRow w (vecOf b) (rowOf x p) :=
  rowOf_rLin _ rfl (by decide) _ _ _ x w b p
theorem L6_row (x : Vec Ideal ⟨2, ![4096, 50]⟩ .f32) (w : Vec Ideal ⟨2, ![200, 50]⟩ .f32) (b : Vec Ideal ⟨1, ![200]⟩ .f32)
    (p : Fin 4096) : rowOf (L6 (F := Ideal) x w b) p = linRow w (vecOf b) (rowOf x p) :=
  rowOf_rLin _ rfl (by decide) _ _ _ x w b p
theorem L7_row (x : Vec Ideal ⟨2, ![4096, 200]⟩ .f32) (w : Vec Ideal ⟨2, ![400, 200]⟩ .f32) (b : Vec Ideal ⟨1, ![400]⟩ .f32)
    (p : Fin 4096) : rowOf (L7 (F := Ideal) x w b) p = linRow w (vecOf b) (rowOf x p) :=
  rowOf_rLin _ rfl (by decide) _ _ _ x w b p
theorem L8_row (x : Vec Ideal ⟨2, ![4096, 400]⟩ .f32) (w : Vec Ideal ⟨2, ![784, 400]⟩ .f32) (b : Vec Ideal ⟨1, ![784]⟩ .f32)
    (p : Fin 4096) : rowOf (L8 (F := Ideal) x w b) p = linRow w (vecOf b) (rowOf x p) :=
  rowOf_rLin _ rfl (by decide) _ _ _ x w b p

/-- Row p of the reference's code is the encoder on row p of the flattened images. -/
theorem Zst_row (a0 : Vec Ideal ⟨4, ![4096, 1, 28, 28]⟩ .f32) (a1 : Vec Ideal ⟨2, ![400, 784]⟩ .f32) (a2 : Vec Ideal ⟨1, ![400]⟩ .f32)
    (a3 : Vec Ideal ⟨2, ![200, 400]⟩ .f32) (a4 : Vec Ideal ⟨1, ![200]⟩ .f32) (a5 : Vec Ideal ⟨2, ![50, 200]⟩ .f32)
    (a6 : Vec Ideal ⟨1, ![50]⟩ .f32) (a7 : Vec Ideal ⟨2, ![2, 50]⟩ .f32) (a8 : Vec Ideal ⟨1, ![2]⟩ .f32) (p : Fin 4096) :
    rowOf (Zst (F := Ideal) a0 a1 a2 a3 a4 a5 a6 a7 a8) p
      = zSpec a1 (vecOf a2) a3 (vecOf a4) a5 (vecOf a6) a7 (vecOf a8) (rowOf (X2 (F := Ideal) a0) p) := by
  unfold Zst zSpec
  rw [L4_row, rowOf_hostTanh, lrelu_row, L3_row, lrelu_row, L2_row, lrelu_row, L1_row]

/-- Row p of the reference's reconstruction is the decoder on row p of the code. -/
theorem Yst_row (z : Vec Ideal ⟨2, ![4096, 2]⟩ .f32) (a9 : Vec Ideal ⟨2, ![50, 2]⟩ .f32) (a10 : Vec Ideal ⟨1, ![50]⟩ .f32)
    (a11 : Vec Ideal ⟨2, ![200, 50]⟩ .f32) (a12 : Vec Ideal ⟨1, ![200]⟩ .f32) (a13 : Vec Ideal ⟨2, ![400, 200]⟩ .f32)
    (a14 : Vec Ideal ⟨1, ![400]⟩ .f32) (a15 : Vec Ideal ⟨2, ![784, 400]⟩ .f32) (a16 : Vec Ideal ⟨1, ![784]⟩ .f32) (p : Fin 4096) :
    rowOf (Yst (F := Ideal) z a9 a10 a11 a12 a13 a14 a15 a16) p
      = ySpec a9 (vecOf a10) a11 (vecOf a12) a13 (vecOf a14) a15 (vecOf a16) (rowOf z p) := by
  unfold Yst Cert.ReferenceIdeal.Hand.logistic Ypre ySpec
  rw [rowOf_hostLogistic, L8_row, lrelu_row, L7_row, lrelu_row, L6_row, lrelu_row, L5_row]

end Reference

/-! ## Block rows against array rows -/

open Cert.KernelIdeal.Gen Cert.ReferenceIdeal.Hand in
/-- THE CODE.  Where row r of the input block is row p of the flattened images (and each bias row is its bias vector), the
    kernel's code at (r, q) is the reference's at (p, q). -/
theorem z_row (x0 : Vec Ideal ⟨2, ![512, 784]⟩ .f32) (a0 : Vec Ideal ⟨4, ![4096, 1, 28, 28]⟩ .f32)
    (w1 : Vec Ideal ⟨2, ![400, 784]⟩ .f32) (b1r : Vec Ideal ⟨2, ![1, 400]⟩ .f32) (b1 : Vec Ideal ⟨1, ![400]⟩ .f32)
    (w2 : Vec Ideal ⟨2, ![200, 400]⟩ .f32) (b2r : Vec Ideal ⟨2, ![1, 200]⟩ .f32) (b2 : Vec Ideal ⟨1, ![200]⟩ .f32)
    (w3 : Vec Ideal ⟨2, ![50, 200]⟩ .f32) (b3r : Vec Ideal ⟨2, ![1, 50]⟩ .f32) (b3 : Vec Ideal ⟨1, ![50]⟩ .f32)
    (w4 : Vec Ideal ⟨2, ![2, 50]⟩ .f32) (b4r : Vec Ideal ⟨2, ![1, 2]⟩ .f32) (b4 : Vec Ideal ⟨1, ![2]⟩ .f32)
    (hb1 : ∀ q : Fin 400, b1r (ix2 (0 : Fin 1) q) = b1 (ix1 q)) (hb2 : ∀ q : Fin 200, b2r (ix2 (0 : Fin 1) q) = b2 (ix1 q))
    (hb3 : ∀ q : Fin 50, b3r (ix2 (0 : Fin 1) q) = b3 (ix1 q)) (hb4 : ∀ q : Fin 2, b4r (ix2 (0 : Fin 1) q) = b4 (ix1 q))
    (r : Fin 512) (p : Fin 4096) (hx : ∀ k : Fin 784, x0 (ix2 r k) = X2 (F := Ideal) a0 (ix2 p k)) (q : Fin 2) :
    k0_pay4 (F := Ideal) (k0_pay2 x0 w1 b1r w2 b2r w3 b3r) k0_pay3 w4 b4r (ix2 r q)
      = Zst (F := Ideal) a0 w1 b1 w2 b2 w3 b3 w4 b4 (ix2 p q) := by
  have hK := pay4_row (k0_pay2 (F := Ideal) x0 w1 b1r w2 b2r w3 b3r) w4 b4r r
  rw [pay2_row, show rowOf b1r (0 : Fin 1) = vecOf b1 from funext hb1, show rowOf b2r (0 : Fin 1) = vecOf b2 from funext hb2,
    show rowOf b3r (0 : Fin 1) = vecOf b3 from funext hb3, show rowOf b4r (0 : Fin 1) = vecOf b4 from funext hb4,
    show rowOf x0 r = rowOf (X2 (F := Ideal) a0) p from funext hx] at hK
  exact (congrFun hK q).trans (congrFun (Zst_row a0 w1 b1 w2 b2 w3 b3 w4 b4 p) q).symm

open Cert.KernelIdeal.Gen Cert.ReferenceIdeal.Hand in
/-- THE RECONSTRUCTION.  Where row r of the kernel's code block is row p of an array Z (and each bias row is its bias
    vector), the kernel's reconstruction at (r, q) is the reference's decoder of Z at (p, q). -/
theorem y_row (v35 v36 : FVec Ideal ⟨2, ![512, 50]⟩ .f32) (w4 : Vec Ideal ⟨2, ![2, 50]⟩ .f32) (b4r : Vec Ideal ⟨2, ![1, 2]⟩ .f32)
    (Z : Vec Ideal ⟨2, ![4096, 2]⟩ .f32)
    (w5 : Vec Ideal ⟨2, ![50, 2]⟩ .f32) (b5r : Vec Ideal ⟨2, ![1, 50]⟩ .f32) (b5 : Vec Ideal ⟨1, ![50]⟩ .f32)
    (w6 : Vec Ideal ⟨2, ![200, 50]⟩ .f32) (b6r : Vec Ideal ⟨2, ![1, 200]⟩ .f32) (b6 : Vec Ideal ⟨1, ![200]⟩ .f32)
    (w7 : Vec Ideal ⟨2, ![400, 200]⟩ .f32) (b7r : Vec Ideal ⟨2, ![1, 400]⟩ .f32) (b7 : Vec Ideal ⟨1, ![400]⟩ .f32)
    (w8 : Vec Ideal ⟨2, ![784, 400]⟩ .f32) (b8r : Vec Ideal ⟨2, ![1, 784]⟩ .f32) (b8 : Vec Ideal ⟨1, ![784]⟩ .f32)
    (hb5 : ∀ q : Fin 50, b5r (ix2 (0 : Fin 1) q) = b5 (ix1 q)) (hb6 : ∀ q : Fin 200, b6r (ix2 (0 : Fin 1) q) = b6 (ix1 q))
    (hb7 : ∀ q : Fin 400, b7r (ix2 (0 : Fin 1) q) = b7 (ix1 q)) (hb8 : ∀ q : Fin 784, b8r (ix2 (0 : Fin 1) q) = b8 (ix1 q))
    (r : Fin 512) (p : Fin 4096) (hz : ∀ k : Fin 2, k0_pay4 (F := Ideal) v35 v36 w4 b4r (ix2 r k) = Z (ix2 p k)) (q : Fin 784) :
    k0_pay1 (F := Ideal) (k0_pay5 v35 v36 w4 b4r w5 b5r w6 b6r) w7 b7r w8 b8r (ix2 r q)
      = Yst (F := Ideal) Z w5 b5 w6 b6 w7 b7 w8 b8 (ix2 p q) := by
  have hK := pay1_row (k0_pay5 (F := Ideal) v35 v36 w4 b4r w5 b5r w6 b6r) w7 b7r w8 b8r r
  rw [pay5_row, show rowOf b5r (0 : Fin 1) = vecOf b5 from funext hb5, show rowOf b6r (0 : Fin 1) = vecOf b6 from funext hb6,
    show rowOf b7r (0 : Fin 1) = vecOf b7 from funext hb7, show rowOf b8r (0 : Fin 1) = vecOf b8 from funext hb8,
    show rowOf (k0_pay4 (F := Ideal) v35 v36 w4 b4r) r = rowOf Z p from funext hz] at hK
  exact (congrFun hK q).trans (congrFun (Yst_row Z w5 b5 w6 b6 w7 b7 w8 b8 p) q).symm

end Cert.Math

end
-- ==== Proof.KI.Z0.lean ====
import proofs.«135652_j20272245637753_1_alg».proof.Proof.KI.V0
import proofs.«135652_j20272245637753_1_alg».proof.Proof.Ref.Stages
import proofs.«135652_j20272245637753_1_alg».proof.Proof.Math.Mlp

/-! # Pipeline 0: the code and the reconstruction arrays as the reference's encoder and decoder

The two arrays pipeline 0 leaves, over the extended reals, as whole arrays: the code is the reference's encoder of the
arrays the windows read, the reconstruction its decoder of that code. Row P of either lies in row block P / 512 at row
P % 512; the body's stores and loads are of whole buffers, so what it leaves is its payloads of the blocks; and the
payloads act on each row by itself, as the reference's layers do. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

theorem zeroOffZ0 : (![0, 0] : Fin 2 → Nat) = fun _ => 0 := funext fun a => by fin_cases a <;> rfl

/-- The body's loads are of whole buffers and its store of the code is of the whole output buffer: what it leaves
    there is the encoder's payloads of the blocks. -/
theorem out0_17_payloads {F : FTy → Type} [FloatOps F] (x0 : Vec F S512x784 .f32) (x1 : Vec F S400x784 .f32) (x2 : Vec F S1x400 .f32)
    (x3 : Vec F S200x400 .f32) (x4 : Vec F S1x200 .f32) (x5 : Vec F S50x200 .f32) (x6 : Vec F S1x50 .f32) (x7 : Vec F S2x50 .f32)
    (x8 : Vec F S1x2 .f32) (x9 : Vec F S50x2 .f32) (x10 : Vec F S1x50 .f32) (x11 : Vec F S200x50 .f32) (x12 : Vec F S1x200 .f32)
    (x13 : Vec F S400x200 .f32) (x14 : Vec F S1x400 .f32) (x15 : Vec F S784x400 .f32) (x16 : Vec F S1x784 .f32) :
    out0_17 x0 x1 x2 x3 x4 x5 x6 x7 x8 x9 x10 x11 x12 x13 x14 x15 x16
      = k0_pay4 (k0_pay2 x0 x1 x2 x3 x4 x5 x6) (k0_pay3 (F := F)) x7 x8 := by
  unfold out0_17
  rw [View.canon_unit_zero zeroOffZ0]
  simp only [View.ld_unit_zero (S := S512x784) zeroOffZ0, View.ld_unit_zero (S := S400x784) zeroOffZ0,
    View.ld_unit_zero (S := S1x400) zeroOffZ0, View.ld_unit_zero (S := S200x400) zeroOffZ0,
    View.ld_unit_zero (S := S1x200) zeroOffZ0, View.ld_unit_zero (S := S50x200) zeroOffZ0,
    View.ld_unit_zero (S := S1x50) zeroOffZ0, View.ld_unit_zero (S := S2x50) zeroOffZ0,
    View.ld_unit_zero (S := S1x2) zeroOffZ0]

/-- Likewise the reconstruction: the decoder's payloads over the code's. -/
theorem out0_18_payloads {F : FTy → Type} [FloatOps F] (x0 : Vec F S512x784 .f32) (x1 : Vec F S400x784 .f32) (x2 : Vec F S1x400 .f32)
    (x3 : Vec F S200x400 .f32) (x4 : Vec F S1x200 .f32) (x5 : Vec F S50x200 .f32) (x6 : Vec F S1x50 .f32) (x7 : Vec F S2x50 .f32)
    (x8 : Vec F S1x2 .f32) (x9 : Vec F S50x2 .f32) (x10 : Vec F S1x50 .f32) (x11 : Vec F S200x50 .f32) (x12 : Vec F S1x200 .f32)
    (x13 : Vec F S400x200 .f32) (x14 : Vec F S1x400 .f32) (x15 : Vec F S784x400 .f32) (x16 : Vec F S1x784 .f32) :
    out0_18 x0 x1 x2 x3 x4 x5 x6 x7 x8 x9 x10 x11 x12 x13 x14 x15 x16
      = k0_pay1 (k0_pay5 (k0_pay2 x0 x1 x2 x3 x4 x5 x6) (k0_pay3 (F := F)) x7 x8 x9 x10 x11 x12) x13 x14 x15 x16 := by
  unfold out0_18
  rw [View.canon_unit_zero zeroOffZ0]
  simp only [View.ld_unit_zero (S := S512x784) zeroOffZ0, View.ld_unit_zero (S := S400x784) zeroOffZ0,
    View.ld_unit_zero (S := S1x400) zeroOffZ0, View.ld_unit_zero (S := S200x400) zeroOffZ0,
    View.ld_unit_zero (S := S1x200) zeroOffZ0, View.ld_unit_zero (S := S50x200) zeroOffZ0,
    View.ld_unit_zero (S := S1x50) zeroOffZ0, View.ld_unit_zero (S := S2x50) zeroOffZ0,
    View.ld_unit_zero (S := S1x2) zeroOffZ0, View.ld_unit_zero (S := S50x2) zeroOffZ0,
    View.ld_unit_zero (S := S200x50) zeroOffZ0, View.ld_unit_zero (S := S400x200) zeroOffZ0,
    View.ld_unit_zero (S := S784x400) zeroOffZ0, View.ld_unit_zero (S := S1x784) zeroOffZ0]

/-! ## The code and the reconstruction, as whole arrays -/

section Arrays
open Idealize.ShloMosaic.ValueIdx
variable (V : (c : Dev nD) → (b : Ref sig .tc) → Buf (Elt Ideal) ((c : Thread nD τ).loc b))

/-- A bias vector cast to a one-row matrix reads, in its row, the vector. -/
theorem biasRowZ0 {n : Nat} (b : (⟨1, ![n]⟩ : Shape).Idx → Elt Ideal .f32) (h : (⟨1, ![n]⟩ : Shape).ShapeCasts ⟨2, ![1, n]⟩) (q : Fin n) :
    shapeCast ⟨2, ![1, n]⟩ b h (ix2 (0 : Fin 1) q) = b (ix1 q) :=
  shapeCast_a_1a_apply b h 0 q

/-- THE CODE ARRAY.  Where the region finds, in the windows' arrays, the flattened images, the weights, and the biases cast
    to one-row matrices, the array the pipeline leaves for the code is the reference's encoder of them: row P of it is
    row P % 512 of the code block at the point P / 512, whose input block has row P of the images in that row. -/
theorem GZ_eq (c : Dev nD) (a0 : Vec Ideal S4096x1x28x28 .f32) (a1 : Vec Ideal S400x784 .f32) (a2 : Vec Ideal S400 .f32)
    (a3 : Vec Ideal S200x400 .f32) (a4 : Vec Ideal S200 .f32) (a5 : Vec Ideal S50x200 .f32) (a6 : Vec Ideal S50 .f32)
    (a7 : Vec Ideal S2x50 .f32) (a8 : Vec Ideal S2 .f32)
    (h0 : (V c main_v0 : S4096x784.Idx → Elt Ideal .f32) = Cert.ReferenceIdeal.Hand.X2 (F := Ideal) a0)
    (h1 : (V c main_arg1 : S400x784.Idx → Elt Ideal .f32) = a1)
    (h2 : (V c main_v1 : S1x400.Idx → Elt Ideal .f32) = shapeCast S1x400 a2 shapeCasts_S400_S1x400)
    (h3 : (V c main_arg3 : S200x400.Idx → Elt Ideal .f32) = a3)
    (h4 : (V c main_v2 : S1x200.Idx → Elt Ideal .f32) = shapeCast S1x200 a4 shapeCasts_S200_S1x200)
    (h5 : (V c main_arg5 : S50x200.Idx → Elt Ideal .f32) = a5)
    (h6 : (V c main_v3 : S1x50.Idx → Elt Ideal .f32) = shapeCast S1x50 a6 shapeCasts_S50_S1x50)
    (h7 : (V c main_arg7 : S2x50.Idx → Elt Ideal .f32) = a7)
    (h8 : (V c main_v4 : S1x2.Idx → Elt Ideal .f32) = shapeCast S1x2 a8 shapeCasts_S2_S1x2) :
    GZ (F := Ideal) V c = Cert.ReferenceIdeal.Hand.Zst (F := Ideal) a0 a1 a2 a3 a4 a5 a6 a7 a8 := by
  funext i
  obtain ⟨p, q, rfl⟩ : ∃ (p : Fin 4096) (q : Fin 2), i = ix2 p q := ⟨i 0, i 1, eq_ix2 i⟩
  rw [GZ_row, out0_17_payloads, iblk0_1_eq, iblk0_2_eq, iblk0_3_eq, iblk0_4_eq, iblk0_5_eq, iblk0_6_eq, iblk0_7_eq, iblk0_8_eq,
    h1, h2, h3, h4, h5, h6, h7, h8]
  exact Cert.Math.z_row _ a0 a1 _ a2 a3 _ a4 a5 _ a6 a7 _ a8 (biasRowZ0 a2 _) (biasRowZ0 a4 _) (biasRowZ0 a6 _) (biasRowZ0 a8 _)
      _ p (fun k' => by rw [← h0]; exact iblk0_0_row V c p k') q

/-- THE RECONSTRUCTION ARRAY.  With the decoder's weights and biases found likewise, the array the pipeline leaves for the
    reconstruction is the reference's decoder of the reference's code: the code block's rows are the code's rows by the
    statement above, row by row. -/
theorem GY_eq (c : Dev nD) (a0 : Vec Ideal S4096x1x28x28 .f32) (a1 : Vec Ideal S400x784 .f32) (a2 : Vec Ideal S400 .f32)
    (a3 : Vec Ideal S200x400 .f32) (a4 : Vec Ideal S200 .f32) (a5 : Vec Ideal S50x200 .f32) (a6 : Vec Ideal S50 .f32)
    (a7 : Vec Ideal S2x50 .f32) (a8 : Vec Ideal S2 .f32)
    (a9 : Vec Ideal S50x2 .f32) (a10 : Vec Ideal S50 .f32) (a11 : Vec Ideal S200x50 .f32) (a12 : Vec Ideal S200 .f32)
    (a13 : Vec Ideal S400x200 .f32) (a14 : Vec Ideal S400 .f32) (a15 : Vec Ideal S784x400 .f32) (a16 : Vec Ideal S784 .f32)
    (h0 : (V c main_v0 : S4096x784.Idx → Elt Ideal .f32) = Cert.ReferenceIdeal.Hand.X2 (F := Ideal) a0)
    (h1 : (V c main_arg1 : S400x784.Idx → Elt Ideal .f32) = a1)
    (h2 : (V c main_v1 : S1x400.Idx → Elt Ideal .f32) = shapeCast S1x400 a2 shapeCasts_S400_S1x400)
    (h3 : (V c main_arg3 : S200x400.Idx → Elt Ideal .f32) = a3)
    (h4 : (V c main_v2 : S1x200.Idx → Elt Ideal .f32) = shapeCast S1x200 a4 shapeCasts_S200_S1x200)
    (h5 : (V c main_arg5 : S50x200.Idx → Elt Ideal .f32) = a5)
    (h6 : (V c main_v3 : S1x50.Idx → Elt Ideal .f32) = shapeCast S1x50 a6 shapeCasts_S50_S1x50)
    (h7 : (V c main_arg7 : S2x50.Idx → Elt Ideal .f32) = a7)
    (h8 : (V c main_v4 : S1x2.Idx → Elt Ideal .f32) = shapeCast S1x2 a8 shapeCasts_S2_S1x2)
    (h9 : (V c main_arg9 : S50x2.Idx → Elt Ideal .f32) = a9)
    (h10 : (V c main_v5 : S1x50.Idx → Elt Ideal .f32) = shapeCast S1x50 a10 shapeCasts_S50_S1x50)
    (h11 : (V c main_arg11 : S200x50.Idx → Elt Ideal .f32) = a11)
    (h12 : (V c main_v6 : S1x200.Idx → Elt Ideal .f32) = shapeCast S1x200 a12 shapeCasts_S200_S1x200)
    (h13 : (V c main_arg13 : S400x200.Idx → Elt Ideal .f32) = a13)
    (h14 : (V c main_v7 : S1x400.Idx → Elt Ideal .f32) = shapeCast S1x400 a14 shapeCasts_S400_S1x400)
    (h15 : (V c main_arg15 : S784x400.Idx → Elt Ideal .f32) = a15)
    (h16 : (V c main_v8 : S1x784.Idx → Elt Ideal .f32) = shapeCast S1x784 a16 shapeCasts_S784_S1x784) :
    GY (F := Ideal) V c = Cert.ReferenceIdeal.Hand.Yst (F := Ideal)
      (Cert.ReferenceIdeal.Hand.Zst (F := Ideal) a0 a1 a2 a3 a4 a5 a6 a7 a8) a9 a10 a11 a12 a13 a14 a15 a16 := by
  funext i
  obtain ⟨p, q, rfl⟩ : ∃ (p : Fin 4096) (q : Fin 784), i = ix2 p q := ⟨i 0, i 1, eq_ix2 i⟩
  rw [GY_row, out0_18_payloads, iblk0_1_eq, iblk0_2_eq, iblk0_3_eq, iblk0_4_eq, iblk0_5_eq, iblk0_6_eq, iblk0_7_eq, iblk0_8_eq,
    iblk0_9_eq, iblk0_10_eq, iblk0_11_eq, iblk0_12_eq, iblk0_13_eq, iblk0_14_eq, iblk0_15_eq, iblk0_16_eq,
    h1, h2, h3, h4, h5, h6, h7, h8, h9, h10, h11, h12, h13, h14, h15, h16]
  exact Cert.Math.y_row _ _ a7 _ (Cert.ReferenceIdeal.Hand.Zst (F := Ideal) a0 a1 a2 a3 a4 a5 a6 a7 a8)
    a9 _ a10 a11 _ a12 a13 _ a14 a15 _ a16 (biasRowZ0 a10 _) (biasRowZ0 a12 _) (biasRowZ0 a14 _) (biasRowZ0 a16 _) _ p
    (fun k => Cert.Math.z_row _ a0 a1 _ a2 a3 _ a4 a5 _ a6 a7 _ a8 (biasRowZ0 a2 _) (biasRowZ0 a4 _) (biasRowZ0 a6 _) (biasRowZ0 a8 _)
      _ p (fun k' => by rw [← h0]; exact iblk0_0_row V c p k') k) q

end Arrays

end Cert.KernelIdeal.Hand

end
-- ==== Proof.KI.V1.lean ====
import proofs.«135652_j20272245637753_1_alg».proof.Proof.KI.R1
import Idealize.ShloMosaic.Lib.Pipeline.Value
import Idealize.ShloMosaic.Lib.ValueIdx

/-! # Pipeline 1: from the blocks to the arrays

The result array of pipeline 1 after its 16 points, as one function of the region-entry contents: the element at
`(r, s)` lies in block `(r / 1024, s / 1024)`, which point `4 * (r / 1024) + s / 1024` of the row-major 4 x 4 grid
writes back, at offset `(r % 1024, s % 1024)`; it is that offset's element of what the body leaves in the output
buffer there, from row block `r / 1024` and row block `s / 1024` of the input array. The 16 blocks tile the array.
The input array is never written back. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## The index maps over the grid -/

/-- Point `t` of the grid is `(t / 4, t % 4)`: the output's block is `(t / 4, t % 4)`, window 0's row block is
    `t / 4` and window 1's is `t % 4` (decided over the 16 points). -/
theorem idx1 : ∀ t : Fin cfg1.N, win1_2.index t (0 : Fin 2) = t.val / 4 ∧ win1_2.index t (1 : Fin 2) = t.val % 4
    ∧ win1_0.index t (0 : Fin 2) = t.val / 4 ∧ win1_0.index t (1 : Fin 2) = 0
    ∧ win1_1.index t (0 : Fin 2) = t.val % 4 ∧ win1_1.index t (1 : Fin 2) = 0 :=
  (by decide +kernel : ∀ t : Fin grid1.N, _)

/-- The grid point whose output block holds array index `i`. -/
def pt1 (i : S4096x4096.Idx) : Fin cfg1.N :=
  ⟨4 * ((i 0).val / 1024) + (i 1).val / 1024, by
    have h0 : (i 0).val < 4096 := (i 0).isLt
    have h1 : (i 1).val < 4096 := (i 1).isLt
    rw [show cfg1.N = 16 from N_1]; omega⟩

theorem blk_size1 (a : Fin 2) : S1024x1024.size a = 1024 := by fin_cases a <;> rfl

/-- Where array index `i` sits inside its block. -/
def off1 (i : S4096x4096.Idx) : S1024x1024.Idx := fun a =>
  ⟨(i a).val % 1024, lt_of_lt_of_eq (Nat.mod_lt _ (by decide)) (blk_size1 a).symm⟩

/-! ## The result array -/

/-- What the result array ends holding: at each index, the element at its offset of what the body leaves in
    the output buffer at the point that owns the index's block. -/
def GD1 (c : Dev nD) : S4096x4096.Idx → Elt F .f32 := fun i =>
  out1_2 (iblk1 V c 0 (pt1 i)) (iblk1 V c 1 (pt1 i)) (off1 i)

/-- An element of the output's block at point `t` sits in the array at the block index times 1024 plus its own
    coordinate, so the point that owns it is `t` and its offset is itself. -/
theorem pt1_emb (t : Fin cfg1.N) (j : S1024x1024.Idx) : pt1 (((cfg1.win 2).blk t).view.emb j) = t := by
  obtain ⟨e0, e1, -⟩ := idx1 t
  have hN : t.val < 16 := lt_of_lt_of_eq t.isLt N_1
  have hj0 : (j 0).val < 1024 := (j 0).isLt
  have hj1 : (j 1).val < 1024 := (j 1).isLt
  apply Fin.ext
  show 4 * ((win1_2.index t (0 : Fin 2) * 1024 + 1 * (j 0).val) / 1024) + (win1_2.index t (1 : Fin 2) * 1024 + 1 * (j 1).val) / 1024 = t.val
  rw [e0, e1]; omega

theorem off1_emb (t : Fin cfg1.N) (j : S1024x1024.Idx) : off1 (((cfg1.win 2).blk t).view.emb j) = j := by
  have hj0 : (j 0).val < 1024 := (j 0).isLt
  have hj1 : (j 1).val < 1024 := (j 1).isLt
  funext a
  apply Fin.ext
  match a with
  | ⟨0, _⟩ => show (win1_2.index t (0 : Fin 2) * 1024 + 1 * (j 0).val) % 1024 = (j 0).val; omega
  | ⟨1, _⟩ => show (win1_2.index t (1 : Fin 2) * 1024 + 1 * (j 1).val) % 1024 = (j 1).val; omega

/-- `GD1` at an element of point `t`'s block is that element of what the body leaves there. -/
theorem GD1_emb (c : Dev nD) (t : Fin cfg1.N) (j : S1024x1024.Idx) :
    out1_2 (iblk1 V c 0 t) (iblk1 V c 1 t) j = GD1 V c (((cfg1.win 2).blk t).view.emb j) := by
  unfold GD1
  rw [pt1_emb, off1_emb]

/-- What point `t` writes back is block `t` of `GD1`. -/
theorem flushed1_eq (c : Dev nD) (t : Fin cfg1.N) :
    (dat1 V c).flushed 2 t = ((cfg1.win 2).blk t).view.read (Elt F) (GD1 V c) := by
  show (cfg1.win 2).cut (grid1.coords t) ((dat1 V c).after 2 t) = _
  rw [after1_2]
  funext j
  rw [View.read_apply, cast_eq]
  exact GD1_emb V c t j

/-- An index of the array is in point `t`'s block iff each coordinate is in the block's range on its axis. -/
theorem mem_blk1 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v11).slice (win1_2.rect t)).set ↔ _
  rw [View.set_slice_whole, Rect.mem_set_unit]
  exact Iff.rfl

/-- Every index of the array is in the block of the point that owns it. -/
theorem cover1 (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  obtain ⟨e0, e1, -⟩ := idx1 (pt1 i)
  have hp : (pt1 i).val = 4 * ((i 0).val / 1024) + (i 1).val / 1024 := rfl
  refine ⟨pt1 i, flush1_2 _, ?_⟩
  rw [mem_blk1]
  intro a
  match a with
  | ⟨0, _⟩ => show win1_2.index (pt1 i) (0 : Fin 2) * 1024 ≤ (i 0).val ∧ (i 0).val < win1_2.index (pt1 i) (0 : Fin 2) * 1024 + 1024; rw [e0, hp]; omega
  | ⟨1, _⟩ => show win1_2.index (pt1 i) (1 : Fin 2) * 1024 ≤ (i 1).val ∧ (i 1).val < win1_2.index (pt1 i) (1 : Fin 2) * 1024 + 1024; rw [e1, hp]; omega

/-- The result array after the 16 points is `GD1`. -/
theorem final1 (c : Dev nD) : (dat1 V c).arrAt 2 cfg1.N = GD1 V c :=
  (dat1 V c).arrAt_eq_of_cover 2 (GD1 V c) (fun t _ => flushed1_eq V c t) cover1

/-- The input array, staged by windows 0 and 1 and never written back, is as the region found it. -/
theorem arr1_0 (c : Dev nD) : (dat1 V c).arrAt 0 cfg1.N = V c (Pipeline.arrRef spec1 0) :=
  ((dat1 V c).arrAt_in 0 rfl _).trans (A_eq1 V c 0)
theorem arr1_1 (c : Dev nD) : (dat1 V c).arrAt 1 cfg1.N = V c (Pipeline.arrRef spec1 1) :=
  ((dat1 V c).arrAt_in 1 rfl _).trans (A_eq1 V c 1)

/-! ## The input blocks as rows of the input array -/

/-- Window 0's block at point `t` is rows `1024 * (t / 4) …` of the input array, -/
theorem iblk1_0_apply (c : Dev nD) (t : Fin cfg1.N) (x : S1024x784.Idx) (k : S4096x784.Idx)
    (hk0 : (k 0).val = 1024 * (t.val / 4) + (x 0).val) (hk1 : (k 1).val = (x 1).val) :
    (iblk1 V c 0 t : Vec F S1024x784 .f32) x = (V c (Pipeline.arrRef spec1 0) : S4096x784.Idx → Elt F .f32) k := by
  obtain ⟨-, -, e0, e1, -⟩ := idx1 t
  unfold iblk1
  rw [View.read_apply]
  show (V c (Pipeline.arrRef spec1 0) : S4096x784.Idx → Elt F .f32) _ = _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * S1024x784.size 1 + 1 * (x 1).val = (k 1).val; rw [e1, hk1]; omega

/-- and window 1's is rows `1024 * (t % 4) …` of the same array. -/
theorem iblk1_1_apply (c : Dev nD) (t : Fin cfg1.N) (x : S1024x784.Idx) (k : S4096x784.Idx)
    (hk0 : (k 0).val = 1024 * (t.val % 4) + (x 0).val) (hk1 : (k 1).val = (x 1).val) :
    (iblk1 V c 1 t : Vec F S1024x784 .f32) x = (V c (Pipeline.arrRef spec1 1) : S4096x784.Idx → Elt F .f32) k := by
  obtain ⟨-, -, -, -, e0, e1⟩ := idx1 t
  unfold iblk1
  rw [View.read_apply]
  show (V c (Pipeline.arrRef spec1 1) : S4096x784.Idx → Elt F .f32) _ = _
  congr 1
  funext a
  apply Fin.ext
  match a with
  | ⟨0, _⟩ => show win1_1.index t (0 : Fin 2) * 1024 + 1 * (x 0).val = (k 0).val; rw [e0, hk0]; omega
  | ⟨1, _⟩ => show win1_1.index t (1 : Fin 2) * S1024x784.size 1 + 1 * (x 1).val = (k 1).val; rw [e1, hk1]; omega

/-! ## The input blocks at explicit coordinates

Point `t` of the grid is `(t / 4, t % 4)`: `t / 4` is its row block (window 0, and the output's rows), `t % 4`
its column block (window 1, and the output's columns). -/

/-- Row `r` of window 0's block at point `t` is row `1024 * (t / 4) + r` of the input array, -/
theorem iblk1_0_ix2 (c : Dev nD) (t : Fin cfg1.N) (r : Fin 1024) (k : Fin 784) :
    (iblk1 V c 0 t : Vec F S1024x784 .f32) (ValueIdx.ix2 r k)
      = (V c main_v0 : S4096x784.Idx → Elt F .f32) (ValueIdx.ix2 (⟨1024 * (t.val / 4) + r.val, by
          have h := lt_of_lt_of_eq t.isLt N_1; have hr := r.isLt; omega⟩ : Fin 4096) k) :=
  iblk1_0_apply V c t _ _ rfl rfl

/-- and row `s` of window 1's block is row `1024 * (t % 4) + s` of the same array. -/
theorem iblk1_1_ix2 (c : Dev nD) (t : Fin cfg1.N) (s : Fin 1024) (k : Fin 784) :
    (iblk1 V c 1 t : Vec F S1024x784 .f32) (ValueIdx.ix2 s k)
      = (V c main_v0 : S4096x784.Idx → Elt F .f32) (ValueIdx.ix2 (⟨1024 * (t.val % 4) + s.val, by
          have hs := s.isLt; omega⟩ : Fin 4096) k) :=
  iblk1_1_apply V c t _ _ rfl rfl

/-- The point that owns array index `i` has row block `i 0 / 1024` and column block `i 1 / 1024`. -/
theorem pt1_div (i : S4096x4096.Idx) : (pt1 i).val / 4 = (i 0).val / 1024 ∧ (pt1 i).val % 4 = (i 1).val / 1024 := by
  have h0 : (i 0).val < 4096 := (i 0).isLt
  have h1 : (i 1).val < 4096 := (i 1).isLt
  have hp : (pt1 i).val = 4 * ((i 0).val / 1024) + (i 1).val / 1024 := rfl
  rw [hp]; omega

end Cert.KernelIdeal.Hand

end
-- ==== Proof.Math.Pdist.lean ====
/-
  The pairwise distances, one entry at a time.

  For two blocks x0, x1 of rows the kernel computes √(max(‖x0 r‖² + ‖x1 s‖² − 2 · ⟨x0 r, x1 s⟩, 0)) at (r, s): the squared
  norms are lane sums of the squares (kept as a column; the second one transposed to a row), the inner products a matrix
  product of the narrowed blocks with the second contracted on its own axis 1.  The reference computes
  ‖X P‖² + ‖X Q‖² − 2 · ⟨X P, X Q⟩ for all P, Q (the squared norms a sum from the initial value 0, broadcast along rows and
  columns; the inner products X · Xᵀ with X transposed first), gathers the pairs P < Q, and takes √(max(·, 0)) of those.
  Entry (r, s) of the kernel's block depends on row r of x0 and row s of x1 only, entry (P, Q) of the reference's array on
  rows P and Q of X only, by the same sums in the same order (0 + x = x is all that is used), so where the block rows are
  array rows the kernel's entry is √(max(·, 0)) of the reference's.  A gather takes each result entry from the operand
  at an index computed from the index array alone, so it commutes with any entrywise map.
-/
import proofs.«135652_j20272245637753_1_alg».proof.Proof.Gen.KernelIdeal.Skeleton
import proofs.«135652_j20272245637753_1_alg».proof.Proof.Ref.Stages
import proofs.«135652_j20272245637753_1_alg».proof.Proof.Math.Rows

set_option maxRecDepth 16384

noncomputable section

open scoped BigOperators

namespace Cert.Math

open Idealize.ShloMosaic Idealize.ShloMosaic.ValueIdx

/-- √(max(v, 0)) on one extended real. -/
def pdF (v : EReal) : EReal := Ideal.sqrt (max v (Ideal.ofBits .f32 0x00000000#32))

/-- The squared distance of two rows, as both sides compute it: the two squared norms, less the constant 0x40000000 (the
    float 2) times the inner product. -/
def d2Spec {K : Nat} (x y : Fin K → EReal) : EReal :=
  ((∑ k : Fin K, x k * x k) + ∑ k : Fin K, y k * y k) - Ideal.ofBits .f32 0x40000000#32 * ∑ k : Fin K, x k * y k

/-! ## Squared norms of rows -/

/-- Over a row index p of the reduced shape, the index with lane coordinate k put back is (p, k). -/
theorem lift1_eq {M K : Nat} (hR : (⟨2, ![M, K]⟩ : Shape).Reduces [1] ⟨1, ![M]⟩) (p : Fin M) (k : Fin K) :
    hR.lift (ix1 p) k = ix2 p k := by
  funext c
  match c with
  | ⟨0, _⟩ => exact Fin.ext rfl
  | ⟨1, _⟩ => exact Fin.ext rfl

/-- The lane sums of the squares, kept as a column. -/
abbrev kSqCol {M K : Nat} (hR : (⟨2, ![M, K]⟩ : Shape).Reduces [1] ⟨1, ![M]⟩) (hφ : FKind.Formats .f32)
    (hacc : (0x00000000#32 : BitVec (FTy.bits .f32)) = FKind.add.neutral .f32 hφ)
    (hc : (⟨1, ![M]⟩ : Shape).ShapeCasts ⟨2, ![M, 1]⟩) (x : FVec Ideal ⟨2, ![M, K]⟩ .f32) : FVec Ideal ⟨2, ![M, 1]⟩ .f32 :=
  shapeCast ⟨2, ![M, 1]⟩ (multiReduction .add [1] ⟨1, ![M]⟩ (mulf x x) 0x00000000#32 hR hφ hacc) hc

theorem kSqCol_apply {M K : Nat} (hR : (⟨2, ![M, K]⟩ : Shape).Reduces [1] ⟨1, ![M]⟩) (hφ : FKind.Formats .f32)
    (hacc : (0x00000000#32 : BitVec (FTy.bits .f32)) = FKind.add.neutral .f32 hφ)
    (hc : (⟨1, ![M]⟩ : Shape).ShapeCasts ⟨2, ![M, 1]⟩) (x : FVec Ideal ⟨2, ![M, K]⟩ .f32) (p : Fin M) (u : Fin 1) :
    kSqCol hR hφ hacc hc x (ix2 p u) = ∑ k : Fin K, x (ix2 p k) * x (ix2 p k) := by
  refine (Cert.Lib.Keepdims.shapeCast_a_a1_apply _ hc p u).trans ?_
  refine (Ideal.multiReduction_add_single (mulf x x) 0x00000000#32 hR hφ hacc (ix1 p)).trans ?_
  show (∑ k : Fin K, (mulf x x) (hR.lift (ix1 p) k)) = ∑ k : Fin K, x (ix2 p k) * x (ix2 p k)
  exact Finset.sum_congr rfl fun k _ => congrArg (mulf x x) (lift1_eq hR p k)

/-- The host's sum of the squares along the lanes, from the initial value 0. -/
abbrev rSq {B K : Nat} (hR' : (⟨2, ![B, K]⟩ : Shape).ReducesTo [1] ⟨1, ![B]⟩) (hu : 0 < (⟨0, ![]⟩ : Shape).numel)
    (x : FVec Ideal ⟨2, ![B, K]⟩ .f32) : FVec Ideal ⟨1, ![B]⟩ .f32 :=
  Host.reduceAdd (mulf x x) (constant (F := Ideal) ⟨0, ![]⟩ .f32 0x00000000#32) hR' hu

theorem rSq_apply {B K : Nat} (hR' : (⟨2, ![B, K]⟩ : Shape).ReducesTo [1] ⟨1, ![B]⟩) (hR : (⟨2, ![B, K]⟩ : Shape).Reduces [1] ⟨1, ![B]⟩)
    (hu : 0 < (⟨0, ![]⟩ : Shape).numel) (x : FVec Ideal ⟨2, ![B, K]⟩ .f32) (p : Fin B) :
    rSq hR' hu x (ix1 p) = ∑ k : Fin K, x (ix2 p k) * x (ix2 p k) := by
  refine (Ideal.hostReduceAdd_single hR' hR (mulf x x) _ (ix1 p)).trans ?_
  show Ideal.ofBits .f32 0x00000000#32 + (∑ k : Fin K, (mulf x x) (hR.lift (ix1 p) k)) = ∑ k : Fin K, x (ix2 p k) * x (ix2 p k)
  rw [Ideal.ofBits_zero_f32, zero_add]
  exact Finset.sum_congr rfl fun k _ => congrArg (mulf x x) (lift1_eq hR p k)

/-! ## The kernel's block of distances -/

/-- √(max((column of ‖x0‖² along the lanes) + (row of ‖x1‖² down the rows) − 2 · (narrow x0) ·ᵀ (narrow x1), 0)). -/
abbrev kDist {M K : Nat} (D : DotDims ⟨2, ![M, K]⟩ ⟨2, ![M, K]⟩ ⟨2, ![M, M]⟩) (hlt : FTy.bits .bf16 < FTy.bits .f32)
    (hR : (⟨2, ![M, K]⟩ : Shape).Reduces [1] ⟨1, ![M]⟩) (hφ : FKind.Formats .f32)
    (hacc : (0x00000000#32 : BitVec (FTy.bits .f32)) = FKind.add.neutral .f32 hφ)
    (hc : (⟨1, ![M]⟩ : Shape).ShapeCasts ⟨2, ![M, 1]⟩) (hT : (⟨2, ![M, 1]⟩ : Shape).Transposes [1, 0] ⟨2, ![1, M]⟩)
    (hbc : (⟨2, ![M, 1]⟩ : Shape).Broadcasts ⟨2, ![M, M]⟩) (hbr : (⟨2, ![1, M]⟩ : Shape).Broadcasts ⟨2, ![M, M]⟩)
    (x0 x1 : FVec Ideal ⟨2, ![M, K]⟩ .f32) : FVec Ideal ⟨2, ![M, M]⟩ .f32 :=
  sqrt (maximumf
    (subf
      (addf (broadcastTo ⟨2, ![M, M]⟩ (kSqCol hR hφ hacc hc x0) hbc)
        (broadcastTo ⟨2, ![M, M]⟩ (transpose ⟨2, ![1, M]⟩ [1, 0] (kSqCol hR hφ hacc hc x1) hT) hbr))
      (mulf (broadcast ⟨2, ![M, M]⟩ (Scalar.ofBits .f32 0x40000000#32))
        (matmul D none (truncf .bf16 x0 hlt) (truncf .bf16 x1 hlt) (constant ⟨2, ![M, M]⟩ .f32 0x00000000#32))))
    (broadcast ⟨2, ![M, M]⟩ (Scalar.ofBits .f32 0x00000000#32)))

/-- Entry (r, s) of the block: √(max(·, 0)) of the squared distance of row r of x0 and row s of x1. -/
theorem kDist_apply {M K : Nat} (D : DotDims ⟨2, ![M, K]⟩ ⟨2, ![M, K]⟩ ⟨2, ![M, M]⟩) (hD : D = DotDims.transposedRhs M K M)
    (hlt : FTy.bits .bf16 < FTy.bits .f32) (hR : (⟨2, ![M, K]⟩ : Shape).Reduces [1] ⟨1, ![M]⟩) (hφ : FKind.Formats .f32)
    (hacc : (0x00000000#32 : BitVec (FTy.bits .f32)) = FKind.add.neutral .f32 hφ)
    (hc : (⟨1, ![M]⟩ : Shape).ShapeCasts ⟨2, ![M, 1]⟩) (hT : (⟨2, ![M, 1]⟩ : Shape).Transposes [1, 0] ⟨2, ![1, M]⟩)
    (hbc : (⟨2, ![M, 1]⟩ : Shape).Broadcasts ⟨2, ![M, M]⟩) (hbr : (⟨2, ![1, M]⟩ : Shape).Broadcasts ⟨2, ![M, M]⟩)
    (x0 x1 : FVec Ideal ⟨2, ![M, K]⟩ .f32) (r s : Fin M) :
    kDist D hlt hR hφ hacc hc hT hbc hbr x0 x1 (ix2 r s) = pdF (d2Spec (rowOf x0 r) (rowOf x1 s)) := by
  subst hD
  have e1 : broadcastTo ⟨2, ![M, M]⟩ (kSqCol hR hφ hacc hc x0) hbc (ix2 r s) = ∑ k : Fin K, x0 (ix2 r k) * x0 (ix2 r k) :=
    (Cert.Lib.Keepdims.broadcastTo_a1_ab_apply _ hbc r s).trans (kSqCol_apply hR hφ hacc hc x0 r 0)
  have e2 : broadcastTo ⟨2, ![M, M]⟩ (transpose ⟨2, ![1, M]⟩ [1, 0] (kSqCol hR hφ hacc hc x1) hT) hbr (ix2 r s)
      = ∑ k : Fin K, x1 (ix2 s k) * x1 (ix2 s k) :=
    (broadcastTo_1b_ab_apply _ hbr r s).trans
      ((transpose_ix2_apply _ hT (0 : Fin 1) s).trans (kSqCol_apply hR hφ hacc hc x1 s 0))
  have e3 : FloatOps.matmul (DotDims.transposedRhs M K M) none (truncf .bf16 x0 hlt) (truncf .bf16 x1 hlt)
      (constant ⟨2, ![M, M]⟩ .f32 0x00000000#32) (ix2 r s) = ∑ k : Fin K, x0 (ix2 r k) * x1 (ix2 s k) :=
    matmul_trRhs_zero_apply M K M none (truncf .bf16 x0 hlt) (truncf .bf16 x1 hlt) r s
  show pdF ((broadcastTo ⟨2, ![M, M]⟩ (kSqCol hR hφ hacc hc x0) hbc (ix2 r s)
        + broadcastTo ⟨2, ![M, M]⟩ (transpose ⟨2, ![1, M]⟩ [1, 0] (kSqCol hR hφ hacc hc x1) hT) hbr (ix2 r s))
      - Ideal.ofBits .f32 0x40000000#32
        * FloatOps.matmul (DotDims.transposedRhs M K M) none (truncf .bf16 x0 hlt) (truncf .bf16 x1 hlt)
            (constant ⟨2, ![M, M]⟩ .f32 0x00000000#32) (ix2 r s)) = _
  rw [e1, e2, e3]
  rfl

/-! ## The reference's array of squared distances -/

/-- An [N] vector laid as a column and repeated along the lanes reads, at (n, j), the vector at n. -/
theorem across_read {α : Type} {N C : Nat} (hN : N ≠ 1) (h1 : (⟨1, ![N]⟩ : Shape).BroadcastsInDim ⟨2, ![N, 1]⟩ ![0])
    (h2 : (⟨2, ![N, 1]⟩ : Shape).BroadcastsInDim ⟨2, ![N, C]⟩ ![0, 1]) (v : (⟨1, ![N]⟩ : Shape).Idx → α) (n : Fin N) (j : Fin C) :
    broadcastInDim ⟨2, ![N, C]⟩ ![0, 1] h2 (broadcastInDim ⟨2, ![N, 1]⟩ ![0] h1 v) (ix2 n j) = v (ix1 n) := by
  refine (broadcastInDim_apply ![0, 1] h2 _ (ix2 n j) (ix2 n (0 : Fin 1)) (fun ax => ?_)).trans ?_
  · match ax with
    | ⟨0, _⟩ => show n.val = if N = 1 then 0 else n.val; rw [if_neg hN]
    | ⟨1, _⟩ => show (0 : Nat) = if (1 : Nat) = 1 then 0 else j.val; simp
  · refine broadcastInDim_apply ![0] h1 v (ix2 n (0 : Fin 1)) (ix1 n) (fun ax => ?_)
    match ax with
    | ⟨0, _⟩ => show n.val = if N = 1 then 0 else n.val; rw [if_neg hN]

/-- (‖X P‖² + ‖X Q‖²) − 2 · (X · Xᵀ)(P, Q), in the host's spelling. -/
abbrev rD2 {B K : Nat} (D : DotDims ⟨2, ![B, K]⟩ ⟨2, ![K, B]⟩ ⟨2, ![B, B]⟩)
    (hR' : (⟨2, ![B, K]⟩ : Shape).ReducesTo [1] ⟨1, ![B]⟩) (hu : 0 < (⟨0, ![]⟩ : Shape).numel)
    (h1 : (⟨1, ![B]⟩ : Shape).BroadcastsInDim ⟨2, ![B, 1]⟩ ![0]) (h2 : (⟨2, ![B, 1]⟩ : Shape).BroadcastsInDim ⟨2, ![B, B]⟩ ![0, 1])
    (h3 : (⟨1, ![B]⟩ : Shape).BroadcastsInDim ⟨2, ![1, B]⟩ ![1]) (h4 : (⟨2, ![1, B]⟩ : Shape).BroadcastsInDim ⟨2, ![B, B]⟩ ![0, 1])
    (h0 : (⟨0, ![]⟩ : Shape).BroadcastsInDim ⟨2, ![B, B]⟩ (![] : Fin 0 → Fin 2))
    (hT : (⟨2, ![B, K]⟩ : Shape).Transposes [1, 0] ⟨2, ![K, B]⟩) (x : FVec Ideal ⟨2, ![B, K]⟩ .f32) : FVec Ideal ⟨2, ![B, B]⟩ .f32 :=
  subf
    (addf (broadcastInDim ⟨2, ![B, B]⟩ ![0, 1] h2 (broadcastInDim ⟨2, ![B, 1]⟩ ![0] h1 (rSq hR' hu x)))
      (broadcastInDim ⟨2, ![B, B]⟩ ![0, 1] h4 (broadcastInDim ⟨2, ![1, B]⟩ ![1] h3 (rSq hR' hu x))))
    (mulf (broadcastInDim ⟨2, ![B, B]⟩ ![] h0 (constant (F := Ideal) ⟨0, ![]⟩ .f32 0x40000000#32))
      (Host.dotGeneral D none x (transpose ⟨2, ![K, B]⟩ [1, 0] x hT)))

/-- Entry (P, Q) of that array: the squared distance of rows P and Q. -/
theorem rD2_apply {B K : Nat} (D : DotDims ⟨2, ![B, K]⟩ ⟨2, ![K, B]⟩ ⟨2, ![B, B]⟩) (hD : D = DotDims.plain B K B) (hB : B ≠ 1)
    (hR' : (⟨2, ![B, K]⟩ : Shape).ReducesTo [1] ⟨1, ![B]⟩) (hR : (⟨2, ![B, K]⟩ : Shape).Reduces [1] ⟨1, ![B]⟩)
    (hu : 0 < (⟨0, ![]⟩ : Shape).numel)
    (h1 : (⟨1, ![B]⟩ : Shape).BroadcastsInDim ⟨2, ![B, 1]⟩ ![0]) (h2 : (⟨2, ![B, 1]⟩ : Shape).BroadcastsInDim ⟨2, ![B, B]⟩ ![0, 1])
    (h3 : (⟨1, ![B]⟩ : Shape).BroadcastsInDim ⟨2, ![1, B]⟩ ![1]) (h4 : (⟨2, ![1, B]⟩ : Shape).BroadcastsInDim ⟨2, ![B, B]⟩ ![0, 1])
    (h0 : (⟨0, ![]⟩ : Shape).BroadcastsInDim ⟨2, ![B, B]⟩ (![] : Fin 0 → Fin 2))
    (hT : (⟨2, ![B, K]⟩ : Shape).Transposes [1, 0] ⟨2, ![K, B]⟩) (x : FVec Ideal ⟨2, ![B, K]⟩ .f32) (P Q : Fin B) :
    rD2 D hR' hu h1 h2 h3 h4 h0 hT x (ix2 P Q) = d2Spec (rowOf x P) (rowOf x Q) := by
  subst hD
  have e1 : broadcastInDim ⟨2, ![B, B]⟩ ![0, 1] h2 (broadcastInDim ⟨2, ![B, 1]⟩ ![0] h1 (rSq hR' hu x)) (ix2 P Q)
      = ∑ k : Fin K, x (ix2 P k) * x (ix2 P k) :=
    (across_read hB h1 h2 _ P Q).trans (rSq_apply hR' hR hu x P)
  have e2 : broadcastInDim ⟨2, ![B, B]⟩ ![0, 1] h4 (broadcastInDim ⟨2, ![1, B]⟩ ![1] h3 (rSq hR' hu x)) (ix2 P Q)
      = ∑ k : Fin K, x (ix2 Q k) * x (ix2 Q k) :=
    (Cert.LibRowReads.down_read hB h3 h4 _ P Q).trans (rSq_apply hR' hR hu x Q)
  have e3 : FloatOps.dotGeneral (DotDims.plain B K B) none .single x (transpose ⟨2, ![K, B]⟩ [1, 0] x hT) (ix2 P Q)
      = ∑ k : Fin K, x (ix2 P k) * x (ix2 Q k) :=
    (Cert.Bridge.dotGeneral_plain_apply B K B none .single x _ P Q).trans
      (Finset.sum_congr rfl fun k _ => by rw [transpose_ix2_apply])
  show (broadcastInDim ⟨2, ![B, B]⟩ ![0, 1] h2 (broadcastInDim ⟨2, ![B, 1]⟩ ![0] h1 (rSq hR' hu x)) (ix2 P Q)
        + broadcastInDim ⟨2, ![B, B]⟩ ![0, 1] h4 (broadcastInDim ⟨2, ![1, B]⟩ ![1] h3 (rSq hR' hu x)) (ix2 P Q))
      - Ideal.ofBits .f32 0x40000000#32
        * FloatOps.dotGeneral (DotDims.plain B K B) none .single x (transpose ⟨2, ![K, B]⟩ [1, 0] x hT) (ix2 P Q) = _
  rw [e1, e2, e3]
  rfl

/-! ## Block entries against array entries -/

section Entries
open Cert.KernelIdeal.Gen Cert.ReferenceIdeal.Hand

theorem D2_784_apply (X : Vec Ideal ⟨2, ![4096, 784]⟩ .f32) (P Q : Fin 4096) :
    D2_784 (F := Ideal) X (ix2 P Q) = d2Spec (rowOf X P) (rowOf X Q) :=
  rD2_apply _ rfl (by decide) _ (by decide) _ _ _ _ _ _ _ X P Q

theorem D2_2_apply (X : Vec Ideal ⟨2, ![4096, 2]⟩ .f32) (P Q : Fin 4096) :
    D2_2 (F := Ideal) X (ix2 P Q) = d2Spec (rowOf X P) (rowOf X Q) :=
  rD2_apply _ rfl (by decide) _ (by decide) _ _ _ _ _ _ _ X P Q

theorem k1_pay1_apply (x0 x1 : Vec Ideal ⟨2, ![1024, 784]⟩ .f32) (r s : Fin 1024) :
    k1_pay1 (F := Ideal) x0 x1 (ix2 r s) = pdF (d2Spec (rowOf x0 r) (rowOf x1 s)) := by
  show kDist _ _ _ _ _ _ _ _ _ (shapeCast _ x0 _) (shapeCast _ x1 _) (ix2 r s) = _
  rw [shapeCast_self, shapeCast_self]
  exact kDist_apply _ rfl _ _ _ _ _ _ _ _ x0 x1 r s

theorem k2_pay1_apply (x0 x1 : Vec Ideal ⟨2, ![1024, 2]⟩ .f32) (r s : Fin 1024) :
    k2_pay1 (F := Ideal) x0 x1 (ix2 r s) = pdF (d2Spec (rowOf x0 r) (rowOf x1 s)) := by
  show kDist _ _ _ _ _ _ _ _ _ (shapeCast _ x0 _) (shapeCast _ x1 _) (ix2 r s) = _
  rw [shapeCast_self, shapeCast_self]
  exact kDist_apply _ rfl _ _ _ _ _ _ _ _ x0 x1 r s

theorem k3_pay1_apply (x0 x1 : Vec Ideal ⟨2, ![1024, 784]⟩ .f32) (r s : Fin 1024) :
    k3_pay1 (F := Ideal) x0 x1 (ix2 r s) = pdF (d2Spec (rowOf x0 r) (rowOf x1 s)) := by
  show kDist _ _ _ _ _ _ _ _ _ (shapeCast _ x0 _) (shapeCast _ x1 _) (ix2 r s) = _
  rw [shapeCast_self, shapeCast_self]
  exact kDist_apply _ rfl _ _ _ _ _ _ _ _ x0 x1 r s

/-- THE INPUT DISTANCES.  Where row r of the first block is row P of X and row s of the second block is row Q of X, the
    kernel's entry (r, s) is √(max(·, 0)) of the reference's squared distance at (P, Q). -/
theorem pd1_entry (x0 x1 : Vec Ideal ⟨2, ![1024, 784]⟩ .f32) (X : Vec Ideal ⟨2, ![4096, 784]⟩ .f32) (r s : Fin 1024) (P Q : Fin 4096)
    (h0 : ∀ k : Fin 784, x0 (ix2 r k) = X (ix2 P k)) (h1 : ∀ k : Fin 784, x1 (ix2 s k) = X (ix2 Q k)) :
    Cert.KernelIdeal.Gen.k1_pay1 (F := Ideal) x0 x1 (ix2 r s) = pdF (Cert.ReferenceIdeal.Hand.D2_784 (F := Ideal) X (ix2 P Q)) := by
  rw [k1_pay1_apply, D2_784_apply, rowOf_congr x0 X r P h0, rowOf_congr x1 X s Q h1]

/-- THE CODE DISTANCES: the same in the plane. -/
theorem pd2_entry (x0 x1 : Vec Ideal ⟨2, ![1024, 2]⟩ .f32) (X : Vec Ideal ⟨2, ![4096, 2]⟩ .f32) (r s : Fin 1024) (P Q : Fin 4096)
    (h0 : ∀ k : Fin 2, x0 (ix2 r k) = X (ix2 P k)) (h1 : ∀ k : Fin 2, x1 (ix2 s k) = X (ix2 Q k)) :
    Cert.KernelIdeal.Gen.k2_pay1 (F := Ideal) x0 x1 (ix2 r s) = pdF (Cert.ReferenceIdeal.Hand.D2_2 (F := Ideal) X (ix2 P Q)) := by
  rw [k2_pay1_apply, D2_2_apply, rowOf_congr x0 X r P h0, rowOf_congr x1 X s Q h1]

/-- THE RECONSTRUCTION DISTANCES: as the input's. -/
theorem pd3_entry (x0 x1 : Vec Ideal ⟨2, ![1024, 784]⟩ .f32) (X : Vec Ideal ⟨2, ![4096, 784]⟩ .f32) (r s : Fin 1024) (P Q : Fin 4096)
    (h0 : ∀ k : Fin 784, x0 (ix2 r k) = X (ix2 P k)) (h1 : ∀ k : Fin 784, x1 (ix2 s k) = X (ix2 Q k)) :
    Cert.KernelIdeal.Gen.k3_pay1 (F := Ideal) x0 x1 (ix2 r s) = pdF (Cert.ReferenceIdeal.Hand.D2_784 (F := Ideal) X (ix2 P Q)) := by
  rw [k3_pay1_apply, D2_784_apply, rowOf_congr x0 X r P h0, rowOf_congr x1 X s Q h1]

/-- The reference's last step on the gathered squared distances is √(max(·, 0)) entry by entry. -/
theorem PD_eq (g : Vec Ideal ⟨1, ![8386560]⟩ .f32) : PD (F := Ideal) g = fun k => pdF (g k) := rfl

end Entries

/-! ## A gather commutes with an entrywise map -/

/-- Each result entry of a gather is the operand at an index computed from the index array alone. -/
theorem gather_map {α β : Type} {s si t : Shape} {w : Nat} (d : GatherDims s si t) (f : α → β) (D : s.Idx → α) (idx : IVec si w) :
    Host.gather d (fun i => f (D i)) idx = fun k => f (Host.gather d D idx k) := rfl

/-- So gathering √(max(·, 0)) of the squared distances is the reference's last step on the gathered squared distances. -/
theorem gather_pd {si : Shape} {w : Nat} (d : GatherDims ⟨2, ![4096, 4096]⟩ si ⟨1, ![8386560]⟩)
    (D : Vec Ideal ⟨2, ![4096, 4096]⟩ .f32) (idx : IVec si w) :
    Host.gather d (fun i => pdF (D i)) idx = Cert.ReferenceIdeal.Hand.PD (F := Ideal) (Host.gather d D idx) := rfl

end Cert.Math

end
-- ==== Proof.KI.D1.lean ====
import proofs.«135652_j20272245637753_1_alg».proof.Proof.KI.V1
import proofs.«135652_j20272245637753_1_alg».proof.Proof.Ref.Stages
import proofs.«135652_j20272245637753_1_alg».proof.Proof.Math.Pdist

/-! # Pipeline 1: the result array as pairwise distances

The result array of pipeline 1 over the extended reals, entry by entry: the clamped square root of the squared
distance of two rows of the input array as the region finds it. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

theorem zero_off1 : (![0, 0] : Fin 2 → Nat) = fun _ => 0 := funext fun a => by fin_cases a <;> rfl

/-- The body's one store is of the whole output buffer and its two loads are of the whole input buffers: what it
    leaves is its payload of the two row blocks. -/
theorem out1_2_eq {F : FTy → Type} [FloatOps F] (x0 x1 : Vec F S1024x784 .f32) : out1_2 x0 x1 = k1_pay1 x0 x1 := by
  unfold out1_2
  rw [View.canon_unit_zero zero_off1]
  simp only [View.ld_unit_zero (S := S1024x784) zero_off1]

variable (V : (c : Dev nD) → (b : Ref sig .tc) → Buf (Elt Ideal) ((c : Thread nD τ).loc b))

/-- The result array of pipeline 1: at `(P, Q)` the clamped square root of the squared distance of rows `P` and
    `Q` of the input array. Index `(P, Q)` lies in the block of the point with row block `P / 1024` and column
    block `Q / 1024`, at offset `(P % 1024, Q % 1024)`; row `P % 1024` of window 0's block there is row `P` of the
    array and row `Q % 1024` of window 1's is row `Q`. -/
theorem GD1_eq (c : Dev nD) :
    GD1 (F := Ideal) V c = fun i => Cert.Math.pdF (Cert.ReferenceIdeal.Hand.D2_784 (F := Ideal) (V c main_v0) i) := by
  funext i
  have h0 : (i 0).val < 4096 := (i 0).isLt
  have h1 : (i 1).val < 4096 := (i 1).isLt
  obtain ⟨d0, d1⟩ := pt1_div i
  unfold GD1
  rw [out1_2_eq, ValueIdx.eq_ix2 (off1 i)]
  refine (Cert.Math.pd1_entry _ _ (V c main_v0) _ _ (i 0) (i 1) (fun k => ?_) (fun k => ?_)).trans ?_
  · exact iblk1_0_apply V c (pt1 i) _ _ (by show (i 0).val = 1024 * ((pt1 i).val / 4) + (i 0).val % 1024; rw [d0]; omega) rfl
  · exact iblk1_1_apply V c (pt1 i) _ _ (by show (i 1).val = 1024 * ((pt1 i).val % 4) + (i 1).val % 1024; rw [d1]; omega) rfl
  · exact congrArg (fun j => Cert.Math.pdF (Cert.ReferenceIdeal.Hand.D2_784 (F := Ideal) (V c main_v0) j)) (ValueIdx.eq_ix2 i).symm

end Cert.KernelIdeal.Hand

end
-- ==== Proof.KI.V2.lean ====
import proofs.«135652_j20272245637753_1_alg».proof.Proof.KI.R2
import Idealize.ShloMosaic.Lib.Pipeline.Value
import Idealize.ShloMosaic.Lib.ValueIdx

/-! # Pipeline 2: from the blocks to the arrays

The result array of pipeline 2 after its 16 points, as one function of the region-entry contents: the element at
`(r, s)` lies in block `(r / 1024, s / 1024)`, which point `4 * (r / 1024) + s / 1024` of the row-major 4 x 4 grid
writes back, at offset `(r % 1024, s % 1024)`; it is that offset's element of what the body leaves in the output
buffer there, from row block `r / 1024` and row block `s / 1024` of the input array. The 16 blocks tile the array.
The input array is never written back. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## The index maps over the grid -/

/-- Point `t` of the grid is `(t / 4, t % 4)`: the output's block is `(t / 4, t % 4)`, window 0's row block is
    `t / 4` and window 1's is `t % 4` (decided over the 16 points). -/
theorem idx2 : ∀ t : Fin cfg2.N, win2_2.index t (0 : Fin 2) = t.val / 4 ∧ win2_2.index t (1 : Fin 2) = t.val % 4
    ∧ win2_0.index t (0 : Fin 2) = t.val / 4 ∧ win2_0.index t (1 : Fin 2) = 0
    ∧ win2_1.index t (0 : Fin 2) = t.val % 4 ∧ win2_1.index t (1 : Fin 2) = 0 :=
  (by decide +kernel : ∀ t : Fin grid2.N, _)

/-- The grid point whose output block holds array index `i`. -/
def pt2 (i : S4096x4096.Idx) : Fin cfg2.N :=
  ⟨4 * ((i 0).val / 1024) + (i 1).val / 1024, by
    have h0 : (i 0).val < 4096 := (i 0).isLt
    have h1 : (i 1).val < 4096 := (i 1).isLt
    rw [show cfg2.N = 16 from N_2]; omega⟩

theorem blk_size2 (a : Fin 2) : S1024x1024.size a = 1024 := by fin_cases a <;> rfl

/-- Where array index `i` sits inside its block. -/
def off2 (i : S4096x4096.Idx) : S1024x1024.Idx := fun a =>
  ⟨(i a).val % 1024, lt_of_lt_of_eq (Nat.mod_lt _ (by decide)) (blk_size2 a).symm⟩

/-! ## The result array -/

/-- What the result array ends holding: at each index, the element at its offset of what the body leaves in
    the output buffer at the point that owns the index's block. -/
def GD2 (c : Dev nD) : S4096x4096.Idx → Elt F .f32 := fun i =>
  out2_2 (iblk2 V c 0 (pt2 i)) (iblk2 V c 1 (pt2 i)) (off2 i)

/-- An element of the output's block at point `t` sits in the array at the block index times 1024 plus its own
    coordinate, so the point that owns it is `t` and its offset is itself. -/
theorem pt2_emb (t : Fin cfg2.N) (j : S1024x1024.Idx) : pt2 (((cfg2.win 2).blk t).view.emb j) = t := by
  obtain ⟨e0, e1, -⟩ := idx2 t
  have hN : t.val < 16 := lt_of_lt_of_eq t.isLt N_2
  have hj0 : (j 0).val < 1024 := (j 0).isLt
  have hj1 : (j 1).val < 1024 := (j 1).isLt
  apply Fin.ext
  show 4 * ((win2_2.index t (0 : Fin 2) * 1024 + 1 * (j 0).val) / 1024) + (win2_2.index t (1 : Fin 2) * 1024 + 1 * (j 1).val) / 1024 = t.val
  rw [e0, e1]; omega

theorem off2_emb (t : Fin cfg2.N) (j : S1024x1024.Idx) : off2 (((cfg2.win 2).blk t).view.emb j) = j := by
  have hj0 : (j 0).val < 1024 := (j 0).isLt
  have hj1 : (j 1).val < 1024 := (j 1).isLt
  funext a
  apply Fin.ext
  match a with
  | ⟨0, _⟩ => show (win2_2.index t (0 : Fin 2) * 1024 + 1 * (j 0).val) % 1024 = (j 0).val; omega
  | ⟨1, _⟩ => show (win2_2.index t (1 : Fin 2) * 1024 + 1 * (j 1).val) % 1024 = (j 1).val; omega

/-- `GD2` at an element of point `t`'s block is that element of what the body leaves there. -/
theorem GD2_emb (c : Dev nD) (t : Fin cfg2.N) (j : S1024x1024.Idx) :
    out2_2 (iblk2 V c 0 t) (iblk2 V c 1 t) j = GD2 V c (((cfg2.win 2).blk t).view.emb j) := by
  unfold GD2
  rw [pt2_emb, off2_emb]

/-- What point `t` writes back is block `t` of `GD2`. -/
theorem flushed2_eq (c : Dev nD) (t : Fin cfg2.N) :
    (dat2 V c).flushed 2 t = ((cfg2.win 2).blk t).view.read (Elt F) (GD2 V c) := by
  show (cfg2.win 2).cut (grid2.coords t) ((dat2 V c).after 2 t) = _
  rw [after2_2]
  funext j
  rw [View.read_apply, cast_eq]
  exact GD2_emb V c t j

/-- An index of the array is in point `t`'s block iff each coordinate is in the block's range on its axis. -/
theorem mem_blk2 (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v12).slice (win2_2.rect t)).set ↔ _
  rw [View.set_slice_whole, Rect.mem_set_unit]
  exact Iff.rfl

/-- Every index of the array is in the block of the point that owns it. -/
theorem cover2 (i : S4096x4096.Idx) :
    ∃ t : Fin cfg2.N, (cfg2.win 2).flush t = true ∧ i ∈ ((cfg2.win 2).blk t).view.set := by
  have h0 : (i 0).val < 4096 := (i 0).isLt
  have h1 : (i 1).val < 4096 := (i 1).isLt
  obtain ⟨e0, e1, -⟩ := idx2 (pt2 i)
  have hp : (pt2 i).val = 4 * ((i 0).val / 1024) + (i 1).val / 1024 := rfl
  refine ⟨pt2 i, flush2_2 _, ?_⟩
  rw [mem_blk2]
  intro a
  match a with
  | ⟨0, _⟩ => show win2_2.index (pt2 i) (0 : Fin 2) * 1024 ≤ (i 0).val ∧ (i 0).val < win2_2.index (pt2 i) (0 : Fin 2) * 1024 + 1024; rw [e0, hp]; omega
  | ⟨1, _⟩ => show win2_2.index (pt2 i) (1 : Fin 2) * 1024 ≤ (i 1).val ∧ (i 1).val < win2_2.index (pt2 i) (1 : Fin 2) * 1024 + 1024; rw [e1, hp]; omega

/-- The result array after the 16 points is `GD2`. -/
theorem final2 (c : Dev nD) : (dat2 V c).arrAt 2 cfg2.N = GD2 V c :=
  (dat2 V c).arrAt_eq_of_cover 2 (GD2 V c) (fun t _ => flushed2_eq V c t) cover2

/-- The input array, staged by windows 0 and 1 and never written back, is as the region found it. -/
theorem arr2_0 (c : Dev nD) : (dat2 V c).arrAt 0 cfg2.N = V c (Pipeline.arrRef spec2 0) :=
  ((dat2 V c).arrAt_in 0 rfl _).trans (A_eq2 V c 0)
theorem arr2_1 (c : Dev nD) : (dat2 V c).arrAt 1 cfg2.N = V c (Pipeline.arrRef spec2 1) :=
  ((dat2 V c).arrAt_in 1 rfl _).trans (A_eq2 V c 1)

/-! ## The input blocks as rows of the input array -/

/-- Window 0's block at point `t` is rows `1024 * (t / 4) …` of the input array, -/
theorem iblk2_0_apply (c : Dev nD) (t : Fin cfg2.N) (x : S1024x2.Idx) (k : S4096x2.Idx)
    (hk0 : (k 0).val = 1024 * (t.val / 4) + (x 0).val) (hk1 : (k 1).val = (x 1).val) :
    (iblk2 V c 0 t : Vec F S1024x2 .f32) x = (V c (Pipeline.arrRef spec2 0) : S4096x2.Idx → Elt F .f32) k := by
  obtain ⟨-, -, e0, e1, -⟩ := idx2 t
  unfold iblk2
  rw [View.read_apply]
  show (V c (Pipeline.arrRef spec2 0) : S4096x2.Idx → Elt F .f32) _ = _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * S1024x2.size 1 + 1 * (x 1).val = (k 1).val; rw [e1, hk1]; omega

/-- and window 1's is rows `1024 * (t % 4) …` of the same array. -/
theorem iblk2_1_apply (c : Dev nD) (t : Fin cfg2.N) (x : S1024x2.Idx) (k : S4096x2.Idx)
    (hk0 : (k 0).val = 1024 * (t.val % 4) + (x 0).val) (hk1 : (k 1).val = (x 1).val) :
    (iblk2 V c 1 t : Vec F S1024x2 .f32) x = (V c (Pipeline.arrRef spec2 1) : S4096x2.Idx → Elt F .f32) k := by
  obtain ⟨-, -, -, -, e0, e1⟩ := idx2 t
  unfold iblk2
  rw [View.read_apply]
  show (V c (Pipeline.arrRef spec2 1) : S4096x2.Idx → Elt F .f32) _ = _
  congr 1
  funext a
  apply Fin.ext
  match a with
  | ⟨0, _⟩ => show win2_1.index t (0 : Fin 2) * 1024 + 1 * (x 0).val = (k 0).val; rw [e0, hk0]; omega
  | ⟨1, _⟩ => show win2_1.index t (1 : Fin 2) * S1024x2.size 1 + 1 * (x 1).val = (k 1).val; rw [e1, hk1]; omega

/-! ## The input blocks at explicit coordinates

Point `t` of the grid is `(t / 4, t % 4)`: `t / 4` is its row block (window 0, and the output's rows), `t % 4`
its column block (window 1, and the output's columns). -/

/-- Row `r` of window 0's block at point `t` is row `1024 * (t / 4) + r` of the input array, -/
theorem iblk2_0_ix2 (c : Dev nD) (t : Fin cfg2.N) (r : Fin 1024) (k : Fin 2) :
    (iblk2 V c 0 t : Vec F S1024x2 .f32) (ValueIdx.ix2 r k)
      = (V c main_v9_0 : S4096x2.Idx → Elt F .f32) (ValueIdx.ix2 (⟨1024 * (t.val / 4) + r.val, by
          have h := lt_of_lt_of_eq t.isLt N_2; have hr := r.isLt; omega⟩ : Fin 4096) k) :=
  iblk2_0_apply V c t _ _ rfl rfl

/-- and row `s` of window 1's block is row `1024 * (t % 4) + s` of the same array. -/
theorem iblk2_1_ix2 (c : Dev nD) (t : Fin cfg2.N) (s : Fin 1024) (k : Fin 2) :
    (iblk2 V c 1 t : Vec F S1024x2 .f32) (ValueIdx.ix2 s k)
      = (V c main_v9_0 : S4096x2.Idx → Elt F .f32) (ValueIdx.ix2 (⟨1024 * (t.val % 4) + s.val, by
          have hs := s.isLt; omega⟩ : Fin 4096) k) :=
  iblk2_1_apply V c t _ _ rfl rfl

/-- The point that owns array index `i` has row block `i 0 / 1024` and column block `i 1 / 1024`. -/
theorem pt2_div (i : S4096x4096.Idx) : (pt2 i).val / 4 = (i 0).val / 1024 ∧ (pt2 i).val % 4 = (i 1).val / 1024 := by
  have h0 : (i 0).val < 4096 := (i 0).isLt
  have h1 : (i 1).val < 4096 := (i 1).isLt
  have hp : (pt2 i).val = 4 * ((i 0).val / 1024) + (i 1).val / 1024 := rfl
  rw [hp]; omega

end Cert.KernelIdeal.Hand

end
-- ==== Proof.KI.D2.lean ====
import proofs.«135652_j20272245637753_1_alg».proof.Proof.KI.V2
import proofs.«135652_j20272245637753_1_alg».proof.Proof.Ref.Stages
import proofs.«135652_j20272245637753_1_alg».proof.Proof.Math.Pdist

/-! # Pipeline 2: the result array as pairwise distances

The result array of pipeline 2 over the extended reals, entry by entry: the clamped square root of the squared
distance of two rows of the input array as the region finds it. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

theorem zero_off2 : (![0, 0] : Fin 2 → Nat) = fun _ => 0 := funext fun a => by fin_cases a <;> rfl

/-- The body's one store is of the whole output buffer and its two loads are of the whole input buffers: what it
    leaves is its payload of the two row blocks. -/
theorem out2_2_eq {F : FTy → Type} [FloatOps F] (x0 x1 : Vec F S1024x2 .f32) : out2_2 x0 x1 = k2_pay1 x0 x1 := by
  unfold out2_2
  rw [View.canon_unit_zero zero_off2]
  simp only [View.ld_unit_zero (S := S1024x2) zero_off2]

variable (V : (c : Dev nD) → (b : Ref sig .tc) → Buf (Elt Ideal) ((c : Thread nD τ).loc b))

/-- The result array of pipeline 2: at `(P, Q)` the clamped square root of the squared distance of rows `P` and
    `Q` of the input array. Index `(P, Q)` lies in the block of the point with row block `P / 1024` and column
    block `Q / 1024`, at offset `(P % 1024, Q % 1024)`; row `P % 1024` of window 0's block there is row `P` of the
    array and row `Q % 1024` of window 1's is row `Q`. -/
theorem GD2_eq (c : Dev nD) :
    GD2 (F := Ideal) V c = fun i => Cert.Math.pdF (Cert.ReferenceIdeal.Hand.D2_2 (F := Ideal) (V c main_v9_0) i) := by
  funext i
  have h0 : (i 0).val < 4096 := (i 0).isLt
  have h1 : (i 1).val < 4096 := (i 1).isLt
  obtain ⟨d0, d1⟩ := pt2_div i
  unfold GD2
  rw [out2_2_eq, ValueIdx.eq_ix2 (off2 i)]
  refine (Cert.Math.pd2_entry _ _ (V c main_v9_0) _ _ (i 0) (i 1) (fun k => ?_) (fun k => ?_)).trans ?_
  · exact iblk2_0_apply V c (pt2 i) _ _ (by show (i 0).val = 1024 * ((pt2 i).val / 4) + (i 0).val % 1024; rw [d0]; omega) rfl
  · exact iblk2_1_apply V c (pt2 i) _ _ (by show (i 1).val = 1024 * ((pt2 i).val % 4) + (i 1).val % 1024; rw [d1]; omega) rfl
  · exact congrArg (fun j => Cert.Math.pdF (Cert.ReferenceIdeal.Hand.D2_2 (F := Ideal) (V c main_v9_0) j)) (ValueIdx.eq_ix2 i).symm

end Cert.KernelIdeal.Hand

end
-- ==== Proof.KI.V3.lean ====
import proofs.«135652_j20272245637753_1_alg».proof.Proof.KI.R3
import Idealize.ShloMosaic.Lib.Pipeline.Value
import Idealize.ShloMosaic.Lib.ValueIdx

/-! # Pipeline 3: from the blocks to the arrays

The result array of pipeline 3 after its 16 points, as one function of the region-entry contents: the element at
`(r, s)` lies in block `(r / 1024, s / 1024)`, which point `4 * (r / 1024) + s / 1024` of the row-major 4 x 4 grid
writes back, at offset `(r % 1024, s % 1024)`; it is that offset's element of what the body leaves in the output
buffer there, from row block `r / 1024` and row block `s / 1024` of the input array. The 16 blocks tile the array.
The input array is never written back. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## The index maps over the grid -/

/-- Point `t` of the grid is `(t / 4, t % 4)`: the output's block is `(t / 4, t % 4)`, window 0's row block is
    `t / 4` and window 1's is `t % 4` (decided over the 16 points). -/
theorem idx3 : ∀ t : Fin cfg3.N, win3_2.index t (0 : Fin 2) = t.val / 4 ∧ win3_2.index t (1 : Fin 2) = t.val % 4
    ∧ win3_0.index t (0 : Fin 2) = t.val / 4 ∧ win3_0.index t (1 : Fin 2) = 0
    ∧ win3_1.index t (0 : Fin 2) = t.val % 4 ∧ win3_1.index t (1 : Fin 2) = 0 :=
  (by decide +kernel : ∀ t : Fin grid3.N, _)

/-- The grid point whose output block holds array index `i`. -/
def pt3 (i : S4096x4096.Idx) : Fin cfg3.N :=
  ⟨4 * ((i 0).val / 1024) + (i 1).val / 1024, by
    have h0 : (i 0).val < 4096 := (i 0).isLt
    have h1 : (i 1).val < 4096 := (i 1).isLt
    rw [show cfg3.N = 16 from N_3]; omega⟩

theorem blk_size3 (a : Fin 2) : S1024x1024.size a = 1024 := by fin_cases a <;> rfl

/-- Where array index `i` sits inside its block. -/
def off3 (i : S4096x4096.Idx) : S1024x1024.Idx := fun a =>
  ⟨(i a).val % 1024, lt_of_lt_of_eq (Nat.mod_lt _ (by decide)) (blk_size3 a).symm⟩

/-! ## The result array -/

/-- What the result array ends holding: at each index, the element at its offset of what the body leaves in
    the output buffer at the point that owns the index's block. -/
def GD3 (c : Dev nD) : S4096x4096.Idx → Elt F .f32 := fun i =>
  out3_2 (iblk3 V c 0 (pt3 i)) (iblk3 V c 1 (pt3 i)) (off3 i)

/-- An element of the output's block at point `t` sits in the array at the block index times 1024 plus its own
    coordinate, so the point that owns it is `t` and its offset is itself. -/
theorem pt3_emb (t : Fin cfg3.N) (j : S1024x1024.Idx) : pt3 (((cfg3.win 2).blk t).view.emb j) = t := by
  obtain ⟨e0, e1, -⟩ := idx3 t
  have hN : t.val < 16 := lt_of_lt_of_eq t.isLt N_3
  have hj0 : (j 0).val < 1024 := (j 0).isLt
  have hj1 : (j 1).val < 1024 := (j 1).isLt
  apply Fin.ext
  show 4 * ((win3_2.index t (0 : Fin 2) * 1024 + 1 * (j 0).val) / 1024) + (win3_2.index t (1 : Fin 2) * 1024 + 1 * (j 1).val) / 1024 = t.val
  rw [e0, e1]; omega

theorem off3_emb (t : Fin cfg3.N) (j : S1024x1024.Idx) : off3 (((cfg3.win 2).blk t).view.emb j) = j := by
  have hj0 : (j 0).val < 1024 := (j 0).isLt
  have hj1 : (j 1).val < 1024 := (j 1).isLt
  funext a
  apply Fin.ext
  match a with
  | ⟨0, _⟩ => show (win3_2.index t (0 : Fin 2) * 1024 + 1 * (j 0).val) % 1024 = (j 0).val; omega
  | ⟨1, _⟩ => show (win3_2.index t (1 : Fin 2) * 1024 + 1 * (j 1).val) % 1024 = (j 1).val; omega

/-- `GD3` at an element of point `t`'s block is that element of what the body leaves there. -/
theorem GD3_emb (c : Dev nD) (t : Fin cfg3.N) (j : S1024x1024.Idx) :
    out3_2 (iblk3 V c 0 t) (iblk3 V c 1 t) j = GD3 V c (((cfg3.win 2).blk t).view.emb j) := by
  unfold GD3
  rw [pt3_emb, off3_emb]

/-- What point `t` writes back is block `t` of `GD3`. -/
theorem flushed3_eq (c : Dev nD) (t : Fin cfg3.N) :
    (dat3 V c).flushed 2 t = ((cfg3.win 2).blk t).view.read (Elt F) (GD3 V c) := by
  show (cfg3.win 2).cut (grid3.coords t) ((dat3 V c).after 2 t) = _
  rw [after3_2]
  funext j
  rw [View.read_apply, cast_eq]
  exact GD3_emb V c t j

/-- An index of the array is in point `t`'s block iff each coordinate is in the block's range on its axis. -/
theorem mem_blk3 (t : Fin cfg3.N) (i : S4096x4096.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v13).slice (win3_2.rect t)).set ↔ _
  rw [View.set_slice_whole, Rect.mem_set_unit]
  exact Iff.rfl

/-- Every index of the array is in the block of the point that owns it. -/
theorem cover3 (i : S4096x4096.Idx) :
    ∃ t : Fin cfg3.N, (cfg3.win 2).flush t = true ∧ i ∈ ((cfg3.win 2).blk t).view.set := by
  have h0 : (i 0).val < 4096 := (i 0).isLt
  have h1 : (i 1).val < 4096 := (i 1).isLt
  obtain ⟨e0, e1, -⟩ := idx3 (pt3 i)
  have hp : (pt3 i).val = 4 * ((i 0).val / 1024) + (i 1).val / 1024 := rfl
  refine ⟨pt3 i, flush3_2 _, ?_⟩
  rw [mem_blk3]
  intro a
  match a with
  | ⟨0, _⟩ => show win3_2.index (pt3 i) (0 : Fin 2) * 1024 ≤ (i 0).val ∧ (i 0).val < win3_2.index (pt3 i) (0 : Fin 2) * 1024 + 1024; rw [e0, hp]; omega
  | ⟨1, _⟩ => show win3_2.index (pt3 i) (1 : Fin 2) * 1024 ≤ (i 1).val ∧ (i 1).val < win3_2.index (pt3 i) (1 : Fin 2) * 1024 + 1024; rw [e1, hp]; omega

/-- The result array after the 16 points is `GD3`. -/
theorem final3 (c : Dev nD) : (dat3 V c).arrAt 2 cfg3.N = GD3 V c :=
  (dat3 V c).arrAt_eq_of_cover 2 (GD3 V c) (fun t _ => flushed3_eq V c t) cover3

/-- The input array, staged by windows 0 and 1 and never written back, is as the region found it. -/
theorem arr3_0 (c : Dev nD) : (dat3 V c).arrAt 0 cfg3.N = V c (Pipeline.arrRef spec3 0) :=
  ((dat3 V c).arrAt_in 0 rfl _).trans (A_eq3 V c 0)
theorem arr3_1 (c : Dev nD) : (dat3 V c).arrAt 1 cfg3.N = V c (Pipeline.arrRef spec3 1) :=
  ((dat3 V c).arrAt_in 1 rfl _).trans (A_eq3 V c 1)

/-! ## The input blocks as rows of the input array -/

/-- Window 0's block at point `t` is rows `1024 * (t / 4) …` of the input array, -/
theorem iblk3_0_apply (c : Dev nD) (t : Fin cfg3.N) (x : S1024x784.Idx) (k : S4096x784.Idx)
    (hk0 : (k 0).val = 1024 * (t.val / 4) + (x 0).val) (hk1 : (k 1).val = (x 1).val) :
    (iblk3 V c 0 t : Vec F S1024x784 .f32) x = (V c (Pipeline.arrRef spec3 0) : S4096x784.Idx → Elt F .f32) k := by
  obtain ⟨-, -, e0, e1, -⟩ := idx3 t
  unfold iblk3
  rw [View.read_apply]
  show (V c (Pipeline.arrRef spec3 0) : S4096x784.Idx → Elt F .f32) _ = _
  congr 1
  funext a
  apply Fin.ext
  match a with
  | ⟨0, _⟩ => show win3_0.index t (0 : Fin 2) * 1024 + 1 * (x 0).val = (k 0).val; rw [e0, hk0]; omega
  | ⟨1, _⟩ => show win3_0.index t (1 : Fin 2) * S1024x784.size 1 + 1 * (x 1).val = (k 1).val; rw [e1, hk1]; omega

/-- and window 1's is rows `1024 * (t % 4) …` of the same array. -/
theorem iblk3_1_apply (c : Dev nD) (t : Fin cfg3.N) (x : S1024x784.Idx) (k : S4096x784.Idx)
    (hk0 : (k 0).val = 1024 * (t.val % 4) + (x 0).val) (hk1 : (k 1).val = (x 1).val) :
    (iblk3 V c 1 t : Vec F S1024x784 .f32) x = (V c (Pipeline.arrRef spec3 1) : S4096x784.Idx → Elt F .f32) k := by
  obtain ⟨-, -, -, -, e0, e1⟩ := idx3 t
  unfold iblk3
  rw [View.read_apply]
  show (V c (Pipeline.arrRef spec3 1) : S4096x784.Idx → Elt F .f32) _ = _
  congr 1
  funext a
  apply Fin.ext
  match a with
  | ⟨0, _⟩ => show win3_1.index t (0 : Fin 2) * 1024 + 1 * (x 0).val = (k 0).val; rw [e0, hk0]; omega
  | ⟨1, _⟩ => show win3_1.index t (1 : Fin 2) * S1024x784.size 1 + 1 * (x 1).val = (k 1).val; rw [e1, hk1]; omega

/-! ## The input blocks at explicit coordinates

Point `t` of the grid is `(t / 4, t % 4)`: `t / 4` is its row block (window 0, and the output's rows), `t % 4`
its column block (window 1, and the output's columns). -/

/-- Row `r` of window 0's block at point `t` is row `1024 * (t / 4) + r` of the input array, -/
theorem iblk3_0_ix2 (c : Dev nD) (t : Fin cfg3.N) (r : Fin 1024) (k : Fin 784) :
    (iblk3 V c 0 t : Vec F S1024x784 .f32) (ValueIdx.ix2 r k)
      = (V c main_v9_1 : S4096x784.Idx → Elt F .f32) (ValueIdx.ix2 (⟨1024 * (t.val / 4) + r.val, by
          have h := lt_of_lt_of_eq t.isLt N_3; have hr := r.isLt; omega⟩ : Fin 4096) k) :=
  iblk3_0_apply V c t _ _ rfl rfl

/-- and row `s` of window 1's block is row `1024 * (t % 4) + s` of the same array. -/
theorem iblk3_1_ix2 (c : Dev nD) (t : Fin cfg3.N) (s : Fin 1024) (k : Fin 784) :
    (iblk3 V c 1 t : Vec F S1024x784 .f32) (ValueIdx.ix2 s k)
      = (V c main_v9_1 : S4096x784.Idx → Elt F .f32) (ValueIdx.ix2 (⟨1024 * (t.val % 4) + s.val, by
          have hs := s.isLt; omega⟩ : Fin 4096) k) :=
  iblk3_1_apply V c t _ _ rfl rfl

/-- The point that owns array index `i` has row block `i 0 / 1024` and column block `i 1 / 1024`. -/
theorem pt3_div (i : S4096x4096.Idx) : (pt3 i).val / 4 = (i 0).val / 1024 ∧ (pt3 i).val % 4 = (i 1).val / 1024 := by
  have h0 : (i 0).val < 4096 := (i 0).isLt
  have h1 : (i 1).val < 4096 := (i 1).isLt
  have hp : (pt3 i).val = 4 * ((i 0).val / 1024) + (i 1).val / 1024 := rfl
  rw [hp]; omega

end Cert.KernelIdeal.Hand

end
-- ==== Proof.KI.D3.lean ====
import proofs.«135652_j20272245637753_1_alg».proof.Proof.KI.V3
import proofs.«135652_j20272245637753_1_alg».proof.Proof.Ref.Stages
import proofs.«135652_j20272245637753_1_alg».proof.Proof.Math.Pdist

/-! # Pipeline 3: the result array as pairwise distances

The result array of pipeline 3 over the extended reals, entry by entry: the clamped square root of the squared
distance of two rows of the input array as the region finds it. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

theorem zero_off3 : (![0, 0] : Fin 2 → Nat) = fun _ => 0 := funext fun a => by fin_cases a <;> rfl

/-- The body's one store is of the whole output buffer and its two loads are of the whole input buffers: what it
    leaves is its payload of the two row blocks. -/
theorem out3_2_eq {F : FTy → Type} [FloatOps F] (x0 x1 : Vec F S1024x784 .f32) : out3_2 x0 x1 = k3_pay1 x0 x1 := by
  unfold out3_2
  rw [View.canon_unit_zero zero_off3]
  simp only [View.ld_unit_zero (S := S1024x784) zero_off3]

variable (V : (c : Dev nD) → (b : Ref sig .tc) → Buf (Elt Ideal) ((c : Thread nD τ).loc b))

/-- The result array of pipeline 3: at `(P, Q)` the clamped square root of the squared distance of rows `P` and
    `Q` of the input array. Index `(P, Q)` lies in the block of the point with row block `P / 1024` and column
    block `Q / 1024`, at offset `(P % 1024, Q % 1024)`; row `P % 1024` of window 0's block there is row `P` of the
    array and row `Q % 1024` of window 1's is row `Q`. -/
theorem GD3_eq (c : Dev nD) :
    GD3 (F := Ideal) V c = fun i => Cert.Math.pdF (Cert.ReferenceIdeal.Hand.D2_784 (F := Ideal) (V c main_v9_1) i) := by
  funext i
  have h0 : (i 0).val < 4096 := (i 0).isLt
  have h1 : (i 1).val < 4096 := (i 1).isLt
  obtain ⟨d0, d1⟩ := pt3_div i
  unfold GD3
  rw [out3_2_eq, ValueIdx.eq_ix2 (off3 i)]
  refine (Cert.Math.pd3_entry _ _ (V c main_v9_1) _ _ (i 0) (i 1) (fun k => ?_) (fun k => ?_)).trans ?_
  · exact iblk3_0_apply V c (pt3 i) _ _ (by show (i 0).val = 1024 * ((pt3 i).val / 4) + (i 0).val % 1024; rw [d0]; omega) rfl
  · exact iblk3_1_apply V c (pt3 i) _ _ (by show (i 1).val = 1024 * ((pt3 i).val % 4) + (i 1).val % 1024; rw [d1]; omega) rfl
  · exact congrArg (fun j => Cert.Math.pdF (Cert.ReferenceIdeal.Hand.D2_784 (F := Ideal) (V c main_v9_1) j)) (ValueIdx.eq_ix2 i).symm

end Cert.KernelIdeal.Hand

end
-- ==== Proof.KI.Tail.lean ====
import proofs.«135652_j20272245637753_1_alg».proof.Proof.Gen.KernelIdeal.Regions
import Idealize.ShloMosaic.Lib.StableHlo.Run
import proofs.«135652_j20272245637753_1_alg».proof.Proof.Ref.Stages

/-! The host statements after the four kernels: the index pairs of the strict upper triangle, computed once
from constants by the same operations as the reference's, and the three gathers of the distance matrices at
them; the two results of the first kernel that no later statement writes. -/

set_option maxRecDepth 16384

noncomputable section

namespace Cert.KernelIdeal.Hand

open Idealize.ShloMosaic Idealize.ShloMosaic.TcCoe Idealize.SL.Sem Idealize.ShloMosaic.StableHlo
open Cert.KernelIdeal
open Cert.KernelIdeal.Gen (hostOps0 hostOps1 hostOps4 hostOps4_1 hostOps4_2 hostOps4_3 hostOps4_4 hostOps4_5 hostOps4_6 hostOps4_7 hostOps4_8 hostOps4_9 hostOps4_10 hostOps4_11 hostOps4_12 hostOps4_13 hostOps4_14 hostOps4_15 hostOps4_16 hostOps0_W hostOps1_W hostOps4_W hostOps4_1_W hostOps4_2_W hostOps4_3_W hostOps4_4_W hostOps4_5_W hostOps4_6_W hostOps4_7_W hostOps4_8_W hostOps4_9_W hostOps4_10_W hostOps4_11_W hostOps4_12_W hostOps4_13_W hostOps4_14_W hostOps4_15_W hostOps4_16_W hostOps0_writes hostOps1_writes hostOps4_writes hostOps4_1_writes hostOps4_2_writes hostOps4_3_writes hostOps4_4_writes hostOps4_5_writes hostOps4_6_writes hostOps4_7_writes hostOps4_8_writes hostOps4_9_writes hostOps4_10_writes hostOps4_11_writes hostOps4_12_writes hostOps4_13_writes hostOps4_14_writes hostOps4_15_writes hostOps4_16_writes V0 V1 V2 V3 V4 V5 V6 V7 V8 V9 V10 V11 V12 V13 V14 V15 V16 V17 V18 V19 V20 V21 V22 V23 V1_of V2_of V3_of V4_of V5_of V6_of V7_of V8_of V9_of V10_of V11_of V12_of V13_of V14_of V15_of V16_of V17_of V18_of V19_of V20_of V21_of V22_of V23_of Outs)
open Cert.KernelIdeal.Facts₀ Cert.KernelIdeal.Facts

variable {F : FTy → Type} [FloatOps F]

local notation "𝕋[" S ", " e "]" => BufTy.Contents (Elt F) (BufTy.mk S e)

/-! ## One stretch at a time, from any contents -/

attribute [local irreducible] Host.scatter Host.gather Host.reduceWindow

section Stretch
variable (W : Valuation τ sig (Elt F))

theorem s4 : StableHlo.after (hostOps4 (F := F)) W (Proc.devRef .tc main_v14)
    = broadcastInDim S4096x4096 ![] bcast_S_S4096x4096 (constant S_ .f32 0x3F800000#32) := by
  after_results_simp
  try simp only [TRef.toBuf, TRef.ofBuf, cast_eq]
  all_goals rfl

theorem s4_1 : StableHlo.after (hostOps4_1 (F := F)) W (Proc.devRef .tc main_v15)
    = select (cmpi .sge (addi (iotaInDim S4096x4096 32 0) (broadcastInDim S4096x4096 ![] bcast_S_S4096x4096 (constantI S_ 32 0#32)))
        (iotaInDim S4096x4096 32 1))
      (broadcastInDim S4096x4096 ![] bcast_S_S4096x4096 (constant S_ .f32 0x00000000#32)) (W (Proc.devRef .tc main_v14)) := by
  after_results_simp
  try simp only [TRef.toBuf, TRef.ofBuf, cast_eq]
  all_goals rfl

theorem s4_2 : StableHlo.after (hostOps4_2 (F := F)) W (Proc.devRef .tc main_v17)
    = cmpf (F := F) .une (W (Proc.devRef .tc main_v15)) (broadcastInDim S4096x4096 ![] bcast_S_S4096x4096 (constant S_ .f32 0x00000000#32)) := by
  after_results_simp
  try simp only [TRef.toBuf, TRef.ofBuf, cast_eq]
  all_goals rfl

theorem s4_3 : StableHlo.after (hostOps4_3 (F := F)) W (Proc.devRef .tc main_v18)
    = Host.reduceWindow IntOp.addi ![16777216] ![1] ![16777215] ![0]
        (extui 32 (shapeCast S16777216 (W (Proc.devRef .tc main_v17)) shapeCasts_S4096x4096_S16777216) natLt_1_32)
        (broadcastInDim S_ ![] bcast_S_S_ (constantI S_ 32 0#32))
        reduceWindows_S16777216_S16777216_w16777216s1p16777215_0 h_S_ := by
  after_results_simp
  try simp only [TRef.toBuf, TRef.ofBuf, cast_eq]
  all_goals rfl

theorem s4_4a : StableHlo.after (hostOps4_4 (F := F)) W (Proc.devRef .tc main_v19)
    = broadcastInDim S8386560 ![] bcast_S_S8386560 (constantI S_ 32 0#32) := by
  after_results_simp
  try simp only [TRef.toBuf, TRef.ofBuf, cast_eq]
  all_goals rfl

theorem s4_4b : StableHlo.after (hostOps4_4 (F := F)) W (Proc.devRef .tc main_c_1) = constantI S_ 32 0#32 := by
  after_results_simp
  try simp only [TRef.toBuf, TRef.ofBuf, cast_eq]
  all_goals rfl

theorem s4_5 : StableHlo.after (hostOps4_5 (F := F)) W (Proc.devRef .tc main_v20)
    = maxsi (broadcastInDim S16777216 ![] bcast_S_S16777216 (W (Proc.devRef .tc main_c_1))) (W (Proc.devRef .tc main_v18)) := by
  after_results_simp
  try simp only [TRef.toBuf, TRef.ofBuf, cast_eq]
  all_goals rfl

theorem s4_6 : StableHlo.after (hostOps4_6 (F := F)) W (Proc.devRef .tc main_v28)
    = Host.scatter scatter_S8386560_S16777216x1_S16777216_n_0_0_1 IntOp.addi (W (Proc.devRef .tc main_v19))
        (broadcastInDim S16777216x1 ![0] bcast_S16777216_S16777216x1_0
          (select (cmpi .slt (W (Proc.devRef .tc main_v20)) (broadcastInDim S16777216 ![] bcast_S_S16777216 (constantI S_ 32 0#32)))
            (addi (W (Proc.devRef .tc main_v20)) (broadcastInDim S16777216 ![] bcast_S_S16777216 (constantI S_ 32 8386560#32)))
            (W (Proc.devRef .tc main_v20))))
        (broadcastInDim S16777216 ![] bcast_S_S16777216 (constantI S_ 32 1#32)) := by
  after_results_simp
  try simp only [TRef.toBuf, TRef.ofBuf, cast_eq]
  all_goals rfl

theorem s4_7 : StableHlo.after (hostOps4_7 (F := F)) W (Proc.devRef .tc main_v29)
    = Host.reduceWindow IntOp.addi ![8386560] ![1] ![8386559] ![0] (W (Proc.devRef .tc main_v28))
        (broadcastInDim S_ ![] bcast_S_S_ (constantI S_ 32 0#32))
        reduceWindows_S8386560_S8386560_w8386560s1p8386559_0 h_S_ := by
  after_results_simp
  try simp only [TRef.toBuf, TRef.ofBuf, cast_eq]
  all_goals rfl

theorem s4_8 : StableHlo.after (hostOps4_8 (F := F)) W (Proc.devRef .tc main_c_5) = constantI S_ 32 4096#32 := by
  after_results_simp
  try simp only [TRef.toBuf, TRef.ofBuf, cast_eq]
  all_goals rfl

theorem s4_9 : StableHlo.after (hostOps4_9 (F := F)) W (Proc.devRef .tc main_v30) = Cert.ReferenceIdeal.Hand.floorDiv (W (Proc.devRef .tc main_v29)) (W (Proc.devRef .tc main_c_5)) := by
  after_results_simp
  try simp only [TRef.toBuf, TRef.ofBuf, cast_eq]
  all_goals rfl

theorem s4_10 : StableHlo.after (hostOps4_10 (F := F)) W (Proc.devRef .tc main_c_6) = constantI S_ 32 4096#32 := by
  after_results_simp
  try simp only [TRef.toBuf, TRef.ofBuf, cast_eq]
  all_goals rfl

theorem s4_11 : StableHlo.after (hostOps4_11 (F := F)) W (Proc.devRef .tc main_v31) = Cert.ReferenceIdeal.Hand.floorRem (W (Proc.devRef .tc main_v30)) (W (Proc.devRef .tc main_c_6)) := by
  after_results_simp
  try simp only [TRef.toBuf, TRef.ofBuf, cast_eq]
  all_goals rfl

theorem s4_12 : StableHlo.after (hostOps4_12 (F := F)) W (Proc.devRef .tc main_c_7) = constantI S_ 32 1#32 := by
  after_results_simp
  try simp only [TRef.toBuf, TRef.ofBuf, cast_eq]
  all_goals rfl

theorem s4_13 : StableHlo.after (hostOps4_13 (F := F)) W (Proc.devRef .tc main_v32) = Cert.ReferenceIdeal.Hand.floorDiv (W (Proc.devRef .tc main_v29)) (W (Proc.devRef .tc main_c_7)) := by
  after_results_simp
  try simp only [TRef.toBuf, TRef.ofBuf, cast_eq]
  all_goals rfl

theorem s4_14 : StableHlo.after (hostOps4_14 (F := F)) W (Proc.devRef .tc main_c_8) = constantI S_ 32 4096#32 := by
  after_results_simp
  try simp only [TRef.toBuf, TRef.ofBuf, cast_eq]
  all_goals rfl

theorem s4_15 : StableHlo.after (hostOps4_15 (F := F)) W (Proc.devRef .tc main_v33) = Cert.ReferenceIdeal.Hand.floorRem (W (Proc.devRef .tc main_v32)) (W (Proc.devRef .tc main_c_8)) := by
  after_results_simp
  try simp only [TRef.toBuf, TRef.ofBuf, cast_eq]
  all_goals rfl

end Stretch

section Stretch
variable (W : Valuation τ sig (Elt F))

theorem s1 : StableHlo.after (hostOps1 (F := F)) W (Proc.devRef .tc main_v10)
    = shapeCast S4096x1x28x28 (W (Proc.devRef .tc main_v9_1)) shapeCasts_S4096x784_S4096x1x28x28 := by
  after_results_simp
  try simp only [TRef.toBuf, TRef.ofBuf, cast_eq]
  all_goals rfl

theorem s4_16a : StableHlo.after (hostOps4_16 (F := F)) W (Proc.devRef .tc main_v47)
    = Host.gather gather_S4096x4096_S8386560x2_S8386560_n_01_n_n_01_1_11 (W (Proc.devRef .tc main_v11))
        (concatenate S8386560x2 1
          [⟨S8386560x1, broadcastInDim S8386560x1 ![0] bcast_S8386560_S8386560x1_0 (Cert.ReferenceIdeal.Hand.wrapNeg (W (Proc.devRef .tc main_v31)))⟩,
           ⟨S8386560x1, broadcastInDim S8386560x1 ![0] bcast_S8386560_S8386560x1_0 (Cert.ReferenceIdeal.Hand.wrapNeg (W (Proc.devRef .tc main_v33)))⟩]
          concatenates_S8386560x1_S8386560x1_S8386560x2_d1) := by
  after_results_simp
  try simp only [TRef.toBuf, TRef.ofBuf, cast_eq]
  all_goals rfl

theorem s4_16b : StableHlo.after (hostOps4_16 (F := F)) W (Proc.devRef .tc main_v61)
    = Host.gather gather_S4096x4096_S8386560x2_S8386560_n_01_n_n_01_1_11 (W (Proc.devRef .tc main_v12))
        (concatenate S8386560x2 1
          [⟨S8386560x1, broadcastInDim S8386560x1 ![0] bcast_S8386560_S8386560x1_0 (Cert.ReferenceIdeal.Hand.wrapNeg (W (Proc.devRef .tc main_v31)))⟩,
           ⟨S8386560x1, broadcastInDim S8386560x1 ![0] bcast_S8386560_S8386560x1_0 (Cert.ReferenceIdeal.Hand.wrapNeg (W (Proc.devRef .tc main_v33)))⟩]
          concatenates_S8386560x1_S8386560x1_S8386560x2_d1) := by
  after_results_simp
  try simp only [TRef.toBuf, TRef.ofBuf, cast_eq]
  all_goals rfl

theorem s4_16c : StableHlo.after (hostOps4_16 (F := F)) W (Proc.devRef .tc main_v75)
    = Host.gather gather_S4096x4096_S8386560x2_S8386560_n_01_n_n_01_1_11 (W (Proc.devRef .tc main_v13))
        (concatenate S8386560x2 1
          [⟨S8386560x1, broadcastInDim S8386560x1 ![0] bcast_S8386560_S8386560x1_0 (Cert.ReferenceIdeal.Hand.wrapNeg (W (Proc.devRef .tc main_v31)))⟩,
           ⟨S8386560x1, broadcastInDim S8386560x1 ![0] bcast_S8386560_S8386560x1_0 (Cert.ReferenceIdeal.Hand.wrapNeg (W (Proc.devRef .tc main_v33)))⟩]
          concatenates_S8386560x1_S8386560x1_S8386560x2_d1) := by
  after_results_simp
  try simp only [TRef.toBuf, TRef.ofBuf, cast_eq]
  all_goals rfl

end Stretch

/-! ## The chain over the generated valuations -/

section Chain
variable (m : (ℓ : Loc nD τ sig) → Buf (Elt F) ℓ) (outs : Outs (F := F)) (c : Dev nD)

theorem k14 : V7 m outs c (Proc.devRef .tc main_v14) = (broadcastInDim S4096x4096 ![] bcast_S_S4096x4096 (constant (F := F) S_ .f32 0x3F800000#32)) := s4 (V6 m outs c)

theorem k15 : V8 m outs c (Proc.devRef .tc main_v15) = (select (cmpi .sge (addi (iotaInDim S4096x4096 32 0) (broadcastInDim S4096x4096 ![] bcast_S_S4096x4096 (constantI S_ 32 0#32)))
        (iotaInDim S4096x4096 32 1))
      (broadcastInDim S4096x4096 ![] bcast_S_S4096x4096 (constant (F := F) S_ .f32 0x00000000#32)) (broadcastInDim S4096x4096 ![] bcast_S_S4096x4096 (constant (F := F) S_ .f32 0x3F800000#32))) := by
  have h := s4_1 (V7 m outs c)
  rw [k14 m outs c] at h
  exact h

theorem k17 : V9 m outs c (Proc.devRef .tc main_v17) = Cert.ReferenceIdeal.Hand.triuMask (F := F) := by
  have h := s4_2 (V8 m outs c)
  rw [k15 m outs c] at h
  exact h

theorem k18 : V10 m outs c (Proc.devRef .tc main_v18) = Cert.ReferenceIdeal.Hand.maskCount (F := F) := by
  have h := s4_3 (V9 m outs c)
  rw [k17 m outs c] at h
  exact h

theorem k19 : V11 m outs c (Proc.devRef .tc main_v19) = (broadcastInDim S8386560 ![] bcast_S_S8386560 (constantI S_ 32 0#32)) := s4_4a (V10 m outs c)
theorem kc1 : V11 m outs c (Proc.devRef .tc main_c_1) = (constantI S_ 32 0#32) := s4_4b (V10 m outs c)
theorem k18a : V11 m outs c (Proc.devRef .tc main_v18) = Cert.ReferenceIdeal.Hand.maskCount (F := F) := (V11_of m outs c main_v18 (by decide)).trans (k18 m outs c)
theorem k20 : V12 m outs c (Proc.devRef .tc main_v20) = Cert.ReferenceIdeal.Hand.maskClip (F := F) := by
  have h := s4_5 (V11 m outs c)
  rw [kc1 m outs c, k18a m outs c] at h
  exact h

theorem k19a : V12 m outs c (Proc.devRef .tc main_v19) = (broadcastInDim S8386560 ![] bcast_S_S8386560 (constantI S_ 32 0#32)) := (V12_of m outs c main_v19 (by decide)).trans (k19 m outs c)
theorem k28 : V13 m outs c (Proc.devRef .tc main_v28) = Cert.ReferenceIdeal.Hand.scatOnes (F := F) := by
  have h := s4_6 (V12 m outs c)
  rw [k19a m outs c, k20 m outs c] at h
  exact h

theorem k29 : V14 m outs c (Proc.devRef .tc main_v29) = Cert.ReferenceIdeal.Hand.flatPos (F := F) := by
  have h := s4_7 (V13 m outs c)
  rw [k28 m outs c] at h
  exact h

theorem kc5 : V15 m outs c (Proc.devRef .tc main_c_5) = (constantI S_ 32 4096#32) := s4_8 (V14 m outs c)
theorem k29a : V15 m outs c (Proc.devRef .tc main_v29) = Cert.ReferenceIdeal.Hand.flatPos (F := F) := (V15_of m outs c main_v29 (by decide)).trans (k29 m outs c)
theorem k30 : V16 m outs c (Proc.devRef .tc main_v30) = Cert.ReferenceIdeal.Hand.floorDiv (Cert.ReferenceIdeal.Hand.flatPos (F := F)) (constantI S_ 32 4096#32) := by
  have h := s4_9 (V15 m outs c)
  rw [k29a m outs c, kc5 m outs c] at h
  exact h

theorem kc6 : V17 m outs c (Proc.devRef .tc main_c_6) = (constantI S_ 32 4096#32) := s4_10 (V16 m outs c)
theorem k30a : V17 m outs c (Proc.devRef .tc main_v30) = Cert.ReferenceIdeal.Hand.floorDiv (Cert.ReferenceIdeal.Hand.flatPos (F := F)) (constantI S_ 32 4096#32) := (V17_of m outs c main_v30 (by decide)).trans (k30 m outs c)
theorem k31 : V18 m outs c (Proc.devRef .tc main_v31) = (Cert.ReferenceIdeal.Hand.floorRem (Cert.ReferenceIdeal.Hand.floorDiv (Cert.ReferenceIdeal.Hand.flatPos (F := F)) (constantI S_ 32 4096#32)) (constantI S_ 32 4096#32)) := by
  have h := s4_11 (V17 m outs c)
  rw [k30a m outs c, kc6 m outs c] at h
  exact h

theorem kc7 : V19 m outs c (Proc.devRef .tc main_c_7) = (constantI S_ 32 1#32) := s4_12 (V18 m outs c)
theorem k29b : V19 m outs c (Proc.devRef .tc main_v29) = Cert.ReferenceIdeal.Hand.flatPos (F := F) := (V19_of m outs c main_v29 (by decide)).trans ((V18_of m outs c main_v29 (by decide)).trans ((V17_of m outs c main_v29 (by decide)).trans ((V16_of m outs c main_v29 (by decide)).trans (k29a m outs c))))
theorem k32 : V20 m outs c (Proc.devRef .tc main_v32) = Cert.ReferenceIdeal.Hand.floorDiv (Cert.ReferenceIdeal.Hand.flatPos (F := F)) (constantI S_ 32 1#32) := by
  have h := s4_13 (V19 m outs c)
  rw [k29b m outs c, kc7 m outs c] at h
  exact h

theorem kc8 : V21 m outs c (Proc.devRef .tc main_c_8) = (constantI S_ 32 4096#32) := s4_14 (V20 m outs c)
theorem k32a : V21 m outs c (Proc.devRef .tc main_v32) = Cert.ReferenceIdeal.Hand.floorDiv (Cert.ReferenceIdeal.Hand.flatPos (F := F)) (constantI S_ 32 1#32) := (V21_of m outs c main_v32 (by decide)).trans (k32 m outs c)
theorem k33 : V22 m outs c (Proc.devRef .tc main_v33) = (Cert.ReferenceIdeal.Hand.floorRem (Cert.ReferenceIdeal.Hand.floorDiv (Cert.ReferenceIdeal.Hand.flatPos (F := F)) (constantI S_ 32 1#32)) (constantI S_ 32 4096#32)) := by
  have h := s4_15 (V21 m outs c)
  rw [k32a m outs c, kc8 m outs c] at h
  exact h

theorem k31a : V22 m outs c (Proc.devRef .tc main_v31) = (Cert.ReferenceIdeal.Hand.floorRem (Cert.ReferenceIdeal.Hand.floorDiv (Cert.ReferenceIdeal.Hand.flatPos (F := F)) (constantI S_ 32 4096#32)) (constantI S_ 32 4096#32)) := (V22_of m outs c main_v31 (by decide)).trans ((V21_of m outs c main_v31 (by decide)).trans ((V20_of m outs c main_v31 (by decide)).trans ((V19_of m outs c main_v31 (by decide)).trans (k31 m outs c))))
theorem keep_v11 : V22 m outs c (Proc.devRef .tc main_v11) = V6 m outs c (Proc.devRef .tc main_v11) := (V22_of m outs c main_v11 (by decide)).trans ((V21_of m outs c main_v11 (by decide)).trans ((V20_of m outs c main_v11 (by decide)).trans ((V19_of m outs c main_v11 (by decide)).trans ((V18_of m outs c main_v11 (by decide)).trans ((V17_of m outs c main_v11 (by decide)).trans ((V16_of m outs c main_v11 (by decide)).trans ((V15_of m outs c main_v11 (by decide)).trans ((V14_of m outs c main_v11 (by decide)).trans ((V13_of m outs c main_v11 (by decide)).trans ((V12_of m outs c main_v11 (by decide)).trans ((V11_of m outs c main_v11 (by decide)).trans ((V10_of m outs c main_v11 (by decide)).trans ((V9_of m outs c main_v11 (by decide)).trans ((V8_of m outs c main_v11 (by decide)).trans ((V7_of m outs c main_v11 (by decide)))))))))))))))))
theorem keep_v12 : V22 m outs c (Proc.devRef .tc main_v12) = V6 m outs c (Proc.devRef .tc main_v12) := (V22_of m outs c main_v12 (by decide)).trans ((V21_of m outs c main_v12 (by decide)).trans ((V20_of m outs c main_v12 (by decide)).trans ((V19_of m outs c main_v12 (by decide)).trans ((V18_of m outs c main_v12 (by decide)).trans ((V17_of m outs c main_v12 (by decide)).trans ((V16_of m outs c main_v12 (by decide)).trans ((V15_of m outs c main_v12 (by decide)).trans ((V14_of m outs c main_v12 (by decide)).trans ((V13_of m outs c main_v12 (by decide)).trans ((V12_of m outs c main_v12 (by decide)).trans ((V11_of m outs c main_v12 (by decide)).trans ((V10_of m outs c main_v12 (by decide)).trans ((V9_of m outs c main_v12 (by decide)).trans ((V8_of m outs c main_v12 (by decide)).trans ((V7_of m outs c main_v12 (by decide)))))))))))))))))
theorem keep_v13 : V22 m outs c (Proc.devRef .tc main_v13) = V6 m outs c (Proc.devRef .tc main_v13) := (V22_of m outs c main_v13 (by decide)).trans ((V21_of m outs c main_v13 (by decide)).trans ((V20_of m outs c main_v13 (by decide)).trans ((V19_of m outs c main_v13 (by decide)).trans ((V18_of m outs c main_v13 (by decide)).trans ((V17_of m outs c main_v13 (by decide)).trans ((V16_of m outs c main_v13 (by decide)).trans ((V15_of m outs c main_v13 (by decide)).trans ((V14_of m outs c main_v13 (by decide)).trans ((V13_of m outs c main_v13 (by decide)).trans ((V12_of m outs c main_v13 (by decide)).trans ((V11_of m outs c main_v13 (by decide)).trans ((V10_of m outs c main_v13 (by decide)).trans ((V9_of m outs c main_v13 (by decide)).trans ((V8_of m outs c main_v13 (by decide)).trans ((V7_of m outs c main_v13 (by decide)))))))))))))))))

/-- The first gather: the distances of the images at the index pairs of the strict upper triangle. -/
theorem V23_main_v47 : V23 m outs c main_v47 = Host.gather gather_S4096x4096_S8386560x2_S8386560_n_01_n_n_01_1_11 (V6 m outs c main_v11) (Cert.ReferenceIdeal.Hand.IDX (F := F)) := by
  have h := s4_16a (V22 m outs c)
  rw [k31a m outs c, k33 m outs c, keep_v11 m outs c] at h
  exact h

/-- The second gather: the distances of the codes. -/
theorem V23_main_v61 : V23 m outs c main_v61 = Host.gather gather_S4096x4096_S8386560x2_S8386560_n_01_n_n_01_1_11 (V6 m outs c main_v12) (Cert.ReferenceIdeal.Hand.IDX (F := F)) := by
  have h := s4_16b (V22 m outs c)
  rw [k31a m outs c, k33 m outs c, keep_v12 m outs c] at h
  exact h

/-- The third gather: the distances of the reconstructions. -/
theorem V23_main_v75 : V23 m outs c main_v75 = Host.gather gather_S4096x4096_S8386560x2_S8386560_n_01_n_n_01_1_11 (V6 m outs c main_v13) (Cert.ReferenceIdeal.Hand.IDX (F := F)) := by
  have h := s4_16c (V22 m outs c)
  rw [k31a m outs c, k33 m outs c, keep_v13 m outs c] at h
  exact h

/-- The reconstruction as images: the first kernel's second result read as [4096,1,28,28]; no later statement writes it. -/
theorem V23_main_v10 : V23 m outs c main_v10
    = shapeCast S4096x1x28x28 (V2 m outs c main_v9_1) shapeCasts_S4096x784_S4096x1x28x28 :=
  (V23_of m outs c main_v10 (by decide)).trans ((V22_of m outs c main_v10 (by decide)).trans ((V21_of m outs c main_v10 (by decide)).trans ((V20_of m outs c main_v10 (by decide)).trans ((V19_of m outs c main_v10 (by decide)).trans ((V18_of m outs c main_v10 (by decide)).trans ((V17_of m outs c main_v10 (by decide)).trans ((V16_of m outs c main_v10 (by decide)).trans ((V15_of m outs c main_v10 (by decide)).trans ((V14_of m outs c main_v10 (by decide)).trans ((V13_of m outs c main_v10 (by decide)).trans ((V12_of m outs c main_v10 (by decide)).trans ((V11_of m outs c main_v10 (by decide)).trans ((V10_of m outs c main_v10 (by decide)).trans ((V9_of m outs c main_v10 (by decide)).trans ((V8_of m outs c main_v10 (by decide)).trans ((V7_of m outs c main_v10 (by decide)).trans ((V6_of m outs c main_v10 (by decide)).trans ((V5_of m outs c main_v10 (by decide)).trans ((V4_of m outs c main_v10 (by decide)).trans (s1 (V2 m outs c)))))))))))))))))))))

/-- The codes: the first kernel's first result; no later statement writes it. -/
theorem V23_main_v9_0 : V23 m outs c main_v9_0 = V2 m outs c main_v9_0 :=
  (V23_of m outs c main_v9_0 (by decide)).trans ((V22_of m outs c main_v9_0 (by decide)).trans ((V21_of m outs c main_v9_0 (by decide)).trans ((V20_of m outs c main_v9_0 (by decide)).trans ((V19_of m outs c main_v9_0 (by decide)).trans ((V18_of m outs c main_v9_0 (by decide)).trans ((V17_of m outs c main_v9_0 (by decide)).trans ((V16_of m outs c main_v9_0 (by decide)).trans ((V15_of m outs c main_v9_0 (by decide)).trans ((V14_of m outs c main_v9_0 (by decide)).trans ((V13_of m outs c main_v9_0 (by decide)).trans ((V12_of m outs c main_v9_0 (by decide)).trans ((V11_of m outs c main_v9_0 (by decide)).trans ((V10_of m outs c main_v9_0 (by decide)).trans ((V9_of m outs c main_v9_0 (by decide)).trans ((V8_of m outs c main_v9_0 (by decide)).trans ((V7_of m outs c main_v9_0 (by decide)).trans ((V6_of m outs c main_v9_0 (by decide)).trans ((V5_of m outs c main_v9_0 (by decide)).trans ((V4_of m outs c main_v9_0 (by decide)).trans ((V3_of m outs c main_v9_0 (by decide))))))))))))))))))))))

end Chain

end Cert.KernelIdeal.Hand

end
-- ==== Proof.KI.Res.lean ====
import proofs.«135652_j20272245637753_1_alg».proof.Proof.KI.Regs
import proofs.«135652_j20272245637753_1_alg».proof.Proof.KI.V0
import proofs.«135652_j20272245637753_1_alg».proof.Proof.KI.Z0
import proofs.«135652_j20272245637753_1_alg».proof.Proof.KI.D1
import proofs.«135652_j20272245637753_1_alg».proof.Proof.KI.D2
import proofs.«135652_j20272245637753_1_alg».proof.Proof.KI.D3
import proofs.«135652_j20272245637753_1_alg».proof.Proof.KI.Tail
import proofs.«135652_j20272245637753_1_alg».proof.Proof.Math.Pdist
import proofs.«135652_j20272245637753_1_alg».proof.Proof.Ref.Stages

/-! # The five results over the extended reals

What the run leaves in the five result buffers, each as the reference's composite of the launch arrays: the code
(the encoder), the reconstruction as images (the decoder of the code), and the clamped square roots of the
pairwise squared distances of the input rows, of the codes and of the reconstructions, gathered at the pairs
`(i, j)`, `i < j`. Each distance call's array is the entrywise clamped root of the squared-distance matrix of the
array it was handed; the gather commutes with an entrywise map. -/

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-! ## The encoder's and the decoder's arrays -/

/-- The code array the first call leaves is the reference's encoder of the launch arrays: the call finds the images
    flattened to rows, each weight matrix as launched and each bias vector cast to a one-row matrix. -/
theorem code_eq : (dat0 (U1 m) c).arrAt 17 cfg0.N
    = Cert.ReferenceIdeal.Hand.Zst (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) :=
  (arrAt0_17 (U1 m) c).trans (GZ_eq (U1 m) c _ _ _ _ _ _ _ _ _
    (U1_v0 m c) (U1_launch m c main_arg1 (by decide)) (U1_v1 m c) (U1_launch m c main_arg3 (by decide)) (U1_v2 m c)
    (U1_launch m c main_arg5 (by decide)) (U1_v3 m c) (U1_launch m c main_arg7 (by decide)) (U1_v4 m c))

/-- The reconstruction array the first call leaves is the reference's decoder of that code. -/
theorem recon_eq : (dat0 (U1 m) c).arrAt 18 cfg0.N
    = Cert.ReferenceIdeal.Hand.Yst (F := Ideal)
        (Cert.ReferenceIdeal.Hand.Zst (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) :=
  (arrAt0_18 (U1 m) c).trans (GY_eq (U1 m) c _ _ _ _ _ _ _ _ _ _ _ _ _ _ _ _ _
    (U1_v0 m c) (U1_launch m c main_arg1 (by decide)) (U1_v1 m c) (U1_launch m c main_arg3 (by decide)) (U1_v2 m c)
    (U1_launch m c main_arg5 (by decide)) (U1_v3 m c) (U1_launch m c main_arg7 (by decide)) (U1_v4 m c)
    (U1_launch m c main_arg9 (by decide)) (U1_v5 m c) (U1_launch m c main_arg11 (by decide)) (U1_v6 m c)
    (U1_launch m c main_arg13 (by decide)) (U1_v7 m c) (U1_launch m c main_arg15 (by decide)) (U1_v8 m c))

/-! ## The five results -/

/-- The code. -/
theorem res_z : V23 m (outs m) c main_v9_0
    = Cert.ReferenceIdeal.Hand.Zst (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  rw [V23_main_v9_0, V2_eq]
  exact (U2_v9_0 m c).trans (code_eq m c)

/-- The reconstruction, as images. -/
theorem res_img : V23 m (outs m) c main_v10
    = Cert.ReferenceIdeal.Hand.Yimg (F := Ideal) (Cert.ReferenceIdeal.Hand.Yst (F := Ideal)
        (Cert.ReferenceIdeal.Hand.Zst (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16))) := by
  rw [V23_main_v10, V2_eq]
  have h : U2 m c (Proc.devRef .tc main_v9_1) = _ := (U2_v9_1 m c).trans (recon_eq m c)
  show shapeCast S4096x1x28x28 (U2 m c (Proc.devRef .tc main_v9_1)) _ = _
  rw [h]
  rfl

/-- The distances of the input rows: the distance matrix the first distance call leaves, gathered at the pairs. -/
theorem res_in : V23 m (outs m) c main_v47
    = Cert.ReferenceIdeal.Hand.PD (F := Ideal) (Host.gather gather_S4096x4096_S8386560x2_S8386560_n_01_n_n_01_1_11
        (Cert.ReferenceIdeal.Hand.D2_784 (F := Ideal) (Cert.ReferenceIdeal.Hand.X2 (F := Ideal) (m ((c : Thread nD τ).loc main_arg0))))
        (Cert.ReferenceIdeal.Hand.IDX (F := Ideal))) := by
  rw [V23_main_v47, V6_eq]
  have h : U6 m c (Proc.devRef .tc main_v11) = fun i => Cert.Math.pdF (Cert.ReferenceIdeal.Hand.D2_784 (F := Ideal)
      (Cert.ReferenceIdeal.Hand.X2 (F := Ideal) (m ((c : Thread nD τ).loc main_arg0))) i) := by
    rw [U6_v11, final1, GD1_eq, U3_v0, U1_v0]; rfl
  show Host.gather _ (U6 m c (Proc.devRef .tc main_v11)) _ = _
  rw [h]
  exact Cert.Math.gather_pd _ _ _

/-- The distances of the codes. -/
theorem res_lat : V23 m (outs m) c main_v61
    = Cert.ReferenceIdeal.Hand.PD (F := Ideal) (Host.gather gather_S4096x4096_S8386560x2_S8386560_n_01_n_n_01_1_11
        (Cert.ReferenceIdeal.Hand.D2_2 (F := Ideal)
          (Cert.ReferenceIdeal.Hand.Zst (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8))))
        (Cert.ReferenceIdeal.Hand.IDX (F := Ideal))) := by
  rw [V23_main_v61, V6_eq]
  have h : U6 m c (Proc.devRef .tc main_v12) = fun i => Cert.Math.pdF (Cert.ReferenceIdeal.Hand.D2_2 (F := Ideal)
      (Cert.ReferenceIdeal.Hand.Zst (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))) i) := by
    rw [U6_v12, final2, GD2_eq, U4_v9_0, code_eq]
  show Host.gather _ (U6 m c (Proc.devRef .tc main_v12)) _ = _
  rw [h]
  exact Cert.Math.gather_pd _ _ _

/-- The distances of the reconstructions. -/
theorem res_out : V23 m (outs m) c main_v75
    = Cert.ReferenceIdeal.Hand.PD (F := Ideal) (Host.gather gather_S4096x4096_S8386560x2_S8386560_n_01_n_n_01_1_11
        (Cert.ReferenceIdeal.Hand.D2_784 (F := Ideal) (Cert.ReferenceIdeal.Hand.Yst (F := Ideal)
          (Cert.ReferenceIdeal.Hand.Zst (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16))))
        (Cert.ReferenceIdeal.Hand.IDX (F := Ideal))) := by
  rw [V23_main_v75, V6_eq]
  have h : U6 m c (Proc.devRef .tc main_v13) = fun i => Cert.Math.pdF (Cert.ReferenceIdeal.Hand.D2_784 (F := Ideal)
      (Cert.ReferenceIdeal.Hand.Yst (F := Ideal)
        (Cert.ReferenceIdeal.Hand.Zst (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16))) i) := by
    rw [U6_v13, final3, GD3_eq, U5_v9_1, recon_eq]
  show Host.gather _ (U6 m c (Proc.devRef .tc main_v13)) _ = _
  rw [h]
  exact Cert.Math.gather_pd _ _ _

end Cert.KernelIdeal.Hand

end
-- ==== Proof.Ref.Base.lean ====
import proofs.«135652_j20272245637753_1_alg».proof.Proof.Gen.ReferenceIdeal
import Idealize.ShloMosaic.Lib.StableHlo.Run
import Idealize.ShloMosaic.Lib.Pipeline.Regions
import Idealize.ShloMosaic.Lib.Pipeline.Frame

/-! # The reference's straight line: what its operations share

The reference @main, with the bodies of the functions it calls written out at the calls, is one straight line of
host operations, each writing the one buffer of the tensor value it defines. Three facts are wanted of every
operation of the line — it touches TensorCore buffers only, it determines what it writes, and the buffer it
writes is not one of @main's seventeen arguments — and each is a conjunction over a list, so each passes to a
concatenation of lists. The third gives that the arguments keep their launch contents through any such line. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- @main's arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- The operation writes exactly one buffer, and that buffer is not an argument's. -/
def KeepsArgs (op : HloOp τ sig (Elt F)) : Prop :=
  ∃ y : Ref sig .tc, op.writes = {Proc.devRef .tc y} ∧ y ∉ argRefs

/-- Through a line of operations none of which writes an argument's buffer, an argument's buffer keeps its contents. -/
theorem after_keepsArgs {l : List (HloOp τ sig (Elt F))} (h : l.Forall KeepsArgs) {r : Ref sig .tc} (hr : r ∈ argRefs)
    (V : Valuation τ sig (Elt F)) : after l V (Proc.devRef .tc r) = V (Proc.devRef .tc r) :=
  after_of_forall_not_mem l V fun op hop hb => by
    obtain ⟨y, hy, hny⟩ := List.forall_iff_forall_mem.1 h op hop
    rw [hy, Finset.mem_singleton] at hb
    exact hny (Proc.devRef_injective _ hb ▸ hr)

/-- No TensorCore buffer of the reference's signature is scoped. -/
theorem scopedRefs_eq : (Finset.univ.filter fun b : Ref sig .tc => b.isScoped) = ∅ := by decide
/-- Nor is any semaphore: there is none. -/
theorem scopedSems_eq : (Finset.univ.filter fun sm : SemLoc sig => sm.isScoped .tc) = ∅ := by decide

end Cert.ReferenceIdeal.Hand

end
-- ==== Proof.Ref.Run0.lean ====
import proofs.«135652_j20272245637753_1_alg».proof.Proof.Ref.Base

/-! # The reference's run, window 0

Window 0 of the reference @main (`main_part0`) as a list of host operations, cut into stretches at the calls:
@main's own operations between two calls are one stretch, a called function's body — with the bodies of the
functions it calls in turn — over that call's buffers is the next. Beside each stretch: every operation touches
TensorCore buffers only, writes no argument of @main, and determines what it writes. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- 6 operations of @main's own, in order. -/
abbrev opsP0_0 : List (HloOp τ sig (Elt F)) :=
  [ StableHlo.reshape main_arg0 main_v0 rfl shapeCasts_S4096x1x28x28_S4096x784,
    StableHlo.unary main_arg1 main_v1 ((transpose S784x400 [1, 0] · transposes_S400x784_S784x400_1_0) : (⟨S400x784, .f32⟩ : BufTy).Contents (Elt F) → (⟨S784x400, .f32⟩ : BufTy).Contents (Elt F)),
    StableHlo.binary main_v0 main_v1 main_v2 ((fun l r => Host.dotGeneral dot_S4096x784_S784x400_S4096x400_1_0_0_1_n_n none l r) : (⟨S4096x784, .f32⟩ : BufTy).Contents (Elt F) → (⟨S784x400, .f32⟩ : BufTy).Contents (Elt F) → (⟨S4096x400, .f32⟩ : BufTy).Contents (Elt F)),
    StableHlo.unary main_arg2 main_v3 (broadcastInDim S1x400 ![1] bcast_S400_S1x400_1 : (⟨S400, .f32⟩ : BufTy).Contents (Elt F) → (⟨S1x400, .f32⟩ : BufTy).Contents (Elt F)),
    StableHlo.unary main_v3 main_v4 (broadcastInDim S4096x400 ![0, 1] bcast_S1x400_S4096x400_0_1 : (⟨S1x400, .f32⟩ : BufTy).Contents (Elt F) → (⟨S4096x400, .f32⟩ : BufTy).Contents (Elt F)),
    StableHlo.binary main_v2 main_v4 main_v5 (addf : (⟨S4096x400, .f32⟩ : BufTy).Contents (Elt F) → (⟨S4096x400, .f32⟩ : BufTy).Contents (Elt F) → (⟨S4096x400, .f32⟩ : BufTy).Contents (Elt F)) ]
theorem opsP0_0_sub : (opsP0_0 : List (HloOp τ sig (Elt F))).Forall fun op => op.bufs ⊆ tcRefs τ sig :=
  ⟨reshape_bufs_sub .., unary_bufs_sub .., binary_bufs_sub .., unary_bufs_sub .., unary_bufs_sub .., binary_bufs_sub ..⟩
theorem opsP0_0_keeps : (opsP0_0 : List (HloOp τ sig (Elt F))).Forall KeepsArgs :=
  ⟨⟨main_v0, rfl, by decide⟩, ⟨main_v1, rfl, by decide⟩, ⟨main_v2, rfl, by decide⟩, ⟨main_v3, rfl, by decide⟩, ⟨main_v4, rfl, by decide⟩,
    ⟨main_v5, rfl, by decide⟩⟩
theorem opsP0_0_fresh : (opsP0_0 : List (HloOp τ sig (Elt F))).Forall fun op => op.fresh = ∅ :=
  ⟨rfl, rfl, rfl, rfl, rfl, rfl⟩

/-- The 7 operations of the call of `leaky_relu`: the zero and its broadcast, the comparison with it, the slope and its broadcast, the product, and `_where`'s select — over the call's buffers `main_call0`, in order. -/
abbrev opsP0_1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S4096x400, .f32⟩) (broadcastInDim S4096x400 ![] bcast_S_S4096x400),
    StableHlo.TRef.binary (.of main_v5 : StableHlo.TRef sig ⟨S4096x400, .f32⟩) (.of main_call0_v0 : StableHlo.TRef sig ⟨S4096x400, .f32⟩) (.of main_call0_v1 : StableHlo.TRef sig ⟨S4096x400, .i1⟩) (cmpf .oge),
    StableHlo.TRef.nullary (.of main_call0_cst_0 : StableHlo.TRef sig ⟨S_, .f32⟩) (constant S_ .f32 0x3C23D70A#32),
    StableHlo.TRef.unary (.of main_call0_cst_0 : StableHlo.TRef sig ⟨S_, .f32⟩) (.of main_call0_v2 : StableHlo.TRef sig ⟨S4096x400, .f32⟩) (broadcastInDim S4096x400 ![] bcast_S_S4096x400),
    StableHlo.TRef.binary (.of main_call0_v2 : StableHlo.TRef sig ⟨S4096x400, .f32⟩) (.of main_v5 : StableHlo.TRef sig ⟨S4096x400, .f32⟩) (.of main_call0_v3 : StableHlo.TRef sig ⟨S4096x400, .f32⟩) mulf,
    StableHlo.TRef.ternary (.of main_call0_v1 : StableHlo.TRef sig ⟨S4096x400, .i1⟩) (.of main_v5 : StableHlo.TRef sig ⟨S4096x400, .f32⟩) (.of main_call0_v3 : StableHlo.TRef sig ⟨S4096x400, .f32⟩) (.of main_v6 : StableHlo.TRef sig ⟨S4096x400, .f32⟩) select ]
theorem opsP0_1_sub : (opsP0_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsP0_1_keeps : (opsP0_1 : List (HloOp τ sig (Elt F))).Forall KeepsArgs :=
  ⟨⟨main_call0_cst, rfl, by decide⟩, ⟨main_call0_v0, rfl, by decide⟩, ⟨main_call0_v1, rfl, by decide⟩, ⟨main_call0_cst_0, rfl, by decide⟩,
    ⟨main_call0_v2, rfl, by decide⟩, ⟨main_call0_v3, rfl, by decide⟩, ⟨main_v6, rfl, by decide⟩⟩
theorem opsP0_1_fresh : (opsP0_1 : List (HloOp τ sig (Elt F))).Forall fun op => op.fresh = ∅ :=
  ⟨rfl, rfl, rfl, rfl, rfl, rfl, rfl⟩

/-- 5 operations of @main's own, in order. -/
abbrev opsP0_2 : List (HloOp τ sig (Elt F)) :=
  [ StableHlo.unary main_arg3 main_v7 ((transpose S400x200 [1, 0] · transposes_S200x400_S400x200_1_0) : (⟨S200x400, .f32⟩ : BufTy).Contents (Elt F) → (⟨S400x200, .f32⟩ : BufTy).Contents (Elt F)),
    StableHlo.binary main_v6 main_v7 main_v8 ((fun l r => Host.dotGeneral dot_S4096x400_S400x200_S4096x200_1_0_0_1_n_n none l r) : (⟨S4096x400, .f32⟩ : BufTy).Contents (Elt F) → (⟨S400x200, .f32⟩ : BufTy).Contents (Elt F) → (⟨S4096x200, .f32⟩ : BufTy).Contents (Elt F)),
    StableHlo.unary main_arg4 main_v9 (broadcastInDim S1x200 ![1] bcast_S200_S1x200_1 : (⟨S200, .f32⟩ : BufTy).Contents (Elt F) → (⟨S1x200, .f32⟩ : BufTy).Contents (Elt F)),
    StableHlo.unary main_v9 main_v10 (broadcastInDim S4096x200 ![0, 1] bcast_S1x200_S4096x200_0_1 : (⟨S1x200, .f32⟩ : BufTy).Contents (Elt F) → (⟨S4096x200, .f32⟩ : BufTy).Contents (Elt F)),
    StableHlo.binary main_v8 main_v10 main_v11 (addf : (⟨S4096x200, .f32⟩ : BufTy).Contents (Elt F) → (⟨S4096x200, .f32⟩ : BufTy).Contents (Elt F) → (⟨S4096x200, .f32⟩ : BufTy).Contents (Elt F)) ]
theorem opsP0_2_sub : (opsP0_2 : List (HloOp τ sig (Elt F))).Forall fun op => op.bufs ⊆ tcRefs τ sig :=
  ⟨unary_bufs_sub .., binary_bufs_sub .., unary_bufs_sub .., unary_bufs_sub .., binary_bufs_sub ..⟩
theorem opsP0_2_keeps : (opsP0_2 : List (HloOp τ sig (Elt F))).Forall KeepsArgs :=
  ⟨⟨main_v7, rfl, by decide⟩, ⟨main_v8, rfl, by decide⟩, ⟨main_v9, rfl, by decide⟩, ⟨main_v10, rfl, by decide⟩, ⟨main_v11, rfl, by decide⟩⟩
theorem opsP0_2_fresh : (opsP0_2 : List (HloOp τ sig (Elt F))).Forall fun op => op.fresh = ∅ :=
  ⟨rfl, rfl, rfl, rfl, rfl⟩

/-- The 7 operations of the call of `leaky_relu`: the zero and its broadcast, the comparison with it, the slope and its broadcast, the product, and `_where`'s select — over the call's buffers `main_call1`, in order. -/
abbrev opsP0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S4096x200, .f32⟩) (broadcastInDim S4096x200 ![] bcast_S_S4096x200),
    StableHlo.TRef.binary (.of main_v11 : StableHlo.TRef sig ⟨S4096x200, .f32⟩) (.of main_call1_v0 : StableHlo.TRef sig ⟨S4096x200, .f32⟩) (.of main_call1_v1 : StableHlo.TRef sig ⟨S4096x200, .i1⟩) (cmpf .oge),
    StableHlo.TRef.nullary (.of main_call1_cst_0 : StableHlo.TRef sig ⟨S_, .f32⟩) (constant S_ .f32 0x3C23D70A#32),
    StableHlo.TRef.unary (.of main_call1_cst_0 : StableHlo.TRef sig ⟨S_, .f32⟩) (.of main_call1_v2 : StableHlo.TRef sig ⟨S4096x200, .f32⟩) (broadcastInDim S4096x200 ![] bcast_S_S4096x200),
    StableHlo.TRef.binary (.of main_call1_v2 : StableHlo.TRef sig ⟨S4096x200, .f32⟩) (.of main_v11 : StableHlo.TRef sig ⟨S4096x200, .f32⟩) (.of main_call1_v3 : StableHlo.TRef sig ⟨S4096x200, .f32⟩) mulf,
    StableHlo.TRef.ternary (.of main_call1_v1 : StableHlo.TRef sig ⟨S4096x200, .i1⟩) (.of main_v11 : StableHlo.TRef sig ⟨S4096x200, .f32⟩) (.of main_call1_v3 : StableHlo.TRef sig ⟨S4096x200, .f32⟩) (.of main_v12 : StableHlo.TRef sig ⟨S4096x200, .f32⟩) select ]
theorem opsP0_3_sub : (opsP0_3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsP0_3_keeps : (opsP0_3 : List (HloOp τ sig (Elt F))).Forall KeepsArgs :=
  ⟨⟨main_call1_cst, rfl, by decide⟩, ⟨main_call1_v0, rfl, by decide⟩, ⟨main_call1_v1, rfl, by decide⟩, ⟨main_call1_cst_0, rfl, by decide⟩,
    ⟨main_call1_v2, rfl, by decide⟩, ⟨main_call1_v3, rfl, by decide⟩, ⟨main_v12, rfl, by decide⟩⟩
theorem opsP0_3_fresh : (opsP0_3 : List (HloOp τ sig (Elt F))).Forall fun op => op.fresh = ∅ :=
  ⟨rfl, rfl, rfl, rfl, rfl, rfl, rfl⟩

/-- 5 operations of @main's own, in order. -/
abbrev opsP0_4 : List (HloOp τ sig (Elt F)) :=
  [ StableHlo.unary main_arg5 main_v13 ((transpose S200x50 [1, 0] · transposes_S50x200_S200x50_1_0) : (⟨S50x200, .f32⟩ : BufTy).Contents (Elt F) → (⟨S200x50, .f32⟩ : BufTy).Contents (Elt F)),
    StableHlo.binary main_v12 main_v13 main_v14 ((fun l r => Host.dotGeneral dot_S4096x200_S200x50_S4096x50_1_0_0_1_n_n none l r) : (⟨S4096x200, .f32⟩ : BufTy).Contents (Elt F) → (⟨S200x50, .f32⟩ : BufTy).Contents (Elt F) → (⟨S4096x50, .f32⟩ : BufTy).Contents (Elt F)),
    StableHlo.unary main_arg6 main_v15 (broadcastInDim S1x50 ![1] bcast_S50_S1x50_1 : (⟨S50, .f32⟩ : BufTy).Contents (Elt F) → (⟨S1x50, .f32⟩ : BufTy).Contents (Elt F)),
    StableHlo.unary main_v15 main_v16 (broadcastInDim S4096x50 ![0, 1] bcast_S1x50_S4096x50_0_1 : (⟨S1x50, .f32⟩ : BufTy).Contents (Elt F) → (⟨S4096x50, .f32⟩ : BufTy).Contents (Elt F)),
    StableHlo.binary main_v14 main_v16 main_v17 (addf : (⟨S4096x50, .f32⟩ : BufTy).Contents (Elt F) → (⟨S4096x50, .f32⟩ : BufTy).Contents (Elt F) → (⟨S4096x50, .f32⟩ : BufTy).Contents (Elt F)) ]
theorem opsP0_4_sub : (opsP0_4 : List (HloOp τ sig (Elt F))).Forall fun op => op.bufs ⊆ tcRefs τ sig :=
  ⟨unary_bufs_sub .., binary_bufs_sub .., unary_bufs_sub .., unary_bufs_sub .., binary_bufs_sub ..⟩
theorem opsP0_4_keeps : (opsP0_4 : List (HloOp τ sig (Elt F))).Forall KeepsArgs :=
  ⟨⟨main_v13, rfl, by decide⟩, ⟨main_v14, rfl, by decide⟩, ⟨main_v15, rfl, by decide⟩, ⟨main_v16, rfl, by decide⟩, ⟨main_v17, rfl, by decide⟩⟩
theorem opsP0_4_fresh : (opsP0_4 : List (HloOp τ sig (Elt F))).Forall fun op => op.fresh = ∅ :=
  ⟨rfl, rfl, rfl, rfl, rfl⟩

/-- The 7 operations of the call of `leaky_relu`: the zero and its broadcast, the comparison with it, the slope and its broadcast, the product, and `_where`'s select — over the call's buffers `main_call2`, in order. -/
abbrev opsP0_5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4096x50, .f32⟩) (broadcastInDim S4096x50 ![] bcast_S_S4096x50),
    StableHlo.TRef.binary (.of main_v17 : StableHlo.TRef sig ⟨S4096x50, .f32⟩) (.of main_call2_v0 : StableHlo.TRef sig ⟨S4096x50, .f32⟩) (.of main_call2_v1 : StableHlo.TRef sig ⟨S4096x50, .i1⟩) (cmpf .oge),
    StableHlo.TRef.nullary (.of main_call2_cst_0 : StableHlo.TRef sig ⟨S_, .f32⟩) (constant S_ .f32 0x3C23D70A#32),
    StableHlo.TRef.unary (.of main_call2_cst_0 : StableHlo.TRef sig ⟨S_, .f32⟩) (.of main_call2_v2 : StableHlo.TRef sig ⟨S4096x50, .f32⟩) (broadcastInDim S4096x50 ![] bcast_S_S4096x50),
    StableHlo.TRef.binary (.of main_call2_v2 : StableHlo.TRef sig ⟨S4096x50, .f32⟩) (.of main_v17 : StableHlo.TRef sig ⟨S4096x50, .f32⟩) (.of main_call2_v3 : StableHlo.TRef sig ⟨S4096x50, .f32⟩) mulf,
    StableHlo.TRef.ternary (.of main_call2_v1 : StableHlo.TRef sig ⟨S4096x50, .i1⟩) (.of main_v17 : StableHlo.TRef sig ⟨S4096x50, .f32⟩) (.of main_call2_v3 : StableHlo.TRef sig ⟨S4096x50, .f32⟩) (.of main_v18 : StableHlo.TRef sig ⟨S4096x50, .f32⟩) select ]
theorem opsP0_5_sub : (opsP0_5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsP0_5_keeps : (opsP0_5 : List (HloOp τ sig (Elt F))).Forall KeepsArgs :=
  ⟨⟨main_call2_cst, rfl, by decide⟩, ⟨main_call2_v0, rfl, by decide⟩, ⟨main_call2_v1, rfl, by decide⟩, ⟨main_call2_cst_0, rfl, by decide⟩,
    ⟨main_call2_v2, rfl, by decide⟩, ⟨main_call2_v3, rfl, by decide⟩, ⟨main_v18, rfl, by decide⟩⟩
theorem opsP0_5_fresh : (opsP0_5 : List (HloOp τ sig (Elt F))).Forall fun op => op.fresh = ∅ :=
  ⟨rfl, rfl, rfl, rfl, rfl, rfl, rfl⟩

/-- 11 operations of @main's own, in order. -/
abbrev opsP0_6 : List (HloOp τ sig (Elt F)) :=
  [ StableHlo.unary main_v18 main_v19 (Host.tanh : (⟨S4096x50, .f32⟩ : BufTy).Contents (Elt F) → (⟨S4096x50, .f32⟩ : BufTy).Contents (Elt F)),
    StableHlo.unary main_arg7 main_v20 ((transpose S50x2 [1, 0] · transposes_S2x50_S50x2_1_0) : (⟨S2x50, .f32⟩ : BufTy).Contents (Elt F) → (⟨S50x2, .f32⟩ : BufTy).Contents (Elt F)),
    StableHlo.binary main_v19 main_v20 main_v21 ((fun l r => Host.dotGeneral dot_S4096x50_S50x2_S4096x2_1_0_0_1_n_n none l r) : (⟨S4096x50, .f32⟩ : BufTy).Contents (Elt F) → (⟨S50x2, .f32⟩ : BufTy).Contents (Elt F) → (⟨S4096x2, .f32⟩ : BufTy).Contents (Elt F)),
    StableHlo.unary main_arg8 main_v22 (broadcastInDim S1x2 ![1] bcast_S2_S1x2_1 : (⟨S2, .f32⟩ : BufTy).Contents (Elt F) → (⟨S1x2, .f32⟩ : BufTy).Contents (Elt F)),
    StableHlo.unary main_v22 main_v23 (broadcastInDim S4096x2 ![0, 1] bcast_S1x2_S4096x2_0_1 : (⟨S1x2, .f32⟩ : BufTy).Contents (Elt F) → (⟨S4096x2, .f32⟩ : BufTy).Contents (Elt F)),
    StableHlo.binary main_v21 main_v23 main_v24 (addf : (⟨S4096x2, .f32⟩ : BufTy).Contents (Elt F) → (⟨S4096x2, .f32⟩ : BufTy).Contents (Elt F) → (⟨S4096x2, .f32⟩ : BufTy).Contents (Elt F)),
    StableHlo.unary main_arg9 main_v25 ((transpose S2x50 [1, 0] · transposes_S50x2_S2x50_1_0) : (⟨S50x2, .f32⟩ : BufTy).Contents (Elt F) → (⟨S2x50, .f32⟩ : BufTy).Contents (Elt F)),
    StableHlo.binary main_v24 main_v25 main_v26 ((fun l r => Host.dotGeneral dot_S4096x2_S2x50_S4096x50_1_0_0_1_n_n none l r) : (⟨S4096x2, .f32⟩ : BufTy).Contents (Elt F) → (⟨S2x50, .f32⟩ : BufTy).Contents (Elt F) → (⟨S4096x50, .f32⟩ : BufTy).Contents (Elt F)),
    StableHlo.unary main_arg10 main_v27 (broadcastInDim S1x50 ![1] bcast_S50_S1x50_1 : (⟨S50, .f32⟩ : BufTy).Contents (Elt F) → (⟨S1x50, .f32⟩ : BufTy).Contents (Elt F)),
    StableHlo.unary main_v27 main_v28 (broadcastInDim S4096x50 ![0, 1] bcast_S1x50_S4096x50_0_1 : (⟨S1x50, .f32⟩ : BufTy).Contents (Elt F) → (⟨S4096x50, .f32⟩ : BufTy).Contents (Elt F)),
    StableHlo.binary main_v26 main_v28 main_v29 (addf : (⟨S4096x50, .f32⟩ : BufTy).Contents (Elt F) → (⟨S4096x50, .f32⟩ : BufTy).Contents (Elt F) → (⟨S4096x50, .f32⟩ : BufTy).Contents (Elt F)) ]
theorem opsP0_6_sub : (opsP0_6 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub ..,
    binary_bufs_sub .., unary_bufs_sub .., unary_bufs_sub .., binary_bufs_sub ..⟩
theorem opsP0_6_keeps : (opsP0_6 : List (HloOp τ sig (Elt F))).Forall KeepsArgs :=
  ⟨⟨main_v19, rfl, by decide⟩, ⟨main_v20, rfl, by decide⟩, ⟨main_v21, rfl, by decide⟩, ⟨main_v22, rfl, by decide⟩, ⟨main_v23, rfl, by decide⟩,
    ⟨main_v24, rfl, by decide⟩, ⟨main_v25, rfl, by decide⟩, ⟨main_v26, rfl, by decide⟩, ⟨main_v27, rfl, by decide⟩, ⟨main_v28, rfl, by decide⟩,
    ⟨main_v29, rfl, by decide⟩⟩
theorem opsP0_6_fresh : (opsP0_6 : List (HloOp τ sig (Elt F))).Forall fun op => op.fresh = ∅ :=
  ⟨rfl, rfl, rfl, rfl, rfl, rfl, rfl, rfl, rfl, rfl, rfl⟩

/-- The 7 operations of the call of `leaky_relu`: the zero and its broadcast, the comparison with it, the slope and its broadcast, the product, and `_where`'s select — over the call's buffers `main_call3`, in order. -/
abbrev opsP0_7 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S4096x50, .f32⟩) (broadcastInDim S4096x50 ![] bcast_S_S4096x50),
    StableHlo.TRef.binary (.of main_v29 : StableHlo.TRef sig ⟨S4096x50, .f32⟩) (.of main_call3_v0 : StableHlo.TRef sig ⟨S4096x50, .f32⟩) (.of main_call3_v1 : StableHlo.TRef sig ⟨S4096x50, .i1⟩) (cmpf .oge),
    StableHlo.TRef.nullary (.of main_call3_cst_0 : StableHlo.TRef sig ⟨S_, .f32⟩) (constant S_ .f32 0x3C23D70A#32),
    StableHlo.TRef.unary (.of main_call3_cst_0 : StableHlo.TRef sig ⟨S_, .f32⟩) (.of main_call3_v2 : StableHlo.TRef sig ⟨S4096x50, .f32⟩) (broadcastInDim S4096x50 ![] bcast_S_S4096x50),
    StableHlo.TRef.binary (.of main_call3_v2 : StableHlo.TRef sig ⟨S4096x50, .f32⟩) (.of main_v29 : StableHlo.TRef sig ⟨S4096x50, .f32⟩) (.of main_call3_v3 : StableHlo.TRef sig ⟨S4096x50, .f32⟩) mulf,
    StableHlo.TRef.ternary (.of main_call3_v1 : StableHlo.TRef sig ⟨S4096x50, .i1⟩) (.of main_v29 : StableHlo.TRef sig ⟨S4096x50, .f32⟩) (.of main_call3_v3 : StableHlo.TRef sig ⟨S4096x50, .f32⟩) (.of main_v30 : StableHlo.TRef sig ⟨S4096x50, .f32⟩) select ]
theorem opsP0_7_sub : (opsP0_7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsP0_7_keeps : (opsP0_7 : List (HloOp τ sig (Elt F))).Forall KeepsArgs :=
  ⟨⟨main_call3_cst, rfl, by decide⟩, ⟨main_call3_v0, rfl, by decide⟩, ⟨main_call3_v1, rfl, by decide⟩, ⟨main_call3_cst_0, rfl, by decide⟩,
    ⟨main_call3_v2, rfl, by decide⟩, ⟨main_call3_v3, rfl, by decide⟩, ⟨main_v30, rfl, by decide⟩⟩
theorem opsP0_7_fresh : (opsP0_7 : List (HloOp τ sig (Elt F))).Forall fun op => op.fresh = ∅ :=
  ⟨rfl, rfl, rfl, rfl, rfl, rfl, rfl⟩

/-- 5 operations of @main's own, in order. -/
abbrev opsP0_8 : List (HloOp τ sig (Elt F)) :=
  [ StableHlo.unary main_arg11 main_v31 ((transpose S50x200 [1, 0] · transposes_S200x50_S50x200_1_0) : (⟨S200x50, .f32⟩ : BufTy).Contents (Elt F) → (⟨S50x200, .f32⟩ : BufTy).Contents (Elt F)),
    StableHlo.binary main_v30 main_v31 main_v32 ((fun l r => Host.dotGeneral dot_S4096x50_S50x200_S4096x200_1_0_0_1_n_n none l r) : (⟨S4096x50, .f32⟩ : BufTy).Contents (Elt F) → (⟨S50x200, .f32⟩ : BufTy).Contents (Elt F) → (⟨S4096x200, .f32⟩ : BufTy).Contents (Elt F)),
    StableHlo.unary main_arg12 main_v33 (broadcastInDim S1x200 ![1] bcast_S200_S1x200_1 : (⟨S200, .f32⟩ : BufTy).Contents (Elt F) → (⟨S1x200, .f32⟩ : BufTy).Contents (Elt F)),
    StableHlo.unary main_v33 main_v34 (broadcastInDim S4096x200 ![0, 1] bcast_S1x200_S4096x200_0_1 : (⟨S1x200, .f32⟩ : BufTy).Contents (Elt F) → (⟨S4096x200, .f32⟩ : BufTy).Contents (Elt F)),
    StableHlo.binary main_v32 main_v34 main_v35 (addf : (⟨S4096x200, .f32⟩ : BufTy).Contents (Elt F) → (⟨S4096x200, .f32⟩ : BufTy).Contents (Elt F) → (⟨S4096x200, .f32⟩ : BufTy).Contents (Elt F)) ]
theorem opsP0_8_sub : (opsP0_8 : List (HloOp τ sig (Elt F))).Forall fun op => op.bufs ⊆ tcRefs τ sig :=
  ⟨unary_bufs_sub .., binary_bufs_sub .., unary_bufs_sub .., unary_bufs_sub .., binary_bufs_sub ..⟩
theorem opsP0_8_keeps : (opsP0_8 : List (HloOp τ sig (Elt F))).Forall KeepsArgs :=
  ⟨⟨main_v31, rfl, by decide⟩, ⟨main_v32, rfl, by decide⟩, ⟨main_v33, rfl, by decide⟩, ⟨main_v34, rfl, by decide⟩, ⟨main_v35, rfl, by decide⟩⟩
theorem opsP0_8_fresh : (opsP0_8 : List (HloOp τ sig (Elt F))).Forall fun op => op.fresh = ∅ :=
  ⟨rfl, rfl, rfl, rfl, rfl⟩

/-- The 7 operations of the call of `leaky_relu`: the zero and its broadcast, the comparison with it, the slope and its broadcast, the product, and `_where`'s select — over the call's buffers `main_call4`, in order. -/
abbrev opsP0_9 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S4096x200, .f32⟩) (broadcastInDim S4096x200 ![] bcast_S_S4096x200),
    StableHlo.TRef.binary (.of main_v35 : StableHlo.TRef sig ⟨S4096x200, .f32⟩) (.of main_call4_v0 : StableHlo.TRef sig ⟨S4096x200, .f32⟩) (.of main_call4_v1 : StableHlo.TRef sig ⟨S4096x200, .i1⟩) (cmpf .oge),
    StableHlo.TRef.nullary (.of main_call4_cst_0 : StableHlo.TRef sig ⟨S_, .f32⟩) (constant S_ .f32 0x3C23D70A#32),
    StableHlo.TRef.unary (.of main_call4_cst_0 : StableHlo.TRef sig ⟨S_, .f32⟩) (.of main_call4_v2 : StableHlo.TRef sig ⟨S4096x200, .f32⟩) (broadcastInDim S4096x200 ![] bcast_S_S4096x200),
    StableHlo.TRef.binary (.of main_call4_v2 : StableHlo.TRef sig ⟨S4096x200, .f32⟩) (.of main_v35 : StableHlo.TRef sig ⟨S4096x200, .f32⟩) (.of main_call4_v3 : StableHlo.TRef sig ⟨S4096x200, .f32⟩) mulf,
    StableHlo.TRef.ternary (.of main_call4_v1 : StableHlo.TRef sig ⟨S4096x200, .i1⟩) (.of main_v35 : StableHlo.TRef sig ⟨S4096x200, .f32⟩) (.of main_call4_v3 : StableHlo.TRef sig ⟨S4096x200, .f32⟩) (.of main_v36 : StableHlo.TRef sig ⟨S4096x200, .f32⟩) select ]
theorem opsP0_9_sub : (opsP0_9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsP0_9_keeps : (opsP0_9 : List (HloOp τ sig (Elt F))).Forall KeepsArgs :=
  ⟨⟨main_call4_cst, rfl, by decide⟩, ⟨main_call4_v0, rfl, by decide⟩, ⟨main_call4_v1, rfl, by decide⟩, ⟨main_call4_cst_0, rfl, by decide⟩,
    ⟨main_call4_v2, rfl, by decide⟩, ⟨main_call4_v3, rfl, by decide⟩, ⟨main_v36, rfl, by decide⟩⟩
theorem opsP0_9_fresh : (opsP0_9 : List (HloOp τ sig (Elt F))).Forall fun op => op.fresh = ∅ :=
  ⟨rfl, rfl, rfl, rfl, rfl, rfl, rfl⟩

/-- 5 operations of @main's own, in order. -/
abbrev opsP0_10 : List (HloOp τ sig (Elt F)) :=
  [ StableHlo.unary main_arg13 main_v37 ((transpose S200x400 [1, 0] · transposes_S400x200_S200x400_1_0) : (⟨S400x200, .f32⟩ : BufTy).Contents (Elt F) → (⟨S200x400, .f32⟩ : BufTy).Contents (Elt F)),
    StableHlo.binary main_v36 main_v37 main_v38 ((fun l r => Host.dotGeneral dot_S4096x200_S200x400_S4096x400_1_0_0_1_n_n none l r) : (⟨S4096x200, .f32⟩ : BufTy).Contents (Elt F) → (⟨S200x400, .f32⟩ : BufTy).Contents (Elt F) → (⟨S4096x400, .f32⟩ : BufTy).Contents (Elt F)),
    StableHlo.unary main_arg14 main_v39 (broadcastInDim S1x400 ![1] bcast_S400_S1x400_1 : (⟨S400, .f32⟩ : BufTy).Contents (Elt F) → (⟨S1x400, .f32⟩ : BufTy).Contents (Elt F)),
    StableHlo.unary main_v39 main_v40 (broadcastInDim S4096x400 ![0, 1] bcast_S1x400_S4096x400_0_1 : (⟨S1x400, .f32⟩ : BufTy).Contents (Elt F) → (⟨S4096x400, .f32⟩ : BufTy).Contents (Elt F)),
    StableHlo.binary main_v38 main_v40 main_v41 (addf : (⟨S4096x400, .f32⟩ : BufTy).Contents (Elt F) → (⟨S4096x400, .f32⟩ : BufTy).Contents (Elt F) → (⟨S4096x400, .f32⟩ : BufTy).Contents (Elt F)) ]
theorem opsP0_10_sub : (opsP0_10 : List (HloOp τ sig (Elt F))).Forall fun op => op.bufs ⊆ tcRefs τ sig :=
  ⟨unary_bufs_sub .., binary_bufs_sub .., unary_bufs_sub .., unary_bufs_sub .., binary_bufs_sub ..⟩
theorem opsP0_10_keeps : (opsP0_10 : List (HloOp τ sig (Elt F))).Forall KeepsArgs :=
  ⟨⟨main_v37, rfl, by decide⟩, ⟨main_v38, rfl, by decide⟩, ⟨main_v39, rfl, by decide⟩, ⟨main_v40, rfl, by decide⟩, ⟨main_v41, rfl, by decide⟩⟩
theorem opsP0_10_fresh : (opsP0_10 : List (HloOp τ sig (Elt F))).Forall fun op => op.fresh = ∅ :=
  ⟨rfl, rfl, rfl, rfl, rfl⟩

/-- The 7 operations of the call of `leaky_relu`: the zero and its broadcast, the comparison with it, the slope and its broadcast, the product, and `_where`'s select — over the call's buffers `main_call5`, in order. -/
abbrev opsP0_11 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S4096x400, .f32⟩) (broadcastInDim S4096x400 ![] bcast_S_S4096x400),
    StableHlo.TRef.binary (.of main_v41 : StableHlo.TRef sig ⟨S4096x400, .f32⟩) (.of main_call5_v0 : StableHlo.TRef sig ⟨S4096x400, .f32⟩) (.of main_call5_v1 : StableHlo.TRef sig ⟨S4096x400, .i1⟩) (cmpf .oge),
    StableHlo.TRef.nullary (.of main_call5_cst_0 : StableHlo.TRef sig ⟨S_, .f32⟩) (constant S_ .f32 0x3C23D70A#32),
    StableHlo.TRef.unary (.of main_call5_cst_0 : StableHlo.TRef sig ⟨S_, .f32⟩) (.of main_call5_v2 : StableHlo.TRef sig ⟨S4096x400, .f32⟩) (broadcastInDim S4096x400 ![] bcast_S_S4096x400),
    StableHlo.TRef.binary (.of main_call5_v2 : StableHlo.TRef sig ⟨S4096x400, .f32⟩) (.of main_v41 : StableHlo.TRef sig ⟨S4096x400, .f32⟩) (.of main_call5_v3 : StableHlo.TRef sig ⟨S4096x400, .f32⟩) mulf,
    StableHlo.TRef.ternary (.of main_call5_v1 : StableHlo.TRef sig ⟨S4096x400, .i1⟩) (.of main_v41 : StableHlo.TRef sig ⟨S4096x400, .f32⟩) (.of main_call5_v3 : StableHlo.TRef sig ⟨S4096x400, .f32⟩) (.of main_v42 : StableHlo.TRef sig ⟨S4096x400, .f32⟩) select ]
theorem opsP0_11_sub : (opsP0_11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem opsP0_11_keeps : (opsP0_11 : List (HloOp τ sig (Elt F))).Forall KeepsArgs :=
  ⟨⟨main_call5_cst, rfl, by decide⟩, ⟨main_call5_v0, rfl, by decide⟩, ⟨main_call5_v1, rfl, by decide⟩, ⟨main_call5_cst_0, rfl, by decide⟩,
    ⟨main_call5_v2, rfl, by decide⟩, ⟨main_call5_v3, rfl, by decide⟩, ⟨main_v42, rfl, by decide⟩⟩
theorem opsP0_11_fresh : (opsP0_11 : List (HloOp τ sig (Elt F))).Forall fun op => op.fresh = ∅ :=
  ⟨rfl, rfl, rfl, rfl, rfl, rfl, rfl⟩

/-- 17 operations of @main's own, in order. -/
abbrev opsP0_12 : List (HloOp τ sig (Elt F)) :=
  [ StableHlo.unary main_arg15 main_v43 ((transpose S400x784 [1, 0] · transposes_S784x400_S400x784_1_0) : (⟨S784x400, .f32⟩ : BufTy).Contents (Elt F) → (⟨S400x784, .f32⟩ : BufTy).Contents (Elt F)),
    StableHlo.binary main_v42 main_v43 main_v44 ((fun l r => Host.dotGeneral dot_S4096x400_S400x784_S4096x784_1_0_0_1_n_n none l r) : (⟨S4096x400, .f32⟩ : BufTy).Contents (Elt F) → (⟨S400x784, .f32⟩ : BufTy).Contents (Elt F) → (⟨S4096x784, .f32⟩ : BufTy).Contents (Elt F)),
    StableHlo.unary main_arg16 main_v45 (broadcastInDim S1x784 ![1] bcast_S784_S1x784_1 : (⟨S784, .f32⟩ : BufTy).Contents (Elt F) → (⟨S1x784, .f32⟩ : BufTy).Contents (Elt F)),
    StableHlo.unary main_v45 main_v46 (broadcastInDim S4096x784 ![0, 1] bcast_S1x784_S4096x784_0_1 : (⟨S1x784, .f32⟩ : BufTy).Contents (Elt F) → (⟨S4096x784, .f32⟩ : BufTy).Contents (Elt F)),
    StableHlo.binary main_v44 main_v46 main_v47 (addf : (⟨S4096x784, .f32⟩ : BufTy).Contents (Elt F) → (⟨S4096x784, .f32⟩ : BufTy).Contents (Elt F) → (⟨S4096x784, .f32⟩ : BufTy).Contents (Elt F)),
    StableHlo.unary main_v47 main_v48 (Host.negf : (⟨S4096x784, .f32⟩ : BufTy).Contents (Elt F) → (⟨S4096x784, .f32⟩ : BufTy).Contents (Elt F)),
    StableHlo.unary main_v48 main_v49 (Host.exp : (⟨S4096x784, .f32⟩ : BufTy).Contents (Elt F) → (⟨S4096x784, .f32⟩ : BufTy).Contents (Elt F)),
    StableHlo.nullary main_cst (constant S_ .f32 0x3F800000#32),
    StableHlo.unary main_cst main_v50 (broadcastInDim S4096x784 ![] bcast_S_S4096x784 : (⟨S_, .f32⟩ : BufTy).Contents (Elt F) → (⟨S4096x784, .f32⟩ : BufTy).Contents (Elt F)),
    StableHlo.binary main_v50 main_v49 main_v51 (addf : (⟨S4096x784, .f32⟩ : BufTy).Contents (Elt F) → (⟨S4096x784, .f32⟩ : BufTy).Contents (Elt F) → (⟨S4096x784, .f32⟩ : BufTy).Contents (Elt F)),
    StableHlo.nullary main_cst_0 (constant S_ .f32 0x3F800000#32),
    StableHlo.unary main_cst_0 main_v52 (broadcastInDim S4096x784 ![] bcast_S_S4096x784 : (⟨S_, .f32⟩ : BufTy).Contents (Elt F) → (⟨S4096x784, .f32⟩ : BufTy).Contents (Elt F)),
    StableHlo.binary main_v52 main_v51 main_v53 (Host.divf : (⟨S4096x784, .f32⟩ : BufTy).Contents (Elt F) → (⟨S4096x784, .f32⟩ : BufTy).Contents (Elt F) → (⟨S4096x784, .f32⟩ : BufTy).Contents (Elt F)),
    StableHlo.reshape main_v53 main_v54 rfl shapeCasts_S4096x784_S4096x1x28x28,
    StableHlo.binary main_v0 main_v0 main_v55 (mulf : (⟨S4096x784, .f32⟩ : BufTy).Contents (Elt F) → (⟨S4096x784, .f32⟩ : BufTy).Contents (Elt F) → (⟨S4096x784, .f32⟩ : BufTy).Contents (Elt F)),
    StableHlo.nullary main_cst_1 (constant S_ .f32 0x00000000#32),
    StableHlo.binary main_v55 main_cst_1 main_v56 ((fun x v => Host.reduceAdd x v reducesTo_S4096x784_S4096_d1 h_S_) : (⟨S4096x784, .f32⟩ : BufTy).Contents (Elt F) → (⟨S_, .f32⟩ : BufTy).Contents (Elt F) → (⟨S4096, .f32⟩ : BufTy).Contents (Elt F)) ]
theorem opsP0_12_sub : (opsP0_12 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub .., reshape_bufs_sub ..,
    binary_bufs_sub .., nullary_bufs_sub .., binary_bufs_sub ..⟩
theorem opsP0_12_keeps : (opsP0_12 : List (HloOp τ sig (Elt F))).Forall KeepsArgs :=
  ⟨⟨main_v43, rfl, by decide⟩, ⟨main_v44, rfl, by decide⟩, ⟨main_v45, rfl, by decide⟩, ⟨main_v46, rfl, by decide⟩, ⟨main_v47, rfl, by decide⟩,
    ⟨main_v48, rfl, by decide⟩, ⟨main_v49, rfl, by decide⟩, ⟨main_cst, rfl, by decide⟩, ⟨main_v50, rfl, by decide⟩, ⟨main_v51, rfl, by decide⟩,
    ⟨main_cst_0, rfl, by decide⟩, ⟨main_v52, rfl, by decide⟩, ⟨main_v53, rfl, by decide⟩, ⟨main_v54, rfl, by decide⟩, ⟨main_v55, rfl, by decide⟩,
    ⟨main_cst_1, rfl, by decide⟩, ⟨main_v56, rfl, by decide⟩⟩
theorem opsP0_12_fresh : (opsP0_12 : List (HloOp τ sig (Elt F))).Forall fun op => op.fresh = ∅ :=
  ⟨rfl, rfl, rfl, rfl, rfl, rfl, rfl, rfl, rfl, rfl, rfl, rfl, rfl, rfl, rfl, rfl, rfl⟩

/-- Window 0 of @main as one line: its 96 operations, the called functions' bodies written out at the calls. -/
abbrev opsP0 : List (HloOp τ sig (Elt F)) :=
  opsP0_0 ++ (opsP0_1 ++ (opsP0_2 ++ (opsP0_3 ++ (opsP0_4 ++ (opsP0_5 ++ (opsP0_6 ++ (opsP0_7 ++ (opsP0_8 ++ (opsP0_9 ++ (opsP0_10 ++ (opsP0_11 ++ (opsP0_12))))))))))))

/-- Window 0 of @main is that line: unfolding the functions at their calls and the records at their fields, both
    sides are the same chain of host steps. -/
theorem part0_eq (c : Dev nD) : main_part0 (F := F) c = seq opsP0 := by
  chain_rfl

theorem opsP0_sub : (opsP0 : List (HloOp τ sig (Elt F))).Forall fun op => op.bufs ⊆ tcRefs τ sig :=
  forall_append opsP0_0_sub (forall_append opsP0_1_sub (forall_append opsP0_2_sub (forall_append opsP0_3_sub (forall_append opsP0_4_sub (forall_append opsP0_5_sub (forall_append opsP0_6_sub (forall_append opsP0_7_sub (forall_append opsP0_8_sub (forall_append opsP0_9_sub (forall_append opsP0_10_sub (forall_append opsP0_11_sub (opsP0_12_sub))))))))))))
theorem opsP0_keeps : (opsP0 : List (HloOp τ sig (Elt F))).Forall KeepsArgs :=
  forall_append opsP0_0_keeps (forall_append opsP0_1_keeps (forall_append opsP0_2_keeps (forall_append opsP0_3_keeps (forall_append opsP0_4_keeps (forall_append opsP0_5_keeps (forall_append opsP0_6_keeps (forall_append opsP0_7_keeps (forall_append opsP0_8_keeps (forall_append opsP0_9_keeps (forall_append opsP0_10_keeps (forall_append opsP0_11_keeps (opsP0_12_keeps))))))))))))
theorem opsP0_fresh : (opsP0 : List (HloOp τ sig (Elt F))).Forall fun op => op.fresh = ∅ :=
  forall_append opsP0_0_fresh (forall_append opsP0_1_fresh (forall_append opsP0_2_fresh (forall_append opsP0_3_fresh (forall_append opsP0_4_fresh (forall_append opsP0_5_fresh (forall_append opsP0_6_fresh (forall_append opsP0_7_fresh (forall_append opsP0_8_fresh (forall_append opsP0_9_fresh (forall_append opsP0_10_fresh (forall_append opsP0_11_fresh (opsP0_12_fresh))))))))))))

end Cert.ReferenceIdeal.Hand

end
-- ==== Proof.Ref.Ssa.lean ====
import proofs.«135652_j20272245637753_1_alg».proof.Proof.Ref.Base

/-! # A line in which every buffer is written once

In the reference's line every operation writes the buffer of the tensor value it defines, reads buffers written
before it (or arguments), and no later operation writes a buffer an earlier one read or wrote. For such a line the
contents after the whole line satisfy every operation's own equation: the final contents of its result are its
function of the final contents of its operands. The condition is one about the list of (operands, result) pairs of
the line, decided on the buffers' indices. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `op` writes `y` alone, and what it leaves there is determined by the contents at `rs`. -/
structure Reads (op : HloOp τ sig (Elt F)) (rs : List (Ref sig .tc)) (y : Ref sig .tc) : Prop where
  writes_eq : op.writes = {Proc.devRef .tc y}
  congr : ∀ V V' : Valuation τ sig (Elt F), (∀ r ∈ rs, V (Proc.devRef .tc r) = V' (Proc.devRef .tc r)) →
    op.result V (Proc.devRef .tc y) = op.result V' (Proc.devRef .tc y)

/-- The pairs (operands, result) of a line, one per operation. -/
abbrev Data := List (List (Ref sig .tc) × Ref sig .tc)

/-- A line and its pairs. -/
abbrev ReadsAll (l : List (HloOp τ sig (Elt F))) (d : Data) : Prop :=
  List.Forall₂ (fun op e => Reads op e.1 e.2) l d

theorem ReadsAll.append {l₁ l₂ : List (HloOp τ sig (Elt F))} {d₁ d₂ : Data} (h₁ : ReadsAll l₁ d₁) (h₂ : ReadsAll l₂ d₂) :
    ReadsAll (l₁ ++ l₂) (d₁ ++ d₂) := by
  induction h₁ with
  | nil => exact h₂
  | cons h _ ih => exact .cons h ih

section Builders
variable (x a b c y : Ref sig .tc)

theorem nullary_reads (v : y.ty.Contents (Elt F)) (hy) : Reads (nullary (τ := τ) y v hy) [] y :=
  ⟨rfl, fun V V' _ => by rw [nullary_result, nullary_result]⟩
theorem unary_reads (f : x.ty.Contents (Elt F) → y.ty.Contents (Elt F)) (hx hy) : Reads (unary (τ := τ) x y f hx hy) [x] y :=
  ⟨rfl, fun V V' h => by rw [unary_result, unary_result, h x (List.mem_singleton_self x)]⟩
theorem binary_reads (f : a.ty.Contents (Elt F) → b.ty.Contents (Elt F) → y.ty.Contents (Elt F)) (ha hb hy) :
    Reads (binary (τ := τ) a b y f ha hb hy) [a, b] y :=
  ⟨rfl, fun V V' h => by
    rw [binary_result, binary_result, h a List.mem_cons_self, h b (List.mem_cons_of_mem _ List.mem_cons_self)]⟩
theorem ternary_reads (f : c.ty.Contents (Elt F) → a.ty.Contents (Elt F) → b.ty.Contents (Elt F) → y.ty.Contents (Elt F)) (hc ha hb hy) :
    Reads (ternary (τ := τ) c a b y f hc ha hb hy) [c, a, b] y :=
  ⟨rfl, fun V V' h => by
    rw [ternary_result, ternary_result, h c List.mem_cons_self, h a (List.mem_cons_of_mem _ List.mem_cons_self),
      h b (List.mem_cons_of_mem _ (List.mem_cons_of_mem _ List.mem_cons_self))]⟩
theorem reshape_reads (he hn hx hy) : Reads (reshape (τ := τ) (Val := Elt F) x y he hn hx hy) [x] y :=
  ⟨rfl, fun V V' h => by rw [reshape_result, reshape_result, h x (List.mem_singleton_self x)]⟩

end Builders

/-- The final contents are a fixed point of the operation: at what it writes, its result from them is what they hold. -/
def Fix (Vf : Valuation τ sig (Elt F)) (op : HloOp τ sig (Elt F)) : Prop :=
  ∀ b ∈ op.writes, op.result Vf b = Vf b

/-- No later operation writes a buffer an earlier one reads or writes, and no operation writes a buffer it reads. -/
def WF : Data → Prop
  | [] => True
  | e :: d => e.2 ∉ e.1 ∧ (∀ e' ∈ d, e'.2 ≠ e.2 ∧ e'.2 ∉ e.1) ∧ WF d

/-- A buffer no operation of the line writes keeps its contents. -/
theorem after_of_not_written {b : Ref sig .tc} : ∀ {l : List (HloOp τ sig (Elt F))} {d : Data}, ReadsAll l d →
    (∀ e' ∈ d, e'.2 ≠ b) → ∀ V : Valuation τ sig (Elt F), after l V (Proc.devRef .tc b) = V (Proc.devRef .tc b)
  | _, _, .nil, _, _ => rfl
  | _, _, @List.Forall₂.cons _ _ _ op e _ _ hR h, hb, V => by
    rw [after_cons, after_of_not_written h (fun e' he' => hb e' (List.mem_cons_of_mem _ he')),
      op.result_of_not_mem V (by
        rw [hR.writes_eq, Finset.mem_singleton]
        exact fun hh => hb e List.mem_cons_self (Proc.devRef_injective _ hh).symm)]

/-- After a line in which every buffer is written once, every operation's equation holds of the final contents. -/
theorem fix_of_wf : ∀ {l : List (HloOp τ sig (Elt F))} {d : Data}, ReadsAll l d → WF d →
    ∀ (W : Valuation τ sig (Elt F)), ∀ op ∈ l, Fix (after l W) op
  | _, _, .nil, _, _ => fun _ h => nomatch h
  | _, _, @List.Forall₂.cons _ _ _ op e l d hR h, ⟨hy, hlater, hwf⟩, W => by
    intro op' hop'
    rcases List.mem_cons.1 hop' with rfl | hmem
    · intro b hb
      rw [hR.writes_eq, Finset.mem_singleton] at hb
      subst hb
      have hkeep : ∀ r ∈ e.1, after l (op'.result W) (Proc.devRef .tc r) = W (Proc.devRef .tc r) := fun r hr => by
        rw [after_of_not_written h (fun e' he' heq => (hlater e' he').2 (heq ▸ hr)),
          op'.result_of_not_mem W (by
            rw [hR.writes_eq, Finset.mem_singleton]
            exact fun hh => hy ((Proc.devRef_injective _ hh) ▸ hr))]
      show op'.result (after l (op'.result W)) _ = after l (op'.result W) _
      rw [hR.congr _ W hkeep, after_of_not_written h (fun e' he' => (hlater e' he').1)]
    · exact fix_of_wf h hwf (op.result W) op' hmem

/-- A buffer's index in its memory space. -/
abbrev idxOf (r : Ref sig .tc) : Nat := r.idx.val
/-- A pair on indices. -/
abbrev enc (e : List (Ref sig .tc) × Ref sig .tc) : List Nat × Nat := (e.1.map idxOf, idxOf e.2)

/-- The same condition on indices. -/
def WFn : List (List Nat × Nat) → Prop
  | [] => True
  | e :: d => e.2 ∉ e.1 ∧ (∀ e' ∈ d, e'.2 ≠ e.2 ∧ e'.2 ∉ e.1) ∧ WFn d

instance decWFn : (d : List (List Nat × Nat)) → Decidable (WFn d)
  | [] => isTrue trivial
  | e :: d => by
    have := decWFn d
    unfold WFn
    infer_instance

/-- Distinct indices are distinct buffers: the condition on indices gives the condition on buffers. -/
theorem wf_of_wfn : ∀ d : Data, WFn (d.map enc) → WF d
  | [], _ => trivial
  | e :: d, h => by
    obtain ⟨h1, h2, h3⟩ := h
    refine ⟨fun hy => h1 (List.mem_map_of_mem hy), fun e' he' => ?_, wf_of_wfn d h3⟩
    have := h2 (enc e') (List.mem_map_of_mem he')
    exact ⟨fun heq => this.1 (congrArg idxOf heq), fun hm => this.2 (List.mem_map_of_mem hm)⟩

section Equations
variable {x a b c y : Ref sig .tc} {Vf : Valuation τ sig (Elt F)}

theorem nullary_fix {v : y.ty.Contents (Elt F)} {hy} (h : Fix Vf (nullary (τ := τ) y v hy)) : Vf (Proc.devRef .tc y) = v :=
  (h _ (Finset.mem_singleton_self _)).symm.trans (nullary_result ..)
theorem unary_fix {f : x.ty.Contents (Elt F) → y.ty.Contents (Elt F)} {hx hy} (h : Fix Vf (unary (τ := τ) x y f hx hy)) :
    Vf (Proc.devRef .tc y) = f (Vf (Proc.devRef .tc x)) :=
  (h _ (Finset.mem_singleton_self _)).symm.trans (unary_result ..)
theorem binary_fix {f : a.ty.Contents (Elt F) → b.ty.Contents (Elt F) → y.ty.Contents (Elt F)} {ha hb hy}
    (h : Fix Vf (binary (τ := τ) a b y f ha hb hy)) :
    Vf (Proc.devRef .tc y) = f (Vf (Proc.devRef .tc a)) (Vf (Proc.devRef .tc b)) :=
  (h _ (Finset.mem_singleton_self _)).symm.trans (binary_result ..)
theorem ternary_fix {f : c.ty.Contents (Elt F) → a.ty.Contents (Elt F) → b.ty.Contents (Elt F) → y.ty.Contents (Elt F)} {hc ha hb hy}
    (h : Fix Vf (ternary (τ := τ) c a b y f hc ha hb hy)) :
    Vf (Proc.devRef .tc y) = f (Vf (Proc.devRef .tc c)) (Vf (Proc.devRef .tc a)) (Vf (Proc.devRef .tc b)) :=
  (h _ (Finset.mem_singleton_self _)).symm.trans (ternary_result ..)
theorem reshape_fix {he hn hx hy} (h : Fix Vf (reshape (τ := τ) (Val := Elt F) x y he hn hx hy)) :
    Vf (Proc.devRef .tc y) = fun i => he ▸ shapeCast y.ty.shape (Vf (Proc.devRef .tc x)) hn i :=
  (h _ (Finset.mem_singleton_self _)).symm.trans (reshape_result ..)

end Equations

end Cert.ReferenceIdeal.Hand

end
-- ==== Proof.Ref.Reads0.lean ====
import proofs.«135652_j20272245637753_1_alg».proof.Proof.Ref.Run0
import proofs.«135652_j20272245637753_1_alg».proof.Proof.Ref.Ssa

/-! # The reference's run, window 0: what each operation reads and writes

Beside each stretch of window 0's line, the list of its operations' (operands, result) buffers, and that each
operation writes its result buffer alone with contents determined by its operands'. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- The (operands, result) pairs of `opsP0_0`. -/
abbrev dataP0_0 : Data :=
  [([main_arg0], main_v0), ([main_arg1], main_v1), ([main_v0, main_v1], main_v2), ([main_arg2], main_v3), ([main_v3], main_v4),
   ([main_v2, main_v4], main_v5)]
theorem opsP0_0_reads : ReadsAll (opsP0_0 : List (HloOp τ sig (Elt F))) dataP0_0 :=
  .cons (reshape_reads ..) (.cons (unary_reads ..) (.cons (binary_reads ..) (.cons (unary_reads ..) (.cons (unary_reads ..) (.cons (binary_reads ..) (.nil))))))

/-- The (operands, result) pairs of `opsP0_1`. -/
abbrev dataP0_1 : Data :=
  [([], main_call0_cst), ([main_call0_cst], main_call0_v0), ([main_v5, main_call0_v0], main_call0_v1), ([], main_call0_cst_0),
   ([main_call0_cst_0], main_call0_v2), ([main_call0_v2, main_v5], main_call0_v3), ([main_call0_v1, main_v5, main_call0_v3], main_v6)]
theorem opsP0_1_reads : ReadsAll (opsP0_1 : List (HloOp τ sig (Elt F))) dataP0_1 :=
  .cons (nullary_reads ..) (.cons (unary_reads ..) (.cons (binary_reads ..) (.cons (nullary_reads ..) (.cons (unary_reads ..) (.cons (binary_reads ..) (.cons (ternary_reads ..) (.nil)))))))

/-- The (operands, result) pairs of `opsP0_2`. -/
abbrev dataP0_2 : Data :=
  [([main_arg3], main_v7), ([main_v6, main_v7], main_v8), ([main_arg4], main_v9), ([main_v9], main_v10), ([main_v8, main_v10], main_v11)]
theorem opsP0_2_reads : ReadsAll (opsP0_2 : List (HloOp τ sig (Elt F))) dataP0_2 :=
  .cons (unary_reads ..) (.cons (binary_reads ..) (.cons (unary_reads ..) (.cons (unary_reads ..) (.cons (binary_reads ..) (.nil)))))

/-- The (operands, result) pairs of `opsP0_3`. -/
abbrev dataP0_3 : Data :=
  [([], main_call1_cst), ([main_call1_cst], main_call1_v0), ([main_v11, main_call1_v0], main_call1_v1), ([], main_call1_cst_0),
   ([main_call1_cst_0], main_call1_v2), ([main_call1_v2, main_v11], main_call1_v3), ([main_call1_v1, main_v11, main_call1_v3], main_v12)]
theorem opsP0_3_reads : ReadsAll (opsP0_3 : List (HloOp τ sig (Elt F))) dataP0_3 :=
  .cons (nullary_reads ..) (.cons (unary_reads ..) (.cons (binary_reads ..) (.cons (nullary_reads ..) (.cons (unary_reads ..) (.cons (binary_reads ..) (.cons (ternary_reads ..) (.nil)))))))

/-- The (operands, result) pairs of `opsP0_4`. -/
abbrev dataP0_4 : Data :=
  [([main_arg5], main_v13), ([main_v12, main_v13], main_v14), ([main_arg6], main_v15), ([main_v15], main_v16), ([main_v14, main_v16], main_v17)]
theorem opsP0_4_reads : ReadsAll (opsP0_4 : List (HloOp τ sig (Elt F))) dataP0_4 :=
  .cons (unary_reads ..) (.cons (binary_reads ..) (.cons (unary_reads ..) (.cons (unary_reads ..) (.cons (binary_reads ..) (.nil)))))

/-- The (operands, result) pairs of `opsP0_5`. -/
abbrev dataP0_5 : Data :=
  [([], main_call2_cst), ([main_call2_cst], main_call2_v0), ([main_v17, main_call2_v0], main_call2_v1), ([], main_call2_cst_0),
   ([main_call2_cst_0], main_call2_v2), ([main_call2_v2, main_v17], main_call2_v3), ([main_call2_v1, main_v17, main_call2_v3], main_v18)]
theorem opsP0_5_reads : ReadsAll (opsP0_5 : List (HloOp τ sig (Elt F))) dataP0_5 :=
  .cons (nullary_reads ..) (.cons (unary_reads ..) (.cons (binary_reads ..) (.cons (nullary_reads ..) (.cons (unary_reads ..) (.cons (binary_reads ..) (.cons (ternary_reads ..) (.nil)))))))

/-- The (operands, result) pairs of `opsP0_6`. -/
abbrev dataP0_6 : Data :=
  [([main_v18], main_v19), ([main_arg7], main_v20), ([main_v19, main_v20], main_v21), ([main_arg8], main_v22), ([main_v22], main_v23),
   ([main_v21, main_v23], main_v24), ([main_arg9], main_v25), ([main_v24, main_v25], main_v26), ([main_arg10], main_v27),
   ([main_v27], main_v28), ([main_v26, main_v28], main_v29)]
theorem opsP0_6_reads : ReadsAll (opsP0_6 : List (HloOp τ sig (Elt F))) dataP0_6 :=
  .cons (unary_reads ..) (.cons (unary_reads ..) (.cons (binary_reads ..) (.cons (unary_reads ..) (.cons (unary_reads ..) (.cons (binary_reads ..) (.cons (unary_reads ..) (.cons (binary_reads ..) (.cons (unary_reads ..) (.cons (unary_reads ..) (.cons (binary_reads ..) (.nil)))))))))))

/-- The (operands, result) pairs of `opsP0_7`. -/
abbrev dataP0_7 : Data :=
  [([], main_call3_cst), ([main_call3_cst], main_call3_v0), ([main_v29, main_call3_v0], main_call3_v1), ([], main_call3_cst_0),
   ([main_call3_cst_0], main_call3_v2), ([main_call3_v2, main_v29], main_call3_v3), ([main_call3_v1, main_v29, main_call3_v3], main_v30)]
theorem opsP0_7_reads : ReadsAll (opsP0_7 : List (HloOp τ sig (Elt F))) dataP0_7 :=
  .cons (nullary_reads ..) (.cons (unary_reads ..) (.cons (binary_reads ..) (.cons (nullary_reads ..) (.cons (unary_reads ..) (.cons (binary_reads ..) (.cons (ternary_reads ..) (.nil)))))))

/-- The (operands, result) pairs of `opsP0_8`. -/
abbrev dataP0_8 : Data :=
  [([main_arg11], main_v31), ([main_v30, main_v31], main_v32), ([main_arg12], main_v33), ([main_v33], main_v34),
   ([main_v32, main_v34], main_v35)]
theorem opsP0_8_reads : ReadsAll (opsP0_8 : List (HloOp τ sig (Elt F))) dataP0_8 :=
  .cons (unary_reads ..) (.cons (binary_reads ..) (.cons (unary_reads ..) (.cons (unary_reads ..) (.cons (binary_reads ..) (.nil)))))

/-- The (operands, result) pairs of `opsP0_9`. -/
abbrev dataP0_9 : Data :=
  [([], main_call4_cst), ([main_call4_cst], main_call4_v0), ([main_v35, main_call4_v0], main_call4_v1), ([], main_call4_cst_0),
   ([main_call4_cst_0], main_call4_v2), ([main_call4_v2, main_v35], main_call4_v3), ([main_call4_v1, main_v35, main_call4_v3], main_v36)]
theorem opsP0_9_reads : ReadsAll (opsP0_9 : List (HloOp τ sig (Elt F))) dataP0_9 :=
  .cons (nullary_reads ..) (.cons (unary_reads ..) (.cons (binary_reads ..) (.cons (nullary_reads ..) (.cons (unary_reads ..) (.cons (binary_reads ..) (.cons (ternary_reads ..) (.nil)))))))

/-- The (operands, result) pairs of `opsP0_10`. -/
abbrev dataP0_10 : Data :=
  [([main_arg13], main_v37), ([main_v36, main_v37], main_v38), ([main_arg14], main_v39), ([main_v39], main_v40),
   ([main_v38, main_v40], main_v41)]
theorem opsP0_10_reads : ReadsAll (opsP0_10 : List (HloOp τ sig (Elt F))) dataP0_10 :=
  .cons (unary_reads ..) (.cons (binary_reads ..) (.cons (unary_reads ..) (.cons (unary_reads ..) (.cons (binary_reads ..) (.nil)))))

/-- The (operands, result) pairs of `opsP0_11`. -/
abbrev dataP0_11 : Data :=
  [([], main_call5_cst), ([main_call5_cst], main_call5_v0), ([main_v41, main_call5_v0], main_call5_v1), ([], main_call5_cst_0),
   ([main_call5_cst_0], main_call5_v2), ([main_call5_v2, main_v41], main_call5_v3), ([main_call5_v1, main_v41, main_call5_v3], main_v42)]
theorem opsP0_11_reads : ReadsAll (opsP0_11 : List (HloOp τ sig (Elt F))) dataP0_11 :=
  .cons (nullary_reads ..) (.cons (unary_reads ..) (.cons (binary_reads ..) (.cons (nullary_reads ..) (.cons (unary_reads ..) (.cons (binary_reads ..) (.cons (ternary_reads ..) (.nil)))))))

/-- The (operands, result) pairs of `opsP0_12`. -/
abbrev dataP0_12 : Data :=
  [([main_arg15], main_v43), ([main_v42, main_v43], main_v44), ([main_arg16], main_v45), ([main_v45], main_v46),
   ([main_v44, main_v46], main_v47), ([main_v47], main_v48), ([main_v48], main_v49), ([], main_cst), ([main_cst], main_v50),
   ([main_v50, main_v49], main_v51), ([], main_cst_0), ([main_cst_0], main_v52), ([main_v52, main_v51], main_v53), ([main_v53], main_v54),
   ([main_v0, main_v0], main_v55), ([], main_cst_1), ([main_v55, main_cst_1], main_v56)]
theorem opsP0_12_reads : ReadsAll (opsP0_12 : List (HloOp τ sig (Elt F))) dataP0_12 :=
  .cons (unary_reads ..) (.cons (binary_reads ..) (.cons (unary_reads ..) (.cons (unary_reads ..) (.cons (binary_reads ..) (.cons (unary_reads ..) (.cons (unary_reads ..) (.cons (nullary_reads ..) (.cons (unary_reads ..) (.cons (binary_reads ..) (.cons (nullary_reads ..) (.cons (unary_reads ..) (.cons (binary_reads ..) (.cons (reshape_reads ..) (.cons (binary_reads ..) (.cons (nullary_reads ..) (.cons (binary_reads ..) (.nil)))))))))))))))))

/-- The pairs of window 0's line. -/
abbrev dataP0 : Data :=
  dataP0_0 ++ (dataP0_1 ++ (dataP0_2 ++ (dataP0_3 ++ (dataP0_4 ++ (dataP0_5 ++ (dataP0_6 ++ (dataP0_7 ++ (dataP0_8 ++ (dataP0_9 ++ (dataP0_10 ++ (dataP0_11 ++ (dataP0_12))))))))))))
theorem opsP0_reads : ReadsAll (opsP0 : List (HloOp τ sig (Elt F))) dataP0 :=
  (opsP0_0_reads).append ((opsP0_1_reads).append ((opsP0_2_reads).append ((opsP0_3_reads).append ((opsP0_4_reads).append ((opsP0_5_reads).append ((opsP0_6_reads).append ((opsP0_7_reads).append ((opsP0_8_reads).append ((opsP0_9_reads).append ((opsP0_10_reads).append ((opsP0_11_reads).append (opsP0_12_reads))))))))))))

end Cert.ReferenceIdeal.Hand

end
-- ==== Proof.Ref.Run1.lean ====
import proofs.«135652_j20272245637753_1_alg».proof.Proof.Ref.Base

/-! # The reference's run, window 1

Window 1 of the reference @main (`main_part1`) as a list of host operations, cut into stretches at the calls:
@main's own operations between two calls are one stretch, a called function's body — with the bodies of the
functions it calls in turn — over that call's buffers is the next. Beside each stretch: every operation touches
TensorCore buffers only, writes no argument of @main, and determines what it writes. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- 13 operations of @main's own, in order. -/
abbrev opsP1_0 : List (HloOp τ sig (Elt F)) :=
  [ StableHlo.unary main_v56 main_v57 (broadcastInDim S4096x1 ![0] bcast_S4096_S4096x1_0 : (⟨S4096, .f32⟩ : BufTy).Contents (Elt F) → (⟨S4096x1, .f32⟩ : BufTy).Contents (Elt F)),
    StableHlo.unary main_v56 main_v58 (broadcastInDim S1x4096 ![1] bcast_S4096_S1x4096_1 : (⟨S4096, .f32⟩ : BufTy).Contents (Elt F) → (⟨S1x4096, .f32⟩ : BufTy).Contents (Elt F)),
    StableHlo.unary main_v57 main_v59 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v58 main_v60 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v59 main_v60 main_v61 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v62 ((transpose S784x4096 [1, 0] · transposes_S4096x784_S784x4096_1_0) : (⟨S4096x784, .f32⟩ : BufTy).Contents (Elt F) → (⟨S784x4096, .f32⟩ : BufTy).Contents (Elt F)),
    StableHlo.binary main_v0 main_v62 main_v63 ((fun l r => Host.dotGeneral dot_S4096x784_S784x4096_S4096x4096_1_0_0_1_n_n none l r) : (⟨S4096x784, .f32⟩ : BufTy).Contents (Elt F) → (⟨S784x4096, .f32⟩ : BufTy).Contents (Elt F) → (⟨S4096x4096, .f32⟩ : BufTy).Contents (Elt F)),
    StableHlo.nullary main_cst_2 (constant S_ .f32 0x40000000#32),
    StableHlo.unary main_cst_2 main_v64 (broadcastInDim S4096x4096 ![] bcast_S_S4096x4096 : (⟨S_, .f32⟩ : BufTy).Contents (Elt F) → (⟨S4096x4096, .f32⟩ : BufTy).Contents (Elt F)),
    StableHlo.binary main_v64 main_v63 main_v65 (mulf : (⟨S4096x4096, .f32⟩ : BufTy).Contents (Elt F) → (⟨S4096x4096, .f32⟩ : BufTy).Contents (Elt F) → (⟨S4096x4096, .f32⟩ : BufTy).Contents (Elt F)),
    StableHlo.binary main_v61 main_v65 main_v66 (subf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x3F800000#32),
    StableHlo.unary main_cst_3 main_v67 (broadcastInDim S4096x4096 ![] bcast_S_S4096x4096 : (⟨S_, .f32⟩ : BufTy).Contents (Elt F) → (⟨S4096x4096, .f32⟩ : BufTy).Contents (Elt F)) ]
theorem opsP1_0_sub : (opsP1_0 : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..⟩
theorem opsP1_0_keeps : (opsP1_0 : List (HloOp τ sig (Elt F))).Forall KeepsArgs :=
  ⟨⟨main_v57, rfl, by decide⟩, ⟨main_v58, rfl, by decide⟩, ⟨main_v59, rfl, by decide⟩, ⟨main_v60, rfl, by decide⟩, ⟨main_v61, rfl, by decide⟩,
    ⟨main_v62, rfl, by decide⟩, ⟨main_v63, rfl, by decide⟩, ⟨main_cst_2, rfl, by decide⟩, ⟨main_v64, rfl, by decide⟩, ⟨main_v65, rfl, by decide⟩,
    ⟨main_v66, rfl, by decide⟩, ⟨main_cst_3, rfl, by decide⟩, ⟨main_v67, rfl, by decide⟩⟩
theorem opsP1_0_fresh : (opsP1_0 : List (HloOp τ sig (Elt F))).Forall fun op => op.fresh = ∅ :=
  ⟨rfl, rfl, rfl, rfl, rfl, rfl, rfl, rfl, rfl, rfl, rfl, rfl, rfl⟩

/-- The 9 operations of the call of `triu`: the row index, the offset zero and its broadcast, their sum, the column index, the comparison, the float zero and its broadcast, the select — over the call's buffers `main_call6`, in order. -/
abbrev opsP1_1 : List (HloOp τ sig (Elt F)) :=
  [ StableHlo.TRef.nullary (.of main_call6_v0 : StableHlo.TRef sig ⟨S4096x4096, .i32⟩) (iotaInDim S4096x4096 32 0),
    StableHlo.TRef.nullary (.of main_call6_c : StableHlo.TRef sig ⟨S_, .i32⟩) (constantI S_ 32 0#32),
    StableHlo.TRef.unary (.of main_call6_c : StableHlo.TRef sig ⟨S_, .i32⟩) (.of main_call6_v1 : StableHlo.TRef sig ⟨S4096x4096, .i32⟩) (broadcastInDim S4096x4096 ![] bcast_S_S4096x4096),
    StableHlo.TRef.binary (.of main_call6_v0 : StableHlo.TRef sig ⟨S4096x4096, .i32⟩) (.of main_call6_v1 : StableHlo.TRef sig ⟨S4096x4096, .i32⟩) (.of main_call6_v2 : StableHlo.TRef sig ⟨S4096x4096, .i32⟩) addi,
    StableHlo.TRef.nullary (.of main_call6_v3 : StableHlo.TRef sig ⟨S4096x4096, .i32⟩) (iotaInDim S4096x4096 32 1),
    StableHlo.TRef.binary (.of main_call6_v2 : StableHlo.TRef sig ⟨S4096x4096, .i32⟩) (.of main_call6_v3 : StableHlo.TRef sig ⟨S4096x4096, .i32⟩) (.of main_call6_v4 : StableHlo.TRef sig ⟨S4096x4096, .i1⟩) (cmpi .sge),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v5 : StableHlo.TRef sig ⟨S4096x4096, .f32⟩) (broadcastInDim S4096x4096 ![] bcast_S_S4096x4096),
    StableHlo.TRef.ternary (.of main_call6_v4 : StableHlo.TRef sig ⟨S4096x4096, .i1⟩) (.of main_call6_v5 : StableHlo.TRef sig ⟨S4096x4096, .f32⟩) (.of main_v67 : StableHlo.TRef sig ⟨S4096x4096, .f32⟩) (.of main_v68 : StableHlo.TRef sig ⟨S4096x4096, .f32⟩) select ]
theorem opsP1_1_sub : (opsP1_1 : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub ..,
    unary_bufs_sub .., ternary_bufs_sub ..⟩
theorem opsP1_1_keeps : (opsP1_1 : List (HloOp τ sig (Elt F))).Forall KeepsArgs :=
  ⟨⟨main_call6_v0, rfl, by decide⟩, ⟨main_call6_c, rfl, by decide⟩, ⟨main_call6_v1, rfl, by decide⟩, ⟨main_call6_v2, rfl, by decide⟩,
    ⟨main_call6_v3, rfl, by decide⟩, ⟨main_call6_v4, rfl, by decide⟩, ⟨main_call6_cst, rfl, by decide⟩, ⟨main_call6_v5, rfl, by decide⟩,
    ⟨main_v68, rfl, by decide⟩⟩
theorem opsP1_1_fresh : (opsP1_1 : List (HloOp τ sig (Elt F))).Forall fun op => op.fresh = ∅ :=
  ⟨rfl, rfl, rfl, rfl, rfl, rfl, rfl, rfl, rfl⟩

/-- 3 operations of @main's own, in order. -/
abbrev opsP1_2 : List (HloOp τ sig (Elt F)) :=
  [ StableHlo.nullary main_cst_4 (constant S_ .f32 0x00000000#32),
    StableHlo.unary main_cst_4 main_v69 (broadcastInDim S4096x4096 ![] bcast_S_S4096x4096 : (⟨S_, .f32⟩ : BufTy).Contents (Elt F) → (⟨S4096x4096, .f32⟩ : BufTy).Contents (Elt F)),
    StableHlo.binary main_v68 main_v69 main_v70 (cmpf .une : (⟨S4096x4096, .f32⟩ : BufTy).Contents (Elt F) → (⟨S4096x4096, .f32⟩ : BufTy).Contents (Elt F) → (⟨S4096x4096, .i1⟩ : BufTy).Contents (Elt F)) ]
theorem opsP1_2_sub : (opsP1_2 : List (HloOp τ sig (Elt F))).Forall fun op => op.bufs ⊆ tcRefs τ sig :=
  ⟨nullary_bufs_sub .., unary_bufs_sub .., binary_bufs_sub ..⟩
theorem opsP1_2_keeps : (opsP1_2 : List (HloOp τ sig (Elt F))).Forall KeepsArgs :=
  ⟨⟨main_cst_4, rfl, by decide⟩, ⟨main_v69, rfl, by decide⟩, ⟨main_v70, rfl, by decide⟩⟩
theorem opsP1_2_fresh : (opsP1_2 : List (HloOp τ sig (Elt F))).Forall fun op => op.fresh = ∅ :=
  ⟨rfl, rfl, rfl⟩

/-- The 5 operations of the call of `cumsum`: the flattening, the conversion to integers, and `cumsum`'s inner zero, its broadcast and the running sum as a reduce-window — over the call's buffers `main_call7`, in order. -/
abbrev opsP1_3 : List (HloOp τ sig (Elt F)) :=
  [ StableHlo.TRef.reshape (.of main_v70 : StableHlo.TRef sig ⟨S4096x4096, .i1⟩) (.of main_call7_v0 : StableHlo.TRef sig ⟨S16777216, .i1⟩) rfl shapeCasts_S4096x4096_S16777216,
    StableHlo.TRef.unary (.of main_call7_v0 : StableHlo.TRef sig ⟨S16777216, .i1⟩) (.of main_call7_v1 : StableHlo.TRef sig ⟨S16777216, .i32⟩) (extui 32 · natLt_1_32),
    StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_call7_v1 : StableHlo.TRef sig ⟨S16777216, .i32⟩) (.of main_call7_call0_v0 : StableHlo.TRef sig ⟨S_, .i32⟩) (.of main_v71 : StableHlo.TRef sig ⟨S16777216, .i32⟩) (fun x v => Host.reduceWindow IntOp.addi ![16777216] ![1] ![16777215] ![0] x v reduceWindows_S16777216_S16777216_w16777216s1p16777215_0 h_S_) ]
theorem opsP1_3_sub : (opsP1_3 : List (HloOp τ sig (Elt F))).Forall fun op => op.bufs ⊆ tcRefs τ sig :=
  ⟨reshape_bufs_sub .., unary_bufs_sub .., nullary_bufs_sub .., unary_bufs_sub .., binary_bufs_sub ..⟩
theorem opsP1_3_keeps : (opsP1_3 : List (HloOp τ sig (Elt F))).Forall KeepsArgs :=
  ⟨⟨main_call7_v0, rfl, by decide⟩, ⟨main_call7_v1, rfl, by decide⟩, ⟨main_call7_call0_c, rfl, by decide⟩, ⟨main_call7_call0_v0, rfl, by decide⟩,
    ⟨main_v71, rfl, by decide⟩⟩
theorem opsP1_3_fresh : (opsP1_3 : List (HloOp τ sig (Elt F))).Forall fun op => op.fresh = ∅ :=
  ⟨rfl, rfl, rfl, rfl, rfl⟩

/-- 3 operations of @main's own, in order. -/
abbrev opsP1_4 : List (HloOp τ sig (Elt F)) :=
  [ StableHlo.nullary main_c (constantI S_ 32 0#32),
    StableHlo.unary main_c main_v72 (broadcastInDim S8386560 ![] bcast_S_S8386560 : (⟨S_, .i32⟩ : BufTy).Contents (Elt F) → (⟨S8386560, .i32⟩ : BufTy).Contents (Elt F)),
    StableHlo.nullary main_c_5 (constantI S_ 32 0#32) ]
theorem opsP1_4_sub : (opsP1_4 : List (HloOp τ sig (Elt F))).Forall fun op => op.bufs ⊆ tcRefs τ sig :=
  ⟨nullary_bufs_sub .., unary_bufs_sub .., nullary_bufs_sub ..⟩
theorem opsP1_4_keeps : (opsP1_4 : List (HloOp τ sig (Elt F))).Forall KeepsArgs :=
  ⟨⟨main_c, rfl, by decide⟩, ⟨main_v72, rfl, by decide⟩, ⟨main_c_5, rfl, by decide⟩⟩
theorem opsP1_4_fresh : (opsP1_4 : List (HloOp τ sig (Elt F))).Forall fun op => op.fresh = ∅ :=
  ⟨rfl, rfl, rfl⟩

/-- The 3 operations of the call of `clip`: the lower bound converted, its broadcast, the maximum — over the call's buffers `main_call8`, in order. -/
abbrev opsP1_5 : List (HloOp τ sig (Elt F)) :=
  [ StableHlo.TRef.unary (.of main_c_5 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S16777216, .i32⟩) (broadcastInDim S16777216 ![] bcast_S_S16777216),
    StableHlo.TRef.binary (.of main_call8_v1 : StableHlo.TRef sig ⟨S16777216, .i32⟩) (.of main_v71 : StableHlo.TRef sig ⟨S16777216, .i32⟩) (.of main_v73 : StableHlo.TRef sig ⟨S16777216, .i32⟩) maxsi ]
theorem opsP1_5_sub : (opsP1_5 : List (HloOp τ sig (Elt F))).Forall fun op => op.bufs ⊆ tcRefs τ sig :=
  ⟨unary_bufs_sub .., unary_bufs_sub .., binary_bufs_sub ..⟩
theorem opsP1_5_keeps : (opsP1_5 : List (HloOp τ sig (Elt F))).Forall KeepsArgs :=
  ⟨⟨main_call8_v0, rfl, by decide⟩, ⟨main_call8_v1, rfl, by decide⟩, ⟨main_v73, rfl, by decide⟩⟩
theorem opsP1_5_fresh : (opsP1_5 : List (HloOp τ sig (Elt F))).Forall fun op => op.fresh = ∅ :=
  ⟨rfl, rfl, rfl⟩

/-- 11 operations of @main's own, in order. -/
abbrev opsP1_6 : List (HloOp τ sig (Elt F)) :=
  [ StableHlo.nullary main_c_6 (constantI S_ 32 0#32),
    StableHlo.unary main_c_6 main_v74 (broadcastInDim S16777216 ![] bcast_S_S16777216 : (⟨S_, .i32⟩ : BufTy).Contents (Elt F) → (⟨S16777216, .i32⟩ : BufTy).Contents (Elt F)),
    StableHlo.binary main_v73 main_v74 main_v75 (cmpi .slt : (⟨S16777216, .i32⟩ : BufTy).Contents (Elt F) → (⟨S16777216, .i32⟩ : BufTy).Contents (Elt F) → (⟨S16777216, .i1⟩ : BufTy).Contents (Elt F)),
    StableHlo.nullary main_c_7 (constantI S_ 32 8386560#32),
    StableHlo.unary main_c_7 main_v76 (broadcastInDim S16777216 ![] bcast_S_S16777216 : (⟨S_, .i32⟩ : BufTy).Contents (Elt F) → (⟨S16777216, .i32⟩ : BufTy).Contents (Elt F)),
    StableHlo.binary main_v73 main_v76 main_v77 (addi : (⟨S16777216, .i32⟩ : BufTy).Contents (Elt F) → (⟨S16777216, .i32⟩ : BufTy).Contents (Elt F) → (⟨S16777216, .i32⟩ : BufTy).Contents (Elt F)),
    StableHlo.ternary main_v75 main_v77 main_v73 main_v78 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v78 main_v79 (broadcastInDim S16777216x1 ![0] bcast_S16777216_S16777216x1_0 : (⟨S16777216, .i32⟩ : BufTy).Contents (Elt F) → (⟨S16777216x1, .i32⟩ : BufTy).Contents (Elt F)),
    StableHlo.nullary main_c_8 (constantI S_ 32 1#32),
    StableHlo.unary main_c_8 main_v80 (broadcastInDim S16777216 ![] bcast_S_S16777216 : (⟨S_, .i32⟩ : BufTy).Contents (Elt F) → (⟨S16777216, .i32⟩ : BufTy).Contents (Elt F)),
    StableHlo.ternary main_v72 main_v79 main_v80 main_v81 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]
theorem opsP1_6_sub : (opsP1_6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., unary_bufs_sub .., ternary_bufs_sub ..⟩
theorem opsP1_6_keeps : (opsP1_6 : List (HloOp τ sig (Elt F))).Forall KeepsArgs :=
  ⟨⟨main_c_6, rfl, by decide⟩, ⟨main_v74, rfl, by decide⟩, ⟨main_v75, rfl, by decide⟩, ⟨main_c_7, rfl, by decide⟩, ⟨main_v76, rfl, by decide⟩,
    ⟨main_v77, rfl, by decide⟩, ⟨main_v78, rfl, by decide⟩, ⟨main_v79, rfl, by decide⟩, ⟨main_c_8, rfl, by decide⟩, ⟨main_v80, rfl, by decide⟩,
    ⟨main_v81, rfl, by decide⟩⟩
theorem opsP1_6_fresh : (opsP1_6 : List (HloOp τ sig (Elt F))).Forall fun op => op.fresh = ∅ :=
  ⟨rfl, rfl, rfl, rfl, rfl, rfl, rfl, rfl, rfl, rfl, rfl⟩

/-- The 3 operations of the call of `cumsum`: the zero, its broadcast and the running sum as a reduce-window — over the call's buffers `main_call9`, in order. -/
abbrev opsP1_7 : List (HloOp τ sig (Elt F)) :=
  [ StableHlo.TRef.nullary (.of main_call9_call0_c : StableHlo.TRef sig ⟨S_, .i32⟩) (constantI S_ 32 0#32),
    StableHlo.TRef.unary (.of main_call9_call0_c : StableHlo.TRef sig ⟨S_, .i32⟩) (.of main_call9_call0_v0 : StableHlo.TRef sig ⟨S_, .i32⟩) (broadcastInDim S_ ![] bcast_S_S_),
    StableHlo.TRef.binary (.of main_v81 : StableHlo.TRef sig ⟨S8386560, .i32⟩) (.of main_call9_call0_v0 : StableHlo.TRef sig ⟨S_, .i32⟩) (.of main_v82 : StableHlo.TRef sig ⟨S8386560, .i32⟩) (fun x v => Host.reduceWindow IntOp.addi ![8386560] ![1] ![8386559] ![0] x v reduceWindows_S8386560_S8386560_w8386560s1p8386559_0 h_S_) ]
theorem opsP1_7_sub : (opsP1_7 : List (HloOp τ sig (Elt F))).Forall fun op => op.bufs ⊆ tcRefs τ sig :=
  ⟨nullary_bufs_sub .., unary_bufs_sub .., binary_bufs_sub ..⟩
theorem opsP1_7_keeps : (opsP1_7 : List (HloOp τ sig (Elt F))).Forall KeepsArgs :=
  ⟨⟨main_call9_call0_c, rfl, by decide⟩, ⟨main_call9_call0_v0, rfl, by decide⟩, ⟨main_v82, rfl, by decide⟩⟩
theorem opsP1_7_fresh : (opsP1_7 : List (HloOp τ sig (Elt F))).Forall fun op => op.fresh = ∅ :=
  ⟨rfl, rfl, rfl⟩

/-- 1 operation of @main's own, in order. -/
abbrev opsP1_8 : List (HloOp τ sig (Elt F)) :=
  [ StableHlo.nullary main_c_9 (constantI S_ 32 4096#32) ]
theorem opsP1_8_sub : (opsP1_8 : List (HloOp τ sig (Elt F))).Forall fun op => op.bufs ⊆ tcRefs τ sig :=
  nullary_bufs_sub ..
theorem opsP1_8_keeps : (opsP1_8 : List (HloOp τ sig (Elt F))).Forall KeepsArgs :=
  ⟨main_c_9, rfl, by decide⟩
theorem opsP1_8_fresh : (opsP1_8 : List (HloOp τ sig (Elt F))).Forall fun op => op.fresh = ∅ :=
  rfl

/-- The 16 operations of the call of `floor_divide`: the divisor's broadcast, the quotient, the two signs and their comparison, the remainder and its comparison with zero, the conjunction, the quotient less one, and `_where`'s select — over the call's buffers `main_call10`, in order. -/
abbrev opsP1_9 : List (HloOp τ sig (Elt F)) :=
  [ StableHlo.TRef.unary (.of main_c_9 : StableHlo.TRef sig ⟨S_, .i32⟩) (.of main_call10_v0 : StableHlo.TRef sig ⟨S8386560, .i32⟩) (broadcastInDim S8386560 ![] bcast_S_S8386560),
    StableHlo.TRef.binary (.of main_v82 : StableHlo.TRef sig ⟨S8386560, .i32⟩) (.of main_call10_v0 : StableHlo.TRef sig ⟨S8386560, .i32⟩) (.of main_call10_v1 : StableHlo.TRef sig ⟨S8386560, .i32⟩) Host.divsi,
    StableHlo.TRef.unary (.of main_v82 : StableHlo.TRef sig ⟨S8386560, .i32⟩) (.of main_call10_v2 : StableHlo.TRef sig ⟨S8386560, .i32⟩) signi,
    StableHlo.TRef.unary (.of main_c_9 : StableHlo.TRef sig ⟨S_, .i32⟩) (.of main_call10_v3 : StableHlo.TRef sig ⟨S_, .i32⟩) signi,
    StableHlo.TRef.unary (.of main_call10_v3 : StableHlo.TRef sig ⟨S_, .i32⟩) (.of main_call10_v4 : StableHlo.TRef sig ⟨S8386560, .i32⟩) (broadcastInDim S8386560 ![] bcast_S_S8386560),
    StableHlo.TRef.binary (.of main_call10_v2 : StableHlo.TRef sig ⟨S8386560, .i32⟩) (.of main_call10_v4 : StableHlo.TRef sig ⟨S8386560, .i32⟩) (.of main_call10_v5 : StableHlo.TRef sig ⟨S8386560, .i1⟩) (cmpi .ne),
    StableHlo.TRef.unary (.of main_c_9 : StableHlo.TRef sig ⟨S_, .i32⟩) (.of main_call10_v6 : StableHlo.TRef sig ⟨S8386560, .i32⟩) (broadcastInDim S8386560 ![] bcast_S_S8386560),
    StableHlo.TRef.binary (.of main_v82 : StableHlo.TRef sig ⟨S8386560, .i32⟩) (.of main_call10_v6 : StableHlo.TRef sig ⟨S8386560, .i32⟩) (.of main_call10_v7 : StableHlo.TRef sig ⟨S8386560, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v8 : StableHlo.TRef sig ⟨S8386560, .i32⟩) (broadcastInDim S8386560 ![] bcast_S_S8386560),
    StableHlo.TRef.binary (.of main_call10_v7 : StableHlo.TRef sig ⟨S8386560, .i32⟩) (.of main_call10_v8 : StableHlo.TRef sig ⟨S8386560, .i32⟩) (.of main_call10_v9 : StableHlo.TRef sig ⟨S8386560, .i1⟩) (cmpi .ne),
    StableHlo.TRef.binary (.of main_call10_v5 : StableHlo.TRef sig ⟨S8386560, .i1⟩) (.of main_call10_v9 : StableHlo.TRef sig ⟨S8386560, .i1⟩) (.of main_call10_v10 : StableHlo.TRef sig ⟨S8386560, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v11 : StableHlo.TRef sig ⟨S8386560, .i32⟩) (broadcastInDim S8386560 ![] bcast_S_S8386560),
    StableHlo.TRef.binary (.of main_call10_v1 : StableHlo.TRef sig ⟨S8386560, .i32⟩) (.of main_call10_v11 : StableHlo.TRef sig ⟨S8386560, .i32⟩) (.of main_call10_v12 : StableHlo.TRef sig ⟨S8386560, .i32⟩) subi,
    StableHlo.TRef.ternary (.of main_call10_v10 : StableHlo.TRef sig ⟨S8386560, .i1⟩) (.of main_call10_v12 : StableHlo.TRef sig ⟨S8386560, .i32⟩) (.of main_call10_v1 : StableHlo.TRef sig ⟨S8386560, .i32⟩) (.of main_v83 : StableHlo.TRef sig ⟨S8386560, .i32⟩) select ]
theorem opsP1_9_sub : (opsP1_9 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub ..,
    binary_bufs_sub .., ternary_bufs_sub ..⟩
theorem opsP1_9_keeps : (opsP1_9 : List (HloOp τ sig (Elt F))).Forall KeepsArgs :=
  ⟨⟨main_call10_v0, rfl, by decide⟩, ⟨main_call10_v1, rfl, by decide⟩, ⟨main_call10_v2, rfl, by decide⟩, ⟨main_call10_v3, rfl, by decide⟩,
    ⟨main_call10_v4, rfl, by decide⟩, ⟨main_call10_v5, rfl, by decide⟩, ⟨main_call10_v6, rfl, by decide⟩, ⟨main_call10_v7, rfl, by decide⟩,
    ⟨main_call10_c, rfl, by decide⟩, ⟨main_call10_v8, rfl, by decide⟩, ⟨main_call10_v9, rfl, by decide⟩, ⟨main_call10_v10, rfl, by decide⟩,
    ⟨main_call10_c_0, rfl, by decide⟩, ⟨main_call10_v11, rfl, by decide⟩, ⟨main_call10_v12, rfl, by decide⟩, ⟨main_v83, rfl, by decide⟩⟩
theorem opsP1_9_fresh : (opsP1_9 : List (HloOp τ sig (Elt F))).Forall fun op => op.fresh = ∅ :=
  ⟨rfl, rfl, rfl, rfl, rfl, rfl, rfl, rfl, rfl, rfl, rfl, rfl, rfl, rfl, rfl, rfl⟩

/-- 1 operation of @main's own, in order. -/
abbrev opsP1_10 : List (HloOp τ sig (Elt F)) :=
  [ StableHlo.nullary main_c_10 (constantI S_ 32 4096#32) ]
theorem opsP1_10_sub : (opsP1_10 : List (HloOp τ sig (Elt F))).Forall fun op => op.bufs ⊆ tcRefs τ sig :=
  nullary_bufs_sub ..
theorem opsP1_10_keeps : (opsP1_10 : List (HloOp τ sig (Elt F))).Forall KeepsArgs :=
  ⟨main_c_10, rfl, by decide⟩
theorem opsP1_10_fresh : (opsP1_10 : List (HloOp τ sig (Elt F))).Forall fun op => op.fresh = ∅ :=
  rfl

/-- The 21 operations of the call of `remainder`: the divisor converted, its comparison with zero and `_where`'s select of one in its place, the remainder by it, its comparisons with zero, the divisor's sign broadcast, the conjunction, the remainder plus the divisor, the select — over the call's buffers `main_call11`, in order. -/
abbrev opsP1_11 : List (HloOp τ sig (Elt F)) :=
  [ StableHlo.TRef.unary (.of main_c_10 : StableHlo.TRef sig ⟨S_, .i32⟩) (.of main_call11_v0 : StableHlo.TRef sig ⟨S_, .i32⟩) id,
    StableHlo.TRef.nullary (.of main_call11_c : StableHlo.TRef sig ⟨S_, .i32⟩) (constantI S_ 32 0#32),
    StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq),
    StableHlo.TRef.nullary (.of main_call11_c_0 : StableHlo.TRef sig ⟨S_, .i32⟩) (constantI S_ 32 1#32),
    StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select,
    StableHlo.TRef.unary main_call11_call0.v0 (.of main_call11_v3 : StableHlo.TRef sig ⟨S8386560, .i32⟩) (broadcastInDim S8386560 ![] bcast_S_S8386560),
    StableHlo.TRef.binary (.of main_v83 : StableHlo.TRef sig ⟨S8386560, .i32⟩) (.of main_call11_v3 : StableHlo.TRef sig ⟨S8386560, .i32⟩) (.of main_call11_v4 : StableHlo.TRef sig ⟨S8386560, .i32⟩) Host.remsi,
    StableHlo.TRef.nullary (.of main_call11_c_1 : StableHlo.TRef sig ⟨S_, .i32⟩) (constantI S_ 32 0#32),
    StableHlo.TRef.unary (.of main_call11_c_1 : StableHlo.TRef sig ⟨S_, .i32⟩) (.of main_call11_v5 : StableHlo.TRef sig ⟨S8386560, .i32⟩) (broadcastInDim S8386560 ![] bcast_S_S8386560),
    StableHlo.TRef.binary (.of main_call11_v4 : StableHlo.TRef sig ⟨S8386560, .i32⟩) (.of main_call11_v5 : StableHlo.TRef sig ⟨S8386560, .i32⟩) (.of main_call11_v6 : StableHlo.TRef sig ⟨S8386560, .i1⟩) (cmpi .ne),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v7 : StableHlo.TRef sig ⟨S8386560, .i32⟩) (broadcastInDim S8386560 ![] bcast_S_S8386560),
    StableHlo.TRef.binary (.of main_call11_v4 : StableHlo.TRef sig ⟨S8386560, .i32⟩) (.of main_call11_v7 : StableHlo.TRef sig ⟨S8386560, .i32⟩) (.of main_call11_v8 : StableHlo.TRef sig ⟨S8386560, .i1⟩) (cmpi .slt),
    StableHlo.TRef.nullary (.of main_call11_c_3 : StableHlo.TRef sig ⟨S_, .i32⟩) (constantI S_ 32 0#32),
    StableHlo.TRef.binary main_call11_call0.v0 (.of main_call11_c_3 : StableHlo.TRef sig ⟨S_, .i32⟩) (.of main_call11_v9 : StableHlo.TRef sig ⟨S_, .i1⟩) (cmpi .slt),
    StableHlo.TRef.unary (.of main_call11_v9 : StableHlo.TRef sig ⟨S_, .i1⟩) (.of main_call11_v10 : StableHlo.TRef sig ⟨S8386560, .i1⟩) (broadcastInDim S8386560 ![] bcast_S_S8386560),
    StableHlo.TRef.binary (.of main_call11_v8 : StableHlo.TRef sig ⟨S8386560, .i1⟩) (.of main_call11_v10 : StableHlo.TRef sig ⟨S8386560, .i1⟩) (.of main_call11_v11 : StableHlo.TRef sig ⟨S8386560, .i1⟩) (cmpi .ne),
    StableHlo.TRef.binary (.of main_call11_v11 : StableHlo.TRef sig ⟨S8386560, .i1⟩) (.of main_call11_v6 : StableHlo.TRef sig ⟨S8386560, .i1⟩) (.of main_call11_v12 : StableHlo.TRef sig ⟨S8386560, .i1⟩) andi,
    StableHlo.TRef.unary main_call11_call0.v0 (.of main_call11_v13 : StableHlo.TRef sig ⟨S8386560, .i32⟩) (broadcastInDim S8386560 ![] bcast_S_S8386560),
    StableHlo.TRef.binary (.of main_call11_v4 : StableHlo.TRef sig ⟨S8386560, .i32⟩) (.of main_call11_v13 : StableHlo.TRef sig ⟨S8386560, .i32⟩) (.of main_call11_v14 : StableHlo.TRef sig ⟨S8386560, .i32⟩) addi,
    StableHlo.TRef.ternary (.of main_call11_v12 : StableHlo.TRef sig ⟨S8386560, .i1⟩) (.of main_call11_v14 : StableHlo.TRef sig ⟨S8386560, .i32⟩) (.of main_call11_v4 : StableHlo.TRef sig ⟨S8386560, .i32⟩) (.of main_v84 : StableHlo.TRef sig ⟨S8386560, .i32⟩) select ]
theorem opsP1_11_sub : (opsP1_11 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..⟩
theorem opsP1_11_keeps : (opsP1_11 : List (HloOp τ sig (Elt F))).Forall KeepsArgs :=
  ⟨⟨main_call11_v0, rfl, by decide⟩, ⟨main_call11_c, rfl, by decide⟩, ⟨main_call11_v1, rfl, by decide⟩, ⟨main_call11_c_0, rfl, by decide⟩,
    ⟨main_call11_v2, rfl, by decide⟩, ⟨main_call11_v3, rfl, by decide⟩, ⟨main_call11_v4, rfl, by decide⟩, ⟨main_call11_c_1, rfl, by decide⟩,
    ⟨main_call11_v5, rfl, by decide⟩, ⟨main_call11_v6, rfl, by decide⟩, ⟨main_call11_c_2, rfl, by decide⟩, ⟨main_call11_v7, rfl, by decide⟩,
    ⟨main_call11_v8, rfl, by decide⟩, ⟨main_call11_c_3, rfl, by decide⟩, ⟨main_call11_v9, rfl, by decide⟩, ⟨main_call11_v10, rfl, by decide⟩,
    ⟨main_call11_v11, rfl, by decide⟩, ⟨main_call11_v12, rfl, by decide⟩, ⟨main_call11_v13, rfl, by decide⟩, ⟨main_call11_v14, rfl, by decide⟩,
    ⟨main_v84, rfl, by decide⟩⟩
theorem opsP1_11_fresh : (opsP1_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 1 operation of @main's own, in order. -/
abbrev opsP1_12 : List (HloOp τ sig (Elt F)) :=
  [ StableHlo.nullary main_c_11 (constantI S_ 32 1#32) ]
theorem opsP1_12_sub : (opsP1_12 : List (HloOp τ sig (Elt F))).Forall fun op => op.bufs ⊆ tcRefs τ sig :=
  nullary_bufs_sub ..
theorem opsP1_12_keeps : (opsP1_12 : List (HloOp τ sig (Elt F))).Forall KeepsArgs :=
  ⟨main_c_11, rfl, by decide⟩
theorem opsP1_12_fresh : (opsP1_12 : List (HloOp τ sig (Elt F))).Forall fun op => op.fresh = ∅ :=
  rfl

/-- The 16 operations of the call of `floor_divide`: the divisor's broadcast, the quotient, the two signs and their comparison, the remainder and its comparison with zero, the conjunction, the quotient less one, and `_where`'s select — over the call's buffers `main_call12`, in order. -/
abbrev opsP1_13 : List (HloOp τ sig (Elt F)) :=
  [ StableHlo.TRef.unary (.of main_c_11 : StableHlo.TRef sig ⟨S_, .i32⟩) (.of main_call12_v0 : StableHlo.TRef sig ⟨S8386560, .i32⟩) (broadcastInDim S8386560 ![] bcast_S_S8386560),
    StableHlo.TRef.binary (.of main_v82 : StableHlo.TRef sig ⟨S8386560, .i32⟩) (.of main_call12_v0 : StableHlo.TRef sig ⟨S8386560, .i32⟩) (.of main_call12_v1 : StableHlo.TRef sig ⟨S8386560, .i32⟩) Host.divsi,
    StableHlo.TRef.unary (.of main_v82 : StableHlo.TRef sig ⟨S8386560, .i32⟩) (.of main_call12_v2 : StableHlo.TRef sig ⟨S8386560, .i32⟩) signi,
    StableHlo.TRef.unary (.of main_c_11 : StableHlo.TRef sig ⟨S_, .i32⟩) (.of main_call12_v3 : StableHlo.TRef sig ⟨S_, .i32⟩) signi,
    StableHlo.TRef.unary (.of main_call12_v3 : StableHlo.TRef sig ⟨S_, .i32⟩) (.of main_call12_v4 : StableHlo.TRef sig ⟨S8386560, .i32⟩) (broadcastInDim S8386560 ![] bcast_S_S8386560),
    StableHlo.TRef.binary (.of main_call12_v2 : StableHlo.TRef sig ⟨S8386560, .i32⟩) (.of main_call12_v4 : StableHlo.TRef sig ⟨S8386560, .i32⟩) (.of main_call12_v5 : StableHlo.TRef sig ⟨S8386560, .i1⟩) (cmpi .ne),
    StableHlo.TRef.unary (.of main_c_11 : StableHlo.TRef sig ⟨S_, .i32⟩) (.of main_call12_v6 : StableHlo.TRef sig ⟨S8386560, .i32⟩) (broadcastInDim S8386560 ![] bcast_S_S8386560),
    StableHlo.TRef.binary (.of main_v82 : StableHlo.TRef sig ⟨S8386560, .i32⟩) (.of main_call12_v6 : StableHlo.TRef sig ⟨S8386560, .i32⟩) (.of main_call12_v7 : StableHlo.TRef sig ⟨S8386560, .i32⟩) Host.remsi,
    StableHlo.TRef.nullary (.of main_call12_c : StableHlo.TRef sig ⟨S_, .i32⟩) (constantI S_ 32 0#32),
    StableHlo.TRef.unary (.of main_call12_c : StableHlo.TRef sig ⟨S_, .i32⟩) (.of main_call12_v8 : StableHlo.TRef sig ⟨S8386560, .i32⟩) (broadcastInDim S8386560 ![] bcast_S_S8386560),
    StableHlo.TRef.binary (.of main_call12_v7 : StableHlo.TRef sig ⟨S8386560, .i32⟩) (.of main_call12_v8 : StableHlo.TRef sig ⟨S8386560, .i32⟩) (.of main_call12_v9 : StableHlo.TRef sig ⟨S8386560, .i1⟩) (cmpi .ne),
    StableHlo.TRef.binary (.of main_call12_v5 : StableHlo.TRef sig ⟨S8386560, .i1⟩) (.of main_call12_v9 : StableHlo.TRef sig ⟨S8386560, .i1⟩) (.of main_call12_v10 : StableHlo.TRef sig ⟨S8386560, .i1⟩) andi,
    StableHlo.TRef.nullary (.of main_call12_c_0 : StableHlo.TRef sig ⟨S_, .i32⟩) (constantI S_ 32 1#32),
    StableHlo.TRef.unary (.of main_call12_c_0 : StableHlo.TRef sig ⟨S_, .i32⟩) (.of main_call12_v11 : StableHlo.TRef sig ⟨S8386560, .i32⟩) (broadcastInDim S8386560 ![] bcast_S_S8386560),
    StableHlo.TRef.binary (.of main_call12_v1 : StableHlo.TRef sig ⟨S8386560, .i32⟩) (.of main_call12_v11 : StableHlo.TRef sig ⟨S8386560, .i32⟩) (.of main_call12_v12 : StableHlo.TRef sig ⟨S8386560, .i32⟩) subi,
    StableHlo.TRef.ternary (.of main_call12_v10 : StableHlo.TRef sig ⟨S8386560, .i1⟩) (.of main_call12_v12 : StableHlo.TRef sig ⟨S8386560, .i32⟩) (.of main_call12_v1 : StableHlo.TRef sig ⟨S8386560, .i32⟩) (.of main_v85 : StableHlo.TRef sig ⟨S8386560, .i32⟩) select ]
theorem opsP1_13_sub : (opsP1_13 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub ..,
    binary_bufs_sub .., ternary_bufs_sub ..⟩
theorem opsP1_13_keeps : (opsP1_13 : List (HloOp τ sig (Elt F))).Forall KeepsArgs :=
  ⟨⟨main_call12_v0, rfl, by decide⟩, ⟨main_call12_v1, rfl, by decide⟩, ⟨main_call12_v2, rfl, by decide⟩, ⟨main_call12_v3, rfl, by decide⟩,
    ⟨main_call12_v4, rfl, by decide⟩, ⟨main_call12_v5, rfl, by decide⟩, ⟨main_call12_v6, rfl, by decide⟩, ⟨main_call12_v7, rfl, by decide⟩,
    ⟨main_call12_c, rfl, by decide⟩, ⟨main_call12_v8, rfl, by decide⟩, ⟨main_call12_v9, rfl, by decide⟩, ⟨main_call12_v10, rfl, by decide⟩,
    ⟨main_call12_c_0, rfl, by decide⟩, ⟨main_call12_v11, rfl, by decide⟩, ⟨main_call12_v12, rfl, by decide⟩, ⟨main_v85, rfl, by decide⟩⟩
theorem opsP1_13_fresh : (opsP1_13 : List (HloOp τ sig (Elt F))).Forall fun op => op.fresh = ∅ :=
  ⟨rfl, rfl, rfl, rfl, rfl, rfl, rfl, rfl, rfl, rfl, rfl, rfl, rfl, rfl, rfl, rfl⟩

/-- 1 operation of @main's own, in order. -/
abbrev opsP1_14 : List (HloOp τ sig (Elt F)) :=
  [ StableHlo.nullary main_c_12 (constantI S_ 32 4096#32) ]
theorem opsP1_14_sub : (opsP1_14 : List (HloOp τ sig (Elt F))).Forall fun op => op.bufs ⊆ tcRefs τ sig :=
  nullary_bufs_sub ..
theorem opsP1_14_keeps : (opsP1_14 : List (HloOp τ sig (Elt F))).Forall KeepsArgs :=
  ⟨main_c_12, rfl, by decide⟩
theorem opsP1_14_fresh : (opsP1_14 : List (HloOp τ sig (Elt F))).Forall fun op => op.fresh = ∅ :=
  rfl

/-- The 21 operations of the call of `remainder`: the divisor converted, its comparison with zero and `_where`'s select of one in its place, the remainder by it, its comparisons with zero, the divisor's sign broadcast, the conjunction, the remainder plus the divisor, the select — over the call's buffers `main_call13`, in order. -/
abbrev opsP1_15 : List (HloOp τ sig (Elt F)) :=
  [ StableHlo.TRef.unary (.of main_c_12 : StableHlo.TRef sig ⟨S_, .i32⟩) (.of main_call13_v0 : StableHlo.TRef sig ⟨S_, .i32⟩) id,
    StableHlo.TRef.nullary (.of main_call13_c : StableHlo.TRef sig ⟨S_, .i32⟩) (constantI S_ 32 0#32),
    StableHlo.TRef.binary (.of main_call13_v0 : StableHlo.TRef sig ⟨S_, .i32⟩) (.of main_call13_c : StableHlo.TRef sig ⟨S_, .i32⟩) (.of main_call13_v1 : StableHlo.TRef sig ⟨S_, .i1⟩) (cmpi .eq),
    StableHlo.TRef.nullary (.of main_call13_c_0 : StableHlo.TRef sig ⟨S_, .i32⟩) (constantI S_ 32 1#32),
    StableHlo.TRef.ternary (.of main_call13_v1 : StableHlo.TRef sig ⟨S_, .i1⟩) (.of main_call13_c_0 : StableHlo.TRef sig ⟨S_, .i32⟩) (.of main_call13_v0 : StableHlo.TRef sig ⟨S_, .i32⟩) (.of main_call13_v2 : StableHlo.TRef sig ⟨S_, .i32⟩) select,
    StableHlo.TRef.unary main_call13_call0.v0 (.of main_call13_v3 : StableHlo.TRef sig ⟨S8386560, .i32⟩) (broadcastInDim S8386560 ![] bcast_S_S8386560),
    StableHlo.TRef.binary (.of main_v85 : StableHlo.TRef sig ⟨S8386560, .i32⟩) (.of main_call13_v3 : StableHlo.TRef sig ⟨S8386560, .i32⟩) (.of main_call13_v4 : StableHlo.TRef sig ⟨S8386560, .i32⟩) Host.remsi,
    StableHlo.TRef.nullary (.of main_call13_c_1 : StableHlo.TRef sig ⟨S_, .i32⟩) (constantI S_ 32 0#32),
    StableHlo.TRef.unary (.of main_call13_c_1 : StableHlo.TRef sig ⟨S_, .i32⟩) (.of main_call13_v5 : StableHlo.TRef sig ⟨S8386560, .i32⟩) (broadcastInDim S8386560 ![] bcast_S_S8386560),
    StableHlo.TRef.binary (.of main_call13_v4 : StableHlo.TRef sig ⟨S8386560, .i32⟩) (.of main_call13_v5 : StableHlo.TRef sig ⟨S8386560, .i32⟩) (.of main_call13_v6 : StableHlo.TRef sig ⟨S8386560, .i1⟩) (cmpi .ne),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v7 : StableHlo.TRef sig ⟨S8386560, .i32⟩) (broadcastInDim S8386560 ![] bcast_S_S8386560),
    StableHlo.TRef.binary (.of main_call13_v4 : StableHlo.TRef sig ⟨S8386560, .i32⟩) (.of main_call13_v7 : StableHlo.TRef sig ⟨S8386560, .i32⟩) (.of main_call13_v8 : StableHlo.TRef sig ⟨S8386560, .i1⟩) (cmpi .slt),
    StableHlo.TRef.nullary (.of main_call13_c_3 : StableHlo.TRef sig ⟨S_, .i32⟩) (constantI S_ 32 0#32),
    StableHlo.TRef.binary main_call13_call0.v0 (.of main_call13_c_3 : StableHlo.TRef sig ⟨S_, .i32⟩) (.of main_call13_v9 : StableHlo.TRef sig ⟨S_, .i1⟩) (cmpi .slt),
    StableHlo.TRef.unary (.of main_call13_v9 : StableHlo.TRef sig ⟨S_, .i1⟩) (.of main_call13_v10 : StableHlo.TRef sig ⟨S8386560, .i1⟩) (broadcastInDim S8386560 ![] bcast_S_S8386560),
    StableHlo.TRef.binary (.of main_call13_v8 : StableHlo.TRef sig ⟨S8386560, .i1⟩) (.of main_call13_v10 : StableHlo.TRef sig ⟨S8386560, .i1⟩) (.of main_call13_v11 : StableHlo.TRef sig ⟨S8386560, .i1⟩) (cmpi .ne),
    StableHlo.TRef.binary (.of main_call13_v11 : StableHlo.TRef sig ⟨S8386560, .i1⟩) (.of main_call13_v6 : StableHlo.TRef sig ⟨S8386560, .i1⟩) (.of main_call13_v12 : StableHlo.TRef sig ⟨S8386560, .i1⟩) andi,
    StableHlo.TRef.unary main_call13_call0.v0 (.of main_call13_v13 : StableHlo.TRef sig ⟨S8386560, .i32⟩) (broadcastInDim S8386560 ![] bcast_S_S8386560),
    StableHlo.TRef.binary (.of main_call13_v4 : StableHlo.TRef sig ⟨S8386560, .i32⟩) (.of main_call13_v13 : StableHlo.TRef sig ⟨S8386560, .i32⟩) (.of main_call13_v14 : StableHlo.TRef sig ⟨S8386560, .i32⟩) addi,
    StableHlo.TRef.ternary (.of main_call13_v12 : StableHlo.TRef sig ⟨S8386560, .i1⟩) (.of main_call13_v14 : StableHlo.TRef sig ⟨S8386560, .i32⟩) (.of main_call13_v4 : StableHlo.TRef sig ⟨S8386560, .i32⟩) (.of main_v86 : StableHlo.TRef sig ⟨S8386560, .i32⟩) select ]
theorem opsP1_15_sub : (opsP1_15 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..⟩
theorem opsP1_15_keeps : (opsP1_15 : List (HloOp τ sig (Elt F))).Forall KeepsArgs :=
  ⟨⟨main_call13_v0, rfl, by decide⟩, ⟨main_call13_c, rfl, by decide⟩, ⟨main_call13_v1, rfl, by decide⟩, ⟨main_call13_c_0, rfl, by decide⟩,
    ⟨main_call13_v2, rfl, by decide⟩, ⟨main_call13_v3, rfl, by decide⟩, ⟨main_call13_v4, rfl, by decide⟩, ⟨main_call13_c_1, rfl, by decide⟩,
    ⟨main_call13_v5, rfl, by decide⟩, ⟨main_call13_v6, rfl, by decide⟩, ⟨main_call13_c_2, rfl, by decide⟩, ⟨main_call13_v7, rfl, by decide⟩,
    ⟨main_call13_v8, rfl, by decide⟩, ⟨main_call13_c_3, rfl, by decide⟩, ⟨main_call13_v9, rfl, by decide⟩, ⟨main_call13_v10, rfl, by decide⟩,
    ⟨main_call13_v11, rfl, by decide⟩, ⟨main_call13_v12, rfl, by decide⟩, ⟨main_call13_v13, rfl, by decide⟩, ⟨main_call13_v14, rfl, by decide⟩,
    ⟨main_v86, rfl, by decide⟩⟩
theorem opsP1_15_fresh : (opsP1_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 18 operations of @main's own, in order. -/
abbrev opsP1_16 : List (HloOp τ sig (Elt F)) :=
  [ StableHlo.nullary main_c_13 (constantI S_ 32 0#32),
    StableHlo.unary main_c_13 main_v87 (broadcastInDim S8386560 ![] bcast_S_S8386560 : (⟨S_, .i32⟩ : BufTy).Contents (Elt F) → (⟨S8386560, .i32⟩ : BufTy).Contents (Elt F)),
    StableHlo.binary main_v84 main_v87 main_v88 (cmpi .slt : (⟨S8386560, .i32⟩ : BufTy).Contents (Elt F) → (⟨S8386560, .i32⟩ : BufTy).Contents (Elt F) → (⟨S8386560, .i1⟩ : BufTy).Contents (Elt F)),
    StableHlo.nullary main_c_14 (constantI S_ 32 4096#32),
    StableHlo.unary main_c_14 main_v89 (broadcastInDim S8386560 ![] bcast_S_S8386560 : (⟨S_, .i32⟩ : BufTy).Contents (Elt F) → (⟨S8386560, .i32⟩ : BufTy).Contents (Elt F)),
    StableHlo.binary main_v84 main_v89 main_v90 (addi : (⟨S8386560, .i32⟩ : BufTy).Contents (Elt F) → (⟨S8386560, .i32⟩ : BufTy).Contents (Elt F) → (⟨S8386560, .i32⟩ : BufTy).Contents (Elt F)),
    StableHlo.ternary main_v88 main_v90 main_v84 main_v91 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_15 (constantI S_ 32 0#32),
    StableHlo.unary main_c_15 main_v92 (broadcastInDim S8386560 ![] bcast_S_S8386560 : (⟨S_, .i32⟩ : BufTy).Contents (Elt F) → (⟨S8386560, .i32⟩ : BufTy).Contents (Elt F)),
    StableHlo.binary main_v86 main_v92 main_v93 (cmpi .slt : (⟨S8386560, .i32⟩ : BufTy).Contents (Elt F) → (⟨S8386560, .i32⟩ : BufTy).Contents (Elt F) → (⟨S8386560, .i1⟩ : BufTy).Contents (Elt F)),
    StableHlo.nullary main_c_16 (constantI S_ 32 4096#32),
    StableHlo.unary main_c_16 main_v94 (broadcastInDim S8386560 ![] bcast_S_S8386560 : (⟨S_, .i32⟩ : BufTy).Contents (Elt F) → (⟨S8386560, .i32⟩ : BufTy).Contents (Elt F)),
    StableHlo.binary main_v86 main_v94 main_v95 (addi : (⟨S8386560, .i32⟩ : BufTy).Contents (Elt F) → (⟨S8386560, .i32⟩ : BufTy).Contents (Elt F) → (⟨S8386560, .i32⟩ : BufTy).Contents (Elt F)),
    StableHlo.ternary main_v93 main_v95 main_v86 main_v96 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v91 main_v97 (broadcastInDim S8386560x1 ![0] bcast_S8386560_S8386560x1_0 : (⟨S8386560, .i32⟩ : BufTy).Contents (Elt F) → (⟨S8386560x1, .i32⟩ : BufTy).Contents (Elt F)),
    StableHlo.unary main_v96 main_v98 (broadcastInDim S8386560x1 ![0] bcast_S8386560_S8386560x1_0 : (⟨S8386560, .i32⟩ : BufTy).Contents (Elt F) → (⟨S8386560x1, .i32⟩ : BufTy).Contents (Elt F)),
    StableHlo.binary main_v97 main_v98 main_v99 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v66 main_v99 main_v100 ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) ]
theorem opsP1_16_sub : (opsP1_16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., unary_bufs_sub .., binary_bufs_sub .., binary_bufs_sub ..⟩
theorem opsP1_16_keeps : (opsP1_16 : List (HloOp τ sig (Elt F))).Forall KeepsArgs :=
  ⟨⟨main_c_13, rfl, by decide⟩, ⟨main_v87, rfl, by decide⟩, ⟨main_v88, rfl, by decide⟩, ⟨main_c_14, rfl, by decide⟩, ⟨main_v89, rfl, by decide⟩,
    ⟨main_v90, rfl, by decide⟩, ⟨main_v91, rfl, by decide⟩, ⟨main_c_15, rfl, by decide⟩, ⟨main_v92, rfl, by decide⟩, ⟨main_v93, rfl, by decide⟩,
    ⟨main_c_16, rfl, by decide⟩, ⟨main_v94, rfl, by decide⟩, ⟨main_v95, rfl, by decide⟩, ⟨main_v96, rfl, by decide⟩, ⟨main_v97, rfl, by decide⟩,
    ⟨main_v98, rfl, by decide⟩, ⟨main_v99, rfl, by decide⟩, ⟨main_v100, rfl, by decide⟩⟩
theorem opsP1_16_fresh : (opsP1_16 : List (HloOp τ sig (Elt F))).Forall fun op => op.fresh = ∅ :=
  ⟨rfl, rfl, rfl, rfl, rfl, rfl, rfl, rfl, rfl, rfl, rfl, rfl, rfl, rfl, rfl, rfl, rfl, rfl⟩

/-- Window 1 of @main as one line: its 146 operations, the called functions' bodies written out at the calls. -/
abbrev opsP1 : List (HloOp τ sig (Elt F)) :=
  opsP1_0 ++ (opsP1_1 ++ (opsP1_2 ++ (opsP1_3 ++ (opsP1_4 ++ (opsP1_5 ++ (opsP1_6 ++ (opsP1_7 ++ (opsP1_8 ++ (opsP1_9 ++ (opsP1_10 ++ (opsP1_11 ++ (opsP1_12 ++ (opsP1_13 ++ (opsP1_14 ++ (opsP1_15 ++ (opsP1_16))))))))))))))))

/-- Window 1 of @main is that line: unfolding the functions at their calls and the records at their fields, both
    sides are the same chain of host steps. -/
theorem part1_eq (c : Dev nD) : main_part1 (F := F) c = seq opsP1 := by
  chain_rfl

theorem opsP1_sub : (opsP1 : List (HloOp τ sig (Elt F))).Forall fun op => op.bufs ⊆ tcRefs τ sig :=
  forall_append opsP1_0_sub (forall_append opsP1_1_sub (forall_append opsP1_2_sub (forall_append opsP1_3_sub (forall_append opsP1_4_sub (forall_append opsP1_5_sub (forall_append opsP1_6_sub (forall_append opsP1_7_sub (forall_append opsP1_8_sub (forall_append opsP1_9_sub (forall_append opsP1_10_sub (forall_append opsP1_11_sub (forall_append opsP1_12_sub (forall_append opsP1_13_sub (forall_append opsP1_14_sub (forall_append opsP1_15_sub (opsP1_16_sub))))))))))))))))
theorem opsP1_keeps : (opsP1 : List (HloOp τ sig (Elt F))).Forall KeepsArgs :=
  forall_append opsP1_0_keeps (forall_append opsP1_1_keeps (forall_append opsP1_2_keeps (forall_append opsP1_3_keeps (forall_append opsP1_4_keeps (forall_append opsP1_5_keeps (forall_append opsP1_6_keeps (forall_append opsP1_7_keeps (forall_append opsP1_8_keeps (forall_append opsP1_9_keeps (forall_append opsP1_10_keeps (forall_append opsP1_11_keeps (forall_append opsP1_12_keeps (forall_append opsP1_13_keeps (forall_append opsP1_14_keeps (forall_append opsP1_15_keeps (opsP1_16_keeps))))))))))))))))
theorem opsP1_fresh : (opsP1 : List (HloOp τ sig (Elt F))).Forall fun op => op.fresh = ∅ :=
  forall_append opsP1_0_fresh (forall_append opsP1_1_fresh (forall_append opsP1_2_fresh (forall_append opsP1_3_fresh (forall_append opsP1_4_fresh (forall_append opsP1_5_fresh (forall_append opsP1_6_fresh (forall_append opsP1_7_fresh (forall_append opsP1_8_fresh (forall_append opsP1_9_fresh (forall_append opsP1_10_fresh (forall_append opsP1_11_fresh (forall_append opsP1_12_fresh (forall_append opsP1_13_fresh (forall_append opsP1_14_fresh (forall_append opsP1_15_fresh (opsP1_16_fresh))))))))))))))))

end Cert.ReferenceIdeal.Hand

end
-- ==== Proof.Ref.Reads1.lean ====
import proofs.«135652_j20272245637753_1_alg».proof.Proof.Ref.Run1
import proofs.«135652_j20272245637753_1_alg».proof.Proof.Ref.Ssa

/-! # The reference's run, window 1: what each operation reads and writes

Beside each stretch of window 1's line, the list of its operations' (operands, result) buffers, and that each
operation writes its result buffer alone with contents determined by its operands'. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- The (operands, result) pairs of `opsP1_0`. -/
abbrev dataP1_0 : Data :=
  [([main_v56], main_v57), ([main_v56], main_v58), ([main_v57], main_v59), ([main_v58], main_v60), ([main_v59, main_v60], main_v61),
   ([main_v0], main_v62), ([main_v0, main_v62], main_v63), ([], main_cst_2), ([main_cst_2], main_v64), ([main_v64, main_v63], main_v65),
   ([main_v61, main_v65], main_v66), ([], main_cst_3), ([main_cst_3], main_v67)]
theorem opsP1_0_reads : ReadsAll (opsP1_0 : List (HloOp τ sig (Elt F))) dataP1_0 :=
  .cons (unary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.nil)))))))))))))

/-- The (operands, result) pairs of `opsP1_1`. -/
abbrev dataP1_1 : Data :=
  [([], main_call6_v0), ([], main_call6_c), ([main_call6_c], main_call6_v1), ([main_call6_v0, main_call6_v1], main_call6_v2),
   ([], main_call6_v3), ([main_call6_v2, main_call6_v3], main_call6_v4), ([], main_call6_cst), ([main_call6_cst], main_call6_v5),
   ([main_call6_v4, main_call6_v5, main_v67], main_v68)]
theorem opsP1_1_reads : ReadsAll (opsP1_1 : List (HloOp τ sig (Elt F))) dataP1_1 :=
  .cons (nullary_reads ..) (.cons (nullary_reads ..) (.cons (unary_reads ..) (.cons (binary_reads ..) (.cons (nullary_reads ..) (.cons (binary_reads ..) (.cons (nullary_reads ..) (.cons (unary_reads ..) (.cons (ternary_reads ..) (.nil)))))))))

/-- The (operands, result) pairs of `opsP1_2`. -/
abbrev dataP1_2 : Data :=
  [([], main_cst_4), ([main_cst_4], main_v69), ([main_v68, main_v69], main_v70)]
theorem opsP1_2_reads : ReadsAll (opsP1_2 : List (HloOp τ sig (Elt F))) dataP1_2 :=
  .cons (nullary_reads ..) (.cons (unary_reads ..) (.cons (binary_reads ..) (.nil)))

/-- The (operands, result) pairs of `opsP1_3`. -/
abbrev dataP1_3 : Data :=
  [([main_v70], main_call7_v0), ([main_call7_v0], main_call7_v1), ([], main_call7_call0_c), ([main_call7_call0_c], main_call7_call0_v0),
   ([main_call7_v1, main_call7_call0_v0], main_v71)]
theorem opsP1_3_reads : ReadsAll (opsP1_3 : List (HloOp τ sig (Elt F))) dataP1_3 :=
  .cons (reshape_reads ..) (.cons (unary_reads ..) (.cons (nullary_reads ..) (.cons (unary_reads ..) (.cons (binary_reads ..) (.nil)))))

/-- The (operands, result) pairs of `opsP1_4`. -/
abbrev dataP1_4 : Data :=
  [([], main_c), ([main_c], main_v72), ([], main_c_5)]
theorem opsP1_4_reads : ReadsAll (opsP1_4 : List (HloOp τ sig (Elt F))) dataP1_4 :=
  .cons (nullary_reads ..) (.cons (unary_reads ..) (.cons (nullary_reads ..) (.nil)))

/-- The (operands, result) pairs of `opsP1_5`. -/
abbrev dataP1_5 : Data :=
  [([main_c_5], main_call8_v0), ([main_call8_v0], main_call8_v1), ([main_call8_v1, main_v71], main_v73)]
theorem opsP1_5_reads : ReadsAll (opsP1_5 : List (HloOp τ sig (Elt F))) dataP1_5 :=
  .cons (unary_reads ..) (.cons (unary_reads ..) (.cons (binary_reads ..) (.nil)))

/-- The (operands, result) pairs of `opsP1_6`. -/
abbrev dataP1_6 : Data :=
  [([], main_c_6), ([main_c_6], main_v74), ([main_v73, main_v74], main_v75), ([], main_c_7), ([main_c_7], main_v76),
   ([main_v73, main_v76], main_v77), ([main_v75, main_v77, main_v73], main_v78), ([main_v78], main_v79), ([], main_c_8), ([main_c_8], main_v80),
   ([main_v72, main_v79, main_v80], main_v81)]
theorem opsP1_6_reads : ReadsAll (opsP1_6 : List (HloOp τ sig (Elt F))) dataP1_6 :=
  .cons (nullary_reads ..) (.cons (unary_reads ..) (.cons (binary_reads ..) (.cons (nullary_reads ..) (.cons (unary_reads ..) (.cons (binary_reads ..) (.cons (ternary_reads ..) (.cons (unary_reads ..) (.cons (nullary_reads ..) (.cons (unary_reads ..) (.cons (ternary_reads ..) (.nil)))))))))))

/-- The (operands, result) pairs of `opsP1_7`. -/
abbrev dataP1_7 : Data :=
  [([], main_call9_call0_c), ([main_call9_call0_c], main_call9_call0_v0), ([main_v81, main_call9_call0_v0], main_v82)]
theorem opsP1_7_reads : ReadsAll (opsP1_7 : List (HloOp τ sig (Elt F))) dataP1_7 :=
  .cons (nullary_reads ..) (.cons (unary_reads ..) (.cons (binary_reads ..) (.nil)))

/-- The (operands, result) pairs of `opsP1_8`. -/
abbrev dataP1_8 : Data :=
  [([], main_c_9)]
theorem opsP1_8_reads : ReadsAll (opsP1_8 : List (HloOp τ sig (Elt F))) dataP1_8 :=
  .cons (nullary_reads ..) (.nil)

/-- The (operands, result) pairs of `opsP1_9`. -/
abbrev dataP1_9 : Data :=
  [([main_c_9], main_call10_v0), ([main_v82, main_call10_v0], main_call10_v1), ([main_v82], main_call10_v2), ([main_c_9], main_call10_v3),
   ([main_call10_v3], main_call10_v4), ([main_call10_v2, main_call10_v4], main_call10_v5), ([main_c_9], main_call10_v6),
   ([main_v82, main_call10_v6], main_call10_v7), ([], main_call10_c), ([main_call10_c], main_call10_v8),
   ([main_call10_v7, main_call10_v8], main_call10_v9), ([main_call10_v5, main_call10_v9], main_call10_v10), ([], main_call10_c_0),
   ([main_call10_c_0], main_call10_v11), ([main_call10_v1, main_call10_v11], main_call10_v12),
   ([main_call10_v10, main_call10_v12, main_call10_v1], main_v83)]
theorem opsP1_9_reads : ReadsAll (opsP1_9 : List (HloOp τ sig (Elt F))) dataP1_9 :=
  .cons (unary_reads ..) (.cons (binary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.cons (binary_reads ..) (.cons (ternary_reads ..) (.nil))))))))))))))))

/-- The (operands, result) pairs of `opsP1_10`. -/
abbrev dataP1_10 : Data :=
  [([], main_c_10)]
theorem opsP1_10_reads : ReadsAll (opsP1_10 : List (HloOp τ sig (Elt F))) dataP1_10 :=
  .cons (nullary_reads ..) (.nil)

/-- The (operands, result) pairs of `opsP1_11`. -/
abbrev dataP1_11 : Data :=
  [([main_c_10], main_call11_v0), ([], main_call11_c), ([main_call11_v0, main_call11_c], main_call11_v1), ([], main_call11_c_0),
   ([main_call11_v1, main_call11_c_0, main_call11_v0], main_call11_v2), ([main_call11_v2], main_call11_v3),
   ([main_v83, main_call11_v3], main_call11_v4), ([], main_call11_c_1), ([main_call11_c_1], main_call11_v5),
   ([main_call11_v4, main_call11_v5], main_call11_v6), ([], main_call11_c_2), ([main_call11_c_2], main_call11_v7),
   ([main_call11_v4, main_call11_v7], main_call11_v8), ([], main_call11_c_3), ([main_call11_v2, main_call11_c_3], main_call11_v9),
   ([main_call11_v9], main_call11_v10), ([main_call11_v8, main_call11_v10], main_call11_v11),
   ([main_call11_v11, main_call11_v6], main_call11_v12), ([main_call11_v2], main_call11_v13),
   ([main_call11_v4, main_call11_v13], main_call11_v14), ([main_call11_v12, main_call11_v14, main_call11_v4], main_v84)]
theorem opsP1_11_reads : ReadsAll (opsP1_11 : List (HloOp τ sig (Elt F))) dataP1_11 :=
  .cons (unary_reads ..) (.cons (nullary_reads ..) (.cons (binary_reads ..) (.cons (nullary_reads ..) (.cons (ternary_reads ..) (.cons (unary_reads ..) (.cons (binary_reads ..) (.cons (nullary_reads ..) (.cons (unary_reads ..) (.cons (binary_reads ..) (.cons (nullary_reads ..) (.cons (unary_reads ..) (.cons (binary_reads ..) (.cons (nullary_reads ..) (.cons (binary_reads ..) (.cons (unary_reads ..) (.cons (binary_reads ..) (.cons (binary_reads ..) (.cons (unary_reads ..) (.cons (binary_reads ..) (.cons (ternary_reads ..) (.nil)))))))))))))))))))))

/-- The (operands, result) pairs of `opsP1_12`. -/
abbrev dataP1_12 : Data :=
  [([], main_c_11)]
theorem opsP1_12_reads : ReadsAll (opsP1_12 : List (HloOp τ sig (Elt F))) dataP1_12 :=
  .cons (nullary_reads ..) (.nil)

/-- The (operands, result) pairs of `opsP1_13`. -/
abbrev dataP1_13 : Data :=
  [([main_c_11], main_call12_v0), ([main_v82, main_call12_v0], main_call12_v1), ([main_v82], main_call12_v2), ([main_c_11], main_call12_v3),
   ([main_call12_v3], main_call12_v4), ([main_call12_v2, main_call12_v4], main_call12_v5), ([main_c_11], main_call12_v6),
   ([main_v82, main_call12_v6], main_call12_v7), ([], main_call12_c), ([main_call12_c], main_call12_v8),
   ([main_call12_v7, main_call12_v8], main_call12_v9), ([main_call12_v5, main_call12_v9], main_call12_v10), ([], main_call12_c_0),
   ([main_call12_c_0], main_call12_v11), ([main_call12_v1, main_call12_v11], main_call12_v12),
   ([main_call12_v10, main_call12_v12, main_call12_v1], main_v85)]
theorem opsP1_13_reads : ReadsAll (opsP1_13 : List (HloOp τ sig (Elt F))) dataP1_13 :=
  .cons (unary_reads ..) (.cons (binary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.cons (binary_reads ..) (.cons (ternary_reads ..) (.nil))))))))))))))))

/-- The (operands, result) pairs of `opsP1_14`. -/
abbrev dataP1_14 : Data :=
  [([], main_c_12)]
theorem opsP1_14_reads : ReadsAll (opsP1_14 : List (HloOp τ sig (Elt F))) dataP1_14 :=
  .cons (nullary_reads ..) (.nil)

/-- The (operands, result) pairs of `opsP1_15`. -/
abbrev dataP1_15 : Data :=
  [([main_c_12], main_call13_v0), ([], main_call13_c), ([main_call13_v0, main_call13_c], main_call13_v1), ([], main_call13_c_0),
   ([main_call13_v1, main_call13_c_0, main_call13_v0], main_call13_v2), ([main_call13_v2], main_call13_v3),
   ([main_v85, main_call13_v3], main_call13_v4), ([], main_call13_c_1), ([main_call13_c_1], main_call13_v5),
   ([main_call13_v4, main_call13_v5], main_call13_v6), ([], main_call13_c_2), ([main_call13_c_2], main_call13_v7),
   ([main_call13_v4, main_call13_v7], main_call13_v8), ([], main_call13_c_3), ([main_call13_v2, main_call13_c_3], main_call13_v9),
   ([main_call13_v9], main_call13_v10), ([main_call13_v8, main_call13_v10], main_call13_v11),
   ([main_call13_v11, main_call13_v6], main_call13_v12), ([main_call13_v2], main_call13_v13),
   ([main_call13_v4, main_call13_v13], main_call13_v14), ([main_call13_v12, main_call13_v14, main_call13_v4], main_v86)]
theorem opsP1_15_reads : ReadsAll (opsP1_15 : List (HloOp τ sig (Elt F))) dataP1_15 :=
  .cons (unary_reads ..) (.cons (nullary_reads ..) (.cons (binary_reads ..) (.cons (nullary_reads ..) (.cons (ternary_reads ..) (.cons (unary_reads ..) (.cons (binary_reads ..) (.cons (nullary_reads ..) (.cons (unary_reads ..) (.cons (binary_reads ..) (.cons (nullary_reads ..) (.cons (unary_reads ..) (.cons (binary_reads ..) (.cons (nullary_reads ..) (.cons (binary_reads ..) (.cons (unary_reads ..) (.cons (binary_reads ..) (.cons (binary_reads ..) (.cons (unary_reads ..) (.cons (binary_reads ..) (.cons (ternary_reads ..) (.nil)))))))))))))))))))))

/-- The (operands, result) pairs of `opsP1_16`. -/
abbrev dataP1_16 : Data :=
  [([], main_c_13), ([main_c_13], main_v87), ([main_v84, main_v87], main_v88), ([], main_c_14), ([main_c_14], main_v89),
   ([main_v84, main_v89], main_v90), ([main_v88, main_v90, main_v84], main_v91), ([], main_c_15), ([main_c_15], main_v92),
   ([main_v86, main_v92], main_v93), ([], main_c_16), ([main_c_16], main_v94), ([main_v86, main_v94], main_v95),
   ([main_v93, main_v95, main_v86], main_v96), ([main_v91], main_v97), ([main_v96], main_v98), ([main_v97, main_v98], main_v99),
   ([main_v66, main_v99], main_v100)]
theorem opsP1_16_reads : ReadsAll (opsP1_16 : List (HloOp τ sig (Elt F))) dataP1_16 :=
  .cons (nullary_reads ..) (.cons (unary_reads ..) (.cons (binary_reads ..) (.cons (nullary_reads ..) (.cons (unary_reads ..) (.cons (binary_reads ..) (.cons (ternary_reads ..) (.cons (nullary_reads ..) (.cons (unary_reads ..) (.cons (binary_reads ..) (.cons (nullary_reads ..) (.cons (unary_reads ..) (.cons (binary_reads ..) (.cons (ternary_reads ..) (.cons (unary_reads ..) (.cons (unary_reads ..) (.cons (binary_reads ..) (.cons (binary_reads ..) (.nil))))))))))))))))))

/-- The pairs of window 1's line. -/
abbrev dataP1 : Data :=
  dataP1_0 ++ (dataP1_1 ++ (dataP1_2 ++ (dataP1_3 ++ (dataP1_4 ++ (dataP1_5 ++ (dataP1_6 ++ (dataP1_7 ++ (dataP1_8 ++ (dataP1_9 ++ (dataP1_10 ++ (dataP1_11 ++ (dataP1_12 ++ (dataP1_13 ++ (dataP1_14 ++ (dataP1_15 ++ (dataP1_16))))))))))))))))
theorem opsP1_reads : ReadsAll (opsP1 : List (HloOp τ sig (Elt F))) dataP1 :=
  (opsP1_0_reads).append ((opsP1_1_reads).append ((opsP1_2_reads).append ((opsP1_3_reads).append ((opsP1_4_reads).append ((opsP1_5_reads).append ((opsP1_6_reads).append ((opsP1_7_reads).append ((opsP1_8_reads).append ((opsP1_9_reads).append ((opsP1_10_reads).append ((opsP1_11_reads).append ((opsP1_12_reads).append ((opsP1_13_reads).append ((opsP1_14_reads).append ((opsP1_15_reads).append (opsP1_16_reads))))))))))))))))

end Cert.ReferenceIdeal.Hand

end
-- ==== Proof.Ref.Run2.lean ====
import proofs.«135652_j20272245637753_1_alg».proof.Proof.Ref.Base

/-! # The reference's run, window 2

Window 2 of the reference @main (`main_part2`) as a list of host operations, cut into stretches at the calls:
@main's own operations between two calls are one stretch, a called function's body — with the bodies of the
functions it calls in turn — over that call's buffers is the next. Beside each stretch: every operation touches
TensorCore buffers only, writes no argument of @main, and determines what it writes. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- 20 operations of @main's own, in order. -/
abbrev opsP2_0 : List (HloOp τ sig (Elt F)) :=
  [ StableHlo.nullary main_cst_17 (constant S_ .f32 0x00000000#32),
    StableHlo.unary main_cst_17 main_v101 (broadcastInDim S8386560 ![] bcast_S_S8386560 : (⟨S_, .f32⟩ : BufTy).Contents (Elt F) → (⟨S8386560, .f32⟩ : BufTy).Contents (Elt F)),
    StableHlo.binary main_v100 main_v101 main_v102 (maximumf : (⟨S8386560, .f32⟩ : BufTy).Contents (Elt F) → (⟨S8386560, .f32⟩ : BufTy).Contents (Elt F) → (⟨S8386560, .f32⟩ : BufTy).Contents (Elt F)),
    StableHlo.unary main_v102 main_v103 (Host.sqrt : (⟨S8386560, .f32⟩ : BufTy).Contents (Elt F) → (⟨S8386560, .f32⟩ : BufTy).Contents (Elt F)),
    StableHlo.binary main_v24 main_v24 main_v104 (mulf : (⟨S4096x2, .f32⟩ : BufTy).Contents (Elt F) → (⟨S4096x2, .f32⟩ : BufTy).Contents (Elt F) → (⟨S4096x2, .f32⟩ : BufTy).Contents (Elt F)),
    StableHlo.nullary main_cst_18 (constant S_ .f32 0x00000000#32),
    StableHlo.binary main_v104 main_cst_18 main_v105 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    StableHlo.unary main_v105 main_v106 (broadcastInDim S4096x1 ![0] bcast_S4096_S4096x1_0 : (⟨S4096, .f32⟩ : BufTy).Contents (Elt F) → (⟨S4096x1, .f32⟩ : BufTy).Contents (Elt F)),
    StableHlo.unary main_v105 main_v107 (broadcastInDim S1x4096 ![1] bcast_S4096_S1x4096_1 : (⟨S4096, .f32⟩ : BufTy).Contents (Elt F) → (⟨S1x4096, .f32⟩ : BufTy).Contents (Elt F)),
    StableHlo.unary main_v106 main_v108 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v107 main_v109 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v108 main_v109 main_v110 (addf : (⟨S4096x4096, .f32⟩ : BufTy).Contents (Elt F) → (⟨S4096x4096, .f32⟩ : BufTy).Contents (Elt F) → (⟨S4096x4096, .f32⟩ : BufTy).Contents (Elt F)),
    StableHlo.unary main_v24 main_v111 ((transpose S2x4096 [1, 0] · transposes_S4096x2_S2x4096_1_0) : (⟨S4096x2, .f32⟩ : BufTy).Contents (Elt F) → (⟨S2x4096, .f32⟩ : BufTy).Contents (Elt F)),
    StableHlo.binary main_v24 main_v111 main_v112 ((fun l r => Host.dotGeneral dot_S4096x2_S2x4096_S4096x4096_1_0_0_1_n_n none l r) : (⟨S4096x2, .f32⟩ : BufTy).Contents (Elt F) → (⟨S2x4096, .f32⟩ : BufTy).Contents (Elt F) → (⟨S4096x4096, .f32⟩ : BufTy).Contents (Elt F)),
    StableHlo.nullary main_cst_19 (constant S_ .f32 0x40000000#32),
    StableHlo.unary main_cst_19 main_v113 (broadcastInDim S4096x4096 ![] bcast_S_S4096x4096 : (⟨S_, .f32⟩ : BufTy).Contents (Elt F) → (⟨S4096x4096, .f32⟩ : BufTy).Contents (Elt F)),
    StableHlo.binary main_v113 main_v112 main_v114 (mulf : (⟨S4096x4096, .f32⟩ : BufTy).Contents (Elt F) → (⟨S4096x4096, .f32⟩ : BufTy).Contents (Elt F) → (⟨S4096x4096, .f32⟩ : BufTy).Contents (Elt F)),
    StableHlo.binary main_v110 main_v114 main_v115 (subf : (⟨S4096x4096, .f32⟩ : BufTy).Contents (Elt F) → (⟨S4096x4096, .f32⟩ : BufTy).Contents (Elt F) → (⟨S4096x4096, .f32⟩ : BufTy).Contents (Elt F)),
    StableHlo.nullary main_cst_20 (constant S_ .f32 0x3F800000#32),
    StableHlo.unary main_cst_20 main_v116 (broadcastInDim S4096x4096 ![] bcast_S_S4096x4096 : (⟨S_, .f32⟩ : BufTy).Contents (Elt F) → (⟨S4096x4096, .f32⟩ : BufTy).Contents (Elt F)) ]
theorem opsP2_0_sub : (opsP2_0 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub ..,
    unary_bufs_sub .., unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..⟩
theorem opsP2_0_keeps : (opsP2_0 : List (HloOp τ sig (Elt F))).Forall KeepsArgs :=
  ⟨⟨main_cst_17, rfl, by decide⟩, ⟨main_v101, rfl, by decide⟩, ⟨main_v102, rfl, by decide⟩, ⟨main_v103, rfl, by decide⟩, ⟨main_v104, rfl, by decide⟩,
    ⟨main_cst_18, rfl, by decide⟩, ⟨main_v105, rfl, by decide⟩, ⟨main_v106, rfl, by decide⟩, ⟨main_v107, rfl, by decide⟩, ⟨main_v108, rfl, by decide⟩,
    ⟨main_v109, rfl, by decide⟩, ⟨main_v110, rfl, by decide⟩, ⟨main_v111, rfl, by decide⟩, ⟨main_v112, rfl, by decide⟩, ⟨main_cst_19, rfl, by decide⟩,
    ⟨main_v113, rfl, by decide⟩, ⟨main_v114, rfl, by decide⟩, ⟨main_v115, rfl, by decide⟩, ⟨main_cst_20, rfl, by decide⟩, ⟨main_v116, rfl, by decide⟩⟩
theorem opsP2_0_fresh : (opsP2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The 9 operations of the call of `triu`: the row index, the offset zero and its broadcast, their sum, the column index, the comparison, the float zero and its broadcast, the select — over the call's buffers `main_call14`, in order. -/
abbrev opsP2_1 : List (HloOp τ sig (Elt F)) :=
  [ StableHlo.TRef.nullary (.of main_call14_v0 : StableHlo.TRef sig ⟨S4096x4096, .i32⟩) (iotaInDim S4096x4096 32 0),
    StableHlo.TRef.nullary (.of main_call14_c : StableHlo.TRef sig ⟨S_, .i32⟩) (constantI S_ 32 0#32),
    StableHlo.TRef.unary (.of main_call14_c : StableHlo.TRef sig ⟨S_, .i32⟩) (.of main_call14_v1 : StableHlo.TRef sig ⟨S4096x4096, .i32⟩) (broadcastInDim S4096x4096 ![] bcast_S_S4096x4096),
    StableHlo.TRef.binary (.of main_call14_v0 : StableHlo.TRef sig ⟨S4096x4096, .i32⟩) (.of main_call14_v1 : StableHlo.TRef sig ⟨S4096x4096, .i32⟩) (.of main_call14_v2 : StableHlo.TRef sig ⟨S4096x4096, .i32⟩) addi,
    StableHlo.TRef.nullary (.of main_call14_v3 : StableHlo.TRef sig ⟨S4096x4096, .i32⟩) (iotaInDim S4096x4096 32 1),
    StableHlo.TRef.binary (.of main_call14_v2 : StableHlo.TRef sig ⟨S4096x4096, .i32⟩) (.of main_call14_v3 : StableHlo.TRef sig ⟨S4096x4096, .i32⟩) (.of main_call14_v4 : StableHlo.TRef sig ⟨S4096x4096, .i1⟩) (cmpi .sge),
    StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v5 : StableHlo.TRef sig ⟨S4096x4096, .f32⟩) (broadcastInDim S4096x4096 ![] bcast_S_S4096x4096),
    StableHlo.TRef.ternary (.of main_call14_v4 : StableHlo.TRef sig ⟨S4096x4096, .i1⟩) (.of main_call14_v5 : StableHlo.TRef sig ⟨S4096x4096, .f32⟩) (.of main_v116 : StableHlo.TRef sig ⟨S4096x4096, .f32⟩) (.of main_v117 : StableHlo.TRef sig ⟨S4096x4096, .f32⟩) select ]
theorem opsP2_1_sub : (opsP2_1 : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub ..,
    unary_bufs_sub .., ternary_bufs_sub ..⟩
theorem opsP2_1_keeps : (opsP2_1 : List (HloOp τ sig (Elt F))).Forall KeepsArgs :=
  ⟨⟨main_call14_v0, rfl, by decide⟩, ⟨main_call14_c, rfl, by decide⟩, ⟨main_call14_v1, rfl, by decide⟩, ⟨main_call14_v2, rfl, by decide⟩,
    ⟨main_call14_v3, rfl, by decide⟩, ⟨main_call14_v4, rfl, by decide⟩, ⟨main_call14_cst, rfl, by decide⟩, ⟨main_call14_v5, rfl, by decide⟩,
    ⟨main_v117, rfl, by decide⟩⟩
theorem opsP2_1_fresh : (opsP2_1 : List (HloOp τ sig (Elt F))).Forall fun op => op.fresh = ∅ :=
  ⟨rfl, rfl, rfl, rfl, rfl, rfl, rfl, rfl, rfl⟩

/-- 3 operations of @main's own, in order. -/
abbrev opsP2_2 : List (HloOp τ sig (Elt F)) :=
  [ StableHlo.nullary main_cst_21 (constant S_ .f32 0x00000000#32),
    StableHlo.unary main_cst_21 main_v118 (broadcastInDim S4096x4096 ![] bcast_S_S4096x4096 : (⟨S_, .f32⟩ : BufTy).Contents (Elt F) → (⟨S4096x4096, .f32⟩ : BufTy).Contents (Elt F)),
    StableHlo.binary main_v117 main_v118 main_v119 (cmpf .une : (⟨S4096x4096, .f32⟩ : BufTy).Contents (Elt F) → (⟨S4096x4096, .f32⟩ : BufTy).Contents (Elt F) → (⟨S4096x4096, .i1⟩ : BufTy).Contents (Elt F)) ]
theorem opsP2_2_sub : (opsP2_2 : List (HloOp τ sig (Elt F))).Forall fun op => op.bufs ⊆ tcRefs τ sig :=
  ⟨nullary_bufs_sub .., unary_bufs_sub .., binary_bufs_sub ..⟩
theorem opsP2_2_keeps : (opsP2_2 : List (HloOp τ sig (Elt F))).Forall KeepsArgs :=
  ⟨⟨main_cst_21, rfl, by decide⟩, ⟨main_v118, rfl, by decide⟩, ⟨main_v119, rfl, by decide⟩⟩
theorem opsP2_2_fresh : (opsP2_2 : List (HloOp τ sig (Elt F))).Forall fun op => op.fresh = ∅ :=
  ⟨rfl, rfl, rfl⟩

/-- The 5 operations of the call of `cumsum`: the flattening, the conversion to integers, and `cumsum`'s inner zero, its broadcast and the running sum as a reduce-window — over the call's buffers `main_call15`, in order. -/
abbrev opsP2_3 : List (HloOp τ sig (Elt F)) :=
  [ StableHlo.TRef.reshape (.of main_v119 : StableHlo.TRef sig ⟨S4096x4096, .i1⟩) (.of main_call15_v0 : StableHlo.TRef sig ⟨S16777216, .i1⟩) rfl shapeCasts_S4096x4096_S16777216,
    StableHlo.TRef.unary (.of main_call15_v0 : StableHlo.TRef sig ⟨S16777216, .i1⟩) (.of main_call15_v1 : StableHlo.TRef sig ⟨S16777216, .i32⟩) (extui 32 · natLt_1_32),
    StableHlo.TRef.nullary (.of main_call15_call0_c : StableHlo.TRef sig ⟨S_, .i32⟩) (constantI S_ 32 0#32),
    StableHlo.TRef.unary (.of main_call15_call0_c : StableHlo.TRef sig ⟨S_, .i32⟩) (.of main_call15_call0_v0 : StableHlo.TRef sig ⟨S_, .i32⟩) (broadcastInDim S_ ![] bcast_S_S_),
    StableHlo.TRef.binary (.of main_call15_v1 : StableHlo.TRef sig ⟨S16777216, .i32⟩) (.of main_call15_call0_v0 : StableHlo.TRef sig ⟨S_, .i32⟩) (.of main_v120 : StableHlo.TRef sig ⟨S16777216, .i32⟩) (fun x v => Host.reduceWindow IntOp.addi ![16777216] ![1] ![16777215] ![0] x v reduceWindows_S16777216_S16777216_w16777216s1p16777215_0 h_S_) ]
theorem opsP2_3_sub : (opsP2_3 : List (HloOp τ sig (Elt F))).Forall fun op => op.bufs ⊆ tcRefs τ sig :=
  ⟨reshape_bufs_sub .., unary_bufs_sub .., nullary_bufs_sub .., unary_bufs_sub .., binary_bufs_sub ..⟩
theorem opsP2_3_keeps : (opsP2_3 : List (HloOp τ sig (Elt F))).Forall KeepsArgs :=
  ⟨⟨main_call15_v0, rfl, by decide⟩, ⟨main_call15_v1, rfl, by decide⟩, ⟨main_call15_call0_c, rfl, by decide⟩, ⟨main_call15_call0_v0, rfl, by decide⟩,
    ⟨main_v120, rfl, by decide⟩⟩
theorem opsP2_3_fresh : (opsP2_3 : List (HloOp τ sig (Elt F))).Forall fun op => op.fresh = ∅ :=
  ⟨rfl, rfl, rfl, rfl, rfl⟩

/-- 3 operations of @main's own, in order. -/
abbrev opsP2_4 : List (HloOp τ sig (Elt F)) :=
  [ StableHlo.nullary main_c_22 (constantI S_ 32 0#32),
    StableHlo.unary main_c_22 main_v121 (broadcastInDim S8386560 ![] bcast_S_S8386560 : (⟨S_, .i32⟩ : BufTy).Contents (Elt F) → (⟨S8386560, .i32⟩ : BufTy).Contents (Elt F)),
    StableHlo.nullary main_c_23 (constantI S_ 32 0#32) ]
theorem opsP2_4_sub : (opsP2_4 : List (HloOp τ sig (Elt F))).Forall fun op => op.bufs ⊆ tcRefs τ sig :=
  ⟨nullary_bufs_sub .., unary_bufs_sub .., nullary_bufs_sub ..⟩
theorem opsP2_4_keeps : (opsP2_4 : List (HloOp τ sig (Elt F))).Forall KeepsArgs :=
  ⟨⟨main_c_22, rfl, by decide⟩, ⟨main_v121, rfl, by decide⟩, ⟨main_c_23, rfl, by decide⟩⟩
theorem opsP2_4_fresh : (opsP2_4 : List (HloOp τ sig (Elt F))).Forall fun op => op.fresh = ∅ :=
  ⟨rfl, rfl, rfl⟩

/-- The 3 operations of the call of `clip`: the lower bound converted, its broadcast, the maximum — over the call's buffers `main_call16`, in order. -/
abbrev opsP2_5 : List (HloOp τ sig (Elt F)) :=
  [ StableHlo.TRef.unary (.of main_c_23 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S16777216, .i32⟩) (broadcastInDim S16777216 ![] bcast_S_S16777216),
    StableHlo.TRef.binary (.of main_call16_v1 : StableHlo.TRef sig ⟨S16777216, .i32⟩) (.of main_v120 : StableHlo.TRef sig ⟨S16777216, .i32⟩) (.of main_v122 : StableHlo.TRef sig ⟨S16777216, .i32⟩) maxsi ]
theorem opsP2_5_sub : (opsP2_5 : List (HloOp τ sig (Elt F))).Forall fun op => op.bufs ⊆ tcRefs τ sig :=
  ⟨unary_bufs_sub .., unary_bufs_sub .., binary_bufs_sub ..⟩
theorem opsP2_5_keeps : (opsP2_5 : List (HloOp τ sig (Elt F))).Forall KeepsArgs :=
  ⟨⟨main_call16_v0, rfl, by decide⟩, ⟨main_call16_v1, rfl, by decide⟩, ⟨main_v122, rfl, by decide⟩⟩
theorem opsP2_5_fresh : (opsP2_5 : List (HloOp τ sig (Elt F))).Forall fun op => op.fresh = ∅ :=
  ⟨rfl, rfl, rfl⟩

/-- 11 operations of @main's own, in order. -/
abbrev opsP2_6 : List (HloOp τ sig (Elt F)) :=
  [ StableHlo.nullary main_c_24 (constantI S_ 32 0#32),
    StableHlo.unary main_c_24 main_v123 (broadcastInDim S16777216 ![] bcast_S_S16777216 : (⟨S_, .i32⟩ : BufTy).Contents (Elt F) → (⟨S16777216, .i32⟩ : BufTy).Contents (Elt F)),
    StableHlo.binary main_v122 main_v123 main_v124 (cmpi .slt : (⟨S16777216, .i32⟩ : BufTy).Contents (Elt F) → (⟨S16777216, .i32⟩ : BufTy).Contents (Elt F) → (⟨S16777216, .i1⟩ : BufTy).Contents (Elt F)),
    StableHlo.nullary main_c_25 (constantI S_ 32 8386560#32),
    StableHlo.unary main_c_25 main_v125 (broadcastInDim S16777216 ![] bcast_S_S16777216 : (⟨S_, .i32⟩ : BufTy).Contents (Elt F) → (⟨S16777216, .i32⟩ : BufTy).Contents (Elt F)),
    StableHlo.binary main_v122 main_v125 main_v126 (addi : (⟨S16777216, .i32⟩ : BufTy).Contents (Elt F) → (⟨S16777216, .i32⟩ : BufTy).Contents (Elt F) → (⟨S16777216, .i32⟩ : BufTy).Contents (Elt F)),
    StableHlo.ternary main_v124 main_v126 main_v122 main_v127 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v127 main_v128 (broadcastInDim S16777216x1 ![0] bcast_S16777216_S16777216x1_0 : (⟨S16777216, .i32⟩ : BufTy).Contents (Elt F) → (⟨S16777216x1, .i32⟩ : BufTy).Contents (Elt F)),
    StableHlo.nullary main_c_26 (constantI S_ 32 1#32),
    StableHlo.unary main_c_26 main_v129 (broadcastInDim S16777216 ![] bcast_S_S16777216 : (⟨S_, .i32⟩ : BufTy).Contents (Elt F) → (⟨S16777216, .i32⟩ : BufTy).Contents (Elt F)),
    StableHlo.ternary main_v121 main_v128 main_v129 main_v130 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]
theorem opsP2_6_sub : (opsP2_6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., unary_bufs_sub .., ternary_bufs_sub ..⟩
theorem opsP2_6_keeps : (opsP2_6 : List (HloOp τ sig (Elt F))).Forall KeepsArgs :=
  ⟨⟨main_c_24, rfl, by decide⟩, ⟨main_v123, rfl, by decide⟩, ⟨main_v124, rfl, by decide⟩, ⟨main_c_25, rfl, by decide⟩, ⟨main_v125, rfl, by decide⟩,
    ⟨main_v126, rfl, by decide⟩, ⟨main_v127, rfl, by decide⟩, ⟨main_v128, rfl, by decide⟩, ⟨main_c_26, rfl, by decide⟩, ⟨main_v129, rfl, by decide⟩,
    ⟨main_v130, rfl, by decide⟩⟩
theorem opsP2_6_fresh : (opsP2_6 : List (HloOp τ sig (Elt F))).Forall fun op => op.fresh = ∅ :=
  ⟨rfl, rfl, rfl, rfl, rfl, rfl, rfl, rfl, rfl, rfl, rfl⟩

/-- The 3 operations of the call of `cumsum`: the zero, its broadcast and the running sum as a reduce-window — over the call's buffers `main_call17`, in order. -/
abbrev opsP2_7 : List (HloOp τ sig (Elt F)) :=
  [ StableHlo.TRef.nullary (.of main_call17_call0_c : StableHlo.TRef sig ⟨S_, .i32⟩) (constantI S_ 32 0#32),
    StableHlo.TRef.unary (.of main_call17_call0_c : StableHlo.TRef sig ⟨S_, .i32⟩) (.of main_call17_call0_v0 : StableHlo.TRef sig ⟨S_, .i32⟩) (broadcastInDim S_ ![] bcast_S_S_),
    StableHlo.TRef.binary (.of main_v130 : StableHlo.TRef sig ⟨S8386560, .i32⟩) (.of main_call17_call0_v0 : StableHlo.TRef sig ⟨S_, .i32⟩) (.of main_v131 : StableHlo.TRef sig ⟨S8386560, .i32⟩) (fun x v => Host.reduceWindow IntOp.addi ![8386560] ![1] ![8386559] ![0] x v reduceWindows_S8386560_S8386560_w8386560s1p8386559_0 h_S_) ]
theorem opsP2_7_sub : (opsP2_7 : List (HloOp τ sig (Elt F))).Forall fun op => op.bufs ⊆ tcRefs τ sig :=
  ⟨nullary_bufs_sub .., unary_bufs_sub .., binary_bufs_sub ..⟩
theorem opsP2_7_keeps : (opsP2_7 : List (HloOp τ sig (Elt F))).Forall KeepsArgs :=
  ⟨⟨main_call17_call0_c, rfl, by decide⟩, ⟨main_call17_call0_v0, rfl, by decide⟩, ⟨main_v131, rfl, by decide⟩⟩
theorem opsP2_7_fresh : (opsP2_7 : List (HloOp τ sig (Elt F))).Forall fun op => op.fresh = ∅ :=
  ⟨rfl, rfl, rfl⟩

/-- 1 operation of @main's own, in order. -/
abbrev opsP2_8 : List (HloOp τ sig (Elt F)) :=
  [ StableHlo.nullary main_c_27 (constantI S_ 32 4096#32) ]
theorem opsP2_8_sub : (opsP2_8 : List (HloOp τ sig (Elt F))).Forall fun op => op.bufs ⊆ tcRefs τ sig :=
  nullary_bufs_sub ..
theorem opsP2_8_keeps : (opsP2_8 : List (HloOp τ sig (Elt F))).Forall KeepsArgs :=
  ⟨main_c_27, rfl, by decide⟩
theorem opsP2_8_fresh : (opsP2_8 : List (HloOp τ sig (Elt F))).Forall fun op => op.fresh = ∅ :=
  rfl

/-- The 16 operations of the call of `floor_divide`: the divisor's broadcast, the quotient, the two signs and their comparison, the remainder and its comparison with zero, the conjunction, the quotient less one, and `_where`'s select — over the call's buffers `main_call18`, in order. -/
abbrev opsP2_9 : List (HloOp τ sig (Elt F)) :=
  [ StableHlo.TRef.unary (.of main_c_27 : StableHlo.TRef sig ⟨S_, .i32⟩) (.of main_call18_v0 : StableHlo.TRef sig ⟨S8386560, .i32⟩) (broadcastInDim S8386560 ![] bcast_S_S8386560),
    StableHlo.TRef.binary (.of main_v131 : StableHlo.TRef sig ⟨S8386560, .i32⟩) (.of main_call18_v0 : StableHlo.TRef sig ⟨S8386560, .i32⟩) (.of main_call18_v1 : StableHlo.TRef sig ⟨S8386560, .i32⟩) Host.divsi,
    StableHlo.TRef.unary (.of main_v131 : StableHlo.TRef sig ⟨S8386560, .i32⟩) (.of main_call18_v2 : StableHlo.TRef sig ⟨S8386560, .i32⟩) signi,
    StableHlo.TRef.unary (.of main_c_27 : StableHlo.TRef sig ⟨S_, .i32⟩) (.of main_call18_v3 : StableHlo.TRef sig ⟨S_, .i32⟩) signi,
    StableHlo.TRef.unary (.of main_call18_v3 : StableHlo.TRef sig ⟨S_, .i32⟩) (.of main_call18_v4 : StableHlo.TRef sig ⟨S8386560, .i32⟩) (broadcastInDim S8386560 ![] bcast_S_S8386560),
    StableHlo.TRef.binary (.of main_call18_v2 : StableHlo.TRef sig ⟨S8386560, .i32⟩) (.of main_call18_v4 : StableHlo.TRef sig ⟨S8386560, .i32⟩) (.of main_call18_v5 : StableHlo.TRef sig ⟨S8386560, .i1⟩) (cmpi .ne),
    StableHlo.TRef.unary (.of main_c_27 : StableHlo.TRef sig ⟨S_, .i32⟩) (.of main_call18_v6 : StableHlo.TRef sig ⟨S8386560, .i32⟩) (broadcastInDim S8386560 ![] bcast_S_S8386560),
    StableHlo.TRef.binary (.of main_v131 : StableHlo.TRef sig ⟨S8386560, .i32⟩) (.of main_call18_v6 : StableHlo.TRef sig ⟨S8386560, .i32⟩) (.of main_call18_v7 : StableHlo.TRef sig ⟨S8386560, .i32⟩) Host.remsi,
    StableHlo.TRef.nullary (.of main_call18_c : StableHlo.TRef sig ⟨S_, .i32⟩) (constantI S_ 32 0#32),
    StableHlo.TRef.unary (.of main_call18_c : StableHlo.TRef sig ⟨S_, .i32⟩) (.of main_call18_v8 : StableHlo.TRef sig ⟨S8386560, .i32⟩) (broadcastInDim S8386560 ![] bcast_S_S8386560),
    StableHlo.TRef.binary (.of main_call18_v7 : StableHlo.TRef sig ⟨S8386560, .i32⟩) (.of main_call18_v8 : StableHlo.TRef sig ⟨S8386560, .i32⟩) (.of main_call18_v9 : StableHlo.TRef sig ⟨S8386560, .i1⟩) (cmpi .ne),
    StableHlo.TRef.binary (.of main_call18_v5 : StableHlo.TRef sig ⟨S8386560, .i1⟩) (.of main_call18_v9 : StableHlo.TRef sig ⟨S8386560, .i1⟩) (.of main_call18_v10 : StableHlo.TRef sig ⟨S8386560, .i1⟩) andi,
    StableHlo.TRef.nullary (.of main_call18_c_0 : StableHlo.TRef sig ⟨S_, .i32⟩) (constantI S_ 32 1#32),
    StableHlo.TRef.unary (.of main_call18_c_0 : StableHlo.TRef sig ⟨S_, .i32⟩) (.of main_call18_v11 : StableHlo.TRef sig ⟨S8386560, .i32⟩) (broadcastInDim S8386560 ![] bcast_S_S8386560),
    StableHlo.TRef.binary (.of main_call18_v1 : StableHlo.TRef sig ⟨S8386560, .i32⟩) (.of main_call18_v11 : StableHlo.TRef sig ⟨S8386560, .i32⟩) (.of main_call18_v12 : StableHlo.TRef sig ⟨S8386560, .i32⟩) subi,
    StableHlo.TRef.ternary (.of main_call18_v10 : StableHlo.TRef sig ⟨S8386560, .i1⟩) (.of main_call18_v12 : StableHlo.TRef sig ⟨S8386560, .i32⟩) (.of main_call18_v1 : StableHlo.TRef sig ⟨S8386560, .i32⟩) (.of main_v132 : StableHlo.TRef sig ⟨S8386560, .i32⟩) select ]
theorem opsP2_9_sub : (opsP2_9 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub ..,
    binary_bufs_sub .., ternary_bufs_sub ..⟩
theorem opsP2_9_keeps : (opsP2_9 : List (HloOp τ sig (Elt F))).Forall KeepsArgs :=
  ⟨⟨main_call18_v0, rfl, by decide⟩, ⟨main_call18_v1, rfl, by decide⟩, ⟨main_call18_v2, rfl, by decide⟩, ⟨main_call18_v3, rfl, by decide⟩,
    ⟨main_call18_v4, rfl, by decide⟩, ⟨main_call18_v5, rfl, by decide⟩, ⟨main_call18_v6, rfl, by decide⟩, ⟨main_call18_v7, rfl, by decide⟩,
    ⟨main_call18_c, rfl, by decide⟩, ⟨main_call18_v8, rfl, by decide⟩, ⟨main_call18_v9, rfl, by decide⟩, ⟨main_call18_v10, rfl, by decide⟩,
    ⟨main_call18_c_0, rfl, by decide⟩, ⟨main_call18_v11, rfl, by decide⟩, ⟨main_call18_v12, rfl, by decide⟩, ⟨main_v132, rfl, by decide⟩⟩
theorem opsP2_9_fresh : (opsP2_9 : List (HloOp τ sig (Elt F))).Forall fun op => op.fresh = ∅ :=
  ⟨rfl, rfl, rfl, rfl, rfl, rfl, rfl, rfl, rfl, rfl, rfl, rfl, rfl, rfl, rfl, rfl⟩

/-- 1 operation of @main's own, in order. -/
abbrev opsP2_10 : List (HloOp τ sig (Elt F)) :=
  [ StableHlo.nullary main_c_28 (constantI S_ 32 4096#32) ]
theorem opsP2_10_sub : (opsP2_10 : List (HloOp τ sig (Elt F))).Forall fun op => op.bufs ⊆ tcRefs τ sig :=
  nullary_bufs_sub ..
theorem opsP2_10_keeps : (opsP2_10 : List (HloOp τ sig (Elt F))).Forall KeepsArgs :=
  ⟨main_c_28, rfl, by decide⟩
theorem opsP2_10_fresh : (opsP2_10 : List (HloOp τ sig (Elt F))).Forall fun op => op.fresh = ∅ :=
  rfl

/-- The 21 operations of the call of `remainder`: the divisor converted, its comparison with zero and `_where`'s select of one in its place, the remainder by it, its comparisons with zero, the divisor's sign broadcast, the conjunction, the remainder plus the divisor, the select — over the call's buffers `main_call19`, in order. -/
abbrev opsP2_11 : List (HloOp τ sig (Elt F)) :=
  [ StableHlo.TRef.unary (.of main_c_28 : StableHlo.TRef sig ⟨S_, .i32⟩) (.of main_call19_v0 : StableHlo.TRef sig ⟨S_, .i32⟩) id,
    StableHlo.TRef.nullary (.of main_call19_c : StableHlo.TRef sig ⟨S_, .i32⟩) (constantI S_ 32 0#32),
    StableHlo.TRef.binary (.of main_call19_v0 : StableHlo.TRef sig ⟨S_, .i32⟩) (.of main_call19_c : StableHlo.TRef sig ⟨S_, .i32⟩) (.of main_call19_v1 : StableHlo.TRef sig ⟨S_, .i1⟩) (cmpi .eq),
    StableHlo.TRef.nullary (.of main_call19_c_0 : StableHlo.TRef sig ⟨S_, .i32⟩) (constantI S_ 32 1#32),
    StableHlo.TRef.ternary (.of main_call19_v1 : StableHlo.TRef sig ⟨S_, .i1⟩) (.of main_call19_c_0 : StableHlo.TRef sig ⟨S_, .i32⟩) (.of main_call19_v0 : StableHlo.TRef sig ⟨S_, .i32⟩) (.of main_call19_v2 : StableHlo.TRef sig ⟨S_, .i32⟩) select,
    StableHlo.TRef.unary main_call19_call0.v0 (.of main_call19_v3 : StableHlo.TRef sig ⟨S8386560, .i32⟩) (broadcastInDim S8386560 ![] bcast_S_S8386560),
    StableHlo.TRef.binary (.of main_v132 : StableHlo.TRef sig ⟨S8386560, .i32⟩) (.of main_call19_v3 : StableHlo.TRef sig ⟨S8386560, .i32⟩) (.of main_call19_v4 : StableHlo.TRef sig ⟨S8386560, .i32⟩) Host.remsi,
    StableHlo.TRef.nullary (.of main_call19_c_1 : StableHlo.TRef sig ⟨S_, .i32⟩) (constantI S_ 32 0#32),
    StableHlo.TRef.unary (.of main_call19_c_1 : StableHlo.TRef sig ⟨S_, .i32⟩) (.of main_call19_v5 : StableHlo.TRef sig ⟨S8386560, .i32⟩) (broadcastInDim S8386560 ![] bcast_S_S8386560),
    StableHlo.TRef.binary (.of main_call19_v4 : StableHlo.TRef sig ⟨S8386560, .i32⟩) (.of main_call19_v5 : StableHlo.TRef sig ⟨S8386560, .i32⟩) (.of main_call19_v6 : StableHlo.TRef sig ⟨S8386560, .i1⟩) (cmpi .ne),
    StableHlo.TRef.nullary (.of main_call19_c_2 : StableHlo.TRef sig ⟨S_, .i32⟩) (constantI S_ 32 0#32),
    StableHlo.TRef.unary (.of main_call19_c_2 : StableHlo.TRef sig ⟨S_, .i32⟩) (.of main_call19_v7 : StableHlo.TRef sig ⟨S8386560, .i32⟩) (broadcastInDim S8386560 ![] bcast_S_S8386560),
    StableHlo.TRef.binary (.of main_call19_v4 : StableHlo.TRef sig ⟨S8386560, .i32⟩) (.of main_call19_v7 : StableHlo.TRef sig ⟨S8386560, .i32⟩) (.of main_call19_v8 : StableHlo.TRef sig ⟨S8386560, .i1⟩) (cmpi .slt),
    StableHlo.TRef.nullary (.of main_call19_c_3 : StableHlo.TRef sig ⟨S_, .i32⟩) (constantI S_ 32 0#32),
    StableHlo.TRef.binary main_call19_call0.v0 (.of main_call19_c_3 : StableHlo.TRef sig ⟨S_, .i32⟩) (.of main_call19_v9 : StableHlo.TRef sig ⟨S_, .i1⟩) (cmpi .slt),
    StableHlo.TRef.unary (.of main_call19_v9 : StableHlo.TRef sig ⟨S_, .i1⟩) (.of main_call19_v10 : StableHlo.TRef sig ⟨S8386560, .i1⟩) (broadcastInDim S8386560 ![] bcast_S_S8386560),
    StableHlo.TRef.binary (.of main_call19_v8 : StableHlo.TRef sig ⟨S8386560, .i1⟩) (.of main_call19_v10 : StableHlo.TRef sig ⟨S8386560, .i1⟩) (.of main_call19_v11 : StableHlo.TRef sig ⟨S8386560, .i1⟩) (cmpi .ne),
    StableHlo.TRef.binary (.of main_call19_v11 : StableHlo.TRef sig ⟨S8386560, .i1⟩) (.of main_call19_v6 : StableHlo.TRef sig ⟨S8386560, .i1⟩) (.of main_call19_v12 : StableHlo.TRef sig ⟨S8386560, .i1⟩) andi,
    StableHlo.TRef.unary main_call19_call0.v0 (.of main_call19_v13 : StableHlo.TRef sig ⟨S8386560, .i32⟩) (broadcastInDim S8386560 ![] bcast_S_S8386560),
    StableHlo.TRef.binary (.of main_call19_v4 : StableHlo.TRef sig ⟨S8386560, .i32⟩) (.of main_call19_v13 : StableHlo.TRef sig ⟨S8386560, .i32⟩) (.of main_call19_v14 : StableHlo.TRef sig ⟨S8386560, .i32⟩) addi,
    StableHlo.TRef.ternary (.of main_call19_v12 : StableHlo.TRef sig ⟨S8386560, .i1⟩) (.of main_call19_v14 : StableHlo.TRef sig ⟨S8386560, .i32⟩) (.of main_call19_v4 : StableHlo.TRef sig ⟨S8386560, .i32⟩) (.of main_v133 : StableHlo.TRef sig ⟨S8386560, .i32⟩) select ]
theorem opsP2_11_sub : (opsP2_11 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..⟩
theorem opsP2_11_keeps : (opsP2_11 : List (HloOp τ sig (Elt F))).Forall KeepsArgs :=
  ⟨⟨main_call19_v0, rfl, by decide⟩, ⟨main_call19_c, rfl, by decide⟩, ⟨main_call19_v1, rfl, by decide⟩, ⟨main_call19_c_0, rfl, by decide⟩,
    ⟨main_call19_v2, rfl, by decide⟩, ⟨main_call19_v3, rfl, by decide⟩, ⟨main_call19_v4, rfl, by decide⟩, ⟨main_call19_c_1, rfl, by decide⟩,
    ⟨main_call19_v5, rfl, by decide⟩, ⟨main_call19_v6, rfl, by decide⟩, ⟨main_call19_c_2, rfl, by decide⟩, ⟨main_call19_v7, rfl, by decide⟩,
    ⟨main_call19_v8, rfl, by decide⟩, ⟨main_call19_c_3, rfl, by decide⟩, ⟨main_call19_v9, rfl, by decide⟩, ⟨main_call19_v10, rfl, by decide⟩,
    ⟨main_call19_v11, rfl, by decide⟩, ⟨main_call19_v12, rfl, by decide⟩, ⟨main_call19_v13, rfl, by decide⟩, ⟨main_call19_v14, rfl, by decide⟩,
    ⟨main_v133, rfl, by decide⟩⟩
theorem opsP2_11_fresh : (opsP2_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 1 operation of @main's own, in order. -/
abbrev opsP2_12 : List (HloOp τ sig (Elt F)) :=
  [ StableHlo.nullary main_c_29 (constantI S_ 32 1#32) ]
theorem opsP2_12_sub : (opsP2_12 : List (HloOp τ sig (Elt F))).Forall fun op => op.bufs ⊆ tcRefs τ sig :=
  nullary_bufs_sub ..
theorem opsP2_12_keeps : (opsP2_12 : List (HloOp τ sig (Elt F))).Forall KeepsArgs :=
  ⟨main_c_29, rfl, by decide⟩
theorem opsP2_12_fresh : (opsP2_12 : List (HloOp τ sig (Elt F))).Forall fun op => op.fresh = ∅ :=
  rfl

/-- The 16 operations of the call of `floor_divide`: the divisor's broadcast, the quotient, the two signs and their comparison, the remainder and its comparison with zero, the conjunction, the quotient less one, and `_where`'s select — over the call's buffers `main_call20`, in order. -/
abbrev opsP2_13 : List (HloOp τ sig (Elt F)) :=
  [ StableHlo.TRef.unary (.of main_c_29 : StableHlo.TRef sig ⟨S_, .i32⟩) (.of main_call20_v0 : StableHlo.TRef sig ⟨S8386560, .i32⟩) (broadcastInDim S8386560 ![] bcast_S_S8386560),
    StableHlo.TRef.binary (.of main_v131 : StableHlo.TRef sig ⟨S8386560, .i32⟩) (.of main_call20_v0 : StableHlo.TRef sig ⟨S8386560, .i32⟩) (.of main_call20_v1 : StableHlo.TRef sig ⟨S8386560, .i32⟩) Host.divsi,
    StableHlo.TRef.unary (.of main_v131 : StableHlo.TRef sig ⟨S8386560, .i32⟩) (.of main_call20_v2 : StableHlo.TRef sig ⟨S8386560, .i32⟩) signi,
    StableHlo.TRef.unary (.of main_c_29 : StableHlo.TRef sig ⟨S_, .i32⟩) (.of main_call20_v3 : StableHlo.TRef sig ⟨S_, .i32⟩) signi,
    StableHlo.TRef.unary (.of main_call20_v3 : StableHlo.TRef sig ⟨S_, .i32⟩) (.of main_call20_v4 : StableHlo.TRef sig ⟨S8386560, .i32⟩) (broadcastInDim S8386560 ![] bcast_S_S8386560),
    StableHlo.TRef.binary (.of main_call20_v2 : StableHlo.TRef sig ⟨S8386560, .i32⟩) (.of main_call20_v4 : StableHlo.TRef sig ⟨S8386560, .i32⟩) (.of main_call20_v5 : StableHlo.TRef sig ⟨S8386560, .i1⟩) (cmpi .ne),
    StableHlo.TRef.unary (.of main_c_29 : StableHlo.TRef sig ⟨S_, .i32⟩) (.of main_call20_v6 : StableHlo.TRef sig ⟨S8386560, .i32⟩) (broadcastInDim S8386560 ![] bcast_S_S8386560),
    StableHlo.TRef.binary (.of main_v131 : StableHlo.TRef sig ⟨S8386560, .i32⟩) (.of main_call20_v6 : StableHlo.TRef sig ⟨S8386560, .i32⟩) (.of main_call20_v7 : StableHlo.TRef sig ⟨S8386560, .i32⟩) Host.remsi,
    StableHlo.TRef.nullary (.of main_call20_c : StableHlo.TRef sig ⟨S_, .i32⟩) (constantI S_ 32 0#32),
    StableHlo.TRef.unary (.of main_call20_c : StableHlo.TRef sig ⟨S_, .i32⟩) (.of main_call20_v8 : StableHlo.TRef sig ⟨S8386560, .i32⟩) (broadcastInDim S8386560 ![] bcast_S_S8386560),
    StableHlo.TRef.binary (.of main_call20_v7 : StableHlo.TRef sig ⟨S8386560, .i32⟩) (.of main_call20_v8 : StableHlo.TRef sig ⟨S8386560, .i32⟩) (.of main_call20_v9 : StableHlo.TRef sig ⟨S8386560, .i1⟩) (cmpi .ne),
    StableHlo.TRef.binary (.of main_call20_v5 : StableHlo.TRef sig ⟨S8386560, .i1⟩) (.of main_call20_v9 : StableHlo.TRef sig ⟨S8386560, .i1⟩) (.of main_call20_v10 : StableHlo.TRef sig ⟨S8386560, .i1⟩) andi,
    StableHlo.TRef.nullary (.of main_call20_c_0 : StableHlo.TRef sig ⟨S_, .i32⟩) (constantI S_ 32 1#32),
    StableHlo.TRef.unary (.of main_call20_c_0 : StableHlo.TRef sig ⟨S_, .i32⟩) (.of main_call20_v11 : StableHlo.TRef sig ⟨S8386560, .i32⟩) (broadcastInDim S8386560 ![] bcast_S_S8386560),
    StableHlo.TRef.binary (.of main_call20_v1 : StableHlo.TRef sig ⟨S8386560, .i32⟩) (.of main_call20_v11 : StableHlo.TRef sig ⟨S8386560, .i32⟩) (.of main_call20_v12 : StableHlo.TRef sig ⟨S8386560, .i32⟩) subi,
    StableHlo.TRef.ternary (.of main_call20_v10 : StableHlo.TRef sig ⟨S8386560, .i1⟩) (.of main_call20_v12 : StableHlo.TRef sig ⟨S8386560, .i32⟩) (.of main_call20_v1 : StableHlo.TRef sig ⟨S8386560, .i32⟩) (.of main_v134 : StableHlo.TRef sig ⟨S8386560, .i32⟩) select ]
theorem opsP2_13_sub : (opsP2_13 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub ..,
    binary_bufs_sub .., ternary_bufs_sub ..⟩
theorem opsP2_13_keeps : (opsP2_13 : List (HloOp τ sig (Elt F))).Forall KeepsArgs :=
  ⟨⟨main_call20_v0, rfl, by decide⟩, ⟨main_call20_v1, rfl, by decide⟩, ⟨main_call20_v2, rfl, by decide⟩, ⟨main_call20_v3, rfl, by decide⟩,
    ⟨main_call20_v4, rfl, by decide⟩, ⟨main_call20_v5, rfl, by decide⟩, ⟨main_call20_v6, rfl, by decide⟩, ⟨main_call20_v7, rfl, by decide⟩,
    ⟨main_call20_c, rfl, by decide⟩, ⟨main_call20_v8, rfl, by decide⟩, ⟨main_call20_v9, rfl, by decide⟩, ⟨main_call20_v10, rfl, by decide⟩,
    ⟨main_call20_c_0, rfl, by decide⟩, ⟨main_call20_v11, rfl, by decide⟩, ⟨main_call20_v12, rfl, by decide⟩, ⟨main_v134, rfl, by decide⟩⟩
theorem opsP2_13_fresh : (opsP2_13 : List (HloOp τ sig (Elt F))).Forall fun op => op.fresh = ∅ :=
  ⟨rfl, rfl, rfl, rfl, rfl, rfl, rfl, rfl, rfl, rfl, rfl, rfl, rfl, rfl, rfl, rfl⟩

/-- 1 operation of @main's own, in order. -/
abbrev opsP2_14 : List (HloOp τ sig (Elt F)) :=
  [ StableHlo.nullary main_c_30 (constantI S_ 32 4096#32) ]
theorem opsP2_14_sub : (opsP2_14 : List (HloOp τ sig (Elt F))).Forall fun op => op.bufs ⊆ tcRefs τ sig :=
  nullary_bufs_sub ..
theorem opsP2_14_keeps : (opsP2_14 : List (HloOp τ sig (Elt F))).Forall KeepsArgs :=
  ⟨main_c_30, rfl, by decide⟩
theorem opsP2_14_fresh : (opsP2_14 : List (HloOp τ sig (Elt F))).Forall fun op => op.fresh = ∅ :=
  rfl

/-- The 21 operations of the call of `remainder`: the divisor converted, its comparison with zero and `_where`'s select of one in its place, the remainder by it, its comparisons with zero, the divisor's sign broadcast, the conjunction, the remainder plus the divisor, the select — over the call's buffers `main_call21`, in order. -/
abbrev opsP2_15 : List (HloOp τ sig (Elt F)) :=
  [ StableHlo.TRef.unary (.of main_c_30 : StableHlo.TRef sig ⟨S_, .i32⟩) (.of main_call21_v0 : StableHlo.TRef sig ⟨S_, .i32⟩) id,
    StableHlo.TRef.nullary (.of main_call21_c : StableHlo.TRef sig ⟨S_, .i32⟩) (constantI S_ 32 0#32),
    StableHlo.TRef.binary (.of main_call21_v0 : StableHlo.TRef sig ⟨S_, .i32⟩) (.of main_call21_c : StableHlo.TRef sig ⟨S_, .i32⟩) (.of main_call21_v1 : StableHlo.TRef sig ⟨S_, .i1⟩) (cmpi .eq),
    StableHlo.TRef.nullary (.of main_call21_c_0 : StableHlo.TRef sig ⟨S_, .i32⟩) (constantI S_ 32 1#32),
    StableHlo.TRef.ternary (.of main_call21_v1 : StableHlo.TRef sig ⟨S_, .i1⟩) (.of main_call21_c_0 : StableHlo.TRef sig ⟨S_, .i32⟩) (.of main_call21_v0 : StableHlo.TRef sig ⟨S_, .i32⟩) (.of main_call21_v2 : StableHlo.TRef sig ⟨S_, .i32⟩) select,
    StableHlo.TRef.unary main_call21_call0.v0 (.of main_call21_v3 : StableHlo.TRef sig ⟨S8386560, .i32⟩) (broadcastInDim S8386560 ![] bcast_S_S8386560),
    StableHlo.TRef.binary (.of main_v134 : StableHlo.TRef sig ⟨S8386560, .i32⟩) (.of main_call21_v3 : StableHlo.TRef sig ⟨S8386560, .i32⟩) (.of main_call21_v4 : StableHlo.TRef sig ⟨S8386560, .i32⟩) Host.remsi,
    StableHlo.TRef.nullary (.of main_call21_c_1 : StableHlo.TRef sig ⟨S_, .i32⟩) (constantI S_ 32 0#32),
    StableHlo.TRef.unary (.of main_call21_c_1 : StableHlo.TRef sig ⟨S_, .i32⟩) (.of main_call21_v5 : StableHlo.TRef sig ⟨S8386560, .i32⟩) (broadcastInDim S8386560 ![] bcast_S_S8386560),
    StableHlo.TRef.binary (.of main_call21_v4 : StableHlo.TRef sig ⟨S8386560, .i32⟩) (.of main_call21_v5 : StableHlo.TRef sig ⟨S8386560, .i32⟩) (.of main_call21_v6 : StableHlo.TRef sig ⟨S8386560, .i1⟩) (cmpi .ne),
    StableHlo.TRef.nullary (.of main_call21_c_2 : StableHlo.TRef sig ⟨S_, .i32⟩) (constantI S_ 32 0#32),
    StableHlo.TRef.unary (.of main_call21_c_2 : StableHlo.TRef sig ⟨S_, .i32⟩) (.of main_call21_v7 : StableHlo.TRef sig ⟨S8386560, .i32⟩) (broadcastInDim S8386560 ![] bcast_S_S8386560),
    StableHlo.TRef.binary (.of main_call21_v4 : StableHlo.TRef sig ⟨S8386560, .i32⟩) (.of main_call21_v7 : StableHlo.TRef sig ⟨S8386560, .i32⟩) (.of main_call21_v8 : StableHlo.TRef sig ⟨S8386560, .i1⟩) (cmpi .slt),
    StableHlo.TRef.nullary (.of main_call21_c_3 : StableHlo.TRef sig ⟨S_, .i32⟩) (constantI S_ 32 0#32),
    StableHlo.TRef.binary main_call21_call0.v0 (.of main_call21_c_3 : StableHlo.TRef sig ⟨S_, .i32⟩) (.of main_call21_v9 : StableHlo.TRef sig ⟨S_, .i1⟩) (cmpi .slt),
    StableHlo.TRef.unary (.of main_call21_v9 : StableHlo.TRef sig ⟨S_, .i1⟩) (.of main_call21_v10 : StableHlo.TRef sig ⟨S8386560, .i1⟩) (broadcastInDim S8386560 ![] bcast_S_S8386560),
    StableHlo.TRef.binary (.of main_call21_v8 : StableHlo.TRef sig ⟨S8386560, .i1⟩) (.of main_call21_v10 : StableHlo.TRef sig ⟨S8386560, .i1⟩) (.of main_call21_v11 : StableHlo.TRef sig ⟨S8386560, .i1⟩) (cmpi .ne),
    StableHlo.TRef.binary (.of main_call21_v11 : StableHlo.TRef sig ⟨S8386560, .i1⟩) (.of main_call21_v6 : StableHlo.TRef sig ⟨S8386560, .i1⟩) (.of main_call21_v12 : StableHlo.TRef sig ⟨S8386560, .i1⟩) andi,
    StableHlo.TRef.unary main_call21_call0.v0 (.of main_call21_v13 : StableHlo.TRef sig ⟨S8386560, .i32⟩) (broadcastInDim S8386560 ![] bcast_S_S8386560),
    StableHlo.TRef.binary (.of main_call21_v4 : StableHlo.TRef sig ⟨S8386560, .i32⟩) (.of main_call21_v13 : StableHlo.TRef sig ⟨S8386560, .i32⟩) (.of main_call21_v14 : StableHlo.TRef sig ⟨S8386560, .i32⟩) addi,
    StableHlo.TRef.ternary (.of main_call21_v12 : StableHlo.TRef sig ⟨S8386560, .i1⟩) (.of main_call21_v14 : StableHlo.TRef sig ⟨S8386560, .i32⟩) (.of main_call21_v4 : StableHlo.TRef sig ⟨S8386560, .i32⟩) (.of main_v135 : StableHlo.TRef sig ⟨S8386560, .i32⟩) select ]
theorem opsP2_15_sub : (opsP2_15 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..⟩
theorem opsP2_15_keeps : (opsP2_15 : List (HloOp τ sig (Elt F))).Forall KeepsArgs :=
  ⟨⟨main_call21_v0, rfl, by decide⟩, ⟨main_call21_c, rfl, by decide⟩, ⟨main_call21_v1, rfl, by decide⟩, ⟨main_call21_c_0, rfl, by decide⟩,
    ⟨main_call21_v2, rfl, by decide⟩, ⟨main_call21_v3, rfl, by decide⟩, ⟨main_call21_v4, rfl, by decide⟩, ⟨main_call21_c_1, rfl, by decide⟩,
    ⟨main_call21_v5, rfl, by decide⟩, ⟨main_call21_v6, rfl, by decide⟩, ⟨main_call21_c_2, rfl, by decide⟩, ⟨main_call21_v7, rfl, by decide⟩,
    ⟨main_call21_v8, rfl, by decide⟩, ⟨main_call21_c_3, rfl, by decide⟩, ⟨main_call21_v9, rfl, by decide⟩, ⟨main_call21_v10, rfl, by decide⟩,
    ⟨main_call21_v11, rfl, by decide⟩, ⟨main_call21_v12, rfl, by decide⟩, ⟨main_call21_v13, rfl, by decide⟩, ⟨main_call21_v14, rfl, by decide⟩,
    ⟨main_v135, rfl, by decide⟩⟩
theorem opsP2_15_fresh : (opsP2_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 11 operations of @main's own, in order. -/
abbrev opsP2_16 : List (HloOp τ sig (Elt F)) :=
  [ StableHlo.nullary main_c_31 (constantI S_ 32 0#32),
    StableHlo.unary main_c_31 main_v136 (broadcastInDim S8386560 ![] bcast_S_S8386560 : (⟨S_, .i32⟩ : BufTy).Contents (Elt F) → (⟨S8386560, .i32⟩ : BufTy).Contents (Elt F)),
    StableHlo.binary main_v133 main_v136 main_v137 (cmpi .slt : (⟨S8386560, .i32⟩ : BufTy).Contents (Elt F) → (⟨S8386560, .i32⟩ : BufTy).Contents (Elt F) → (⟨S8386560, .i1⟩ : BufTy).Contents (Elt F)),
    StableHlo.nullary main_c_32 (constantI S_ 32 4096#32),
    StableHlo.unary main_c_32 main_v138 (broadcastInDim S8386560 ![] bcast_S_S8386560 : (⟨S_, .i32⟩ : BufTy).Contents (Elt F) → (⟨S8386560, .i32⟩ : BufTy).Contents (Elt F)),
    StableHlo.binary main_v133 main_v138 main_v139 (addi : (⟨S8386560, .i32⟩ : BufTy).Contents (Elt F) → (⟨S8386560, .i32⟩ : BufTy).Contents (Elt F) → (⟨S8386560, .i32⟩ : BufTy).Contents (Elt F)),
    StableHlo.ternary main_v137 main_v139 main_v133 main_v140 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_33 (constantI S_ 32 0#32),
    StableHlo.unary main_c_33 main_v141 (broadcastInDim S8386560 ![] bcast_S_S8386560 : (⟨S_, .i32⟩ : BufTy).Contents (Elt F) → (⟨S8386560, .i32⟩ : BufTy).Contents (Elt F)),
    StableHlo.binary main_v135 main_v141 main_v142 (cmpi .slt : (⟨S8386560, .i32⟩ : BufTy).Contents (Elt F) → (⟨S8386560, .i32⟩ : BufTy).Contents (Elt F) → (⟨S8386560, .i1⟩ : BufTy).Contents (Elt F)),
    StableHlo.nullary main_c_34 (constantI S_ 32 4096#32) ]
theorem opsP2_16_sub : (opsP2_16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    nullary_bufs_sub .., unary_bufs_sub .., binary_bufs_sub .., nullary_bufs_sub ..⟩
theorem opsP2_16_keeps : (opsP2_16 : List (HloOp τ sig (Elt F))).Forall KeepsArgs :=
  ⟨⟨main_c_31, rfl, by decide⟩, ⟨main_v136, rfl, by decide⟩, ⟨main_v137, rfl, by decide⟩, ⟨main_c_32, rfl, by decide⟩, ⟨main_v138, rfl, by decide⟩,
    ⟨main_v139, rfl, by decide⟩, ⟨main_v140, rfl, by decide⟩, ⟨main_c_33, rfl, by decide⟩, ⟨main_v141, rfl, by decide⟩, ⟨main_v142, rfl, by decide⟩,
    ⟨main_c_34, rfl, by decide⟩⟩
theorem opsP2_16_fresh : (opsP2_16 : List (HloOp τ sig (Elt F))).Forall fun op => op.fresh = ∅ :=
  ⟨rfl, rfl, rfl, rfl, rfl, rfl, rfl, rfl, rfl, rfl, rfl⟩

/-- Window 2 of @main as one line: its 146 operations, the called functions' bodies written out at the calls. -/
abbrev opsP2 : List (HloOp τ sig (Elt F)) :=
  opsP2_0 ++ (opsP2_1 ++ (opsP2_2 ++ (opsP2_3 ++ (opsP2_4 ++ (opsP2_5 ++ (opsP2_6 ++ (opsP2_7 ++ (opsP2_8 ++ (opsP2_9 ++ (opsP2_10 ++ (opsP2_11 ++ (opsP2_12 ++ (opsP2_13 ++ (opsP2_14 ++ (opsP2_15 ++ (opsP2_16))))))))))))))))

/-- Window 2 of @main is that line: unfolding the functions at their calls and the records at their fields, both
    sides are the same chain of host steps. -/
theorem part2_eq (c : Dev nD) : main_part2 (F := F) c = seq opsP2 := by
  chain_rfl

theorem opsP2_sub : (opsP2 : List (HloOp τ sig (Elt F))).Forall fun op => op.bufs ⊆ tcRefs τ sig :=
  forall_append opsP2_0_sub (forall_append opsP2_1_sub (forall_append opsP2_2_sub (forall_append opsP2_3_sub (forall_append opsP2_4_sub (forall_append opsP2_5_sub (forall_append opsP2_6_sub (forall_append opsP2_7_sub (forall_append opsP2_8_sub (forall_append opsP2_9_sub (forall_append opsP2_10_sub (forall_append opsP2_11_sub (forall_append opsP2_12_sub (forall_append opsP2_13_sub (forall_append opsP2_14_sub (forall_append opsP2_15_sub (opsP2_16_sub))))))))))))))))
theorem opsP2_keeps : (opsP2 : List (HloOp τ sig (Elt F))).Forall KeepsArgs :=
  forall_append opsP2_0_keeps (forall_append opsP2_1_keeps (forall_append opsP2_2_keeps (forall_append opsP2_3_keeps (forall_append opsP2_4_keeps (forall_append opsP2_5_keeps (forall_append opsP2_6_keeps (forall_append opsP2_7_keeps (forall_append opsP2_8_keeps (forall_append opsP2_9_keeps (forall_append opsP2_10_keeps (forall_append opsP2_11_keeps (forall_append opsP2_12_keeps (forall_append opsP2_13_keeps (forall_append opsP2_14_keeps (forall_append opsP2_15_keeps (opsP2_16_keeps))))))))))))))))
theorem opsP2_fresh : (opsP2 : List (HloOp τ sig (Elt F))).Forall fun op => op.fresh = ∅ :=
  forall_append opsP2_0_fresh (forall_append opsP2_1_fresh (forall_append opsP2_2_fresh (forall_append opsP2_3_fresh (forall_append opsP2_4_fresh (forall_append opsP2_5_fresh (forall_append opsP2_6_fresh (forall_append opsP2_7_fresh (forall_append opsP2_8_fresh (forall_append opsP2_9_fresh (forall_append opsP2_10_fresh (forall_append opsP2_11_fresh (forall_append opsP2_12_fresh (forall_append opsP2_13_fresh (forall_append opsP2_14_fresh (forall_append opsP2_15_fresh (opsP2_16_fresh))))))))))))))))

end Cert.ReferenceIdeal.Hand

end
-- ==== Proof.Ref.Reads2.lean ====
import proofs.«135652_j20272245637753_1_alg».proof.Proof.Ref.Run2
import proofs.«135652_j20272245637753_1_alg».proof.Proof.Ref.Ssa

/-! # The reference's run, window 2: what each operation reads and writes

Beside each stretch of window 2's line, the list of its operations' (operands, result) buffers, and that each
operation writes its result buffer alone with contents determined by its operands'. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- The (operands, result) pairs of `opsP2_0`. -/
abbrev dataP2_0 : Data :=
  [([], main_cst_17), ([main_cst_17], main_v101), ([main_v100, main_v101], main_v102), ([main_v102], main_v103),
   ([main_v24, main_v24], main_v104), ([], main_cst_18), ([main_v104, main_cst_18], main_v105), ([main_v105], main_v106),
   ([main_v105], main_v107), ([main_v106], main_v108), ([main_v107], main_v109), ([main_v108, main_v109], main_v110), ([main_v24], main_v111),
   ([main_v24, main_v111], main_v112), ([], main_cst_19), ([main_cst_19], main_v113), ([main_v113, main_v112], main_v114),
   ([main_v110, main_v114], main_v115), ([], main_cst_20), ([main_cst_20], main_v116)]
theorem opsP2_0_reads : ReadsAll (opsP2_0 : List (HloOp τ sig (Elt F))) dataP2_0 :=
  .cons (nullary_reads ..) (.cons (unary_reads ..) (.cons (binary_reads ..) (.cons (unary_reads ..) (.cons (binary_reads ..) (.cons (nullary_reads ..) (.cons (binary_reads ..) (.cons (unary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.nil))))))))))))))))))))

/-- The (operands, result) pairs of `opsP2_1`. -/
abbrev dataP2_1 : Data :=
  [([], main_call14_v0), ([], main_call14_c), ([main_call14_c], main_call14_v1), ([main_call14_v0, main_call14_v1], main_call14_v2),
   ([], main_call14_v3), ([main_call14_v2, main_call14_v3], main_call14_v4), ([], main_call14_cst), ([main_call14_cst], main_call14_v5),
   ([main_call14_v4, main_call14_v5, main_v116], main_v117)]
theorem opsP2_1_reads : ReadsAll (opsP2_1 : List (HloOp τ sig (Elt F))) dataP2_1 :=
  .cons (nullary_reads ..) (.cons (nullary_reads ..) (.cons (unary_reads ..) (.cons (binary_reads ..) (.cons (nullary_reads ..) (.cons (binary_reads ..) (.cons (nullary_reads ..) (.cons (unary_reads ..) (.cons (ternary_reads ..) (.nil)))))))))

/-- The (operands, result) pairs of `opsP2_2`. -/
abbrev dataP2_2 : Data :=
  [([], main_cst_21), ([main_cst_21], main_v118), ([main_v117, main_v118], main_v119)]
theorem opsP2_2_reads : ReadsAll (opsP2_2 : List (HloOp τ sig (Elt F))) dataP2_2 :=
  .cons (nullary_reads ..) (.cons (unary_reads ..) (.cons (binary_reads ..) (.nil)))

/-- The (operands, result) pairs of `opsP2_3`. -/
abbrev dataP2_3 : Data :=
  [([main_v119], main_call15_v0), ([main_call15_v0], main_call15_v1), ([], main_call15_call0_c), ([main_call15_call0_c], main_call15_call0_v0),
   ([main_call15_v1, main_call15_call0_v0], main_v120)]
theorem opsP2_3_reads : ReadsAll (opsP2_3 : List (HloOp τ sig (Elt F))) dataP2_3 :=
  .cons (reshape_reads ..) (.cons (unary_reads ..) (.cons (nullary_reads ..) (.cons (unary_reads ..) (.cons (binary_reads ..) (.nil)))))

/-- The (operands, result) pairs of `opsP2_4`. -/
abbrev dataP2_4 : Data :=
  [([], main_c_22), ([main_c_22], main_v121), ([], main_c_23)]
theorem opsP2_4_reads : ReadsAll (opsP2_4 : List (HloOp τ sig (Elt F))) dataP2_4 :=
  .cons (nullary_reads ..) (.cons (unary_reads ..) (.cons (nullary_reads ..) (.nil)))

/-- The (operands, result) pairs of `opsP2_5`. -/
abbrev dataP2_5 : Data :=
  [([main_c_23], main_call16_v0), ([main_call16_v0], main_call16_v1), ([main_call16_v1, main_v120], main_v122)]
theorem opsP2_5_reads : ReadsAll (opsP2_5 : List (HloOp τ sig (Elt F))) dataP2_5 :=
  .cons (unary_reads ..) (.cons (unary_reads ..) (.cons (binary_reads ..) (.nil)))

/-- The (operands, result) pairs of `opsP2_6`. -/
abbrev dataP2_6 : Data :=
  [([], main_c_24), ([main_c_24], main_v123), ([main_v122, main_v123], main_v124), ([], main_c_25), ([main_c_25], main_v125),
   ([main_v122, main_v125], main_v126), ([main_v124, main_v126, main_v122], main_v127), ([main_v127], main_v128), ([], main_c_26),
   ([main_c_26], main_v129), ([main_v121, main_v128, main_v129], main_v130)]
theorem opsP2_6_reads : ReadsAll (opsP2_6 : List (HloOp τ sig (Elt F))) dataP2_6 :=
  .cons (nullary_reads ..) (.cons (unary_reads ..) (.cons (binary_reads ..) (.cons (nullary_reads ..) (.cons (unary_reads ..) (.cons (binary_reads ..) (.cons (ternary_reads ..) (.cons (unary_reads ..) (.cons (nullary_reads ..) (.cons (unary_reads ..) (.cons (ternary_reads ..) (.nil)))))))))))

/-- The (operands, result) pairs of `opsP2_7`. -/
abbrev dataP2_7 : Data :=
  [([], main_call17_call0_c), ([main_call17_call0_c], main_call17_call0_v0), ([main_v130, main_call17_call0_v0], main_v131)]
theorem opsP2_7_reads : ReadsAll (opsP2_7 : List (HloOp τ sig (Elt F))) dataP2_7 :=
  .cons (nullary_reads ..) (.cons (unary_reads ..) (.cons (binary_reads ..) (.nil)))

/-- The (operands, result) pairs of `opsP2_8`. -/
abbrev dataP2_8 : Data :=
  [([], main_c_27)]
theorem opsP2_8_reads : ReadsAll (opsP2_8 : List (HloOp τ sig (Elt F))) dataP2_8 :=
  .cons (nullary_reads ..) (.nil)

/-- The (operands, result) pairs of `opsP2_9`. -/
abbrev dataP2_9 : Data :=
  [([main_c_27], main_call18_v0), ([main_v131, main_call18_v0], main_call18_v1), ([main_v131], main_call18_v2), ([main_c_27], main_call18_v3),
   ([main_call18_v3], main_call18_v4), ([main_call18_v2, main_call18_v4], main_call18_v5), ([main_c_27], main_call18_v6),
   ([main_v131, main_call18_v6], main_call18_v7), ([], main_call18_c), ([main_call18_c], main_call18_v8),
   ([main_call18_v7, main_call18_v8], main_call18_v9), ([main_call18_v5, main_call18_v9], main_call18_v10), ([], main_call18_c_0),
   ([main_call18_c_0], main_call18_v11), ([main_call18_v1, main_call18_v11], main_call18_v12),
   ([main_call18_v10, main_call18_v12, main_call18_v1], main_v132)]
theorem opsP2_9_reads : ReadsAll (opsP2_9 : List (HloOp τ sig (Elt F))) dataP2_9 :=
  .cons (unary_reads ..) (.cons (binary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.cons (binary_reads ..) (.cons (ternary_reads ..) (.nil))))))))))))))))

/-- The (operands, result) pairs of `opsP2_10`. -/
abbrev dataP2_10 : Data :=
  [([], main_c_28)]
theorem opsP2_10_reads : ReadsAll (opsP2_10 : List (HloOp τ sig (Elt F))) dataP2_10 :=
  .cons (nullary_reads ..) (.nil)

/-- The (operands, result) pairs of `opsP2_11`. -/
abbrev dataP2_11 : Data :=
  [([main_c_28], main_call19_v0), ([], main_call19_c), ([main_call19_v0, main_call19_c], main_call19_v1), ([], main_call19_c_0),
   ([main_call19_v1, main_call19_c_0, main_call19_v0], main_call19_v2), ([main_call19_v2], main_call19_v3),
   ([main_v132, main_call19_v3], main_call19_v4), ([], main_call19_c_1), ([main_call19_c_1], main_call19_v5),
   ([main_call19_v4, main_call19_v5], main_call19_v6), ([], main_call19_c_2), ([main_call19_c_2], main_call19_v7),
   ([main_call19_v4, main_call19_v7], main_call19_v8), ([], main_call19_c_3), ([main_call19_v2, main_call19_c_3], main_call19_v9),
   ([main_call19_v9], main_call19_v10), ([main_call19_v8, main_call19_v10], main_call19_v11),
   ([main_call19_v11, main_call19_v6], main_call19_v12), ([main_call19_v2], main_call19_v13),
   ([main_call19_v4, main_call19_v13], main_call19_v14), ([main_call19_v12, main_call19_v14, main_call19_v4], main_v133)]
theorem opsP2_11_reads : ReadsAll (opsP2_11 : List (HloOp τ sig (Elt F))) dataP2_11 :=
  .cons (unary_reads ..) (.cons (nullary_reads ..) (.cons (binary_reads ..) (.cons (nullary_reads ..) (.cons (ternary_reads ..) (.cons (unary_reads ..) (.cons (binary_reads ..) (.cons (nullary_reads ..) (.cons (unary_reads ..) (.cons (binary_reads ..) (.cons (nullary_reads ..) (.cons (unary_reads ..) (.cons (binary_reads ..) (.cons (nullary_reads ..) (.cons (binary_reads ..) (.cons (unary_reads ..) (.cons (binary_reads ..) (.cons (binary_reads ..) (.cons (unary_reads ..) (.cons (binary_reads ..) (.cons (ternary_reads ..) (.nil)))))))))))))))))))))

/-- The (operands, result) pairs of `opsP2_12`. -/
abbrev dataP2_12 : Data :=
  [([], main_c_29)]
theorem opsP2_12_reads : ReadsAll (opsP2_12 : List (HloOp τ sig (Elt F))) dataP2_12 :=
  .cons (nullary_reads ..) (.nil)

/-- The (operands, result) pairs of `opsP2_13`. -/
abbrev dataP2_13 : Data :=
  [([main_c_29], main_call20_v0), ([main_v131, main_call20_v0], main_call20_v1), ([main_v131], main_call20_v2), ([main_c_29], main_call20_v3),
   ([main_call20_v3], main_call20_v4), ([main_call20_v2, main_call20_v4], main_call20_v5), ([main_c_29], main_call20_v6),
   ([main_v131, main_call20_v6], main_call20_v7), ([], main_call20_c), ([main_call20_c], main_call20_v8),
   ([main_call20_v7, main_call20_v8], main_call20_v9), ([main_call20_v5, main_call20_v9], main_call20_v10), ([], main_call20_c_0),
   ([main_call20_c_0], main_call20_v11), ([main_call20_v1, main_call20_v11], main_call20_v12),
   ([main_call20_v10, main_call20_v12, main_call20_v1], main_v134)]
theorem opsP2_13_reads : ReadsAll (opsP2_13 : List (HloOp τ sig (Elt F))) dataP2_13 :=
  .cons (unary_reads ..) (.cons (binary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.cons (binary_reads ..) (.cons (ternary_reads ..) (.nil))))))))))))))))

/-- The (operands, result) pairs of `opsP2_14`. -/
abbrev dataP2_14 : Data :=
  [([], main_c_30)]
theorem opsP2_14_reads : ReadsAll (opsP2_14 : List (HloOp τ sig (Elt F))) dataP2_14 :=
  .cons (nullary_reads ..) (.nil)

/-- The (operands, result) pairs of `opsP2_15`. -/
abbrev dataP2_15 : Data :=
  [([main_c_30], main_call21_v0), ([], main_call21_c), ([main_call21_v0, main_call21_c], main_call21_v1), ([], main_call21_c_0),
   ([main_call21_v1, main_call21_c_0, main_call21_v0], main_call21_v2), ([main_call21_v2], main_call21_v3),
   ([main_v134, main_call21_v3], main_call21_v4), ([], main_call21_c_1), ([main_call21_c_1], main_call21_v5),
   ([main_call21_v4, main_call21_v5], main_call21_v6), ([], main_call21_c_2), ([main_call21_c_2], main_call21_v7),
   ([main_call21_v4, main_call21_v7], main_call21_v8), ([], main_call21_c_3), ([main_call21_v2, main_call21_c_3], main_call21_v9),
   ([main_call21_v9], main_call21_v10), ([main_call21_v8, main_call21_v10], main_call21_v11),
   ([main_call21_v11, main_call21_v6], main_call21_v12), ([main_call21_v2], main_call21_v13),
   ([main_call21_v4, main_call21_v13], main_call21_v14), ([main_call21_v12, main_call21_v14, main_call21_v4], main_v135)]
theorem opsP2_15_reads : ReadsAll (opsP2_15 : List (HloOp τ sig (Elt F))) dataP2_15 :=
  .cons (unary_reads ..) (.cons (nullary_reads ..) (.cons (binary_reads ..) (.cons (nullary_reads ..) (.cons (ternary_reads ..) (.cons (unary_reads ..) (.cons (binary_reads ..) (.cons (nullary_reads ..) (.cons (unary_reads ..) (.cons (binary_reads ..) (.cons (nullary_reads ..) (.cons (unary_reads ..) (.cons (binary_reads ..) (.cons (nullary_reads ..) (.cons (binary_reads ..) (.cons (unary_reads ..) (.cons (binary_reads ..) (.cons (binary_reads ..) (.cons (unary_reads ..) (.cons (binary_reads ..) (.cons (ternary_reads ..) (.nil)))))))))))))))))))))

/-- The (operands, result) pairs of `opsP2_16`. -/
abbrev dataP2_16 : Data :=
  [([], main_c_31), ([main_c_31], main_v136), ([main_v133, main_v136], main_v137), ([], main_c_32), ([main_c_32], main_v138),
   ([main_v133, main_v138], main_v139), ([main_v137, main_v139, main_v133], main_v140), ([], main_c_33), ([main_c_33], main_v141),
   ([main_v135, main_v141], main_v142), ([], main_c_34)]
theorem opsP2_16_reads : ReadsAll (opsP2_16 : List (HloOp τ sig (Elt F))) dataP2_16 :=
  .cons (nullary_reads ..) (.cons (unary_reads ..) (.cons (binary_reads ..) (.cons (nullary_reads ..) (.cons (unary_reads ..) (.cons (binary_reads ..) (.cons (ternary_reads ..) (.cons (nullary_reads ..) (.cons (unary_reads ..) (.cons (binary_reads ..) (.cons (nullary_reads ..) (.nil)))))))))))

/-- The pairs of window 2's line. -/
abbrev dataP2 : Data :=
  dataP2_0 ++ (dataP2_1 ++ (dataP2_2 ++ (dataP2_3 ++ (dataP2_4 ++ (dataP2_5 ++ (dataP2_6 ++ (dataP2_7 ++ (dataP2_8 ++ (dataP2_9 ++ (dataP2_10 ++ (dataP2_11 ++ (dataP2_12 ++ (dataP2_13 ++ (dataP2_14 ++ (dataP2_15 ++ (dataP2_16))))))))))))))))
theorem opsP2_reads : ReadsAll (opsP2 : List (HloOp τ sig (Elt F))) dataP2 :=
  (opsP2_0_reads).append ((opsP2_1_reads).append ((opsP2_2_reads).append ((opsP2_3_reads).append ((opsP2_4_reads).append ((opsP2_5_reads).append ((opsP2_6_reads).append ((opsP2_7_reads).append ((opsP2_8_reads).append ((opsP2_9_reads).append ((opsP2_10_reads).append ((opsP2_11_reads).append ((opsP2_12_reads).append ((opsP2_13_reads).append ((opsP2_14_reads).append ((opsP2_15_reads).append (opsP2_16_reads))))))))))))))))

end Cert.ReferenceIdeal.Hand

end
-- ==== Proof.Ref.Run3.lean ====
import proofs.«135652_j20272245637753_1_alg».proof.Proof.Ref.Base

/-! # The reference's run, window 3

Window 3 of the reference @main (`main_part3`) as a list of host operations, cut into stretches at the calls:
@main's own operations between two calls are one stretch, a called function's body — with the bodies of the
functions it calls in turn — over that call's buffers is the next. Beside each stretch: every operation touches
TensorCore buffers only, writes no argument of @main, and determines what it writes. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- 27 operations of @main's own, in order. -/
abbrev opsP3_0 : List (HloOp τ sig (Elt F)) :=
  [ StableHlo.unary main_c_34 main_v143 (broadcastInDim S8386560 ![] bcast_S_S8386560 : (⟨S_, .i32⟩ : BufTy).Contents (Elt F) → (⟨S8386560, .i32⟩ : BufTy).Contents (Elt F)),
    StableHlo.binary main_v135 main_v143 main_v144 (addi : (⟨S8386560, .i32⟩ : BufTy).Contents (Elt F) → (⟨S8386560, .i32⟩ : BufTy).Contents (Elt F) → (⟨S8386560, .i32⟩ : BufTy).Contents (Elt F)),
    StableHlo.ternary main_v142 main_v144 main_v135 main_v145 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v140 main_v146 (broadcastInDim S8386560x1 ![0] bcast_S8386560_S8386560x1_0 : (⟨S8386560, .i32⟩ : BufTy).Contents (Elt F) → (⟨S8386560x1, .i32⟩ : BufTy).Contents (Elt F)),
    StableHlo.unary main_v145 main_v147 (broadcastInDim S8386560x1 ![0] bcast_S8386560_S8386560x1_0 : (⟨S8386560, .i32⟩ : BufTy).Contents (Elt F) → (⟨S8386560x1, .i32⟩ : BufTy).Contents (Elt F)),
    StableHlo.binary main_v146 main_v147 main_v148 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v115 main_v148 main_v149 ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)),
    StableHlo.nullary main_cst_35 (constant S_ .f32 0x00000000#32),
    StableHlo.unary main_cst_35 main_v150 (broadcastInDim S8386560 ![] bcast_S_S8386560 : (⟨S_, .f32⟩ : BufTy).Contents (Elt F) → (⟨S8386560, .f32⟩ : BufTy).Contents (Elt F)),
    StableHlo.binary main_v149 main_v150 main_v151 (maximumf : (⟨S8386560, .f32⟩ : BufTy).Contents (Elt F) → (⟨S8386560, .f32⟩ : BufTy).Contents (Elt F) → (⟨S8386560, .f32⟩ : BufTy).Contents (Elt F)),
    StableHlo.unary main_v151 main_v152 (Host.sqrt : (⟨S8386560, .f32⟩ : BufTy).Contents (Elt F) → (⟨S8386560, .f32⟩ : BufTy).Contents (Elt F)),
    StableHlo.binary main_v53 main_v53 main_v153 (mulf : (⟨S4096x784, .f32⟩ : BufTy).Contents (Elt F) → (⟨S4096x784, .f32⟩ : BufTy).Contents (Elt F) → (⟨S4096x784, .f32⟩ : BufTy).Contents (Elt F)),
    StableHlo.nullary main_cst_36 (constant S_ .f32 0x00000000#32),
    StableHlo.binary main_v153 main_cst_36 main_v154 ((fun x v => Host.reduceAdd x v reducesTo_S4096x784_S4096_d1 h_S_) : (⟨S4096x784, .f32⟩ : BufTy).Contents (Elt F) → (⟨S_, .f32⟩ : BufTy).Contents (Elt F) → (⟨S4096, .f32⟩ : BufTy).Contents (Elt F)),
    StableHlo.unary main_v154 main_v155 (broadcastInDim S4096x1 ![0] bcast_S4096_S4096x1_0 : (⟨S4096, .f32⟩ : BufTy).Contents (Elt F) → (⟨S4096x1, .f32⟩ : BufTy).Contents (Elt F)),
    StableHlo.unary main_v154 main_v156 (broadcastInDim S1x4096 ![1] bcast_S4096_S1x4096_1 : (⟨S4096, .f32⟩ : BufTy).Contents (Elt F) → (⟨S1x4096, .f32⟩ : BufTy).Contents (Elt F)),
    StableHlo.unary main_v155 main_v157 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v156 main_v158 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v157 main_v158 main_v159 (addf : (⟨S4096x4096, .f32⟩ : BufTy).Contents (Elt F) → (⟨S4096x4096, .f32⟩ : BufTy).Contents (Elt F) → (⟨S4096x4096, .f32⟩ : BufTy).Contents (Elt F)),
    StableHlo.unary main_v53 main_v160 ((transpose S784x4096 [1, 0] · transposes_S4096x784_S784x4096_1_0) : (⟨S4096x784, .f32⟩ : BufTy).Contents (Elt F) → (⟨S784x4096, .f32⟩ : BufTy).Contents (Elt F)),
    StableHlo.binary main_v53 main_v160 main_v161 ((fun l r => Host.dotGeneral dot_S4096x784_S784x4096_S4096x4096_1_0_0_1_n_n none l r) : (⟨S4096x784, .f32⟩ : BufTy).Contents (Elt F) → (⟨S784x4096, .f32⟩ : BufTy).Contents (Elt F) → (⟨S4096x4096, .f32⟩ : BufTy).Contents (Elt F)),
    StableHlo.nullary main_cst_37 (constant S_ .f32 0x40000000#32),
    StableHlo.unary main_cst_37 main_v162 (broadcastInDim S4096x4096 ![] bcast_S_S4096x4096 : (⟨S_, .f32⟩ : BufTy).Contents (Elt F) → (⟨S4096x4096, .f32⟩ : BufTy).Contents (Elt F)),
    StableHlo.binary main_v162 main_v161 main_v163 (mulf : (⟨S4096x4096, .f32⟩ : BufTy).Contents (Elt F) → (⟨S4096x4096, .f32⟩ : BufTy).Contents (Elt F) → (⟨S4096x4096, .f32⟩ : BufTy).Contents (Elt F)),
    StableHlo.binary main_v159 main_v163 main_v164 (subf : (⟨S4096x4096, .f32⟩ : BufTy).Contents (Elt F) → (⟨S4096x4096, .f32⟩ : BufTy).Contents (Elt F) → (⟨S4096x4096, .f32⟩ : BufTy).Contents (Elt F)),
    StableHlo.nullary main_cst_38 (constant S_ .f32 0x3F800000#32),
    StableHlo.unary main_cst_38 main_v165 (broadcastInDim S4096x4096 ![] bcast_S_S4096x4096 : (⟨S_, .f32⟩ : BufTy).Contents (Elt F) → (⟨S4096x4096, .f32⟩ : BufTy).Contents (Elt F)) ]
theorem opsP3_0_sub : (opsP3_0 : List (HloOp τ sig (Elt F))).Forall fun op => op.bufs ⊆ tcRefs τ sig :=
  ⟨unary_bufs_sub .., binary_bufs_sub .., ternary_bufs_sub .., unary_bufs_sub .., unary_bufs_sub .., binary_bufs_sub .., binary_bufs_sub ..,
    nullary_bufs_sub .., unary_bufs_sub .., binary_bufs_sub .., unary_bufs_sub .., binary_bufs_sub .., nullary_bufs_sub .., binary_bufs_sub ..,
    unary_bufs_sub .., unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..⟩
theorem opsP3_0_keeps : (opsP3_0 : List (HloOp τ sig (Elt F))).Forall KeepsArgs :=
  ⟨⟨main_v143, rfl, by decide⟩, ⟨main_v144, rfl, by decide⟩, ⟨main_v145, rfl, by decide⟩, ⟨main_v146, rfl, by decide⟩, ⟨main_v147, rfl, by decide⟩,
    ⟨main_v148, rfl, by decide⟩, ⟨main_v149, rfl, by decide⟩, ⟨main_cst_35, rfl, by decide⟩, ⟨main_v150, rfl, by decide⟩, ⟨main_v151, rfl, by decide⟩,
    ⟨main_v152, rfl, by decide⟩, ⟨main_v153, rfl, by decide⟩, ⟨main_cst_36, rfl, by decide⟩, ⟨main_v154, rfl, by decide⟩, ⟨main_v155, rfl, by decide⟩,
    ⟨main_v156, rfl, by decide⟩, ⟨main_v157, rfl, by decide⟩, ⟨main_v158, rfl, by decide⟩, ⟨main_v159, rfl, by decide⟩, ⟨main_v160, rfl, by decide⟩,
    ⟨main_v161, rfl, by decide⟩, ⟨main_cst_37, rfl, by decide⟩, ⟨main_v162, rfl, by decide⟩, ⟨main_v163, rfl, by decide⟩, ⟨main_v164, rfl, by decide⟩,
    ⟨main_cst_38, rfl, by decide⟩, ⟨main_v165, rfl, by decide⟩⟩
theorem opsP3_0_fresh : (opsP3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The 9 operations of the call of `triu`: the row index, the offset zero and its broadcast, their sum, the column index, the comparison, the float zero and its broadcast, the select — over the call's buffers `main_call22`, in order. -/
abbrev opsP3_1 : List (HloOp τ sig (Elt F)) :=
  [ StableHlo.TRef.nullary (.of main_call22_v0 : StableHlo.TRef sig ⟨S4096x4096, .i32⟩) (iotaInDim S4096x4096 32 0),
    StableHlo.TRef.nullary (.of main_call22_c : StableHlo.TRef sig ⟨S_, .i32⟩) (constantI S_ 32 0#32),
    StableHlo.TRef.unary (.of main_call22_c : StableHlo.TRef sig ⟨S_, .i32⟩) (.of main_call22_v1 : StableHlo.TRef sig ⟨S4096x4096, .i32⟩) (broadcastInDim S4096x4096 ![] bcast_S_S4096x4096),
    StableHlo.TRef.binary (.of main_call22_v0 : StableHlo.TRef sig ⟨S4096x4096, .i32⟩) (.of main_call22_v1 : StableHlo.TRef sig ⟨S4096x4096, .i32⟩) (.of main_call22_v2 : StableHlo.TRef sig ⟨S4096x4096, .i32⟩) addi,
    StableHlo.TRef.nullary (.of main_call22_v3 : StableHlo.TRef sig ⟨S4096x4096, .i32⟩) (iotaInDim S4096x4096 32 1),
    StableHlo.TRef.binary (.of main_call22_v2 : StableHlo.TRef sig ⟨S4096x4096, .i32⟩) (.of main_call22_v3 : StableHlo.TRef sig ⟨S4096x4096, .i32⟩) (.of main_call22_v4 : StableHlo.TRef sig ⟨S4096x4096, .i1⟩) (cmpi .sge),
    StableHlo.TRef.nullary (.of main_call22_cst : StableHlo.TRef sig ⟨S_, .f32⟩) (constant S_ .f32 0x00000000#32),
    StableHlo.TRef.unary (.of main_call22_cst : StableHlo.TRef sig ⟨S_, .f32⟩) (.of main_call22_v5 : StableHlo.TRef sig ⟨S4096x4096, .f32⟩) (broadcastInDim S4096x4096 ![] bcast_S_S4096x4096),
    StableHlo.TRef.ternary (.of main_call22_v4 : StableHlo.TRef sig ⟨S4096x4096, .i1⟩) (.of main_call22_v5 : StableHlo.TRef sig ⟨S4096x4096, .f32⟩) (.of main_v165 : StableHlo.TRef sig ⟨S4096x4096, .f32⟩) (.of main_v166 : StableHlo.TRef sig ⟨S4096x4096, .f32⟩) select ]
theorem opsP3_1_sub : (opsP3_1 : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub ..,
    unary_bufs_sub .., ternary_bufs_sub ..⟩
theorem opsP3_1_keeps : (opsP3_1 : List (HloOp τ sig (Elt F))).Forall KeepsArgs :=
  ⟨⟨main_call22_v0, rfl, by decide⟩, ⟨main_call22_c, rfl, by decide⟩, ⟨main_call22_v1, rfl, by decide⟩, ⟨main_call22_v2, rfl, by decide⟩,
    ⟨main_call22_v3, rfl, by decide⟩, ⟨main_call22_v4, rfl, by decide⟩, ⟨main_call22_cst, rfl, by decide⟩, ⟨main_call22_v5, rfl, by decide⟩,
    ⟨main_v166, rfl, by decide⟩⟩
theorem opsP3_1_fresh : (opsP3_1 : List (HloOp τ sig (Elt F))).Forall fun op => op.fresh = ∅ :=
  ⟨rfl, rfl, rfl, rfl, rfl, rfl, rfl, rfl, rfl⟩

/-- 3 operations of @main's own, in order. -/
abbrev opsP3_2 : List (HloOp τ sig (Elt F)) :=
  [ StableHlo.nullary main_cst_39 (constant S_ .f32 0x00000000#32),
    StableHlo.unary main_cst_39 main_v167 (broadcastInDim S4096x4096 ![] bcast_S_S4096x4096 : (⟨S_, .f32⟩ : BufTy).Contents (Elt F) → (⟨S4096x4096, .f32⟩ : BufTy).Contents (Elt F)),
    StableHlo.binary main_v166 main_v167 main_v168 (cmpf .une : (⟨S4096x4096, .f32⟩ : BufTy).Contents (Elt F) → (⟨S4096x4096, .f32⟩ : BufTy).Contents (Elt F) → (⟨S4096x4096, .i1⟩ : BufTy).Contents (Elt F)) ]
theorem opsP3_2_sub : (opsP3_2 : List (HloOp τ sig (Elt F))).Forall fun op => op.bufs ⊆ tcRefs τ sig :=
  ⟨nullary_bufs_sub .., unary_bufs_sub .., binary_bufs_sub ..⟩
theorem opsP3_2_keeps : (opsP3_2 : List (HloOp τ sig (Elt F))).Forall KeepsArgs :=
  ⟨⟨main_cst_39, rfl, by decide⟩, ⟨main_v167, rfl, by decide⟩, ⟨main_v168, rfl, by decide⟩⟩
theorem opsP3_2_fresh : (opsP3_2 : List (HloOp τ sig (Elt F))).Forall fun op => op.fresh = ∅ :=
  ⟨rfl, rfl, rfl⟩

/-- The 5 operations of the call of `cumsum`: the flattening, the conversion to integers, and `cumsum`'s inner zero, its broadcast and the running sum as a reduce-window — over the call's buffers `main_call23`, in order. -/
abbrev opsP3_3 : List (HloOp τ sig (Elt F)) :=
  [ StableHlo.TRef.reshape (.of main_v168 : StableHlo.TRef sig ⟨S4096x4096, .i1⟩) (.of main_call23_v0 : StableHlo.TRef sig ⟨S16777216, .i1⟩) rfl shapeCasts_S4096x4096_S16777216,
    StableHlo.TRef.unary (.of main_call23_v0 : StableHlo.TRef sig ⟨S16777216, .i1⟩) (.of main_call23_v1 : StableHlo.TRef sig ⟨S16777216, .i32⟩) (extui 32 · natLt_1_32),
    StableHlo.TRef.nullary (.of main_call23_call0_c : StableHlo.TRef sig ⟨S_, .i32⟩) (constantI S_ 32 0#32),
    StableHlo.TRef.unary (.of main_call23_call0_c : StableHlo.TRef sig ⟨S_, .i32⟩) (.of main_call23_call0_v0 : StableHlo.TRef sig ⟨S_, .i32⟩) (broadcastInDim S_ ![] bcast_S_S_),
    StableHlo.TRef.binary (.of main_call23_v1 : StableHlo.TRef sig ⟨S16777216, .i32⟩) (.of main_call23_call0_v0 : StableHlo.TRef sig ⟨S_, .i32⟩) (.of main_v169 : StableHlo.TRef sig ⟨S16777216, .i32⟩) (fun x v => Host.reduceWindow IntOp.addi ![16777216] ![1] ![16777215] ![0] x v reduceWindows_S16777216_S16777216_w16777216s1p16777215_0 h_S_) ]
theorem opsP3_3_sub : (opsP3_3 : List (HloOp τ sig (Elt F))).Forall fun op => op.bufs ⊆ tcRefs τ sig :=
  ⟨reshape_bufs_sub .., unary_bufs_sub .., nullary_bufs_sub .., unary_bufs_sub .., binary_bufs_sub ..⟩
theorem opsP3_3_keeps : (opsP3_3 : List (HloOp τ sig (Elt F))).Forall KeepsArgs :=
  ⟨⟨main_call23_v0, rfl, by decide⟩, ⟨main_call23_v1, rfl, by decide⟩, ⟨main_call23_call0_c, rfl, by decide⟩, ⟨main_call23_call0_v0, rfl, by decide⟩,
    ⟨main_v169, rfl, by decide⟩⟩
theorem opsP3_3_fresh : (opsP3_3 : List (HloOp τ sig (Elt F))).Forall fun op => op.fresh = ∅ :=
  ⟨rfl, rfl, rfl, rfl, rfl⟩

/-- 3 operations of @main's own, in order. -/
abbrev opsP3_4 : List (HloOp τ sig (Elt F)) :=
  [ StableHlo.nullary main_c_40 (constantI S_ 32 0#32),
    StableHlo.unary main_c_40 main_v170 (broadcastInDim S8386560 ![] bcast_S_S8386560 : (⟨S_, .i32⟩ : BufTy).Contents (Elt F) → (⟨S8386560, .i32⟩ : BufTy).Contents (Elt F)),
    StableHlo.nullary main_c_41 (constantI S_ 32 0#32) ]
theorem opsP3_4_sub : (opsP3_4 : List (HloOp τ sig (Elt F))).Forall fun op => op.bufs ⊆ tcRefs τ sig :=
  ⟨nullary_bufs_sub .., unary_bufs_sub .., nullary_bufs_sub ..⟩
theorem opsP3_4_keeps : (opsP3_4 : List (HloOp τ sig (Elt F))).Forall KeepsArgs :=
  ⟨⟨main_c_40, rfl, by decide⟩, ⟨main_v170, rfl, by decide⟩, ⟨main_c_41, rfl, by decide⟩⟩
theorem opsP3_4_fresh : (opsP3_4 : List (HloOp τ sig (Elt F))).Forall fun op => op.fresh = ∅ :=
  ⟨rfl, rfl, rfl⟩

/-- The 3 operations of the call of `clip`: the lower bound converted, its broadcast, the maximum — over the call's buffers `main_call24`, in order. -/
abbrev opsP3_5 : List (HloOp τ sig (Elt F)) :=
  [ StableHlo.TRef.unary (.of main_c_41 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S16777216, .i32⟩) (broadcastInDim S16777216 ![] bcast_S_S16777216),
    StableHlo.TRef.binary (.of main_call24_v1 : StableHlo.TRef sig ⟨S16777216, .i32⟩) (.of main_v169 : StableHlo.TRef sig ⟨S16777216, .i32⟩) (.of main_v171 : StableHlo.TRef sig ⟨S16777216, .i32⟩) maxsi ]
theorem opsP3_5_sub : (opsP3_5 : List (HloOp τ sig (Elt F))).Forall fun op => op.bufs ⊆ tcRefs τ sig :=
  ⟨unary_bufs_sub .., unary_bufs_sub .., binary_bufs_sub ..⟩
theorem opsP3_5_keeps : (opsP3_5 : List (HloOp τ sig (Elt F))).Forall KeepsArgs :=
  ⟨⟨main_call24_v0, rfl, by decide⟩, ⟨main_call24_v1, rfl, by decide⟩, ⟨main_v171, rfl, by decide⟩⟩
theorem opsP3_5_fresh : (opsP3_5 : List (HloOp τ sig (Elt F))).Forall fun op => op.fresh = ∅ :=
  ⟨rfl, rfl, rfl⟩

/-- 11 operations of @main's own, in order. -/
abbrev opsP3_6 : List (HloOp τ sig (Elt F)) :=
  [ StableHlo.nullary main_c_42 (constantI S_ 32 0#32),
    StableHlo.unary main_c_42 main_v172 (broadcastInDim S16777216 ![] bcast_S_S16777216 : (⟨S_, .i32⟩ : BufTy).Contents (Elt F) → (⟨S16777216, .i32⟩ : BufTy).Contents (Elt F)),
    StableHlo.binary main_v171 main_v172 main_v173 (cmpi .slt : (⟨S16777216, .i32⟩ : BufTy).Contents (Elt F) → (⟨S16777216, .i32⟩ : BufTy).Contents (Elt F) → (⟨S16777216, .i1⟩ : BufTy).Contents (Elt F)),
    StableHlo.nullary main_c_43 (constantI S_ 32 8386560#32),
    StableHlo.unary main_c_43 main_v174 (broadcastInDim S16777216 ![] bcast_S_S16777216 : (⟨S_, .i32⟩ : BufTy).Contents (Elt F) → (⟨S16777216, .i32⟩ : BufTy).Contents (Elt F)),
    StableHlo.binary main_v171 main_v174 main_v175 (addi : (⟨S16777216, .i32⟩ : BufTy).Contents (Elt F) → (⟨S16777216, .i32⟩ : BufTy).Contents (Elt F) → (⟨S16777216, .i32⟩ : BufTy).Contents (Elt F)),
    StableHlo.ternary main_v173 main_v175 main_v171 main_v176 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v176 main_v177 (broadcastInDim S16777216x1 ![0] bcast_S16777216_S16777216x1_0 : (⟨S16777216, .i32⟩ : BufTy).Contents (Elt F) → (⟨S16777216x1, .i32⟩ : BufTy).Contents (Elt F)),
    StableHlo.nullary main_c_44 (constantI S_ 32 1#32),
    StableHlo.unary main_c_44 main_v178 (broadcastInDim S16777216 ![] bcast_S_S16777216 : (⟨S_, .i32⟩ : BufTy).Contents (Elt F) → (⟨S16777216, .i32⟩ : BufTy).Contents (Elt F)),
    StableHlo.ternary main_v170 main_v177 main_v178 main_v179 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]
theorem opsP3_6_sub : (opsP3_6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., nullary_bufs_sub .., unary_bufs_sub .., ternary_bufs_sub ..⟩
theorem opsP3_6_keeps : (opsP3_6 : List (HloOp τ sig (Elt F))).Forall KeepsArgs :=
  ⟨⟨main_c_42, rfl, by decide⟩, ⟨main_v172, rfl, by decide⟩, ⟨main_v173, rfl, by decide⟩, ⟨main_c_43, rfl, by decide⟩, ⟨main_v174, rfl, by decide⟩,
    ⟨main_v175, rfl, by decide⟩, ⟨main_v176, rfl, by decide⟩, ⟨main_v177, rfl, by decide⟩, ⟨main_c_44, rfl, by decide⟩, ⟨main_v178, rfl, by decide⟩,
    ⟨main_v179, rfl, by decide⟩⟩
theorem opsP3_6_fresh : (opsP3_6 : List (HloOp τ sig (Elt F))).Forall fun op => op.fresh = ∅ :=
  ⟨rfl, rfl, rfl, rfl, rfl, rfl, rfl, rfl, rfl, rfl, rfl⟩

/-- The 3 operations of the call of `cumsum`: the zero, its broadcast and the running sum as a reduce-window — over the call's buffers `main_call25`, in order. -/
abbrev opsP3_7 : List (HloOp τ sig (Elt F)) :=
  [ StableHlo.TRef.nullary (.of main_call25_call0_c : StableHlo.TRef sig ⟨S_, .i32⟩) (constantI S_ 32 0#32),
    StableHlo.TRef.unary (.of main_call25_call0_c : StableHlo.TRef sig ⟨S_, .i32⟩) (.of main_call25_call0_v0 : StableHlo.TRef sig ⟨S_, .i32⟩) (broadcastInDim S_ ![] bcast_S_S_),
    StableHlo.TRef.binary (.of main_v179 : StableHlo.TRef sig ⟨S8386560, .i32⟩) (.of main_call25_call0_v0 : StableHlo.TRef sig ⟨S_, .i32⟩) (.of main_v180 : StableHlo.TRef sig ⟨S8386560, .i32⟩) (fun x v => Host.reduceWindow IntOp.addi ![8386560] ![1] ![8386559] ![0] x v reduceWindows_S8386560_S8386560_w8386560s1p8386559_0 h_S_) ]
theorem opsP3_7_sub : (opsP3_7 : List (HloOp τ sig (Elt F))).Forall fun op => op.bufs ⊆ tcRefs τ sig :=
  ⟨nullary_bufs_sub .., unary_bufs_sub .., binary_bufs_sub ..⟩
theorem opsP3_7_keeps : (opsP3_7 : List (HloOp τ sig (Elt F))).Forall KeepsArgs :=
  ⟨⟨main_call25_call0_c, rfl, by decide⟩, ⟨main_call25_call0_v0, rfl, by decide⟩, ⟨main_v180, rfl, by decide⟩⟩
theorem opsP3_7_fresh : (opsP3_7 : List (HloOp τ sig (Elt F))).Forall fun op => op.fresh = ∅ :=
  ⟨rfl, rfl, rfl⟩

/-- 1 operation of @main's own, in order. -/
abbrev opsP3_8 : List (HloOp τ sig (Elt F)) :=
  [ StableHlo.nullary main_c_45 (constantI S_ 32 4096#32) ]
theorem opsP3_8_sub : (opsP3_8 : List (HloOp τ sig (Elt F))).Forall fun op => op.bufs ⊆ tcRefs τ sig :=
  nullary_bufs_sub ..
theorem opsP3_8_keeps : (opsP3_8 : List (HloOp τ sig (Elt F))).Forall KeepsArgs :=
  ⟨main_c_45, rfl, by decide⟩
theorem opsP3_8_fresh : (opsP3_8 : List (HloOp τ sig (Elt F))).Forall fun op => op.fresh = ∅ :=
  rfl

/-- The 16 operations of the call of `floor_divide`: the divisor's broadcast, the quotient, the two signs and their comparison, the remainder and its comparison with zero, the conjunction, the quotient less one, and `_where`'s select — over the call's buffers `main_call26`, in order. -/
abbrev opsP3_9 : List (HloOp τ sig (Elt F)) :=
  [ StableHlo.TRef.unary (.of main_c_45 : StableHlo.TRef sig ⟨S_, .i32⟩) (.of main_call26_v0 : StableHlo.TRef sig ⟨S8386560, .i32⟩) (broadcastInDim S8386560 ![] bcast_S_S8386560),
    StableHlo.TRef.binary (.of main_v180 : StableHlo.TRef sig ⟨S8386560, .i32⟩) (.of main_call26_v0 : StableHlo.TRef sig ⟨S8386560, .i32⟩) (.of main_call26_v1 : StableHlo.TRef sig ⟨S8386560, .i32⟩) Host.divsi,
    StableHlo.TRef.unary (.of main_v180 : StableHlo.TRef sig ⟨S8386560, .i32⟩) (.of main_call26_v2 : StableHlo.TRef sig ⟨S8386560, .i32⟩) signi,
    StableHlo.TRef.unary (.of main_c_45 : StableHlo.TRef sig ⟨S_, .i32⟩) (.of main_call26_v3 : StableHlo.TRef sig ⟨S_, .i32⟩) signi,
    StableHlo.TRef.unary (.of main_call26_v3 : StableHlo.TRef sig ⟨S_, .i32⟩) (.of main_call26_v4 : StableHlo.TRef sig ⟨S8386560, .i32⟩) (broadcastInDim S8386560 ![] bcast_S_S8386560),
    StableHlo.TRef.binary (.of main_call26_v2 : StableHlo.TRef sig ⟨S8386560, .i32⟩) (.of main_call26_v4 : StableHlo.TRef sig ⟨S8386560, .i32⟩) (.of main_call26_v5 : StableHlo.TRef sig ⟨S8386560, .i1⟩) (cmpi .ne),
    StableHlo.TRef.unary (.of main_c_45 : StableHlo.TRef sig ⟨S_, .i32⟩) (.of main_call26_v6 : StableHlo.TRef sig ⟨S8386560, .i32⟩) (broadcastInDim S8386560 ![] bcast_S_S8386560),
    StableHlo.TRef.binary (.of main_v180 : StableHlo.TRef sig ⟨S8386560, .i32⟩) (.of main_call26_v6 : StableHlo.TRef sig ⟨S8386560, .i32⟩) (.of main_call26_v7 : StableHlo.TRef sig ⟨S8386560, .i32⟩) Host.remsi,
    StableHlo.TRef.nullary (.of main_call26_c : StableHlo.TRef sig ⟨S_, .i32⟩) (constantI S_ 32 0#32),
    StableHlo.TRef.unary (.of main_call26_c : StableHlo.TRef sig ⟨S_, .i32⟩) (.of main_call26_v8 : StableHlo.TRef sig ⟨S8386560, .i32⟩) (broadcastInDim S8386560 ![] bcast_S_S8386560),
    StableHlo.TRef.binary (.of main_call26_v7 : StableHlo.TRef sig ⟨S8386560, .i32⟩) (.of main_call26_v8 : StableHlo.TRef sig ⟨S8386560, .i32⟩) (.of main_call26_v9 : StableHlo.TRef sig ⟨S8386560, .i1⟩) (cmpi .ne),
    StableHlo.TRef.binary (.of main_call26_v5 : StableHlo.TRef sig ⟨S8386560, .i1⟩) (.of main_call26_v9 : StableHlo.TRef sig ⟨S8386560, .i1⟩) (.of main_call26_v10 : StableHlo.TRef sig ⟨S8386560, .i1⟩) andi,
    StableHlo.TRef.nullary (.of main_call26_c_0 : StableHlo.TRef sig ⟨S_, .i32⟩) (constantI S_ 32 1#32),
    StableHlo.TRef.unary (.of main_call26_c_0 : StableHlo.TRef sig ⟨S_, .i32⟩) (.of main_call26_v11 : StableHlo.TRef sig ⟨S8386560, .i32⟩) (broadcastInDim S8386560 ![] bcast_S_S8386560),
    StableHlo.TRef.binary (.of main_call26_v1 : StableHlo.TRef sig ⟨S8386560, .i32⟩) (.of main_call26_v11 : StableHlo.TRef sig ⟨S8386560, .i32⟩) (.of main_call26_v12 : StableHlo.TRef sig ⟨S8386560, .i32⟩) subi,
    StableHlo.TRef.ternary (.of main_call26_v10 : StableHlo.TRef sig ⟨S8386560, .i1⟩) (.of main_call26_v12 : StableHlo.TRef sig ⟨S8386560, .i32⟩) (.of main_call26_v1 : StableHlo.TRef sig ⟨S8386560, .i32⟩) (.of main_v181 : StableHlo.TRef sig ⟨S8386560, .i32⟩) select ]
theorem opsP3_9_sub : (opsP3_9 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub ..,
    binary_bufs_sub .., ternary_bufs_sub ..⟩
theorem opsP3_9_keeps : (opsP3_9 : List (HloOp τ sig (Elt F))).Forall KeepsArgs :=
  ⟨⟨main_call26_v0, rfl, by decide⟩, ⟨main_call26_v1, rfl, by decide⟩, ⟨main_call26_v2, rfl, by decide⟩, ⟨main_call26_v3, rfl, by decide⟩,
    ⟨main_call26_v4, rfl, by decide⟩, ⟨main_call26_v5, rfl, by decide⟩, ⟨main_call26_v6, rfl, by decide⟩, ⟨main_call26_v7, rfl, by decide⟩,
    ⟨main_call26_c, rfl, by decide⟩, ⟨main_call26_v8, rfl, by decide⟩, ⟨main_call26_v9, rfl, by decide⟩, ⟨main_call26_v10, rfl, by decide⟩,
    ⟨main_call26_c_0, rfl, by decide⟩, ⟨main_call26_v11, rfl, by decide⟩, ⟨main_call26_v12, rfl, by decide⟩, ⟨main_v181, rfl, by decide⟩⟩
theorem opsP3_9_fresh : (opsP3_9 : List (HloOp τ sig (Elt F))).Forall fun op => op.fresh = ∅ :=
  ⟨rfl, rfl, rfl, rfl, rfl, rfl, rfl, rfl, rfl, rfl, rfl, rfl, rfl, rfl, rfl, rfl⟩

/-- 1 operation of @main's own, in order. -/
abbrev opsP3_10 : List (HloOp τ sig (Elt F)) :=
  [ StableHlo.nullary main_c_46 (constantI S_ 32 4096#32) ]
theorem opsP3_10_sub : (opsP3_10 : List (HloOp τ sig (Elt F))).Forall fun op => op.bufs ⊆ tcRefs τ sig :=
  nullary_bufs_sub ..
theorem opsP3_10_keeps : (opsP3_10 : List (HloOp τ sig (Elt F))).Forall KeepsArgs :=
  ⟨main_c_46, rfl, by decide⟩
theorem opsP3_10_fresh : (opsP3_10 : List (HloOp τ sig (Elt F))).Forall fun op => op.fresh = ∅ :=
  rfl

/-- The 21 operations of the call of `remainder`: the divisor converted, its comparison with zero and `_where`'s select of one in its place, the remainder by it, its comparisons with zero, the divisor's sign broadcast, the conjunction, the remainder plus the divisor, the select — over the call's buffers `main_call27`, in order. -/
abbrev opsP3_11 : List (HloOp τ sig (Elt F)) :=
  [ StableHlo.TRef.unary (.of main_c_46 : StableHlo.TRef sig ⟨S_, .i32⟩) (.of main_call27_v0 : StableHlo.TRef sig ⟨S_, .i32⟩) id,
    StableHlo.TRef.nullary (.of main_call27_c : StableHlo.TRef sig ⟨S_, .i32⟩) (constantI S_ 32 0#32),
    StableHlo.TRef.binary (.of main_call27_v0 : StableHlo.TRef sig ⟨S_, .i32⟩) (.of main_call27_c : StableHlo.TRef sig ⟨S_, .i32⟩) (.of main_call27_v1 : StableHlo.TRef sig ⟨S_, .i1⟩) (cmpi .eq),
    StableHlo.TRef.nullary (.of main_call27_c_0 : StableHlo.TRef sig ⟨S_, .i32⟩) (constantI S_ 32 1#32),
    StableHlo.TRef.ternary (.of main_call27_v1 : StableHlo.TRef sig ⟨S_, .i1⟩) (.of main_call27_c_0 : StableHlo.TRef sig ⟨S_, .i32⟩) (.of main_call27_v0 : StableHlo.TRef sig ⟨S_, .i32⟩) (.of main_call27_v2 : StableHlo.TRef sig ⟨S_, .i32⟩) select,
    StableHlo.TRef.unary main_call27_call0.v0 (.of main_call27_v3 : StableHlo.TRef sig ⟨S8386560, .i32⟩) (broadcastInDim S8386560 ![] bcast_S_S8386560),
    StableHlo.TRef.binary (.of main_v181 : StableHlo.TRef sig ⟨S8386560, .i32⟩) (.of main_call27_v3 : StableHlo.TRef sig ⟨S8386560, .i32⟩) (.of main_call27_v4 : StableHlo.TRef sig ⟨S8386560, .i32⟩) Host.remsi,
    StableHlo.TRef.nullary (.of main_call27_c_1 : StableHlo.TRef sig ⟨S_, .i32⟩) (constantI S_ 32 0#32),
    StableHlo.TRef.unary (.of main_call27_c_1 : StableHlo.TRef sig ⟨S_, .i32⟩) (.of main_call27_v5 : StableHlo.TRef sig ⟨S8386560, .i32⟩) (broadcastInDim S8386560 ![] bcast_S_S8386560),
    StableHlo.TRef.binary (.of main_call27_v4 : StableHlo.TRef sig ⟨S8386560, .i32⟩) (.of main_call27_v5 : StableHlo.TRef sig ⟨S8386560, .i32⟩) (.of main_call27_v6 : StableHlo.TRef sig ⟨S8386560, .i1⟩) (cmpi .ne),
    StableHlo.TRef.nullary (.of main_call27_c_2 : StableHlo.TRef sig ⟨S_, .i32⟩) (constantI S_ 32 0#32),
    StableHlo.TRef.unary (.of main_call27_c_2 : StableHlo.TRef sig ⟨S_, .i32⟩) (.of main_call27_v7 : StableHlo.TRef sig ⟨S8386560, .i32⟩) (broadcastInDim S8386560 ![] bcast_S_S8386560),
    StableHlo.TRef.binary (.of main_call27_v4 : StableHlo.TRef sig ⟨S8386560, .i32⟩) (.of main_call27_v7 : StableHlo.TRef sig ⟨S8386560, .i32⟩) (.of main_call27_v8 : StableHlo.TRef sig ⟨S8386560, .i1⟩) (cmpi .slt),
    StableHlo.TRef.nullary (.of main_call27_c_3 : StableHlo.TRef sig ⟨S_, .i32⟩) (constantI S_ 32 0#32),
    StableHlo.TRef.binary main_call27_call0.v0 (.of main_call27_c_3 : StableHlo.TRef sig ⟨S_, .i32⟩) (.of main_call27_v9 : StableHlo.TRef sig ⟨S_, .i1⟩) (cmpi .slt),
    StableHlo.TRef.unary (.of main_call27_v9 : StableHlo.TRef sig ⟨S_, .i1⟩) (.of main_call27_v10 : StableHlo.TRef sig ⟨S8386560, .i1⟩) (broadcastInDim S8386560 ![] bcast_S_S8386560),
    StableHlo.TRef.binary (.of main_call27_v8 : StableHlo.TRef sig ⟨S8386560, .i1⟩) (.of main_call27_v10 : StableHlo.TRef sig ⟨S8386560, .i1⟩) (.of main_call27_v11 : StableHlo.TRef sig ⟨S8386560, .i1⟩) (cmpi .ne),
    StableHlo.TRef.binary (.of main_call27_v11 : StableHlo.TRef sig ⟨S8386560, .i1⟩) (.of main_call27_v6 : StableHlo.TRef sig ⟨S8386560, .i1⟩) (.of main_call27_v12 : StableHlo.TRef sig ⟨S8386560, .i1⟩) andi,
    StableHlo.TRef.unary main_call27_call0.v0 (.of main_call27_v13 : StableHlo.TRef sig ⟨S8386560, .i32⟩) (broadcastInDim S8386560 ![] bcast_S_S8386560),
    StableHlo.TRef.binary (.of main_call27_v4 : StableHlo.TRef sig ⟨S8386560, .i32⟩) (.of main_call27_v13 : StableHlo.TRef sig ⟨S8386560, .i32⟩) (.of main_call27_v14 : StableHlo.TRef sig ⟨S8386560, .i32⟩) addi,
    StableHlo.TRef.ternary (.of main_call27_v12 : StableHlo.TRef sig ⟨S8386560, .i1⟩) (.of main_call27_v14 : StableHlo.TRef sig ⟨S8386560, .i32⟩) (.of main_call27_v4 : StableHlo.TRef sig ⟨S8386560, .i32⟩) (.of main_v182 : StableHlo.TRef sig ⟨S8386560, .i32⟩) select ]
theorem opsP3_11_sub : (opsP3_11 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..⟩
theorem opsP3_11_keeps : (opsP3_11 : List (HloOp τ sig (Elt F))).Forall KeepsArgs :=
  ⟨⟨main_call27_v0, rfl, by decide⟩, ⟨main_call27_c, rfl, by decide⟩, ⟨main_call27_v1, rfl, by decide⟩, ⟨main_call27_c_0, rfl, by decide⟩,
    ⟨main_call27_v2, rfl, by decide⟩, ⟨main_call27_v3, rfl, by decide⟩, ⟨main_call27_v4, rfl, by decide⟩, ⟨main_call27_c_1, rfl, by decide⟩,
    ⟨main_call27_v5, rfl, by decide⟩, ⟨main_call27_v6, rfl, by decide⟩, ⟨main_call27_c_2, rfl, by decide⟩, ⟨main_call27_v7, rfl, by decide⟩,
    ⟨main_call27_v8, rfl, by decide⟩, ⟨main_call27_c_3, rfl, by decide⟩, ⟨main_call27_v9, rfl, by decide⟩, ⟨main_call27_v10, rfl, by decide⟩,
    ⟨main_call27_v11, rfl, by decide⟩, ⟨main_call27_v12, rfl, by decide⟩, ⟨main_call27_v13, rfl, by decide⟩, ⟨main_call27_v14, rfl, by decide⟩,
    ⟨main_v182, rfl, by decide⟩⟩
theorem opsP3_11_fresh : (opsP3_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 1 operation of @main's own, in order. -/
abbrev opsP3_12 : List (HloOp τ sig (Elt F)) :=
  [ StableHlo.nullary main_c_47 (constantI S_ 32 1#32) ]
theorem opsP3_12_sub : (opsP3_12 : List (HloOp τ sig (Elt F))).Forall fun op => op.bufs ⊆ tcRefs τ sig :=
  nullary_bufs_sub ..
theorem opsP3_12_keeps : (opsP3_12 : List (HloOp τ sig (Elt F))).Forall KeepsArgs :=
  ⟨main_c_47, rfl, by decide⟩
theorem opsP3_12_fresh : (opsP3_12 : List (HloOp τ sig (Elt F))).Forall fun op => op.fresh = ∅ :=
  rfl

/-- The 16 operations of the call of `floor_divide`: the divisor's broadcast, the quotient, the two signs and their comparison, the remainder and its comparison with zero, the conjunction, the quotient less one, and `_where`'s select — over the call's buffers `main_call28`, in order. -/
abbrev opsP3_13 : List (HloOp τ sig (Elt F)) :=
  [ StableHlo.TRef.unary (.of main_c_47 : StableHlo.TRef sig ⟨S_, .i32⟩) (.of main_call28_v0 : StableHlo.TRef sig ⟨S8386560, .i32⟩) (broadcastInDim S8386560 ![] bcast_S_S8386560),
    StableHlo.TRef.binary (.of main_v180 : StableHlo.TRef sig ⟨S8386560, .i32⟩) (.of main_call28_v0 : StableHlo.TRef sig ⟨S8386560, .i32⟩) (.of main_call28_v1 : StableHlo.TRef sig ⟨S8386560, .i32⟩) Host.divsi,
    StableHlo.TRef.unary (.of main_v180 : StableHlo.TRef sig ⟨S8386560, .i32⟩) (.of main_call28_v2 : StableHlo.TRef sig ⟨S8386560, .i32⟩) signi,
    StableHlo.TRef.unary (.of main_c_47 : StableHlo.TRef sig ⟨S_, .i32⟩) (.of main_call28_v3 : StableHlo.TRef sig ⟨S_, .i32⟩) signi,
    StableHlo.TRef.unary (.of main_call28_v3 : StableHlo.TRef sig ⟨S_, .i32⟩) (.of main_call28_v4 : StableHlo.TRef sig ⟨S8386560, .i32⟩) (broadcastInDim S8386560 ![] bcast_S_S8386560),
    StableHlo.TRef.binary (.of main_call28_v2 : StableHlo.TRef sig ⟨S8386560, .i32⟩) (.of main_call28_v4 : StableHlo.TRef sig ⟨S8386560, .i32⟩) (.of main_call28_v5 : StableHlo.TRef sig ⟨S8386560, .i1⟩) (cmpi .ne),
    StableHlo.TRef.unary (.of main_c_47 : StableHlo.TRef sig ⟨S_, .i32⟩) (.of main_call28_v6 : StableHlo.TRef sig ⟨S8386560, .i32⟩) (broadcastInDim S8386560 ![] bcast_S_S8386560),
    StableHlo.TRef.binary (.of main_v180 : StableHlo.TRef sig ⟨S8386560, .i32⟩) (.of main_call28_v6 : StableHlo.TRef sig ⟨S8386560, .i32⟩) (.of main_call28_v7 : StableHlo.TRef sig ⟨S8386560, .i32⟩) Host.remsi,
    StableHlo.TRef.nullary (.of main_call28_c : StableHlo.TRef sig ⟨S_, .i32⟩) (constantI S_ 32 0#32),
    StableHlo.TRef.unary (.of main_call28_c : StableHlo.TRef sig ⟨S_, .i32⟩) (.of main_call28_v8 : StableHlo.TRef sig ⟨S8386560, .i32⟩) (broadcastInDim S8386560 ![] bcast_S_S8386560),
    StableHlo.TRef.binary (.of main_call28_v7 : StableHlo.TRef sig ⟨S8386560, .i32⟩) (.of main_call28_v8 : StableHlo.TRef sig ⟨S8386560, .i32⟩) (.of main_call28_v9 : StableHlo.TRef sig ⟨S8386560, .i1⟩) (cmpi .ne),
    StableHlo.TRef.binary (.of main_call28_v5 : StableHlo.TRef sig ⟨S8386560, .i1⟩) (.of main_call28_v9 : StableHlo.TRef sig ⟨S8386560, .i1⟩) (.of main_call28_v10 : StableHlo.TRef sig ⟨S8386560, .i1⟩) andi,
    StableHlo.TRef.nullary (.of main_call28_c_0 : StableHlo.TRef sig ⟨S_, .i32⟩) (constantI S_ 32 1#32),
    StableHlo.TRef.unary (.of main_call28_c_0 : StableHlo.TRef sig ⟨S_, .i32⟩) (.of main_call28_v11 : StableHlo.TRef sig ⟨S8386560, .i32⟩) (broadcastInDim S8386560 ![] bcast_S_S8386560),
    StableHlo.TRef.binary (.of main_call28_v1 : StableHlo.TRef sig ⟨S8386560, .i32⟩) (.of main_call28_v11 : StableHlo.TRef sig ⟨S8386560, .i32⟩) (.of main_call28_v12 : StableHlo.TRef sig ⟨S8386560, .i32⟩) subi,
    StableHlo.TRef.ternary (.of main_call28_v10 : StableHlo.TRef sig ⟨S8386560, .i1⟩) (.of main_call28_v12 : StableHlo.TRef sig ⟨S8386560, .i32⟩) (.of main_call28_v1 : StableHlo.TRef sig ⟨S8386560, .i32⟩) (.of main_v183 : StableHlo.TRef sig ⟨S8386560, .i32⟩) select ]
theorem opsP3_13_sub : (opsP3_13 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub .., unary_bufs_sub ..,
    binary_bufs_sub .., ternary_bufs_sub ..⟩
theorem opsP3_13_keeps : (opsP3_13 : List (HloOp τ sig (Elt F))).Forall KeepsArgs :=
  ⟨⟨main_call28_v0, rfl, by decide⟩, ⟨main_call28_v1, rfl, by decide⟩, ⟨main_call28_v2, rfl, by decide⟩, ⟨main_call28_v3, rfl, by decide⟩,
    ⟨main_call28_v4, rfl, by decide⟩, ⟨main_call28_v5, rfl, by decide⟩, ⟨main_call28_v6, rfl, by decide⟩, ⟨main_call28_v7, rfl, by decide⟩,
    ⟨main_call28_c, rfl, by decide⟩, ⟨main_call28_v8, rfl, by decide⟩, ⟨main_call28_v9, rfl, by decide⟩, ⟨main_call28_v10, rfl, by decide⟩,
    ⟨main_call28_c_0, rfl, by decide⟩, ⟨main_call28_v11, rfl, by decide⟩, ⟨main_call28_v12, rfl, by decide⟩, ⟨main_v183, rfl, by decide⟩⟩
theorem opsP3_13_fresh : (opsP3_13 : List (HloOp τ sig (Elt F))).Forall fun op => op.fresh = ∅ :=
  ⟨rfl, rfl, rfl, rfl, rfl, rfl, rfl, rfl, rfl, rfl, rfl, rfl, rfl, rfl, rfl, rfl⟩

/-- 1 operation of @main's own, in order. -/
abbrev opsP3_14 : List (HloOp τ sig (Elt F)) :=
  [ StableHlo.nullary main_c_48 (constantI S_ 32 4096#32) ]
theorem opsP3_14_sub : (opsP3_14 : List (HloOp τ sig (Elt F))).Forall fun op => op.bufs ⊆ tcRefs τ sig :=
  nullary_bufs_sub ..
theorem opsP3_14_keeps : (opsP3_14 : List (HloOp τ sig (Elt F))).Forall KeepsArgs :=
  ⟨main_c_48, rfl, by decide⟩
theorem opsP3_14_fresh : (opsP3_14 : List (HloOp τ sig (Elt F))).Forall fun op => op.fresh = ∅ :=
  rfl

/-- The 21 operations of the call of `remainder`: the divisor converted, its comparison with zero and `_where`'s select of one in its place, the remainder by it, its comparisons with zero, the divisor's sign broadcast, the conjunction, the remainder plus the divisor, the select — over the call's buffers `main_call29`, in order. -/
abbrev opsP3_15 : List (HloOp τ sig (Elt F)) :=
  [ StableHlo.TRef.unary (.of main_c_48 : StableHlo.TRef sig ⟨S_, .i32⟩) (.of main_call29_v0 : StableHlo.TRef sig ⟨S_, .i32⟩) id,
    StableHlo.TRef.nullary (.of main_call29_c : StableHlo.TRef sig ⟨S_, .i32⟩) (constantI S_ 32 0#32),
    StableHlo.TRef.binary (.of main_call29_v0 : StableHlo.TRef sig ⟨S_, .i32⟩) (.of main_call29_c : StableHlo.TRef sig ⟨S_, .i32⟩) (.of main_call29_v1 : StableHlo.TRef sig ⟨S_, .i1⟩) (cmpi .eq),
    StableHlo.TRef.nullary (.of main_call29_c_0 : StableHlo.TRef sig ⟨S_, .i32⟩) (constantI S_ 32 1#32),
    StableHlo.TRef.ternary (.of main_call29_v1 : StableHlo.TRef sig ⟨S_, .i1⟩) (.of main_call29_c_0 : StableHlo.TRef sig ⟨S_, .i32⟩) (.of main_call29_v0 : StableHlo.TRef sig ⟨S_, .i32⟩) (.of main_call29_v2 : StableHlo.TRef sig ⟨S_, .i32⟩) select,
    StableHlo.TRef.unary main_call29_call0.v0 (.of main_call29_v3 : StableHlo.TRef sig ⟨S8386560, .i32⟩) (broadcastInDim S8386560 ![] bcast_S_S8386560),
    StableHlo.TRef.binary (.of main_v183 : StableHlo.TRef sig ⟨S8386560, .i32⟩) (.of main_call29_v3 : StableHlo.TRef sig ⟨S8386560, .i32⟩) (.of main_call29_v4 : StableHlo.TRef sig ⟨S8386560, .i32⟩) Host.remsi,
    StableHlo.TRef.nullary (.of main_call29_c_1 : StableHlo.TRef sig ⟨S_, .i32⟩) (constantI S_ 32 0#32),
    StableHlo.TRef.unary (.of main_call29_c_1 : StableHlo.TRef sig ⟨S_, .i32⟩) (.of main_call29_v5 : StableHlo.TRef sig ⟨S8386560, .i32⟩) (broadcastInDim S8386560 ![] bcast_S_S8386560),
    StableHlo.TRef.binary (.of main_call29_v4 : StableHlo.TRef sig ⟨S8386560, .i32⟩) (.of main_call29_v5 : StableHlo.TRef sig ⟨S8386560, .i32⟩) (.of main_call29_v6 : StableHlo.TRef sig ⟨S8386560, .i1⟩) (cmpi .ne),
    StableHlo.TRef.nullary (.of main_call29_c_2 : StableHlo.TRef sig ⟨S_, .i32⟩) (constantI S_ 32 0#32),
    StableHlo.TRef.unary (.of main_call29_c_2 : StableHlo.TRef sig ⟨S_, .i32⟩) (.of main_call29_v7 : StableHlo.TRef sig ⟨S8386560, .i32⟩) (broadcastInDim S8386560 ![] bcast_S_S8386560),
    StableHlo.TRef.binary (.of main_call29_v4 : StableHlo.TRef sig ⟨S8386560, .i32⟩) (.of main_call29_v7 : StableHlo.TRef sig ⟨S8386560, .i32⟩) (.of main_call29_v8 : StableHlo.TRef sig ⟨S8386560, .i1⟩) (cmpi .slt),
    StableHlo.TRef.nullary (.of main_call29_c_3 : StableHlo.TRef sig ⟨S_, .i32⟩) (constantI S_ 32 0#32),
    StableHlo.TRef.binary main_call29_call0.v0 (.of main_call29_c_3 : StableHlo.TRef sig ⟨S_, .i32⟩) (.of main_call29_v9 : StableHlo.TRef sig ⟨S_, .i1⟩) (cmpi .slt),
    StableHlo.TRef.unary (.of main_call29_v9 : StableHlo.TRef sig ⟨S_, .i1⟩) (.of main_call29_v10 : StableHlo.TRef sig ⟨S8386560, .i1⟩) (broadcastInDim S8386560 ![] bcast_S_S8386560),
    StableHlo.TRef.binary (.of main_call29_v8 : StableHlo.TRef sig ⟨S8386560, .i1⟩) (.of main_call29_v10 : StableHlo.TRef sig ⟨S8386560, .i1⟩) (.of main_call29_v11 : StableHlo.TRef sig ⟨S8386560, .i1⟩) (cmpi .ne),
    StableHlo.TRef.binary (.of main_call29_v11 : StableHlo.TRef sig ⟨S8386560, .i1⟩) (.of main_call29_v6 : StableHlo.TRef sig ⟨S8386560, .i1⟩) (.of main_call29_v12 : StableHlo.TRef sig ⟨S8386560, .i1⟩) andi,
    StableHlo.TRef.unary main_call29_call0.v0 (.of main_call29_v13 : StableHlo.TRef sig ⟨S8386560, .i32⟩) (broadcastInDim S8386560 ![] bcast_S_S8386560),
    StableHlo.TRef.binary (.of main_call29_v4 : StableHlo.TRef sig ⟨S8386560, .i32⟩) (.of main_call29_v13 : StableHlo.TRef sig ⟨S8386560, .i32⟩) (.of main_call29_v14 : StableHlo.TRef sig ⟨S8386560, .i32⟩) addi,
    StableHlo.TRef.ternary (.of main_call29_v12 : StableHlo.TRef sig ⟨S8386560, .i1⟩) (.of main_call29_v14 : StableHlo.TRef sig ⟨S8386560, .i32⟩) (.of main_call29_v4 : StableHlo.TRef sig ⟨S8386560, .i32⟩) (.of main_v184 : StableHlo.TRef sig ⟨S8386560, .i32⟩) select ]
theorem opsP3_15_sub : (opsP3_15 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..⟩
theorem opsP3_15_keeps : (opsP3_15 : List (HloOp τ sig (Elt F))).Forall KeepsArgs :=
  ⟨⟨main_call29_v0, rfl, by decide⟩, ⟨main_call29_c, rfl, by decide⟩, ⟨main_call29_v1, rfl, by decide⟩, ⟨main_call29_c_0, rfl, by decide⟩,
    ⟨main_call29_v2, rfl, by decide⟩, ⟨main_call29_v3, rfl, by decide⟩, ⟨main_call29_v4, rfl, by decide⟩, ⟨main_call29_c_1, rfl, by decide⟩,
    ⟨main_call29_v5, rfl, by decide⟩, ⟨main_call29_v6, rfl, by decide⟩, ⟨main_call29_c_2, rfl, by decide⟩, ⟨main_call29_v7, rfl, by decide⟩,
    ⟨main_call29_v8, rfl, by decide⟩, ⟨main_call29_c_3, rfl, by decide⟩, ⟨main_call29_v9, rfl, by decide⟩, ⟨main_call29_v10, rfl, by decide⟩,
    ⟨main_call29_v11, rfl, by decide⟩, ⟨main_call29_v12, rfl, by decide⟩, ⟨main_call29_v13, rfl, by decide⟩, ⟨main_call29_v14, rfl, by decide⟩,
    ⟨main_v184, rfl, by decide⟩⟩
theorem opsP3_15_fresh : (opsP3_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 4 operations of @main's own, in order. -/
abbrev opsP3_16 : List (HloOp τ sig (Elt F)) :=
  [ StableHlo.nullary main_c_49 (constantI S_ 32 0#32),
    StableHlo.unary main_c_49 main_v185 (broadcastInDim S8386560 ![] bcast_S_S8386560 : (⟨S_, .i32⟩ : BufTy).Contents (Elt F) → (⟨S8386560, .i32⟩ : BufTy).Contents (Elt F)),
    StableHlo.binary main_v182 main_v185 main_v186 (cmpi .slt : (⟨S8386560, .i32⟩ : BufTy).Contents (Elt F) → (⟨S8386560, .i32⟩ : BufTy).Contents (Elt F) → (⟨S8386560, .i1⟩ : BufTy).Contents (Elt F)),
    StableHlo.nullary main_c_50 (constantI S_ 32 4096#32) ]
theorem opsP3_16_sub : (opsP3_16 : List (HloOp τ sig (Elt F))).Forall fun op => op.bufs ⊆ tcRefs τ sig :=
  ⟨nullary_bufs_sub .., unary_bufs_sub .., binary_bufs_sub .., nullary_bufs_sub ..⟩
theorem opsP3_16_keeps : (opsP3_16 : List (HloOp τ sig (Elt F))).Forall KeepsArgs :=
  ⟨⟨main_c_49, rfl, by decide⟩, ⟨main_v185, rfl, by decide⟩, ⟨main_v186, rfl, by decide⟩, ⟨main_c_50, rfl, by decide⟩⟩
theorem opsP3_16_fresh : (opsP3_16 : List (HloOp τ sig (Elt F))).Forall fun op => op.fresh = ∅ :=
  ⟨rfl, rfl, rfl, rfl⟩

/-- Window 3 of @main as one line: its 146 operations, the called functions' bodies written out at the calls. -/
abbrev opsP3 : List (HloOp τ sig (Elt F)) :=
  opsP3_0 ++ (opsP3_1 ++ (opsP3_2 ++ (opsP3_3 ++ (opsP3_4 ++ (opsP3_5 ++ (opsP3_6 ++ (opsP3_7 ++ (opsP3_8 ++ (opsP3_9 ++ (opsP3_10 ++ (opsP3_11 ++ (opsP3_12 ++ (opsP3_13 ++ (opsP3_14 ++ (opsP3_15 ++ (opsP3_16))))))))))))))))

/-- Window 3 of @main is that line: unfolding the functions at their calls and the records at their fields, both
    sides are the same chain of host steps. -/
theorem part3_eq (c : Dev nD) : main_part3 (F := F) c = seq opsP3 := by
  chain_rfl

theorem opsP3_sub : (opsP3 : List (HloOp τ sig (Elt F))).Forall fun op => op.bufs ⊆ tcRefs τ sig :=
  forall_append opsP3_0_sub (forall_append opsP3_1_sub (forall_append opsP3_2_sub (forall_append opsP3_3_sub (forall_append opsP3_4_sub (forall_append opsP3_5_sub (forall_append opsP3_6_sub (forall_append opsP3_7_sub (forall_append opsP3_8_sub (forall_append opsP3_9_sub (forall_append opsP3_10_sub (forall_append opsP3_11_sub (forall_append opsP3_12_sub (forall_append opsP3_13_sub (forall_append opsP3_14_sub (forall_append opsP3_15_sub (opsP3_16_sub))))))))))))))))
theorem opsP3_keeps : (opsP3 : List (HloOp τ sig (Elt F))).Forall KeepsArgs :=
  forall_append opsP3_0_keeps (forall_append opsP3_1_keeps (forall_append opsP3_2_keeps (forall_append opsP3_3_keeps (forall_append opsP3_4_keeps (forall_append opsP3_5_keeps (forall_append opsP3_6_keeps (forall_append opsP3_7_keeps (forall_append opsP3_8_keeps (forall_append opsP3_9_keeps (forall_append opsP3_10_keeps (forall_append opsP3_11_keeps (forall_append opsP3_12_keeps (forall_append opsP3_13_keeps (forall_append opsP3_14_keeps (forall_append opsP3_15_keeps (opsP3_16_keeps))))))))))))))))
theorem opsP3_fresh : (opsP3 : List (HloOp τ sig (Elt F))).Forall fun op => op.fresh = ∅ :=
  forall_append opsP3_0_fresh (forall_append opsP3_1_fresh (forall_append opsP3_2_fresh (forall_append opsP3_3_fresh (forall_append opsP3_4_fresh (forall_append opsP3_5_fresh (forall_append opsP3_6_fresh (forall_append opsP3_7_fresh (forall_append opsP3_8_fresh (forall_append opsP3_9_fresh (forall_append opsP3_10_fresh (forall_append opsP3_11_fresh (forall_append opsP3_12_fresh (forall_append opsP3_13_fresh (forall_append opsP3_14_fresh (forall_append opsP3_15_fresh (opsP3_16_fresh))))))))))))))))

end Cert.ReferenceIdeal.Hand

end
-- ==== Proof.Ref.Reads3.lean ====
import proofs.«135652_j20272245637753_1_alg».proof.Proof.Ref.Run3
import proofs.«135652_j20272245637753_1_alg».proof.Proof.Ref.Ssa

/-! # The reference's run, window 3: what each operation reads and writes

Beside each stretch of window 3's line, the list of its operations' (operands, result) buffers, and that each
operation writes its result buffer alone with contents determined by its operands'. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- The (operands, result) pairs of `opsP3_0`. -/
abbrev dataP3_0 : Data :=
  [([main_c_34], main_v143), ([main_v135, main_v143], main_v144), ([main_v142, main_v144, main_v135], main_v145), ([main_v140], main_v146),
   ([main_v145], main_v147), ([main_v146, main_v147], main_v148), ([main_v115, main_v148], main_v149), ([], main_cst_35),
   ([main_cst_35], main_v150), ([main_v149, main_v150], main_v151), ([main_v151], main_v152), ([main_v53, main_v53], main_v153),
   ([], main_cst_36), ([main_v153, main_cst_36], main_v154), ([main_v154], main_v155), ([main_v154], main_v156), ([main_v155], main_v157),
   ([main_v156], main_v158), ([main_v157, main_v158], main_v159), ([main_v53], main_v160), ([main_v53, main_v160], main_v161),
   ([], main_cst_37), ([main_cst_37], main_v162), ([main_v162, main_v161], main_v163), ([main_v159, main_v163], main_v164), ([], main_cst_38),
   ([main_cst_38], main_v165)]
theorem opsP3_0_reads : ReadsAll (opsP3_0 : List (HloOp τ sig (Elt F))) dataP3_0 :=
  .cons (unary_reads ..) (.cons (binary_reads ..) (.cons (ternary_reads ..) (.cons (unary_reads ..) (.cons (unary_reads ..) (.cons (binary_reads ..) (.cons (binary_reads ..) (.cons (nullary_reads ..) (.cons (unary_reads ..) (.cons (binary_reads ..) (.cons (unary_reads ..) (.cons (binary_reads ..) (.cons (nullary_reads ..) (.cons (binary_reads ..) (.cons (unary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.nil)))))))))))))))))))))))))))

/-- The (operands, result) pairs of `opsP3_1`. -/
abbrev dataP3_1 : Data :=
  [([], main_call22_v0), ([], main_call22_c), ([main_call22_c], main_call22_v1), ([main_call22_v0, main_call22_v1], main_call22_v2),
   ([], main_call22_v3), ([main_call22_v2, main_call22_v3], main_call22_v4), ([], main_call22_cst), ([main_call22_cst], main_call22_v5),
   ([main_call22_v4, main_call22_v5, main_v165], main_v166)]
theorem opsP3_1_reads : ReadsAll (opsP3_1 : List (HloOp τ sig (Elt F))) dataP3_1 :=
  .cons (nullary_reads ..) (.cons (nullary_reads ..) (.cons (unary_reads ..) (.cons (binary_reads ..) (.cons (nullary_reads ..) (.cons (binary_reads ..) (.cons (nullary_reads ..) (.cons (unary_reads ..) (.cons (ternary_reads ..) (.nil)))))))))

/-- The (operands, result) pairs of `opsP3_2`. -/
abbrev dataP3_2 : Data :=
  [([], main_cst_39), ([main_cst_39], main_v167), ([main_v166, main_v167], main_v168)]
theorem opsP3_2_reads : ReadsAll (opsP3_2 : List (HloOp τ sig (Elt F))) dataP3_2 :=
  .cons (nullary_reads ..) (.cons (unary_reads ..) (.cons (binary_reads ..) (.nil)))

/-- The (operands, result) pairs of `opsP3_3`. -/
abbrev dataP3_3 : Data :=
  [([main_v168], main_call23_v0), ([main_call23_v0], main_call23_v1), ([], main_call23_call0_c), ([main_call23_call0_c], main_call23_call0_v0),
   ([main_call23_v1, main_call23_call0_v0], main_v169)]
theorem opsP3_3_reads : ReadsAll (opsP3_3 : List (HloOp τ sig (Elt F))) dataP3_3 :=
  .cons (reshape_reads ..) (.cons (unary_reads ..) (.cons (nullary_reads ..) (.cons (unary_reads ..) (.cons (binary_reads ..) (.nil)))))

/-- The (operands, result) pairs of `opsP3_4`. -/
abbrev dataP3_4 : Data :=
  [([], main_c_40), ([main_c_40], main_v170), ([], main_c_41)]
theorem opsP3_4_reads : ReadsAll (opsP3_4 : List (HloOp τ sig (Elt F))) dataP3_4 :=
  .cons (nullary_reads ..) (.cons (unary_reads ..) (.cons (nullary_reads ..) (.nil)))

/-- The (operands, result) pairs of `opsP3_5`. -/
abbrev dataP3_5 : Data :=
  [([main_c_41], main_call24_v0), ([main_call24_v0], main_call24_v1), ([main_call24_v1, main_v169], main_v171)]
theorem opsP3_5_reads : ReadsAll (opsP3_5 : List (HloOp τ sig (Elt F))) dataP3_5 :=
  .cons (unary_reads ..) (.cons (unary_reads ..) (.cons (binary_reads ..) (.nil)))

/-- The (operands, result) pairs of `opsP3_6`. -/
abbrev dataP3_6 : Data :=
  [([], main_c_42), ([main_c_42], main_v172), ([main_v171, main_v172], main_v173), ([], main_c_43), ([main_c_43], main_v174),
   ([main_v171, main_v174], main_v175), ([main_v173, main_v175, main_v171], main_v176), ([main_v176], main_v177), ([], main_c_44),
   ([main_c_44], main_v178), ([main_v170, main_v177, main_v178], main_v179)]
theorem opsP3_6_reads : ReadsAll (opsP3_6 : List (HloOp τ sig (Elt F))) dataP3_6 :=
  .cons (nullary_reads ..) (.cons (unary_reads ..) (.cons (binary_reads ..) (.cons (nullary_reads ..) (.cons (unary_reads ..) (.cons (binary_reads ..) (.cons (ternary_reads ..) (.cons (unary_reads ..) (.cons (nullary_reads ..) (.cons (unary_reads ..) (.cons (ternary_reads ..) (.nil)))))))))))

/-- The (operands, result) pairs of `opsP3_7`. -/
abbrev dataP3_7 : Data :=
  [([], main_call25_call0_c), ([main_call25_call0_c], main_call25_call0_v0), ([main_v179, main_call25_call0_v0], main_v180)]
theorem opsP3_7_reads : ReadsAll (opsP3_7 : List (HloOp τ sig (Elt F))) dataP3_7 :=
  .cons (nullary_reads ..) (.cons (unary_reads ..) (.cons (binary_reads ..) (.nil)))

/-- The (operands, result) pairs of `opsP3_8`. -/
abbrev dataP3_8 : Data :=
  [([], main_c_45)]
theorem opsP3_8_reads : ReadsAll (opsP3_8 : List (HloOp τ sig (Elt F))) dataP3_8 :=
  .cons (nullary_reads ..) (.nil)

/-- The (operands, result) pairs of `opsP3_9`. -/
abbrev dataP3_9 : Data :=
  [([main_c_45], main_call26_v0), ([main_v180, main_call26_v0], main_call26_v1), ([main_v180], main_call26_v2), ([main_c_45], main_call26_v3),
   ([main_call26_v3], main_call26_v4), ([main_call26_v2, main_call26_v4], main_call26_v5), ([main_c_45], main_call26_v6),
   ([main_v180, main_call26_v6], main_call26_v7), ([], main_call26_c), ([main_call26_c], main_call26_v8),
   ([main_call26_v7, main_call26_v8], main_call26_v9), ([main_call26_v5, main_call26_v9], main_call26_v10), ([], main_call26_c_0),
   ([main_call26_c_0], main_call26_v11), ([main_call26_v1, main_call26_v11], main_call26_v12),
   ([main_call26_v10, main_call26_v12, main_call26_v1], main_v181)]
theorem opsP3_9_reads : ReadsAll (opsP3_9 : List (HloOp τ sig (Elt F))) dataP3_9 :=
  .cons (unary_reads ..) (.cons (binary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.cons (binary_reads ..) (.cons (ternary_reads ..) (.nil))))))))))))))))

/-- The (operands, result) pairs of `opsP3_10`. -/
abbrev dataP3_10 : Data :=
  [([], main_c_46)]
theorem opsP3_10_reads : ReadsAll (opsP3_10 : List (HloOp τ sig (Elt F))) dataP3_10 :=
  .cons (nullary_reads ..) (.nil)

/-- The (operands, result) pairs of `opsP3_11`. -/
abbrev dataP3_11 : Data :=
  [([main_c_46], main_call27_v0), ([], main_call27_c), ([main_call27_v0, main_call27_c], main_call27_v1), ([], main_call27_c_0),
   ([main_call27_v1, main_call27_c_0, main_call27_v0], main_call27_v2), ([main_call27_v2], main_call27_v3),
   ([main_v181, main_call27_v3], main_call27_v4), ([], main_call27_c_1), ([main_call27_c_1], main_call27_v5),
   ([main_call27_v4, main_call27_v5], main_call27_v6), ([], main_call27_c_2), ([main_call27_c_2], main_call27_v7),
   ([main_call27_v4, main_call27_v7], main_call27_v8), ([], main_call27_c_3), ([main_call27_v2, main_call27_c_3], main_call27_v9),
   ([main_call27_v9], main_call27_v10), ([main_call27_v8, main_call27_v10], main_call27_v11),
   ([main_call27_v11, main_call27_v6], main_call27_v12), ([main_call27_v2], main_call27_v13),
   ([main_call27_v4, main_call27_v13], main_call27_v14), ([main_call27_v12, main_call27_v14, main_call27_v4], main_v182)]
theorem opsP3_11_reads : ReadsAll (opsP3_11 : List (HloOp τ sig (Elt F))) dataP3_11 :=
  .cons (unary_reads ..) (.cons (nullary_reads ..) (.cons (binary_reads ..) (.cons (nullary_reads ..) (.cons (ternary_reads ..) (.cons (unary_reads ..) (.cons (binary_reads ..) (.cons (nullary_reads ..) (.cons (unary_reads ..) (.cons (binary_reads ..) (.cons (nullary_reads ..) (.cons (unary_reads ..) (.cons (binary_reads ..) (.cons (nullary_reads ..) (.cons (binary_reads ..) (.cons (unary_reads ..) (.cons (binary_reads ..) (.cons (binary_reads ..) (.cons (unary_reads ..) (.cons (binary_reads ..) (.cons (ternary_reads ..) (.nil)))))))))))))))))))))

/-- The (operands, result) pairs of `opsP3_12`. -/
abbrev dataP3_12 : Data :=
  [([], main_c_47)]
theorem opsP3_12_reads : ReadsAll (opsP3_12 : List (HloOp τ sig (Elt F))) dataP3_12 :=
  .cons (nullary_reads ..) (.nil)

/-- The (operands, result) pairs of `opsP3_13`. -/
abbrev dataP3_13 : Data :=
  [([main_c_47], main_call28_v0), ([main_v180, main_call28_v0], main_call28_v1), ([main_v180], main_call28_v2), ([main_c_47], main_call28_v3),
   ([main_call28_v3], main_call28_v4), ([main_call28_v2, main_call28_v4], main_call28_v5), ([main_c_47], main_call28_v6),
   ([main_v180, main_call28_v6], main_call28_v7), ([], main_call28_c), ([main_call28_c], main_call28_v8),
   ([main_call28_v7, main_call28_v8], main_call28_v9), ([main_call28_v5, main_call28_v9], main_call28_v10), ([], main_call28_c_0),
   ([main_call28_c_0], main_call28_v11), ([main_call28_v1, main_call28_v11], main_call28_v12),
   ([main_call28_v10, main_call28_v12, main_call28_v1], main_v183)]
theorem opsP3_13_reads : ReadsAll (opsP3_13 : List (HloOp τ sig (Elt F))) dataP3_13 :=
  .cons (unary_reads ..) (.cons (binary_reads ..) (.cons (unary_reads ..) (.cons (unary_reads ..) (.cons (unary_reads ..) (.cons (binary_reads ..) (.cons (unary_reads ..) (.cons (binary_reads ..) (.cons (nullary_reads ..) (.cons (unary_reads ..) (.cons (binary_reads ..) (.cons (binary_reads ..) (.cons (nullary_reads ..) (.cons (unary_reads ..) (.cons (binary_reads ..) (.cons (ternary_reads ..) (.nil))))))))))))))))

/-- The (operands, result) pairs of `opsP3_14`. -/
abbrev dataP3_14 : Data :=
  [([], main_c_48)]
theorem opsP3_14_reads : ReadsAll (opsP3_14 : List (HloOp τ sig (Elt F))) dataP3_14 :=
  .cons (nullary_reads ..) (.nil)

/-- The (operands, result) pairs of `opsP3_15`. -/
abbrev dataP3_15 : Data :=
  [([main_c_48], main_call29_v0), ([], main_call29_c), ([main_call29_v0, main_call29_c], main_call29_v1), ([], main_call29_c_0),
   ([main_call29_v1, main_call29_c_0, main_call29_v0], main_call29_v2), ([main_call29_v2], main_call29_v3),
   ([main_v183, main_call29_v3], main_call29_v4), ([], main_call29_c_1), ([main_call29_c_1], main_call29_v5),
   ([main_call29_v4, main_call29_v5], main_call29_v6), ([], main_call29_c_2), ([main_call29_c_2], main_call29_v7),
   ([main_call29_v4, main_call29_v7], main_call29_v8), ([], main_call29_c_3), ([main_call29_v2, main_call29_c_3], main_call29_v9),
   ([main_call29_v9], main_call29_v10), ([main_call29_v8, main_call29_v10], main_call29_v11),
   ([main_call29_v11, main_call29_v6], main_call29_v12), ([main_call29_v2], main_call29_v13),
   ([main_call29_v4, main_call29_v13], main_call29_v14), ([main_call29_v12, main_call29_v14, main_call29_v4], main_v184)]
theorem opsP3_15_reads : ReadsAll (opsP3_15 : List (HloOp τ sig (Elt F))) dataP3_15 :=
  .cons (unary_reads ..) (.cons (nullary_reads ..) (.cons (binary_reads ..) (.cons (nullary_reads ..) (.cons (ternary_reads ..) (.cons (unary_reads ..) (.cons (binary_reads ..) (.cons (nullary_reads ..) (.cons (unary_reads ..) (.cons (binary_reads ..) (.cons (nullary_reads ..) (.cons (unary_reads ..) (.cons (binary_reads ..) (.cons (nullary_reads ..) (.cons (binary_reads ..) (.cons (unary_reads ..) (.cons (binary_reads ..) (.cons (binary_reads ..) (.cons (unary_reads ..) (.cons (binary_reads ..) (.cons (ternary_reads ..) (.nil)))))))))))))))))))))

/-- The (operands, result) pairs of `opsP3_16`. -/
abbrev dataP3_16 : Data :=
  [([], main_c_49), ([main_c_49], main_v185), ([main_v182, main_v185], main_v186), ([], main_c_50)]
theorem opsP3_16_reads : ReadsAll (opsP3_16 : List (HloOp τ sig (Elt F))) dataP3_16 :=
  .cons (nullary_reads ..) (.cons (unary_reads ..) (.cons (binary_reads ..) (.cons (nullary_reads ..) (.nil))))

/-- The pairs of window 3's line. -/
abbrev dataP3 : Data :=
  dataP3_0 ++ (dataP3_1 ++ (dataP3_2 ++ (dataP3_3 ++ (dataP3_4 ++ (dataP3_5 ++ (dataP3_6 ++ (dataP3_7 ++ (dataP3_8 ++ (dataP3_9 ++ (dataP3_10 ++ (dataP3_11 ++ (dataP3_12 ++ (dataP3_13 ++ (dataP3_14 ++ (dataP3_15 ++ (dataP3_16))))))))))))))))
theorem opsP3_reads : ReadsAll (opsP3 : List (HloOp τ sig (Elt F))) dataP3 :=
  (opsP3_0_reads).append ((opsP3_1_reads).append ((opsP3_2_reads).append ((opsP3_3_reads).append ((opsP3_4_reads).append ((opsP3_5_reads).append ((opsP3_6_reads).append ((opsP3_7_reads).append ((opsP3_8_reads).append ((opsP3_9_reads).append ((opsP3_10_reads).append ((opsP3_11_reads).append ((opsP3_12_reads).append ((opsP3_13_reads).append ((opsP3_14_reads).append ((opsP3_15_reads).append (opsP3_16_reads))))))))))))))))

end Cert.ReferenceIdeal.Hand

end
-- ==== Proof.Ref.Run4.lean ====
import proofs.«135652_j20272245637753_1_alg».proof.Proof.Ref.Base

/-! # The reference's run, window 4

Window 4 of the reference @main (`main_part4`) as a list of host operations, cut into stretches at the calls:
@main's own operations between two calls are one stretch, a called function's body — with the bodies of the
functions it calls in turn — over that call's buffers is the next. Beside each stretch: every operation touches
TensorCore buffers only, writes no argument of @main, and determines what it writes. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- 18 operations of @main's own, in order. -/
abbrev opsP4_0 : List (HloOp τ sig (Elt F)) :=
  [ StableHlo.unary main_c_50 main_v187 (broadcastInDim S8386560 ![] bcast_S_S8386560 : (⟨S_, .i32⟩ : BufTy).Contents (Elt F) → (⟨S8386560, .i32⟩ : BufTy).Contents (Elt F)),
    StableHlo.binary main_v182 main_v187 main_v188 (addi : (⟨S8386560, .i32⟩ : BufTy).Contents (Elt F) → (⟨S8386560, .i32⟩ : BufTy).Contents (Elt F) → (⟨S8386560, .i32⟩ : BufTy).Contents (Elt F)),
    StableHlo.ternary main_v186 main_v188 main_v182 main_v189 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_51 (constantI S_ 32 0#32),
    StableHlo.unary main_c_51 main_v190 (broadcastInDim S8386560 ![] bcast_S_S8386560 : (⟨S_, .i32⟩ : BufTy).Contents (Elt F) → (⟨S8386560, .i32⟩ : BufTy).Contents (Elt F)),
    StableHlo.binary main_v184 main_v190 main_v191 (cmpi .slt : (⟨S8386560, .i32⟩ : BufTy).Contents (Elt F) → (⟨S8386560, .i32⟩ : BufTy).Contents (Elt F) → (⟨S8386560, .i1⟩ : BufTy).Contents (Elt F)),
    StableHlo.nullary main_c_52 (constantI S_ 32 4096#32),
    StableHlo.unary main_c_52 main_v192 (broadcastInDim S8386560 ![] bcast_S_S8386560 : (⟨S_, .i32⟩ : BufTy).Contents (Elt F) → (⟨S8386560, .i32⟩ : BufTy).Contents (Elt F)),
    StableHlo.binary main_v184 main_v192 main_v193 (addi : (⟨S8386560, .i32⟩ : BufTy).Contents (Elt F) → (⟨S8386560, .i32⟩ : BufTy).Contents (Elt F) → (⟨S8386560, .i32⟩ : BufTy).Contents (Elt F)),
    StableHlo.ternary main_v191 main_v193 main_v184 main_v194 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v189 main_v195 (broadcastInDim S8386560x1 ![0] bcast_S8386560_S8386560x1_0 : (⟨S8386560, .i32⟩ : BufTy).Contents (Elt F) → (⟨S8386560x1, .i32⟩ : BufTy).Contents (Elt F)),
    StableHlo.unary main_v194 main_v196 (broadcastInDim S8386560x1 ![0] bcast_S8386560_S8386560x1_0 : (⟨S8386560, .i32⟩ : BufTy).Contents (Elt F) → (⟨S8386560x1, .i32⟩ : BufTy).Contents (Elt F)),
    StableHlo.binary main_v195 main_v196 main_v197 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v164 main_v197 main_v198 ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)),
    StableHlo.nullary main_cst_53 (constant S_ .f32 0x00000000#32),
    StableHlo.unary main_cst_53 main_v199 (broadcastInDim S8386560 ![] bcast_S_S8386560 : (⟨S_, .f32⟩ : BufTy).Contents (Elt F) → (⟨S8386560, .f32⟩ : BufTy).Contents (Elt F)),
    StableHlo.binary main_v198 main_v199 main_v200 (maximumf : (⟨S8386560, .f32⟩ : BufTy).Contents (Elt F) → (⟨S8386560, .f32⟩ : BufTy).Contents (Elt F) → (⟨S8386560, .f32⟩ : BufTy).Contents (Elt F)),
    StableHlo.unary main_v200 main_v201 (Host.sqrt : (⟨S8386560, .f32⟩ : BufTy).Contents (Elt F) → (⟨S8386560, .f32⟩ : BufTy).Contents (Elt F)) ]
theorem opsP4_0_sub : (opsP4_0 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub .., binary_bufs_sub ..,
    nullary_bufs_sub .., unary_bufs_sub .., binary_bufs_sub .., unary_bufs_sub ..⟩
theorem opsP4_0_keeps : (opsP4_0 : List (HloOp τ sig (Elt F))).Forall KeepsArgs :=
  ⟨⟨main_v187, rfl, by decide⟩, ⟨main_v188, rfl, by decide⟩, ⟨main_v189, rfl, by decide⟩, ⟨main_c_51, rfl, by decide⟩, ⟨main_v190, rfl, by decide⟩,
    ⟨main_v191, rfl, by decide⟩, ⟨main_c_52, rfl, by decide⟩, ⟨main_v192, rfl, by decide⟩, ⟨main_v193, rfl, by decide⟩, ⟨main_v194, rfl, by decide⟩,
    ⟨main_v195, rfl, by decide⟩, ⟨main_v196, rfl, by decide⟩, ⟨main_v197, rfl, by decide⟩, ⟨main_v198, rfl, by decide⟩, ⟨main_cst_53, rfl, by decide⟩,
    ⟨main_v199, rfl, by decide⟩, ⟨main_v200, rfl, by decide⟩, ⟨main_v201, rfl, by decide⟩⟩
theorem opsP4_0_fresh : (opsP4_0 : List (HloOp τ sig (Elt F))).Forall fun op => op.fresh = ∅ :=
  ⟨rfl, rfl, rfl, rfl, rfl, rfl, rfl, rfl, rfl, rfl, rfl, rfl, rfl, rfl, rfl, rfl, rfl, rfl⟩

/-- Window 4 of @main as one line: its 18 operations, the called functions' bodies written out at the calls. -/
abbrev opsP4 : List (HloOp τ sig (Elt F)) :=
  opsP4_0

/-- Window 4 of @main is that line: unfolding the functions at their calls and the records at their fields, both
    sides are the same chain of host steps. -/
theorem part4_eq (c : Dev nD) : main_part4 (F := F) c = seq opsP4 := by
  chain_rfl

theorem opsP4_sub : (opsP4 : List (HloOp τ sig (Elt F))).Forall fun op => op.bufs ⊆ tcRefs τ sig :=
  opsP4_0_sub
theorem opsP4_keeps : (opsP4 : List (HloOp τ sig (Elt F))).Forall KeepsArgs :=
  opsP4_0_keeps
theorem opsP4_fresh : (opsP4 : List (HloOp τ sig (Elt F))).Forall fun op => op.fresh = ∅ :=
  opsP4_0_fresh

end Cert.ReferenceIdeal.Hand

end
-- ==== Proof.Ref.Reads4.lean ====
import proofs.«135652_j20272245637753_1_alg».proof.Proof.Ref.Run4
import proofs.«135652_j20272245637753_1_alg».proof.Proof.Ref.Ssa

/-! # The reference's run, window 4: what each operation reads and writes

Beside each stretch of window 4's line, the list of its operations' (operands, result) buffers, and that each
operation writes its result buffer alone with contents determined by its operands'. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- The (operands, result) pairs of `opsP4_0`. -/
abbrev dataP4_0 : Data :=
  [([main_c_50], main_v187), ([main_v182, main_v187], main_v188), ([main_v186, main_v188, main_v182], main_v189), ([], main_c_51),
   ([main_c_51], main_v190), ([main_v184, main_v190], main_v191), ([], main_c_52), ([main_c_52], main_v192),
   ([main_v184, main_v192], main_v193), ([main_v191, main_v193, main_v184], main_v194), ([main_v189], main_v195), ([main_v194], main_v196),
   ([main_v195, main_v196], main_v197), ([main_v164, main_v197], main_v198), ([], main_cst_53), ([main_cst_53], main_v199),
   ([main_v198, main_v199], main_v200), ([main_v200], main_v201)]
theorem opsP4_0_reads : ReadsAll (opsP4_0 : List (HloOp τ sig (Elt F))) dataP4_0 :=
  .cons (unary_reads ..) (.cons (binary_reads ..) (.cons (ternary_reads ..) (.cons (nullary_reads ..) (.cons (unary_reads ..) (.cons (binary_reads ..) (.cons (nullary_reads ..) (.cons (unary_reads ..) (.cons (binary_reads ..) (.cons (ternary_reads ..) (.cons (unary_reads ..) (.cons (unary_reads ..) (.cons (binary_reads ..) (.cons (binary_reads ..) (.cons (nullary_reads ..) (.cons (unary_reads ..) (.cons (binary_reads ..) (.cons (unary_reads ..) (.nil))))))))))))))))))

/-- The pairs of window 4's line. -/
abbrev dataP4 : Data :=
  dataP4_0
theorem opsP4_reads : ReadsAll (opsP4 : List (HloOp τ sig (Elt F))) dataP4 :=
  opsP4_0_reads

end Cert.ReferenceIdeal.Hand

end
-- ==== Proof.Ref.Run.lean ====
import proofs.«135652_j20272245637753_1_alg».proof.Proof.Ref.Run0
import proofs.«135652_j20272245637753_1_alg».proof.Proof.Ref.Run1
import proofs.«135652_j20272245637753_1_alg».proof.Proof.Ref.Run2
import proofs.«135652_j20272245637753_1_alg».proof.Proof.Ref.Run3
import proofs.«135652_j20272245637753_1_alg».proof.Proof.Ref.Run4

/-! # The reference's run

The reference @main as ONE list of host operations — its five windows' lists in a row — and its run read back: every
weakly fair execution terminates with each buffer at the fold of the operations' results over the launch contents
(`StableHlo.run_seq`); the five result buffers are stated at that fold, and each of the seventeen arguments keeps its
launch contents, no operation of the line writing an argument's buffer. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 552 operations, in order: the five windows' lines. -/
abbrev ops : List (HloOp τ sig (Elt F)) :=
  opsP0 ++ (opsP1 ++ (opsP2 ++ (opsP3 ++ opsP4)))

/-- @main is that line: its windows in order, each the line of its own operations, and lines in a row are their
    concatenation. -/
theorem main_eq (c : Dev nD) : main (F := F) c = seq ops := by
  unfold main
  rw [part0_eq, part1_eq, part2_eq, part3_eq, part4_eq]
  simp only [ops, seq_append]

theorem ops_sub : (ops : List (HloOp τ sig (Elt F))).Forall fun op => op.bufs ⊆ tcRefs τ sig :=
  forall_append opsP0_sub (forall_append opsP1_sub (forall_append opsP2_sub (forall_append opsP3_sub opsP4_sub)))
theorem ops_keeps : (ops : List (HloOp τ sig (Elt F))).Forall KeepsArgs :=
  forall_append opsP0_keeps (forall_append opsP1_keeps (forall_append opsP2_keeps (forall_append opsP3_keeps opsP4_keeps)))
theorem ops_fresh : (ops : List (HloOp τ sig (Elt F))).Forall fun op => op.fresh = ∅ :=
  forall_append opsP0_fresh (forall_append opsP1_fresh (forall_append opsP2_fresh (forall_append opsP3_fresh opsP4_fresh)))

/-- On every device, for any float values, from any memory with zero counters: every weakly fair execution of
    @main terminates with each of the five results at the fold of the operations over the launch contents and
    each argument unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v54) = after ops (launchContents m c) (Proc.devRef .tc main_v54)
      ∧ r.2.mem ((c.tc : Thread nD τ).loc main_v103) = after ops (launchContents m c) (Proc.devRef .tc main_v103)
      ∧ r.2.mem ((c.tc : Thread nD τ).loc main_v152) = after ops (launchContents m c) (Proc.devRef .tc main_v152)
      ∧ r.2.mem ((c.tc : Thread nD τ).loc main_v201) = after ops (launchContents m c) (Proc.devRef .tc main_v201)
      ∧ r.2.mem ((c.tc : Thread nD τ).loc main_v24) = after ops (launchContents m c) (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨h c main_v54, h c main_v103, h c main_v152, h c main_v201, h c main_v24, (h c main_arg0).trans (after_keepsArgs ops_keeps (by decide) _),
      (h c main_arg1).trans (after_keepsArgs ops_keeps (by decide) _), (h c main_arg2).trans (after_keepsArgs ops_keeps (by decide) _),
      (h c main_arg3).trans (after_keepsArgs ops_keeps (by decide) _), (h c main_arg4).trans (after_keepsArgs ops_keeps (by decide) _),
      (h c main_arg5).trans (after_keepsArgs ops_keeps (by decide) _), (h c main_arg6).trans (after_keepsArgs ops_keeps (by decide) _),
      (h c main_arg7).trans (after_keepsArgs ops_keeps (by decide) _), (h c main_arg8).trans (after_keepsArgs ops_keeps (by decide) _),
      (h c main_arg9).trans (after_keepsArgs ops_keeps (by decide) _), (h c main_arg10).trans (after_keepsArgs ops_keeps (by decide) _),
      (h c main_arg11).trans (after_keepsArgs ops_keeps (by decide) _), (h c main_arg12).trans (after_keepsArgs ops_keeps (by decide) _),
      (h c main_arg13).trans (after_keepsArgs ops_keeps (by decide) _), (h c main_arg14).trans (after_keepsArgs ops_keeps (by decide) _),
      (h c main_arg15).trans (after_keepsArgs ops_keeps (by decide) _), (h c main_arg16).trans (after_keepsArgs ops_keeps (by decide) _)⟩)
    (run_seq scopedRefs_eq scopedSems_eq defs main (fun _ => ops) main_eq (fun _ => ops_sub) m ρ
      (fun _ => List.forall_iff_forall_mem.1 ops_fresh))

end Cert.ReferenceIdeal.Hand

end
-- ==== Proof.Ref.Fix.lean ====
import proofs.«135652_j20272245637753_1_alg».proof.Proof.Ref.Reads0
import proofs.«135652_j20272245637753_1_alg».proof.Proof.Ref.Reads1
import proofs.«135652_j20272245637753_1_alg».proof.Proof.Ref.Reads2
import proofs.«135652_j20272245637753_1_alg».proof.Proof.Ref.Reads3
import proofs.«135652_j20272245637753_1_alg».proof.Proof.Ref.Reads4
import proofs.«135652_j20272245637753_1_alg».proof.Proof.Ref.Run

/-! # The reference's final contents satisfy every operation's equation

The (operands, result) pairs of the whole line; no buffer is written twice, none after it was read (decided on the
buffers' indices); hence after the line, from any contents, each operation's result buffer holds its function of what
its operand buffers hold. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The pairs of the whole line. -/
abbrev data : Data :=
  dataP0 ++ (dataP1 ++ (dataP2 ++ (dataP3 ++ dataP4)))

theorem ops_reads : ReadsAll (ops : List (HloOp τ sig (Elt F))) data :=
  opsP0_reads.append (opsP1_reads.append (opsP2_reads.append (opsP3_reads.append opsP4_reads)))

set_option maxRecDepth 100000 in
/-- Every buffer of the line is written once, and not after it is read. -/
theorem data_wf : WF data :=
  wf_of_wfn _ (by decide +kernel)

/-- After the line, from any contents `W`, every operation's equation holds of the final contents. -/
theorem fix_ops (W : Valuation τ sig (Elt F)) : ∀ op ∈ (ops : List (HloOp τ sig (Elt F))), Fix (after ops W) op :=
  fix_of_wf ops_reads data_wf W

theorem mem_ops_of_P0 {op : HloOp τ sig (Elt F)} (h : op ∈ (opsP0 : List (HloOp τ sig (Elt F)))) : op ∈ (ops : List (HloOp τ sig (Elt F))) :=
  List.mem_append_left _ h
theorem mem_ops_of_P1 {op : HloOp τ sig (Elt F)} (h : op ∈ (opsP1 : List (HloOp τ sig (Elt F)))) : op ∈ (ops : List (HloOp τ sig (Elt F))) :=
  List.mem_append_right _ (List.mem_append_left _ h)
theorem mem_ops_of_P2 {op : HloOp τ sig (Elt F)} (h : op ∈ (opsP2 : List (HloOp τ sig (Elt F)))) : op ∈ (ops : List (HloOp τ sig (Elt F))) :=
  List.mem_append_right _ (List.mem_append_right _ (List.mem_append_left _ h))
theorem mem_ops_of_P3 {op : HloOp τ sig (Elt F)} (h : op ∈ (opsP3 : List (HloOp τ sig (Elt F)))) : op ∈ (ops : List (HloOp τ sig (Elt F))) :=
  List.mem_append_right _ (List.mem_append_right _ (List.mem_append_right _ (List.mem_append_left _ h)))
theorem mem_ops_of_P4 {op : HloOp τ sig (Elt F)} (h : op ∈ (opsP4 : List (HloOp τ sig (Elt F)))) : op ∈ (ops : List (HloOp τ sig (Elt F))) :=
  List.mem_append_right _ (List.mem_append_right _ (List.mem_append_right _ (List.mem_append_right _ (h))))

end Cert.ReferenceIdeal.Hand

end
-- ==== Proof.Ref.Eqs0.lean ====
import proofs.«135652_j20272245637753_1_alg».proof.Proof.Ref.Fix

/-! # The reference's final contents, window 0: one equation per operation

For contents `Vf` that every operation of the line leaves fixed (the final contents of the line are such), the
equation of each operation of window 0: its result buffer holds its function of its operand buffers' contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

section
variable (Vf : Valuation τ sig (Elt F)) (hfix : ∀ op ∈ (ops : List (HloOp τ sig (Elt F))), Fix Vf op)
include hfix

theorem fixP0_0 : (opsP0_0 : List (HloOp τ sig (Elt F))).Forall (Fix Vf) :=
  List.forall_iff_forall_mem.2 fun op h => hfix op (mem_ops_of_P0 (List.mem_append_left _ h))
theorem e_main_v0 : Vf (Proc.devRef .tc main_v0) = shapeCast S4096x784 (Vf (Proc.devRef .tc main_arg0)) shapeCasts_S4096x1x28x28_S4096x784 :=
  (reshape_fix (fixP0_0 Vf hfix).1).trans rfl
theorem e_main_v1 : Vf (Proc.devRef .tc main_v1) = ((transpose S784x400 [1, 0] · transposes_S400x784_S784x400_1_0) : (⟨S400x784, .f32⟩ : BufTy).Contents (Elt F) → (⟨S784x400, .f32⟩ : BufTy).Contents (Elt F)) (Vf (Proc.devRef .tc main_arg1)) :=
  unary_fix (fixP0_0 Vf hfix).2.1
theorem e_main_v2 : Vf (Proc.devRef .tc main_v2) = ((fun l r => Host.dotGeneral dot_S4096x784_S784x400_S4096x400_1_0_0_1_n_n none l r) : (⟨S4096x784, .f32⟩ : BufTy).Contents (Elt F) → (⟨S784x400, .f32⟩ : BufTy).Contents (Elt F) → (⟨S4096x400, .f32⟩ : BufTy).Contents (Elt F)) (Vf (Proc.devRef .tc main_v0)) (Vf (Proc.devRef .tc main_v1)) :=
  binary_fix (fixP0_0 Vf hfix).2.2.1
theorem e_main_v3 : Vf (Proc.devRef .tc main_v3) = (broadcastInDim S1x400 ![1] bcast_S400_S1x400_1 : (⟨S400, .f32⟩ : BufTy).Contents (Elt F) → (⟨S1x400, .f32⟩ : BufTy).Contents (Elt F)) (Vf (Proc.devRef .tc main_arg2)) :=
  unary_fix (fixP0_0 Vf hfix).2.2.2.1
theorem e_main_v4 : Vf (Proc.devRef .tc main_v4) = (broadcastInDim S4096x400 ![0, 1] bcast_S1x400_S4096x400_0_1 : (⟨S1x400, .f32⟩ : BufTy).Contents (Elt F) → (⟨S4096x400, .f32⟩ : BufTy).Contents (Elt F)) (Vf (Proc.devRef .tc main_v3)) :=
  unary_fix (fixP0_0 Vf hfix).2.2.2.2.1
theorem e_main_v5 : Vf (Proc.devRef .tc main_v5) = (addf : (⟨S4096x400, .f32⟩ : BufTy).Contents (Elt F) → (⟨S4096x400, .f32⟩ : BufTy).Contents (Elt F) → (⟨S4096x400, .f32⟩ : BufTy).Contents (Elt F)) (Vf (Proc.devRef .tc main_v2)) (Vf (Proc.devRef .tc main_v4)) :=
  binary_fix (fixP0_0 Vf hfix).2.2.2.2.2

theorem fixP0_1 : (opsP0_1 : List (HloOp τ sig (Elt F))).Forall (Fix Vf) :=
  List.forall_iff_forall_mem.2 fun op h => hfix op (mem_ops_of_P0 (List.mem_append_right _ (List.mem_append_left _ h)))
theorem e_main_call0_cst : Vf (Proc.devRef .tc main_call0_cst) = (constant S_ .f32 0x00000000#32) :=
  by
  have h := nullary_fix (fixP0_1 Vf hfix).1
  simpa only [TRef.toBuf, TRef.ofBuf, cast_eq] using h
theorem e_main_call0_v0 : Vf (Proc.devRef .tc main_call0_v0) = (broadcastInDim S4096x400 ![] bcast_S_S4096x400) (Vf (Proc.devRef .tc main_call0_cst) : (⟨S_, .f32⟩ : BufTy).Contents (Elt F)) :=
  by
  have h := unary_fix (fixP0_1 Vf hfix).2.1
  simpa only [TRef.toBuf, TRef.ofBuf, cast_eq] using h
theorem e_main_call0_v1 : Vf (Proc.devRef .tc main_call0_v1) = (cmpf .oge) (Vf (Proc.devRef .tc main_v5) : (⟨S4096x400, .f32⟩ : BufTy).Contents (Elt F)) (Vf (Proc.devRef .tc main_call0_v0) : (⟨S4096x400, .f32⟩ : BufTy).Contents (Elt F)) :=
  by
  have h := binary_fix (fixP0_1 Vf hfix).2.2.1
  simpa only [TRef.toBuf, TRef.ofBuf, cast_eq] using h
theorem e_main_call0_cst_0 : Vf (Proc.devRef .tc main_call0_cst_0) = (constant S_ .f32 0x3C23D70A#32) :=
  by
  have h := nullary_fix (fixP0_1 Vf hfix).2.2.2.1
  simpa only [TRef.toBuf, TRef.ofBuf, cast_eq] using h
theorem e_main_call0_v2 : Vf (Proc.devRef .tc main_call0_v2) = (broadcastInDim S4096x400 ![] bcast_S_S4096x400) (Vf (Proc.devRef .tc main_call0_cst_0) : (⟨S_, .f32⟩ : BufTy).Contents (Elt F)) :=
  by
  have h := unary_fix (fixP0_1 Vf hfix).2.2.2.2.1
  simpa only [TRef.toBuf, TRef.ofBuf, cast_eq] using h
theorem e_main_call0_v3 : Vf (Proc.devRef .tc main_call0_v3) = mulf (Vf (Proc.devRef .tc main_call0_v2) : (⟨S4096x400, .f32⟩ : BufTy).Contents (Elt F)) (Vf (Proc.devRef .tc main_v5) : (⟨S4096x400, .f32⟩ : BufTy).Contents (Elt F)) :=
  by
  have h := binary_fix (fixP0_1 Vf hfix).2.2.2.2.2.1
  simpa only [TRef.toBuf, TRef.ofBuf, cast_eq] using h
theorem e_main_v6 : Vf (Proc.devRef .tc main_v6) = select (Vf (Proc.devRef .tc main_call0_v1) : (⟨S4096x400, .i1⟩ : BufTy).Contents (Elt F)) (Vf (Proc.devRef .tc main_v5) : (⟨S4096x400, .f32⟩ : BufTy).Contents (Elt F)) (Vf (Proc.devRef .tc main_call0_v3) : (⟨S4096x400, .f32⟩ : BufTy).Contents (Elt F)) :=
  by
  have h := ternary_fix (fixP0_1 Vf hfix).2.2.2.2.2.2
  simpa only [TRef.toBuf, TRef.ofBuf, cast_eq] using h

theorem fixP0_2 : (opsP0_2 : List (HloOp τ sig (Elt F))).Forall (Fix Vf) :=
  List.forall_iff_forall_mem.2 fun op h => hfix op (mem_ops_of_P0 (List.mem_append_right _ (List.mem_append_right _ (List.mem_append_left _ h))))
theorem e_main_v7 : Vf (Proc.devRef .tc main_v7) = ((transpose S400x200 [1, 0] · transposes_S200x400_S400x200_1_0) : (⟨S200x400, .f32⟩ : BufTy).Contents (Elt F) → (⟨S400x200, .f32⟩ : BufTy).Contents (Elt F)) (Vf (Proc.devRef .tc main_arg3)) :=
  unary_fix (fixP0_2 Vf hfix).1
theorem e_main_v8 : Vf (Proc.devRef .tc main_v8) = ((fun l r => Host.dotGeneral dot_S4096x400_S400x200_S4096x200_1_0_0_1_n_n none l r) : (⟨S4096x400, .f32⟩ : BufTy).Contents (Elt F) → (⟨S400x200, .f32⟩ : BufTy).Contents (Elt F) → (⟨S4096x200, .f32⟩ : BufTy).Contents (Elt F)) (Vf (Proc.devRef .tc main_v6)) (Vf (Proc.devRef .tc main_v7)) :=
  binary_fix (fixP0_2 Vf hfix).2.1
theorem e_main_v9 : Vf (Proc.devRef .tc main_v9) = (broadcastInDim S1x200 ![1] bcast_S200_S1x200_1 : (⟨S200, .f32⟩ : BufTy).Contents (Elt F) → (⟨S1x200, .f32⟩ : BufTy).Contents (Elt F)) (Vf (Proc.devRef .tc main_arg4)) :=
  unary_fix (fixP0_2 Vf hfix).2.2.1
theorem e_main_v10 : Vf (Proc.devRef .tc main_v10) = (broadcastInDim S4096x200 ![0, 1] bcast_S1x200_S4096x200_0_1 : (⟨S1x200, .f32⟩ : BufTy).Contents (Elt F) → (⟨S4096x200, .f32⟩ : BufTy).Contents (Elt F)) (Vf (Proc.devRef .tc main_v9)) :=
  unary_fix (fixP0_2 Vf hfix).2.2.2.1
theorem e_main_v11 : Vf (Proc.devRef .tc main_v11) = (addf : (⟨S4096x200, .f32⟩ : BufTy).Contents (Elt F) → (⟨S4096x200, .f32⟩ : BufTy).Contents (Elt F) → (⟨S4096x200, .f32⟩ : BufTy).Contents (Elt F)) (Vf (Proc.devRef .tc main_v8)) (Vf (Proc.devRef .tc main_v10)) :=
  binary_fix (fixP0_2 Vf hfix).2.2.2.2

theorem fixP0_3 : (opsP0_3 : List (HloOp τ sig (Elt F))).Forall (Fix Vf) :=
  List.forall_iff_forall_mem.2 fun op h => hfix op (mem_ops_of_P0 (List.mem_append_right _ (List.mem_append_right _ (List.mem_append_right _ (List.mem_append_left _ h)))))
theorem e_main_call1_cst : Vf (Proc.devRef .tc main_call1_cst) = (constant S_ .f32 0x00000000#32) :=
  by
  have h := nullary_fix (fixP0_3 Vf hfix).1
  simpa only [TRef.toBuf, TRef.ofBuf, cast_eq] using h
theorem e_main_call1_v0 : Vf (Proc.devRef .tc main_call1_v0) = (broadcastInDim S4096x200 ![] bcast_S_S4096x200) (Vf (Proc.devRef .tc main_call1_cst) : (⟨S_, .f32⟩ : BufTy).Contents (Elt F)) :=
  by
  have h := unary_fix (fixP0_3 Vf hfix).2.1
  simpa only [TRef.toBuf, TRef.ofBuf, cast_eq] using h
theorem e_main_call1_v1 : Vf (Proc.devRef .tc main_call1_v1) = (cmpf .oge) (Vf (Proc.devRef .tc main_v11) : (⟨S4096x200, .f32⟩ : BufTy).Contents (Elt F)) (Vf (Proc.devRef .tc main_call1_v0) : (⟨S4096x200, .f32⟩ : BufTy).Contents (Elt F)) :=
  by
  have h := binary_fix (fixP0_3 Vf hfix).2.2.1
  simpa only [TRef.toBuf, TRef.ofBuf, cast_eq] using h
theorem e_main_call1_cst_0 : Vf (Proc.devRef .tc main_call1_cst_0) = (constant S_ .f32 0x3C23D70A#32) :=
  by
  have h := nullary_fix (fixP0_3 Vf hfix).2.2.2.1
  simpa only [TRef.toBuf, TRef.ofBuf, cast_eq] using h
theorem e_main_call1_v2 : Vf (Proc.devRef .tc main_call1_v2) = (broadcastInDim S4096x200 ![] bcast_S_S4096x200) (Vf (Proc.devRef .tc main_call1_cst_0) : (⟨S_, .f32⟩ : BufTy).Contents (Elt F)) :=
  by
  have h := unary_fix (fixP0_3 Vf hfix).2.2.2.2.1
  simpa only [TRef.toBuf, TRef.ofBuf, cast_eq] using h
theorem e_main_call1_v3 : Vf (Proc.devRef .tc main_call1_v3) = mulf (Vf (Proc.devRef .tc main_call1_v2) : (⟨S4096x200, .f32⟩ : BufTy).Contents (Elt F)) (Vf (Proc.devRef .tc main_v11) : (⟨S4096x200, .f32⟩ : BufTy).Contents (Elt F)) :=
  by
  have h := binary_fix (fixP0_3 Vf hfix).2.2.2.2.2.1
  simpa only [TRef.toBuf, TRef.ofBuf, cast_eq] using h
theorem e_main_v12 : Vf (Proc.devRef .tc main_v12) = select (Vf (Proc.devRef .tc main_call1_v1) : (⟨S4096x200, .i1⟩ : BufTy).Contents (Elt F)) (Vf (Proc.devRef .tc main_v11) : (⟨S4096x200, .f32⟩ : BufTy).Contents (Elt F)) (Vf (Proc.devRef .tc main_call1_v3) : (⟨S4096x200, .f32⟩ : BufTy).Contents (Elt F)) :=
  by
  have h := ternary_fix (fixP0_3 Vf hfix).2.2.2.2.2.2
  simpa only [TRef.toBuf, TRef.ofBuf, cast_eq] using h

theorem fixP0_4 : (opsP0_4 : List (HloOp τ sig (Elt F))).Forall (Fix Vf) :=
  List.forall_iff_forall_mem.2 fun op h => hfix op (mem_ops_of_P0 (List.mem_append_right _ (List.mem_append_right _ (List.mem_append_right _ (List.mem_append_right _ (List.mem_append_left _ h))))))
theorem e_main_v13 : Vf (Proc.devRef .tc main_v13) = ((transpose S200x50 [1, 0] · transposes_S50x200_S200x50_1_0) : (⟨S50x200, .f32⟩ : BufTy).Contents (Elt F) → (⟨S200x50, .f32⟩ : BufTy).Contents (Elt F)) (Vf (Proc.devRef .tc main_arg5)) :=
  unary_fix (fixP0_4 Vf hfix).1
theorem e_main_v14 : Vf (Proc.devRef .tc main_v14) = ((fun l r => Host.dotGeneral dot_S4096x200_S200x50_S4096x50_1_0_0_1_n_n none l r) : (⟨S4096x200, .f32⟩ : BufTy).Contents (Elt F) → (⟨S200x50, .f32⟩ : BufTy).Contents (Elt F) → (⟨S4096x50, .f32⟩ : BufTy).Contents (Elt F)) (Vf (Proc.devRef .tc main_v12)) (Vf (Proc.devRef .tc main_v13)) :=
  binary_fix (fixP0_4 Vf hfix).2.1
theorem e_main_v15 : Vf (Proc.devRef .tc main_v15) = (broadcastInDim S1x50 ![1] bcast_S50_S1x50_1 : (⟨S50, .f32⟩ : BufTy).Contents (Elt F) → (⟨S1x50, .f32⟩ : BufTy).Contents (Elt F)) (Vf (Proc.devRef .tc main_arg6)) :=
  unary_fix (fixP0_4 Vf hfix).2.2.1
theorem e_main_v16 : Vf (Proc.devRef .tc main_v16) = (broadcastInDim S4096x50 ![0, 1] bcast_S1x50_S4096x50_0_1 : (⟨S1x50, .f32⟩ : BufTy).Contents (Elt F) → (⟨S4096x50, .f32⟩ : BufTy).Contents (Elt F)) (Vf (Proc.devRef .tc main_v15)) :=
  unary_fix (fixP0_4 Vf hfix).2.2.2.1
theorem e_main_v17 : Vf (Proc.devRef .tc main_v17) = (addf : (⟨S4096x50, .f32⟩ : BufTy).Contents (Elt F) → (⟨S4096x50, .f32⟩ : BufTy).Contents (Elt F) → (⟨S4096x50, .f32⟩ : BufTy).Contents (Elt F)) (Vf (Proc.devRef .tc main_v14)) (Vf (Proc.devRef .tc main_v16)) :=
  binary_fix (fixP0_4 Vf hfix).2.2.2.2

theorem fixP0_5 : (opsP0_5 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_left _ h)))))))
theorem e_main_call2_cst : Vf (Proc.devRef .tc main_call2_cst) = (constant S_ .f32 0x00000000#32) :=
  by
  have h := nullary_fix (fixP0_5 Vf hfix).1
  simpa only [TRef.toBuf, TRef.ofBuf, cast_eq] using h
theorem e_main_call2_v0 : Vf (Proc.devRef .tc main_call2_v0) = (broadcastInDim S4096x50 ![] bcast_S_S4096x50) (Vf (Proc.devRef .tc main_call2_cst) : (⟨S_, .f32⟩ : BufTy).Contents (Elt F)) :=
  by
  have h := unary_fix (fixP0_5 Vf hfix).2.1
  simpa only [TRef.toBuf, TRef.ofBuf, cast_eq] using h
theorem e_main_call2_v1 : Vf (Proc.devRef .tc main_call2_v1) = (cmpf .oge) (Vf (Proc.devRef .tc main_v17) : (⟨S4096x50, .f32⟩ : BufTy).Contents (Elt F)) (Vf (Proc.devRef .tc main_call2_v0) : (⟨S4096x50, .f32⟩ : BufTy).Contents (Elt F)) :=
  by
  have h := binary_fix (fixP0_5 Vf hfix).2.2.1
  simpa only [TRef.toBuf, TRef.ofBuf, cast_eq] using h
theorem e_main_call2_cst_0 : Vf (Proc.devRef .tc main_call2_cst_0) = (constant S_ .f32 0x3C23D70A#32) :=
  by
  have h := nullary_fix (fixP0_5 Vf hfix).2.2.2.1
  simpa only [TRef.toBuf, TRef.ofBuf, cast_eq] using h
theorem e_main_call2_v2 : Vf (Proc.devRef .tc main_call2_v2) = (broadcastInDim S4096x50 ![] bcast_S_S4096x50) (Vf (Proc.devRef .tc main_call2_cst_0) : (⟨S_, .f32⟩ : BufTy).Contents (Elt F)) :=
  by
  have h := unary_fix (fixP0_5 Vf hfix).2.2.2.2.1
  simpa only [TRef.toBuf, TRef.ofBuf, cast_eq] using h
theorem e_main_call2_v3 : Vf (Proc.devRef .tc main_call2_v3) = mulf (Vf (Proc.devRef .tc main_call2_v2) : (⟨S4096x50, .f32⟩ : BufTy).Contents (Elt F)) (Vf (Proc.devRef .tc main_v17) : (⟨S4096x50, .f32⟩ : BufTy).Contents (Elt F)) :=
  by
  have h := binary_fix (fixP0_5 Vf hfix).2.2.2.2.2.1
  simpa only [TRef.toBuf, TRef.ofBuf, cast_eq] using h
theorem e_main_v18 : Vf (Proc.devRef .tc main_v18) = select (Vf (Proc.devRef .tc main_call2_v1) : (⟨S4096x50, .i1⟩ : BufTy).Contents (Elt F)) (Vf (Proc.devRef .tc main_v17) : (⟨S4096x50, .f32⟩ : BufTy).Contents (Elt F)) (Vf (Proc.devRef .tc main_call2_v3) : (⟨S4096x50, .f32⟩ : BufTy).Contents (Elt F)) :=
  by
  have h := ternary_fix (fixP0_5 Vf hfix).2.2.2.2.2.2
  simpa only [TRef.toBuf, TRef.ofBuf, cast_eq] using h

theorem fixP0_6 : (opsP0_6 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_left _ h))))))))
theorem e_main_v19 : Vf (Proc.devRef .tc main_v19) = (Host.tanh : (⟨S4096x50, .f32⟩ : BufTy).Contents (Elt F) → (⟨S4096x50, .f32⟩ : BufTy).Contents (Elt F)) (Vf (Proc.devRef .tc main_v18)) :=
  unary_fix (fixP0_6 Vf hfix).1
theorem e_main_v20 : Vf (Proc.devRef .tc main_v20) = ((transpose S50x2 [1, 0] · transposes_S2x50_S50x2_1_0) : (⟨S2x50, .f32⟩ : BufTy).Contents (Elt F) → (⟨S50x2, .f32⟩ : BufTy).Contents (Elt F)) (Vf (Proc.devRef .tc main_arg7)) :=
  unary_fix (fixP0_6 Vf hfix).2.1
theorem e_main_v21 : Vf (Proc.devRef .tc main_v21) = ((fun l r => Host.dotGeneral dot_S4096x50_S50x2_S4096x2_1_0_0_1_n_n none l r) : (⟨S4096x50, .f32⟩ : BufTy).Contents (Elt F) → (⟨S50x2, .f32⟩ : BufTy).Contents (Elt F) → (⟨S4096x2, .f32⟩ : BufTy).Contents (Elt F)) (Vf (Proc.devRef .tc main_v19)) (Vf (Proc.devRef .tc main_v20)) :=
  binary_fix (fixP0_6 Vf hfix).2.2.1
theorem e_main_v22 : Vf (Proc.devRef .tc main_v22) = (broadcastInDim S1x2 ![1] bcast_S2_S1x2_1 : (⟨S2, .f32⟩ : BufTy).Contents (Elt F) → (⟨S1x2, .f32⟩ : BufTy).Contents (Elt F)) (Vf (Proc.devRef .tc main_arg8)) :=
  unary_fix (fixP0_6 Vf hfix).2.2.2.1
theorem e_main_v23 : Vf (Proc.devRef .tc main_v23) = (broadcastInDim S4096x2 ![0, 1] bcast_S1x2_S4096x2_0_1 : (⟨S1x2, .f32⟩ : BufTy).Contents (Elt F) → (⟨S4096x2, .f32⟩ : BufTy).Contents (Elt F)) (Vf (Proc.devRef .tc main_v22)) :=
  unary_fix (fixP0_6 Vf hfix).2.2.2.2.1
theorem e_main_v24 : Vf (Proc.devRef .tc main_v24) = (addf : (⟨S4096x2, .f32⟩ : BufTy).Contents (Elt F) → (⟨S4096x2, .f32⟩ : BufTy).Contents (Elt F) → (⟨S4096x2, .f32⟩ : BufTy).Contents (Elt F)) (Vf (Proc.devRef .tc main_v21)) (Vf (Proc.devRef .tc main_v23)) :=
  binary_fix (fixP0_6 Vf hfix).2.2.2.2.2.1
theorem e_main_v25 : Vf (Proc.devRef .tc main_v25) = ((transpose S2x50 [1, 0] · transposes_S50x2_S2x50_1_0) : (⟨S50x2, .f32⟩ : BufTy).Contents (Elt F) → (⟨S2x50, .f32⟩ : BufTy).Contents (Elt F)) (Vf (Proc.devRef .tc main_arg9)) :=
  unary_fix (fixP0_6 Vf hfix).2.2.2.2.2.2.1
theorem e_main_v26 : Vf (Proc.devRef .tc main_v26) = ((fun l r => Host.dotGeneral dot_S4096x2_S2x50_S4096x50_1_0_0_1_n_n none l r) : (⟨S4096x2, .f32⟩ : BufTy).Contents (Elt F) → (⟨S2x50, .f32⟩ : BufTy).Contents (Elt F) → (⟨S4096x50, .f32⟩ : BufTy).Contents (Elt F)) (Vf (Proc.devRef .tc main_v24)) (Vf (Proc.devRef .tc main_v25)) :=
  binary_fix (fixP0_6 Vf hfix).2.2.2.2.2.2.2.1
theorem e_main_v27 : Vf (Proc.devRef .tc main_v27) = (broadcastInDim S1x50 ![1] bcast_S50_S1x50_1 : (⟨S50, .f32⟩ : BufTy).Contents (Elt F) → (⟨S1x50, .f32⟩ : BufTy).Contents (Elt F)) (Vf (Proc.devRef .tc main_arg10)) :=
  unary_fix (fixP0_6 Vf hfix).2.2.2.2.2.2.2.2.1
theorem e_main_v28 : Vf (Proc.devRef .tc main_v28) = (broadcastInDim S4096x50 ![0, 1] bcast_S1x50_S4096x50_0_1 : (⟨S1x50, .f32⟩ : BufTy).Contents (Elt F) → (⟨S4096x50, .f32⟩ : BufTy).Contents (Elt F)) (Vf (Proc.devRef .tc main_v27)) :=
  unary_fix (fixP0_6 Vf hfix).2.2.2.2.2.2.2.2.2.1
theorem e_main_v29 : Vf (Proc.devRef .tc main_v29) = (addf : (⟨S4096x50, .f32⟩ : BufTy).Contents (Elt F) → (⟨S4096x50, .f32⟩ : BufTy).Contents (Elt F) → (⟨S4096x50, .f32⟩ : BufTy).Contents (Elt F)) (Vf (Proc.devRef .tc main_v26)) (Vf (Proc.devRef .tc main_v28)) :=
  binary_fix (fixP0_6 Vf hfix).2.2.2.2.2.2.2.2.2.2

theorem fixP0_7 : (opsP0_7 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_right _ (List.mem_append_left _ h)))))))))
theorem e_main_call3_cst : Vf (Proc.devRef .tc main_call3_cst) = (constant S_ .f32 0x00000000#32) :=
  by
  have h := nullary_fix (fixP0_7 Vf hfix).1
  simpa only [TRef.toBuf, TRef.ofBuf, cast_eq] using h
theorem e_main_call3_v0 : Vf (Proc.devRef .tc main_call3_v0) = (broadcastInDim S4096x50 ![] bcast_S_S4096x50) (Vf (Proc.devRef .tc main_call3_cst) : (⟨S_, .f32⟩ : BufTy).Contents (Elt F)) :=
  by
  have h := unary_fix (fixP0_7 Vf hfix).2.1
  simpa only [TRef.toBuf, TRef.ofBuf, cast_eq] using h
theorem e_main_call3_v1 : Vf (Proc.devRef .tc main_call3_v1) = (cmpf .oge) (Vf (Proc.devRef .tc main_v29) : (⟨S4096x50, .f32⟩ : BufTy).Contents (Elt F)) (Vf (Proc.devRef .tc main_call3_v0) : (⟨S4096x50, .f32⟩ : BufTy).Contents (Elt F)) :=
  by
  have h := binary_fix (fixP0_7 Vf hfix).2.2.1
  simpa only [TRef.toBuf, TRef.ofBuf, cast_eq] using h
theorem e_main_call3_cst_0 : Vf (Proc.devRef .tc main_call3_cst_0) = (constant S_ .f32 0x3C23D70A#32) :=
  by
  have h := nullary_fix (fixP0_7 Vf hfix).2.2.2.1
  simpa only [TRef.toBuf, TRef.ofBuf, cast_eq] using h
theorem e_main_call3_v2 : Vf (Proc.devRef .tc main_call3_v2) = (broadcastInDim S4096x50 ![] bcast_S_S4096x50) (Vf (Proc.devRef .tc main_call3_cst_0) : (⟨S_, .f32⟩ : BufTy).Contents (Elt F)) :=
  by
  have h := unary_fix (fixP0_7 Vf hfix).2.2.2.2.1
  simpa only [TRef.toBuf, TRef.ofBuf, cast_eq] using h
theorem e_main_call3_v3 : Vf (Proc.devRef .tc main_call3_v3) = mulf (Vf (Proc.devRef .tc main_call3_v2) : (⟨S4096x50, .f32⟩ : BufTy).Contents (Elt F)) (Vf (Proc.devRef .tc main_v29) : (⟨S4096x50, .f32⟩ : BufTy).Contents (Elt F)) :=
  by
  have h := binary_fix (fixP0_7 Vf hfix).2.2.2.2.2.1
  simpa only [TRef.toBuf, TRef.ofBuf, cast_eq] using h
theorem e_main_v30 : Vf (Proc.devRef .tc main_v30) = select (Vf (Proc.devRef .tc main_call3_v1) : (⟨S4096x50, .i1⟩ : BufTy).Contents (Elt F)) (Vf (Proc.devRef .tc main_v29) : (⟨S4096x50, .f32⟩ : BufTy).Contents (Elt F)) (Vf (Proc.devRef .tc main_call3_v3) : (⟨S4096x50, .f32⟩ : BufTy).Contents (Elt F)) :=
  by
  have h := ternary_fix (fixP0_7 Vf hfix).2.2.2.2.2.2
  simpa only [TRef.toBuf, TRef.ofBuf, cast_eq] using h

theorem fixP0_8 : (opsP0_8 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_right _ (List.mem_append_right _ (List.mem_append_left _ h))))))))))
theorem e_main_v31 : Vf (Proc.devRef .tc main_v31) = ((transpose S50x200 [1, 0] · transposes_S200x50_S50x200_1_0) : (⟨S200x50, .f32⟩ : BufTy).Contents (Elt F) → (⟨S50x200, .f32⟩ : BufTy).Contents (Elt F)) (Vf (Proc.devRef .tc main_arg11)) :=
  unary_fix (fixP0_8 Vf hfix).1
theorem e_main_v32 : Vf (Proc.devRef .tc main_v32) = ((fun l r => Host.dotGeneral dot_S4096x50_S50x200_S4096x200_1_0_0_1_n_n none l r) : (⟨S4096x50, .f32⟩ : BufTy).Contents (Elt F) → (⟨S50x200, .f32⟩ : BufTy).Contents (Elt F) → (⟨S4096x200, .f32⟩ : BufTy).Contents (Elt F)) (Vf (Proc.devRef .tc main_v30)) (Vf (Proc.devRef .tc main_v31)) :=
  binary_fix (fixP0_8 Vf hfix).2.1
theorem e_main_v33 : Vf (Proc.devRef .tc main_v33) = (broadcastInDim S1x200 ![1] bcast_S200_S1x200_1 : (⟨S200, .f32⟩ : BufTy).Contents (Elt F) → (⟨S1x200, .f32⟩ : BufTy).Contents (Elt F)) (Vf (Proc.devRef .tc main_arg12)) :=
  unary_fix (fixP0_8 Vf hfix).2.2.1
theorem e_main_v34 : Vf (Proc.devRef .tc main_v34) = (broadcastInDim S4096x200 ![0, 1] bcast_S1x200_S4096x200_0_1 : (⟨S1x200, .f32⟩ : BufTy).Contents (Elt F) → (⟨S4096x200, .f32⟩ : BufTy).Contents (Elt F)) (Vf (Proc.devRef .tc main_v33)) :=
  unary_fix (fixP0_8 Vf hfix).2.2.2.1
theorem e_main_v35 : Vf (Proc.devRef .tc main_v35) = (addf : (⟨S4096x200, .f32⟩ : BufTy).Contents (Elt F) → (⟨S4096x200, .f32⟩ : BufTy).Contents (Elt F) → (⟨S4096x200, .f32⟩ : BufTy).Contents (Elt F)) (Vf (Proc.devRef .tc main_v32)) (Vf (Proc.devRef .tc main_v34)) :=
  binary_fix (fixP0_8 Vf hfix).2.2.2.2

theorem fixP0_9 : (opsP0_9 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_right _ (List.mem_append_right _ (List.mem_append_right _ (List.mem_append_left _ h)))))))))))
theorem e_main_call4_cst : Vf (Proc.devRef .tc main_call4_cst) = (constant S_ .f32 0x00000000#32) :=
  by
  have h := nullary_fix (fixP0_9 Vf hfix).1
  simpa only [TRef.toBuf, TRef.ofBuf, cast_eq] using h
theorem e_main_call4_v0 : Vf (Proc.devRef .tc main_call4_v0) = (broadcastInDim S4096x200 ![] bcast_S_S4096x200) (Vf (Proc.devRef .tc main_call4_cst) : (⟨S_, .f32⟩ : BufTy).Contents (Elt F)) :=
  by
  have h := unary_fix (fixP0_9 Vf hfix).2.1
  simpa only [TRef.toBuf, TRef.ofBuf, cast_eq] using h
theorem e_main_call4_v1 : Vf (Proc.devRef .tc main_call4_v1) = (cmpf .oge) (Vf (Proc.devRef .tc main_v35) : (⟨S4096x200, .f32⟩ : BufTy).Contents (Elt F)) (Vf (Proc.devRef .tc main_call4_v0) : (⟨S4096x200, .f32⟩ : BufTy).Contents (Elt F)) :=
  by
  have h := binary_fix (fixP0_9 Vf hfix).2.2.1
  simpa only [TRef.toBuf, TRef.ofBuf, cast_eq] using h
theorem e_main_call4_cst_0 : Vf (Proc.devRef .tc main_call4_cst_0) = (constant S_ .f32 0x3C23D70A#32) :=
  by
  have h := nullary_fix (fixP0_9 Vf hfix).2.2.2.1
  simpa only [TRef.toBuf, TRef.ofBuf, cast_eq] using h
theorem e_main_call4_v2 : Vf (Proc.devRef .tc main_call4_v2) = (broadcastInDim S4096x200 ![] bcast_S_S4096x200) (Vf (Proc.devRef .tc main_call4_cst_0) : (⟨S_, .f32⟩ : BufTy).Contents (Elt F)) :=
  by
  have h := unary_fix (fixP0_9 Vf hfix).2.2.2.2.1
  simpa only [TRef.toBuf, TRef.ofBuf, cast_eq] using h
theorem e_main_call4_v3 : Vf (Proc.devRef .tc main_call4_v3) = mulf (Vf (Proc.devRef .tc main_call4_v2) : (⟨S4096x200, .f32⟩ : BufTy).Contents (Elt F)) (Vf (Proc.devRef .tc main_v35) : (⟨S4096x200, .f32⟩ : BufTy).Contents (Elt F)) :=
  by
  have h := binary_fix (fixP0_9 Vf hfix).2.2.2.2.2.1
  simpa only [TRef.toBuf, TRef.ofBuf, cast_eq] using h
theorem e_main_v36 : Vf (Proc.devRef .tc main_v36) = select (Vf (Proc.devRef .tc main_call4_v1) : (⟨S4096x200, .i1⟩ : BufTy).Contents (Elt F)) (Vf (Proc.devRef .tc main_v35) : (⟨S4096x200, .f32⟩ : BufTy).Contents (Elt F)) (Vf (Proc.devRef .tc main_call4_v3) : (⟨S4096x200, .f32⟩ : BufTy).Contents (Elt F)) :=
  by
  have h := ternary_fix (fixP0_9 Vf hfix).2.2.2.2.2.2
  simpa only [TRef.toBuf, TRef.ofBuf, cast_eq] using h

theorem fixP0_10 : (opsP0_10 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))
theorem e_main_v37 : Vf (Proc.devRef .tc main_v37) = ((transpose S200x400 [1, 0] · transposes_S400x200_S200x400_1_0) : (⟨S400x200, .f32⟩ : BufTy).Contents (Elt F) → (⟨S200x400, .f32⟩ : BufTy).Contents (Elt F)) (Vf (Proc.devRef .tc main_arg13)) :=
  unary_fix (fixP0_10 Vf hfix).1
theorem e_main_v38 : Vf (Proc.devRef .tc main_v38) = ((fun l r => Host.dotGeneral dot_S4096x200_S200x400_S4096x400_1_0_0_1_n_n none l r) : (⟨S4096x200, .f32⟩ : BufTy).Contents (Elt F) → (⟨S200x400, .f32⟩ : BufTy).Contents (Elt F) → (⟨S4096x400, .f32⟩ : BufTy).Contents (Elt F)) (Vf (Proc.devRef .tc main_v36)) (Vf (Proc.devRef .tc main_v37)) :=
  binary_fix (fixP0_10 Vf hfix).2.1
theorem e_main_v39 : Vf (Proc.devRef .tc main_v39) = (broadcastInDim S1x400 ![1] bcast_S400_S1x400_1 : (⟨S400, .f32⟩ : BufTy).Contents (Elt F) → (⟨S1x400, .f32⟩ : BufTy).Contents (Elt F)) (Vf (Proc.devRef .tc main_arg14)) :=
  unary_fix (fixP0_10 Vf hfix).2.2.1
theorem e_main_v40 : Vf (Proc.devRef .tc main_v40) = (broadcastInDim S4096x400 ![0, 1] bcast_S1x400_S4096x400_0_1 : (⟨S1x400, .f32⟩ : BufTy).Contents (Elt F) → (⟨S4096x400, .f32⟩ : BufTy).Contents (Elt F)) (Vf (Proc.devRef .tc main_v39)) :=
  unary_fix (fixP0_10 Vf hfix).2.2.2.1
theorem e_main_v41 : Vf (Proc.devRef .tc main_v41) = (addf : (⟨S4096x400, .f32⟩ : BufTy).Contents (Elt F) → (⟨S4096x400, .f32⟩ : BufTy).Contents (Elt F) → (⟨S4096x400, .f32⟩ : BufTy).Contents (Elt F)) (Vf (Proc.devRef .tc main_v38)) (Vf (Proc.devRef .tc main_v40)) :=
  binary_fix (fixP0_10 Vf hfix).2.2.2.2

theorem fixP0_11 : (opsP0_11 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))
theorem e_main_call5_cst : Vf (Proc.devRef .tc main_call5_cst) = (constant S_ .f32 0x00000000#32) :=
  by
  have h := nullary_fix (fixP0_11 Vf hfix).1
  simpa only [TRef.toBuf, TRef.ofBuf, cast_eq] using h
theorem e_main_call5_v0 : Vf (Proc.devRef .tc main_call5_v0) = (broadcastInDim S4096x400 ![] bcast_S_S4096x400) (Vf (Proc.devRef .tc main_call5_cst) : (⟨S_, .f32⟩ : BufTy).Contents (Elt F)) :=
  by
  have h := unary_fix (fixP0_11 Vf hfix).2.1
  simpa only [TRef.toBuf, TRef.ofBuf, cast_eq] using h
theorem e_main_call5_v1 : Vf (Proc.devRef .tc main_call5_v1) = (cmpf .oge) (Vf (Proc.devRef .tc main_v41) : (⟨S4096x400, .f32⟩ : BufTy).Contents (Elt F)) (Vf (Proc.devRef .tc main_call5_v0) : (⟨S4096x400, .f32⟩ : BufTy).Contents (Elt F)) :=
  by
  have h := binary_fix (fixP0_11 Vf hfix).2.2.1
  simpa only [TRef.toBuf, TRef.ofBuf, cast_eq] using h
theorem e_main_call5_cst_0 : Vf (Proc.devRef .tc main_call5_cst_0) = (constant S_ .f32 0x3C23D70A#32) :=
  by
  have h := nullary_fix (fixP0_11 Vf hfix).2.2.2.1
  simpa only [TRef.toBuf, TRef.ofBuf, cast_eq] using h
theorem e_main_call5_v2 : Vf (Proc.devRef .tc main_call5_v2) = (broadcastInDim S4096x400 ![] bcast_S_S4096x400) (Vf (Proc.devRef .tc main_call5_cst_0) : (⟨S_, .f32⟩ : BufTy).Contents (Elt F)) :=
  by
  have h := unary_fix (fixP0_11 Vf hfix).2.2.2.2.1
  simpa only [TRef.toBuf, TRef.ofBuf, cast_eq] using h
theorem e_main_call5_v3 : Vf (Proc.devRef .tc main_call5_v3) = mulf (Vf (Proc.devRef .tc main_call5_v2) : (⟨S4096x400, .f32⟩ : BufTy).Contents (Elt F)) (Vf (Proc.devRef .tc main_v41) : (⟨S4096x400, .f32⟩ : BufTy).Contents (Elt F)) :=
  by
  have h := binary_fix (fixP0_11 Vf hfix).2.2.2.2.2.1
  simpa only [TRef.toBuf, TRef.ofBuf, cast_eq] using h
theorem e_main_v42 : Vf (Proc.devRef .tc main_v42) = select (Vf (Proc.devRef .tc main_call5_v1) : (⟨S4096x400, .i1⟩ : BufTy).Contents (Elt F)) (Vf (Proc.devRef .tc main_v41) : (⟨S4096x400, .f32⟩ : BufTy).Contents (Elt F)) (Vf (Proc.devRef .tc main_call5_v3) : (⟨S4096x400, .f32⟩ : BufTy).Contents (Elt F)) :=
  by
  have h := ternary_fix (fixP0_11 Vf hfix).2.2.2.2.2.2
  simpa only [TRef.toBuf, TRef.ofBuf, cast_eq] using h

theorem fixP0_12 : (opsP0_12 : List (HloOp τ sig (Elt F))).Forall (Fix Vf) :=
  List.forall_iff_forall_mem.2 fun op h => hfix op (mem_ops_of_P0 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))))
theorem e_main_v43 : Vf (Proc.devRef .tc main_v43) = ((transpose S400x784 [1, 0] · transposes_S784x400_S400x784_1_0) : (⟨S784x400, .f32⟩ : BufTy).Contents (Elt F) → (⟨S400x784, .f32⟩ : BufTy).Contents (Elt F)) (Vf (Proc.devRef .tc main_arg15)) :=
  unary_fix (fixP0_12 Vf hfix).1
theorem e_main_v44 : Vf (Proc.devRef .tc main_v44) = ((fun l r => Host.dotGeneral dot_S4096x400_S400x784_S4096x784_1_0_0_1_n_n none l r) : (⟨S4096x400, .f32⟩ : BufTy).Contents (Elt F) → (⟨S400x784, .f32⟩ : BufTy).Contents (Elt F) → (⟨S4096x784, .f32⟩ : BufTy).Contents (Elt F)) (Vf (Proc.devRef .tc main_v42)) (Vf (Proc.devRef .tc main_v43)) :=
  binary_fix (fixP0_12 Vf hfix).2.1
theorem e_main_v45 : Vf (Proc.devRef .tc main_v45) = (broadcastInDim S1x784 ![1] bcast_S784_S1x784_1 : (⟨S784, .f32⟩ : BufTy).Contents (Elt F) → (⟨S1x784, .f32⟩ : BufTy).Contents (Elt F)) (Vf (Proc.devRef .tc main_arg16)) :=
  unary_fix (fixP0_12 Vf hfix).2.2.1
theorem e_main_v46 : Vf (Proc.devRef .tc main_v46) = (broadcastInDim S4096x784 ![0, 1] bcast_S1x784_S4096x784_0_1 : (⟨S1x784, .f32⟩ : BufTy).Contents (Elt F) → (⟨S4096x784, .f32⟩ : BufTy).Contents (Elt F)) (Vf (Proc.devRef .tc main_v45)) :=
  unary_fix (fixP0_12 Vf hfix).2.2.2.1
theorem e_main_v47 : Vf (Proc.devRef .tc main_v47) = (addf : (⟨S4096x784, .f32⟩ : BufTy).Contents (Elt F) → (⟨S4096x784, .f32⟩ : BufTy).Contents (Elt F) → (⟨S4096x784, .f32⟩ : BufTy).Contents (Elt F)) (Vf (Proc.devRef .tc main_v44)) (Vf (Proc.devRef .tc main_v46)) :=
  binary_fix (fixP0_12 Vf hfix).2.2.2.2.1
theorem e_main_v48 : Vf (Proc.devRef .tc main_v48) = (Host.negf : (⟨S4096x784, .f32⟩ : BufTy).Contents (Elt F) → (⟨S4096x784, .f32⟩ : BufTy).Contents (Elt F)) (Vf (Proc.devRef .tc main_v47)) :=
  unary_fix (fixP0_12 Vf hfix).2.2.2.2.2.1
theorem e_main_v49 : Vf (Proc.devRef .tc main_v49) = (Host.exp : (⟨S4096x784, .f32⟩ : BufTy).Contents (Elt F) → (⟨S4096x784, .f32⟩ : BufTy).Contents (Elt F)) (Vf (Proc.devRef .tc main_v48)) :=
  unary_fix (fixP0_12 Vf hfix).2.2.2.2.2.2.1
theorem e_main_cst : Vf (Proc.devRef .tc main_cst) = (constant S_ .f32 0x3F800000#32) :=
  nullary_fix (fixP0_12 Vf hfix).2.2.2.2.2.2.2.1
theorem e_main_v50 : Vf (Proc.devRef .tc main_v50) = (broadcastInDim S4096x784 ![] bcast_S_S4096x784 : (⟨S_, .f32⟩ : BufTy).Contents (Elt F) → (⟨S4096x784, .f32⟩ : BufTy).Contents (Elt F)) (Vf (Proc.devRef .tc main_cst)) :=
  unary_fix (fixP0_12 Vf hfix).2.2.2.2.2.2.2.2.1
theorem e_main_v51 : Vf (Proc.devRef .tc main_v51) = (addf : (⟨S4096x784, .f32⟩ : BufTy).Contents (Elt F) → (⟨S4096x784, .f32⟩ : BufTy).Contents (Elt F) → (⟨S4096x784, .f32⟩ : BufTy).Contents (Elt F)) (Vf (Proc.devRef .tc main_v50)) (Vf (Proc.devRef .tc main_v49)) :=
  binary_fix (fixP0_12 Vf hfix).2.2.2.2.2.2.2.2.2.1
theorem e_main_cst_0 : Vf (Proc.devRef .tc main_cst_0) = (constant S_ .f32 0x3F800000#32) :=
  nullary_fix (fixP0_12 Vf hfix).2.2.2.2.2.2.2.2.2.2.1
theorem e_main_v52 : Vf (Proc.devRef .tc main_v52) = (broadcastInDim S4096x784 ![] bcast_S_S4096x784 : (⟨S_, .f32⟩ : BufTy).Contents (Elt F) → (⟨S4096x784, .f32⟩ : BufTy).Contents (Elt F)) (Vf (Proc.devRef .tc main_cst_0)) :=
  unary_fix (fixP0_12 Vf hfix).2.2.2.2.2.2.2.2.2.2.2.1
theorem e_main_v53 : Vf (Proc.devRef .tc main_v53) = (Host.divf : (⟨S4096x784, .f32⟩ : BufTy).Contents (Elt F) → (⟨S4096x784, .f32⟩ : BufTy).Contents (Elt F) → (⟨S4096x784, .f32⟩ : BufTy).Contents (Elt F)) (Vf (Proc.devRef .tc main_v52)) (Vf (Proc.devRef .tc main_v51)) :=
  binary_fix (fixP0_12 Vf hfix).2.2.2.2.2.2.2.2.2.2.2.2.1
theorem e_main_v54 : Vf (Proc.devRef .tc main_v54) = shapeCast S4096x1x28x28 (Vf (Proc.devRef .tc main_v53)) shapeCasts_S4096x784_S4096x1x28x28 :=
  (reshape_fix (fixP0_12 Vf hfix).2.2.2.2.2.2.2.2.2.2.2.2.2.1).trans rfl
theorem e_main_v55 : Vf (Proc.devRef .tc main_v55) = (mulf : (⟨S4096x784, .f32⟩ : BufTy).Contents (Elt F) → (⟨S4096x784, .f32⟩ : BufTy).Contents (Elt F) → (⟨S4096x784, .f32⟩ : BufTy).Contents (Elt F)) (Vf (Proc.devRef .tc main_v0)) (Vf (Proc.devRef .tc main_v0)) :=
  binary_fix (fixP0_12 Vf hfix).2.2.2.2.2.2.2.2.2.2.2.2.2.2.1
theorem e_main_cst_1 : Vf (Proc.devRef .tc main_cst_1) = (constant S_ .f32 0x00000000#32) :=
  nullary_fix (fixP0_12 Vf hfix).2.2.2.2.2.2.2.2.2.2.2.2.2.2.2.1
theorem e_main_v56 : Vf (Proc.devRef .tc main_v56) = ((fun x v => Host.reduceAdd x v reducesTo_S4096x784_S4096_d1 h_S_) : (⟨S4096x784, .f32⟩ : BufTy).Contents (Elt F) → (⟨S_, .f32⟩ : BufTy).Contents (Elt F) → (⟨S4096, .f32⟩ : BufTy).Contents (Elt F)) (Vf (Proc.devRef .tc main_v55)) (Vf (Proc.devRef .tc main_cst_1)) :=
  binary_fix (fixP0_12 Vf hfix).2.2.2.2.2.2.2.2.2.2.2.2.2.2.2.2

end

end Cert.ReferenceIdeal.Hand

end
-- ==== Proof.Ref.Eqs1.lean ====
import proofs.«135652_j20272245637753_1_alg».proof.Proof.Ref.Fix

/-! # The reference's final contents, window 1: one equation per operation

For contents `Vf` that every operation of the line leaves fixed (the final contents of the line are such), the
equation of each operation of window 1: its result buffer holds its function of its operand buffers' contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

section
variable (Vf : Valuation τ sig (Elt F)) (hfix : ∀ op ∈ (ops : List (HloOp τ sig (Elt F))), Fix Vf op)
include hfix

theorem fixP1_0 : (opsP1_0 : List (HloOp τ sig (Elt F))).Forall (Fix Vf) :=
  List.forall_iff_forall_mem.2 fun op h => hfix op (mem_ops_of_P1 (List.mem_append_left _ h))
theorem e_main_v57 : Vf (Proc.devRef .tc main_v57) = (broadcastInDim S4096x1 ![0] bcast_S4096_S4096x1_0 : (⟨S4096, .f32⟩ : BufTy).Contents (Elt F) → (⟨S4096x1, .f32⟩ : BufTy).Contents (Elt F)) (Vf (Proc.devRef .tc main_v56)) :=
  unary_fix (fixP1_0 Vf hfix).1
theorem e_main_v58 : Vf (Proc.devRef .tc main_v58) = (broadcastInDim S1x4096 ![1] bcast_S4096_S1x4096_1 : (⟨S4096, .f32⟩ : BufTy).Contents (Elt F) → (⟨S1x4096, .f32⟩ : BufTy).Contents (Elt F)) (Vf (Proc.devRef .tc main_v56)) :=
  unary_fix (fixP1_0 Vf hfix).2.1
theorem e_main_v59 : Vf (Proc.devRef .tc main_v59) = (broadcastInDim S4096x4096 ![0, 1] bcast_S4096x1_S4096x4096_0_1 : (⟨S4096x1, .f32⟩ : BufTy).Contents (Elt F) → (⟨S4096x4096, .f32⟩ : BufTy).Contents (Elt F)) (Vf (Proc.devRef .tc main_v57)) :=
  unary_fix (fixP1_0 Vf hfix).2.2.1
theorem e_main_v60 : Vf (Proc.devRef .tc main_v60) = (broadcastInDim S4096x4096 ![0, 1] bcast_S1x4096_S4096x4096_0_1 : (⟨S1x4096, .f32⟩ : BufTy).Contents (Elt F) → (⟨S4096x4096, .f32⟩ : BufTy).Contents (Elt F)) (Vf (Proc.devRef .tc main_v58)) :=
  unary_fix (fixP1_0 Vf hfix).2.2.2.1
theorem e_main_v61 : Vf (Proc.devRef .tc main_v61) = (addf : (⟨S4096x4096, .f32⟩ : BufTy).Contents (Elt F) → (⟨S4096x4096, .f32⟩ : BufTy).Contents (Elt F) → (⟨S4096x4096, .f32⟩ : BufTy).Contents (Elt F)) (Vf (Proc.devRef .tc main_v59)) (Vf (Proc.devRef .tc main_v60)) :=
  binary_fix (fixP1_0 Vf hfix).2.2.2.2.1
theorem e_main_v62 : Vf (Proc.devRef .tc main_v62) = ((transpose S784x4096 [1, 0] · transposes_S4096x784_S784x4096_1_0) : (⟨S4096x784, .f32⟩ : BufTy).Contents (Elt F) → (⟨S784x4096, .f32⟩ : BufTy).Contents (Elt F)) (Vf (Proc.devRef .tc main_v0)) :=
  unary_fix (fixP1_0 Vf hfix).2.2.2.2.2.1
theorem e_main_v63 : Vf (Proc.devRef .tc main_v63) = ((fun l r => Host.dotGeneral dot_S4096x784_S784x4096_S4096x4096_1_0_0_1_n_n none l r) : (⟨S4096x784, .f32⟩ : BufTy).Contents (Elt F) → (⟨S784x4096, .f32⟩ : BufTy).Contents (Elt F) → (⟨S4096x4096, .f32⟩ : BufTy).Contents (Elt F)) (Vf (Proc.devRef .tc main_v0)) (Vf (Proc.devRef .tc main_v62)) :=
  binary_fix (fixP1_0 Vf hfix).2.2.2.2.2.2.1
theorem e_main_cst_2 : Vf (Proc.devRef .tc main_cst_2) = (constant S_ .f32 0x40000000#32) :=
  nullary_fix (fixP1_0 Vf hfix).2.2.2.2.2.2.2.1
theorem e_main_v64 : Vf (Proc.devRef .tc main_v64) = (broadcastInDim S4096x4096 ![] bcast_S_S4096x4096 : (⟨S_, .f32⟩ : BufTy).Contents (Elt F) → (⟨S4096x4096, .f32⟩ : BufTy).Contents (Elt F)) (Vf (Proc.devRef .tc main_cst_2)) :=
  unary_fix (fixP1_0 Vf hfix).2.2.2.2.2.2.2.2.1
theorem e_main_v65 : Vf (Proc.devRef .tc main_v65) = (mulf : (⟨S4096x4096, .f32⟩ : BufTy).Contents (Elt F) → (⟨S4096x4096, .f32⟩ : BufTy).Contents (Elt F) → (⟨S4096x4096, .f32⟩ : BufTy).Contents (Elt F)) (Vf (Proc.devRef .tc main_v64)) (Vf (Proc.devRef .tc main_v63)) :=
  binary_fix (fixP1_0 Vf hfix).2.2.2.2.2.2.2.2.2.1
theorem e_main_v66 : Vf (Proc.devRef .tc main_v66) = (subf : (⟨S4096x4096, .f32⟩ : BufTy).Contents (Elt F) → (⟨S4096x4096, .f32⟩ : BufTy).Contents (Elt F) → (⟨S4096x4096, .f32⟩ : BufTy).Contents (Elt F)) (Vf (Proc.devRef .tc main_v61)) (Vf (Proc.devRef .tc main_v65)) :=
  binary_fix (fixP1_0 Vf hfix).2.2.2.2.2.2.2.2.2.2.1
theorem e_main_cst_3 : Vf (Proc.devRef .tc main_cst_3) = (constant S_ .f32 0x3F800000#32) :=
  nullary_fix (fixP1_0 Vf hfix).2.2.2.2.2.2.2.2.2.2.2.1
theorem e_main_v67 : Vf (Proc.devRef .tc main_v67) = (broadcastInDim S4096x4096 ![] bcast_S_S4096x4096 : (⟨S_, .f32⟩ : BufTy).Contents (Elt F) → (⟨S4096x4096, .f32⟩ : BufTy).Contents (Elt F)) (Vf (Proc.devRef .tc main_cst_3)) :=
  unary_fix (fixP1_0 Vf hfix).2.2.2.2.2.2.2.2.2.2.2.2

theorem fixP1_1 : (opsP1_1 : List (HloOp τ sig (Elt F))).Forall (Fix Vf) :=
  List.forall_iff_forall_mem.2 fun op h => hfix op (mem_ops_of_P1 (List.mem_append_right _ (List.mem_append_left _ h)))
theorem e_main_call6_v0 : Vf (Proc.devRef .tc main_call6_v0) = (iotaInDim S4096x4096 32 0) :=
  by
  have h := nullary_fix (fixP1_1 Vf hfix).1
  simpa only [TRef.toBuf, TRef.ofBuf, cast_eq] using h
theorem e_main_call6_c : Vf (Proc.devRef .tc main_call6_c) = (constantI S_ 32 0#32) :=
  by
  have h := nullary_fix (fixP1_1 Vf hfix).2.1
  simpa only [TRef.toBuf, TRef.ofBuf, cast_eq] using h
theorem e_main_call6_v1 : Vf (Proc.devRef .tc main_call6_v1) = (broadcastInDim S4096x4096 ![] bcast_S_S4096x4096) (Vf (Proc.devRef .tc main_call6_c) : (⟨S_, .i32⟩ : BufTy).Contents (Elt F)) :=
  by
  have h := unary_fix (fixP1_1 Vf hfix).2.2.1
  simpa only [TRef.toBuf, TRef.ofBuf, cast_eq] using h
theorem e_main_call6_v2 : Vf (Proc.devRef .tc main_call6_v2) = addi (Vf (Proc.devRef .tc main_call6_v0) : (⟨S4096x4096, .i32⟩ : BufTy).Contents (Elt F)) (Vf (Proc.devRef .tc main_call6_v1) : (⟨S4096x4096, .i32⟩ : BufTy).Contents (Elt F)) :=
  by
  have h := binary_fix (fixP1_1 Vf hfix).2.2.2.1
  simpa only [TRef.toBuf, TRef.ofBuf, cast_eq] using h
theorem e_main_call6_v3 : Vf (Proc.devRef .tc main_call6_v3) = (iotaInDim S4096x4096 32 1) :=
  by
  have h := nullary_fix (fixP1_1 Vf hfix).2.2.2.2.1
  simpa only [TRef.toBuf, TRef.ofBuf, cast_eq] using h
theorem e_main_call6_v4 : Vf (Proc.devRef .tc main_call6_v4) = (cmpi .sge) (Vf (Proc.devRef .tc main_call6_v2) : (⟨S4096x4096, .i32⟩ : BufTy).Contents (Elt F)) (Vf (Proc.devRef .tc main_call6_v3) : (⟨S4096x4096, .i32⟩ : BufTy).Contents (Elt F)) :=
  by
  have h := binary_fix (fixP1_1 Vf hfix).2.2.2.2.2.1
  simpa only [TRef.toBuf, TRef.ofBuf, cast_eq] using h
theorem e_main_call6_cst : Vf (Proc.devRef .tc main_call6_cst) = (constant S_ .f32 0x00000000#32) :=
  by
  have h := nullary_fix (fixP1_1 Vf hfix).2.2.2.2.2.2.1
  simpa only [TRef.toBuf, TRef.ofBuf, cast_eq] using h
theorem e_main_call6_v5 : Vf (Proc.devRef .tc main_call6_v5) = (broadcastInDim S4096x4096 ![] bcast_S_S4096x4096) (Vf (Proc.devRef .tc main_call6_cst) : (⟨S_, .f32⟩ : BufTy).Contents (Elt F)) :=
  by
  have h := unary_fix (fixP1_1 Vf hfix).2.2.2.2.2.2.2.1
  simpa only [TRef.toBuf, TRef.ofBuf, cast_eq] using h
theorem e_main_v68 : Vf (Proc.devRef .tc main_v68) = select (Vf (Proc.devRef .tc main_call6_v4) : (⟨S4096x4096, .i1⟩ : BufTy).Contents (Elt F)) (Vf (Proc.devRef .tc main_call6_v5) : (⟨S4096x4096, .f32⟩ : BufTy).Contents (Elt F)) (Vf (Proc.devRef .tc main_v67) : (⟨S4096x4096, .f32⟩ : BufTy).Contents (Elt F)) :=
  by
  have h := ternary_fix (fixP1_1 Vf hfix).2.2.2.2.2.2.2.2
  simpa only [TRef.toBuf, TRef.ofBuf, cast_eq] using h

theorem fixP1_2 : (opsP1_2 : List (HloOp τ sig (Elt F))).Forall (Fix Vf) :=
  List.forall_iff_forall_mem.2 fun op h => hfix op (mem_ops_of_P1 (List.mem_append_right _ (List.mem_append_right _ (List.mem_append_left _ h))))
theorem e_main_cst_4 : Vf (Proc.devRef .tc main_cst_4) = (constant S_ .f32 0x00000000#32) :=
  nullary_fix (fixP1_2 Vf hfix).1
theorem e_main_v69 : Vf (Proc.devRef .tc main_v69) = (broadcastInDim S4096x4096 ![] bcast_S_S4096x4096 : (⟨S_, .f32⟩ : BufTy).Contents (Elt F) → (⟨S4096x4096, .f32⟩ : BufTy).Contents (Elt F)) (Vf (Proc.devRef .tc main_cst_4)) :=
  unary_fix (fixP1_2 Vf hfix).2.1
theorem e_main_v70 : Vf (Proc.devRef .tc main_v70) = (cmpf .une : (⟨S4096x4096, .f32⟩ : BufTy).Contents (Elt F) → (⟨S4096x4096, .f32⟩ : BufTy).Contents (Elt F) → (⟨S4096x4096, .i1⟩ : BufTy).Contents (Elt F)) (Vf (Proc.devRef .tc main_v68)) (Vf (Proc.devRef .tc main_v69)) :=
  binary_fix (fixP1_2 Vf hfix).2.2

theorem fixP1_3 : (opsP1_3 : List (HloOp τ sig (Elt F))).Forall (Fix Vf) :=
  List.forall_iff_forall_mem.2 fun op h => hfix op (mem_ops_of_P1 (List.mem_append_right _ (List.mem_append_right _ (List.mem_append_right _ (List.mem_append_left _ h)))))
theorem e_main_call7_v0 : Vf (Proc.devRef .tc main_call7_v0) = shapeCast S16777216 (Vf (Proc.devRef .tc main_v70)) shapeCasts_S4096x4096_S16777216 :=
  (reshape_fix (fixP1_3 Vf hfix).1).trans rfl
theorem e_main_call7_v1 : Vf (Proc.devRef .tc main_call7_v1) = (extui 32 · natLt_1_32) (Vf (Proc.devRef .tc main_call7_v0) : (⟨S16777216, .i1⟩ : BufTy).Contents (Elt F)) :=
  by
  have h := unary_fix (fixP1_3 Vf hfix).2.1
  simpa only [TRef.toBuf, TRef.ofBuf, cast_eq] using h
theorem e_main_call7_call0_c : Vf (Proc.devRef .tc main_call7_call0_c) = (constantI S_ 32 0#32) :=
  by
  have h := nullary_fix (fixP1_3 Vf hfix).2.2.1
  simpa only [TRef.toBuf, TRef.ofBuf, cast_eq] using h
theorem e_main_call7_call0_v0 : Vf (Proc.devRef .tc main_call7_call0_v0) = (broadcastInDim S_ ![] bcast_S_S_) (Vf (Proc.devRef .tc main_call7_call0_c) : (⟨S_, .i32⟩ : BufTy).Contents (Elt F)) :=
  by
  have h := unary_fix (fixP1_3 Vf hfix).2.2.2.1
  simpa only [TRef.toBuf, TRef.ofBuf, cast_eq] using h
theorem e_main_v71 : Vf (Proc.devRef .tc main_v71) = (fun x v => Host.reduceWindow IntOp.addi ![16777216] ![1] ![16777215] ![0] x v reduceWindows_S16777216_S16777216_w16777216s1p16777215_0 h_S_) (Vf (Proc.devRef .tc main_call7_v1) : (⟨S16777216, .i32⟩ : BufTy).Contents (Elt F)) (Vf (Proc.devRef .tc main_call7_call0_v0) : (⟨S_, .i32⟩ : BufTy).Contents (Elt F)) :=
  by
  have h := binary_fix (fixP1_3 Vf hfix).2.2.2.2
  simpa only [TRef.toBuf, TRef.ofBuf, cast_eq] using h

theorem fixP1_4 : (opsP1_4 : List (HloOp τ sig (Elt F))).Forall (Fix Vf) :=
  List.forall_iff_forall_mem.2 fun op h => hfix op (mem_ops_of_P1 (List.mem_append_right _ (List.mem_append_right _ (List.mem_append_right _ (List.mem_append_right _ (List.mem_append_left _ h))))))
theorem e_main_c : Vf (Proc.devRef .tc main_c) = (constantI S_ 32 0#32) :=
  nullary_fix (fixP1_4 Vf hfix).1
theorem e_main_v72 : Vf (Proc.devRef .tc main_v72) = (broadcastInDim S8386560 ![] bcast_S_S8386560 : (⟨S_, .i32⟩ : BufTy).Contents (Elt F) → (⟨S8386560, .i32⟩ : BufTy).Contents (Elt F)) (Vf (Proc.devRef .tc main_c)) :=
  unary_fix (fixP1_4 Vf hfix).2.1
theorem e_main_c_5 : Vf (Proc.devRef .tc main_c_5) = (constantI S_ 32 0#32) :=
  nullary_fix (fixP1_4 Vf hfix).2.2

theorem fixP1_5 : (opsP1_5 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_left _ h)))))))
theorem e_main_call8_v0 : Vf (Proc.devRef .tc main_call8_v0) = id (Vf (Proc.devRef .tc main_c_5) : (⟨S_, .i32⟩ : BufTy).Contents (Elt F)) :=
  by
  have h := unary_fix (fixP1_5 Vf hfix).1
  simpa only [TRef.toBuf, TRef.ofBuf, cast_eq] using h
theorem e_main_call8_v1 : Vf (Proc.devRef .tc main_call8_v1) = (broadcastInDim S16777216 ![] bcast_S_S16777216) (Vf (Proc.devRef .tc main_call8_v0) : (⟨S_, .i32⟩ : BufTy).Contents (Elt F)) :=
  by
  have h := unary_fix (fixP1_5 Vf hfix).2.1
  simpa only [TRef.toBuf, TRef.ofBuf, cast_eq] using h
theorem e_main_v73 : Vf (Proc.devRef .tc main_v73) = maxsi (Vf (Proc.devRef .tc main_call8_v1) : (⟨S16777216, .i32⟩ : BufTy).Contents (Elt F)) (Vf (Proc.devRef .tc main_v71) : (⟨S16777216, .i32⟩ : BufTy).Contents (Elt F)) :=
  by
  have h := binary_fix (fixP1_5 Vf hfix).2.2
  simpa only [TRef.toBuf, TRef.ofBuf, cast_eq] using h

theorem fixP1_6 : (opsP1_6 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_left _ h))))))))
theorem e_main_c_6 : Vf (Proc.devRef .tc main_c_6) = (constantI S_ 32 0#32) :=
  nullary_fix (fixP1_6 Vf hfix).1
theorem e_main_v74 : Vf (Proc.devRef .tc main_v74) = (broadcastInDim S16777216 ![] bcast_S_S16777216 : (⟨S_, .i32⟩ : BufTy).Contents (Elt F) → (⟨S16777216, .i32⟩ : BufTy).Contents (Elt F)) (Vf (Proc.devRef .tc main_c_6)) :=
  unary_fix (fixP1_6 Vf hfix).2.1
theorem e_main_v75 : Vf (Proc.devRef .tc main_v75) = (cmpi .slt : (⟨S16777216, .i32⟩ : BufTy).Contents (Elt F) → (⟨S16777216, .i32⟩ : BufTy).Contents (Elt F) → (⟨S16777216, .i1⟩ : BufTy).Contents (Elt F)) (Vf (Proc.devRef .tc main_v73)) (Vf (Proc.devRef .tc main_v74)) :=
  binary_fix (fixP1_6 Vf hfix).2.2.1
theorem e_main_c_7 : Vf (Proc.devRef .tc main_c_7) = (constantI S_ 32 8386560#32) :=
  nullary_fix (fixP1_6 Vf hfix).2.2.2.1
theorem e_main_v76 : Vf (Proc.devRef .tc main_v76) = (broadcastInDim S16777216 ![] bcast_S_S16777216 : (⟨S_, .i32⟩ : BufTy).Contents (Elt F) → (⟨S16777216, .i32⟩ : BufTy).Contents (Elt F)) (Vf (Proc.devRef .tc main_c_7)) :=
  unary_fix (fixP1_6 Vf hfix).2.2.2.2.1
theorem e_main_v77 : Vf (Proc.devRef .tc main_v77) = (addi : (⟨S16777216, .i32⟩ : BufTy).Contents (Elt F) → (⟨S16777216, .i32⟩ : BufTy).Contents (Elt F) → (⟨S16777216, .i32⟩ : BufTy).Contents (Elt F)) (Vf (Proc.devRef .tc main_v73)) (Vf (Proc.devRef .tc main_v76)) :=
  binary_fix (fixP1_6 Vf hfix).2.2.2.2.2.1
theorem e_main_v78 : Vf (Proc.devRef .tc main_v78) = (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (Vf (Proc.devRef .tc main_v75)) (Vf (Proc.devRef .tc main_v77)) (Vf (Proc.devRef .tc main_v73)) :=
  ternary_fix (fixP1_6 Vf hfix).2.2.2.2.2.2.1
theorem e_main_v79 : Vf (Proc.devRef .tc main_v79) = (broadcastInDim S16777216x1 ![0] bcast_S16777216_S16777216x1_0 : (⟨S16777216, .i32⟩ : BufTy).Contents (Elt F) → (⟨S16777216x1, .i32⟩ : BufTy).Contents (Elt F)) (Vf (Proc.devRef .tc main_v78)) :=
  unary_fix (fixP1_6 Vf hfix).2.2.2.2.2.2.2.1
theorem e_main_c_8 : Vf (Proc.devRef .tc main_c_8) = (constantI S_ 32 1#32) :=
  nullary_fix (fixP1_6 Vf hfix).2.2.2.2.2.2.2.2.1
theorem e_main_v80 : Vf (Proc.devRef .tc main_v80) = (broadcastInDim S16777216 ![] bcast_S_S16777216 : (⟨S_, .i32⟩ : BufTy).Contents (Elt F) → (⟨S16777216, .i32⟩ : BufTy).Contents (Elt F)) (Vf (Proc.devRef .tc main_c_8)) :=
  unary_fix (fixP1_6 Vf hfix).2.2.2.2.2.2.2.2.2.1
theorem e_main_v81 : Vf (Proc.devRef .tc main_v81) = ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) (Vf (Proc.devRef .tc main_v72)) (Vf (Proc.devRef .tc main_v79)) (Vf (Proc.devRef .tc main_v80)) :=
  ternary_fix (fixP1_6 Vf hfix).2.2.2.2.2.2.2.2.2.2

theorem fixP1_7 : (opsP1_7 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_left _ h)))))))))
theorem e_main_call9_call0_c : Vf (Proc.devRef .tc main_call9_call0_c) = (constantI S_ 32 0#32) :=
  by
  have h := nullary_fix (fixP1_7 Vf hfix).1
  simpa only [TRef.toBuf, TRef.ofBuf, cast_eq] using h
theorem e_main_call9_call0_v0 : Vf (Proc.devRef .tc main_call9_call0_v0) = (broadcastInDim S_ ![] bcast_S_S_) (Vf (Proc.devRef .tc main_call9_call0_c) : (⟨S_, .i32⟩ : BufTy).Contents (Elt F)) :=
  by
  have h := unary_fix (fixP1_7 Vf hfix).2.1
  simpa only [TRef.toBuf, TRef.ofBuf, cast_eq] using h
theorem e_main_v82 : Vf (Proc.devRef .tc main_v82) = (fun x v => Host.reduceWindow IntOp.addi ![8386560] ![1] ![8386559] ![0] x v reduceWindows_S8386560_S8386560_w8386560s1p8386559_0 h_S_) (Vf (Proc.devRef .tc main_v81) : (⟨S8386560, .i32⟩ : BufTy).Contents (Elt F)) (Vf (Proc.devRef .tc main_call9_call0_v0) : (⟨S_, .i32⟩ : BufTy).Contents (Elt F)) :=
  by
  have h := binary_fix (fixP1_7 Vf hfix).2.2
  simpa only [TRef.toBuf, TRef.ofBuf, cast_eq] using h

theorem fixP1_8 : (opsP1_8 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_left _ h))))))))))
theorem e_main_c_9 : Vf (Proc.devRef .tc main_c_9) = (constantI S_ 32 4096#32) :=
  nullary_fix (fixP1_8 Vf hfix)

theorem fixP1_9 : (opsP1_9 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_left _ h)))))))))))
theorem e_main_call10_v0 : Vf (Proc.devRef .tc main_call10_v0) = (broadcastInDim S8386560 ![] bcast_S_S8386560) (Vf (Proc.devRef .tc main_c_9) : (⟨S_, .i32⟩ : BufTy).Contents (Elt F)) :=
  by
  have h := unary_fix (fixP1_9 Vf hfix).1
  simpa only [TRef.toBuf, TRef.ofBuf, cast_eq] using h
theorem e_main_call10_v1 : Vf (Proc.devRef .tc main_call10_v1) = Host.divsi (Vf (Proc.devRef .tc main_v82) : (⟨S8386560, .i32⟩ : BufTy).Contents (Elt F)) (Vf (Proc.devRef .tc main_call10_v0) : (⟨S8386560, .i32⟩ : BufTy).Contents (Elt F)) :=
  by
  have h := binary_fix (fixP1_9 Vf hfix).2.1
  simpa only [TRef.toBuf, TRef.ofBuf, cast_eq] using h
theorem e_main_call10_v2 : Vf (Proc.devRef .tc main_call10_v2) = signi (Vf (Proc.devRef .tc main_v82) : (⟨S8386560, .i32⟩ : BufTy).Contents (Elt F)) :=
  by
  have h := unary_fix (fixP1_9 Vf hfix).2.2.1
  simpa only [TRef.toBuf, TRef.ofBuf, cast_eq] using h
theorem e_main_call10_v3 : Vf (Proc.devRef .tc main_call10_v3) = signi (Vf (Proc.devRef .tc main_c_9) : (⟨S_, .i32⟩ : BufTy).Contents (Elt F)) :=
  by
  have h := unary_fix (fixP1_9 Vf hfix).2.2.2.1
  simpa only [TRef.toBuf, TRef.ofBuf, cast_eq] using h
theorem e_main_call10_v4 : Vf (Proc.devRef .tc main_call10_v4) = (broadcastInDim S8386560 ![] bcast_S_S8386560) (Vf (Proc.devRef .tc main_call10_v3) : (⟨S_, .i32⟩ : BufTy).Contents (Elt F)) :=
  by
  have h := unary_fix (fixP1_9 Vf hfix).2.2.2.2.1
  simpa only [TRef.toBuf, TRef.ofBuf, cast_eq] using h
theorem e_main_call10_v5 : Vf (Proc.devRef .tc main_call10_v5) = (cmpi .ne) (Vf (Proc.devRef .tc main_call10_v2) : (⟨S8386560, .i32⟩ : BufTy).Contents (Elt F)) (Vf (Proc.devRef .tc main_call10_v4) : (⟨S8386560, .i32⟩ : BufTy).Contents (Elt F)) :=
  by
  have h := binary_fix (fixP1_9 Vf hfix).2.2.2.2.2.1
  simpa only [TRef.toBuf, TRef.ofBuf, cast_eq] using h
theorem e_main_call10_v6 : Vf (Proc.devRef .tc main_call10_v6) = (broadcastInDim S8386560 ![] bcast_S_S8386560) (Vf (Proc.devRef .tc main_c_9) : (⟨S_, .i32⟩ : BufTy).Contents (Elt F)) :=
  by
  have h := unary_fix (fixP1_9 Vf hfix).2.2.2.2.2.2.1
  simpa only [TRef.toBuf, TRef.ofBuf, cast_eq] using h
theorem e_main_call10_v7 : Vf (Proc.devRef .tc main_call10_v7) = Host.remsi (Vf (Proc.devRef .tc main_v82) : (⟨S8386560, .i32⟩ : BufTy).Contents (Elt F)) (Vf (Proc.devRef .tc main_call10_v6) : (⟨S8386560, .i32⟩ : BufTy).Contents (Elt F)) :=
  by
  have h := binary_fix (fixP1_9 Vf hfix).2.2.2.2.2.2.2.1
  simpa only [TRef.toBuf, TRef.ofBuf, cast_eq] using h
theorem e_main_call10_c : Vf (Proc.devRef .tc main_call10_c) = (constantI S_ 32 0#32) :=
  by
  have h := nullary_fix (fixP1_9 Vf hfix).2.2.2.2.2.2.2.2.1
  simpa only [TRef.toBuf, TRef.ofBuf, cast_eq] using h
theorem e_main_call10_v8 : Vf (Proc.devRef .tc main_call10_v8) = (broadcastInDim S8386560 ![] bcast_S_S8386560) (Vf (Proc.devRef .tc main_call10_c) : (⟨S_, .i32⟩ : BufTy).Contents (Elt F)) :=
  by
  have h := unary_fix (fixP1_9 Vf hfix).2.2.2.2.2.2.2.2.2.1
  simpa only [TRef.toBuf, TRef.ofBuf, cast_eq] using h
theorem e_main_call10_v9 : Vf (Proc.devRef .tc main_call10_v9) = (cmpi .ne) (Vf (Proc.devRef .tc main_call10_v7) : (⟨S8386560, .i32⟩ : BufTy).Contents (Elt F)) (Vf (Proc.devRef .tc main_call10_v8) : (⟨S8386560, .i32⟩ : BufTy).Contents (Elt F)) :=
  by
  have h := binary_fix (fixP1_9 Vf hfix).2.2.2.2.2.2.2.2.2.2.1
  simpa only [TRef.toBuf, TRef.ofBuf, cast_eq] using h
theorem e_main_call10_v10 : Vf (Proc.devRef .tc main_call10_v10) = andi (Vf (Proc.devRef .tc main_call10_v5) : (⟨S8386560, .i1⟩ : BufTy).Contents (Elt F)) (Vf (Proc.devRef .tc main_call10_v9) : (⟨S8386560, .i1⟩ : BufTy).Contents (Elt F)) :=
  by
  have h := binary_fix (fixP1_9 Vf hfix).2.2.2.2.2.2.2.2.2.2.2.1
  simpa only [TRef.toBuf, TRef.ofBuf, cast_eq] using h
theorem e_main_call10_c_0 : Vf (Proc.devRef .tc main_call10_c_0) = (constantI S_ 32 1#32) :=
  by
  have h := nullary_fix (fixP1_9 Vf hfix).2.2.2.2.2.2.2.2.2.2.2.2.1
  simpa only [TRef.toBuf, TRef.ofBuf, cast_eq] using h
theorem e_main_call10_v11 : Vf (Proc.devRef .tc main_call10_v11) = (broadcastInDim S8386560 ![] bcast_S_S8386560) (Vf (Proc.devRef .tc main_call10_c_0) : (⟨S_, .i32⟩ : BufTy).Contents (Elt F)) :=
  by
  have h := unary_fix (fixP1_9 Vf hfix).2.2.2.2.2.2.2.2.2.2.2.2.2.1
  simpa only [TRef.toBuf, TRef.ofBuf, cast_eq] using h
theorem e_main_call10_v12 : Vf (Proc.devRef .tc main_call10_v12) = subi (Vf (Proc.devRef .tc main_call10_v1) : (⟨S8386560, .i32⟩ : BufTy).Contents (Elt F)) (Vf (Proc.devRef .tc main_call10_v11) : (⟨S8386560, .i32⟩ : BufTy).Contents (Elt F)) :=
  by
  have h := binary_fix (fixP1_9 Vf hfix).2.2.2.2.2.2.2.2.2.2.2.2.2.2.1
  simpa only [TRef.toBuf, TRef.ofBuf, cast_eq] using h
theorem e_main_v83 : Vf (Proc.devRef .tc main_v83) = select (Vf (Proc.devRef .tc main_call10_v10) : (⟨S8386560, .i1⟩ : BufTy).Contents (Elt F)) (Vf (Proc.devRef .tc main_call10_v12) : (⟨S8386560, .i32⟩ : BufTy).Contents (Elt F)) (Vf (Proc.devRef .tc main_call10_v1) : (⟨S8386560, .i32⟩ : BufTy).Contents (Elt F)) :=
  by
  have h := ternary_fix (fixP1_9 Vf hfix).2.2.2.2.2.2.2.2.2.2.2.2.2.2.2
  simpa only [TRef.toBuf, TRef.ofBuf, cast_eq] using h

theorem fixP1_10 : (opsP1_10 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))
theorem e_main_c_10 : Vf (Proc.devRef .tc main_c_10) = (constantI S_ 32 4096#32) :=
  nullary_fix (fixP1_10 Vf hfix)

theorem fixP1_11 : (opsP1_11 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))
theorem e_main_call11_v0 : Vf (Proc.devRef .tc main_call11_v0) = id (Vf (Proc.devRef .tc main_c_10) : (⟨S_, .i32⟩ : BufTy).Contents (Elt F)) :=
  by
  have h := unary_fix (fixP1_11 Vf hfix).1
  simpa only [TRef.toBuf, TRef.ofBuf, cast_eq] using h
theorem e_main_call11_c : Vf (Proc.devRef .tc main_call11_c) = (constantI S_ 32 0#32) :=
  by
  have h := nullary_fix (fixP1_11 Vf hfix).2.1
  simpa only [TRef.toBuf, TRef.ofBuf, cast_eq] using h
theorem e_main_call11_v1 : Vf (Proc.devRef .tc main_call11_v1) = (cmpi .eq) (Vf (Proc.devRef .tc main_call11_v0) : (⟨S_, .i32⟩ : BufTy).Contents (Elt F)) (Vf (Proc.devRef .tc main_call11_c) : (⟨S_, .i32⟩ : BufTy).Contents (Elt F)) :=
  by
  have h := binary_fix (fixP1_11 Vf hfix).2.2.1
  simpa only [TRef.toBuf, TRef.ofBuf, cast_eq] using h
theorem e_main_call11_c_0 : Vf (Proc.devRef .tc main_call11_c_0) = (constantI S_ 32 1#32) :=
  by
  have h := nullary_fix (fixP1_11 Vf hfix).2.2.2.1
  simpa only [TRef.toBuf, TRef.ofBuf, cast_eq] using h
theorem e_main_call11_v2 : Vf (Proc.devRef .tc main_call11_v2) = select (Vf (Proc.devRef .tc main_call11_v1) : (⟨S_, .i1⟩ : BufTy).Contents (Elt F)) (Vf (Proc.devRef .tc main_call11_c_0) : (⟨S_, .i32⟩ : BufTy).Contents (Elt F)) (Vf (Proc.devRef .tc main_call11_v0) : (⟨S_, .i32⟩ : BufTy).Contents (Elt F)) :=
  by
  have h := ternary_fix (fixP1_11 Vf hfix).2.2.2.2.1
  simpa only [TRef.toBuf, TRef.ofBuf, cast_eq] using h
theorem e_main_call11_v3 : Vf (Proc.devRef .tc main_call11_v3) = (broadcastInDim S8386560 ![] bcast_S_S8386560) (Vf (Proc.devRef .tc main_call11_v2) : (⟨S_, .i32⟩ : BufTy).Contents (Elt F)) :=
  by
  have h := unary_fix (fixP1_11 Vf hfix).2.2.2.2.2.1
  simpa only [TRef.toBuf, TRef.ofBuf, cast_eq] using h
theorem e_main_call11_v4 : Vf (Proc.devRef .tc main_call11_v4) = Host.remsi (Vf (Proc.devRef .tc main_v83) : (⟨S8386560, .i32⟩ : BufTy).Contents (Elt F)) (Vf (Proc.devRef .tc main_call11_v3) : (⟨S8386560, .i32⟩ : BufTy).Contents (Elt F)) :=
  by
  have h := binary_fix (fixP1_11 Vf hfix).2.2.2.2.2.2.1
  simpa only [TRef.toBuf, TRef.ofBuf, cast_eq] using h
theorem e_main_call11_c_1 : Vf (Proc.devRef .tc main_call11_c_1) = (constantI S_ 32 0#32) :=
  by
  have h := nullary_fix (fixP1_11 Vf hfix).2.2.2.2.2.2.2.1
  simpa only [TRef.toBuf, TRef.ofBuf, cast_eq] using h
theorem e_main_call11_v5 : Vf (Proc.devRef .tc main_call11_v5) = (broadcastInDim S8386560 ![] bcast_S_S8386560) (Vf (Proc.devRef .tc main_call11_c_1) : (⟨S_, .i32⟩ : BufTy).Contents (Elt F)) :=
  by
  have h := unary_fix (fixP1_11 Vf hfix).2.2.2.2.2.2.2.2.1
  simpa only [TRef.toBuf, TRef.ofBuf, cast_eq] using h
theorem e_main_call11_v6 : Vf (Proc.devRef .tc main_call11_v6) = (cmpi .ne) (Vf (Proc.devRef .tc main_call11_v4) : (⟨S8386560, .i32⟩ : BufTy).Contents (Elt F)) (Vf (Proc.devRef .tc main_call11_v5) : (⟨S8386560, .i32⟩ : BufTy).Contents (Elt F)) :=
  by
  have h := binary_fix (fixP1_11 Vf hfix).2.2.2.2.2.2.2.2.2.1
  simpa only [TRef.toBuf, TRef.ofBuf, cast_eq] using h
theorem e_main_call11_c_2 : Vf (Proc.devRef .tc main_call11_c_2) = (constantI S_ 32 0#32) :=
  by
  have h := nullary_fix (fixP1_11 Vf hfix).2.2.2.2.2.2.2.2.2.2.1
  simpa only [TRef.toBuf, TRef.ofBuf, cast_eq] using h
theorem e_main_call11_v7 : Vf (Proc.devRef .tc main_call11_v7) = (broadcastInDim S8386560 ![] bcast_S_S8386560) (Vf (Proc.devRef .tc main_call11_c_2) : (⟨S_, .i32⟩ : BufTy).Contents (Elt F)) :=
  by
  have h := unary_fix (fixP1_11 Vf hfix).2.2.2.2.2.2.2.2.2.2.2.1
  simpa only [TRef.toBuf, TRef.ofBuf, cast_eq] using h
theorem e_main_call11_v8 : Vf (Proc.devRef .tc main_call11_v8) = (cmpi .slt) (Vf (Proc.devRef .tc main_call11_v4) : (⟨S8386560, .i32⟩ : BufTy).Contents (Elt F)) (Vf (Proc.devRef .tc main_call11_v7) : (⟨S8386560, .i32⟩ : BufTy).Contents (Elt F)) :=
  by
  have h := binary_fix (fixP1_11 Vf hfix).2.2.2.2.2.2.2.2.2.2.2.2.1
  simpa only [TRef.toBuf, TRef.ofBuf, cast_eq] using h
theorem e_main_call11_c_3 : Vf (Proc.devRef .tc main_call11_c_3) = (constantI S_ 32 0#32) :=
  by
  have h := nullary_fix (fixP1_11 Vf hfix).2.2.2.2.2.2.2.2.2.2.2.2.2.1
  simpa only [TRef.toBuf, TRef.ofBuf, cast_eq] using h
theorem e_main_call11_v9 : Vf (Proc.devRef .tc main_call11_v9) = (cmpi .slt) (Vf (Proc.devRef .tc main_call11_v2) : (⟨S_, .i32⟩ : BufTy).Contents (Elt F)) (Vf (Proc.devRef .tc main_call11_c_3) : (⟨S_, .i32⟩ : BufTy).Contents (Elt F)) :=
  by
  have h := binary_fix (fixP1_11 Vf hfix).2.2.2.2.2.2.2.2.2.2.2.2.2.2.1
  simpa only [TRef.toBuf, TRef.ofBuf, cast_eq] using h
theorem e_main_call11_v10 : Vf (Proc.devRef .tc main_call11_v10) = (broadcastInDim S8386560 ![] bcast_S_S8386560) (Vf (Proc.devRef .tc main_call11_v9) : (⟨S_, .i1⟩ : BufTy).Contents (Elt F)) :=
  by
  have h := unary_fix (fixP1_11 Vf hfix).2.2.2.2.2.2.2.2.2.2.2.2.2.2.2.1
  simpa only [TRef.toBuf, TRef.ofBuf, cast_eq] using h
theorem e_main_call11_v11 : Vf (Proc.devRef .tc main_call11_v11) = (cmpi .ne) (Vf (Proc.devRef .tc main_call11_v8) : (⟨S8386560, .i1⟩ : BufTy).Contents (Elt F)) (Vf (Proc.devRef .tc main_call11_v10) : (⟨S8386560, .i1⟩ : BufTy).Contents (Elt F)) :=
  by
  have h := binary_fix (fixP1_11 Vf hfix).2.2.2.2.2.2.2.2.2.2.2.2.2.2.2.2.1
  simpa only [TRef.toBuf, TRef.ofBuf, cast_eq] using h
theorem e_main_call11_v12 : Vf (Proc.devRef .tc main_call11_v12) = andi (Vf (Proc.devRef .tc main_call11_v11) : (⟨S8386560, .i1⟩ : BufTy).Contents (Elt F)) (Vf (Proc.devRef .tc main_call11_v6) : (⟨S8386560, .i1⟩ : BufTy).Contents (Elt F)) :=
  by
  have h := binary_fix (fixP1_11 Vf hfix).2.2.2.2.2.2.2.2.2.2.2.2.2.2.2.2.2.1
  simpa only [TRef.toBuf, TRef.ofBuf, cast_eq] using h
theorem e_main_call11_v13 : Vf (Proc.devRef .tc main_call11_v13) = (broadcastInDim S8386560 ![] bcast_S_S8386560) (Vf (Proc.devRef .tc main_call11_v2) : (⟨S_, .i32⟩ : BufTy).Contents (Elt F)) :=
  by
  have h := unary_fix (fixP1_11 Vf hfix).2.2.2.2.2.2.2.2.2.2.2.2.2.2.2.2.2.2.1
  simpa only [TRef.toBuf, TRef.ofBuf, cast_eq] using h
theorem e_main_call11_v14 : Vf (Proc.devRef .tc main_call11_v14) = addi (Vf (Proc.devRef .tc main_call11_v4) : (⟨S8386560, .i32⟩ : BufTy).Contents (Elt F)) (Vf (Proc.devRef .tc main_call11_v13) : (⟨S8386560, .i32⟩ : BufTy).Contents (Elt F)) :=
  by
  have h := binary_fix (fixP1_11 Vf hfix).2.2.2.2.2.2.2.2.2.2.2.2.2.2.2.2.2.2.2.1
  simpa only [TRef.toBuf, TRef.ofBuf, cast_eq] using h
theorem e_main_v84 : Vf (Proc.devRef .tc main_v84) = select (Vf (Proc.devRef .tc main_call11_v12) : (⟨S8386560, .i1⟩ : BufTy).Contents (Elt F)) (Vf (Proc.devRef .tc main_call11_v14) : (⟨S8386560, .i32⟩ : BufTy).Contents (Elt F)) (Vf (Proc.devRef .tc main_call11_v4) : (⟨S8386560, .i32⟩ : BufTy).Contents (Elt F)) :=
  by
  have h := ternary_fix (fixP1_11 Vf hfix).2.2.2.2.2.2.2.2.2.2.2.2.2.2.2.2.2.2.2.2
  simpa only [TRef.toBuf, TRef.ofBuf, cast_eq] using h

theorem fixP1_12 : (opsP1_12 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))
theorem e_main_c_11 : Vf (Proc.devRef .tc main_c_11) = (constantI S_ 32 1#32) :=
  nullary_fix (fixP1_12 Vf hfix)

theorem fixP1_13 : (opsP1_13 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))
theorem e_main_call12_v0 : Vf (Proc.devRef .tc main_call12_v0) = (broadcastInDim S8386560 ![] bcast_S_S8386560) (Vf (Proc.devRef .tc main_c_11) : (⟨S_, .i32⟩ : BufTy).Contents (Elt F)) :=
  by
  have h := unary_fix (fixP1_13 Vf hfix).1
  simpa only [TRef.toBuf, TRef.ofBuf, cast_eq] using h
theorem e_main_call12_v1 : Vf (Proc.devRef .tc main_call12_v1) = Host.divsi (Vf (Proc.devRef .tc main_v82) : (⟨S8386560, .i32⟩ : BufTy).Contents (Elt F)) (Vf (Proc.devRef .tc main_call12_v0) : (⟨S8386560, .i32⟩ : BufTy).Contents (Elt F)) :=
  by
  have h := binary_fix (fixP1_13 Vf hfix).2.1
  simpa only [TRef.toBuf, TRef.ofBuf, cast_eq] using h
theorem e_main_call12_v2 : Vf (Proc.devRef .tc main_call12_v2) = signi (Vf (Proc.devRef .tc main_v82) : (⟨S8386560, .i32⟩ : BufTy).Contents (Elt F)) :=
  by
  have h := unary_fix (fixP1_13 Vf hfix).2.2.1
  simpa only [TRef.toBuf, TRef.ofBuf, cast_eq] using h
theorem e_main_call12_v3 : Vf (Proc.devRef .tc main_call12_v3) = signi (Vf (Proc.devRef .tc main_c_11) : (⟨S_, .i32⟩ : BufTy).Contents (Elt F)) :=
  by
  have h := unary_fix (fixP1_13 Vf hfix).2.2.2.1
  simpa only [TRef.toBuf, TRef.ofBuf, cast_eq] using h
theorem e_main_call12_v4 : Vf (Proc.devRef .tc main_call12_v4) = (broadcastInDim S8386560 ![] bcast_S_S8386560) (Vf (Proc.devRef .tc main_call12_v3) : (⟨S_, .i32⟩ : BufTy).Contents (Elt F)) :=
  by
  have h := unary_fix (fixP1_13 Vf hfix).2.2.2.2.1
  simpa only [TRef.toBuf, TRef.ofBuf, cast_eq] using h
theorem e_main_call12_v5 : Vf (Proc.devRef .tc main_call12_v5) = (cmpi .ne) (Vf (Proc.devRef .tc main_call12_v2) : (⟨S8386560, .i32⟩ : BufTy).Contents (Elt F)) (Vf (Proc.devRef .tc main_call12_v4) : (⟨S8386560, .i32⟩ : BufTy).Contents (Elt F)) :=
  by
  have h := binary_fix (fixP1_13 Vf hfix).2.2.2.2.2.1
  simpa only [TRef.toBuf, TRef.ofBuf, cast_eq] using h
theorem e_main_call12_v6 : Vf (Proc.devRef .tc main_call12_v6) = (broadcastInDim S8386560 ![] bcast_S_S8386560) (Vf (Proc.devRef .tc main_c_11) : (⟨S_, .i32⟩ : BufTy).Contents (Elt F)) :=
  by
  have h := unary_fix (fixP1_13 Vf hfix).2.2.2.2.2.2.1
  simpa only [TRef.toBuf, TRef.ofBuf, cast_eq] using h
theorem e_main_call12_v7 : Vf (Proc.devRef .tc main_call12_v7) = Host.remsi (Vf (Proc.devRef .tc main_v82) : (⟨S8386560, .i32⟩ : BufTy).Contents (Elt F)) (Vf (Proc.devRef .tc main_call12_v6) : (⟨S8386560, .i32⟩ : BufTy).Contents (Elt F)) :=
  by
  have h := binary_fix (fixP1_13 Vf hfix).2.2.2.2.2.2.2.1
  simpa only [TRef.toBuf, TRef.ofBuf, cast_eq] using h
theorem e_main_call12_c : Vf (Proc.devRef .tc main_call12_c) = (constantI S_ 32 0#32) :=
  by
  have h := nullary_fix (fixP1_13 Vf hfix).2.2.2.2.2.2.2.2.1
  simpa only [TRef.toBuf, TRef.ofBuf, cast_eq] using h
theorem e_main_call12_v8 : Vf (Proc.devRef .tc main_call12_v8) = (broadcastInDim S8386560 ![] bcast_S_S8386560) (Vf (Proc.devRef .tc main_call12_c) : (⟨S_, .i32⟩ : BufTy).Contents (Elt F)) :=
  by
  have h := unary_fix (fixP1_13 Vf hfix).2.2.2.2.2.2.2.2.2.1
  simpa only [TRef.toBuf, TRef.ofBuf, cast_eq] using h
theorem e_main_call12_v9 : Vf (Proc.devRef .tc main_call12_v9) = (cmpi .ne) (Vf (Proc.devRef .tc main_call12_v7) : (⟨S8386560, .i32⟩ : BufTy).Contents (Elt F)) (Vf (Proc.devRef .tc main_call12_v8) : (⟨S8386560, .i32⟩ : BufTy).Contents (Elt F)) :=
  by
  have h := binary_fix (fixP1_13 Vf hfix).2.2.2.2.2.2.2.2.2.2.1
  simpa only [TRef.toBuf, TRef.ofBuf, cast_eq] using h
theorem e_main_call12_v10 : Vf (Proc.devRef .tc main_call12_v10) = andi (Vf (Proc.devRef .tc main_call12_v5) : (⟨S8386560, .i1⟩ : BufTy).Contents (Elt F)) (Vf (Proc.devRef .tc main_call12_v9) : (⟨S8386560, .i1⟩ : BufTy).Contents (Elt F)) :=
  by
  have h := binary_fix (fixP1_13 Vf hfix).2.2.2.2.2.2.2.2.2.2.2.1
  simpa only [TRef.toBuf, TRef.ofBuf, cast_eq] using h
theorem e_main_call12_c_0 : Vf (Proc.devRef .tc main_call12_c_0) = (constantI S_ 32 1#32) :=
  by
  have h := nullary_fix (fixP1_13 Vf hfix).2.2.2.2.2.2.2.2.2.2.2.2.1
  simpa only [TRef.toBuf, TRef.ofBuf, cast_eq] using h
theorem e_main_call12_v11 : Vf (Proc.devRef .tc main_call12_v11) = (broadcastInDim S8386560 ![] bcast_S_S8386560) (Vf (Proc.devRef .tc main_call12_c_0) : (⟨S_, .i32⟩ : BufTy).Contents (Elt F)) :=
  by
  have h := unary_fix (fixP1_13 Vf hfix).2.2.2.2.2.2.2.2.2.2.2.2.2.1
  simpa only [TRef.toBuf, TRef.ofBuf, cast_eq] using h
theorem e_main_call12_v12 : Vf (Proc.devRef .tc main_call12_v12) = subi (Vf (Proc.devRef .tc main_call12_v1) : (⟨S8386560, .i32⟩ : BufTy).Contents (Elt F)) (Vf (Proc.devRef .tc main_call12_v11) : (⟨S8386560, .i32⟩ : BufTy).Contents (Elt F)) :=
  by
  have h := binary_fix (fixP1_13 Vf hfix).2.2.2.2.2.2.2.2.2.2.2.2.2.2.1
  simpa only [TRef.toBuf, TRef.ofBuf, cast_eq] using h
theorem e_main_v85 : Vf (Proc.devRef .tc main_v85) = select (Vf (Proc.devRef .tc main_call12_v10) : (⟨S8386560, .i1⟩ : BufTy).Contents (Elt F)) (Vf (Proc.devRef .tc main_call12_v12) : (⟨S8386560, .i32⟩ : BufTy).Contents (Elt F)) (Vf (Proc.devRef .tc main_call12_v1) : (⟨S8386560, .i32⟩ : BufTy).Contents (Elt F)) :=
  by
  have h := ternary_fix (fixP1_13 Vf hfix).2.2.2.2.2.2.2.2.2.2.2.2.2.2.2
  simpa only [TRef.toBuf, TRef.ofBuf, cast_eq] using h

theorem fixP1_14 : (opsP1_14 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))
theorem e_main_c_12 : Vf (Proc.devRef .tc main_c_12) = (constantI S_ 32 4096#32) :=
  nullary_fix (fixP1_14 Vf hfix)

theorem fixP1_15 : (opsP1_15 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))
theorem e_main_call13_v0 : Vf (Proc.devRef .tc main_call13_v0) = id (Vf (Proc.devRef .tc main_c_12) : (⟨S_, .i32⟩ : BufTy).Contents (Elt F)) :=
  by
  have h := unary_fix (fixP1_15 Vf hfix).1
  simpa only [TRef.toBuf, TRef.ofBuf, cast_eq] using h
theorem e_main_call13_c : Vf (Proc.devRef .tc main_call13_c) = (constantI S_ 32 0#32) :=
  by
  have h := nullary_fix (fixP1_15 Vf hfix).2.1
  simpa only [TRef.toBuf, TRef.ofBuf, cast_eq] using h
theorem e_main_call13_v1 : Vf (Proc.devRef .tc main_call13_v1) = (cmpi .eq) (Vf (Proc.devRef .tc main_call13_v0) : (⟨S_, .i32⟩ : BufTy).Contents (Elt F)) (Vf (Proc.devRef .tc main_call13_c) : (⟨S_, .i32⟩ : BufTy).Contents (Elt F)) :=
  by
  have h := binary_fix (fixP1_15 Vf hfix).2.2.1
  simpa only [TRef.toBuf, TRef.ofBuf, cast_eq] using h
theorem e_main_call13_c_0 : Vf (Proc.devRef .tc main_call13_c_0) = (constantI S_ 32 1#32) :=
  by
  have h := nullary_fix (fixP1_15 Vf hfix).2.2.2.1
  simpa only [TRef.toBuf, TRef.ofBuf, cast_eq] using h
theorem e_main_call13_v2 : Vf (Proc.devRef .tc main_call13_v2) = select (Vf (Proc.devRef .tc main_call13_v1) : (⟨S_, .i1⟩ : BufTy).Contents (Elt F)) (Vf (Proc.devRef .tc main_call13_c_0) : (⟨S_, .i32⟩ : BufTy).Contents (Elt F)) (Vf (Proc.devRef .tc main_call13_v0) : (⟨S_, .i32⟩ : BufTy).Contents (Elt F)) :=
  by
  have h := ternary_fix (fixP1_15 Vf hfix).2.2.2.2.1
  simpa only [TRef.toBuf, TRef.ofBuf, cast_eq] using h
theorem e_main_call13_v3 : Vf (Proc.devRef .tc main_call13_v3) = (broadcastInDim S8386560 ![] bcast_S_S8386560) (Vf (Proc.devRef .tc main_call13_v2) : (⟨S_, .i32⟩ : BufTy).Contents (Elt F)) :=
  by
  have h := unary_fix (fixP1_15 Vf hfix).2.2.2.2.2.1
  simpa only [TRef.toBuf, TRef.ofBuf, cast_eq] using h
theorem e_main_call13_v4 : Vf (Proc.devRef .tc main_call13_v4) = Host.remsi (Vf (Proc.devRef .tc main_v85) : (⟨S8386560, .i32⟩ : BufTy).Contents (Elt F)) (Vf (Proc.devRef .tc main_call13_v3) : (⟨S8386560, .i32⟩ : BufTy).Contents (Elt F)) :=
  by
  have h := binary_fix (fixP1_15 Vf hfix).2.2.2.2.2.2.1
  simpa only [TRef.toBuf, TRef.ofBuf, cast_eq] using h
theorem e_main_call13_c_1 : Vf (Proc.devRef .tc main_call13_c_1) = (constantI S_ 32 0#32) :=
  by
  have h := nullary_fix (fixP1_15 Vf hfix).2.2.2.2.2.2.2.1
  simpa only [TRef.toBuf, TRef.ofBuf, cast_eq] using h
theorem e_main_call13_v5 : Vf (Proc.devRef .tc main_call13_v5) = (broadcastInDim S8386560 ![] bcast_S_S8386560) (Vf (Proc.devRef .tc main_call13_c_1) : (⟨S_, .i32⟩ : BufTy).Contents (Elt F)) :=
  by
  have h := unary_fix (fixP1_15 Vf hfix).2.2.2.2.2.2.2.2.1
  simpa only [TRef.toBuf, TRef.ofBuf, cast_eq] using h
theorem e_main_call13_v6 : Vf (Proc.devRef .tc main_call13_v6) = (cmpi .ne) (Vf (Proc.devRef .tc main_call13_v4) : (⟨S8386560, .i32⟩ : BufTy).Contents (Elt F)) (Vf (Proc.devRef .tc main_call13_v5) : (⟨S8386560, .i32⟩ : BufTy).Contents (Elt F)) :=
  by
  have h := binary_fix (fixP1_15 Vf hfix).2.2.2.2.2.2.2.2.2.1
  simpa only [TRef.toBuf, TRef.ofBuf, cast_eq] using h
theorem e_main_call13_c_2 : Vf (Proc.devRef .tc main_call13_c_2) = (constantI S_ 32 0#32) :=
  by
  have h := nullary_fix (fixP1_15 Vf hfix).2.2.2.2.2.2.2.2.2.2.1
  simpa only [TRef.toBuf, TRef.ofBuf, cast_eq] using h
theorem e_main_call13_v7 : Vf (Proc.devRef .tc main_call13_v7) = (broadcastInDim S8386560 ![] bcast_S_S8386560) (Vf (Proc.devRef .tc main_call13_c_2) : (⟨S_, .i32⟩ : BufTy).Contents (Elt F)) :=
  by
  have h := unary_fix (fixP1_15 Vf hfix).2.2.2.2.2.2.2.2.2.2.2.1
  simpa only [TRef.toBuf, TRef.ofBuf, cast_eq] using h
theorem e_main_call13_v8 : Vf (Proc.devRef .tc main_call13_v8) = (cmpi .slt) (Vf (Proc.devRef .tc main_call13_v4) : (⟨S8386560, .i32⟩ : BufTy).Contents (Elt F)) (Vf (Proc.devRef .tc main_call13_v7) : (⟨S8386560, .i32⟩ : BufTy).Contents (Elt F)) :=
  by
  have h := binary_fix (fixP1_15 Vf hfix).2.2.2.2.2.2.2.2.2.2.2.2.1
  simpa only [TRef.toBuf, TRef.ofBuf, cast_eq] using h
theorem e_main_call13_c_3 : Vf (Proc.devRef .tc main_call13_c_3) = (constantI S_ 32 0#32) :=
  by
  have h := nullary_fix (fixP1_15 Vf hfix).2.2.2.2.2.2.2.2.2.2.2.2.2.1
  simpa only [TRef.toBuf, TRef.ofBuf, cast_eq] using h
theorem e_main_call13_v9 : Vf (Proc.devRef .tc main_call13_v9) = (cmpi .slt) (Vf (Proc.devRef .tc main_call13_v2) : (⟨S_, .i32⟩ : BufTy).Contents (Elt F)) (Vf (Proc.devRef .tc main_call13_c_3) : (⟨S_, .i32⟩ : BufTy).Contents (Elt F)) :=
  by
  have h := binary_fix (fixP1_15 Vf hfix).2.2.2.2.2.2.2.2.2.2.2.2.2.2.1
  simpa only [TRef.toBuf, TRef.ofBuf, cast_eq] using h
theorem e_main_call13_v10 : Vf (Proc.devRef .tc main_call13_v10) = (broadcastInDim S8386560 ![] bcast_S_S8386560) (Vf (Proc.devRef .tc main_call13_v9) : (⟨S_, .i1⟩ : BufTy).Contents (Elt F)) :=
  by
  have h := unary_fix (fixP1_15 Vf hfix).2.2.2.2.2.2.2.2.2.2.2.2.2.2.2.1
  simpa only [TRef.toBuf, TRef.ofBuf, cast_eq] using h
theorem e_main_call13_v11 : Vf (Proc.devRef .tc main_call13_v11) = (cmpi .ne) (Vf (Proc.devRef .tc main_call13_v8) : (⟨S8386560, .i1⟩ : BufTy).Contents (Elt F)) (Vf (Proc.devRef .tc main_call13_v10) : (⟨S8386560, .i1⟩ : BufTy).Contents (Elt F)) :=
  by
  have h := binary_fix (fixP1_15 Vf hfix).2.2.2.2.2.2.2.2.2.2.2.2.2.2.2.2.1
  simpa only [TRef.toBuf, TRef.ofBuf, cast_eq] using h
theorem e_main_call13_v12 : Vf (Proc.devRef .tc main_call13_v12) = andi (Vf (Proc.devRef .tc main_call13_v11) : (⟨S8386560, .i1⟩ : BufTy).Contents (Elt F)) (Vf (Proc.devRef .tc main_call13_v6) : (⟨S8386560, .i1⟩ : BufTy).Contents (Elt F)) :=
  by
  have h := binary_fix (fixP1_15 Vf hfix).2.2.2.2.2.2.2.2.2.2.2.2.2.2.2.2.2.1
  simpa only [TRef.toBuf, TRef.ofBuf, cast_eq] using h
theorem e_main_call13_v13 : Vf (Proc.devRef .tc main_call13_v13) = (broadcastInDim S8386560 ![] bcast_S_S8386560) (Vf (Proc.devRef .tc main_call13_v2) : (⟨S_, .i32⟩ : BufTy).Contents (Elt F)) :=
  by
  have h := unary_fix (fixP1_15 Vf hfix).2.2.2.2.2.2.2.2.2.2.2.2.2.2.2.2.2.2.1
  simpa only [TRef.toBuf, TRef.ofBuf, cast_eq] using h
theorem e_main_call13_v14 : Vf (Proc.devRef .tc main_call13_v14) = addi (Vf (Proc.devRef .tc main_call13_v4) : (⟨S8386560, .i32⟩ : BufTy).Contents (Elt F)) (Vf (Proc.devRef .tc main_call13_v13) : (⟨S8386560, .i32⟩ : BufTy).Contents (Elt F)) :=
  by
  have h := binary_fix (fixP1_15 Vf hfix).2.2.2.2.2.2.2.2.2.2.2.2.2.2.2.2.2.2.2.1
  simpa only [TRef.toBuf, TRef.ofBuf, cast_eq] using h
theorem e_main_v86 : Vf (Proc.devRef .tc main_v86) = select (Vf (Proc.devRef .tc main_call13_v12) : (⟨S8386560, .i1⟩ : BufTy).Contents (Elt F)) (Vf (Proc.devRef .tc main_call13_v14) : (⟨S8386560, .i32⟩ : BufTy).Contents (Elt F)) (Vf (Proc.devRef .tc main_call13_v4) : (⟨S8386560, .i32⟩ : BufTy).Contents (Elt F)) :=
  by
  have h := ternary_fix (fixP1_15 Vf hfix).2.2.2.2.2.2.2.2.2.2.2.2.2.2.2.2.2.2.2.2
  simpa only [TRef.toBuf, TRef.ofBuf, cast_eq] using h

theorem fixP1_16 : (opsP1_16 : List (HloOp τ sig (Elt F))).Forall (Fix Vf) :=
  List.forall_iff_forall_mem.2 fun op h => hfix op (mem_ops_of_P1 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))))))))
theorem e_main_c_13 : Vf (Proc.devRef .tc main_c_13) = (constantI S_ 32 0#32) :=
  nullary_fix (fixP1_16 Vf hfix).1
theorem e_main_v87 : Vf (Proc.devRef .tc main_v87) = (broadcastInDim S8386560 ![] bcast_S_S8386560 : (⟨S_, .i32⟩ : BufTy).Contents (Elt F) → (⟨S8386560, .i32⟩ : BufTy).Contents (Elt F)) (Vf (Proc.devRef .tc main_c_13)) :=
  unary_fix (fixP1_16 Vf hfix).2.1
theorem e_main_v88 : Vf (Proc.devRef .tc main_v88) = (cmpi .slt : (⟨S8386560, .i32⟩ : BufTy).Contents (Elt F) → (⟨S8386560, .i32⟩ : BufTy).Contents (Elt F) → (⟨S8386560, .i1⟩ : BufTy).Contents (Elt F)) (Vf (Proc.devRef .tc main_v84)) (Vf (Proc.devRef .tc main_v87)) :=
  binary_fix (fixP1_16 Vf hfix).2.2.1
theorem e_main_c_14 : Vf (Proc.devRef .tc main_c_14) = (constantI S_ 32 4096#32) :=
  nullary_fix (fixP1_16 Vf hfix).2.2.2.1
theorem e_main_v89 : Vf (Proc.devRef .tc main_v89) = (broadcastInDim S8386560 ![] bcast_S_S8386560 : (⟨S_, .i32⟩ : BufTy).Contents (Elt F) → (⟨S8386560, .i32⟩ : BufTy).Contents (Elt F)) (Vf (Proc.devRef .tc main_c_14)) :=
  unary_fix (fixP1_16 Vf hfix).2.2.2.2.1
theorem e_main_v90 : Vf (Proc.devRef .tc main_v90) = (addi : (⟨S8386560, .i32⟩ : BufTy).Contents (Elt F) → (⟨S8386560, .i32⟩ : BufTy).Contents (Elt F) → (⟨S8386560, .i32⟩ : BufTy).Contents (Elt F)) (Vf (Proc.devRef .tc main_v84)) (Vf (Proc.devRef .tc main_v89)) :=
  binary_fix (fixP1_16 Vf hfix).2.2.2.2.2.1
theorem e_main_v91 : Vf (Proc.devRef .tc main_v91) = (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) (Vf (Proc.devRef .tc main_v88)) (Vf (Proc.devRef .tc main_v90)) (Vf (Proc.devRef .tc main_v84)) :=
  ternary_fix (fixP1_16 Vf hfix).2.2.2.2.2.2.1
theorem e_main_c_15 : Vf (Proc.devRef .tc main_c_15) = (constantI S_ 32 0#32) :=
  nullary_fix (fixP1_16 Vf hfix).2.2.2.2.2.2.2.1
theorem e_main_v92 : Vf (Proc.devRef .tc main_v92) = (broadcastInDim S8386560 ![] bcast_S_S8386560 : (⟨S_, .i32⟩ : BufTy).Contents (Elt F) → (⟨S8386560, .i32⟩ : BufTy).Contents (Elt F)) (Vf (Proc.devRef .tc main_c_15)) :=
  unary_fix (fixP1_16 Vf hfix).2.2.2.2.2.2.2.2.1
theorem e_main_v93 : Vf (Proc.devRef .tc main_v93) = (cmpi .slt : (⟨S8386560, .i32⟩ : BufTy).Contents (Elt F) → (⟨S8386560, .i32⟩ : BufTy).Contents (Elt F) → (⟨S8386560, .i1⟩ : BufTy).Contents (Elt F)) (Vf (Proc.devRef .tc main_v86)) (Vf (Proc.devRef .tc main_v92)) :=
  binary_fix (fixP1_16 Vf hfix).2.2.2.2.2.2.2.2.2.1
theorem e_main_c_16 : Vf (Proc.devRef .tc main_c_16) = (constantI S_ 32 4096#32) :=
  nullary_fix (fixP1_16 Vf hfix).2.2.2.2.2.2.2.2.2.2.1
theorem e_main_v94 : Vf (Proc.devRef .tc main_v94) = (broadcastInDim S8386560 ![] bcast_S_S8386560 : (⟨S_, .i32⟩ : BufTy).Contents (Elt F) → (⟨S8386560, .i32⟩ : BufTy).Contents (Elt F)) (Vf (Proc.devRef .tc main_c_16)) :=
  unary_fix (fixP1_16 Vf hfix).2.2.2.2.2.2.2.2.2.2.2.1
theorem e_main_v95 : Vf (Proc.devRef .tc main_v95) = (addi : (⟨S8386560, .i32⟩ : BufTy).Contents (Elt F) → (⟨S8386560, .i32⟩ : BufTy).Contents (Elt F) → (⟨S8386560, .i32⟩ : BufTy).Contents (Elt F)) (Vf (Proc.devRef .tc main_v86)) (Vf (Proc.devRef .tc main_v94)) :=
  binary_fix (fixP1_16 Vf hfix).2.2.2.2.2.2.2.2.2.2.2.2.1
theorem e_main_v96 : Vf (Proc.devRef .tc main_v96) = (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) (Vf (Proc.devRef .tc main_v93)) (Vf (Proc.devRef .tc main_v95)) (Vf (Proc.devRef .tc main_v86)) :=
  ternary_fix (fixP1_16 Vf hfix).2.2.2.2.2.2.2.2.2.2.2.2.2.1
theorem e_main_v97 : Vf (Proc.devRef .tc main_v97) = (broadcastInDim S8386560x1 ![0] bcast_S8386560_S8386560x1_0 : (⟨S8386560, .i32⟩ : BufTy).Contents (Elt F) → (⟨S8386560x1, .i32⟩ : BufTy).Contents (Elt F)) (Vf (Proc.devRef .tc main_v91)) :=
  unary_fix (fixP1_16 Vf hfix).2.2.2.2.2.2.2.2.2.2.2.2.2.2.1
theorem e_main_v98 : Vf (Proc.devRef .tc main_v98) = (broadcastInDim S8386560x1 ![0] bcast_S8386560_S8386560x1_0 : (⟨S8386560, .i32⟩ : BufTy).Contents (Elt F) → (⟨S8386560x1, .i32⟩ : BufTy).Contents (Elt F)) (Vf (Proc.devRef .tc main_v96)) :=
  unary_fix (fixP1_16 Vf hfix).2.2.2.2.2.2.2.2.2.2.2.2.2.2.2.1
theorem e_main_v99 : Vf (Proc.devRef .tc main_v99) = ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) (Vf (Proc.devRef .tc main_v97)) (Vf (Proc.devRef .tc main_v98)) :=
  binary_fix (fixP1_16 Vf hfix).2.2.2.2.2.2.2.2.2.2.2.2.2.2.2.2.1
theorem e_main_v100 : Vf (Proc.devRef .tc main_v100) = ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) (Vf (Proc.devRef .tc main_v66)) (Vf (Proc.devRef .tc main_v99)) :=
  binary_fix (fixP1_16 Vf hfix).2.2.2.2.2.2.2.2.2.2.2.2.2.2.2.2.2

end

end Cert.ReferenceIdeal.Hand

end
-- ==== Proof.Ref.Eqs2.lean ====
import proofs.«135652_j20272245637753_1_alg».proof.Proof.Ref.Fix

/-! # The reference's final contents, window 2: one equation per operation

For contents `Vf` that every operation of the line leaves fixed (the final contents of the line are such), the
equation of each operation of window 2: its result buffer holds its function of its operand buffers' contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

section
variable (Vf : Valuation τ sig (Elt F)) (hfix : ∀ op ∈ (ops : List (HloOp τ sig (Elt F))), Fix Vf op)
include hfix

theorem fixP2_0 : (opsP2_0 : List (HloOp τ sig (Elt F))).Forall (Fix Vf) :=
  List.forall_iff_forall_mem.2 fun op h => hfix op (mem_ops_of_P2 (List.mem_append_left _ h))
theorem e_main_cst_17 : Vf (Proc.devRef .tc main_cst_17) = (constant S_ .f32 0x00000000#32) :=
  nullary_fix (fixP2_0 Vf hfix).1
theorem e_main_v101 : Vf (Proc.devRef .tc main_v101) = (broadcastInDim S8386560 ![] bcast_S_S8386560 : (⟨S_, .f32⟩ : BufTy).Contents (Elt F) → (⟨S8386560, .f32⟩ : BufTy).Contents (Elt F)) (Vf (Proc.devRef .tc main_cst_17)) :=
  unary_fix (fixP2_0 Vf hfix).2.1
theorem e_main_v102 : Vf (Proc.devRef .tc main_v102) = (maximumf : (⟨S8386560, .f32⟩ : BufTy).Contents (Elt F) → (⟨S8386560, .f32⟩ : BufTy).Contents (Elt F) → (⟨S8386560, .f32⟩ : BufTy).Contents (Elt F)) (Vf (Proc.devRef .tc main_v100)) (Vf (Proc.devRef .tc main_v101)) :=
  binary_fix (fixP2_0 Vf hfix).2.2.1
theorem e_main_v103 : Vf (Proc.devRef .tc main_v103) = (Host.sqrt : (⟨S8386560, .f32⟩ : BufTy).Contents (Elt F) → (⟨S8386560, .f32⟩ : BufTy).Contents (Elt F)) (Vf (Proc.devRef .tc main_v102)) :=
  unary_fix (fixP2_0 Vf hfix).2.2.2.1
theorem e_main_v104 : Vf (Proc.devRef .tc main_v104) = (mulf : (⟨S4096x2, .f32⟩ : BufTy).Contents (Elt F) → (⟨S4096x2, .f32⟩ : BufTy).Contents (Elt F) → (⟨S4096x2, .f32⟩ : BufTy).Contents (Elt F)) (Vf (Proc.devRef .tc main_v24)) (Vf (Proc.devRef .tc main_v24)) :=
  binary_fix (fixP2_0 Vf hfix).2.2.2.2.1
theorem e_main_cst_18 : Vf (Proc.devRef .tc main_cst_18) = (constant S_ .f32 0x00000000#32) :=
  nullary_fix (fixP2_0 Vf hfix).2.2.2.2.2.1
theorem e_main_v105 : Vf (Proc.devRef .tc main_v105) = ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)) (Vf (Proc.devRef .tc main_v104)) (Vf (Proc.devRef .tc main_cst_18)) :=
  binary_fix (fixP2_0 Vf hfix).2.2.2.2.2.2.1
theorem e_main_v106 : Vf (Proc.devRef .tc main_v106) = (broadcastInDim S4096x1 ![0] bcast_S4096_S4096x1_0 : (⟨S4096, .f32⟩ : BufTy).Contents (Elt F) → (⟨S4096x1, .f32⟩ : BufTy).Contents (Elt F)) (Vf (Proc.devRef .tc main_v105)) :=
  unary_fix (fixP2_0 Vf hfix).2.2.2.2.2.2.2.1
theorem e_main_v107 : Vf (Proc.devRef .tc main_v107) = (broadcastInDim S1x4096 ![1] bcast_S4096_S1x4096_1 : (⟨S4096, .f32⟩ : BufTy).Contents (Elt F) → (⟨S1x4096, .f32⟩ : BufTy).Contents (Elt F)) (Vf (Proc.devRef .tc main_v105)) :=
  unary_fix (fixP2_0 Vf hfix).2.2.2.2.2.2.2.2.1
theorem e_main_v108 : Vf (Proc.devRef .tc main_v108) = (broadcastInDim S4096x4096 ![0, 1] bcast_S4096x1_S4096x4096_0_1 : (⟨S4096x1, .f32⟩ : BufTy).Contents (Elt F) → (⟨S4096x4096, .f32⟩ : BufTy).Contents (Elt F)) (Vf (Proc.devRef .tc main_v106)) :=
  unary_fix (fixP2_0 Vf hfix).2.2.2.2.2.2.2.2.2.1
theorem e_main_v109 : Vf (Proc.devRef .tc main_v109) = (broadcastInDim S4096x4096 ![0, 1] bcast_S1x4096_S4096x4096_0_1 : (⟨S1x4096, .f32⟩ : BufTy).Contents (Elt F) → (⟨S4096x4096, .f32⟩ : BufTy).Contents (Elt F)) (Vf (Proc.devRef .tc main_v107)) :=
  unary_fix (fixP2_0 Vf hfix).2.2.2.2.2.2.2.2.2.2.1
theorem e_main_v110 : Vf (Proc.devRef .tc main_v110) = (addf : (⟨S4096x4096, .f32⟩ : BufTy).Contents (Elt F) → (⟨S4096x4096, .f32⟩ : BufTy).Contents (Elt F) → (⟨S4096x4096, .f32⟩ : BufTy).Contents (Elt F)) (Vf (Proc.devRef .tc main_v108)) (Vf (Proc.devRef .tc main_v109)) :=
  binary_fix (fixP2_0 Vf hfix).2.2.2.2.2.2.2.2.2.2.2.1
theorem e_main_v111 : Vf (Proc.devRef .tc main_v111) = ((transpose S2x4096 [1, 0] · transposes_S4096x2_S2x4096_1_0) : (⟨S4096x2, .f32⟩ : BufTy).Contents (Elt F) → (⟨S2x4096, .f32⟩ : BufTy).Contents (Elt F)) (Vf (Proc.devRef .tc main_v24)) :=
  unary_fix (fixP2_0 Vf hfix).2.2.2.2.2.2.2.2.2.2.2.2.1
theorem e_main_v112 : Vf (Proc.devRef .tc main_v112) = ((fun l r => Host.dotGeneral dot_S4096x2_S2x4096_S4096x4096_1_0_0_1_n_n none l r) : (⟨S4096x2, .f32⟩ : BufTy).Contents (Elt F) → (⟨S2x4096, .f32⟩ : BufTy).Contents (Elt F) → (⟨S4096x4096, .f32⟩ : BufTy).Contents (Elt F)) (Vf (Proc.devRef .tc main_v24)) (Vf (Proc.devRef .tc main_v111)) :=
  binary_fix (fixP2_0 Vf hfix).2.2.2.2.2.2.2.2.2.2.2.2.2.1
theorem e_main_cst_19 : Vf (Proc.devRef .tc main_cst_19) = (constant S_ .f32 0x40000000#32) :=
  nullary_fix (fixP2_0 Vf hfix).2.2.2.2.2.2.2.2.2.2.2.2.2.2.1
theorem e_main_v113 : Vf (Proc.devRef .tc main_v113) = (broadcastInDim S4096x4096 ![] bcast_S_S4096x4096 : (⟨S_, .f32⟩ : BufTy).Contents (Elt F) → (⟨S4096x4096, .f32⟩ : BufTy).Contents (Elt F)) (Vf (Proc.devRef .tc main_cst_19)) :=
  unary_fix (fixP2_0 Vf hfix).2.2.2.2.2.2.2.2.2.2.2.2.2.2.2.1
theorem e_main_v114 : Vf (Proc.devRef .tc main_v114) = (mulf : (⟨S4096x4096, .f32⟩ : BufTy).Contents (Elt F) → (⟨S4096x4096, .f32⟩ : BufTy).Contents (Elt F) → (⟨S4096x4096, .f32⟩ : BufTy).Contents (Elt F)) (Vf (Proc.devRef .tc main_v113)) (Vf (Proc.devRef .tc main_v112)) :=
  binary_fix (fixP2_0 Vf hfix).2.2.2.2.2.2.2.2.2.2.2.2.2.2.2.2.1
theorem e_main_v115 : Vf (Proc.devRef .tc main_v115) = (subf : (⟨S4096x4096, .f32⟩ : BufTy).Contents (Elt F) → (⟨S4096x4096, .f32⟩ : BufTy).Contents (Elt F) → (⟨S4096x4096, .f32⟩ : BufTy).Contents (Elt F)) (Vf (Proc.devRef .tc main_v110)) (Vf (Proc.devRef .tc main_v114)) :=
  binary_fix (fixP2_0 Vf hfix).2.2.2.2.2.2.2.2.2.2.2.2.2.2.2.2.2.1
theorem e_main_cst_20 : Vf (Proc.devRef .tc main_cst_20) = (constant S_ .f32 0x3F800000#32) :=
  nullary_fix (fixP2_0 Vf hfix).2.2.2.2.2.2.2.2.2.2.2.2.2.2.2.2.2.2.1
theorem e_main_v116 : Vf (Proc.devRef .tc main_v116) = (broadcastInDim S4096x4096 ![] bcast_S_S4096x4096 : (⟨S_, .f32⟩ : BufTy).Contents (Elt F) → (⟨S4096x4096, .f32⟩ : BufTy).Contents (Elt F)) (Vf (Proc.devRef .tc main_cst_20)) :=
  unary_fix (fixP2_0 Vf hfix).2.2.2.2.2.2.2.2.2.2.2.2.2.2.2.2.2.2.2

theorem fixP2_1 : (opsP2_1 : List (HloOp τ sig (Elt F))).Forall (Fix Vf) :=
  List.forall_iff_forall_mem.2 fun op h => hfix op (mem_ops_of_P2 (List.mem_append_right _ (List.mem_append_left _ h)))
theorem e_main_call14_v0 : Vf (Proc.devRef .tc main_call14_v0) = (iotaInDim S4096x4096 32 0) :=
  by
  have h := nullary_fix (fixP2_1 Vf hfix).1
  simpa only [TRef.toBuf, TRef.ofBuf, cast_eq] using h
theorem e_main_call14_c : Vf (Proc.devRef .tc main_call14_c) = (constantI S_ 32 0#32) :=
  by
  have h := nullary_fix (fixP2_1 Vf hfix).2.1
  simpa only [TRef.toBuf, TRef.ofBuf, cast_eq] using h
theorem e_main_call14_v1 : Vf (Proc.devRef .tc main_call14_v1) = (broadcastInDim S4096x4096 ![] bcast_S_S4096x4096) (Vf (Proc.devRef .tc main_call14_c) : (⟨S_, .i32⟩ : BufTy).Contents (Elt F)) :=
  by
  have h := unary_fix (fixP2_1 Vf hfix).2.2.1
  simpa only [TRef.toBuf, TRef.ofBuf, cast_eq] using h
theorem e_main_call14_v2 : Vf (Proc.devRef .tc main_call14_v2) = addi (Vf (Proc.devRef .tc main_call14_v0) : (⟨S4096x4096, .i32⟩ : BufTy).Contents (Elt F)) (Vf (Proc.devRef .tc main_call14_v1) : (⟨S4096x4096, .i32⟩ : BufTy).Contents (Elt F)) :=
  by
  have h := binary_fix (fixP2_1 Vf hfix).2.2.2.1
  simpa only [TRef.toBuf, TRef.ofBuf, cast_eq] using h
theorem e_main_call14_v3 : Vf (Proc.devRef .tc main_call14_v3) = (iotaInDim S4096x4096 32 1) :=
  by
  have h := nullary_fix (fixP2_1 Vf hfix).2.2.2.2.1
  simpa only [TRef.toBuf, TRef.ofBuf, cast_eq] using h
theorem e_main_call14_v4 : Vf (Proc.devRef .tc main_call14_v4) = (cmpi .sge) (Vf (Proc.devRef .tc main_call14_v2) : (⟨S4096x4096, .i32⟩ : BufTy).Contents (Elt F)) (Vf (Proc.devRef .tc main_call14_v3) : (⟨S4096x4096, .i32⟩ : BufTy).Contents (Elt F)) :=
  by
  have h := binary_fix (fixP2_1 Vf hfix).2.2.2.2.2.1
  simpa only [TRef.toBuf, TRef.ofBuf, cast_eq] using h
theorem e_main_call14_cst : Vf (Proc.devRef .tc main_call14_cst) = (constant S_ .f32 0x00000000#32) :=
  by
  have h := nullary_fix (fixP2_1 Vf hfix).2.2.2.2.2.2.1
  simpa only [TRef.toBuf, TRef.ofBuf, cast_eq] using h
theorem e_main_call14_v5 : Vf (Proc.devRef .tc main_call14_v5) = (broadcastInDim S4096x4096 ![] bcast_S_S4096x4096) (Vf (Proc.devRef .tc main_call14_cst) : (⟨S_, .f32⟩ : BufTy).Contents (Elt F)) :=
  by
  have h := unary_fix (fixP2_1 Vf hfix).2.2.2.2.2.2.2.1
  simpa only [TRef.toBuf, TRef.ofBuf, cast_eq] using h
theorem e_main_v117 : Vf (Proc.devRef .tc main_v117) = select (Vf (Proc.devRef .tc main_call14_v4) : (⟨S4096x4096, .i1⟩ : BufTy).Contents (Elt F)) (Vf (Proc.devRef .tc main_call14_v5) : (⟨S4096x4096, .f32⟩ : BufTy).Contents (Elt F)) (Vf (Proc.devRef .tc main_v116) : (⟨S4096x4096, .f32⟩ : BufTy).Contents (Elt F)) :=
  by
  have h := ternary_fix (fixP2_1 Vf hfix).2.2.2.2.2.2.2.2
  simpa only [TRef.toBuf, TRef.ofBuf, cast_eq] using h

theorem fixP2_2 : (opsP2_2 : List (HloOp τ sig (Elt F))).Forall (Fix Vf) :=
  List.forall_iff_forall_mem.2 fun op h => hfix op (mem_ops_of_P2 (List.mem_append_right _ (List.mem_append_right _ (List.mem_append_left _ h))))
theorem e_main_cst_21 : Vf (Proc.devRef .tc main_cst_21) = (constant S_ .f32 0x00000000#32) :=
  nullary_fix (fixP2_2 Vf hfix).1
theorem e_main_v118 : Vf (Proc.devRef .tc main_v118) = (broadcastInDim S4096x4096 ![] bcast_S_S4096x4096 : (⟨S_, .f32⟩ : BufTy).Contents (Elt F) → (⟨S4096x4096, .f32⟩ : BufTy).Contents (Elt F)) (Vf (Proc.devRef .tc main_cst_21)) :=
  unary_fix (fixP2_2 Vf hfix).2.1
theorem e_main_v119 : Vf (Proc.devRef .tc main_v119) = (cmpf .une : (⟨S4096x4096, .f32⟩ : BufTy).Contents (Elt F) → (⟨S4096x4096, .f32⟩ : BufTy).Contents (Elt F) → (⟨S4096x4096, .i1⟩ : BufTy).Contents (Elt F)) (Vf (Proc.devRef .tc main_v117)) (Vf (Proc.devRef .tc main_v118)) :=
  binary_fix (fixP2_2 Vf hfix).2.2

theorem fixP2_3 : (opsP2_3 : List (HloOp τ sig (Elt F))).Forall (Fix Vf) :=
  List.forall_iff_forall_mem.2 fun op h => hfix op (mem_ops_of_P2 (List.mem_append_right _ (List.mem_append_right _ (List.mem_append_right _ (List.mem_append_left _ h)))))
theorem e_main_call15_v0 : Vf (Proc.devRef .tc main_call15_v0) = shapeCast S16777216 (Vf (Proc.devRef .tc main_v119)) shapeCasts_S4096x4096_S16777216 :=
  (reshape_fix (fixP2_3 Vf hfix).1).trans rfl
theorem e_main_call15_v1 : Vf (Proc.devRef .tc main_call15_v1) = (extui 32 · natLt_1_32) (Vf (Proc.devRef .tc main_call15_v0) : (⟨S16777216, .i1⟩ : BufTy).Contents (Elt F)) :=
  by
  have h := unary_fix (fixP2_3 Vf hfix).2.1
  simpa only [TRef.toBuf, TRef.ofBuf, cast_eq] using h
theorem e_main_call15_call0_c : Vf (Proc.devRef .tc main_call15_call0_c) = (constantI S_ 32 0#32) :=
  by
  have h := nullary_fix (fixP2_3 Vf hfix).2.2.1
  simpa only [TRef.toBuf, TRef.ofBuf, cast_eq] using h
theorem e_main_call15_call0_v0 : Vf (Proc.devRef .tc main_call15_call0_v0) = (broadcastInDim S_ ![] bcast_S_S_) (Vf (Proc.devRef .tc main_call15_call0_c) : (⟨S_, .i32⟩ : BufTy).Contents (Elt F)) :=
  by
  have h := unary_fix (fixP2_3 Vf hfix).2.2.2.1
  simpa only [TRef.toBuf, TRef.ofBuf, cast_eq] using h
theorem e_main_v120 : Vf (Proc.devRef .tc main_v120) = (fun x v => Host.reduceWindow IntOp.addi ![16777216] ![1] ![16777215] ![0] x v reduceWindows_S16777216_S16777216_w16777216s1p16777215_0 h_S_) (Vf (Proc.devRef .tc main_call15_v1) : (⟨S16777216, .i32⟩ : BufTy).Contents (Elt F)) (Vf (Proc.devRef .tc main_call15_call0_v0) : (⟨S_, .i32⟩ : BufTy).Contents (Elt F)) :=
  by
  have h := binary_fix (fixP2_3 Vf hfix).2.2.2.2
  simpa only [TRef.toBuf, TRef.ofBuf, cast_eq] using h

theorem fixP2_4 : (opsP2_4 : List (HloOp τ sig (Elt F))).Forall (Fix Vf) :=
  List.forall_iff_forall_mem.2 fun op h => hfix op (mem_ops_of_P2 (List.mem_append_right _ (List.mem_append_right _ (List.mem_append_right _ (List.mem_append_right _ (List.mem_append_left _ h))))))
theorem e_main_c_22 : Vf (Proc.devRef .tc main_c_22) = (constantI S_ 32 0#32) :=
  nullary_fix (fixP2_4 Vf hfix).1
theorem e_main_v121 : Vf (Proc.devRef .tc main_v121) = (broadcastInDim S8386560 ![] bcast_S_S8386560 : (⟨S_, .i32⟩ : BufTy).Contents (Elt F) → (⟨S8386560, .i32⟩ : BufTy).Contents (Elt F)) (Vf (Proc.devRef .tc main_c_22)) :=
  unary_fix (fixP2_4 Vf hfix).2.1
theorem e_main_c_23 : Vf (Proc.devRef .tc main_c_23) = (constantI S_ 32 0#32) :=
  nullary_fix (fixP2_4 Vf hfix).2.2

theorem fixP2_5 : (opsP2_5 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_left _ h)))))))
theorem e_main_call16_v0 : Vf (Proc.devRef .tc main_call16_v0) = id (Vf (Proc.devRef .tc main_c_23) : (⟨S_, .i32⟩ : BufTy).Contents (Elt F)) :=
  by
  have h := unary_fix (fixP2_5 Vf hfix).1
  simpa only [TRef.toBuf, TRef.ofBuf, cast_eq] using h
theorem e_main_call16_v1 : Vf (Proc.devRef .tc main_call16_v1) = (broadcastInDim S16777216 ![] bcast_S_S16777216) (Vf (Proc.devRef .tc main_call16_v0) : (⟨S_, .i32⟩ : BufTy).Contents (Elt F)) :=
  by
  have h := unary_fix (fixP2_5 Vf hfix).2.1
  simpa only [TRef.toBuf, TRef.ofBuf, cast_eq] using h
theorem e_main_v122 : Vf (Proc.devRef .tc main_v122) = maxsi (Vf (Proc.devRef .tc main_call16_v1) : (⟨S16777216, .i32⟩ : BufTy).Contents (Elt F)) (Vf (Proc.devRef .tc main_v120) : (⟨S16777216, .i32⟩ : BufTy).Contents (Elt F)) :=
  by
  have h := binary_fix (fixP2_5 Vf hfix).2.2
  simpa only [TRef.toBuf, TRef.ofBuf, cast_eq] using h

theorem fixP2_6 : (opsP2_6 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_left _ h))))))))
theorem e_main_c_24 : Vf (Proc.devRef .tc main_c_24) = (constantI S_ 32 0#32) :=
  nullary_fix (fixP2_6 Vf hfix).1
theorem e_main_v123 : Vf (Proc.devRef .tc main_v123) = (broadcastInDim S16777216 ![] bcast_S_S16777216 : (⟨S_, .i32⟩ : BufTy).Contents (Elt F) → (⟨S16777216, .i32⟩ : BufTy).Contents (Elt F)) (Vf (Proc.devRef .tc main_c_24)) :=
  unary_fix (fixP2_6 Vf hfix).2.1
theorem e_main_v124 : Vf (Proc.devRef .tc main_v124) = (cmpi .slt : (⟨S16777216, .i32⟩ : BufTy).Contents (Elt F) → (⟨S16777216, .i32⟩ : BufTy).Contents (Elt F) → (⟨S16777216, .i1⟩ : BufTy).Contents (Elt F)) (Vf (Proc.devRef .tc main_v122)) (Vf (Proc.devRef .tc main_v123)) :=
  binary_fix (fixP2_6 Vf hfix).2.2.1
theorem e_main_c_25 : Vf (Proc.devRef .tc main_c_25) = (constantI S_ 32 8386560#32) :=
  nullary_fix (fixP2_6 Vf hfix).2.2.2.1
theorem e_main_v125 : Vf (Proc.devRef .tc main_v125) = (broadcastInDim S16777216 ![] bcast_S_S16777216 : (⟨S_, .i32⟩ : BufTy).Contents (Elt F) → (⟨S16777216, .i32⟩ : BufTy).Contents (Elt F)) (Vf (Proc.devRef .tc main_c_25)) :=
  unary_fix (fixP2_6 Vf hfix).2.2.2.2.1
theorem e_main_v126 : Vf (Proc.devRef .tc main_v126) = (addi : (⟨S16777216, .i32⟩ : BufTy).Contents (Elt F) → (⟨S16777216, .i32⟩ : BufTy).Contents (Elt F) → (⟨S16777216, .i32⟩ : BufTy).Contents (Elt F)) (Vf (Proc.devRef .tc main_v122)) (Vf (Proc.devRef .tc main_v125)) :=
  binary_fix (fixP2_6 Vf hfix).2.2.2.2.2.1
theorem e_main_v127 : Vf (Proc.devRef .tc main_v127) = (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (Vf (Proc.devRef .tc main_v124)) (Vf (Proc.devRef .tc main_v126)) (Vf (Proc.devRef .tc main_v122)) :=
  ternary_fix (fixP2_6 Vf hfix).2.2.2.2.2.2.1
theorem e_main_v128 : Vf (Proc.devRef .tc main_v128) = (broadcastInDim S16777216x1 ![0] bcast_S16777216_S16777216x1_0 : (⟨S16777216, .i32⟩ : BufTy).Contents (Elt F) → (⟨S16777216x1, .i32⟩ : BufTy).Contents (Elt F)) (Vf (Proc.devRef .tc main_v127)) :=
  unary_fix (fixP2_6 Vf hfix).2.2.2.2.2.2.2.1
theorem e_main_c_26 : Vf (Proc.devRef .tc main_c_26) = (constantI S_ 32 1#32) :=
  nullary_fix (fixP2_6 Vf hfix).2.2.2.2.2.2.2.2.1
theorem e_main_v129 : Vf (Proc.devRef .tc main_v129) = (broadcastInDim S16777216 ![] bcast_S_S16777216 : (⟨S_, .i32⟩ : BufTy).Contents (Elt F) → (⟨S16777216, .i32⟩ : BufTy).Contents (Elt F)) (Vf (Proc.devRef .tc main_c_26)) :=
  unary_fix (fixP2_6 Vf hfix).2.2.2.2.2.2.2.2.2.1
theorem e_main_v130 : Vf (Proc.devRef .tc main_v130) = ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) (Vf (Proc.devRef .tc main_v121)) (Vf (Proc.devRef .tc main_v128)) (Vf (Proc.devRef .tc main_v129)) :=
  ternary_fix (fixP2_6 Vf hfix).2.2.2.2.2.2.2.2.2.2

theorem fixP2_7 : (opsP2_7 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_left _ h)))))))))
theorem e_main_call17_call0_c : Vf (Proc.devRef .tc main_call17_call0_c) = (constantI S_ 32 0#32) :=
  by
  have h := nullary_fix (fixP2_7 Vf hfix).1
  simpa only [TRef.toBuf, TRef.ofBuf, cast_eq] using h
theorem e_main_call17_call0_v0 : Vf (Proc.devRef .tc main_call17_call0_v0) = (broadcastInDim S_ ![] bcast_S_S_) (Vf (Proc.devRef .tc main_call17_call0_c) : (⟨S_, .i32⟩ : BufTy).Contents (Elt F)) :=
  by
  have h := unary_fix (fixP2_7 Vf hfix).2.1
  simpa only [TRef.toBuf, TRef.ofBuf, cast_eq] using h
theorem e_main_v131 : Vf (Proc.devRef .tc main_v131) = (fun x v => Host.reduceWindow IntOp.addi ![8386560] ![1] ![8386559] ![0] x v reduceWindows_S8386560_S8386560_w8386560s1p8386559_0 h_S_) (Vf (Proc.devRef .tc main_v130) : (⟨S8386560, .i32⟩ : BufTy).Contents (Elt F)) (Vf (Proc.devRef .tc main_call17_call0_v0) : (⟨S_, .i32⟩ : BufTy).Contents (Elt F)) :=
  by
  have h := binary_fix (fixP2_7 Vf hfix).2.2
  simpa only [TRef.toBuf, TRef.ofBuf, cast_eq] using h

theorem fixP2_8 : (opsP2_8 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_left _ h))))))))))
theorem e_main_c_27 : Vf (Proc.devRef .tc main_c_27) = (constantI S_ 32 4096#32) :=
  nullary_fix (fixP2_8 Vf hfix)

theorem fixP2_9 : (opsP2_9 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_left _ h)))))))))))
theorem e_main_call18_v0 : Vf (Proc.devRef .tc main_call18_v0) = (broadcastInDim S8386560 ![] bcast_S_S8386560) (Vf (Proc.devRef .tc main_c_27) : (⟨S_, .i32⟩ : BufTy).Contents (Elt F)) :=
  by
  have h := unary_fix (fixP2_9 Vf hfix).1
  simpa only [TRef.toBuf, TRef.ofBuf, cast_eq] using h
theorem e_main_call18_v1 : Vf (Proc.devRef .tc main_call18_v1) = Host.divsi (Vf (Proc.devRef .tc main_v131) : (⟨S8386560, .i32⟩ : BufTy).Contents (Elt F)) (Vf (Proc.devRef .tc main_call18_v0) : (⟨S8386560, .i32⟩ : BufTy).Contents (Elt F)) :=
  by
  have h := binary_fix (fixP2_9 Vf hfix).2.1
  simpa only [TRef.toBuf, TRef.ofBuf, cast_eq] using h
theorem e_main_call18_v2 : Vf (Proc.devRef .tc main_call18_v2) = signi (Vf (Proc.devRef .tc main_v131) : (⟨S8386560, .i32⟩ : BufTy).Contents (Elt F)) :=
  by
  have h := unary_fix (fixP2_9 Vf hfix).2.2.1
  simpa only [TRef.toBuf, TRef.ofBuf, cast_eq] using h
theorem e_main_call18_v3 : Vf (Proc.devRef .tc main_call18_v3) = signi (Vf (Proc.devRef .tc main_c_27) : (⟨S_, .i32⟩ : BufTy).Contents (Elt F)) :=
  by
  have h := unary_fix (fixP2_9 Vf hfix).2.2.2.1
  simpa only [TRef.toBuf, TRef.ofBuf, cast_eq] using h
theorem e_main_call18_v4 : Vf (Proc.devRef .tc main_call18_v4) = (broadcastInDim S8386560 ![] bcast_S_S8386560) (Vf (Proc.devRef .tc main_call18_v3) : (⟨S_, .i32⟩ : BufTy).Contents (Elt F)) :=
  by
  have h := unary_fix (fixP2_9 Vf hfix).2.2.2.2.1
  simpa only [TRef.toBuf, TRef.ofBuf, cast_eq] using h
theorem e_main_call18_v5 : Vf (Proc.devRef .tc main_call18_v5) = (cmpi .ne) (Vf (Proc.devRef .tc main_call18_v2) : (⟨S8386560, .i32⟩ : BufTy).Contents (Elt F)) (Vf (Proc.devRef .tc main_call18_v4) : (⟨S8386560, .i32⟩ : BufTy).Contents (Elt F)) :=
  by
  have h := binary_fix (fixP2_9 Vf hfix).2.2.2.2.2.1
  simpa only [TRef.toBuf, TRef.ofBuf, cast_eq] using h
theorem e_main_call18_v6 : Vf (Proc.devRef .tc main_call18_v6) = (broadcastInDim S8386560 ![] bcast_S_S8386560) (Vf (Proc.devRef .tc main_c_27) : (⟨S_, .i32⟩ : BufTy).Contents (Elt F)) :=
  by
  have h := unary_fix (fixP2_9 Vf hfix).2.2.2.2.2.2.1
  simpa only [TRef.toBuf, TRef.ofBuf, cast_eq] using h
theorem e_main_call18_v7 : Vf (Proc.devRef .tc main_call18_v7) = Host.remsi (Vf (Proc.devRef .tc main_v131) : (⟨S8386560, .i32⟩ : BufTy).Contents (Elt F)) (Vf (Proc.devRef .tc main_call18_v6) : (⟨S8386560, .i32⟩ : BufTy).Contents (Elt F)) :=
  by
  have h := binary_fix (fixP2_9 Vf hfix).2.2.2.2.2.2.2.1
  simpa only [TRef.toBuf, TRef.ofBuf, cast_eq] using h
theorem e_main_call18_c : Vf (Proc.devRef .tc main_call18_c) = (constantI S_ 32 0#32) :=
  by
  have h := nullary_fix (fixP2_9 Vf hfix).2.2.2.2.2.2.2.2.1
  simpa only [TRef.toBuf, TRef.ofBuf, cast_eq] using h
theorem e_main_call18_v8 : Vf (Proc.devRef .tc main_call18_v8) = (broadcastInDim S8386560 ![] bcast_S_S8386560) (Vf (Proc.devRef .tc main_call18_c) : (⟨S_, .i32⟩ : BufTy).Contents (Elt F)) :=
  by
  have h := unary_fix (fixP2_9 Vf hfix).2.2.2.2.2.2.2.2.2.1
  simpa only [TRef.toBuf, TRef.ofBuf, cast_eq] using h
theorem e_main_call18_v9 : Vf (Proc.devRef .tc main_call18_v9) = (cmpi .ne) (Vf (Proc.devRef .tc main_call18_v7) : (⟨S8386560, .i32⟩ : BufTy).Contents (Elt F)) (Vf (Proc.devRef .tc main_call18_v8) : (⟨S8386560, .i32⟩ : BufTy).Contents (Elt F)) :=
  by
  have h := binary_fix (fixP2_9 Vf hfix).2.2.2.2.2.2.2.2.2.2.1
  simpa only [TRef.toBuf, TRef.ofBuf, cast_eq] using h
theorem e_main_call18_v10 : Vf (Proc.devRef .tc main_call18_v10) = andi (Vf (Proc.devRef .tc main_call18_v5) : (⟨S8386560, .i1⟩ : BufTy).Contents (Elt F)) (Vf (Proc.devRef .tc main_call18_v9) : (⟨S8386560, .i1⟩ : BufTy).Contents (Elt F)) :=
  by
  have h := binary_fix (fixP2_9 Vf hfix).2.2.2.2.2.2.2.2.2.2.2.1
  simpa only [TRef.toBuf, TRef.ofBuf, cast_eq] using h
theorem e_main_call18_c_0 : Vf (Proc.devRef .tc main_call18_c_0) = (constantI S_ 32 1#32) :=
  by
  have h := nullary_fix (fixP2_9 Vf hfix).2.2.2.2.2.2.2.2.2.2.2.2.1
  simpa only [TRef.toBuf, TRef.ofBuf, cast_eq] using h
theorem e_main_call18_v11 : Vf (Proc.devRef .tc main_call18_v11) = (broadcastInDim S8386560 ![] bcast_S_S8386560) (Vf (Proc.devRef .tc main_call18_c_0) : (⟨S_, .i32⟩ : BufTy).Contents (Elt F)) :=
  by
  have h := unary_fix (fixP2_9 Vf hfix).2.2.2.2.2.2.2.2.2.2.2.2.2.1
  simpa only [TRef.toBuf, TRef.ofBuf, cast_eq] using h
theorem e_main_call18_v12 : Vf (Proc.devRef .tc main_call18_v12) = subi (Vf (Proc.devRef .tc main_call18_v1) : (⟨S8386560, .i32⟩ : BufTy).Contents (Elt F)) (Vf (Proc.devRef .tc main_call18_v11) : (⟨S8386560, .i32⟩ : BufTy).Contents (Elt F)) :=
  by
  have h := binary_fix (fixP2_9 Vf hfix).2.2.2.2.2.2.2.2.2.2.2.2.2.2.1
  simpa only [TRef.toBuf, TRef.ofBuf, cast_eq] using h
theorem e_main_v132 : Vf (Proc.devRef .tc main_v132) = select (Vf (Proc.devRef .tc main_call18_v10) : (⟨S8386560, .i1⟩ : BufTy).Contents (Elt F)) (Vf (Proc.devRef .tc main_call18_v12) : (⟨S8386560, .i32⟩ : BufTy).Contents (Elt F)) (Vf (Proc.devRef .tc main_call18_v1) : (⟨S8386560, .i32⟩ : BufTy).Contents (Elt F)) :=
  by
  have h := ternary_fix (fixP2_9 Vf hfix).2.2.2.2.2.2.2.2.2.2.2.2.2.2.2
  simpa only [TRef.toBuf, TRef.ofBuf, cast_eq] using h

theorem fixP2_10 : (opsP2_10 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))
theorem e_main_c_28 : Vf (Proc.devRef .tc main_c_28) = (constantI S_ 32 4096#32) :=
  nullary_fix (fixP2_10 Vf hfix)

theorem fixP2_11 : (opsP2_11 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))
theorem e_main_call19_v0 : Vf (Proc.devRef .tc main_call19_v0) = id (Vf (Proc.devRef .tc main_c_28) : (⟨S_, .i32⟩ : BufTy).Contents (Elt F)) :=
  by
  have h := unary_fix (fixP2_11 Vf hfix).1
  simpa only [TRef.toBuf, TRef.ofBuf, cast_eq] using h
theorem e_main_call19_c : Vf (Proc.devRef .tc main_call19_c) = (constantI S_ 32 0#32) :=
  by
  have h := nullary_fix (fixP2_11 Vf hfix).2.1
  simpa only [TRef.toBuf, TRef.ofBuf, cast_eq] using h
theorem e_main_call19_v1 : Vf (Proc.devRef .tc main_call19_v1) = (cmpi .eq) (Vf (Proc.devRef .tc main_call19_v0) : (⟨S_, .i32⟩ : BufTy).Contents (Elt F)) (Vf (Proc.devRef .tc main_call19_c) : (⟨S_, .i32⟩ : BufTy).Contents (Elt F)) :=
  by
  have h := binary_fix (fixP2_11 Vf hfix).2.2.1
  simpa only [TRef.toBuf, TRef.ofBuf, cast_eq] using h
theorem e_main_call19_c_0 : Vf (Proc.devRef .tc main_call19_c_0) = (constantI S_ 32 1#32) :=
  by
  have h := nullary_fix (fixP2_11 Vf hfix).2.2.2.1
  simpa only [TRef.toBuf, TRef.ofBuf, cast_eq] using h
theorem e_main_call19_v2 : Vf (Proc.devRef .tc main_call19_v2) = select (Vf (Proc.devRef .tc main_call19_v1) : (⟨S_, .i1⟩ : BufTy).Contents (Elt F)) (Vf (Proc.devRef .tc main_call19_c_0) : (⟨S_, .i32⟩ : BufTy).Contents (Elt F)) (Vf (Proc.devRef .tc main_call19_v0) : (⟨S_, .i32⟩ : BufTy).Contents (Elt F)) :=
  by
  have h := ternary_fix (fixP2_11 Vf hfix).2.2.2.2.1
  simpa only [TRef.toBuf, TRef.ofBuf, cast_eq] using h
theorem e_main_call19_v3 : Vf (Proc.devRef .tc main_call19_v3) = (broadcastInDim S8386560 ![] bcast_S_S8386560) (Vf (Proc.devRef .tc main_call19_v2) : (⟨S_, .i32⟩ : BufTy).Contents (Elt F)) :=
  by
  have h := unary_fix (fixP2_11 Vf hfix).2.2.2.2.2.1
  simpa only [TRef.toBuf, TRef.ofBuf, cast_eq] using h
theorem e_main_call19_v4 : Vf (Proc.devRef .tc main_call19_v4) = Host.remsi (Vf (Proc.devRef .tc main_v132) : (⟨S8386560, .i32⟩ : BufTy).Contents (Elt F)) (Vf (Proc.devRef .tc main_call19_v3) : (⟨S8386560, .i32⟩ : BufTy).Contents (Elt F)) :=
  by
  have h := binary_fix (fixP2_11 Vf hfix).2.2.2.2.2.2.1
  simpa only [TRef.toBuf, TRef.ofBuf, cast_eq] using h
theorem e_main_call19_c_1 : Vf (Proc.devRef .tc main_call19_c_1) = (constantI S_ 32 0#32) :=
  by
  have h := nullary_fix (fixP2_11 Vf hfix).2.2.2.2.2.2.2.1
  simpa only [TRef.toBuf, TRef.ofBuf, cast_eq] using h
theorem e_main_call19_v5 : Vf (Proc.devRef .tc main_call19_v5) = (broadcastInDim S8386560 ![] bcast_S_S8386560) (Vf (Proc.devRef .tc main_call19_c_1) : (⟨S_, .i32⟩ : BufTy).Contents (Elt F)) :=
  by
  have h := unary_fix (fixP2_11 Vf hfix).2.2.2.2.2.2.2.2.1
  simpa only [TRef.toBuf, TRef.ofBuf, cast_eq] using h
theorem e_main_call19_v6 : Vf (Proc.devRef .tc main_call19_v6) = (cmpi .ne) (Vf (Proc.devRef .tc main_call19_v4) : (⟨S8386560, .i32⟩ : BufTy).Contents (Elt F)) (Vf (Proc.devRef .tc main_call19_v5) : (⟨S8386560, .i32⟩ : BufTy).Contents (Elt F)) :=
  by
  have h := binary_fix (fixP2_11 Vf hfix).2.2.2.2.2.2.2.2.2.1
  simpa only [TRef.toBuf, TRef.ofBuf, cast_eq] using h
theorem e_main_call19_c_2 : Vf (Proc.devRef .tc main_call19_c_2) = (constantI S_ 32 0#32) :=
  by
  have h := nullary_fix (fixP2_11 Vf hfix).2.2.2.2.2.2.2.2.2.2.1
  simpa only [TRef.toBuf, TRef.ofBuf, cast_eq] using h
theorem e_main_call19_v7 : Vf (Proc.devRef .tc main_call19_v7) = (broadcastInDim S8386560 ![] bcast_S_S8386560) (Vf (Proc.devRef .tc main_call19_c_2) : (⟨S_, .i32⟩ : BufTy).Contents (Elt F)) :=
  by
  have h := unary_fix (fixP2_11 Vf hfix).2.2.2.2.2.2.2.2.2.2.2.1
  simpa only [TRef.toBuf, TRef.ofBuf, cast_eq] using h
theorem e_main_call19_v8 : Vf (Proc.devRef .tc main_call19_v8) = (cmpi .slt) (Vf (Proc.devRef .tc main_call19_v4) : (⟨S8386560, .i32⟩ : BufTy).Contents (Elt F)) (Vf (Proc.devRef .tc main_call19_v7) : (⟨S8386560, .i32⟩ : BufTy).Contents (Elt F)) :=
  by
  have h := binary_fix (fixP2_11 Vf hfix).2.2.2.2.2.2.2.2.2.2.2.2.1
  simpa only [TRef.toBuf, TRef.ofBuf, cast_eq] using h
theorem e_main_call19_c_3 : Vf (Proc.devRef .tc main_call19_c_3) = (constantI S_ 32 0#32) :=
  by
  have h := nullary_fix (fixP2_11 Vf hfix).2.2.2.2.2.2.2.2.2.2.2.2.2.1
  simpa only [TRef.toBuf, TRef.ofBuf, cast_eq] using h
theorem e_main_call19_v9 : Vf (Proc.devRef .tc main_call19_v9) = (cmpi .slt) (Vf (Proc.devRef .tc main_call19_v2) : (⟨S_, .i32⟩ : BufTy).Contents (Elt F)) (Vf (Proc.devRef .tc main_call19_c_3) : (⟨S_, .i32⟩ : BufTy).Contents (Elt F)) :=
  by
  have h := binary_fix (fixP2_11 Vf hfix).2.2.2.2.2.2.2.2.2.2.2.2.2.2.1
  simpa only [TRef.toBuf, TRef.ofBuf, cast_eq] using h
theorem e_main_call19_v10 : Vf (Proc.devRef .tc main_call19_v10) = (broadcastInDim S8386560 ![] bcast_S_S8386560) (Vf (Proc.devRef .tc main_call19_v9) : (⟨S_, .i1⟩ : BufTy).Contents (Elt F)) :=
  by
  have h := unary_fix (fixP2_11 Vf hfix).2.2.2.2.2.2.2.2.2.2.2.2.2.2.2.1
  simpa only [TRef.toBuf, TRef.ofBuf, cast_eq] using h
theorem e_main_call19_v11 : Vf (Proc.devRef .tc main_call19_v11) = (cmpi .ne) (Vf (Proc.devRef .tc main_call19_v8) : (⟨S8386560, .i1⟩ : BufTy).Contents (Elt F)) (Vf (Proc.devRef .tc main_call19_v10) : (⟨S8386560, .i1⟩ : BufTy).Contents (Elt F)) :=
  by
  have h := binary_fix (fixP2_11 Vf hfix).2.2.2.2.2.2.2.2.2.2.2.2.2.2.2.2.1
  simpa only [TRef.toBuf, TRef.ofBuf, cast_eq] using h
theorem e_main_call19_v12 : Vf (Proc.devRef .tc main_call19_v12) = andi (Vf (Proc.devRef .tc main_call19_v11) : (⟨S8386560, .i1⟩ : BufTy).Contents (Elt F)) (Vf (Proc.devRef .tc main_call19_v6) : (⟨S8386560, .i1⟩ : BufTy).Contents (Elt F)) :=
  by
  have h := binary_fix (fixP2_11 Vf hfix).2.2.2.2.2.2.2.2.2.2.2.2.2.2.2.2.2.1
  simpa only [TRef.toBuf, TRef.ofBuf, cast_eq] using h
theorem e_main_call19_v13 : Vf (Proc.devRef .tc main_call19_v13) = (broadcastInDim S8386560 ![] bcast_S_S8386560) (Vf (Proc.devRef .tc main_call19_v2) : (⟨S_, .i32⟩ : BufTy).Contents (Elt F)) :=
  by
  have h := unary_fix (fixP2_11 Vf hfix).2.2.2.2.2.2.2.2.2.2.2.2.2.2.2.2.2.2.1
  simpa only [TRef.toBuf, TRef.ofBuf, cast_eq] using h
theorem e_main_call19_v14 : Vf (Proc.devRef .tc main_call19_v14) = addi (Vf (Proc.devRef .tc main_call19_v4) : (⟨S8386560, .i32⟩ : BufTy).Contents (Elt F)) (Vf (Proc.devRef .tc main_call19_v13) : (⟨S8386560, .i32⟩ : BufTy).Contents (Elt F)) :=
  by
  have h := binary_fix (fixP2_11 Vf hfix).2.2.2.2.2.2.2.2.2.2.2.2.2.2.2.2.2.2.2.1
  simpa only [TRef.toBuf, TRef.ofBuf, cast_eq] using h
theorem e_main_v133 : Vf (Proc.devRef .tc main_v133) = select (Vf (Proc.devRef .tc main_call19_v12) : (⟨S8386560, .i1⟩ : BufTy).Contents (Elt F)) (Vf (Proc.devRef .tc main_call19_v14) : (⟨S8386560, .i32⟩ : BufTy).Contents (Elt F)) (Vf (Proc.devRef .tc main_call19_v4) : (⟨S8386560, .i32⟩ : BufTy).Contents (Elt F)) :=
  by
  have h := ternary_fix (fixP2_11 Vf hfix).2.2.2.2.2.2.2.2.2.2.2.2.2.2.2.2.2.2.2.2
  simpa only [TRef.toBuf, TRef.ofBuf, cast_eq] using h

theorem fixP2_12 : (opsP2_12 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))
theorem e_main_c_29 : Vf (Proc.devRef .tc main_c_29) = (constantI S_ 32 1#32) :=
  nullary_fix (fixP2_12 Vf hfix)

theorem fixP2_13 : (opsP2_13 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))
theorem e_main_call20_v0 : Vf (Proc.devRef .tc main_call20_v0) = (broadcastInDim S8386560 ![] bcast_S_S8386560) (Vf (Proc.devRef .tc main_c_29) : (⟨S_, .i32⟩ : BufTy).Contents (Elt F)) :=
  by
  have h := unary_fix (fixP2_13 Vf hfix).1
  simpa only [TRef.toBuf, TRef.ofBuf, cast_eq] using h
theorem e_main_call20_v1 : Vf (Proc.devRef .tc main_call20_v1) = Host.divsi (Vf (Proc.devRef .tc main_v131) : (⟨S8386560, .i32⟩ : BufTy).Contents (Elt F)) (Vf (Proc.devRef .tc main_call20_v0) : (⟨S8386560, .i32⟩ : BufTy).Contents (Elt F)) :=
  by
  have h := binary_fix (fixP2_13 Vf hfix).2.1
  simpa only [TRef.toBuf, TRef.ofBuf, cast_eq] using h
theorem e_main_call20_v2 : Vf (Proc.devRef .tc main_call20_v2) = signi (Vf (Proc.devRef .tc main_v131) : (⟨S8386560, .i32⟩ : BufTy).Contents (Elt F)) :=
  by
  have h := unary_fix (fixP2_13 Vf hfix).2.2.1
  simpa only [TRef.toBuf, TRef.ofBuf, cast_eq] using h
theorem e_main_call20_v3 : Vf (Proc.devRef .tc main_call20_v3) = signi (Vf (Proc.devRef .tc main_c_29) : (⟨S_, .i32⟩ : BufTy).Contents (Elt F)) :=
  by
  have h := unary_fix (fixP2_13 Vf hfix).2.2.2.1
  simpa only [TRef.toBuf, TRef.ofBuf, cast_eq] using h
theorem e_main_call20_v4 : Vf (Proc.devRef .tc main_call20_v4) = (broadcastInDim S8386560 ![] bcast_S_S8386560) (Vf (Proc.devRef .tc main_call20_v3) : (⟨S_, .i32⟩ : BufTy).Contents (Elt F)) :=
  by
  have h := unary_fix (fixP2_13 Vf hfix).2.2.2.2.1
  simpa only [TRef.toBuf, TRef.ofBuf, cast_eq] using h
theorem e_main_call20_v5 : Vf (Proc.devRef .tc main_call20_v5) = (cmpi .ne) (Vf (Proc.devRef .tc main_call20_v2) : (⟨S8386560, .i32⟩ : BufTy).Contents (Elt F)) (Vf (Proc.devRef .tc main_call20_v4) : (⟨S8386560, .i32⟩ : BufTy).Contents (Elt F)) :=
  by
  have h := binary_fix (fixP2_13 Vf hfix).2.2.2.2.2.1
  simpa only [TRef.toBuf, TRef.ofBuf, cast_eq] using h
theorem e_main_call20_v6 : Vf (Proc.devRef .tc main_call20_v6) = (broadcastInDim S8386560 ![] bcast_S_S8386560) (Vf (Proc.devRef .tc main_c_29) : (⟨S_, .i32⟩ : BufTy).Contents (Elt F)) :=
  by
  have h := unary_fix (fixP2_13 Vf hfix).2.2.2.2.2.2.1
  simpa only [TRef.toBuf, TRef.ofBuf, cast_eq] using h
theorem e_main_call20_v7 : Vf (Proc.devRef .tc main_call20_v7) = Host.remsi (Vf (Proc.devRef .tc main_v131) : (⟨S8386560, .i32⟩ : BufTy).Contents (Elt F)) (Vf (Proc.devRef .tc main_call20_v6) : (⟨S8386560, .i32⟩ : BufTy).Contents (Elt F)) :=
  by
  have h := binary_fix (fixP2_13 Vf hfix).2.2.2.2.2.2.2.1
  simpa only [TRef.toBuf, TRef.ofBuf, cast_eq] using h
theorem e_main_call20_c : Vf (Proc.devRef .tc main_call20_c) = (constantI S_ 32 0#32) :=
  by
  have h := nullary_fix (fixP2_13 Vf hfix).2.2.2.2.2.2.2.2.1
  simpa only [TRef.toBuf, TRef.ofBuf, cast_eq] using h
theorem e_main_call20_v8 : Vf (Proc.devRef .tc main_call20_v8) = (broadcastInDim S8386560 ![] bcast_S_S8386560) (Vf (Proc.devRef .tc main_call20_c) : (⟨S_, .i32⟩ : BufTy).Contents (Elt F)) :=
  by
  have h := unary_fix (fixP2_13 Vf hfix).2.2.2.2.2.2.2.2.2.1
  simpa only [TRef.toBuf, TRef.ofBuf, cast_eq] using h
theorem e_main_call20_v9 : Vf (Proc.devRef .tc main_call20_v9) = (cmpi .ne) (Vf (Proc.devRef .tc main_call20_v7) : (⟨S8386560, .i32⟩ : BufTy).Contents (Elt F)) (Vf (Proc.devRef .tc main_call20_v8) : (⟨S8386560, .i32⟩ : BufTy).Contents (Elt F)) :=
  by
  have h := binary_fix (fixP2_13 Vf hfix).2.2.2.2.2.2.2.2.2.2.1
  simpa only [TRef.toBuf, TRef.ofBuf, cast_eq] using h
theorem e_main_call20_v10 : Vf (Proc.devRef .tc main_call20_v10) = andi (Vf (Proc.devRef .tc main_call20_v5) : (⟨S8386560, .i1⟩ : BufTy).Contents (Elt F)) (Vf (Proc.devRef .tc main_call20_v9) : (⟨S8386560, .i1⟩ : BufTy).Contents (Elt F)) :=
  by
  have h := binary_fix (fixP2_13 Vf hfix).2.2.2.2.2.2.2.2.2.2.2.1
  simpa only [TRef.toBuf, TRef.ofBuf, cast_eq] using h
theorem e_main_call20_c_0 : Vf (Proc.devRef .tc main_call20_c_0) = (constantI S_ 32 1#32) :=
  by
  have h := nullary_fix (fixP2_13 Vf hfix).2.2.2.2.2.2.2.2.2.2.2.2.1
  simpa only [TRef.toBuf, TRef.ofBuf, cast_eq] using h
theorem e_main_call20_v11 : Vf (Proc.devRef .tc main_call20_v11) = (broadcastInDim S8386560 ![] bcast_S_S8386560) (Vf (Proc.devRef .tc main_call20_c_0) : (⟨S_, .i32⟩ : BufTy).Contents (Elt F)) :=
  by
  have h := unary_fix (fixP2_13 Vf hfix).2.2.2.2.2.2.2.2.2.2.2.2.2.1
  simpa only [TRef.toBuf, TRef.ofBuf, cast_eq] using h
theorem e_main_call20_v12 : Vf (Proc.devRef .tc main_call20_v12) = subi (Vf (Proc.devRef .tc main_call20_v1) : (⟨S8386560, .i32⟩ : BufTy).Contents (Elt F)) (Vf (Proc.devRef .tc main_call20_v11) : (⟨S8386560, .i32⟩ : BufTy).Contents (Elt F)) :=
  by
  have h := binary_fix (fixP2_13 Vf hfix).2.2.2.2.2.2.2.2.2.2.2.2.2.2.1
  simpa only [TRef.toBuf, TRef.ofBuf, cast_eq] using h
theorem e_main_v134 : Vf (Proc.devRef .tc main_v134) = select (Vf (Proc.devRef .tc main_call20_v10) : (⟨S8386560, .i1⟩ : BufTy).Contents (Elt F)) (Vf (Proc.devRef .tc main_call20_v12) : (⟨S8386560, .i32⟩ : BufTy).Contents (Elt F)) (Vf (Proc.devRef .tc main_call20_v1) : (⟨S8386560, .i32⟩ : BufTy).Contents (Elt F)) :=
  by
  have h := ternary_fix (fixP2_13 Vf hfix).2.2.2.2.2.2.2.2.2.2.2.2.2.2.2
  simpa only [TRef.toBuf, TRef.ofBuf, cast_eq] using h

theorem fixP2_14 : (opsP2_14 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))
theorem e_main_c_30 : Vf (Proc.devRef .tc main_c_30) = (constantI S_ 32 4096#32) :=
  nullary_fix (fixP2_14 Vf hfix)

theorem fixP2_15 : (opsP2_15 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))
theorem e_main_call21_v0 : Vf (Proc.devRef .tc main_call21_v0) = id (Vf (Proc.devRef .tc main_c_30) : (⟨S_, .i32⟩ : BufTy).Contents (Elt F)) :=
  by
  have h := unary_fix (fixP2_15 Vf hfix).1
  simpa only [TRef.toBuf, TRef.ofBuf, cast_eq] using h
theorem e_main_call21_c : Vf (Proc.devRef .tc main_call21_c) = (constantI S_ 32 0#32) :=
  by
  have h := nullary_fix (fixP2_15 Vf hfix).2.1
  simpa only [TRef.toBuf, TRef.ofBuf, cast_eq] using h
theorem e_main_call21_v1 : Vf (Proc.devRef .tc main_call21_v1) = (cmpi .eq) (Vf (Proc.devRef .tc main_call21_v0) : (⟨S_, .i32⟩ : BufTy).Contents (Elt F)) (Vf (Proc.devRef .tc main_call21_c) : (⟨S_, .i32⟩ : BufTy).Contents (Elt F)) :=
  by
  have h := binary_fix (fixP2_15 Vf hfix).2.2.1
  simpa only [TRef.toBuf, TRef.ofBuf, cast_eq] using h
theorem e_main_call21_c_0 : Vf (Proc.devRef .tc main_call21_c_0) = (constantI S_ 32 1#32) :=
  by
  have h := nullary_fix (fixP2_15 Vf hfix).2.2.2.1
  simpa only [TRef.toBuf, TRef.ofBuf, cast_eq] using h
theorem e_main_call21_v2 : Vf (Proc.devRef .tc main_call21_v2) = select (Vf (Proc.devRef .tc main_call21_v1) : (⟨S_, .i1⟩ : BufTy).Contents (Elt F)) (Vf (Proc.devRef .tc main_call21_c_0) : (⟨S_, .i32⟩ : BufTy).Contents (Elt F)) (Vf (Proc.devRef .tc main_call21_v0) : (⟨S_, .i32⟩ : BufTy).Contents (Elt F)) :=
  by
  have h := ternary_fix (fixP2_15 Vf hfix).2.2.2.2.1
  simpa only [TRef.toBuf, TRef.ofBuf, cast_eq] using h
theorem e_main_call21_v3 : Vf (Proc.devRef .tc main_call21_v3) = (broadcastInDim S8386560 ![] bcast_S_S8386560) (Vf (Proc.devRef .tc main_call21_v2) : (⟨S_, .i32⟩ : BufTy).Contents (Elt F)) :=
  by
  have h := unary_fix (fixP2_15 Vf hfix).2.2.2.2.2.1
  simpa only [TRef.toBuf, TRef.ofBuf, cast_eq] using h
theorem e_main_call21_v4 : Vf (Proc.devRef .tc main_call21_v4) = Host.remsi (Vf (Proc.devRef .tc main_v134) : (⟨S8386560, .i32⟩ : BufTy).Contents (Elt F)) (Vf (Proc.devRef .tc main_call21_v3) : (⟨S8386560, .i32⟩ : BufTy).Contents (Elt F)) :=
  by
  have h := binary_fix (fixP2_15 Vf hfix).2.2.2.2.2.2.1
  simpa only [TRef.toBuf, TRef.ofBuf, cast_eq] using h
theorem e_main_call21_c_1 : Vf (Proc.devRef .tc main_call21_c_1) = (constantI S_ 32 0#32) :=
  by
  have h := nullary_fix (fixP2_15 Vf hfix).2.2.2.2.2.2.2.1
  simpa only [TRef.toBuf, TRef.ofBuf, cast_eq] using h
theorem e_main_call21_v5 : Vf (Proc.devRef .tc main_call21_v5) = (broadcastInDim S8386560 ![] bcast_S_S8386560) (Vf (Proc.devRef .tc main_call21_c_1) : (⟨S_, .i32⟩ : BufTy).Contents (Elt F)) :=
  by
  have h := unary_fix (fixP2_15 Vf hfix).2.2.2.2.2.2.2.2.1
  simpa only [TRef.toBuf, TRef.ofBuf, cast_eq] using h
theorem e_main_call21_v6 : Vf (Proc.devRef .tc main_call21_v6) = (cmpi .ne) (Vf (Proc.devRef .tc main_call21_v4) : (⟨S8386560, .i32⟩ : BufTy).Contents (Elt F)) (Vf (Proc.devRef .tc main_call21_v5) : (⟨S8386560, .i32⟩ : BufTy).Contents (Elt F)) :=
  by
  have h := binary_fix (fixP2_15 Vf hfix).2.2.2.2.2.2.2.2.2.1
  simpa only [TRef.toBuf, TRef.ofBuf, cast_eq] using h
theorem e_main_call21_c_2 : Vf (Proc.devRef .tc main_call21_c_2) = (constantI S_ 32 0#32) :=
  by
  have h := nullary_fix (fixP2_15 Vf hfix).2.2.2.2.2.2.2.2.2.2.1
  simpa only [TRef.toBuf, TRef.ofBuf, cast_eq] using h
theorem e_main_call21_v7 : Vf (Proc.devRef .tc main_call21_v7) = (broadcastInDim S8386560 ![] bcast_S_S8386560) (Vf (Proc.devRef .tc main_call21_c_2) : (⟨S_, .i32⟩ : BufTy).Contents (Elt F)) :=
  by
  have h := unary_fix (fixP2_15 Vf hfix).2.2.2.2.2.2.2.2.2.2.2.1
  simpa only [TRef.toBuf, TRef.ofBuf, cast_eq] using h
theorem e_main_call21_v8 : Vf (Proc.devRef .tc main_call21_v8) = (cmpi .slt) (Vf (Proc.devRef .tc main_call21_v4) : (⟨S8386560, .i32⟩ : BufTy).Contents (Elt F)) (Vf (Proc.devRef .tc main_call21_v7) : (⟨S8386560, .i32⟩ : BufTy).Contents (Elt F)) :=
  by
  have h := binary_fix (fixP2_15 Vf hfix).2.2.2.2.2.2.2.2.2.2.2.2.1
  simpa only [TRef.toBuf, TRef.ofBuf, cast_eq] using h
theorem e_main_call21_c_3 : Vf (Proc.devRef .tc main_call21_c_3) = (constantI S_ 32 0#32) :=
  by
  have h := nullary_fix (fixP2_15 Vf hfix).2.2.2.2.2.2.2.2.2.2.2.2.2.1
  simpa only [TRef.toBuf, TRef.ofBuf, cast_eq] using h
theorem e_main_call21_v9 : Vf (Proc.devRef .tc main_call21_v9) = (cmpi .slt) (Vf (Proc.devRef .tc main_call21_v2) : (⟨S_, .i32⟩ : BufTy).Contents (Elt F)) (Vf (Proc.devRef .tc main_call21_c_3) : (⟨S_, .i32⟩ : BufTy).Contents (Elt F)) :=
  by
  have h := binary_fix (fixP2_15 Vf hfix).2.2.2.2.2.2.2.2.2.2.2.2.2.2.1
  simpa only [TRef.toBuf, TRef.ofBuf, cast_eq] using h
theorem e_main_call21_v10 : Vf (Proc.devRef .tc main_call21_v10) = (broadcastInDim S8386560 ![] bcast_S_S8386560) (Vf (Proc.devRef .tc main_call21_v9) : (⟨S_, .i1⟩ : BufTy).Contents (Elt F)) :=
  by
  have h := unary_fix (fixP2_15 Vf hfix).2.2.2.2.2.2.2.2.2.2.2.2.2.2.2.1
  simpa only [TRef.toBuf, TRef.ofBuf, cast_eq] using h
theorem e_main_call21_v11 : Vf (Proc.devRef .tc main_call21_v11) = (cmpi .ne) (Vf (Proc.devRef .tc main_call21_v8) : (⟨S8386560, .i1⟩ : BufTy).Contents (Elt F)) (Vf (Proc.devRef .tc main_call21_v10) : (⟨S8386560, .i1⟩ : BufTy).Contents (Elt F)) :=
  by
  have h := binary_fix (fixP2_15 Vf hfix).2.2.2.2.2.2.2.2.2.2.2.2.2.2.2.2.1
  simpa only [TRef.toBuf, TRef.ofBuf, cast_eq] using h
theorem e_main_call21_v12 : Vf (Proc.devRef .tc main_call21_v12) = andi (Vf (Proc.devRef .tc main_call21_v11) : (⟨S8386560, .i1⟩ : BufTy).Contents (Elt F)) (Vf (Proc.devRef .tc main_call21_v6) : (⟨S8386560, .i1⟩ : BufTy).Contents (Elt F)) :=
  by
  have h := binary_fix (fixP2_15 Vf hfix).2.2.2.2.2.2.2.2.2.2.2.2.2.2.2.2.2.1
  simpa only [TRef.toBuf, TRef.ofBuf, cast_eq] using h
theorem e_main_call21_v13 : Vf (Proc.devRef .tc main_call21_v13) = (broadcastInDim S8386560 ![] bcast_S_S8386560) (Vf (Proc.devRef .tc main_call21_v2) : (⟨S_, .i32⟩ : BufTy).Contents (Elt F)) :=
  by
  have h := unary_fix (fixP2_15 Vf hfix).2.2.2.2.2.2.2.2.2.2.2.2.2.2.2.2.2.2.1
  simpa only [TRef.toBuf, TRef.ofBuf, cast_eq] using h
theorem e_main_call21_v14 : Vf (Proc.devRef .tc main_call21_v14) = addi (Vf (Proc.devRef .tc main_call21_v4) : (⟨S8386560, .i32⟩ : BufTy).Contents (Elt F)) (Vf (Proc.devRef .tc main_call21_v13) : (⟨S8386560, .i32⟩ : BufTy).Contents (Elt F)) :=
  by
  have h := binary_fix (fixP2_15 Vf hfix).2.2.2.2.2.2.2.2.2.2.2.2.2.2.2.2.2.2.2.1
  simpa only [TRef.toBuf, TRef.ofBuf, cast_eq] using h
theorem e_main_v135 : Vf (Proc.devRef .tc main_v135) = select (Vf (Proc.devRef .tc main_call21_v12) : (⟨S8386560, .i1⟩ : BufTy).Contents (Elt F)) (Vf (Proc.devRef .tc main_call21_v14) : (⟨S8386560, .i32⟩ : BufTy).Contents (Elt F)) (Vf (Proc.devRef .tc main_call21_v4) : (⟨S8386560, .i32⟩ : BufTy).Contents (Elt F)) :=
  by
  have h := ternary_fix (fixP2_15 Vf hfix).2.2.2.2.2.2.2.2.2.2.2.2.2.2.2.2.2.2.2.2
  simpa only [TRef.toBuf, TRef.ofBuf, cast_eq] using h

theorem fixP2_16 : (opsP2_16 : List (HloOp τ sig (Elt F))).Forall (Fix Vf) :=
  List.forall_iff_forall_mem.2 fun op h => hfix op (mem_ops_of_P2 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))))))))
theorem e_main_c_31 : Vf (Proc.devRef .tc main_c_31) = (constantI S_ 32 0#32) :=
  nullary_fix (fixP2_16 Vf hfix).1
theorem e_main_v136 : Vf (Proc.devRef .tc main_v136) = (broadcastInDim S8386560 ![] bcast_S_S8386560 : (⟨S_, .i32⟩ : BufTy).Contents (Elt F) → (⟨S8386560, .i32⟩ : BufTy).Contents (Elt F)) (Vf (Proc.devRef .tc main_c_31)) :=
  unary_fix (fixP2_16 Vf hfix).2.1
theorem e_main_v137 : Vf (Proc.devRef .tc main_v137) = (cmpi .slt : (⟨S8386560, .i32⟩ : BufTy).Contents (Elt F) → (⟨S8386560, .i32⟩ : BufTy).Contents (Elt F) → (⟨S8386560, .i1⟩ : BufTy).Contents (Elt F)) (Vf (Proc.devRef .tc main_v133)) (Vf (Proc.devRef .tc main_v136)) :=
  binary_fix (fixP2_16 Vf hfix).2.2.1
theorem e_main_c_32 : Vf (Proc.devRef .tc main_c_32) = (constantI S_ 32 4096#32) :=
  nullary_fix (fixP2_16 Vf hfix).2.2.2.1
theorem e_main_v138 : Vf (Proc.devRef .tc main_v138) = (broadcastInDim S8386560 ![] bcast_S_S8386560 : (⟨S_, .i32⟩ : BufTy).Contents (Elt F) → (⟨S8386560, .i32⟩ : BufTy).Contents (Elt F)) (Vf (Proc.devRef .tc main_c_32)) :=
  unary_fix (fixP2_16 Vf hfix).2.2.2.2.1
theorem e_main_v139 : Vf (Proc.devRef .tc main_v139) = (addi : (⟨S8386560, .i32⟩ : BufTy).Contents (Elt F) → (⟨S8386560, .i32⟩ : BufTy).Contents (Elt F) → (⟨S8386560, .i32⟩ : BufTy).Contents (Elt F)) (Vf (Proc.devRef .tc main_v133)) (Vf (Proc.devRef .tc main_v138)) :=
  binary_fix (fixP2_16 Vf hfix).2.2.2.2.2.1
theorem e_main_v140 : Vf (Proc.devRef .tc main_v140) = (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) (Vf (Proc.devRef .tc main_v137)) (Vf (Proc.devRef .tc main_v139)) (Vf (Proc.devRef .tc main_v133)) :=
  ternary_fix (fixP2_16 Vf hfix).2.2.2.2.2.2.1
theorem e_main_c_33 : Vf (Proc.devRef .tc main_c_33) = (constantI S_ 32 0#32) :=
  nullary_fix (fixP2_16 Vf hfix).2.2.2.2.2.2.2.1
theorem e_main_v141 : Vf (Proc.devRef .tc main_v141) = (broadcastInDim S8386560 ![] bcast_S_S8386560 : (⟨S_, .i32⟩ : BufTy).Contents (Elt F) → (⟨S8386560, .i32⟩ : BufTy).Contents (Elt F)) (Vf (Proc.devRef .tc main_c_33)) :=
  unary_fix (fixP2_16 Vf hfix).2.2.2.2.2.2.2.2.1
theorem e_main_v142 : Vf (Proc.devRef .tc main_v142) = (cmpi .slt : (⟨S8386560, .i32⟩ : BufTy).Contents (Elt F) → (⟨S8386560, .i32⟩ : BufTy).Contents (Elt F) → (⟨S8386560, .i1⟩ : BufTy).Contents (Elt F)) (Vf (Proc.devRef .tc main_v135)) (Vf (Proc.devRef .tc main_v141)) :=
  binary_fix (fixP2_16 Vf hfix).2.2.2.2.2.2.2.2.2.1
theorem e_main_c_34 : Vf (Proc.devRef .tc main_c_34) = (constantI S_ 32 4096#32) :=
  nullary_fix (fixP2_16 Vf hfix).2.2.2.2.2.2.2.2.2.2

end

end Cert.ReferenceIdeal.Hand

end
-- ==== Proof.Ref.Eqs3.lean ====
import proofs.«135652_j20272245637753_1_alg».proof.Proof.Ref.Fix

/-! # The reference's final contents, window 3: one equation per operation

For contents `Vf` that every operation of the line leaves fixed (the final contents of the line are such), the
equation of each operation of window 3: its result buffer holds its function of its operand buffers' contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

section
variable (Vf : Valuation τ sig (Elt F)) (hfix : ∀ op ∈ (ops : List (HloOp τ sig (Elt F))), Fix Vf op)
include hfix

theorem fixP3_0 : (opsP3_0 : List (HloOp τ sig (Elt F))).Forall (Fix Vf) :=
  List.forall_iff_forall_mem.2 fun op h => hfix op (mem_ops_of_P3 (List.mem_append_left _ h))
theorem e_main_v143 : Vf (Proc.devRef .tc main_v143) = (broadcastInDim S8386560 ![] bcast_S_S8386560 : (⟨S_, .i32⟩ : BufTy).Contents (Elt F) → (⟨S8386560, .i32⟩ : BufTy).Contents (Elt F)) (Vf (Proc.devRef .tc main_c_34)) :=
  unary_fix (fixP3_0 Vf hfix).1
theorem e_main_v144 : Vf (Proc.devRef .tc main_v144) = (addi : (⟨S8386560, .i32⟩ : BufTy).Contents (Elt F) → (⟨S8386560, .i32⟩ : BufTy).Contents (Elt F) → (⟨S8386560, .i32⟩ : BufTy).Contents (Elt F)) (Vf (Proc.devRef .tc main_v135)) (Vf (Proc.devRef .tc main_v143)) :=
  binary_fix (fixP3_0 Vf hfix).2.1
theorem e_main_v145 : Vf (Proc.devRef .tc main_v145) = (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) (Vf (Proc.devRef .tc main_v142)) (Vf (Proc.devRef .tc main_v144)) (Vf (Proc.devRef .tc main_v135)) :=
  ternary_fix (fixP3_0 Vf hfix).2.2.1
theorem e_main_v146 : Vf (Proc.devRef .tc main_v146) = (broadcastInDim S8386560x1 ![0] bcast_S8386560_S8386560x1_0 : (⟨S8386560, .i32⟩ : BufTy).Contents (Elt F) → (⟨S8386560x1, .i32⟩ : BufTy).Contents (Elt F)) (Vf (Proc.devRef .tc main_v140)) :=
  unary_fix (fixP3_0 Vf hfix).2.2.2.1
theorem e_main_v147 : Vf (Proc.devRef .tc main_v147) = (broadcastInDim S8386560x1 ![0] bcast_S8386560_S8386560x1_0 : (⟨S8386560, .i32⟩ : BufTy).Contents (Elt F) → (⟨S8386560x1, .i32⟩ : BufTy).Contents (Elt F)) (Vf (Proc.devRef .tc main_v145)) :=
  unary_fix (fixP3_0 Vf hfix).2.2.2.2.1
theorem e_main_v148 : Vf (Proc.devRef .tc main_v148) = ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) (Vf (Proc.devRef .tc main_v146)) (Vf (Proc.devRef .tc main_v147)) :=
  binary_fix (fixP3_0 Vf hfix).2.2.2.2.2.1
theorem e_main_v149 : Vf (Proc.devRef .tc main_v149) = ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) (Vf (Proc.devRef .tc main_v115)) (Vf (Proc.devRef .tc main_v148)) :=
  binary_fix (fixP3_0 Vf hfix).2.2.2.2.2.2.1
theorem e_main_cst_35 : Vf (Proc.devRef .tc main_cst_35) = (constant S_ .f32 0x00000000#32) :=
  nullary_fix (fixP3_0 Vf hfix).2.2.2.2.2.2.2.1
theorem e_main_v150 : Vf (Proc.devRef .tc main_v150) = (broadcastInDim S8386560 ![] bcast_S_S8386560 : (⟨S_, .f32⟩ : BufTy).Contents (Elt F) → (⟨S8386560, .f32⟩ : BufTy).Contents (Elt F)) (Vf (Proc.devRef .tc main_cst_35)) :=
  unary_fix (fixP3_0 Vf hfix).2.2.2.2.2.2.2.2.1
theorem e_main_v151 : Vf (Proc.devRef .tc main_v151) = (maximumf : (⟨S8386560, .f32⟩ : BufTy).Contents (Elt F) → (⟨S8386560, .f32⟩ : BufTy).Contents (Elt F) → (⟨S8386560, .f32⟩ : BufTy).Contents (Elt F)) (Vf (Proc.devRef .tc main_v149)) (Vf (Proc.devRef .tc main_v150)) :=
  binary_fix (fixP3_0 Vf hfix).2.2.2.2.2.2.2.2.2.1
theorem e_main_v152 : Vf (Proc.devRef .tc main_v152) = (Host.sqrt : (⟨S8386560, .f32⟩ : BufTy).Contents (Elt F) → (⟨S8386560, .f32⟩ : BufTy).Contents (Elt F)) (Vf (Proc.devRef .tc main_v151)) :=
  unary_fix (fixP3_0 Vf hfix).2.2.2.2.2.2.2.2.2.2.1
theorem e_main_v153 : Vf (Proc.devRef .tc main_v153) = (mulf : (⟨S4096x784, .f32⟩ : BufTy).Contents (Elt F) → (⟨S4096x784, .f32⟩ : BufTy).Contents (Elt F) → (⟨S4096x784, .f32⟩ : BufTy).Contents (Elt F)) (Vf (Proc.devRef .tc main_v53)) (Vf (Proc.devRef .tc main_v53)) :=
  binary_fix (fixP3_0 Vf hfix).2.2.2.2.2.2.2.2.2.2.2.1
theorem e_main_cst_36 : Vf (Proc.devRef .tc main_cst_36) = (constant S_ .f32 0x00000000#32) :=
  nullary_fix (fixP3_0 Vf hfix).2.2.2.2.2.2.2.2.2.2.2.2.1
theorem e_main_v154 : Vf (Proc.devRef .tc main_v154) = ((fun x v => Host.reduceAdd x v reducesTo_S4096x784_S4096_d1 h_S_) : (⟨S4096x784, .f32⟩ : BufTy).Contents (Elt F) → (⟨S_, .f32⟩ : BufTy).Contents (Elt F) → (⟨S4096, .f32⟩ : BufTy).Contents (Elt F)) (Vf (Proc.devRef .tc main_v153)) (Vf (Proc.devRef .tc main_cst_36)) :=
  binary_fix (fixP3_0 Vf hfix).2.2.2.2.2.2.2.2.2.2.2.2.2.1
theorem e_main_v155 : Vf (Proc.devRef .tc main_v155) = (broadcastInDim S4096x1 ![0] bcast_S4096_S4096x1_0 : (⟨S4096, .f32⟩ : BufTy).Contents (Elt F) → (⟨S4096x1, .f32⟩ : BufTy).Contents (Elt F)) (Vf (Proc.devRef .tc main_v154)) :=
  unary_fix (fixP3_0 Vf hfix).2.2.2.2.2.2.2.2.2.2.2.2.2.2.1
theorem e_main_v156 : Vf (Proc.devRef .tc main_v156) = (broadcastInDim S1x4096 ![1] bcast_S4096_S1x4096_1 : (⟨S4096, .f32⟩ : BufTy).Contents (Elt F) → (⟨S1x4096, .f32⟩ : BufTy).Contents (Elt F)) (Vf (Proc.devRef .tc main_v154)) :=
  unary_fix (fixP3_0 Vf hfix).2.2.2.2.2.2.2.2.2.2.2.2.2.2.2.1
theorem e_main_v157 : Vf (Proc.devRef .tc main_v157) = (broadcastInDim S4096x4096 ![0, 1] bcast_S4096x1_S4096x4096_0_1 : (⟨S4096x1, .f32⟩ : BufTy).Contents (Elt F) → (⟨S4096x4096, .f32⟩ : BufTy).Contents (Elt F)) (Vf (Proc.devRef .tc main_v155)) :=
  unary_fix (fixP3_0 Vf hfix).2.2.2.2.2.2.2.2.2.2.2.2.2.2.2.2.1
theorem e_main_v158 : Vf (Proc.devRef .tc main_v158) = (broadcastInDim S4096x4096 ![0, 1] bcast_S1x4096_S4096x4096_0_1 : (⟨S1x4096, .f32⟩ : BufTy).Contents (Elt F) → (⟨S4096x4096, .f32⟩ : BufTy).Contents (Elt F)) (Vf (Proc.devRef .tc main_v156)) :=
  unary_fix (fixP3_0 Vf hfix).2.2.2.2.2.2.2.2.2.2.2.2.2.2.2.2.2.1
theorem e_main_v159 : Vf (Proc.devRef .tc main_v159) = (addf : (⟨S4096x4096, .f32⟩ : BufTy).Contents (Elt F) → (⟨S4096x4096, .f32⟩ : BufTy).Contents (Elt F) → (⟨S4096x4096, .f32⟩ : BufTy).Contents (Elt F)) (Vf (Proc.devRef .tc main_v157)) (Vf (Proc.devRef .tc main_v158)) :=
  binary_fix (fixP3_0 Vf hfix).2.2.2.2.2.2.2.2.2.2.2.2.2.2.2.2.2.2.1
theorem e_main_v160 : Vf (Proc.devRef .tc main_v160) = ((transpose S784x4096 [1, 0] · transposes_S4096x784_S784x4096_1_0) : (⟨S4096x784, .f32⟩ : BufTy).Contents (Elt F) → (⟨S784x4096, .f32⟩ : BufTy).Contents (Elt F)) (Vf (Proc.devRef .tc main_v53)) :=
  unary_fix (fixP3_0 Vf hfix).2.2.2.2.2.2.2.2.2.2.2.2.2.2.2.2.2.2.2.1
theorem e_main_v161 : Vf (Proc.devRef .tc main_v161) = ((fun l r => Host.dotGeneral dot_S4096x784_S784x4096_S4096x4096_1_0_0_1_n_n none l r) : (⟨S4096x784, .f32⟩ : BufTy).Contents (Elt F) → (⟨S784x4096, .f32⟩ : BufTy).Contents (Elt F) → (⟨S4096x4096, .f32⟩ : BufTy).Contents (Elt F)) (Vf (Proc.devRef .tc main_v53)) (Vf (Proc.devRef .tc main_v160)) :=
  binary_fix (fixP3_0 Vf hfix).2.2.2.2.2.2.2.2.2.2.2.2.2.2.2.2.2.2.2.2.1
theorem e_main_cst_37 : Vf (Proc.devRef .tc main_cst_37) = (constant S_ .f32 0x40000000#32) :=
  nullary_fix (fixP3_0 Vf hfix).2.2.2.2.2.2.2.2.2.2.2.2.2.2.2.2.2.2.2.2.2.1
theorem e_main_v162 : Vf (Proc.devRef .tc main_v162) = (broadcastInDim S4096x4096 ![] bcast_S_S4096x4096 : (⟨S_, .f32⟩ : BufTy).Contents (Elt F) → (⟨S4096x4096, .f32⟩ : BufTy).Contents (Elt F)) (Vf (Proc.devRef .tc main_cst_37)) :=
  unary_fix (fixP3_0 Vf hfix).2.2.2.2.2.2.2.2.2.2.2.2.2.2.2.2.2.2.2.2.2.2.1
theorem e_main_v163 : Vf (Proc.devRef .tc main_v163) = (mulf : (⟨S4096x4096, .f32⟩ : BufTy).Contents (Elt F) → (⟨S4096x4096, .f32⟩ : BufTy).Contents (Elt F) → (⟨S4096x4096, .f32⟩ : BufTy).Contents (Elt F)) (Vf (Proc.devRef .tc main_v162)) (Vf (Proc.devRef .tc main_v161)) :=
  binary_fix (fixP3_0 Vf hfix).2.2.2.2.2.2.2.2.2.2.2.2.2.2.2.2.2.2.2.2.2.2.2.1
theorem e_main_v164 : Vf (Proc.devRef .tc main_v164) = (subf : (⟨S4096x4096, .f32⟩ : BufTy).Contents (Elt F) → (⟨S4096x4096, .f32⟩ : BufTy).Contents (Elt F) → (⟨S4096x4096, .f32⟩ : BufTy).Contents (Elt F)) (Vf (Proc.devRef .tc main_v159)) (Vf (Proc.devRef .tc main_v163)) :=
  binary_fix (fixP3_0 Vf hfix).2.2.2.2.2.2.2.2.2.2.2.2.2.2.2.2.2.2.2.2.2.2.2.2.1
theorem e_main_cst_38 : Vf (Proc.devRef .tc main_cst_38) = (constant S_ .f32 0x3F800000#32) :=
  nullary_fix (fixP3_0 Vf hfix).2.2.2.2.2.2.2.2.2.2.2.2.2.2.2.2.2.2.2.2.2.2.2.2.2.1
theorem e_main_v165 : Vf (Proc.devRef .tc main_v165) = (broadcastInDim S4096x4096 ![] bcast_S_S4096x4096 : (⟨S_, .f32⟩ : BufTy).Contents (Elt F) → (⟨S4096x4096, .f32⟩ : BufTy).Contents (Elt F)) (Vf (Proc.devRef .tc main_cst_38)) :=
  unary_fix (fixP3_0 Vf hfix).2.2.2.2.2.2.2.2.2.2.2.2.2.2.2.2.2.2.2.2.2.2.2.2.2.2

theorem fixP3_1 : (opsP3_1 : List (HloOp τ sig (Elt F))).Forall (Fix Vf) :=
  List.forall_iff_forall_mem.2 fun op h => hfix op (mem_ops_of_P3 (List.mem_append_right _ (List.mem_append_left _ h)))
theorem e_main_call22_v0 : Vf (Proc.devRef .tc main_call22_v0) = (iotaInDim S4096x4096 32 0) :=
  by
  have h := nullary_fix (fixP3_1 Vf hfix).1
  simpa only [TRef.toBuf, TRef.ofBuf, cast_eq] using h
theorem e_main_call22_c : Vf (Proc.devRef .tc main_call22_c) = (constantI S_ 32 0#32) :=
  by
  have h := nullary_fix (fixP3_1 Vf hfix).2.1
  simpa only [TRef.toBuf, TRef.ofBuf, cast_eq] using h
theorem e_main_call22_v1 : Vf (Proc.devRef .tc main_call22_v1) = (broadcastInDim S4096x4096 ![] bcast_S_S4096x4096) (Vf (Proc.devRef .tc main_call22_c) : (⟨S_, .i32⟩ : BufTy).Contents (Elt F)) :=
  by
  have h := unary_fix (fixP3_1 Vf hfix).2.2.1
  simpa only [TRef.toBuf, TRef.ofBuf, cast_eq] using h
theorem e_main_call22_v2 : Vf (Proc.devRef .tc main_call22_v2) = addi (Vf (Proc.devRef .tc main_call22_v0) : (⟨S4096x4096, .i32⟩ : BufTy).Contents (Elt F)) (Vf (Proc.devRef .tc main_call22_v1) : (⟨S4096x4096, .i32⟩ : BufTy).Contents (Elt F)) :=
  by
  have h := binary_fix (fixP3_1 Vf hfix).2.2.2.1
  simpa only [TRef.toBuf, TRef.ofBuf, cast_eq] using h
theorem e_main_call22_v3 : Vf (Proc.devRef .tc main_call22_v3) = (iotaInDim S4096x4096 32 1) :=
  by
  have h := nullary_fix (fixP3_1 Vf hfix).2.2.2.2.1
  simpa only [TRef.toBuf, TRef.ofBuf, cast_eq] using h
theorem e_main_call22_v4 : Vf (Proc.devRef .tc main_call22_v4) = (cmpi .sge) (Vf (Proc.devRef .tc main_call22_v2) : (⟨S4096x4096, .i32⟩ : BufTy).Contents (Elt F)) (Vf (Proc.devRef .tc main_call22_v3) : (⟨S4096x4096, .i32⟩ : BufTy).Contents (Elt F)) :=
  by
  have h := binary_fix (fixP3_1 Vf hfix).2.2.2.2.2.1
  simpa only [TRef.toBuf, TRef.ofBuf, cast_eq] using h
theorem e_main_call22_cst : Vf (Proc.devRef .tc main_call22_cst) = (constant S_ .f32 0x00000000#32) :=
  by
  have h := nullary_fix (fixP3_1 Vf hfix).2.2.2.2.2.2.1
  simpa only [TRef.toBuf, TRef.ofBuf, cast_eq] using h
theorem e_main_call22_v5 : Vf (Proc.devRef .tc main_call22_v5) = (broadcastInDim S4096x4096 ![] bcast_S_S4096x4096) (Vf (Proc.devRef .tc main_call22_cst) : (⟨S_, .f32⟩ : BufTy).Contents (Elt F)) :=
  by
  have h := unary_fix (fixP3_1 Vf hfix).2.2.2.2.2.2.2.1
  simpa only [TRef.toBuf, TRef.ofBuf, cast_eq] using h
theorem e_main_v166 : Vf (Proc.devRef .tc main_v166) = select (Vf (Proc.devRef .tc main_call22_v4) : (⟨S4096x4096, .i1⟩ : BufTy).Contents (Elt F)) (Vf (Proc.devRef .tc main_call22_v5) : (⟨S4096x4096, .f32⟩ : BufTy).Contents (Elt F)) (Vf (Proc.devRef .tc main_v165) : (⟨S4096x4096, .f32⟩ : BufTy).Contents (Elt F)) :=
  by
  have h := ternary_fix (fixP3_1 Vf hfix).2.2.2.2.2.2.2.2
  simpa only [TRef.toBuf, TRef.ofBuf, cast_eq] using h

theorem fixP3_2 : (opsP3_2 : List (HloOp τ sig (Elt F))).Forall (Fix Vf) :=
  List.forall_iff_forall_mem.2 fun op h => hfix op (mem_ops_of_P3 (List.mem_append_right _ (List.mem_append_right _ (List.mem_append_left _ h))))
theorem e_main_cst_39 : Vf (Proc.devRef .tc main_cst_39) = (constant S_ .f32 0x00000000#32) :=
  nullary_fix (fixP3_2 Vf hfix).1
theorem e_main_v167 : Vf (Proc.devRef .tc main_v167) = (broadcastInDim S4096x4096 ![] bcast_S_S4096x4096 : (⟨S_, .f32⟩ : BufTy).Contents (Elt F) → (⟨S4096x4096, .f32⟩ : BufTy).Contents (Elt F)) (Vf (Proc.devRef .tc main_cst_39)) :=
  unary_fix (fixP3_2 Vf hfix).2.1
theorem e_main_v168 : Vf (Proc.devRef .tc main_v168) = (cmpf .une : (⟨S4096x4096, .f32⟩ : BufTy).Contents (Elt F) → (⟨S4096x4096, .f32⟩ : BufTy).Contents (Elt F) → (⟨S4096x4096, .i1⟩ : BufTy).Contents (Elt F)) (Vf (Proc.devRef .tc main_v166)) (Vf (Proc.devRef .tc main_v167)) :=
  binary_fix (fixP3_2 Vf hfix).2.2

theorem fixP3_3 : (opsP3_3 : List (HloOp τ sig (Elt F))).Forall (Fix Vf) :=
  List.forall_iff_forall_mem.2 fun op h => hfix op (mem_ops_of_P3 (List.mem_append_right _ (List.mem_append_right _ (List.mem_append_right _ (List.mem_append_left _ h)))))
theorem e_main_call23_v0 : Vf (Proc.devRef .tc main_call23_v0) = shapeCast S16777216 (Vf (Proc.devRef .tc main_v168)) shapeCasts_S4096x4096_S16777216 :=
  (reshape_fix (fixP3_3 Vf hfix).1).trans rfl
theorem e_main_call23_v1 : Vf (Proc.devRef .tc main_call23_v1) = (extui 32 · natLt_1_32) (Vf (Proc.devRef .tc main_call23_v0) : (⟨S16777216, .i1⟩ : BufTy).Contents (Elt F)) :=
  by
  have h := unary_fix (fixP3_3 Vf hfix).2.1
  simpa only [TRef.toBuf, TRef.ofBuf, cast_eq] using h
theorem e_main_call23_call0_c : Vf (Proc.devRef .tc main_call23_call0_c) = (constantI S_ 32 0#32) :=
  by
  have h := nullary_fix (fixP3_3 Vf hfix).2.2.1
  simpa only [TRef.toBuf, TRef.ofBuf, cast_eq] using h
theorem e_main_call23_call0_v0 : Vf (Proc.devRef .tc main_call23_call0_v0) = (broadcastInDim S_ ![] bcast_S_S_) (Vf (Proc.devRef .tc main_call23_call0_c) : (⟨S_, .i32⟩ : BufTy).Contents (Elt F)) :=
  by
  have h := unary_fix (fixP3_3 Vf hfix).2.2.2.1
  simpa only [TRef.toBuf, TRef.ofBuf, cast_eq] using h
theorem e_main_v169 : Vf (Proc.devRef .tc main_v169) = (fun x v => Host.reduceWindow IntOp.addi ![16777216] ![1] ![16777215] ![0] x v reduceWindows_S16777216_S16777216_w16777216s1p16777215_0 h_S_) (Vf (Proc.devRef .tc main_call23_v1) : (⟨S16777216, .i32⟩ : BufTy).Contents (Elt F)) (Vf (Proc.devRef .tc main_call23_call0_v0) : (⟨S_, .i32⟩ : BufTy).Contents (Elt F)) :=
  by
  have h := binary_fix (fixP3_3 Vf hfix).2.2.2.2
  simpa only [TRef.toBuf, TRef.ofBuf, cast_eq] using h

theorem fixP3_4 : (opsP3_4 : List (HloOp τ sig (Elt F))).Forall (Fix Vf) :=
  List.forall_iff_forall_mem.2 fun op h => hfix op (mem_ops_of_P3 (List.mem_append_right _ (List.mem_append_right _ (List.mem_append_right _ (List.mem_append_right _ (List.mem_append_left _ h))))))
theorem e_main_c_40 : Vf (Proc.devRef .tc main_c_40) = (constantI S_ 32 0#32) :=
  nullary_fix (fixP3_4 Vf hfix).1
theorem e_main_v170 : Vf (Proc.devRef .tc main_v170) = (broadcastInDim S8386560 ![] bcast_S_S8386560 : (⟨S_, .i32⟩ : BufTy).Contents (Elt F) → (⟨S8386560, .i32⟩ : BufTy).Contents (Elt F)) (Vf (Proc.devRef .tc main_c_40)) :=
  unary_fix (fixP3_4 Vf hfix).2.1
theorem e_main_c_41 : Vf (Proc.devRef .tc main_c_41) = (constantI S_ 32 0#32) :=
  nullary_fix (fixP3_4 Vf hfix).2.2

theorem fixP3_5 : (opsP3_5 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_left _ h)))))))
theorem e_main_call24_v0 : Vf (Proc.devRef .tc main_call24_v0) = id (Vf (Proc.devRef .tc main_c_41) : (⟨S_, .i32⟩ : BufTy).Contents (Elt F)) :=
  by
  have h := unary_fix (fixP3_5 Vf hfix).1
  simpa only [TRef.toBuf, TRef.ofBuf, cast_eq] using h
theorem e_main_call24_v1 : Vf (Proc.devRef .tc main_call24_v1) = (broadcastInDim S16777216 ![] bcast_S_S16777216) (Vf (Proc.devRef .tc main_call24_v0) : (⟨S_, .i32⟩ : BufTy).Contents (Elt F)) :=
  by
  have h := unary_fix (fixP3_5 Vf hfix).2.1
  simpa only [TRef.toBuf, TRef.ofBuf, cast_eq] using h
theorem e_main_v171 : Vf (Proc.devRef .tc main_v171) = maxsi (Vf (Proc.devRef .tc main_call24_v1) : (⟨S16777216, .i32⟩ : BufTy).Contents (Elt F)) (Vf (Proc.devRef .tc main_v169) : (⟨S16777216, .i32⟩ : BufTy).Contents (Elt F)) :=
  by
  have h := binary_fix (fixP3_5 Vf hfix).2.2
  simpa only [TRef.toBuf, TRef.ofBuf, cast_eq] using h

theorem fixP3_6 : (opsP3_6 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_left _ h))))))))
theorem e_main_c_42 : Vf (Proc.devRef .tc main_c_42) = (constantI S_ 32 0#32) :=
  nullary_fix (fixP3_6 Vf hfix).1
theorem e_main_v172 : Vf (Proc.devRef .tc main_v172) = (broadcastInDim S16777216 ![] bcast_S_S16777216 : (⟨S_, .i32⟩ : BufTy).Contents (Elt F) → (⟨S16777216, .i32⟩ : BufTy).Contents (Elt F)) (Vf (Proc.devRef .tc main_c_42)) :=
  unary_fix (fixP3_6 Vf hfix).2.1
theorem e_main_v173 : Vf (Proc.devRef .tc main_v173) = (cmpi .slt : (⟨S16777216, .i32⟩ : BufTy).Contents (Elt F) → (⟨S16777216, .i32⟩ : BufTy).Contents (Elt F) → (⟨S16777216, .i1⟩ : BufTy).Contents (Elt F)) (Vf (Proc.devRef .tc main_v171)) (Vf (Proc.devRef .tc main_v172)) :=
  binary_fix (fixP3_6 Vf hfix).2.2.1
theorem e_main_c_43 : Vf (Proc.devRef .tc main_c_43) = (constantI S_ 32 8386560#32) :=
  nullary_fix (fixP3_6 Vf hfix).2.2.2.1
theorem e_main_v174 : Vf (Proc.devRef .tc main_v174) = (broadcastInDim S16777216 ![] bcast_S_S16777216 : (⟨S_, .i32⟩ : BufTy).Contents (Elt F) → (⟨S16777216, .i32⟩ : BufTy).Contents (Elt F)) (Vf (Proc.devRef .tc main_c_43)) :=
  unary_fix (fixP3_6 Vf hfix).2.2.2.2.1
theorem e_main_v175 : Vf (Proc.devRef .tc main_v175) = (addi : (⟨S16777216, .i32⟩ : BufTy).Contents (Elt F) → (⟨S16777216, .i32⟩ : BufTy).Contents (Elt F) → (⟨S16777216, .i32⟩ : BufTy).Contents (Elt F)) (Vf (Proc.devRef .tc main_v171)) (Vf (Proc.devRef .tc main_v174)) :=
  binary_fix (fixP3_6 Vf hfix).2.2.2.2.2.1
theorem e_main_v176 : Vf (Proc.devRef .tc main_v176) = (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (Vf (Proc.devRef .tc main_v173)) (Vf (Proc.devRef .tc main_v175)) (Vf (Proc.devRef .tc main_v171)) :=
  ternary_fix (fixP3_6 Vf hfix).2.2.2.2.2.2.1
theorem e_main_v177 : Vf (Proc.devRef .tc main_v177) = (broadcastInDim S16777216x1 ![0] bcast_S16777216_S16777216x1_0 : (⟨S16777216, .i32⟩ : BufTy).Contents (Elt F) → (⟨S16777216x1, .i32⟩ : BufTy).Contents (Elt F)) (Vf (Proc.devRef .tc main_v176)) :=
  unary_fix (fixP3_6 Vf hfix).2.2.2.2.2.2.2.1
theorem e_main_c_44 : Vf (Proc.devRef .tc main_c_44) = (constantI S_ 32 1#32) :=
  nullary_fix (fixP3_6 Vf hfix).2.2.2.2.2.2.2.2.1
theorem e_main_v178 : Vf (Proc.devRef .tc main_v178) = (broadcastInDim S16777216 ![] bcast_S_S16777216 : (⟨S_, .i32⟩ : BufTy).Contents (Elt F) → (⟨S16777216, .i32⟩ : BufTy).Contents (Elt F)) (Vf (Proc.devRef .tc main_c_44)) :=
  unary_fix (fixP3_6 Vf hfix).2.2.2.2.2.2.2.2.2.1
theorem e_main_v179 : Vf (Proc.devRef .tc main_v179) = ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) (Vf (Proc.devRef .tc main_v170)) (Vf (Proc.devRef .tc main_v177)) (Vf (Proc.devRef .tc main_v178)) :=
  ternary_fix (fixP3_6 Vf hfix).2.2.2.2.2.2.2.2.2.2

theorem fixP3_7 : (opsP3_7 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_left _ h)))))))))
theorem e_main_call25_call0_c : Vf (Proc.devRef .tc main_call25_call0_c) = (constantI S_ 32 0#32) :=
  by
  have h := nullary_fix (fixP3_7 Vf hfix).1
  simpa only [TRef.toBuf, TRef.ofBuf, cast_eq] using h
theorem e_main_call25_call0_v0 : Vf (Proc.devRef .tc main_call25_call0_v0) = (broadcastInDim S_ ![] bcast_S_S_) (Vf (Proc.devRef .tc main_call25_call0_c) : (⟨S_, .i32⟩ : BufTy).Contents (Elt F)) :=
  by
  have h := unary_fix (fixP3_7 Vf hfix).2.1
  simpa only [TRef.toBuf, TRef.ofBuf, cast_eq] using h
theorem e_main_v180 : Vf (Proc.devRef .tc main_v180) = (fun x v => Host.reduceWindow IntOp.addi ![8386560] ![1] ![8386559] ![0] x v reduceWindows_S8386560_S8386560_w8386560s1p8386559_0 h_S_) (Vf (Proc.devRef .tc main_v179) : (⟨S8386560, .i32⟩ : BufTy).Contents (Elt F)) (Vf (Proc.devRef .tc main_call25_call0_v0) : (⟨S_, .i32⟩ : BufTy).Contents (Elt F)) :=
  by
  have h := binary_fix (fixP3_7 Vf hfix).2.2
  simpa only [TRef.toBuf, TRef.ofBuf, cast_eq] using h

theorem fixP3_8 : (opsP3_8 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_left _ h))))))))))
theorem e_main_c_45 : Vf (Proc.devRef .tc main_c_45) = (constantI S_ 32 4096#32) :=
  nullary_fix (fixP3_8 Vf hfix)

theorem fixP3_9 : (opsP3_9 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_left _ h)))))))))))
theorem e_main_call26_v0 : Vf (Proc.devRef .tc main_call26_v0) = (broadcastInDim S8386560 ![] bcast_S_S8386560) (Vf (Proc.devRef .tc main_c_45) : (⟨S_, .i32⟩ : BufTy).Contents (Elt F)) :=
  by
  have h := unary_fix (fixP3_9 Vf hfix).1
  simpa only [TRef.toBuf, TRef.ofBuf, cast_eq] using h
theorem e_main_call26_v1 : Vf (Proc.devRef .tc main_call26_v1) = Host.divsi (Vf (Proc.devRef .tc main_v180) : (⟨S8386560, .i32⟩ : BufTy).Contents (Elt F)) (Vf (Proc.devRef .tc main_call26_v0) : (⟨S8386560, .i32⟩ : BufTy).Contents (Elt F)) :=
  by
  have h := binary_fix (fixP3_9 Vf hfix).2.1
  simpa only [TRef.toBuf, TRef.ofBuf, cast_eq] using h
theorem e_main_call26_v2 : Vf (Proc.devRef .tc main_call26_v2) = signi (Vf (Proc.devRef .tc main_v180) : (⟨S8386560, .i32⟩ : BufTy).Contents (Elt F)) :=
  by
  have h := unary_fix (fixP3_9 Vf hfix).2.2.1
  simpa only [TRef.toBuf, TRef.ofBuf, cast_eq] using h
theorem e_main_call26_v3 : Vf (Proc.devRef .tc main_call26_v3) = signi (Vf (Proc.devRef .tc main_c_45) : (⟨S_, .i32⟩ : BufTy).Contents (Elt F)) :=
  by
  have h := unary_fix (fixP3_9 Vf hfix).2.2.2.1
  simpa only [TRef.toBuf, TRef.ofBuf, cast_eq] using h
theorem e_main_call26_v4 : Vf (Proc.devRef .tc main_call26_v4) = (broadcastInDim S8386560 ![] bcast_S_S8386560) (Vf (Proc.devRef .tc main_call26_v3) : (⟨S_, .i32⟩ : BufTy).Contents (Elt F)) :=
  by
  have h := unary_fix (fixP3_9 Vf hfix).2.2.2.2.1
  simpa only [TRef.toBuf, TRef.ofBuf, cast_eq] using h
theorem e_main_call26_v5 : Vf (Proc.devRef .tc main_call26_v5) = (cmpi .ne) (Vf (Proc.devRef .tc main_call26_v2) : (⟨S8386560, .i32⟩ : BufTy).Contents (Elt F)) (Vf (Proc.devRef .tc main_call26_v4) : (⟨S8386560, .i32⟩ : BufTy).Contents (Elt F)) :=
  by
  have h := binary_fix (fixP3_9 Vf hfix).2.2.2.2.2.1
  simpa only [TRef.toBuf, TRef.ofBuf, cast_eq] using h
theorem e_main_call26_v6 : Vf (Proc.devRef .tc main_call26_v6) = (broadcastInDim S8386560 ![] bcast_S_S8386560) (Vf (Proc.devRef .tc main_c_45) : (⟨S_, .i32⟩ : BufTy).Contents (Elt F)) :=
  by
  have h := unary_fix (fixP3_9 Vf hfix).2.2.2.2.2.2.1
  simpa only [TRef.toBuf, TRef.ofBuf, cast_eq] using h
theorem e_main_call26_v7 : Vf (Proc.devRef .tc main_call26_v7) = Host.remsi (Vf (Proc.devRef .tc main_v180) : (⟨S8386560, .i32⟩ : BufTy).Contents (Elt F)) (Vf (Proc.devRef .tc main_call26_v6) : (⟨S8386560, .i32⟩ : BufTy).Contents (Elt F)) :=
  by
  have h := binary_fix (fixP3_9 Vf hfix).2.2.2.2.2.2.2.1
  simpa only [TRef.toBuf, TRef.ofBuf, cast_eq] using h
theorem e_main_call26_c : Vf (Proc.devRef .tc main_call26_c) = (constantI S_ 32 0#32) :=
  by
  have h := nullary_fix (fixP3_9 Vf hfix).2.2.2.2.2.2.2.2.1
  simpa only [TRef.toBuf, TRef.ofBuf, cast_eq] using h
theorem e_main_call26_v8 : Vf (Proc.devRef .tc main_call26_v8) = (broadcastInDim S8386560 ![] bcast_S_S8386560) (Vf (Proc.devRef .tc main_call26_c) : (⟨S_, .i32⟩ : BufTy).Contents (Elt F)) :=
  by
  have h := unary_fix (fixP3_9 Vf hfix).2.2.2.2.2.2.2.2.2.1
  simpa only [TRef.toBuf, TRef.ofBuf, cast_eq] using h
theorem e_main_call26_v9 : Vf (Proc.devRef .tc main_call26_v9) = (cmpi .ne) (Vf (Proc.devRef .tc main_call26_v7) : (⟨S8386560, .i32⟩ : BufTy).Contents (Elt F)) (Vf (Proc.devRef .tc main_call26_v8) : (⟨S8386560, .i32⟩ : BufTy).Contents (Elt F)) :=
  by
  have h := binary_fix (fixP3_9 Vf hfix).2.2.2.2.2.2.2.2.2.2.1
  simpa only [TRef.toBuf, TRef.ofBuf, cast_eq] using h
theorem e_main_call26_v10 : Vf (Proc.devRef .tc main_call26_v10) = andi (Vf (Proc.devRef .tc main_call26_v5) : (⟨S8386560, .i1⟩ : BufTy).Contents (Elt F)) (Vf (Proc.devRef .tc main_call26_v9) : (⟨S8386560, .i1⟩ : BufTy).Contents (Elt F)) :=
  by
  have h := binary_fix (fixP3_9 Vf hfix).2.2.2.2.2.2.2.2.2.2.2.1
  simpa only [TRef.toBuf, TRef.ofBuf, cast_eq] using h
theorem e_main_call26_c_0 : Vf (Proc.devRef .tc main_call26_c_0) = (constantI S_ 32 1#32) :=
  by
  have h := nullary_fix (fixP3_9 Vf hfix).2.2.2.2.2.2.2.2.2.2.2.2.1
  simpa only [TRef.toBuf, TRef.ofBuf, cast_eq] using h
theorem e_main_call26_v11 : Vf (Proc.devRef .tc main_call26_v11) = (broadcastInDim S8386560 ![] bcast_S_S8386560) (Vf (Proc.devRef .tc main_call26_c_0) : (⟨S_, .i32⟩ : BufTy).Contents (Elt F)) :=
  by
  have h := unary_fix (fixP3_9 Vf hfix).2.2.2.2.2.2.2.2.2.2.2.2.2.1
  simpa only [TRef.toBuf, TRef.ofBuf, cast_eq] using h
theorem e_main_call26_v12 : Vf (Proc.devRef .tc main_call26_v12) = subi (Vf (Proc.devRef .tc main_call26_v1) : (⟨S8386560, .i32⟩ : BufTy).Contents (Elt F)) (Vf (Proc.devRef .tc main_call26_v11) : (⟨S8386560, .i32⟩ : BufTy).Contents (Elt F)) :=
  by
  have h := binary_fix (fixP3_9 Vf hfix).2.2.2.2.2.2.2.2.2.2.2.2.2.2.1
  simpa only [TRef.toBuf, TRef.ofBuf, cast_eq] using h
theorem e_main_v181 : Vf (Proc.devRef .tc main_v181) = select (Vf (Proc.devRef .tc main_call26_v10) : (⟨S8386560, .i1⟩ : BufTy).Contents (Elt F)) (Vf (Proc.devRef .tc main_call26_v12) : (⟨S8386560, .i32⟩ : BufTy).Contents (Elt F)) (Vf (Proc.devRef .tc main_call26_v1) : (⟨S8386560, .i32⟩ : BufTy).Contents (Elt F)) :=
  by
  have h := ternary_fix (fixP3_9 Vf hfix).2.2.2.2.2.2.2.2.2.2.2.2.2.2.2
  simpa only [TRef.toBuf, TRef.ofBuf, cast_eq] using h

theorem fixP3_10 : (opsP3_10 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))
theorem e_main_c_46 : Vf (Proc.devRef .tc main_c_46) = (constantI S_ 32 4096#32) :=
  nullary_fix (fixP3_10 Vf hfix)

theorem fixP3_11 : (opsP3_11 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))
theorem e_main_call27_v0 : Vf (Proc.devRef .tc main_call27_v0) = id (Vf (Proc.devRef .tc main_c_46) : (⟨S_, .i32⟩ : BufTy).Contents (Elt F)) :=
  by
  have h := unary_fix (fixP3_11 Vf hfix).1
  simpa only [TRef.toBuf, TRef.ofBuf, cast_eq] using h
theorem e_main_call27_c : Vf (Proc.devRef .tc main_call27_c) = (constantI S_ 32 0#32) :=
  by
  have h := nullary_fix (fixP3_11 Vf hfix).2.1
  simpa only [TRef.toBuf, TRef.ofBuf, cast_eq] using h
theorem e_main_call27_v1 : Vf (Proc.devRef .tc main_call27_v1) = (cmpi .eq) (Vf (Proc.devRef .tc main_call27_v0) : (⟨S_, .i32⟩ : BufTy).Contents (Elt F)) (Vf (Proc.devRef .tc main_call27_c) : (⟨S_, .i32⟩ : BufTy).Contents (Elt F)) :=
  by
  have h := binary_fix (fixP3_11 Vf hfix).2.2.1
  simpa only [TRef.toBuf, TRef.ofBuf, cast_eq] using h
theorem e_main_call27_c_0 : Vf (Proc.devRef .tc main_call27_c_0) = (constantI S_ 32 1#32) :=
  by
  have h := nullary_fix (fixP3_11 Vf hfix).2.2.2.1
  simpa only [TRef.toBuf, TRef.ofBuf, cast_eq] using h
theorem e_main_call27_v2 : Vf (Proc.devRef .tc main_call27_v2) = select (Vf (Proc.devRef .tc main_call27_v1) : (⟨S_, .i1⟩ : BufTy).Contents (Elt F)) (Vf (Proc.devRef .tc main_call27_c_0) : (⟨S_, .i32⟩ : BufTy).Contents (Elt F)) (Vf (Proc.devRef .tc main_call27_v0) : (⟨S_, .i32⟩ : BufTy).Contents (Elt F)) :=
  by
  have h := ternary_fix (fixP3_11 Vf hfix).2.2.2.2.1
  simpa only [TRef.toBuf, TRef.ofBuf, cast_eq] using h
theorem e_main_call27_v3 : Vf (Proc.devRef .tc main_call27_v3) = (broadcastInDim S8386560 ![] bcast_S_S8386560) (Vf (Proc.devRef .tc main_call27_v2) : (⟨S_, .i32⟩ : BufTy).Contents (Elt F)) :=
  by
  have h := unary_fix (fixP3_11 Vf hfix).2.2.2.2.2.1
  simpa only [TRef.toBuf, TRef.ofBuf, cast_eq] using h
theorem e_main_call27_v4 : Vf (Proc.devRef .tc main_call27_v4) = Host.remsi (Vf (Proc.devRef .tc main_v181) : (⟨S8386560, .i32⟩ : BufTy).Contents (Elt F)) (Vf (Proc.devRef .tc main_call27_v3) : (⟨S8386560, .i32⟩ : BufTy).Contents (Elt F)) :=
  by
  have h := binary_fix (fixP3_11 Vf hfix).2.2.2.2.2.2.1
  simpa only [TRef.toBuf, TRef.ofBuf, cast_eq] using h
theorem e_main_call27_c_1 : Vf (Proc.devRef .tc main_call27_c_1) = (constantI S_ 32 0#32) :=
  by
  have h := nullary_fix (fixP3_11 Vf hfix).2.2.2.2.2.2.2.1
  simpa only [TRef.toBuf, TRef.ofBuf, cast_eq] using h
theorem e_main_call27_v5 : Vf (Proc.devRef .tc main_call27_v5) = (broadcastInDim S8386560 ![] bcast_S_S8386560) (Vf (Proc.devRef .tc main_call27_c_1) : (⟨S_, .i32⟩ : BufTy).Contents (Elt F)) :=
  by
  have h := unary_fix (fixP3_11 Vf hfix).2.2.2.2.2.2.2.2.1
  simpa only [TRef.toBuf, TRef.ofBuf, cast_eq] using h
theorem e_main_call27_v6 : Vf (Proc.devRef .tc main_call27_v6) = (cmpi .ne) (Vf (Proc.devRef .tc main_call27_v4) : (⟨S8386560, .i32⟩ : BufTy).Contents (Elt F)) (Vf (Proc.devRef .tc main_call27_v5) : (⟨S8386560, .i32⟩ : BufTy).Contents (Elt F)) :=
  by
  have h := binary_fix (fixP3_11 Vf hfix).2.2.2.2.2.2.2.2.2.1
  simpa only [TRef.toBuf, TRef.ofBuf, cast_eq] using h
theorem e_main_call27_c_2 : Vf (Proc.devRef .tc main_call27_c_2) = (constantI S_ 32 0#32) :=
  by
  have h := nullary_fix (fixP3_11 Vf hfix).2.2.2.2.2.2.2.2.2.2.1
  simpa only [TRef.toBuf, TRef.ofBuf, cast_eq] using h
theorem e_main_call27_v7 : Vf (Proc.devRef .tc main_call27_v7) = (broadcastInDim S8386560 ![] bcast_S_S8386560) (Vf (Proc.devRef .tc main_call27_c_2) : (⟨S_, .i32⟩ : BufTy).Contents (Elt F)) :=
  by
  have h := unary_fix (fixP3_11 Vf hfix).2.2.2.2.2.2.2.2.2.2.2.1
  simpa only [TRef.toBuf, TRef.ofBuf, cast_eq] using h
theorem e_main_call27_v8 : Vf (Proc.devRef .tc main_call27_v8) = (cmpi .slt) (Vf (Proc.devRef .tc main_call27_v4) : (⟨S8386560, .i32⟩ : BufTy).Contents (Elt F)) (Vf (Proc.devRef .tc main_call27_v7) : (⟨S8386560, .i32⟩ : BufTy).Contents (Elt F)) :=
  by
  have h := binary_fix (fixP3_11 Vf hfix).2.2.2.2.2.2.2.2.2.2.2.2.1
  simpa only [TRef.toBuf, TRef.ofBuf, cast_eq] using h
theorem e_main_call27_c_3 : Vf (Proc.devRef .tc main_call27_c_3) = (constantI S_ 32 0#32) :=
  by
  have h := nullary_fix (fixP3_11 Vf hfix).2.2.2.2.2.2.2.2.2.2.2.2.2.1
  simpa only [TRef.toBuf, TRef.ofBuf, cast_eq] using h
theorem e_main_call27_v9 : Vf (Proc.devRef .tc main_call27_v9) = (cmpi .slt) (Vf (Proc.devRef .tc main_call27_v2) : (⟨S_, .i32⟩ : BufTy).Contents (Elt F)) (Vf (Proc.devRef .tc main_call27_c_3) : (⟨S_, .i32⟩ : BufTy).Contents (Elt F)) :=
  by
  have h := binary_fix (fixP3_11 Vf hfix).2.2.2.2.2.2.2.2.2.2.2.2.2.2.1
  simpa only [TRef.toBuf, TRef.ofBuf, cast_eq] using h
theorem e_main_call27_v10 : Vf (Proc.devRef .tc main_call27_v10) = (broadcastInDim S8386560 ![] bcast_S_S8386560) (Vf (Proc.devRef .tc main_call27_v9) : (⟨S_, .i1⟩ : BufTy).Contents (Elt F)) :=
  by
  have h := unary_fix (fixP3_11 Vf hfix).2.2.2.2.2.2.2.2.2.2.2.2.2.2.2.1
  simpa only [TRef.toBuf, TRef.ofBuf, cast_eq] using h
theorem e_main_call27_v11 : Vf (Proc.devRef .tc main_call27_v11) = (cmpi .ne) (Vf (Proc.devRef .tc main_call27_v8) : (⟨S8386560, .i1⟩ : BufTy).Contents (Elt F)) (Vf (Proc.devRef .tc main_call27_v10) : (⟨S8386560, .i1⟩ : BufTy).Contents (Elt F)) :=
  by
  have h := binary_fix (fixP3_11 Vf hfix).2.2.2.2.2.2.2.2.2.2.2.2.2.2.2.2.1
  simpa only [TRef.toBuf, TRef.ofBuf, cast_eq] using h
theorem e_main_call27_v12 : Vf (Proc.devRef .tc main_call27_v12) = andi (Vf (Proc.devRef .tc main_call27_v11) : (⟨S8386560, .i1⟩ : BufTy).Contents (Elt F)) (Vf (Proc.devRef .tc main_call27_v6) : (⟨S8386560, .i1⟩ : BufTy).Contents (Elt F)) :=
  by
  have h := binary_fix (fixP3_11 Vf hfix).2.2.2.2.2.2.2.2.2.2.2.2.2.2.2.2.2.1
  simpa only [TRef.toBuf, TRef.ofBuf, cast_eq] using h
theorem e_main_call27_v13 : Vf (Proc.devRef .tc main_call27_v13) = (broadcastInDim S8386560 ![] bcast_S_S8386560) (Vf (Proc.devRef .tc main_call27_v2) : (⟨S_, .i32⟩ : BufTy).Contents (Elt F)) :=
  by
  have h := unary_fix (fixP3_11 Vf hfix).2.2.2.2.2.2.2.2.2.2.2.2.2.2.2.2.2.2.1
  simpa only [TRef.toBuf, TRef.ofBuf, cast_eq] using h
theorem e_main_call27_v14 : Vf (Proc.devRef .tc main_call27_v14) = addi (Vf (Proc.devRef .tc main_call27_v4) : (⟨S8386560, .i32⟩ : BufTy).Contents (Elt F)) (Vf (Proc.devRef .tc main_call27_v13) : (⟨S8386560, .i32⟩ : BufTy).Contents (Elt F)) :=
  by
  have h := binary_fix (fixP3_11 Vf hfix).2.2.2.2.2.2.2.2.2.2.2.2.2.2.2.2.2.2.2.1
  simpa only [TRef.toBuf, TRef.ofBuf, cast_eq] using h
theorem e_main_v182 : Vf (Proc.devRef .tc main_v182) = select (Vf (Proc.devRef .tc main_call27_v12) : (⟨S8386560, .i1⟩ : BufTy).Contents (Elt F)) (Vf (Proc.devRef .tc main_call27_v14) : (⟨S8386560, .i32⟩ : BufTy).Contents (Elt F)) (Vf (Proc.devRef .tc main_call27_v4) : (⟨S8386560, .i32⟩ : BufTy).Contents (Elt F)) :=
  by
  have h := ternary_fix (fixP3_11 Vf hfix).2.2.2.2.2.2.2.2.2.2.2.2.2.2.2.2.2.2.2.2
  simpa only [TRef.toBuf, TRef.ofBuf, cast_eq] using h

theorem fixP3_12 : (opsP3_12 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))
theorem e_main_c_47 : Vf (Proc.devRef .tc main_c_47) = (constantI S_ 32 1#32) :=
  nullary_fix (fixP3_12 Vf hfix)

theorem fixP3_13 : (opsP3_13 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))
theorem e_main_call28_v0 : Vf (Proc.devRef .tc main_call28_v0) = (broadcastInDim S8386560 ![] bcast_S_S8386560) (Vf (Proc.devRef .tc main_c_47) : (⟨S_, .i32⟩ : BufTy).Contents (Elt F)) :=
  by
  have h := unary_fix (fixP3_13 Vf hfix).1
  simpa only [TRef.toBuf, TRef.ofBuf, cast_eq] using h
theorem e_main_call28_v1 : Vf (Proc.devRef .tc main_call28_v1) = Host.divsi (Vf (Proc.devRef .tc main_v180) : (⟨S8386560, .i32⟩ : BufTy).Contents (Elt F)) (Vf (Proc.devRef .tc main_call28_v0) : (⟨S8386560, .i32⟩ : BufTy).Contents (Elt F)) :=
  by
  have h := binary_fix (fixP3_13 Vf hfix).2.1
  simpa only [TRef.toBuf, TRef.ofBuf, cast_eq] using h
theorem e_main_call28_v2 : Vf (Proc.devRef .tc main_call28_v2) = signi (Vf (Proc.devRef .tc main_v180) : (⟨S8386560, .i32⟩ : BufTy).Contents (Elt F)) :=
  by
  have h := unary_fix (fixP3_13 Vf hfix).2.2.1
  simpa only [TRef.toBuf, TRef.ofBuf, cast_eq] using h
theorem e_main_call28_v3 : Vf (Proc.devRef .tc main_call28_v3) = signi (Vf (Proc.devRef .tc main_c_47) : (⟨S_, .i32⟩ : BufTy).Contents (Elt F)) :=
  by
  have h := unary_fix (fixP3_13 Vf hfix).2.2.2.1
  simpa only [TRef.toBuf, TRef.ofBuf, cast_eq] using h
theorem e_main_call28_v4 : Vf (Proc.devRef .tc main_call28_v4) = (broadcastInDim S8386560 ![] bcast_S_S8386560) (Vf (Proc.devRef .tc main_call28_v3) : (⟨S_, .i32⟩ : BufTy).Contents (Elt F)) :=
  by
  have h := unary_fix (fixP3_13 Vf hfix).2.2.2.2.1
  simpa only [TRef.toBuf, TRef.ofBuf, cast_eq] using h
theorem e_main_call28_v5 : Vf (Proc.devRef .tc main_call28_v5) = (cmpi .ne) (Vf (Proc.devRef .tc main_call28_v2) : (⟨S8386560, .i32⟩ : BufTy).Contents (Elt F)) (Vf (Proc.devRef .tc main_call28_v4) : (⟨S8386560, .i32⟩ : BufTy).Contents (Elt F)) :=
  by
  have h := binary_fix (fixP3_13 Vf hfix).2.2.2.2.2.1
  simpa only [TRef.toBuf, TRef.ofBuf, cast_eq] using h
theorem e_main_call28_v6 : Vf (Proc.devRef .tc main_call28_v6) = (broadcastInDim S8386560 ![] bcast_S_S8386560) (Vf (Proc.devRef .tc main_c_47) : (⟨S_, .i32⟩ : BufTy).Contents (Elt F)) :=
  by
  have h := unary_fix (fixP3_13 Vf hfix).2.2.2.2.2.2.1
  simpa only [TRef.toBuf, TRef.ofBuf, cast_eq] using h
theorem e_main_call28_v7 : Vf (Proc.devRef .tc main_call28_v7) = Host.remsi (Vf (Proc.devRef .tc main_v180) : (⟨S8386560, .i32⟩ : BufTy).Contents (Elt F)) (Vf (Proc.devRef .tc main_call28_v6) : (⟨S8386560, .i32⟩ : BufTy).Contents (Elt F)) :=
  by
  have h := binary_fix (fixP3_13 Vf hfix).2.2.2.2.2.2.2.1
  simpa only [TRef.toBuf, TRef.ofBuf, cast_eq] using h
theorem e_main_call28_c : Vf (Proc.devRef .tc main_call28_c) = (constantI S_ 32 0#32) :=
  by
  have h := nullary_fix (fixP3_13 Vf hfix).2.2.2.2.2.2.2.2.1
  simpa only [TRef.toBuf, TRef.ofBuf, cast_eq] using h
theorem e_main_call28_v8 : Vf (Proc.devRef .tc main_call28_v8) = (broadcastInDim S8386560 ![] bcast_S_S8386560) (Vf (Proc.devRef .tc main_call28_c) : (⟨S_, .i32⟩ : BufTy).Contents (Elt F)) :=
  by
  have h := unary_fix (fixP3_13 Vf hfix).2.2.2.2.2.2.2.2.2.1
  simpa only [TRef.toBuf, TRef.ofBuf, cast_eq] using h
theorem e_main_call28_v9 : Vf (Proc.devRef .tc main_call28_v9) = (cmpi .ne) (Vf (Proc.devRef .tc main_call28_v7) : (⟨S8386560, .i32⟩ : BufTy).Contents (Elt F)) (Vf (Proc.devRef .tc main_call28_v8) : (⟨S8386560, .i32⟩ : BufTy).Contents (Elt F)) :=
  by
  have h := binary_fix (fixP3_13 Vf hfix).2.2.2.2.2.2.2.2.2.2.1
  simpa only [TRef.toBuf, TRef.ofBuf, cast_eq] using h
theorem e_main_call28_v10 : Vf (Proc.devRef .tc main_call28_v10) = andi (Vf (Proc.devRef .tc main_call28_v5) : (⟨S8386560, .i1⟩ : BufTy).Contents (Elt F)) (Vf (Proc.devRef .tc main_call28_v9) : (⟨S8386560, .i1⟩ : BufTy).Contents (Elt F)) :=
  by
  have h := binary_fix (fixP3_13 Vf hfix).2.2.2.2.2.2.2.2.2.2.2.1
  simpa only [TRef.toBuf, TRef.ofBuf, cast_eq] using h
theorem e_main_call28_c_0 : Vf (Proc.devRef .tc main_call28_c_0) = (constantI S_ 32 1#32) :=
  by
  have h := nullary_fix (fixP3_13 Vf hfix).2.2.2.2.2.2.2.2.2.2.2.2.1
  simpa only [TRef.toBuf, TRef.ofBuf, cast_eq] using h
theorem e_main_call28_v11 : Vf (Proc.devRef .tc main_call28_v11) = (broadcastInDim S8386560 ![] bcast_S_S8386560) (Vf (Proc.devRef .tc main_call28_c_0) : (⟨S_, .i32⟩ : BufTy).Contents (Elt F)) :=
  by
  have h := unary_fix (fixP3_13 Vf hfix).2.2.2.2.2.2.2.2.2.2.2.2.2.1
  simpa only [TRef.toBuf, TRef.ofBuf, cast_eq] using h
theorem e_main_call28_v12 : Vf (Proc.devRef .tc main_call28_v12) = subi (Vf (Proc.devRef .tc main_call28_v1) : (⟨S8386560, .i32⟩ : BufTy).Contents (Elt F)) (Vf (Proc.devRef .tc main_call28_v11) : (⟨S8386560, .i32⟩ : BufTy).Contents (Elt F)) :=
  by
  have h := binary_fix (fixP3_13 Vf hfix).2.2.2.2.2.2.2.2.2.2.2.2.2.2.1
  simpa only [TRef.toBuf, TRef.ofBuf, cast_eq] using h
theorem e_main_v183 : Vf (Proc.devRef .tc main_v183) = select (Vf (Proc.devRef .tc main_call28_v10) : (⟨S8386560, .i1⟩ : BufTy).Contents (Elt F)) (Vf (Proc.devRef .tc main_call28_v12) : (⟨S8386560, .i32⟩ : BufTy).Contents (Elt F)) (Vf (Proc.devRef .tc main_call28_v1) : (⟨S8386560, .i32⟩ : BufTy).Contents (Elt F)) :=
  by
  have h := ternary_fix (fixP3_13 Vf hfix).2.2.2.2.2.2.2.2.2.2.2.2.2.2.2
  simpa only [TRef.toBuf, TRef.ofBuf, cast_eq] using h

theorem fixP3_14 : (opsP3_14 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))
theorem e_main_c_48 : Vf (Proc.devRef .tc main_c_48) = (constantI S_ 32 4096#32) :=
  nullary_fix (fixP3_14 Vf hfix)

theorem fixP3_15 : (opsP3_15 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))
theorem e_main_call29_v0 : Vf (Proc.devRef .tc main_call29_v0) = id (Vf (Proc.devRef .tc main_c_48) : (⟨S_, .i32⟩ : BufTy).Contents (Elt F)) :=
  by
  have h := unary_fix (fixP3_15 Vf hfix).1
  simpa only [TRef.toBuf, TRef.ofBuf, cast_eq] using h
theorem e_main_call29_c : Vf (Proc.devRef .tc main_call29_c) = (constantI S_ 32 0#32) :=
  by
  have h := nullary_fix (fixP3_15 Vf hfix).2.1
  simpa only [TRef.toBuf, TRef.ofBuf, cast_eq] using h
theorem e_main_call29_v1 : Vf (Proc.devRef .tc main_call29_v1) = (cmpi .eq) (Vf (Proc.devRef .tc main_call29_v0) : (⟨S_, .i32⟩ : BufTy).Contents (Elt F)) (Vf (Proc.devRef .tc main_call29_c) : (⟨S_, .i32⟩ : BufTy).Contents (Elt F)) :=
  by
  have h := binary_fix (fixP3_15 Vf hfix).2.2.1
  simpa only [TRef.toBuf, TRef.ofBuf, cast_eq] using h
theorem e_main_call29_c_0 : Vf (Proc.devRef .tc main_call29_c_0) = (constantI S_ 32 1#32) :=
  by
  have h := nullary_fix (fixP3_15 Vf hfix).2.2.2.1
  simpa only [TRef.toBuf, TRef.ofBuf, cast_eq] using h
theorem e_main_call29_v2 : Vf (Proc.devRef .tc main_call29_v2) = select (Vf (Proc.devRef .tc main_call29_v1) : (⟨S_, .i1⟩ : BufTy).Contents (Elt F)) (Vf (Proc.devRef .tc main_call29_c_0) : (⟨S_, .i32⟩ : BufTy).Contents (Elt F)) (Vf (Proc.devRef .tc main_call29_v0) : (⟨S_, .i32⟩ : BufTy).Contents (Elt F)) :=
  by
  have h := ternary_fix (fixP3_15 Vf hfix).2.2.2.2.1
  simpa only [TRef.toBuf, TRef.ofBuf, cast_eq] using h
theorem e_main_call29_v3 : Vf (Proc.devRef .tc main_call29_v3) = (broadcastInDim S8386560 ![] bcast_S_S8386560) (Vf (Proc.devRef .tc main_call29_v2) : (⟨S_, .i32⟩ : BufTy).Contents (Elt F)) :=
  by
  have h := unary_fix (fixP3_15 Vf hfix).2.2.2.2.2.1
  simpa only [TRef.toBuf, TRef.ofBuf, cast_eq] using h
theorem e_main_call29_v4 : Vf (Proc.devRef .tc main_call29_v4) = Host.remsi (Vf (Proc.devRef .tc main_v183) : (⟨S8386560, .i32⟩ : BufTy).Contents (Elt F)) (Vf (Proc.devRef .tc main_call29_v3) : (⟨S8386560, .i32⟩ : BufTy).Contents (Elt F)) :=
  by
  have h := binary_fix (fixP3_15 Vf hfix).2.2.2.2.2.2.1
  simpa only [TRef.toBuf, TRef.ofBuf, cast_eq] using h
theorem e_main_call29_c_1 : Vf (Proc.devRef .tc main_call29_c_1) = (constantI S_ 32 0#32) :=
  by
  have h := nullary_fix (fixP3_15 Vf hfix).2.2.2.2.2.2.2.1
  simpa only [TRef.toBuf, TRef.ofBuf, cast_eq] using h
theorem e_main_call29_v5 : Vf (Proc.devRef .tc main_call29_v5) = (broadcastInDim S8386560 ![] bcast_S_S8386560) (Vf (Proc.devRef .tc main_call29_c_1) : (⟨S_, .i32⟩ : BufTy).Contents (Elt F)) :=
  by
  have h := unary_fix (fixP3_15 Vf hfix).2.2.2.2.2.2.2.2.1
  simpa only [TRef.toBuf, TRef.ofBuf, cast_eq] using h
theorem e_main_call29_v6 : Vf (Proc.devRef .tc main_call29_v6) = (cmpi .ne) (Vf (Proc.devRef .tc main_call29_v4) : (⟨S8386560, .i32⟩ : BufTy).Contents (Elt F)) (Vf (Proc.devRef .tc main_call29_v5) : (⟨S8386560, .i32⟩ : BufTy).Contents (Elt F)) :=
  by
  have h := binary_fix (fixP3_15 Vf hfix).2.2.2.2.2.2.2.2.2.1
  simpa only [TRef.toBuf, TRef.ofBuf, cast_eq] using h
theorem e_main_call29_c_2 : Vf (Proc.devRef .tc main_call29_c_2) = (constantI S_ 32 0#32) :=
  by
  have h := nullary_fix (fixP3_15 Vf hfix).2.2.2.2.2.2.2.2.2.2.1
  simpa only [TRef.toBuf, TRef.ofBuf, cast_eq] using h
theorem e_main_call29_v7 : Vf (Proc.devRef .tc main_call29_v7) = (broadcastInDim S8386560 ![] bcast_S_S8386560) (Vf (Proc.devRef .tc main_call29_c_2) : (⟨S_, .i32⟩ : BufTy).Contents (Elt F)) :=
  by
  have h := unary_fix (fixP3_15 Vf hfix).2.2.2.2.2.2.2.2.2.2.2.1
  simpa only [TRef.toBuf, TRef.ofBuf, cast_eq] using h
theorem e_main_call29_v8 : Vf (Proc.devRef .tc main_call29_v8) = (cmpi .slt) (Vf (Proc.devRef .tc main_call29_v4) : (⟨S8386560, .i32⟩ : BufTy).Contents (Elt F)) (Vf (Proc.devRef .tc main_call29_v7) : (⟨S8386560, .i32⟩ : BufTy).Contents (Elt F)) :=
  by
  have h := binary_fix (fixP3_15 Vf hfix).2.2.2.2.2.2.2.2.2.2.2.2.1
  simpa only [TRef.toBuf, TRef.ofBuf, cast_eq] using h
theorem e_main_call29_c_3 : Vf (Proc.devRef .tc main_call29_c_3) = (constantI S_ 32 0#32) :=
  by
  have h := nullary_fix (fixP3_15 Vf hfix).2.2.2.2.2.2.2.2.2.2.2.2.2.1
  simpa only [TRef.toBuf, TRef.ofBuf, cast_eq] using h
theorem e_main_call29_v9 : Vf (Proc.devRef .tc main_call29_v9) = (cmpi .slt) (Vf (Proc.devRef .tc main_call29_v2) : (⟨S_, .i32⟩ : BufTy).Contents (Elt F)) (Vf (Proc.devRef .tc main_call29_c_3) : (⟨S_, .i32⟩ : BufTy).Contents (Elt F)) :=
  by
  have h := binary_fix (fixP3_15 Vf hfix).2.2.2.2.2.2.2.2.2.2.2.2.2.2.1
  simpa only [TRef.toBuf, TRef.ofBuf, cast_eq] using h
theorem e_main_call29_v10 : Vf (Proc.devRef .tc main_call29_v10) = (broadcastInDim S8386560 ![] bcast_S_S8386560) (Vf (Proc.devRef .tc main_call29_v9) : (⟨S_, .i1⟩ : BufTy).Contents (Elt F)) :=
  by
  have h := unary_fix (fixP3_15 Vf hfix).2.2.2.2.2.2.2.2.2.2.2.2.2.2.2.1
  simpa only [TRef.toBuf, TRef.ofBuf, cast_eq] using h
theorem e_main_call29_v11 : Vf (Proc.devRef .tc main_call29_v11) = (cmpi .ne) (Vf (Proc.devRef .tc main_call29_v8) : (⟨S8386560, .i1⟩ : BufTy).Contents (Elt F)) (Vf (Proc.devRef .tc main_call29_v10) : (⟨S8386560, .i1⟩ : BufTy).Contents (Elt F)) :=
  by
  have h := binary_fix (fixP3_15 Vf hfix).2.2.2.2.2.2.2.2.2.2.2.2.2.2.2.2.1
  simpa only [TRef.toBuf, TRef.ofBuf, cast_eq] using h
theorem e_main_call29_v12 : Vf (Proc.devRef .tc main_call29_v12) = andi (Vf (Proc.devRef .tc main_call29_v11) : (⟨S8386560, .i1⟩ : BufTy).Contents (Elt F)) (Vf (Proc.devRef .tc main_call29_v6) : (⟨S8386560, .i1⟩ : BufTy).Contents (Elt F)) :=
  by
  have h := binary_fix (fixP3_15 Vf hfix).2.2.2.2.2.2.2.2.2.2.2.2.2.2.2.2.2.1
  simpa only [TRef.toBuf, TRef.ofBuf, cast_eq] using h
theorem e_main_call29_v13 : Vf (Proc.devRef .tc main_call29_v13) = (broadcastInDim S8386560 ![] bcast_S_S8386560) (Vf (Proc.devRef .tc main_call29_v2) : (⟨S_, .i32⟩ : BufTy).Contents (Elt F)) :=
  by
  have h := unary_fix (fixP3_15 Vf hfix).2.2.2.2.2.2.2.2.2.2.2.2.2.2.2.2.2.2.1
  simpa only [TRef.toBuf, TRef.ofBuf, cast_eq] using h
theorem e_main_call29_v14 : Vf (Proc.devRef .tc main_call29_v14) = addi (Vf (Proc.devRef .tc main_call29_v4) : (⟨S8386560, .i32⟩ : BufTy).Contents (Elt F)) (Vf (Proc.devRef .tc main_call29_v13) : (⟨S8386560, .i32⟩ : BufTy).Contents (Elt F)) :=
  by
  have h := binary_fix (fixP3_15 Vf hfix).2.2.2.2.2.2.2.2.2.2.2.2.2.2.2.2.2.2.2.1
  simpa only [TRef.toBuf, TRef.ofBuf, cast_eq] using h
theorem e_main_v184 : Vf (Proc.devRef .tc main_v184) = select (Vf (Proc.devRef .tc main_call29_v12) : (⟨S8386560, .i1⟩ : BufTy).Contents (Elt F)) (Vf (Proc.devRef .tc main_call29_v14) : (⟨S8386560, .i32⟩ : BufTy).Contents (Elt F)) (Vf (Proc.devRef .tc main_call29_v4) : (⟨S8386560, .i32⟩ : BufTy).Contents (Elt F)) :=
  by
  have h := ternary_fix (fixP3_15 Vf hfix).2.2.2.2.2.2.2.2.2.2.2.2.2.2.2.2.2.2.2.2
  simpa only [TRef.toBuf, TRef.ofBuf, cast_eq] using h

theorem fixP3_16 : (opsP3_16 : List (HloOp τ sig (Elt F))).Forall (Fix Vf) :=
  List.forall_iff_forall_mem.2 fun op h => hfix op (mem_ops_of_P3 (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))))))))
theorem e_main_c_49 : Vf (Proc.devRef .tc main_c_49) = (constantI S_ 32 0#32) :=
  nullary_fix (fixP3_16 Vf hfix).1
theorem e_main_v185 : Vf (Proc.devRef .tc main_v185) = (broadcastInDim S8386560 ![] bcast_S_S8386560 : (⟨S_, .i32⟩ : BufTy).Contents (Elt F) → (⟨S8386560, .i32⟩ : BufTy).Contents (Elt F)) (Vf (Proc.devRef .tc main_c_49)) :=
  unary_fix (fixP3_16 Vf hfix).2.1
theorem e_main_v186 : Vf (Proc.devRef .tc main_v186) = (cmpi .slt : (⟨S8386560, .i32⟩ : BufTy).Contents (Elt F) → (⟨S8386560, .i32⟩ : BufTy).Contents (Elt F) → (⟨S8386560, .i1⟩ : BufTy).Contents (Elt F)) (Vf (Proc.devRef .tc main_v182)) (Vf (Proc.devRef .tc main_v185)) :=
  binary_fix (fixP3_16 Vf hfix).2.2.1
theorem e_main_c_50 : Vf (Proc.devRef .tc main_c_50) = (constantI S_ 32 4096#32) :=
  nullary_fix (fixP3_16 Vf hfix).2.2.2

end

end Cert.ReferenceIdeal.Hand

end
-- ==== Proof.Ref.Eqs4.lean ====
import proofs.«135652_j20272245637753_1_alg».proof.Proof.Ref.Fix

/-! # The reference's final contents, window 4: one equation per operation

For contents `Vf` that every operation of the line leaves fixed (the final contents of the line are such), the
equation of each operation of window 4: its result buffer holds its function of its operand buffers' contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

section
variable (Vf : Valuation τ sig (Elt F)) (hfix : ∀ op ∈ (ops : List (HloOp τ sig (Elt F))), Fix Vf op)
include hfix

theorem fixP4_0 : (opsP4_0 : List (HloOp τ sig (Elt F))).Forall (Fix Vf) :=
  List.forall_iff_forall_mem.2 fun op h => hfix op (mem_ops_of_P4 (h))
theorem e_main_v187 : Vf (Proc.devRef .tc main_v187) = (broadcastInDim S8386560 ![] bcast_S_S8386560 : (⟨S_, .i32⟩ : BufTy).Contents (Elt F) → (⟨S8386560, .i32⟩ : BufTy).Contents (Elt F)) (Vf (Proc.devRef .tc main_c_50)) :=
  unary_fix (fixP4_0 Vf hfix).1
theorem e_main_v188 : Vf (Proc.devRef .tc main_v188) = (addi : (⟨S8386560, .i32⟩ : BufTy).Contents (Elt F) → (⟨S8386560, .i32⟩ : BufTy).Contents (Elt F) → (⟨S8386560, .i32⟩ : BufTy).Contents (Elt F)) (Vf (Proc.devRef .tc main_v182)) (Vf (Proc.devRef .tc main_v187)) :=
  binary_fix (fixP4_0 Vf hfix).2.1
theorem e_main_v189 : Vf (Proc.devRef .tc main_v189) = (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) (Vf (Proc.devRef .tc main_v186)) (Vf (Proc.devRef .tc main_v188)) (Vf (Proc.devRef .tc main_v182)) :=
  ternary_fix (fixP4_0 Vf hfix).2.2.1
theorem e_main_c_51 : Vf (Proc.devRef .tc main_c_51) = (constantI S_ 32 0#32) :=
  nullary_fix (fixP4_0 Vf hfix).2.2.2.1
theorem e_main_v190 : Vf (Proc.devRef .tc main_v190) = (broadcastInDim S8386560 ![] bcast_S_S8386560 : (⟨S_, .i32⟩ : BufTy).Contents (Elt F) → (⟨S8386560, .i32⟩ : BufTy).Contents (Elt F)) (Vf (Proc.devRef .tc main_c_51)) :=
  unary_fix (fixP4_0 Vf hfix).2.2.2.2.1
theorem e_main_v191 : Vf (Proc.devRef .tc main_v191) = (cmpi .slt : (⟨S8386560, .i32⟩ : BufTy).Contents (Elt F) → (⟨S8386560, .i32⟩ : BufTy).Contents (Elt F) → (⟨S8386560, .i1⟩ : BufTy).Contents (Elt F)) (Vf (Proc.devRef .tc main_v184)) (Vf (Proc.devRef .tc main_v190)) :=
  binary_fix (fixP4_0 Vf hfix).2.2.2.2.2.1
theorem e_main_c_52 : Vf (Proc.devRef .tc main_c_52) = (constantI S_ 32 4096#32) :=
  nullary_fix (fixP4_0 Vf hfix).2.2.2.2.2.2.1
theorem e_main_v192 : Vf (Proc.devRef .tc main_v192) = (broadcastInDim S8386560 ![] bcast_S_S8386560 : (⟨S_, .i32⟩ : BufTy).Contents (Elt F) → (⟨S8386560, .i32⟩ : BufTy).Contents (Elt F)) (Vf (Proc.devRef .tc main_c_52)) :=
  unary_fix (fixP4_0 Vf hfix).2.2.2.2.2.2.2.1
theorem e_main_v193 : Vf (Proc.devRef .tc main_v193) = (addi : (⟨S8386560, .i32⟩ : BufTy).Contents (Elt F) → (⟨S8386560, .i32⟩ : BufTy).Contents (Elt F) → (⟨S8386560, .i32⟩ : BufTy).Contents (Elt F)) (Vf (Proc.devRef .tc main_v184)) (Vf (Proc.devRef .tc main_v192)) :=
  binary_fix (fixP4_0 Vf hfix).2.2.2.2.2.2.2.2.1
theorem e_main_v194 : Vf (Proc.devRef .tc main_v194) = (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) (Vf (Proc.devRef .tc main_v191)) (Vf (Proc.devRef .tc main_v193)) (Vf (Proc.devRef .tc main_v184)) :=
  ternary_fix (fixP4_0 Vf hfix).2.2.2.2.2.2.2.2.2.1
theorem e_main_v195 : Vf (Proc.devRef .tc main_v195) = (broadcastInDim S8386560x1 ![0] bcast_S8386560_S8386560x1_0 : (⟨S8386560, .i32⟩ : BufTy).Contents (Elt F) → (⟨S8386560x1, .i32⟩ : BufTy).Contents (Elt F)) (Vf (Proc.devRef .tc main_v189)) :=
  unary_fix (fixP4_0 Vf hfix).2.2.2.2.2.2.2.2.2.2.1
theorem e_main_v196 : Vf (Proc.devRef .tc main_v196) = (broadcastInDim S8386560x1 ![0] bcast_S8386560_S8386560x1_0 : (⟨S8386560, .i32⟩ : BufTy).Contents (Elt F) → (⟨S8386560x1, .i32⟩ : BufTy).Contents (Elt F)) (Vf (Proc.devRef .tc main_v194)) :=
  unary_fix (fixP4_0 Vf hfix).2.2.2.2.2.2.2.2.2.2.2.1
theorem e_main_v197 : Vf (Proc.devRef .tc main_v197) = ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) (Vf (Proc.devRef .tc main_v195)) (Vf (Proc.devRef .tc main_v196)) :=
  binary_fix (fixP4_0 Vf hfix).2.2.2.2.2.2.2.2.2.2.2.2.1
theorem e_main_v198 : Vf (Proc.devRef .tc main_v198) = ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) (Vf (Proc.devRef .tc main_v164)) (Vf (Proc.devRef .tc main_v197)) :=
  binary_fix (fixP4_0 Vf hfix).2.2.2.2.2.2.2.2.2.2.2.2.2.1
theorem e_main_cst_53 : Vf (Proc.devRef .tc main_cst_53) = (constant S_ .f32 0x00000000#32) :=
  nullary_fix (fixP4_0 Vf hfix).2.2.2.2.2.2.2.2.2.2.2.2.2.2.1
theorem e_main_v199 : Vf (Proc.devRef .tc main_v199) = (broadcastInDim S8386560 ![] bcast_S_S8386560 : (⟨S_, .f32⟩ : BufTy).Contents (Elt F) → (⟨S8386560, .f32⟩ : BufTy).Contents (Elt F)) (Vf (Proc.devRef .tc main_cst_53)) :=
  unary_fix (fixP4_0 Vf hfix).2.2.2.2.2.2.2.2.2.2.2.2.2.2.2.1
theorem e_main_v200 : Vf (Proc.devRef .tc main_v200) = (maximumf : (⟨S8386560, .f32⟩ : BufTy).Contents (Elt F) → (⟨S8386560, .f32⟩ : BufTy).Contents (Elt F) → (⟨S8386560, .f32⟩ : BufTy).Contents (Elt F)) (Vf (Proc.devRef .tc main_v198)) (Vf (Proc.devRef .tc main_v199)) :=
  binary_fix (fixP4_0 Vf hfix).2.2.2.2.2.2.2.2.2.2.2.2.2.2.2.2.1
theorem e_main_v201 : Vf (Proc.devRef .tc main_v201) = (Host.sqrt : (⟨S8386560, .f32⟩ : BufTy).Contents (Elt F) → (⟨S8386560, .f32⟩ : BufTy).Contents (Elt F)) (Vf (Proc.devRef .tc main_v200)) :=
  unary_fix (fixP4_0 Vf hfix).2.2.2.2.2.2.2.2.2.2.2.2.2.2.2.2.2

end

end Cert.ReferenceIdeal.Hand

end
-- ==== Proof.Ref.Read.lean ====
import proofs.«135652_j20272245637753_1_alg».proof.Proof.Ref.Eqs0
import proofs.«135652_j20272245637753_1_alg».proof.Proof.Ref.Eqs1
import proofs.«135652_j20272245637753_1_alg».proof.Proof.Ref.Eqs2
import proofs.«135652_j20272245637753_1_alg».proof.Proof.Ref.Eqs3
import proofs.«135652_j20272245637753_1_alg».proof.Proof.Ref.Eqs4
import proofs.«135652_j20272245637753_1_alg».proof.Proof.Ref.Stages

/-! # The reference's results as composites of its stages

From the operations' equations of the final contents: each stage of the reference — a linear layer, a rectifier, the
logistic, the squared distances, each step of the index computation, the gathered distances — read off the buffers
it spans, and the five results as the composites. The index computation occurs three times, on three families of
buffers, by the same operations: each reads as the same closed array of index pairs. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

-- the array-level operations stay folded: every step below is between terms that agree operation by operation
attribute [local irreducible] Host.scatter Host.gather Host.reduceWindow Host.reduceAdd shapeCast transpose
  broadcastInDim concatenate iotaInDim

section
variable (Vf : Valuation τ sig (Elt F)) (hfix : ∀ op ∈ (ops : List (HloOp τ sig (Elt F))), Fix Vf op)
include hfix

theorem s_X : Vf (Proc.devRef .tc main_v0) = X2 (Vf (Proc.devRef .tc main_arg0)) := by
  simp only [e_main_v0 Vf hfix, id_eq] <;> rfl

theorem s_L1 : Vf (Proc.devRef .tc main_v5) = L1 (Vf (Proc.devRef .tc main_v0)) (Vf (Proc.devRef .tc main_arg1)) (Vf (Proc.devRef .tc main_arg2)) := by
  simp only [e_main_v5 Vf hfix, e_main_v2 Vf hfix, e_main_v1 Vf hfix, e_main_v4 Vf hfix, e_main_v3 Vf hfix, id_eq] <;> rfl

theorem s_R1 : Vf (Proc.devRef .tc main_v6) = lrelu S4096x400 bcast_S_S4096x400 (Vf (Proc.devRef .tc main_v5)) := by
  simp only [e_main_v6 Vf hfix, e_main_call0_v1 Vf hfix, e_main_call0_v0 Vf hfix, e_main_call0_cst Vf hfix, e_main_call0_v3 Vf hfix, e_main_call0_v2 Vf hfix,
    e_main_call0_cst_0 Vf hfix, id_eq] <;> rfl

theorem s_L2 : Vf (Proc.devRef .tc main_v11) = L2 (Vf (Proc.devRef .tc main_v6)) (Vf (Proc.devRef .tc main_arg3)) (Vf (Proc.devRef .tc main_arg4)) := by
  simp only [e_main_v11 Vf hfix, e_main_v8 Vf hfix, e_main_v7 Vf hfix, e_main_v10 Vf hfix, e_main_v9 Vf hfix, id_eq] <;> rfl

theorem s_R2 : Vf (Proc.devRef .tc main_v12) = lrelu S4096x200 bcast_S_S4096x200 (Vf (Proc.devRef .tc main_v11)) := by
  simp only [e_main_v12 Vf hfix, e_main_call1_v1 Vf hfix, e_main_call1_v0 Vf hfix, e_main_call1_cst Vf hfix, e_main_call1_v3 Vf hfix, e_main_call1_v2 Vf hfix,
    e_main_call1_cst_0 Vf hfix, id_eq] <;> rfl

theorem s_L3 : Vf (Proc.devRef .tc main_v17) = L3 (Vf (Proc.devRef .tc main_v12)) (Vf (Proc.devRef .tc main_arg5)) (Vf (Proc.devRef .tc main_arg6)) := by
  simp only [e_main_v17 Vf hfix, e_main_v14 Vf hfix, e_main_v13 Vf hfix, e_main_v16 Vf hfix, e_main_v15 Vf hfix, id_eq] <;> rfl

theorem s_R3 : Vf (Proc.devRef .tc main_v18) = lrelu S4096x50 bcast_S_S4096x50 (Vf (Proc.devRef .tc main_v17)) := by
  simp only [e_main_v18 Vf hfix, e_main_call2_v1 Vf hfix, e_main_call2_v0 Vf hfix, e_main_call2_cst Vf hfix, e_main_call2_v3 Vf hfix, e_main_call2_v2 Vf hfix,
    e_main_call2_cst_0 Vf hfix, id_eq] <;> rfl

theorem s_L4 : Vf (Proc.devRef .tc main_v24) = L4 (Host.tanh (Vf (Proc.devRef .tc main_v18))) (Vf (Proc.devRef .tc main_arg7)) (Vf (Proc.devRef .tc main_arg8)) := by
  simp only [e_main_v24 Vf hfix, e_main_v21 Vf hfix, e_main_v19 Vf hfix, e_main_v20 Vf hfix, e_main_v23 Vf hfix, e_main_v22 Vf hfix, id_eq] <;> rfl

theorem s_Z : Vf (Proc.devRef .tc main_v24) = Zst (Vf (Proc.devRef .tc main_arg0)) (Vf (Proc.devRef .tc main_arg1)) (Vf (Proc.devRef .tc main_arg2)) (Vf (Proc.devRef .tc main_arg3)) (Vf (Proc.devRef .tc main_arg4)) (Vf (Proc.devRef .tc main_arg5)) (Vf (Proc.devRef .tc main_arg6)) (Vf (Proc.devRef .tc main_arg7)) (Vf (Proc.devRef .tc main_arg8)) := by
  simp only [s_L4 Vf hfix, s_R3 Vf hfix, s_L3 Vf hfix, s_R2 Vf hfix, s_L2 Vf hfix, s_R1 Vf hfix, s_L1 Vf hfix, s_X Vf hfix] <;> rfl

theorem s_L5 : Vf (Proc.devRef .tc main_v29) = L5 (Vf (Proc.devRef .tc main_v24)) (Vf (Proc.devRef .tc main_arg9)) (Vf (Proc.devRef .tc main_arg10)) := by
  simp only [e_main_v29 Vf hfix, e_main_v26 Vf hfix, e_main_v25 Vf hfix, e_main_v28 Vf hfix, e_main_v27 Vf hfix, id_eq] <;> rfl

theorem s_R4 : Vf (Proc.devRef .tc main_v30) = lrelu S4096x50 bcast_S_S4096x50 (Vf (Proc.devRef .tc main_v29)) := by
  simp only [e_main_v30 Vf hfix, e_main_call3_v1 Vf hfix, e_main_call3_v0 Vf hfix, e_main_call3_cst Vf hfix, e_main_call3_v3 Vf hfix, e_main_call3_v2 Vf hfix,
    e_main_call3_cst_0 Vf hfix, id_eq] <;> rfl

theorem s_L6 : Vf (Proc.devRef .tc main_v35) = L6 (Vf (Proc.devRef .tc main_v30)) (Vf (Proc.devRef .tc main_arg11)) (Vf (Proc.devRef .tc main_arg12)) := by
  simp only [e_main_v35 Vf hfix, e_main_v32 Vf hfix, e_main_v31 Vf hfix, e_main_v34 Vf hfix, e_main_v33 Vf hfix, id_eq] <;> rfl

theorem s_R5 : Vf (Proc.devRef .tc main_v36) = lrelu S4096x200 bcast_S_S4096x200 (Vf (Proc.devRef .tc main_v35)) := by
  simp only [e_main_v36 Vf hfix, e_main_call4_v1 Vf hfix, e_main_call4_v0 Vf hfix, e_main_call4_cst Vf hfix, e_main_call4_v3 Vf hfix, e_main_call4_v2 Vf hfix,
    e_main_call4_cst_0 Vf hfix, id_eq] <;> rfl

theorem s_L7 : Vf (Proc.devRef .tc main_v41) = L7 (Vf (Proc.devRef .tc main_v36)) (Vf (Proc.devRef .tc main_arg13)) (Vf (Proc.devRef .tc main_arg14)) := by
  simp only [e_main_v41 Vf hfix, e_main_v38 Vf hfix, e_main_v37 Vf hfix, e_main_v40 Vf hfix, e_main_v39 Vf hfix, id_eq] <;> rfl

theorem s_R6 : Vf (Proc.devRef .tc main_v42) = lrelu S4096x400 bcast_S_S4096x400 (Vf (Proc.devRef .tc main_v41)) := by
  simp only [e_main_v42 Vf hfix, e_main_call5_v1 Vf hfix, e_main_call5_v0 Vf hfix, e_main_call5_cst Vf hfix, e_main_call5_v3 Vf hfix, e_main_call5_v2 Vf hfix,
    e_main_call5_cst_0 Vf hfix, id_eq] <;> rfl

theorem s_L8 : Vf (Proc.devRef .tc main_v47) = L8 (Vf (Proc.devRef .tc main_v42)) (Vf (Proc.devRef .tc main_arg15)) (Vf (Proc.devRef .tc main_arg16)) := by
  simp only [e_main_v47 Vf hfix, e_main_v44 Vf hfix, e_main_v43 Vf hfix, e_main_v46 Vf hfix, e_main_v45 Vf hfix, id_eq] <;> rfl

theorem s_Ypre : Vf (Proc.devRef .tc main_v47) = Ypre (Vf (Proc.devRef .tc main_v24)) (Vf (Proc.devRef .tc main_arg9)) (Vf (Proc.devRef .tc main_arg10)) (Vf (Proc.devRef .tc main_arg11)) (Vf (Proc.devRef .tc main_arg12)) (Vf (Proc.devRef .tc main_arg13)) (Vf (Proc.devRef .tc main_arg14)) (Vf (Proc.devRef .tc main_arg15)) (Vf (Proc.devRef .tc main_arg16)) := by
  simp only [s_L8 Vf hfix, s_R6 Vf hfix, s_L7 Vf hfix, s_R5 Vf hfix, s_L6 Vf hfix, s_R4 Vf hfix, s_L5 Vf hfix] <;> rfl

theorem s_log : Vf (Proc.devRef .tc main_v53) = logistic (Vf (Proc.devRef .tc main_v47)) := by
  simp only [e_main_v53 Vf hfix, e_main_v52 Vf hfix, e_main_cst_0 Vf hfix, e_main_v51 Vf hfix, e_main_v50 Vf hfix, e_main_cst Vf hfix, e_main_v49 Vf hfix,
    e_main_v48 Vf hfix, id_eq] <;> rfl

theorem s_Y : Vf (Proc.devRef .tc main_v53) = Yst (Vf (Proc.devRef .tc main_v24)) (Vf (Proc.devRef .tc main_arg9)) (Vf (Proc.devRef .tc main_arg10)) (Vf (Proc.devRef .tc main_arg11)) (Vf (Proc.devRef .tc main_arg12)) (Vf (Proc.devRef .tc main_arg13)) (Vf (Proc.devRef .tc main_arg14)) (Vf (Proc.devRef .tc main_arg15)) (Vf (Proc.devRef .tc main_arg16)) := by
  simp only [s_log Vf hfix, s_Ypre Vf hfix] <;> rfl

theorem s_Yimg : Vf (Proc.devRef .tc main_v54) = Yimg (Vf (Proc.devRef .tc main_v53)) := by
  simp only [e_main_v54 Vf hfix, id_eq] <;> rfl

theorem s_D1 : Vf (Proc.devRef .tc main_v66) = D2_784 (Vf (Proc.devRef .tc main_v0)) := by
  simp only [e_main_v66 Vf hfix, e_main_v61 Vf hfix, e_main_v59 Vf hfix, e_main_v57 Vf hfix, e_main_v56 Vf hfix, e_main_v55 Vf hfix, e_main_cst_1 Vf hfix,
    e_main_v60 Vf hfix, e_main_v58 Vf hfix, e_main_v65 Vf hfix, e_main_v64 Vf hfix, e_main_cst_2 Vf hfix, e_main_v63 Vf hfix, e_main_v62 Vf hfix, id_eq] <;> rfl

theorem s_D2 : Vf (Proc.devRef .tc main_v115) = D2_2 (Vf (Proc.devRef .tc main_v24)) := by
  simp only [e_main_v115 Vf hfix, e_main_v110 Vf hfix, e_main_v108 Vf hfix, e_main_v106 Vf hfix, e_main_v105 Vf hfix, e_main_v104 Vf hfix, e_main_cst_18 Vf hfix,
    e_main_v109 Vf hfix, e_main_v107 Vf hfix, e_main_v114 Vf hfix, e_main_v113 Vf hfix, e_main_cst_19 Vf hfix, e_main_v112 Vf hfix, e_main_v111 Vf hfix,
    id_eq] <;> rfl

theorem s_D3 : Vf (Proc.devRef .tc main_v164) = D2_784 (Vf (Proc.devRef .tc main_v53)) := by
  simp only [e_main_v164 Vf hfix, e_main_v159 Vf hfix, e_main_v157 Vf hfix, e_main_v155 Vf hfix, e_main_v154 Vf hfix, e_main_v153 Vf hfix, e_main_cst_36 Vf hfix,
    e_main_v158 Vf hfix, e_main_v156 Vf hfix, e_main_v163 Vf hfix, e_main_v162 Vf hfix, e_main_cst_37 Vf hfix, e_main_v161 Vf hfix, e_main_v160 Vf hfix,
    id_eq] <;> rfl

theorem s1_mask : Vf (Proc.devRef .tc main_v70) = triuMask (F := F) := by
  simp only [e_main_v70 Vf hfix, e_main_v68 Vf hfix, e_main_call6_v4 Vf hfix, e_main_call6_v2 Vf hfix, e_main_call6_v0 Vf hfix, e_main_call6_v1 Vf hfix,
    e_main_call6_c Vf hfix, e_main_call6_v3 Vf hfix, e_main_call6_v5 Vf hfix, e_main_call6_cst Vf hfix, e_main_v67 Vf hfix, e_main_cst_3 Vf hfix,
    e_main_v69 Vf hfix, e_main_cst_4 Vf hfix, id_eq] <;> rfl

theorem s1_count : Vf (Proc.devRef .tc main_v71) = maskCount (F := F) := by
  simp only [e_main_v71 Vf hfix, e_main_call7_v1 Vf hfix, e_main_call7_v0 Vf hfix, e_main_call7_call0_v0 Vf hfix, e_main_call7_call0_c Vf hfix, s1_mask Vf hfix,
    id_eq] <;> rfl

theorem s1_clip : Vf (Proc.devRef .tc main_v73) = maskClip (F := F) := by
  simp only [e_main_v73 Vf hfix, e_main_call8_v1 Vf hfix, e_main_call8_v0 Vf hfix, e_main_c_5 Vf hfix, s1_count Vf hfix, id_eq] <;> rfl

theorem s1_pos : Vf (Proc.devRef .tc main_v78) = scatPos (F := F) := by
  simp only [e_main_v78 Vf hfix, e_main_v75 Vf hfix, e_main_v74 Vf hfix, e_main_c_6 Vf hfix, e_main_v77 Vf hfix, e_main_v76 Vf hfix, e_main_c_7 Vf hfix,
    s1_clip Vf hfix, id_eq] <;> rfl

theorem s1_ones : Vf (Proc.devRef .tc main_v81) = scatOnes (F := F) := by
  simp only [e_main_v81 Vf hfix, e_main_v72 Vf hfix, e_main_c Vf hfix, e_main_v79 Vf hfix, e_main_v80 Vf hfix, e_main_c_8 Vf hfix, s1_pos Vf hfix, id_eq] <;> rfl

theorem s1_flat : Vf (Proc.devRef .tc main_v82) = flatPos (F := F) := by
  simp only [e_main_v82 Vf hfix, e_main_call9_call0_v0 Vf hfix, e_main_call9_call0_c Vf hfix, s1_ones Vf hfix, id_eq] <;> rfl

theorem s1_q1 : Vf (Proc.devRef .tc main_v83) = floorDiv (Vf (Proc.devRef .tc main_v82)) (Vf (Proc.devRef .tc main_c_9)) := by
  simp only [e_main_v83 Vf hfix, e_main_call10_v10 Vf hfix, e_main_call10_v5 Vf hfix, e_main_call10_v2 Vf hfix, e_main_call10_v4 Vf hfix, e_main_call10_v3 Vf hfix,
    e_main_call10_v9 Vf hfix, e_main_call10_v7 Vf hfix, e_main_call10_v6 Vf hfix, e_main_call10_v8 Vf hfix, e_main_call10_c Vf hfix,
    e_main_call10_v12 Vf hfix, e_main_call10_v1 Vf hfix, e_main_call10_v0 Vf hfix, e_main_call10_v11 Vf hfix, e_main_call10_c_0 Vf hfix, id_eq] <;> rfl

theorem s1_r1 : Vf (Proc.devRef .tc main_v84) = floorRem (Vf (Proc.devRef .tc main_v83)) (Vf (Proc.devRef .tc main_c_10)) := by
  simp only [e_main_v84 Vf hfix, e_main_call11_v12 Vf hfix, e_main_call11_v11 Vf hfix, e_main_call11_v8 Vf hfix, e_main_call11_v4 Vf hfix, e_main_call11_v3 Vf hfix,
    e_main_call11_v2 Vf hfix, e_main_call11_v1 Vf hfix, e_main_call11_v0 Vf hfix, e_main_call11_c Vf hfix, e_main_call11_c_0 Vf hfix,
    e_main_call11_v7 Vf hfix, e_main_call11_c_2 Vf hfix, e_main_call11_v10 Vf hfix, e_main_call11_v9 Vf hfix, e_main_call11_c_3 Vf hfix,
    e_main_call11_v6 Vf hfix, e_main_call11_v5 Vf hfix, e_main_call11_c_1 Vf hfix, e_main_call11_v14 Vf hfix, e_main_call11_v13 Vf hfix, id_eq] <;> rfl

theorem s1_q2 : Vf (Proc.devRef .tc main_v85) = floorDiv (Vf (Proc.devRef .tc main_v82)) (Vf (Proc.devRef .tc main_c_11)) := by
  simp only [e_main_v85 Vf hfix, e_main_call12_v10 Vf hfix, e_main_call12_v5 Vf hfix, e_main_call12_v2 Vf hfix, e_main_call12_v4 Vf hfix, e_main_call12_v3 Vf hfix,
    e_main_call12_v9 Vf hfix, e_main_call12_v7 Vf hfix, e_main_call12_v6 Vf hfix, e_main_call12_v8 Vf hfix, e_main_call12_c Vf hfix,
    e_main_call12_v12 Vf hfix, e_main_call12_v1 Vf hfix, e_main_call12_v0 Vf hfix, e_main_call12_v11 Vf hfix, e_main_call12_c_0 Vf hfix, id_eq] <;> rfl

theorem s1_r2 : Vf (Proc.devRef .tc main_v86) = floorRem (Vf (Proc.devRef .tc main_v85)) (Vf (Proc.devRef .tc main_c_12)) := by
  simp only [e_main_v86 Vf hfix, e_main_call13_v12 Vf hfix, e_main_call13_v11 Vf hfix, e_main_call13_v8 Vf hfix, e_main_call13_v4 Vf hfix, e_main_call13_v3 Vf hfix,
    e_main_call13_v2 Vf hfix, e_main_call13_v1 Vf hfix, e_main_call13_v0 Vf hfix, e_main_call13_c Vf hfix, e_main_call13_c_0 Vf hfix,
    e_main_call13_v7 Vf hfix, e_main_call13_c_2 Vf hfix, e_main_call13_v10 Vf hfix, e_main_call13_v9 Vf hfix, e_main_call13_c_3 Vf hfix,
    e_main_call13_v6 Vf hfix, e_main_call13_v5 Vf hfix, e_main_call13_c_1 Vf hfix, e_main_call13_v14 Vf hfix, e_main_call13_v13 Vf hfix, id_eq] <;> rfl

theorem s1_wrow : Vf (Proc.devRef .tc main_v91) = wrapNeg (Vf (Proc.devRef .tc main_v84)) := by
  simp only [e_main_v91 Vf hfix, e_main_v88 Vf hfix, e_main_v87 Vf hfix, e_main_c_13 Vf hfix, e_main_v90 Vf hfix, e_main_v89 Vf hfix, e_main_c_14 Vf hfix, id_eq] <;> rfl

theorem s1_wcol : Vf (Proc.devRef .tc main_v96) = wrapNeg (Vf (Proc.devRef .tc main_v86)) := by
  simp only [e_main_v96 Vf hfix, e_main_v93 Vf hfix, e_main_v92 Vf hfix, e_main_c_15 Vf hfix, e_main_v95 Vf hfix, e_main_v94 Vf hfix, e_main_c_16 Vf hfix, id_eq] <;> rfl

theorem s1_row : Vf (Proc.devRef .tc main_v91) = rowIdx (F := F) := by
  simp only [s1_wrow Vf hfix, s1_r1 Vf hfix, s1_q1 Vf hfix, s1_flat Vf hfix, e_main_c_9 Vf hfix, e_main_c_10 Vf hfix] <;> rfl

theorem s1_col : Vf (Proc.devRef .tc main_v96) = colIdx (F := F) := by
  simp only [s1_wcol Vf hfix, s1_r2 Vf hfix, s1_q2 Vf hfix, s1_flat Vf hfix, e_main_c_11 Vf hfix, e_main_c_12 Vf hfix] <;> rfl

theorem s1_idx : Vf (Proc.devRef .tc main_v99) = IDX (F := F) := by
  have h1 := (e_main_v97 Vf hfix).trans (congrArg (broadcastInDim S8386560x1 ![0] bcast_S8386560_S8386560x1_0 : (⟨S8386560, .i32⟩ : BufTy).Contents (Elt F) → (⟨S8386560x1, .i32⟩ : BufTy).Contents (Elt F)) (s1_row Vf hfix))
  have h2 := (e_main_v98 Vf hfix).trans (congrArg (broadcastInDim S8386560x1 ![0] bcast_S8386560_S8386560x1_0 : (⟨S8386560, .i32⟩ : BufTy).Contents (Elt F) → (⟨S8386560x1, .i32⟩ : BufTy).Contents (Elt F)) (s1_col Vf hfix))
  exact (e_main_v99 Vf hfix).trans (congrArg₂ ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) h1 h2)

theorem s1_out : Vf (Proc.devRef .tc main_v103) = PD (Host.gather gather_S4096x4096_S8386560x2_S8386560_n_01_n_n_01_1_11 (Vf (Proc.devRef .tc main_v66)) (IDX (F := F))) := by
  simp only [e_main_v103 Vf hfix, e_main_v102 Vf hfix, e_main_v100 Vf hfix, e_main_v101 Vf hfix, e_main_cst_17 Vf hfix, s1_idx Vf hfix, id_eq] <;> rfl

theorem s2_mask : Vf (Proc.devRef .tc main_v119) = triuMask (F := F) := by
  simp only [e_main_v119 Vf hfix, e_main_v117 Vf hfix, e_main_call14_v4 Vf hfix, e_main_call14_v2 Vf hfix, e_main_call14_v0 Vf hfix, e_main_call14_v1 Vf hfix,
    e_main_call14_c Vf hfix, e_main_call14_v3 Vf hfix, e_main_call14_v5 Vf hfix, e_main_call14_cst Vf hfix, e_main_v116 Vf hfix, e_main_cst_20 Vf hfix,
    e_main_v118 Vf hfix, e_main_cst_21 Vf hfix, id_eq] <;> rfl

theorem s2_count : Vf (Proc.devRef .tc main_v120) = maskCount (F := F) := by
  simp only [e_main_v120 Vf hfix, e_main_call15_v1 Vf hfix, e_main_call15_v0 Vf hfix, e_main_call15_call0_v0 Vf hfix, e_main_call15_call0_c Vf hfix,
    s2_mask Vf hfix, id_eq] <;> rfl

theorem s2_clip : Vf (Proc.devRef .tc main_v122) = maskClip (F := F) := by
  simp only [e_main_v122 Vf hfix, e_main_call16_v1 Vf hfix, e_main_call16_v0 Vf hfix, e_main_c_23 Vf hfix, s2_count Vf hfix, id_eq] <;> rfl

theorem s2_pos : Vf (Proc.devRef .tc main_v127) = scatPos (F := F) := by
  simp only [e_main_v127 Vf hfix, e_main_v124 Vf hfix, e_main_v123 Vf hfix, e_main_c_24 Vf hfix, e_main_v126 Vf hfix, e_main_v125 Vf hfix, e_main_c_25 Vf hfix,
    s2_clip Vf hfix, id_eq] <;> rfl

theorem s2_ones : Vf (Proc.devRef .tc main_v130) = scatOnes (F := F) := by
  simp only [e_main_v130 Vf hfix, e_main_v121 Vf hfix, e_main_c_22 Vf hfix, e_main_v128 Vf hfix, e_main_v129 Vf hfix, e_main_c_26 Vf hfix, s2_pos Vf hfix, id_eq] <;> rfl

theorem s2_flat : Vf (Proc.devRef .tc main_v131) = flatPos (F := F) := by
  simp only [e_main_v131 Vf hfix, e_main_call17_call0_v0 Vf hfix, e_main_call17_call0_c Vf hfix, s2_ones Vf hfix, id_eq] <;> rfl

theorem s2_q1 : Vf (Proc.devRef .tc main_v132) = floorDiv (Vf (Proc.devRef .tc main_v131)) (Vf (Proc.devRef .tc main_c_27)) := by
  simp only [e_main_v132 Vf hfix, e_main_call18_v10 Vf hfix, e_main_call18_v5 Vf hfix, e_main_call18_v2 Vf hfix, e_main_call18_v4 Vf hfix, e_main_call18_v3 Vf hfix,
    e_main_call18_v9 Vf hfix, e_main_call18_v7 Vf hfix, e_main_call18_v6 Vf hfix, e_main_call18_v8 Vf hfix, e_main_call18_c Vf hfix,
    e_main_call18_v12 Vf hfix, e_main_call18_v1 Vf hfix, e_main_call18_v0 Vf hfix, e_main_call18_v11 Vf hfix, e_main_call18_c_0 Vf hfix, id_eq] <;> rfl

theorem s2_r1 : Vf (Proc.devRef .tc main_v133) = floorRem (Vf (Proc.devRef .tc main_v132)) (Vf (Proc.devRef .tc main_c_28)) := by
  simp only [e_main_v133 Vf hfix, e_main_call19_v12 Vf hfix, e_main_call19_v11 Vf hfix, e_main_call19_v8 Vf hfix, e_main_call19_v4 Vf hfix,
    e_main_call19_v3 Vf hfix, e_main_call19_v2 Vf hfix, e_main_call19_v1 Vf hfix, e_main_call19_v0 Vf hfix, e_main_call19_c Vf hfix,
    e_main_call19_c_0 Vf hfix, e_main_call19_v7 Vf hfix, e_main_call19_c_2 Vf hfix, e_main_call19_v10 Vf hfix, e_main_call19_v9 Vf hfix,
    e_main_call19_c_3 Vf hfix, e_main_call19_v6 Vf hfix, e_main_call19_v5 Vf hfix, e_main_call19_c_1 Vf hfix, e_main_call19_v14 Vf hfix,
    e_main_call19_v13 Vf hfix, id_eq] <;> rfl

theorem s2_q2 : Vf (Proc.devRef .tc main_v134) = floorDiv (Vf (Proc.devRef .tc main_v131)) (Vf (Proc.devRef .tc main_c_29)) := by
  simp only [e_main_v134 Vf hfix, e_main_call20_v10 Vf hfix, e_main_call20_v5 Vf hfix, e_main_call20_v2 Vf hfix, e_main_call20_v4 Vf hfix, e_main_call20_v3 Vf hfix,
    e_main_call20_v9 Vf hfix, e_main_call20_v7 Vf hfix, e_main_call20_v6 Vf hfix, e_main_call20_v8 Vf hfix, e_main_call20_c Vf hfix,
    e_main_call20_v12 Vf hfix, e_main_call20_v1 Vf hfix, e_main_call20_v0 Vf hfix, e_main_call20_v11 Vf hfix, e_main_call20_c_0 Vf hfix, id_eq] <;> rfl

theorem s2_r2 : Vf (Proc.devRef .tc main_v135) = floorRem (Vf (Proc.devRef .tc main_v134)) (Vf (Proc.devRef .tc main_c_30)) := by
  simp only [e_main_v135 Vf hfix, e_main_call21_v12 Vf hfix, e_main_call21_v11 Vf hfix, e_main_call21_v8 Vf hfix, e_main_call21_v4 Vf hfix,
    e_main_call21_v3 Vf hfix, e_main_call21_v2 Vf hfix, e_main_call21_v1 Vf hfix, e_main_call21_v0 Vf hfix, e_main_call21_c Vf hfix,
    e_main_call21_c_0 Vf hfix, e_main_call21_v7 Vf hfix, e_main_call21_c_2 Vf hfix, e_main_call21_v10 Vf hfix, e_main_call21_v9 Vf hfix,
    e_main_call21_c_3 Vf hfix, e_main_call21_v6 Vf hfix, e_main_call21_v5 Vf hfix, e_main_call21_c_1 Vf hfix, e_main_call21_v14 Vf hfix,
    e_main_call21_v13 Vf hfix, id_eq] <;> rfl

theorem s2_wrow : Vf (Proc.devRef .tc main_v140) = wrapNeg (Vf (Proc.devRef .tc main_v133)) := by
  simp only [e_main_v140 Vf hfix, e_main_v137 Vf hfix, e_main_v136 Vf hfix, e_main_c_31 Vf hfix, e_main_v139 Vf hfix, e_main_v138 Vf hfix, e_main_c_32 Vf hfix,
    id_eq] <;> rfl

theorem s2_wcol : Vf (Proc.devRef .tc main_v145) = wrapNeg (Vf (Proc.devRef .tc main_v135)) := by
  simp only [e_main_v145 Vf hfix, e_main_v142 Vf hfix, e_main_v141 Vf hfix, e_main_c_33 Vf hfix, e_main_v144 Vf hfix, e_main_v143 Vf hfix, e_main_c_34 Vf hfix,
    id_eq] <;> rfl

theorem s2_row : Vf (Proc.devRef .tc main_v140) = rowIdx (F := F) := by
  simp only [s2_wrow Vf hfix, s2_r1 Vf hfix, s2_q1 Vf hfix, s2_flat Vf hfix, e_main_c_27 Vf hfix, e_main_c_28 Vf hfix] <;> rfl

theorem s2_col : Vf (Proc.devRef .tc main_v145) = colIdx (F := F) := by
  simp only [s2_wcol Vf hfix, s2_r2 Vf hfix, s2_q2 Vf hfix, s2_flat Vf hfix, e_main_c_29 Vf hfix, e_main_c_30 Vf hfix] <;> rfl

theorem s2_idx : Vf (Proc.devRef .tc main_v148) = IDX (F := F) := by
  have h1 := (e_main_v146 Vf hfix).trans (congrArg (broadcastInDim S8386560x1 ![0] bcast_S8386560_S8386560x1_0 : (⟨S8386560, .i32⟩ : BufTy).Contents (Elt F) → (⟨S8386560x1, .i32⟩ : BufTy).Contents (Elt F)) (s2_row Vf hfix))
  have h2 := (e_main_v147 Vf hfix).trans (congrArg (broadcastInDim S8386560x1 ![0] bcast_S8386560_S8386560x1_0 : (⟨S8386560, .i32⟩ : BufTy).Contents (Elt F) → (⟨S8386560x1, .i32⟩ : BufTy).Contents (Elt F)) (s2_col Vf hfix))
  exact (e_main_v148 Vf hfix).trans (congrArg₂ ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) h1 h2)

theorem s2_out : Vf (Proc.devRef .tc main_v152) = PD (Host.gather gather_S4096x4096_S8386560x2_S8386560_n_01_n_n_01_1_11 (Vf (Proc.devRef .tc main_v115)) (IDX (F := F))) := by
  simp only [e_main_v152 Vf hfix, e_main_v151 Vf hfix, e_main_v149 Vf hfix, e_main_v150 Vf hfix, e_main_cst_35 Vf hfix, s2_idx Vf hfix, id_eq] <;> rfl

theorem s3_mask : Vf (Proc.devRef .tc main_v168) = triuMask (F := F) := by
  simp only [e_main_v168 Vf hfix, e_main_v166 Vf hfix, e_main_call22_v4 Vf hfix, e_main_call22_v2 Vf hfix, e_main_call22_v0 Vf hfix, e_main_call22_v1 Vf hfix,
    e_main_call22_c Vf hfix, e_main_call22_v3 Vf hfix, e_main_call22_v5 Vf hfix, e_main_call22_cst Vf hfix, e_main_v165 Vf hfix, e_main_cst_38 Vf hfix,
    e_main_v167 Vf hfix, e_main_cst_39 Vf hfix, id_eq] <;> rfl

theorem s3_count : Vf (Proc.devRef .tc main_v169) = maskCount (F := F) := by
  simp only [e_main_v169 Vf hfix, e_main_call23_v1 Vf hfix, e_main_call23_v0 Vf hfix, e_main_call23_call0_v0 Vf hfix, e_main_call23_call0_c Vf hfix,
    s3_mask Vf hfix, id_eq] <;> rfl

theorem s3_clip : Vf (Proc.devRef .tc main_v171) = maskClip (F := F) := by
  simp only [e_main_v171 Vf hfix, e_main_call24_v1 Vf hfix, e_main_call24_v0 Vf hfix, e_main_c_41 Vf hfix, s3_count Vf hfix, id_eq] <;> rfl

theorem s3_pos : Vf (Proc.devRef .tc main_v176) = scatPos (F := F) := by
  simp only [e_main_v176 Vf hfix, e_main_v173 Vf hfix, e_main_v172 Vf hfix, e_main_c_42 Vf hfix, e_main_v175 Vf hfix, e_main_v174 Vf hfix, e_main_c_43 Vf hfix,
    s3_clip Vf hfix, id_eq] <;> rfl

theorem s3_ones : Vf (Proc.devRef .tc main_v179) = scatOnes (F := F) := by
  simp only [e_main_v179 Vf hfix, e_main_v170 Vf hfix, e_main_c_40 Vf hfix, e_main_v177 Vf hfix, e_main_v178 Vf hfix, e_main_c_44 Vf hfix, s3_pos Vf hfix, id_eq] <;> rfl

theorem s3_flat : Vf (Proc.devRef .tc main_v180) = flatPos (F := F) := by
  simp only [e_main_v180 Vf hfix, e_main_call25_call0_v0 Vf hfix, e_main_call25_call0_c Vf hfix, s3_ones Vf hfix, id_eq] <;> rfl

theorem s3_q1 : Vf (Proc.devRef .tc main_v181) = floorDiv (Vf (Proc.devRef .tc main_v180)) (Vf (Proc.devRef .tc main_c_45)) := by
  simp only [e_main_v181 Vf hfix, e_main_call26_v10 Vf hfix, e_main_call26_v5 Vf hfix, e_main_call26_v2 Vf hfix, e_main_call26_v4 Vf hfix, e_main_call26_v3 Vf hfix,
    e_main_call26_v9 Vf hfix, e_main_call26_v7 Vf hfix, e_main_call26_v6 Vf hfix, e_main_call26_v8 Vf hfix, e_main_call26_c Vf hfix,
    e_main_call26_v12 Vf hfix, e_main_call26_v1 Vf hfix, e_main_call26_v0 Vf hfix, e_main_call26_v11 Vf hfix, e_main_call26_c_0 Vf hfix, id_eq] <;> rfl

theorem s3_r1 : Vf (Proc.devRef .tc main_v182) = floorRem (Vf (Proc.devRef .tc main_v181)) (Vf (Proc.devRef .tc main_c_46)) := by
  simp only [e_main_v182 Vf hfix, e_main_call27_v12 Vf hfix, e_main_call27_v11 Vf hfix, e_main_call27_v8 Vf hfix, e_main_call27_v4 Vf hfix,
    e_main_call27_v3 Vf hfix, e_main_call27_v2 Vf hfix, e_main_call27_v1 Vf hfix, e_main_call27_v0 Vf hfix, e_main_call27_c Vf hfix,
    e_main_call27_c_0 Vf hfix, e_main_call27_v7 Vf hfix, e_main_call27_c_2 Vf hfix, e_main_call27_v10 Vf hfix, e_main_call27_v9 Vf hfix,
    e_main_call27_c_3 Vf hfix, e_main_call27_v6 Vf hfix, e_main_call27_v5 Vf hfix, e_main_call27_c_1 Vf hfix, e_main_call27_v14 Vf hfix,
    e_main_call27_v13 Vf hfix, id_eq] <;> rfl

theorem s3_q2 : Vf (Proc.devRef .tc main_v183) = floorDiv (Vf (Proc.devRef .tc main_v180)) (Vf (Proc.devRef .tc main_c_47)) := by
  simp only [e_main_v183 Vf hfix, e_main_call28_v10 Vf hfix, e_main_call28_v5 Vf hfix, e_main_call28_v2 Vf hfix, e_main_call28_v4 Vf hfix, e_main_call28_v3 Vf hfix,
    e_main_call28_v9 Vf hfix, e_main_call28_v7 Vf hfix, e_main_call28_v6 Vf hfix, e_main_call28_v8 Vf hfix, e_main_call28_c Vf hfix,
    e_main_call28_v12 Vf hfix, e_main_call28_v1 Vf hfix, e_main_call28_v0 Vf hfix, e_main_call28_v11 Vf hfix, e_main_call28_c_0 Vf hfix, id_eq] <;> rfl

theorem s3_r2 : Vf (Proc.devRef .tc main_v184) = floorRem (Vf (Proc.devRef .tc main_v183)) (Vf (Proc.devRef .tc main_c_48)) := by
  simp only [e_main_v184 Vf hfix, e_main_call29_v12 Vf hfix, e_main_call29_v11 Vf hfix, e_main_call29_v8 Vf hfix, e_main_call29_v4 Vf hfix,
    e_main_call29_v3 Vf hfix, e_main_call29_v2 Vf hfix, e_main_call29_v1 Vf hfix, e_main_call29_v0 Vf hfix, e_main_call29_c Vf hfix,
    e_main_call29_c_0 Vf hfix, e_main_call29_v7 Vf hfix, e_main_call29_c_2 Vf hfix, e_main_call29_v10 Vf hfix, e_main_call29_v9 Vf hfix,
    e_main_call29_c_3 Vf hfix, e_main_call29_v6 Vf hfix, e_main_call29_v5 Vf hfix, e_main_call29_c_1 Vf hfix, e_main_call29_v14 Vf hfix,
    e_main_call29_v13 Vf hfix, id_eq] <;> rfl

theorem s3_wrow : Vf (Proc.devRef .tc main_v189) = wrapNeg (Vf (Proc.devRef .tc main_v182)) := by
  simp only [e_main_v189 Vf hfix, e_main_v186 Vf hfix, e_main_v185 Vf hfix, e_main_c_49 Vf hfix, e_main_v188 Vf hfix, e_main_v187 Vf hfix, e_main_c_50 Vf hfix,
    id_eq] <;> rfl

theorem s3_wcol : Vf (Proc.devRef .tc main_v194) = wrapNeg (Vf (Proc.devRef .tc main_v184)) := by
  simp only [e_main_v194 Vf hfix, e_main_v191 Vf hfix, e_main_v190 Vf hfix, e_main_c_51 Vf hfix, e_main_v193 Vf hfix, e_main_v192 Vf hfix, e_main_c_52 Vf hfix,
    id_eq] <;> rfl

theorem s3_row : Vf (Proc.devRef .tc main_v189) = rowIdx (F := F) := by
  simp only [s3_wrow Vf hfix, s3_r1 Vf hfix, s3_q1 Vf hfix, s3_flat Vf hfix, e_main_c_45 Vf hfix, e_main_c_46 Vf hfix] <;> rfl

theorem s3_col : Vf (Proc.devRef .tc main_v194) = colIdx (F := F) := by
  simp only [s3_wcol Vf hfix, s3_r2 Vf hfix, s3_q2 Vf hfix, s3_flat Vf hfix, e_main_c_47 Vf hfix, e_main_c_48 Vf hfix] <;> rfl

theorem s3_idx : Vf (Proc.devRef .tc main_v197) = IDX (F := F) := by
  have h1 := (e_main_v195 Vf hfix).trans (congrArg (broadcastInDim S8386560x1 ![0] bcast_S8386560_S8386560x1_0 : (⟨S8386560, .i32⟩ : BufTy).Contents (Elt F) → (⟨S8386560x1, .i32⟩ : BufTy).Contents (Elt F)) (s3_row Vf hfix))
  have h2 := (e_main_v196 Vf hfix).trans (congrArg (broadcastInDim S8386560x1 ![0] bcast_S8386560_S8386560x1_0 : (⟨S8386560, .i32⟩ : BufTy).Contents (Elt F) → (⟨S8386560x1, .i32⟩ : BufTy).Contents (Elt F)) (s3_col Vf hfix))
  exact (e_main_v197 Vf hfix).trans (congrArg₂ ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) h1 h2)

theorem s3_out : Vf (Proc.devRef .tc main_v201) = PD (Host.gather gather_S4096x4096_S8386560x2_S8386560_n_01_n_n_01_1_11 (Vf (Proc.devRef .tc main_v164)) (IDX (F := F))) := by
  simp only [e_main_v201 Vf hfix, e_main_v200 Vf hfix, e_main_v198 Vf hfix, e_main_v199 Vf hfix, e_main_cst_53 Vf hfix, s3_idx Vf hfix, id_eq] <;> rfl

theorem f_v24 : Vf (Proc.devRef .tc main_v24) = Zst (Vf (Proc.devRef .tc main_arg0)) (Vf (Proc.devRef .tc main_arg1)) (Vf (Proc.devRef .tc main_arg2)) (Vf (Proc.devRef .tc main_arg3)) (Vf (Proc.devRef .tc main_arg4)) (Vf (Proc.devRef .tc main_arg5)) (Vf (Proc.devRef .tc main_arg6)) (Vf (Proc.devRef .tc main_arg7)) (Vf (Proc.devRef .tc main_arg8)) := by
  exact s_Z Vf hfix

theorem f_v54 : Vf (Proc.devRef .tc main_v54) = Yimg (Yst (Zst (Vf (Proc.devRef .tc main_arg0)) (Vf (Proc.devRef .tc main_arg1)) (Vf (Proc.devRef .tc main_arg2)) (Vf (Proc.devRef .tc main_arg3)) (Vf (Proc.devRef .tc main_arg4)) (Vf (Proc.devRef .tc main_arg5)) (Vf (Proc.devRef .tc main_arg6)) (Vf (Proc.devRef .tc main_arg7)) (Vf (Proc.devRef .tc main_arg8))) (Vf (Proc.devRef .tc main_arg9)) (Vf (Proc.devRef .tc main_arg10)) (Vf (Proc.devRef .tc main_arg11)) (Vf (Proc.devRef .tc main_arg12)) (Vf (Proc.devRef .tc main_arg13)) (Vf (Proc.devRef .tc main_arg14)) (Vf (Proc.devRef .tc main_arg15)) (Vf (Proc.devRef .tc main_arg16))) := by
  simp only [s_Yimg Vf hfix, s_Y Vf hfix, s_Z Vf hfix] <;> rfl

theorem f_v103 : Vf (Proc.devRef .tc main_v103) = PD (Host.gather gather_S4096x4096_S8386560x2_S8386560_n_01_n_n_01_1_11 (D2_784 (X2 (Vf (Proc.devRef .tc main_arg0)))) (IDX (F := F))) := by
  simp only [s1_out Vf hfix, s_D1 Vf hfix, s_X Vf hfix] <;> rfl

theorem f_v152 : Vf (Proc.devRef .tc main_v152) = PD (Host.gather gather_S4096x4096_S8386560x2_S8386560_n_01_n_n_01_1_11 (D2_2 (Zst (Vf (Proc.devRef .tc main_arg0)) (Vf (Proc.devRef .tc main_arg1)) (Vf (Proc.devRef .tc main_arg2)) (Vf (Proc.devRef .tc main_arg3)) (Vf (Proc.devRef .tc main_arg4)) (Vf (Proc.devRef .tc main_arg5)) (Vf (Proc.devRef .tc main_arg6)) (Vf (Proc.devRef .tc main_arg7)) (Vf (Proc.devRef .tc main_arg8)))) (IDX (F := F))) := by
  simp only [s2_out Vf hfix, s_D2 Vf hfix, s_Z Vf hfix] <;> rfl

theorem f_v201 : Vf (Proc.devRef .tc main_v201) = PD (Host.gather gather_S4096x4096_S8386560x2_S8386560_n_01_n_n_01_1_11 (D2_784 (Yst (Zst (Vf (Proc.devRef .tc main_arg0)) (Vf (Proc.devRef .tc main_arg1)) (Vf (Proc.devRef .tc main_arg2)) (Vf (Proc.devRef .tc main_arg3)) (Vf (Proc.devRef .tc main_arg4)) (Vf (Proc.devRef .tc main_arg5)) (Vf (Proc.devRef .tc main_arg6)) (Vf (Proc.devRef .tc main_arg7)) (Vf (Proc.devRef .tc main_arg8))) (Vf (Proc.devRef .tc main_arg9)) (Vf (Proc.devRef .tc main_arg10)) (Vf (Proc.devRef .tc main_arg11)) (Vf (Proc.devRef .tc main_arg12)) (Vf (Proc.devRef .tc main_arg13)) (Vf (Proc.devRef .tc main_arg14)) (Vf (Proc.devRef .tc main_arg15)) (Vf (Proc.devRef .tc main_arg16)))) (IDX (F := F))) := by
  simp only [s3_out Vf hfix, s_D3 Vf hfix, s_Y Vf hfix, s_Z Vf hfix] <;> rfl

end

/-- An argument's buffer holds after the line what it held before. -/
theorem arg_keep (W : Valuation τ sig (Elt F)) {r : Ref sig .tc} (hr : r ∈ argRefs) :
    after ops W (Proc.devRef .tc r) = W (Proc.devRef .tc r) :=
  after_keepsArgs ops_keeps hr W

theorem read_v24 (W : Valuation τ sig (Elt F)) :
    after ops W (Proc.devRef .tc main_v24) = Zst (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := f_v24 (after ops W) (fix_ops W)
  rw [arg_keep W (r := main_arg0) (by decide), arg_keep W (r := main_arg1) (by decide), arg_keep W (r := main_arg2) (by decide),
    arg_keep W (r := main_arg3) (by decide), arg_keep W (r := main_arg4) (by decide), arg_keep W (r := main_arg5) (by decide),
    arg_keep W (r := main_arg6) (by decide), arg_keep W (r := main_arg7) (by decide), arg_keep W (r := main_arg8) (by decide)] at h
  exact h

theorem read_v54 (W : Valuation τ sig (Elt F)) :
    after ops W (Proc.devRef .tc main_v54) = Yimg (Yst (Zst (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16))) := by
  have h := f_v54 (after ops W) (fix_ops W)
  rw [arg_keep W (r := main_arg0) (by decide), arg_keep W (r := main_arg1) (by decide), arg_keep W (r := main_arg2) (by decide),
    arg_keep W (r := main_arg3) (by decide), arg_keep W (r := main_arg4) (by decide), arg_keep W (r := main_arg5) (by decide),
    arg_keep W (r := main_arg6) (by decide), arg_keep W (r := main_arg7) (by decide), arg_keep W (r := main_arg8) (by decide),
    arg_keep W (r := main_arg9) (by decide), arg_keep W (r := main_arg10) (by decide), arg_keep W (r := main_arg11) (by decide),
    arg_keep W (r := main_arg12) (by decide), arg_keep W (r := main_arg13) (by decide), arg_keep W (r := main_arg14) (by decide),
    arg_keep W (r := main_arg15) (by decide), arg_keep W (r := main_arg16) (by decide)] at h
  exact h

theorem read_v103 (W : Valuation τ sig (Elt F)) :
    after ops W (Proc.devRef .tc main_v103) = PD (Host.gather gather_S4096x4096_S8386560x2_S8386560_n_01_n_n_01_1_11 (D2_784 (X2 (W (Proc.devRef .tc main_arg0)))) (IDX (F := F))) := by
  have h := f_v103 (after ops W) (fix_ops W)
  rw [arg_keep W (r := main_arg0) (by decide)] at h
  exact h

theorem read_v152 (W : Valuation τ sig (Elt F)) :
    after ops W (Proc.devRef .tc main_v152) = PD (Host.gather gather_S4096x4096_S8386560x2_S8386560_n_01_n_n_01_1_11 (D2_2 (Zst (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)))) (IDX (F := F))) := by
  have h := f_v152 (after ops W) (fix_ops W)
  rw [arg_keep W (r := main_arg0) (by decide), arg_keep W (r := main_arg1) (by decide), arg_keep W (r := main_arg2) (by decide),
    arg_keep W (r := main_arg3) (by decide), arg_keep W (r := main_arg4) (by decide), arg_keep W (r := main_arg5) (by decide),
    arg_keep W (r := main_arg6) (by decide), arg_keep W (r := main_arg7) (by decide), arg_keep W (r := main_arg8) (by decide)] at h
  exact h

theorem read_v201 (W : Valuation τ sig (Elt F)) :
    after ops W (Proc.devRef .tc main_v201) = PD (Host.gather gather_S4096x4096_S8386560x2_S8386560_n_01_n_n_01_1_11 (D2_784 (Yst (Zst (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8))) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)))) (IDX (F := F))) := by
  have h := f_v201 (after ops W) (fix_ops W)
  rw [arg_keep W (r := main_arg0) (by decide), arg_keep W (r := main_arg1) (by decide), arg_keep W (r := main_arg2) (by decide),
    arg_keep W (r := main_arg3) (by decide), arg_keep W (r := main_arg4) (by decide), arg_keep W (r := main_arg5) (by decide),
    arg_keep W (r := main_arg6) (by decide), arg_keep W (r := main_arg7) (by decide), arg_keep W (r := main_arg8) (by decide),
    arg_keep W (r := main_arg9) (by decide), arg_keep W (r := main_arg10) (by decide), arg_keep W (r := main_arg11) (by decide),
    arg_keep W (r := main_arg12) (by decide), arg_keep W (r := main_arg13) (by decide), arg_keep W (r := main_arg14) (by decide),
    arg_keep W (r := main_arg15) (by decide), arg_keep W (r := main_arg16) (by decide)] at h
  exact h

end Cert.ReferenceIdeal.Hand

end
-- ==== Proof.Alg.lean ====
/-
  The claims of this certificate, assembled.

  Both programs compute, from the images x and eight weight matrices and bias vectors: the code z = the encoder of x
  (three rectified dense layers, a hyperbolic tangent, a dense layer onto the plane), the reconstruction y = the
  decoder of z (three rectified dense layers, a dense layer, the logistic), y as images, z itself, and for each of
  x, z, y the distances √(max(‖aᵢ‖² + ‖aⱼ‖² − 2·aᵢ·aⱼ, 0)) of the pairs i < j in row-major order of the strict upper
  triangle. The kernel program computes z and y in row blocks of 512 and each 4096×4096 distance matrix in 1024×1024
  blocks, and takes the square root before gathering the pairs; the reference computes whole arrays and takes it after.
  At the extended reals every sum is the same sum in the same order, a change of float format is the identity, the
  logistic is 1 / (1 + exp (−t)) in both spellings, and a gather commutes with a function applied entry by entry;
  the index pairs are computed by the same integer operations in both programs and are never evaluated.
  Each program's frame is its run with the results dropped; the word-level program's frame is the same four call
  records read at the word-level instance.
-/
import proofs.«135652_j20272245637753_1_alg».proof.Defs
import proofs.«135652_j20272245637753_1_alg».proof.Proof.KI.Regs
import proofs.«135652_j20272245637753_1_alg».proof.Proof.KB.Regs
import proofs.«135652_j20272245637753_1_alg».proof.Proof.KI.Res
import proofs.«135652_j20272245637753_1_alg».proof.Proof.Ref.Read
import proofs.«135652_j20272245637753_1_alg».proof.Proof.Ref.Run
import proofs.«135652_j20272245637753_1_alg».proof.Proof.Ref.Stages
import proofs.«135652_j20272245637753_1_alg».proof.Proof.Gen.Kernel
import proofs.«135652_j20272245637753_1_alg».proof.Proof.Gen.KernelIdeal
import proofs.«135652_j20272245637753_1_alg».proof.Proof.Gen.ReferenceIdeal
import proofs.«135652_j20272245637753_1_alg».proof.Proof.Gen.Pre_finite_inputs

set_option maxRecDepth 16384

noncomputable section

namespace Cert.Proof

open Idealize.ShloMosaic Idealize.ShloMosaic.TcCoe Idealize.SL.Sem

/-! ## The five results, as functions of the argument arrays -/

/-- The code: the encoder of the images. -/
def vZ (m : (ℓ : Loc Cert.KernelIdeal.nD Cert.KernelIdeal.τ Cert.KernelIdeal.sig) → Buf (Elt Ideal) ℓ) (c : Dev Cert.KernelIdeal.nD) := Cert.ReferenceIdeal.Hand.Zst (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
/-- The reconstruction rows: the decoder of the code. -/
def vY (m : (ℓ : Loc Cert.KernelIdeal.nD Cert.KernelIdeal.τ Cert.KernelIdeal.sig) → Buf (Elt Ideal) ℓ) (c : Dev Cert.KernelIdeal.nD) := Cert.ReferenceIdeal.Hand.Yst (F := Ideal) (vZ m c) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
/-- The reconstruction as images. -/
def vImg (m : (ℓ : Loc Cert.KernelIdeal.nD Cert.KernelIdeal.τ Cert.KernelIdeal.sig) → Buf (Elt Ideal) ℓ) (c : Dev Cert.KernelIdeal.nD) := Cert.ReferenceIdeal.Hand.Yimg (F := Ideal) (vY m c)
/-- The distances of the strict-upper-triangle pairs of images. -/
def vIn (m : (ℓ : Loc Cert.KernelIdeal.nD Cert.KernelIdeal.τ Cert.KernelIdeal.sig) → Buf (Elt Ideal) ℓ) (c : Dev Cert.KernelIdeal.nD) := Cert.ReferenceIdeal.Hand.PD (F := Ideal) (Host.gather Cert.ReferenceIdeal.gather_S4096x4096_S8386560x2_S8386560_n_01_n_n_01_1_11 (Cert.ReferenceIdeal.Hand.D2_784 (F := Ideal) (Cert.ReferenceIdeal.Hand.X2 (F := Ideal) (m ((c.tc : Thread Cert.KernelIdeal.nD Cert.KernelIdeal.τ).loc Cert.KernelIdeal.main_arg0)))) (Cert.ReferenceIdeal.Hand.IDX (F := Ideal)))
/-- … of codes. -/
def vLat (m : (ℓ : Loc Cert.KernelIdeal.nD Cert.KernelIdeal.τ Cert.KernelIdeal.sig) → Buf (Elt Ideal) ℓ) (c : Dev Cert.KernelIdeal.nD) := Cert.ReferenceIdeal.Hand.PD (F := Ideal) (Host.gather Cert.ReferenceIdeal.gather_S4096x4096_S8386560x2_S8386560_n_01_n_n_01_1_11 (Cert.ReferenceIdeal.Hand.D2_2 (F := Ideal) (vZ m c)) (Cert.ReferenceIdeal.Hand.IDX (F := Ideal)))
/-- … of reconstructions. -/
def vOut (m : (ℓ : Loc Cert.KernelIdeal.nD Cert.KernelIdeal.τ Cert.KernelIdeal.sig) → Buf (Elt Ideal) ℓ) (c : Dev Cert.KernelIdeal.nD) := Cert.ReferenceIdeal.Hand.PD (F := Ideal) (Host.gather Cert.ReferenceIdeal.gather_S4096x4096_S8386560x2_S8386560_n_01_n_n_01_1_11 (Cert.ReferenceIdeal.Hand.D2_784 (F := Ideal) (vY m c)) (Cert.ReferenceIdeal.Hand.IDX (F := Ideal)))

/-- The two programs' gather records are one record. -/
theorem gather_rec_eq : Cert.KernelIdeal.gather_S4096x4096_S8386560x2_S8386560_n_01_n_n_01_1_11 = Cert.ReferenceIdeal.gather_S4096x4096_S8386560x2_S8386560_n_01_n_n_01_1_11 := rfl

section KernelRun
open Cert.KernelIdeal Cert.KernelIdeal.Hand
open Cert.KernelIdeal.Gen (V23 V23_main_arg0 V23_main_arg1 V23_main_arg2 V23_main_arg3 V23_main_arg4 V23_main_arg5 V23_main_arg6 V23_main_arg7 V23_main_arg8 V23_main_arg9 V23_main_arg10 V23_main_arg11 V23_main_arg12 V23_main_arg13 V23_main_arg14 V23_main_arg15 V23_main_arg16)

/-- The idealized kernel program's run: the five results at the functions above, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v10) = vImg m c
      ∧ r.2.mem ((c.tc : Thread Cert.KernelIdeal.nD Cert.KernelIdeal.τ).loc Cert.KernelIdeal.main_v47) = vIn m c
      ∧ r.2.mem ((c.tc : Thread Cert.KernelIdeal.nD Cert.KernelIdeal.τ).loc Cert.KernelIdeal.main_v61) = vLat m c
      ∧ r.2.mem ((c.tc : Thread Cert.KernelIdeal.nD Cert.KernelIdeal.τ).loc Cert.KernelIdeal.main_v75) = vOut m c
      ∧ r.2.mem ((c.tc : Thread Cert.KernelIdeal.nD Cert.KernelIdeal.τ).loc Cert.KernelIdeal.main_v9_0) = vZ m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run _ _ _).mono (fun r h c =>
    ⟨(h c _ (mem_uc main_v10 (by decide))).trans (res_img m c),
     (h c _ (mem_uc main_v47 (by decide))).trans ((res_in m c).trans (by unfold vIn; rw [gather_rec_eq])),
     (h c _ (mem_uc main_v61 (by decide))).trans ((res_lat m c).trans (by unfold vLat vZ; rw [gather_rec_eq])),
     (h c _ (mem_uc main_v75 (by decide))).trans ((res_out m c).trans (by unfold vOut vY vZ; rw [gather_rec_eq])),
     (h c _ (mem_uc main_v9_0 (by decide))).trans (res_z m c),
     (h c _ (mem_uc main_arg0 (by decide))).trans (V23_main_arg0 m (outs m) c),
     (h c _ (mem_uc main_arg1 (by decide))).trans (V23_main_arg1 m (outs m) c),
     (h c _ (mem_uc main_arg2 (by decide))).trans (V23_main_arg2 m (outs m) c),
     (h c _ (mem_uc main_arg3 (by decide))).trans (V23_main_arg3 m (outs m) c),
     (h c _ (mem_uc main_arg4 (by decide))).trans (V23_main_arg4 m (outs m) c),
     (h c _ (mem_uc main_arg5 (by decide))).trans (V23_main_arg5 m (outs m) c),
     (h c _ (mem_uc main_arg6 (by decide))).trans (V23_main_arg6 m (outs m) c),
     (h c _ (mem_uc main_arg7 (by decide))).trans (V23_main_arg7 m (outs m) c),
     (h c _ (mem_uc main_arg8 (by decide))).trans (V23_main_arg8 m (outs m) c),
     (h c _ (mem_uc main_arg9 (by decide))).trans (V23_main_arg9 m (outs m) c),
     (h c _ (mem_uc main_arg10 (by decide))).trans (V23_main_arg10 m (outs m) c),
     (h c _ (mem_uc main_arg11 (by decide))).trans (V23_main_arg11 m (outs m) c),
     (h c _ (mem_uc main_arg12 (by decide))).trans (V23_main_arg12 m (outs m) c),
     (h c _ (mem_uc main_arg13 (by decide))).trans (V23_main_arg13 m (outs m) c),
     (h c _ (mem_uc main_arg14 (by decide))).trans (V23_main_arg14 m (outs m) c),
     (h c _ (mem_uc main_arg15 (by decide))).trans (V23_main_arg15 m (outs m) c),
     (h c _ (mem_uc main_arg16 (by decide))).trans (V23_main_arg16 m (outs m) c)⟩)
    (run_all (F := Ideal) m ρ)
end KernelRun

/-! ## The claims -/

theorem frame_p : Cert.frame_Kernel (hKernel := Cert.Kernel.Gen.facts) (hPre_finite_inputs := Cert.Pre_finite_inputs.Gen.facts) :=
  fun m ρ _ => Cert.Kernel.Hand.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2) (Cert.ReferenceIdeal.Hand.run (F := Ideal) m ρ)

/-- Both idealized programs end with the five results at the same functions of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => vImg m c, fun c => vIn m c, fun c => vLat m c, fun c => vOut m c, fun c => vZ m c, kernel_run m ρ, ?_⟩
  refine (θ_run Cert.ReferenceIdeal.defs _ _).mono (fun r h c => ?_) (Cert.ReferenceIdeal.Hand.run (F := Ideal) m' ρ')
  obtain ⟨h54, h103, h152, h201, h24, hargs⟩ := h c
  obtain ⟨e0, e1, e2, e3, e4, e5, e6, e7, e8, e9, e10, e11, e12, e13, e14, e15, e16⟩ := hagree c
  refine ⟨h54.trans ?_, h103.trans ?_, h152.trans ?_, h201.trans ?_, h24.trans ?_, hargs⟩
  · rw [Cert.ReferenceIdeal.Hand.read_v54]; unfold vImg vY vZ
    show Cert.ReferenceIdeal.Hand.Yimg (Cert.ReferenceIdeal.Hand.Yst (Cert.ReferenceIdeal.Hand.Zst (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))) = _
    rw [e0, e1, e2, e3, e4, e5, e6, e7, e8, e9, e10, e11, e12, e13, e14, e15, e16]
  · rw [Cert.ReferenceIdeal.Hand.read_v103]; unfold vIn
    show Cert.ReferenceIdeal.Hand.PD (Host.gather Cert.ReferenceIdeal.gather_S4096x4096_S8386560x2_S8386560_n_01_n_n_01_1_11 (Cert.ReferenceIdeal.Hand.D2_784 (Cert.ReferenceIdeal.Hand.X2 (m' ((c.tc : Thread Cert.ReferenceIdeal.nD Cert.ReferenceIdeal.τ).loc Cert.ReferenceIdeal.main_arg0)))) Cert.ReferenceIdeal.Hand.IDX) = _
    rw [e0]
  · rw [Cert.ReferenceIdeal.Hand.read_v152]; unfold vLat vZ
    show Cert.ReferenceIdeal.Hand.PD (Host.gather Cert.ReferenceIdeal.gather_S4096x4096_S8386560x2_S8386560_n_01_n_n_01_1_11 (Cert.ReferenceIdeal.Hand.D2_2 (Cert.ReferenceIdeal.Hand.Zst (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) Cert.ReferenceIdeal.Hand.IDX) = _
    rw [e0, e1, e2, e3, e4, e5, e6, e7, e8]
  · rw [Cert.ReferenceIdeal.Hand.read_v201]; unfold vOut vY vZ
    show Cert.ReferenceIdeal.Hand.PD (Host.gather Cert.ReferenceIdeal.gather_S4096x4096_S8386560x2_S8386560_n_01_n_n_01_1_11 (Cert.ReferenceIdeal.Hand.D2_784 (Cert.ReferenceIdeal.Hand.Yst (Cert.ReferenceIdeal.Hand.Zst (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)))) Cert.ReferenceIdeal.Hand.IDX) = _
    rw [e0, e1, e2, e3, e4, e5, e6, e7, e8, e9, e10, e11, e12, e13, e14, e15, e16]
  · rw [Cert.ReferenceIdeal.Hand.read_v24]; unfold vZ
    show Cert.ReferenceIdeal.Hand.Zst (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [e0, e1, e2, e3, e4, e5, e6, e7, e8]

end Cert.Proof

end
-- ==== Proof.lean ====
/-
  The proof of `Cert.Claim`: the three frames, the (empty) idealization ledger and the equality of the two idealized
  programs' results, behind the witnesses of the programs' stated side conditions.

  The kernel program is an autoencoder evaluated in row blocks by one call, then three calls computing the pairwise
  distance matrices of the images, the codes and the reconstructions in square blocks, then the pairs of the strict
  upper triangle gathered on the host; the reference computes the same quantities on whole arrays. Proof/Alg.lean
  states the five results as functions of the arguments and joins the two runs; Proof/KI (the idealized program)
  and Proof/KB (the word-level program) hold the four calls as segments of @main's run, Proof/Ref the reference's
  run read operation by operation, Proof/Math the arithmetic of one row and of one matrix entry.
-/
import proofs.«135652_j20272245637753_1_alg».proof.Defs
import proofs.«135652_j20272245637753_1_alg».proof.Proof.Alg
import proofs.«135652_j20272245637753_1_alg».proof.Proof.Gen.Kernel
import proofs.«135652_j20272245637753_1_alg».proof.Proof.Gen.KernelIdeal
import proofs.«135652_j20272245637753_1_alg».proof.Proof.Gen.ReferenceIdeal
import proofs.«135652_j20272245637753_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
